-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2000000 : Shape := ⟨1, ![2000000]⟩
abbrev S119x3 : Shape := ⟨2, ![119, 3]⟩
abbrev S3x128 : Shape := ⟨2, ![3, 128]⟩
abbrev S128 : Shape := ⟨1, ![128]⟩
abbrev S_ : Shape := ⟨0, ![]⟩

class Facts : Prop where
  bcast_S_S119x3 : S_.BroadcastsInDim S119x3 (![] : Fin 0 → Fin S119x3.rank)
  reducesTo_S119x3_S_d0_1 : S119x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg0 : IVec S2000000 32) (main_v13 : IVec S_ 1) (main_v15 : IVec S2000000 1) (main_c_5 : IVec S_ 32) : IVec S_ 1 :=
  let main_v16 : IVec S2000000 32 := broadcastInDim S2000000 ![] bcast_S_S2000000 main_c_5
  let main_v17 : IVec S2000000 1 := cmpi .sle main_arg0 main_v16
  let main_v18 : IVec S2000000 1 := andi main_v15 main_v17
  let main_c_6 : IVec S_ 1 := constantI S_ 1 1#1
  let main_v19 : IVec S_ 1 := (fun x v => Host.reduce IntOp.andi x v reducesTo_S2000000_S_d0 h_S_) main_v18 main_c_6
  let main_v20 : IVec S_ 1 := andi main_v13 main_v19
  main_v20

def fn {F : FTy → Type} [FloatOps F] (main_arg0 : IVec S2000000 32) (main_arg1 : FVec F S119x3 .f32) (main_arg2 : FVec F S3x128 .f32) (main_arg3 : FVec F S128 .f32) : IVec S_ 1 :=
  let main_v0 : FVec F S119x3 .f32 := Host.absf main_arg1
  let main_cst : FVec F S_ .f32 := constant S_ .f32 0x7F800000#32
  let main_v1 : FVec F S119x3 .f32 := broadcastInDim S119x3 ![] bcast_S_S119x3 main_cst
  let main_v2 : IVec S119x3 1 := cmpf .olt main_v0 main_v1
  let main_c : IVec S_ 1 := constantI S_ 1 1#1
  let main_v3 : IVec S_ 1 := (fun x v => Host.reduce IntOp.andi x v reducesTo_S119x3_S_d0_1 h_S_) main_v2 main_c
  let main_v4 : FVec F S3x128 .f32 := Host.absf main_arg2
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2000000 32 := broadcastInDim S2000000 ![] bcast_S_S2000000 main_c_4
  let main_v15 : IVec S2000000 1 := cmpi .sge main_arg0 main_v14
  let main_c_5 : IVec S_ 32 := constantI S_ 32 118#32
  fn_part1 (F := F) main_arg0 main_v13 main_v15 main_c_5
-- ==== Kernel.lean ====
abbrev S2000000 : Shape := ⟨1, ![2000000]⟩
abbrev S119x3 : Shape := ⟨2, ![119, 3]⟩
abbrev S3x128 : Shape := ⟨2, ![3, 128]⟩
abbrev S128 : Shape := ⟨1, ![128]⟩
abbrev S1x128 : Shape := ⟨2, ![1, 128]⟩
abbrev S128x128 : Shape := ⟨2, ![128, 128]⟩
abbrev S119x128 : Shape := ⟨2, ![119, 128]⟩
abbrev S_ : Shape := ⟨0, ![]⟩
abbrev S2064384 : Shape := ⟨1, ![2064384]⟩
abbrev S2000000x128 : Shape := ⟨2, ![2000000, 128]⟩
abbrev S7168 : Shape := ⟨1, ![7168]⟩
abbrev S7x128x128 : Shape := ⟨3, ![7, 128, 128]⟩
abbrev S3584 : Shape := ⟨1, ![3584]⟩
abbrev S1x128x128 : Shape := ⟨3, ![1, 128, 128]⟩

abbrev nBuf : Table → Nat
  | .hbm => 10
  | .local .tc .vmem => 4
  | .shared => 1
  | .local .scVector .vmem => 2
  | _ => 0

abbrev bufTy : (tb : Table) → Fin (nBuf tb) → BufTy
  | .hbm, ⟨0, _⟩ => ⟨S2000000, .i32⟩
  | .hbm, ⟨1, _⟩ => ⟨S119x3, .f32⟩
  | .hbm, ⟨2, _⟩ => ⟨S3x128, .f32⟩
  | .hbm, ⟨3, _⟩ => ⟨S128, .f32⟩
  | .hbm, ⟨4, _⟩ => ⟨S1x128, .f32⟩
  | .hbm, ⟨5, _⟩ => ⟨S128x128, .f32⟩
  | .hbm, ⟨6, _⟩ => ⟨S_, .i32⟩
  | .hbm, ⟨7, _⟩ => ⟨S_, .i32⟩
  | .hbm, ⟨8, _⟩ => ⟨S2064384, .i32⟩
  | .hbm, ⟨9, _⟩ => ⟨S2000000x128, .f32⟩
  | .local .tc .vmem, ⟨0, _⟩ => ⟨S119x3, .f32⟩
  | .local .tc .vmem, ⟨1, _⟩ => ⟨S3x128, .f32⟩
  | .local .tc .vmem, ⟨2, _⟩ => ⟨S1x128, .f32⟩
  | .local .tc .vmem, ⟨3, _⟩ => ⟨S128x128, .f32⟩
  | .shared, ⟨0, _⟩ => ⟨S128x128, .f32⟩
  | .local .scVector .vmem, ⟨0, _⟩ => ⟨S7168, .i32⟩
  | .local .scVector .vmem, ⟨1, _⟩ => ⟨S7x128x128, .f32⟩
  | _, _ => ⟨S2000000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 20 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 5 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v1_scv : Ref sig .scVector := ⟨.hbm, 5, rfl⟩
abbrev main_v2_scv : Ref sig .scVector := ⟨.hbm, 8, rfl⟩
abbrev main_v3_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch2 : Ref sig .scVector := ⟨.shared, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S119x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c128_i32 : BitVec 32 := 128#32
  let v6 : BitVec 32 := Scalar.muli v2 c128_i32
  ![v6.toNat]
@[reducible] def k1_t1_loop : Scf.Loop 32 :=
  let c0_i32_4 : BitVec 32 := 0#32
  let c72_i32 : BitVec 32 := 72#32
  let v11 : BitVec 32 := Scalar.addi c0_i32_4 c72_i32
  let c1_i32 : BitVec 32 := 1#32
  ⟨c0_i32_4, v11, c1_i32⟩
def k1_cond2 (k1_t1 : Fin k1_t1_loop.trips) : BitVec 1 :=
  let c0_i32_4 : BitVec 32 := 0#32
  let c1_i32 : BitVec 32 := 1#32
  let arg23 : BitVec 32 := Scf.iv c0_i32_4 c1_i32 k1_t1
  let c4_i32_33 : BitVec 32 := 4#32
  let v55 : BitVec 32 := Scalar.remsi arg23 c4_i32_33
  let c0_i32_34 : BitVec 32 := 0#32
  let v56 : BitVec 1 := Scalar.cmpi .eq v55 c0_i32_34
  let v57 : BitVec 32 := Scalar.extui v56
  let c0_i32_35 : BitVec 32 := 0#32
  let v58 : BitVec 1 := Scalar.cmpi .ne v57 c0_i32_35
  v58

def k1_cond3 (k1_t1 : Fin k1_t1_loop.trips) : BitVec 1 :=
  let c0_i32_4 : BitVec 32 := 0#32
  let c1_i32 : BitVec 32 := 1#32
  let arg23 : BitVec 32 := Scf.iv c0_i32_4 c1_i32 k1_t1
  let c4_i32_119 : BitVec 32 := 4#32
  let v203 : BitVec 32 := Scalar.addi arg23 c4_i32_119
  let c72_i32_120 : BitVec 32 := 72#32
  let v204 : BitVec 1 := Scalar.cmpi .slt v203 c72_i32_120
  let v205 : BitVec 32 := Scalar.extui v204
  let c0_i32_121 : BitVec 32 := 0#32
  let v206 : BitVec 1 := Scalar.cmpi .ne v205 c0_i32_121
  v206

def k1_mult1 (k1_t1 : Fin k1_t1_loop.trips) : BitVec 32 :=
  let c1_i32_123 : BitVec 32 := 1#32
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_122 : BitVec 32 := 2#32
  let v207 : BitVec 32 := Scalar.remsi v49 c2_i32_122
  let v208 : BitVec 32 := Scalar.subi c1_i32_123 v207
  let c3584_i32_124 : BitVec 32 := 3584#32
  let v209 : BitVec 32 := Scalar.muli v208 c3584_i32_124
  v209
def k1_off2 (k1_t1 : Fin k1_t1_loop.trips) : Fin 1 → Nat :=
  let c1_i32_123 : BitVec 32 := 1#32
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_122 : BitVec 32 := 2#32
  let v207 : BitVec 32 := Scalar.remsi v49 c2_i32_122
  let v208 : BitVec 32 := Scalar.subi c1_i32_123 v207
  let c3584_i32_124 : BitVec 32 := 3584#32
  let v209 : BitVec 32 := Scalar.muli v208 c3584_i32_124
  let v210 : BitVec 32 := v209
  ![v210.toNat]
def k1_off3 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c28_i32 : BitVec 32 := 28#32
  let v211 : BitVec 32 := Scalar.addi v48 c28_i32
  let c128_i32_125 : BitVec 32 := 128#32
  let v212 : BitVec 32 := Scalar.muli v211 c128_i32_125
  ![v212.toNat]
def k1_mult2 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v60 : BitVec 32 := Scalar.addi v51 v54
  let c0_i32_37 : BitVec 32 := 0#32
  let v61 : BitVec 32 := Scalar.addi v60 c0_i32_37
  v61
def k1_cond5 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c0_i32_36 : BitVec 32 := 0#32
  let v59 : BitVec 32 := Scalar.addi v48 c0_i32_36
  let c15625_i32_42 : BitVec 32 := 15625#32
  let v69 : BitVec 1 := Scalar.cmpi .slt v59 c15625_i32_42
  let v70 : BitVec 32 := Scalar.extui v69
  let c0_i32_43 : BitVec 32 := 0#32
  let v71 : BitVec 1 := Scalar.cmpi .ne v70 c0_i32_43
  v71

def k1_off4 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v60 : BitVec 32 := Scalar.addi v51 v54
  let c0_i32_37 : BitVec 32 := 0#32
  let v61 : BitVec 32 := Scalar.addi v60 c0_i32_37
  let v62 : BitVec 32 := v61
  ![v62.toNat]
def k1_mult3 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v73 : BitVec 32 := Scalar.addi v51 v54
  let c128_i32_45 : BitVec 32 := 128#32
  let v74 : BitVec 32 := Scalar.addi v73 c128_i32_45
  v74
def k1_cond7 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c1_i32_44 : BitVec 32 := 1#32
  let v72 : BitVec 32 := Scalar.addi v48 c1_i32_44
  let c15625_i32_50 : BitVec 32 := 15625#32
  let v82 : BitVec 1 := Scalar.cmpi .slt v72 c15625_i32_50
  let v83 : BitVec 32 := Scalar.extui v82
  let c0_i32_51 : BitVec 32 := 0#32
  let v84 : BitVec 1 := Scalar.cmpi .ne v83 c0_i32_51
  v84

def k1_off5 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v73 : BitVec 32 := Scalar.addi v51 v54
  let c128_i32_45 : BitVec 32 := 128#32
  let v74 : BitVec 32 := Scalar.addi v73 c128_i32_45
  let v75 : BitVec 32 := v74
  ![v75.toNat]
def k1_mult4 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v86 : BitVec 32 := Scalar.addi v51 v54
  let c256_i32 : BitVec 32 := 256#32
  let v87 : BitVec 32 := Scalar.addi v86 c256_i32
  v87
def k1_cond9 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c2_i32_52 : BitVec 32 := 2#32
  let v85 : BitVec 32 := Scalar.addi v48 c2_i32_52
  let c15625_i32_57 : BitVec 32 := 15625#32
  let v95 : BitVec 1 := Scalar.cmpi .slt v85 c15625_i32_57
  let v96 : BitVec 32 := Scalar.extui v95
  let c0_i32_58 : BitVec 32 := 0#32
  let v97 : BitVec 1 := Scalar.cmpi .ne v96 c0_i32_58
  v97

def k1_off6 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v86 : BitVec 32 := Scalar.addi v51 v54
  let c256_i32 : BitVec 32 := 256#32
  let v87 : BitVec 32 := Scalar.addi v86 c256_i32
  let v88 : BitVec 32 := v87
  ![v88.toNat]
def k1_mult5 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v99 : BitVec 32 := Scalar.addi v51 v54
  let c384_i32 : BitVec 32 := 384#32
  let v100 : BitVec 32 := Scalar.addi v99 c384_i32
  v100
def k1_cond11 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c3_i32_59 : BitVec 32 := 3#32
  let v98 : BitVec 32 := Scalar.addi v48 c3_i32_59
  let c15625_i32_64 : BitVec 32 := 15625#32
  let v108 : BitVec 1 := Scalar.cmpi .slt v98 c15625_i32_64
  let v109 : BitVec 32 := Scalar.extui v108
  let c0_i32_65 : BitVec 32 := 0#32
  let v110 : BitVec 1 := Scalar.cmpi .ne v109 c0_i32_65
  v110

def k1_off7 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v99 : BitVec 32 := Scalar.addi v51 v54
  let c384_i32 : BitVec 32 := 384#32
  let v100 : BitVec 32 := Scalar.addi v99 c384_i32
  let v101 : BitVec 32 := v100
  ![v101.toNat]
def k1_mult6 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v112 : BitVec 32 := Scalar.addi v51 v54
  let c512_i32 : BitVec 32 := 512#32
  let v113 : BitVec 32 := Scalar.addi v112 c512_i32
  v113
def k1_cond13 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c4_i32_66 : BitVec 32 := 4#32
  let v111 : BitVec 32 := Scalar.addi v48 c4_i32_66
  let c15625_i32_71 : BitVec 32 := 15625#32
  let v121 : BitVec 1 := Scalar.cmpi .slt v111 c15625_i32_71
  let v122 : BitVec 32 := Scalar.extui v121
  let c0_i32_72 : BitVec 32 := 0#32
  let v123 : BitVec 1 := Scalar.cmpi .ne v122 c0_i32_72
  v123

def k1_off8 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v112 : BitVec 32 := Scalar.addi v51 v54
  let c512_i32 : BitVec 32 := 512#32
  let v113 : BitVec 32 := Scalar.addi v112 c512_i32
  let v114 : BitVec 32 := v113
  ![v114.toNat]
def k1_mult7 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v125 : BitVec 32 := Scalar.addi v51 v54
  let c640_i32 : BitVec 32 := 640#32
  let v126 : BitVec 32 := Scalar.addi v125 c640_i32
  v126
def k1_cond15 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c5_i32_73 : BitVec 32 := 5#32
  let v124 : BitVec 32 := Scalar.addi v48 c5_i32_73
  let c15625_i32_78 : BitVec 32 := 15625#32
  let v134 : BitVec 1 := Scalar.cmpi .slt v124 c15625_i32_78
  let v135 : BitVec 32 := Scalar.extui v134
  let c0_i32_79 : BitVec 32 := 0#32
  let v136 : BitVec 1 := Scalar.cmpi .ne v135 c0_i32_79
  v136

def k1_off9 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v125 : BitVec 32 := Scalar.addi v51 v54
  let c640_i32 : BitVec 32 := 640#32
  let v126 : BitVec 32 := Scalar.addi v125 c640_i32
  let v127 : BitVec 32 := v126
  ![v127.toNat]
def k1_mult8 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v138 : BitVec 32 := Scalar.addi v51 v54
  let c768_i32 : BitVec 32 := 768#32
  let v139 : BitVec 32 := Scalar.addi v138 c768_i32
  v139
def k1_cond17 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c6_i32_80 : BitVec 32 := 6#32
  let v137 : BitVec 32 := Scalar.addi v48 c6_i32_80
  let c15625_i32_85 : BitVec 32 := 15625#32
  let v147 : BitVec 1 := Scalar.cmpi .slt v137 c15625_i32_85
  let v148 : BitVec 32 := Scalar.extui v147
  let c0_i32_86 : BitVec 32 := 0#32
  let v149 : BitVec 1 := Scalar.cmpi .ne v148 c0_i32_86
  v149

def k1_off10 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v138 : BitVec 32 := Scalar.addi v51 v54
  let c768_i32 : BitVec 32 := 768#32
  let v139 : BitVec 32 := Scalar.addi v138 c768_i32
  let v140 : BitVec 32 := v139
  ![v140.toNat]
def k1_mult9 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v151 : BitVec 32 := Scalar.addi v51 v54
  let c0_i32_88 : BitVec 32 := 0#32
  let v152 : BitVec 32 := Scalar.addi v151 c0_i32_88
  v152
def k1_cond18 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c0_i32_87 : BitVec 32 := 0#32
  let v150 : BitVec 32 := Scalar.addi v48 c0_i32_87
  let c15625_i32_89 : BitVec 32 := 15625#32
  let v154 : BitVec 1 := Scalar.cmpi .slt v150 c15625_i32_89
  let v155 : BitVec 32 := Scalar.extui v154
  let c0_i32_90 : BitVec 32 := 0#32
  let v156 : BitVec 1 := Scalar.cmpi .ne v155 c0_i32_90
  v156

def k1_off11 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v151 : BitVec 32 := Scalar.addi v51 v54
  let c0_i32_88 : BitVec 32 := 0#32
  let v152 : BitVec 32 := Scalar.addi v151 c0_i32_88
  let v153 : BitVec 32 := v152
  ![v153.toNat]
def k1_off12 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c0_i32_87 : BitVec 32 := 0#32
  let v150 : BitVec 32 := Scalar.addi v48 c0_i32_87
  let c128_i32_120 : BitVec 32 := 128#32
  let v203 : BitVec 32 := Scalar.muli v150 c128_i32_120
  let c0_i32_124 : BitVec 32 := 0#32
  ![v203.toNat, 0]
def k1_mult10 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v158 : BitVec 32 := Scalar.addi v51 v54
  let c128_i32_92 : BitVec 32 := 128#32
  let v159 : BitVec 32 := Scalar.addi v158 c128_i32_92
  v159
def k1_cond19 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c1_i32_91 : BitVec 32 := 1#32
  let v157 : BitVec 32 := Scalar.addi v48 c1_i32_91
  let c15625_i32_93 : BitVec 32 := 15625#32
  let v161 : BitVec 1 := Scalar.cmpi .slt v157 c15625_i32_93
  let v162 : BitVec 32 := Scalar.extui v161
  let c0_i32_94 : BitVec 32 := 0#32
  let v163 : BitVec 1 := Scalar.cmpi .ne v162 c0_i32_94
  v163

def k1_off13 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v158 : BitVec 32 := Scalar.addi v51 v54
  let c128_i32_92 : BitVec 32 := 128#32
  let v159 : BitVec 32 := Scalar.addi v158 c128_i32_92
  let v160 : BitVec 32 := v159
  ![v160.toNat]
def k1_off14 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c1_i32_91 : BitVec 32 := 1#32
  let v157 : BitVec 32 := Scalar.addi v48 c1_i32_91
  let c128_i32_120 : BitVec 32 := 128#32
  let v203 : BitVec 32 := Scalar.muli v157 c128_i32_120
  let c0_i32_124 : BitVec 32 := 0#32
  ![v203.toNat, 0]
def k1_mult11 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v165 : BitVec 32 := Scalar.addi v51 v54
  let c256_i32_96 : BitVec 32 := 256#32
  let v166 : BitVec 32 := Scalar.addi v165 c256_i32_96
  v166
def k1_cond20 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c2_i32_95 : BitVec 32 := 2#32
  let v164 : BitVec 32 := Scalar.addi v48 c2_i32_95
  let c15625_i32_97 : BitVec 32 := 15625#32
  let v168 : BitVec 1 := Scalar.cmpi .slt v164 c15625_i32_97
  let v169 : BitVec 32 := Scalar.extui v168
  let c0_i32_98 : BitVec 32 := 0#32
  let v170 : BitVec 1 := Scalar.cmpi .ne v169 c0_i32_98
  v170

def k1_off15 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v165 : BitVec 32 := Scalar.addi v51 v54
  let c256_i32_96 : BitVec 32 := 256#32
  let v166 : BitVec 32 := Scalar.addi v165 c256_i32_96
  let v167 : BitVec 32 := v166
  ![v167.toNat]
def k1_off16 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c2_i32_95 : BitVec 32 := 2#32
  let v164 : BitVec 32 := Scalar.addi v48 c2_i32_95
  let c128_i32_120 : BitVec 32 := 128#32
  let v203 : BitVec 32 := Scalar.muli v164 c128_i32_120
  let c0_i32_124 : BitVec 32 := 0#32
  ![v203.toNat, 0]
def k1_mult12 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v172 : BitVec 32 := Scalar.addi v51 v54
  let c384_i32_100 : BitVec 32 := 384#32
  let v173 : BitVec 32 := Scalar.addi v172 c384_i32_100
  v173
def k1_cond21 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c3_i32_99 : BitVec 32 := 3#32
  let v171 : BitVec 32 := Scalar.addi v48 c3_i32_99
  let c15625_i32_101 : BitVec 32 := 15625#32
  let v175 : BitVec 1 := Scalar.cmpi .slt v171 c15625_i32_101
  let v176 : BitVec 32 := Scalar.extui v175
  let c0_i32_102 : BitVec 32 := 0#32
  let v177 : BitVec 1 := Scalar.cmpi .ne v176 c0_i32_102
  v177

def k1_off17 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v172 : BitVec 32 := Scalar.addi v51 v54
  let c384_i32_100 : BitVec 32 := 384#32
  let v173 : BitVec 32 := Scalar.addi v172 c384_i32_100
  let v174 : BitVec 32 := v173
  ![v174.toNat]
def k1_off18 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c3_i32_99 : BitVec 32 := 3#32
  let v171 : BitVec 32 := Scalar.addi v48 c3_i32_99
  let c128_i32_120 : BitVec 32 := 128#32
  let v203 : BitVec 32 := Scalar.muli v171 c128_i32_120
  let c0_i32_124 : BitVec 32 := 0#32
  ![v203.toNat, 0]
def k1_mult13 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v179 : BitVec 32 := Scalar.addi v51 v54
  let c512_i32_104 : BitVec 32 := 512#32
  let v180 : BitVec 32 := Scalar.addi v179 c512_i32_104
  v180
def k1_cond22 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c4_i32_103 : BitVec 32 := 4#32
  let v178 : BitVec 32 := Scalar.addi v48 c4_i32_103
  let c15625_i32_105 : BitVec 32 := 15625#32
  let v182 : BitVec 1 := Scalar.cmpi .slt v178 c15625_i32_105
  let v183 : BitVec 32 := Scalar.extui v182
  let c0_i32_106 : BitVec 32 := 0#32
  let v184 : BitVec 1 := Scalar.cmpi .ne v183 c0_i32_106
  v184

def k1_off19 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v179 : BitVec 32 := Scalar.addi v51 v54
  let c512_i32_104 : BitVec 32 := 512#32
  let v180 : BitVec 32 := Scalar.addi v179 c512_i32_104
  let v181 : BitVec 32 := v180
  ![v181.toNat]
def k1_off20 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c4_i32_103 : BitVec 32 := 4#32
  let v178 : BitVec 32 := Scalar.addi v48 c4_i32_103
  let c128_i32_120 : BitVec 32 := 128#32
  let v203 : BitVec 32 := Scalar.muli v178 c128_i32_120
  let c0_i32_124 : BitVec 32 := 0#32
  ![v203.toNat, 0]
def k1_mult14 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v186 : BitVec 32 := Scalar.addi v51 v54
  let c640_i32_108 : BitVec 32 := 640#32
  let v187 : BitVec 32 := Scalar.addi v186 c640_i32_108
  v187
def k1_cond23 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c5_i32_107 : BitVec 32 := 5#32
  let v185 : BitVec 32 := Scalar.addi v48 c5_i32_107
  let c15625_i32_109 : BitVec 32 := 15625#32
  let v189 : BitVec 1 := Scalar.cmpi .slt v185 c15625_i32_109
  let v190 : BitVec 32 := Scalar.extui v189
  let c0_i32_110 : BitVec 32 := 0#32
  let v191 : BitVec 1 := Scalar.cmpi .ne v190 c0_i32_110
  v191

def k1_off21 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v186 : BitVec 32 := Scalar.addi v51 v54
  let c640_i32_108 : BitVec 32 := 640#32
  let v187 : BitVec 32 := Scalar.addi v186 c640_i32_108
  let v188 : BitVec 32 := v187
  ![v188.toNat]
def k1_off22 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c5_i32_107 : BitVec 32 := 5#32
  let v185 : BitVec 32 := Scalar.addi v48 c5_i32_107
  let c128_i32_120 : BitVec 32 := 128#32
  let v203 : BitVec 32 := Scalar.muli v185 c128_i32_120
  let c0_i32_124 : BitVec 32 := 0#32
  ![v203.toNat, 0]
def k1_mult15 (k1_t1 : Fin k1_t1_loop.trips) : BitVec 32 :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v193 : BitVec 32 := Scalar.addi v51 v54
  let c768_i32_112 : BitVec 32 := 768#32
  let v194 : BitVec 32 := Scalar.addi v193 c768_i32_112
  v194
def k1_cond24 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c6_i32_111 : BitVec 32 := 6#32
  let v192 : BitVec 32 := Scalar.addi v48 c6_i32_111
  let c15625_i32_113 : BitVec 32 := 15625#32
  let v196 : BitVec 1 := Scalar.cmpi .slt v192 c15625_i32_113
  let v197 : BitVec 32 := Scalar.extui v196
  let c0_i32_114 : BitVec 32 := 0#32
  let v198 : BitVec 1 := Scalar.cmpi .ne v197 c0_i32_114
  v198

def k1_off23 (k1_t1 : Fin k1_t1_loop.trips) : Fin 1 → Nat :=
  let c0_i32_4 : BitVec 32 := 0#32
  let c1_i32 : BitVec 32 := 1#32
  let arg23 : BitVec 32 := Scf.iv c0_i32_4 c1_i32 k1_t1
  let c4_i32_28 : BitVec 32 := 4#32
  let v49 : BitVec 32 := Scalar.divsi arg23 c4_i32_28
  let c2_i32_29 : BitVec 32 := 2#32
  let v50 : BitVec 32 := Scalar.remsi v49 c2_i32_29
  let c3584_i32 : BitVec 32 := 3584#32
  let v51 : BitVec 32 := Scalar.muli v50 c3584_i32
  let c4_i32_30 : BitVec 32 := 4#32
  let v52 : BitVec 32 := Scalar.remsi arg23 c4_i32_30
  let c7_i32_31 : BitVec 32 := 7#32
  let v53 : BitVec 32 := Scalar.muli v52 c7_i32_31
  let c128_i32_32 : BitVec 32 := 128#32
  let v54 : BitVec 32 := Scalar.muli v53 c128_i32_32
  let v193 : BitVec 32 := Scalar.addi v51 v54
  let c768_i32_112 : BitVec 32 := 768#32
  let v194 : BitVec 32 := Scalar.addi v193 c768_i32_112
  let v195 : BitVec 32 := v194
  ![v195.toNat]
def k1_off24 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c504_i32 : BitVec 32 := 504#32
  let v2 : BitVec 32 := Scalar.muli v1 c504_i32
  let c0_i32_4 : BitVec 32 := 0#32
  let c1_i32 : BitVec 32 := 1#32
  let arg23 : BitVec 32 := Scf.iv c0_i32_4 c1_i32 k1_t1
  let c7_i32 : BitVec 32 := 7#32
  let v47 : BitVec 32 := Scalar.muli arg23 c7_i32
  let v48 : BitVec 32 := Scalar.addi v2 v47
  let c6_i32_111 : BitVec 32 := 6#32
  let v192 : BitVec 32 := Scalar.addi v48 c6_i32_111
  let c128_i32_120 : BitVec 32 := 128#32
  let v203 : BitVec 32 := Scalar.muli v192 c128_i32_120
  let c0_i32_124 : BitVec 32 := 0#32
  ![v203.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  inb_S119x3_S119x3_0_0 : ∀ a, (![0, 0] : Fin 2 → Nat) a + S119x3.size a ≤ S119x3.size a
  h_S119x3 : 0 < S119x3.numel
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S119x128 : S1x128.Broadcasts S119x128
  inb_S128x128_S119x128_0_0 : ∀ a, (![0, 0] : Fin 2 → Nat) a + S119x128.size a ≤ S128x128.size a
  h_S119x128 : 0 < S119x128.numel
  pads_S2000000_S2064384_0643840 : S2000000.Pads (![0] : Fin 1 → Nat) ![64384] ![0] S2064384
  h_S_ : 0 < S_.numel
  inb_S7168_S3584_0 : ∀ a, (![0] : Fin 1 → Nat) a + S3584.size a ≤ S7168.size a
  inb_S2064384_S3584_0 : ∀ a, (![0] : Fin 1 → Nat) a + S3584.size a ≤ S2064384.size a
  inb_S7x128x128_S1x128x128_0_0_0 : ∀ a, (![0, 0, 0] : Fin 3 → Nat) a + S1x128x128.size a ≤ S7x128x128.size a
  squeezes_S1x128x128_S128x128 : S1x128x128.Squeezes S128x128
  inb_S2000000x128_S128x128_0_0 : ∀ a, (![0, 0] : Fin 2 → Nat) a + S128x128.size a ≤ S2000000x128.size a
  inb_S128x128_S128x128_0_0 : ∀ a, (![0, 0] : Fin 2 → Nat) a + S128x128.size a ≤ S128x128.size a
  gathers_S128x128_S128x128 : S128x128.Gathers 0 S128x128
  inb_S7x128x128_S1x128x128_1_0_0 : ∀ a, (![1, 0, 0] : Fin 3 → Nat) a + S1x128x128.size a ≤ S7x128x128.size a
  inb_S7x128x128_S1x128x128_2_0_0 : ∀ a, (![2, 0, 0] : Fin 3 → Nat) a + S1x128x128.size a ≤ S7x128x128.size a
  inb_S7x128x128_S1x128x128_3_0_0 : ∀ a, (![3, 0, 0] : Fin 3 → Nat) a + S1x128x128.size a ≤ S7x128x128.size a
  inb_S7x128x128_S1x128x128_4_0_0 : ∀ a, (![4, 0, 0] : Fin 3 → Nat) a + S1x128x128.size a ≤ S7x128x128.size a
  inb_S7x128x128_S1x128x128_5_0_0 : ∀ a, (![5, 0, 0] : Fin 3 → Nat) a + S1x128x128.size a ≤ S7x128x128.size a
  inb_S7x128x128_S1x128x128_6_0_0 : ∀ a, (![6, 0, 0] : Fin 3 → Nat) a + S1x128x128.size a ≤ S7x128x128.size a
  dot_S119x3_S3x128_S119x128_1_0_0_1_n_n_wf : DotDims.WF S119x3 S3x128 S119x128 [1] [0] [0] [1] [] []
  hcc1_scratch3 : 4 + S_.numel ≤ 20
  hcc1_scratch4 : 5 + S_.numel ≤ 20
  hcc1_scratch5 : 6 + S_.numel ≤ 20
  hcc1_scratch6 : 7 + S_.numel ≤ 20
  hcc1_scratch7 : 8 + S_.numel ≤ 20
  hcc1_scratch8 : 9 + S_.numel ≤ 20
  hcc1_scratch9 : 10 + S_.numel ≤ 20
  hcc1_scratch10 : 11 + S_.numel ≤ 20
  hcc1_scratch11 : 12 + S_.numel ≤ 20
  hcc1_scratch12 : 13 + S_.numel ≤ 20
  hcc1_scratch13 : 14 + S_.numel ≤ 20
  hcc1_scratch14 : 15 + S_.numel ≤ 20
  hcc1_scratch15 : 16 + S_.numel ≤ 20
  hcc1_scratch16 : 17 + S_.numel ≤ 20
  hcc1_scratch17 : 18 + S_.numel ≤ 20
  hcc1_scoped0 : 19 + S_.numel ≤ 20
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hcore1 : grid1.bound 0 ≤ τ.nSC
  hsub1 : grid1.bound 1 ≤ τ.nSub
  k1_off1_inb : ∀ i : grid1.Coords, ∀ a, (k1_off1 i) a + S3584.size a ≤ S2064384.size a
  k1_t1_ok : k1_t1_loop.OK
  k1_mult1_dvd : ∀ k1_t1 : Fin k1_t1_loop.trips, ∀ (k1_h2 : k1_cond2 k1_t1 = 1#1), ∀ (k1_h3 : k1_cond3 k1_t1 = 1#1), 128 ∣ (k1_mult1 k1_t1).toNat
  k1_off2_inb : ∀ k1_t1 : Fin k1_t1_loop.trips, ∀ (k1_h2 : k1_cond2 k1_t1 = 1#1), ∀ (k1_h3 : k1_cond3 k1_t1 = 1#1), ∀ a, (k1_off2 k1_t1) a + S3584.size a ≤ S7168.size a
  k1_off3_inb : ∀ (i : grid1.Coords) (k1_t1 : Fin k1_t1_loop.trips), ∀ (k1_h2 : k1_cond2 k1_t1 = 1#1), ∀ (k1_h3 : k1_cond3 k1_t1 = 1#1), ∀ a, (k1_off3 i k1_t1) a + S3584.size a ≤ S2064384.size a
  k1_mult2_dvd : ∀ k1_t1 : Fin k1_t1_loop.trips, 128 ∣ (k1_mult2 k1_t1).toNat
  k1_off4_inb : ∀ (i : grid1.Coords) (k1_t1 : Fin k1_t1_loop.trips), ∀ (k1_h5 : k1_cond5 i k1_t1 = 1#1), ∀ a, (k1_off4 k1_t1) a + S128.size a ≤ S7168.size a
  k1_mult3_dvd : ∀ k1_t1 : Fin k1_t1_loop.trips, 128 ∣ (k1_mult3 k1_t1).toNat
  k1_off5_inb : ∀ (i : grid1.Coords) (k1_t1 : Fin k1_t1_loop.trips), ∀ (k1_h7 : k1_cond7 i k1_t1 = 1#1), ∀ a, (k1_off5 k1_t1) a + S128.size a ≤ S7168.size a
  k1_mult4_dvd : ∀ k1_t1 : Fin k1_t1_loop.trips, 128 ∣ (k1_mult4 k1_t1).toNat
  k1_off6_inb : ∀ (i : grid1.Coords) (k1_t1 : Fin k1_t1_loop.trips), ∀ (k1_h9 : k1_cond9 i k1_t1 = 1#1), ∀ a, (k1_off6 k1_t1) a + S128.size a ≤ S7168.size a
  k1_mult5_dvd : ∀ k1_t1 : Fin k1_t1_loop.trips, 128 ∣ (k1_mult5 k1_t1).toNat
  k1_off7_inb : ∀ (i : grid1.Coords) (k1_t1 : Fin k1_t1_loop.trips), ∀ (k1_h11 : k1_cond11 i k1_t1 = 1#1), ∀ a, (k1_off7 k1_t1) a + S128.size a ≤ S7168.size a
  k1_mult6_dvd : ∀ k1_t1 : Fin k1_t1_loop.trips, 128 ∣ (k1_mult6 k1_t1).toNat
  k1_off8_inb : ∀ (i : grid1.Coords) (k1_t1 : Fin k1_t1_loop.trips), ∀ (k1_h13 : k1_cond13 i k1_t1 = 1#1), ∀ a, (k1_off8 k1_t1) a + S128.size a ≤ S7168.size a
  k1_mult7_dvd : ∀ k1_t1 : Fin k1_t1_loop.trips, 128 ∣ (k1_mult7 k1_t1).toNat
  k1_off9_inb : ∀ (i : grid1.Coords) (k1_t1 : Fin k1_t1_loop.trips), ∀ (k1_h15 : k1_cond15 i k1_t1 = 1#1), ∀ a, (k1_off9 k1_t1) a + S128.size a ≤ S7168.size a
  k1_mult8_dvd : ∀ k1_t1 : Fin k1_t1_loop.trips, 128 ∣ (k1_mult8 k1_t1).toNat
  k1_off10_inb : ∀ (i : grid1.Coords) (k1_t1 : Fin k1_t1_loop.trips), ∀ (k1_h17 : k1_cond17 i k1_t1 = 1#1), ∀ a, (k1_off10 k1_t1) a + S128.size a ≤ S7168.size a
  k1_mult9_dvd : ∀ k1_t1 : Fin k1_t1_loop.trips, 128 ∣ (k1_mult9 k1_t1).toNat
  k1_off11_inb : ∀ (i : grid1.Coords) (k1_t1 : Fin k1_t1_loop.trips), ∀ (k1_h18 : k1_cond18 i k1_t1 = 1#1), ∀ a, (k1_off11 k1_t1) a + S128.size a ≤ S7168.size a
  k1_off12_inb : ∀ (i : grid1.Coords) (k1_t1 : Fin k1_t1_loop.trips), ∀ (k1_h18 : k1_cond18 i k1_t1 = 1#1), ∀ a, (k1_off12 i k1_t1) a + S128x128.size a ≤ S2000000x128.size a
  k1_mult10_dvd : ∀ k1_t1 : Fin k1_t1_loop.trips, 128 ∣ (k1_mult10 k1_t1).toNat
  k1_off13_inb : ∀ (i : grid1.Coords) (k1_t1 : Fin k1_t1_loop.trips), ∀ (k1_h19 : k1_cond19 i k1_t1 = 1#1), ∀ a, (k1_off13 k1_t1) a + S128.size a ≤ S7168.size a
  k1_off14_inb : ∀ (i : grid1.Coords) (k1_t1 : Fin k1_t1_loop.trips), ∀ (k1_h19 : k1_cond19 i k1_t1 = 1#1), ∀ a, (k1_off14 i k1_t1) a + S128x128.size a ≤ S2000000x128.size a
  k1_mult11_dvd : ∀ k1_t1 : Fin k1_t1_loop.trips, 128 ∣ (k1_mult11 k1_t1).toNat
  k1_off15_inb : ∀ (i : grid1.Coords) (k1_t1 : Fin k1_t1_loop.trips), ∀ (k1_h20 : k1_cond20 i k1_t1 = 1#1), ∀ a, (k1_off15 k1_t1) a + S128.size a ≤ S7168.size a
  k1_off16_inb : ∀ (i : grid1.Coords) (k1_t1 : Fin k1_t1_loop.trips), ∀ (k1_h20 : k1_cond20 i k1_t1 = 1#1), ∀ a, (k1_off16 i k1_t1) a + S128x128.size a ≤ S2000000x128.size a
  k1_mult12_dvd : ∀ k1_t1 : Fin k1_t1_loop.trips, 128 ∣ (k1_mult12 k1_t1).toNat
  k1_off17_inb : ∀ (i : grid1.Coords) (k1_t1 : Fin k1_t1_loop.trips), ∀ (k1_h21 : k1_cond21 i k1_t1 = 1#1), ∀ a, (k1_off17 k1_t1) a + S128.size a ≤ S7168.size a
  k1_off18_inb : ∀ (i : grid1.Coords) (k1_t1 : Fin k1_t1_loop.trips), ∀ (k1_h21 : k1_cond21 i k1_t1 = 1#1), ∀ a, (k1_off18 i k1_t1) a + S128x128.size a ≤ S2000000x128.size a
  k1_mult13_dvd : ∀ k1_t1 : Fin k1_t1_loop.trips, 128 ∣ (k1_mult13 k1_t1).toNat
  k1_off19_inb : ∀ (i : grid1.Coords) (k1_t1 : Fin k1_t1_loop.trips), ∀ (k1_h22 : k1_cond22 i k1_t1 = 1#1), ∀ a, (k1_off19 k1_t1) a + S128.size a ≤ S7168.size a
  k1_off20_inb : ∀ (i : grid1.Coords) (k1_t1 : Fin k1_t1_loop.trips), ∀ (k1_h22 : k1_cond22 i k1_t1 = 1#1), ∀ a, (k1_off20 i k1_t1) a + S128x128.size a ≤ S2000000x128.size a
  k1_mult14_dvd : ∀ k1_t1 : Fin k1_t1_loop.trips, 128 ∣ (k1_mult14 k1_t1).toNat
  k1_off21_inb : ∀ (i : grid1.Coords) (k1_t1 : Fin k1_t1_loop.trips), ∀ (k1_h23 : k1_cond23 i k1_t1 = 1#1), ∀ a, (k1_off21 k1_t1) a + S128.size a ≤ S7168.size a
  k1_off22_inb : ∀ (i : grid1.Coords) (k1_t1 : Fin k1_t1_loop.trips), ∀ (k1_h23 : k1_cond23 i k1_t1 = 1#1), ∀ a, (k1_off22 i k1_t1) a + S128x128.size a ≤ S2000000x128.size a
  k1_mult15_dvd : ∀ k1_t1 : Fin k1_t1_loop.trips, 128 ∣ (k1_mult15 k1_t1).toNat
  k1_off23_inb : ∀ (i : grid1.Coords) (k1_t1 : Fin k1_t1_loop.trips), ∀ (k1_h24 : k1_cond24 i k1_t1 = 1#1), ∀ a, (k1_off23 k1_t1) a + S128.size a ≤ S7168.size a
  k1_off24_inb : ∀ (i : grid1.Coords) (k1_t1 : Fin k1_t1_loop.trips), ∀ (k1_h24 : k1_cond24 i k1_t1 = 1#1), ∀ a, (k1_off24 i k1_t1) a + S128x128.size a ≤ S2000000x128.size a

variable [Facts₀]

abbrev cc1_scratch3 : DmaSems sig S_ := SemArray.consecutive 4 S_ hcc1_scratch3
abbrev cc1_scratch4 : DmaSems sig S_ := SemArray.consecutive 5 S_ hcc1_scratch4
abbrev cc1_scratch5 : DmaSems sig S_ := SemArray.consecutive 6 S_ hcc1_scratch5
abbrev cc1_scratch6 : DmaSems sig S_ := SemArray.consecutive 7 S_ hcc1_scratch6
abbrev cc1_scratch7 : DmaSems sig S_ := SemArray.consecutive 8 S_ hcc1_scratch7
abbrev cc1_scratch8 : DmaSems sig S_ := SemArray.consecutive 9 S_ hcc1_scratch8
abbrev cc1_scratch9 : DmaSems sig S_ := SemArray.consecutive 10 S_ hcc1_scratch9
abbrev cc1_scratch10 : DmaSems sig S_ := SemArray.consecutive 11 S_ hcc1_scratch10
abbrev cc1_scratch11 : DmaSems sig S_ := SemArray.consecutive 12 S_ hcc1_scratch11
abbrev cc1_scratch12 : DmaSems sig S_ := SemArray.consecutive 13 S_ hcc1_scratch12
abbrev cc1_scratch13 : DmaSems sig S_ := SemArray.consecutive 14 S_ hcc1_scratch13
abbrev cc1_scratch14 : DmaSems sig S_ := SemArray.consecutive 15 S_ hcc1_scratch14
abbrev cc1_scratch15 : DmaSems sig S_ := SemArray.consecutive 16 S_ hcc1_scratch15
abbrev cc1_scratch16 : DmaSems sig S_ := SemArray.consecutive 17 S_ hcc1_scratch16
abbrev cc1_scratch17 : DmaSems sig S_ := SemArray.consecutive 18 S_ hcc1_scratch17
abbrev cc1_scoped0 : DmaSems sig S_ := SemArray.consecutive 19 S_ hcc1_scoped0
def dot_S119x3_S3x128_S119x128_1_0_0_1_n_n : DotDims S119x3 S3x128 S119x128 where
  lhsContracting := [1]
  rhsContracting := [0]
  lhsNonContracting := [0]
  rhsNonContracting := [1]
  lhsBatch := []
  rhsBatch := []
  wf := dot_S119x3_S3x128_S119x128_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000 : Shape := ⟨1, ![2000000]⟩
abbrev S119x3 : Shape := ⟨2, ![119, 3]⟩
abbrev S3x128 : Shape := ⟨2, ![3, 128]⟩
abbrev S128 : Shape := ⟨1, ![128]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x3 : Shape := ⟨2, ![2000000, 3]⟩
abbrev S2000000x128 : Shape := ⟨2, ![2000000, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S2000000, .i32⟩
  | .hbm, ⟨1, _⟩ => ⟨S119x3, .f32⟩
  | .hbm, ⟨2, _⟩ => ⟨S3x128, .f32⟩
  | .hbm, ⟨3, _⟩ => ⟨S128, .f32⟩
  | .hbm, ⟨4, _⟩ => ⟨S_, .i32⟩
  | .hbm, ⟨5, _⟩ => ⟨S2000000, .i32⟩
  | .hbm, ⟨6, _⟩ => ⟨S2000000, .i1⟩
  | .hbm, ⟨7, _⟩ => ⟨S_, .i32⟩
  | .hbm, ⟨8, _⟩ => ⟨S2000000, .i32⟩
  | .hbm, ⟨9, _⟩ => ⟨S2000000, .i32⟩
  | .hbm, ⟨10, _⟩ => ⟨S2000000, .i32⟩
  | .hbm, ⟨11, _⟩ => ⟨S2000000x1, .i32⟩
  | .hbm, ⟨12, _⟩ => ⟨S1, .i32⟩
  | .hbm, ⟨13, _⟩ => ⟨S_, .i32⟩
  | .hbm, ⟨14, _⟩ => ⟨S2000000x1, .i32⟩
  | .hbm, ⟨15, _⟩ => ⟨S2000000x1, .i1⟩
  | .hbm, ⟨16, _⟩ => ⟨S1x1, .i32⟩
  | .hbm, ⟨17, _⟩ => ⟨S2000000x1, .i32⟩
  | .hbm, ⟨18, _⟩ => ⟨S2000000x1, .i1⟩
  | .hbm, ⟨19, _⟩ => ⟨S2000000x1, .i1⟩
  | .hbm, ⟨20, _⟩ => ⟨S_, .i1⟩
  | .hbm, ⟨21, _⟩ => ⟨S2000000, .i1⟩
  | .hbm, ⟨22, _⟩ => ⟨S2000000x3, .f32⟩
  | .hbm, ⟨23, _⟩ => ⟨S2000000x3, .i1⟩
  | .hbm, ⟨24, _⟩ => ⟨S_, .f32⟩
  | .hbm, ⟨25, _⟩ => ⟨S2000000x3, .f32⟩
  | .hbm, ⟨26, _⟩ => ⟨S2000000x3, .f32⟩
  | .hbm, ⟨27, _⟩ => ⟨S2000000x128, .f32⟩
  | .hbm, ⟨28, _⟩ => ⟨S1x128, .f32⟩
  | .hbm, ⟨29, _⟩ => ⟨S2000000x128, .f32⟩
  | .hbm, ⟨30, _⟩ => ⟨S2000000x128, .f32⟩
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x3_0 : S2000000.BroadcastsInDim S2000000x3 (![0] : Fin 1 → Fin S2000000x3.rank)
  bcast_S_S2000000x3 : S_.BroadcastsInDim S2000000x3 (![] : Fin 0 → Fin S2000000x3.rank)
  bcast_S128_S1x128_1 : S128.BroadcastsInDim S1x128 (![1] : Fin 1 → Fin S1x128.rank)
  bcast_S1x128_S2000000x128_0_1 : S1x128.BroadcastsInDim S2000000x128 (![0, 1] : Fin 2 → Fin S2000000x128.rank)
  gather_S119x3_S2000000x1_S2000000x3_1_0_n_n_0_1_13_wf : GatherDims.WF S119x3 S2000000x1 S2000000x3 [1] [0] [] [0] [] 1 ![1, 3]
  dot_S2000000x3_S3x128_S2000000x128_1_0_0_1_n_n_wf : DotDims.WF S2000000x3 S3x128 S2000000x128 [1] [0] [0] [1] [] []

variable [Facts₀]

def gather_S119x3_S2000000x1_S2000000x3_1_0_n_n_0_1_13 : GatherDims S119x3 S2000000x1 S2000000x3 where
  offsetDims := [1]
  collapsedSliceDims := [0]
  operandBatchingDims := []
  startIndicesBatchingDims := []
  startIndexMap := [0]
  indexVectorDim := 1
  sliceSizes := ![1, 3]
  wf := gather_S119x3_S2000000x1_S2000000x3_1_0_n_n_0_1_13_wf
def dot_S2000000x3_S3x128_S2000000x128_1_0_0_1_n_n : DotDims S2000000x3 S3x128 S2000000x128 where
  lhsContracting := [1]
  rhsContracting := [0]
  lhsNonContracting := [0]
  rhsNonContracting := [1]
  lhsBatch := []
  rhsBatch := []
  wf := dot_S2000000x3_S3x128_S2000000x128_1_0_0_1_n_n_wf

class Facts : Prop extends Facts₀ where

variable [Facts]
-- ==== Proof.Spec.lean ====
/-
  The function both programs compute, stated once over literal shapes and importing no program.
  A lookup `src` of 2,000,000 indices into a table of 119 rows with 3 features, followed by a dense layer
  to 128 columns: entry (r, c) of the result is the layer applied to the row `src r` names,
  `Σ_k fm[src r, k] · W[k, c] + b[c]`. Because the layer acts row by row, projecting the whole table first
  and then looking rows up (what the kernel does) and looking rows up first and projecting them afterwards
  (what the reference does) give this same entry; no finiteness of the floats is needed, only that every
  index names a row of the table.
-/
import Idealize.ShloMosaic.PureOps.Ideal
import Idealize.ShloMosaic.Lib.ValueIdx

noncomputable section

namespace Cert.Proof.Spec

open Idealize.ShloMosaic Idealize.ShloMosaic.ValueIdx

abbrev SN : Shape := ⟨1, ![2000000]⟩
abbrev SFm : Shape := ⟨2, ![119, 3]⟩
abbrev SW : Shape := ⟨2, ![3, 128]⟩
abbrev SB : Shape := ⟨1, ![128]⟩
abbrev SOut : Shape := ⟨2, ![2000000, 128]⟩

/-- Every index names a row of the 119-row table. Stated of the word's unsigned value: a signed word in
    `[0, 118]` is its own unsigned value. -/
def InRange (src : IVec SN 32) : Prop := ∀ r : Fin 2000000, (src (ix1 r)).toNat ≤ 118

/-- Entry `(a, c)` of the projected table: the dense layer applied to row `a` of the features. -/
def tableAt (fm : FVec Ideal SFm .f32) (W : FVec Ideal SW .f32) (b : FVec Ideal SB .f32) (a : Fin 119) (c : Fin 128) : EReal :=
  (∑ k : Fin 3, fm (ix2 a k) * W (ix2 k c)) + b (ix1 c)

/-- The table row an index word names; clamped into the table so that the function is total (under `InRange`
    the clamp does nothing: `rowOf_val`). -/
def rowOf (v : BitVec 32) : Fin 119 := ⟨min v.toNat 118, by omega⟩

theorem rowOf_val {v : BitVec 32} (h : v.toNat ≤ 118) : (rowOf v).val = v.toNat := by
  show min v.toNat 118 = v.toNat
  omega

/-- The result both programs compute, as one function of the four argument arrays. -/
def G (src : IVec SN 32) (fm : FVec Ideal SFm .f32) (W : FVec Ideal SW .f32) (b : FVec Ideal SB .f32) : FVec Ideal SOut .f32 :=
  fun j => tableAt fm W b (rowOf (src (ix1 (j 0)))) (j 1)

theorem G_apply (src : IVec SN 32) (fm : FVec Ideal SFm .f32) (W : FVec Ideal SW .f32) (b : FVec Ideal SB .f32)
    (r : Fin 2000000) (c : Fin 128) :
    G src fm W b (ix2 r c) = tableAt fm W b (rowOf (src (ix1 r))) c := rfl

end Cert.Proof.Spec

end
-- ==== Proof.Common.lean ====
/-
  The program as the launch theorem of a SparseCore program reads it, and the resource algebra of the proof:
  the launch handshakes' rounds, the subcore barrier cells' rounds, the TensorCore pipeline's cells' rounds
  (the projection of the table is a TensorCore kernel region of @main), and the local transfers' counters.
  The names of the argument, intermediate and result arrays as locations of a device.
-/
import proofs.«203041_g70987219468541_cont_9to1_m_1244_31_alg».proof.Defs
import proofs.«203041_g70987219468541_cont_9to1_m_1244_31_alg».proof.Proof.Spec
import proofs.«203041_g70987219468541_cont_9to1_m_1244_31_alg».proof.Proof.Gen.KernelIdeal
import proofs.«203041_g70987219468541_cont_9to1_m_1244_31_alg».proof.Proof.Gen.KernelIdeal.Skeleton
import proofs.«203041_g70987219468541_cont_9to1_m_1244_31_alg».proof.Proof.Gen.KernelIdeal.Launch
import proofs.«203041_g70987219468541_cont_9to1_m_1244_31_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- the launch handshakes' rounds -/
abbrev UH : Type := URounds (GSem nD τ sig) ℕ
/-- the subcore barrier cells' rounds: a duty is named by the number of the tile that pays it -/
abbrev UB : Type := URounds (GSem nD τ sig) ℕ
/-- the TensorCore pipeline's staging cells' rounds -/
abbrev UP : Type := URounds (GSem nD τ sig) Unit
/-- all of them, the local transfers' counters last (found there by instance) -/
abbrev UU : Type := UH × (UB × (UP × Counters))

local notation "𝕄" => MT nD τ sig (HIx 1) (Elt F) ℕ UU ℕ

abbrev EH : Emb UH (MT nD τ sig (HIx 1) (Elt F) ℕ UU ℕ) := embL
/-- everything but the handshakes: the right factor -/
abbrev ER1 : Emb (UB × (UP × Counters)) (MT nD τ sig (HIx 1) (Elt F) ℕ UU ℕ) := embR
def EB : Emb UB (MT nD τ sig (HIx 1) (Elt F) ℕ UU ℕ) := (Emb.inl : Emb UB (UB × (UP × Counters))).trans ER1
instance EB_landsIn : (EB : Emb UB 𝕄).LandsIn (upEmb : UEmb _ 𝕄) := by unfold EB ER1 embR; infer_instance
abbrev ER2 : Emb (UP × Counters) (MT nD τ sig (HIx 1) (Elt F) ℕ UU ℕ) := (Emb.inr : Emb (UP × Counters) (UB × (UP × Counters))).trans ER1
def EP : Emb UP (MT nD τ sig (HIx 1) (Elt F) ℕ UU ℕ) := (Emb.inl : Emb UP (UP × Counters)).trans ER2
instance EP_landsIn : (EP : Emb UP 𝕄).LandsIn (upEmb : UEmb _ 𝕄) := by unfold EP ER2 ER1 embR; infer_instance

/-- The launch element splits into its three rounds components (the counters' component is the unit). -/
theorem ownU_split (a : UH) (b : UB) (p : UP) :
    (ownU ((a, (b, (p, 1))) : UU) : sProp 𝕄) ⊢ iprop(BI.own (EH a) ∗ BI.own (EB b) ∗ BI.own (EP p)) := by
  iintro Hu
  ihave H := (ownU_pair _ _) $$ Hu
  icases H with ⟨HH, HR⟩
  ihave H1 := (own_pair_emb (ER1 (F := F)) b (p, 1)) $$ HR
  icases H1 with ⟨HB, HR2⟩
  ihave H2 := (own_pair_emb (ER2 (F := F)) p 1) $$ HR2
  icases H2 with ⟨HP, -⟩
  isplitl [HH]; · iexact HH
  isplitl [HB]; · iexact HB
  iexact HP

/-! ## The arrays, as locations of a device -/

variable (m : (ℓ : Loc nD τ sig) → Buf (Elt F) ℓ) (ρ : Dev nD → PrngReg)

abbrev srcLoc (d : Dev nD) : Loc nD τ sig := (SparseCore.T d).loc main_arg0
abbrev fmLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
/-- the bias as a row [1, 128] -/
abbrev brLoc (d : Dev nD) : Loc nD τ sig := (SparseCore.T d).loc main_v0
/-- the projected table [128, 128] in HBM (rows 119..127 never written) -/
abbrev tblLoc (d : Dev nD) : Loc nD τ sig := (SparseCore.T d).loc main_v1
/-- the indices padded with zeros to 32 x 504 chunks of 128 -/
abbrev idxLoc (d : Dev nD) : Loc nD τ sig := (SparseCore.T d).loc main_v2
/-- the result [2000000, 128] -/
abbrev outLoc (d : Dev nD) : Loc nD τ sig := (SparseCore.T d).loc main_v3

end Cert.Proof.KI

end
-- ==== Proof.Pay.lean ====
/-
  What the launch handshakes of the one SparseCore call carry, and the values they are stated over.

  The values. The TensorCore region leaves in HBM a table of 128 rows of which rows 0..118 are the dense layer
  applied to the 119 feature rows (`projAt`; rows 119..127 are never written and hold whatever the staging buffer
  held: `TableOK` says nothing of them). The index array is the 2,000,000 indices followed by zeros (`idxOf`).
  The result is, row by row, the table's row the index names (`outG`, stated through the clamped `Spec.rowOf` so that
  it is a total function of the launch memory; under the precondition the clamp does nothing).

  The resources. The result array is cut into 15625 chunks of 128 rows; tile (c, i) is worker 2 i + c and owns the
  chunks 504 w .. 504 w + 503 that exist. The call hands SparseCore c a read share of the table and of the index array and
  its tiles' chunks; the sequencer's split hands tile 0 the table's share (it copies the table into the SparseCore's
  shared memory) and that shared memory whole, every tile a read share of the indices and its chunks. At the subcore
  barrier tile 0's arrival at tile j's cell carries a read share of the shared table, at contents that are
  `TableOK`; the other arrivals carry nothing. Each tile hands back its chunks at `outG`.
-/
import proofs.«203041_g70987219468541_cont_9to1_m_1244_31_alg».proof.Proof.Common

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The values -/

section Values
variable [FloatOps F]

/-- the bias [128] as a row [1, 128] -/
abbrev brOf (x : Vec F S128 .f32) : Vec F S1x128 .f32 := shapeCast S1x128 x shapeCasts_S128_S1x128

/-- Entry (a, col) of the projected table: the region's body applied to the three argument arrays. -/
def projAt (d : Dev nD) (a : Fin 119) (col : Fin 128) : Elt F .f32 :=
  k0_pay1 (F := F) (m (fmLoc d)) (m (wLoc d)) (brOf (m (bLoc d))) (ix2 a col)

/-- A 128-row table whose first 119 rows are the projected feature rows. -/
def TableOK (d : Dev nD) (tbl : Vec F S128x128 .f32) : Prop :=
  ∀ (a : Fin 119) (col : Fin 128), tbl (ix2 (a.castLE (by decide)) col) = projAt m d a col

/-- The indices followed by 64384 zeros. -/
def idxOf (src : IVec S2000000 32) : IVec S2064384 32 :=
  pad S2064384 ![0] ![64384] ![0] src (constantI S_ 32 0#32) pads_S2000000_S2064384_0643840 h_S_

/-- The result: row r is the table's row the r-th index names. -/
def outG (d : Dev nD) : Buf (Elt F) (outLoc d) :=
  fun j => projAt m d (Cert.Proof.Spec.rowOf (m (srcLoc d) (ix1 (j 0)))) (j 1)

end Values

/-- What the proof asks of the launch memory: every index names a row of the feature table. -/
def PreOK : Prop := ∀ d : Dev nD, Cert.Proof.Spec.InRange (m (srcLoc d))

/-! ## Chunks of the result -/

abbrev outV : Memref sig .scVector .hbm S2000000x128 .f32 := Memref.whole main_v3_scv

theorem chunk_inb (g : Fin 15625) : ∀ a, (![128 * g.val, 0] : Fin 2 → Nat) a + S128x128.size a ≤ S2000000x128.size a := by
  have := g.isLt
  intro a; fin_cases a <;> simp <;> omega

/-- rows 128 g .. 128 g + 127, all columns -/
abbrev chunkRect (g : Fin 15625) : Rect S2000000x128 := Rect.unit (s := S2000000x128) ![128 * g.val, 0] S128x128.size (chunk_inb g)
abbrev chunkSet (g : Fin 15625) : Finset S2000000x128.Idx := ((outV).view.slice (chunkRect g)).set

/-- the worker number of tile (c, i) -/
def widOf (c : Fin τ.nSC) (i : Fin τ.nSub) : ℕ := 2 * i.val + c.val
/-- the chunks of tile (c, i) -/
def tileChunks (c : Fin τ.nSC) (i : Fin τ.nSub) : Finset (Fin 15625) := Finset.univ.filter fun g => g.val / 504 = widOf c i
/-- the chunks of SparseCore c's tiles -/
def scChunks (c : Fin τ.nSC) : Finset (Fin 15625) := Finset.univ.filter fun g => (g.val / 504) % 2 = c.val

/-! ## Shares -/

/-- SparseCore c's read share of an array both SparseCores read -/
abbrev scShare (c : Fin τ.nSC) : PosShare TreeShare := shareTok fullShare τ.nSC c
/-- tile (c, i)'s read share of it -/
abbrev tileShare (c : Fin τ.nSC) (i : Fin τ.nSub) : PosShare TreeShare := shareTok (scShare c) τ.nSub i
/-- tile i's read share of its SparseCore's shared table -/
abbrev shShare (i : Fin τ.nSub) : PosShare TreeShare := shareTok fullShare τ.nSub i

/-- the SparseCore's shared table, as tile (c, i) addresses it -/
abbrev shLoc (d : Dev nD) (c : Fin τ.nSC) (i : Fin τ.nSub) : Loc nD τ sig := (V d c i).loc cc1_scratch2

/-! ## The barrier cells -/

abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

section Sched
variable [FloatOps F]

/-- What tile number `n`'s arrival at a tile's barrier cell hands that tile: tile 0's, a read share of the shared
    table at contents whose first 119 rows are the projected rows; the others', nothing. -/
def bPay (g : GSem nD τ sig) (n : ℕ) : sProp 𝕄 :=
  match g with
  | ((d, .scVector c j), _) =>
      if n = 0 then iprop(∃ f : Buf (Elt F) (shLoc d c j), ⌜TableOK m d f⌝ ∗ shLoc d c j ↦{shShare j} f) else iprop(emp)
  | _ => iprop(emp)

/-- The barrier cells' schedule: one round on each, one unit duty per tile of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl
theorem bRd_payload_zero (d : Dev nD) (c : Fin τ.nSC) (j : Fin τ.nSub) :
    (bRd (F := F) m).payload (bcell d c j) 0 0 = iprop(∃ f : Buf (Elt F) (shLoc d c j), ⌜TableOK m d f⌝ ∗ shLoc d c j ↦{shShare j} f) := by
  show bPay m (bcell d c j) 0 = _; unfold bPay; exact if_pos rfl
theorem bRd_payload_succ (d : Dev nD) (c : Fin τ.nSC) (j : Fin τ.nSub) (n : ℕ) :
    (bRd (F := F) m).payload (bcell d c j) 0 (n + 1) = iprop(emp) := by
  show bPay m (bcell d c j) (n + 1) = _; unfold bPay; exact if_neg (Nat.succ_ne_zero n)

end Sched

/-- What the launch has a tile owe for the barrier: a unit on every tile's cell of its SparseCore, at the call's index. -/
def oxV (d : Dev nD) (c : Fin τ.nSC) : CellTallies nD τ sig (HIx 1) := ∑ j : Fin (grid1.bound 1), tallyAt (bcell d c (j.castLE hsub1)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

section PayDef
variable [FloatOps F]

/-- Tile (c, i)'s barrier kit: every cell invariant of its SparseCore's tiles, its duty token in every tile's round 0 and
    that each has reached round 0, its own position at the origin of round 0, and the credit for its own round's units.
    (What its arrivals hand over it brings itself: tile 0 the table's shares, the others nothing.) -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => iprop(dutyTok EB (bcell d c (j.castLE hsub1)) 0 i.val
        ∗ reached EB (bcell d c (j.castLE hsub1)) 0))
    ∗ atPos EB (bcell d c i) 0 ∅ 0
    ∗ cred (tallyAt (bcell d c i) (some 0) (grid1.bound 1)))

/-! ## What the handshakes carry -/

abbrev outChunk (d : Dev nD) (g : Fin 15625) (f : Buf (Elt F) (outLoc d)) : sProp 𝕄 := outLoc d ↦[chunkSet g]{fullShare} f

/-- the table's read share with contents known to hold the projected rows -/
abbrev tblIn (d : Dev nD) (c : Fin τ.nSC) : sProp 𝕄 := iprop(∃ tbl : Buf (Elt F) (tblLoc d), ⌜TableOK m d tbl⌝ ∗ tblLoc d ↦{scShare c} tbl)
abbrev tblBack (d : Dev nD) (c : Fin τ.nSC) : sProp 𝕄 := iprop(∃ tbl : Buf (Elt F) (tblLoc d), tblLoc d ↦{scShare c} tbl)

def stC (d : Dev nD) (c : Fin τ.nSC) : sProp 𝕄 :=
  iprop(tblIn m d c ∗ (idxLoc d ↦{scShare c} idxOf (m (srcLoc d))) ∗ bigSep (scChunks c) fun g => outChunk d g (m (outLoc d)))
def dnC (d : Dev nD) (c : Fin τ.nSC) : sProp 𝕄 :=
  iprop(tblBack d c ∗ (idxLoc d ↦{scShare c} idxOf (m (srcLoc d))) ∗ bigSep (scChunks c) fun g => outChunk d g (outG m d))
def goC (d : Dev nD) (c : Fin τ.nSC) (i : Fin τ.nSub) : sProp 𝕄 :=
  iprop((if i.val = 0 then iprop(tblIn m d c ∗ ∃ f : Buf (Elt F) (shLoc d c i), shLoc d c i ↦{fullShare} f) else iprop(emp))
    ∗ (idxLoc d ↦{tileShare c i} idxOf (m (srcLoc d))) ∗ bigSep (tileChunks c i) fun g => outChunk d g (m (outLoc d)))
def tdC (d : Dev nD) (c : Fin τ.nSC) (i : Fin τ.nSub) : sProp 𝕄 :=
  iprop((if i.val = 0 then iprop(tblBack d c ∗ ∃ f : Buf (Elt F) (shLoc d c i), shLoc d c i ↦{shareDrop fullShare τ.nSub} f) else iprop(emp))
    ∗ (∃ f : Buf (Elt F) (shLoc d c i), shLoc d c i ↦{shShare i} f)
    ∗ (idxLoc d ↦{tileShare c i} idxOf (m (srcLoc d))) ∗ bigSep (tileChunks c i) fun g => outChunk d g (outG m d))

instance stC_storable (d : Dev nD) (c : Fin τ.nSC) : BI.Storable (upEmb : UEmb _ 𝕄) (stC m d c) := by unfold stC; infer_instance
instance dnC_storable (d : Dev nD) (c : Fin τ.nSC) : BI.Storable (upEmb : UEmb _ 𝕄) (dnC m d c) := by unfold dnC; infer_instance
instance goC_storable (d : Dev nD) (c : Fin τ.nSC) (i : Fin τ.nSub) : BI.Storable (upEmb : UEmb _ 𝕄) (goC m d c i) := by
  unfold goC; split <;> infer_instance
instance tdC_storable (d : Dev nD) (c : Fin τ.nSC) (i : Fin τ.nSub) : BI.Storable (upEmb : UEmb _ 𝕄) (tdC m d c i) := by
  unfold tdC; split <;> infer_instance

def P : (K (F := F)).Pay (nD := nD) (Val := Elt F) (Name := ℕ) (U := UU) where
  st := fun q d c => stC m d ((K (F := F)).core q c)
  dn := fun q d c => dnC m d ((K (F := F)).core q c)
  go := fun q d c i => goC m d ((K (F := F)).core q c) ((K (F := F)).sub q i)
  td := fun q d c i => tdC m d ((K (F := F)).core q c) ((K (F := F)).sub q i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st _ d c := by unfold P; infer_instance
  dn _ d c := by unfold P; infer_instance
  go _ d c i := by unfold P; infer_instance
  td _ d c i := by unfold P; infer_instance

/-- What @main leaves the claim: the four arguments at their launch contents, the result at `outG`. -/
def FIN (d : Dev nD) : sProp 𝕄 :=
  iprop((srcLoc d ↦{fullShare} m (srcLoc d)) ∗ (fmLoc d ↦{fullShare} m (fmLoc d)) ∗ (wLoc d ↦{fullShare} m (wLoc d))
    ∗ (bLoc d ↦{fullShare} m (bLoc d)) ∗ outLoc d ↦{fullShare} outG m d)

end PayDef

end Cert.Proof.KI

end
-- ==== Proof.Chunks.lean ====
/-
  The result array cut into its 15625 chunks of 128 rows: the chunks are the 15625 equal parts of axis 0
  (15625 * 128 = 2000000), so they are pairwise disjoint and cover the array. The chunks are dealt in two levels:
  chunk g goes to worker g / 504; worker w is tile w / 2 of SparseCore w % 2. Both levels are partitions of the
  chunk numbers, by arithmetic (15625 ≤ 32 * 504).
-/
import proofs.«203041_g70987219468541_cont_9to1_m_1244_31_alg».proof.Proof.Pay

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The chunks are the equal parts of axis 0 -/

theorem hdivC : 15625 ∣ S2000000x128.size 0 := ⟨128, rfl⟩

/-- chunk g is the g-th of the 15625 parts of the rows -/
theorem chunkRect_eq_part (g : Fin 15625) : chunkRect g = Rect.part (s := S2000000x128) (a₀ := 0) hdivC g := by
  unfold chunkRect Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

theorem chunkSet_eq (g : Fin 15625) : chunkSet g = (Rect.part (s := S2000000x128) (a₀ := 0) hdivC g).set := by
  show ((View.whole (main_v3_scv : Ref sig .scVector)).slice (chunkRect g)).set = _
  rw [View.set_slice, chunkRect_eq_part]; exact Finset.map_refl

theorem chunkSet_disjoint : ∀ g ∈ (Finset.univ : Finset (Fin 15625)), ∀ g' ∈ (Finset.univ : Finset (Fin 15625)), g ≠ g' → Disjoint (chunkSet g) (chunkSet g') :=
  fun g _ g' _ h => by rw [chunkSet_eq, chunkSet_eq]; exact Rect.part_disjoint hdivC h

theorem chunkSet_cover : (Finset.univ : Finset (Fin 15625)).biUnion chunkSet = Finset.univ :=
  (Finset.biUnion_congr rfl fun g _ => chunkSet_eq g).trans (Rect.biUnion_part hdivC)

/-- The whole result is its chunks. -/
theorem out_chunks (d : Dev nD) (f : Buf (Elt F) (outLoc d)) :
    (outLoc d ↦{fullShare} f : sProp 𝕄) = bigSep Finset.univ fun g : Fin 15625 => outChunk d g f := by
  rw [← pointsTo_biUnion Finset.univ (ℓ := outLoc d) chunkSet chunkSet_disjoint, chunkSet_cover]; try rfl

/-! ## The two levels of the deal -/

theorem nSC_eq : τ.nSC = 2 := rfl
theorem nSub_eq : τ.nSub = 16 := rfl

theorem scChunks_disjoint : ∀ c ∈ (Finset.univ : Finset (Fin τ.nSC)), ∀ c' ∈ (Finset.univ : Finset (Fin τ.nSC)), c ≠ c' → Disjoint (scChunks c) (scChunks c') := by
  intro c _ c' _ h
  unfold scChunks
  rw [Finset.disjoint_filter]
  intro g _ h1 h2
  exact h (Fin.ext (h1.symm.trans h2))

theorem scChunks_cover : (Finset.univ : Finset (Fin τ.nSC)).biUnion scChunks = (Finset.univ : Finset (Fin 15625)) := by
  ext g
  simp only [Finset.mem_biUnion, Finset.mem_univ, true_and, iff_true]
  refine ⟨⟨(g.val / 504) % 2, Nat.mod_lt _ (by decide)⟩, ?_⟩
  unfold scChunks
  rw [Finset.mem_filter]
  exact ⟨Finset.mem_univ _, rfl⟩

theorem tileChunks_disjoint (c : Fin τ.nSC) : ∀ i ∈ (Finset.univ : Finset (Fin τ.nSub)), ∀ i' ∈ (Finset.univ : Finset (Fin τ.nSub)), i ≠ i' → Disjoint (tileChunks c i) (tileChunks c i') := by
  intro i _ i' _ h
  unfold tileChunks
  rw [Finset.disjoint_filter]
  intro g _ h1 h2
  refine h (Fin.ext ?_)
  have := h1.symm.trans h2
  unfold widOf at this
  omega

theorem tileChunks_cover (c : Fin τ.nSC) : (Finset.univ : Finset (Fin τ.nSub)).biUnion (tileChunks c) = scChunks c := by
  ext g
  unfold tileChunks scChunks widOf
  simp only [Finset.mem_biUnion, Finset.mem_univ, true_and, Finset.mem_filter]
  have hg := g.isLt
  have hc : c.val < 2 := c.isLt
  constructor
  · rintro ⟨i, hi⟩; omega
  · intro h
    refine ⟨⟨(g.val / 504) / 2, ?_⟩, ?_⟩
    · show (g.val / 504) / 2 < 16
      omega
    · show g.val / 504 = 2 * ((g.val / 504) / 2) + c.val
      omega

/-- The whole result is, per SparseCore, its tiles' chunks. -/
theorem out_split (d : Dev nD) (f : Buf (Elt F) (outLoc d)) :
    (outLoc d ↦{fullShare} f : sProp 𝕄) = bigSep Finset.univ fun c : Fin τ.nSC => bigSep (scChunks c) fun g => outChunk d g f := by
  rw [out_chunks, ← scChunks_cover]
  exact SparseCore.Cfg.bigSep_biUnion_eq Finset.univ scChunks _ scChunks_disjoint

/-- A SparseCore's chunks are its tiles' chunks. -/
theorem sc_split (d : Dev nD) (c : Fin τ.nSC) (f : Buf (Elt F) (outLoc d)) :
    (bigSep (scChunks c) fun g => outChunk d g f : sProp 𝕄) = bigSep Finset.univ fun i : Fin τ.nSub => bigSep (tileChunks c i) fun g => outChunk d g f := by
  rw [← tileChunks_cover c]
  exact SparseCore.Cfg.bigSep_biUnion_eq Finset.univ (tileChunks c) _ (tileChunks_disjoint c)

end Cert.Proof.KI

end
-- ==== Proof.Launch.lean ====
/-
  The launch of the one SparseCore call.

  The launch element of the ghost state: the handshake cells' rounds, the subcore barrier cells' rounds (one cell per
  tile, one round, a unit duty per tile of the same SparseCore) and the TensorCore pipeline's component. From it, the
  credit for the tiles' barrier arrivals and the barrier semaphores at zero, every tile is dealt its barrier kit.

  The sequencer's split: the table's read share goes to tile 0 whole, with the SparseCore's shared table (one of the
  sequencer's own buffers); the index array's share is cut into the tiles' shares; the chunks go to their workers. Coming
  back, the sixteen shares of the shared table and tile 0's remainder rejoin (shares of one location agree on its
  contents) and return to the sequencer.

  How the final memory reads the claim, and the launch theorem applied.
-/
import proofs.«203041_g70987219468541_cont_9to1_m_1244_31_alg».proof.Proof.Chunks

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownRefs mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## How the final memory reads the claim -/

section Fin
variable [FloatOps F]

/-- The claim of the final memory: the result is the gathered projected rows, the four arguments are as launched. -/
def QC : PUnit × MemSt nD τ sig (Elt F) → Prop := fun r => ∀ c : Dev nD,
  r.2.mem (outLoc c) = outG m c ∧ r.2.mem (srcLoc c) = m (srcLoc c) ∧ r.2.mem (fmLoc c) = m (fmLoc c)
    ∧ r.2.mem (wLoc c) = m (wLoc c) ∧ r.2.mem (bLoc c) = m (bLoc c)

def fq (d : Dev nD) (s' : Phys nD τ sig (Elt F)) : Prop :=
  s'.mem.mem (outLoc d) = outG m d ∧ s'.mem.mem (srcLoc d) = m (srcLoc d) ∧ s'.mem.mem (fmLoc d) = m (fmLoc d)
    ∧ s'.mem.mem (wLoc d) = m (wLoc d) ∧ s'.mem.mem (bLoc d) = m (bLoc d)

/-- A whole array held at full share is what the memory holds. -/
theorem SI_read (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  unfold FIN
  iintro ⟨⟨Hs, Hf, Hw, Hb, Ho⟩, HSI⟩
  ihave %hs := (SI_read s' (srcLoc d) (m (srcLoc d))) $$ [Hs HSI]
  · isplitl [Hs] <;> iassumption
  ihave %hf := (SI_read s' (fmLoc d) (m (fmLoc d))) $$ [Hf HSI]
  · isplitl [Hf] <;> iassumption
  ihave %hw := (SI_read s' (wLoc d) (m (wLoc d))) $$ [Hw HSI]
  · isplitl [Hw] <;> iassumption
  ihave %hb := (SI_read s' (bLoc d) (m (bLoc d))) $$ [Hb HSI]
  · isplitl [Hb] <;> iassumption
  ihave %ho := (SI_read s' (outLoc d) (outG m d)) $$ [Ho HSI]
  · isplitl [Ho] <;> iassumption
  ipureintro
  exact ⟨ho, hs, hf, hw, hb⟩

end Fin

/-! ## The sequencer's split of the call's operands among its tiles -/

section Split
variable [FloatOps F]

/-- tile 0 of a SparseCore -/
abbrev i0 : Fin τ.nSub := ⟨0, by decide⟩

/-- every tile of a SparseCore addresses the one shared table -/
theorem shLoc_eq (d : Dev nD) (c : Fin τ.nSC) (i : Fin τ.nSub) : shLoc d c i = shLoc d c i0 := rfl

/-- The shared table is among the sequencer's own buffers: it is it, at some contents, and the rest. -/
theorem ownBufs_S (d : Dev nD) (c : Fin τ.nSC) :
    (ownBufs (S d c) : sProp 𝕄)
      = iprop((∃ f, shLoc d c i0 ↦{fullShare} f)
          ∗ bigSep ((ownRefs (τ := τ) (.scScalar c)).erase ((Proc.scVector c i0).devRef cc1_scratch2)) fun b => iprop(∃ f, ((d, b) : Loc nD τ sig) ↦{fullShare} f)) := by
  unfold SparseCore.Cfg.ownBufs
  have h : (Proc.scVector c i0).devRef cc1_scratch2 ∈ ownRefs (τ := τ) (sig := sig) (.scScalar c) :=
    (mem_ownRefs (p := Proc.scScalar c) (b := (Proc.scVector c i0).devRef cc1_scratch2)).mpr rfl
  exact SparseCore.bigSep_erase' h

/-- The tiles' shares of the shared table, all at the one location. -/
theorem sh_toks_eq (d : Dev nD) (c : Fin τ.nSC) :
    (bigSep Finset.univ fun i : Fin τ.nSub => iprop(∃ f : Buf (Elt F) (shLoc d c i), shLoc d c i ↦{shShare i} f) : sProp 𝕄)
      = bigSep Finset.univ fun i : Fin τ.nSub => iprop(∃ f : Buf (Elt F) (shLoc d c i0), shLoc d c i0 ↦{shShare i} f) := rfl

/-- Two shares of one array hold the same contents. -/
theorem share_agree {ℓ : Loc nD τ sig} {q₁ q₂ : PosShare TreeShare} (f g : Buf (Elt F) ℓ) :
    iprop((ℓ ↦{q₁} f) ∗ ℓ ↦{q₂} g) ⊢ (⌜g = f⌝ : sProp 𝕄) :=
  pointsTo_agree.trans (BI.pure_mono fun h => funext fun i =>
    ((h i (Finset.mem_inter.mpr ⟨Finset.mem_univ _, Finset.mem_univ _⟩)).1).symm)

/-- A family of shares of one array, each at some contents, beside a share at known contents: all are at those. -/
theorem toks_agree {I : Type} [DecidableEq I] {ℓ : Loc nD τ sig} (q0 : PosShare TreeShare) (q : I → PosShare TreeShare)
    (f0 : Buf (Elt F) ℓ) (s : Finset I) :
    iprop((ℓ ↦{q0} f0) ∗ bigSep s fun i => iprop(∃ f, ℓ ↦{q i} f))
      ⊢ (iprop((ℓ ↦{q0} f0) ∗ bigSep s fun i => ℓ ↦{q i} f0) : sProp 𝕄) := by
  induction s using Finset.induction_on with
  | empty => rw [bigSep_empty, bigSep_empty]
  | insert a s ha ih =>
    rw [SparseCore.bigSep_insert' ha, SparseCore.bigSep_insert' ha]
    iintro ⟨H0, ⟨%f, Ha⟩, Hs⟩
    ihave H := (ih) $$ [H0 Hs]
    · isplitl [H0] <;> iassumption
    icases H with ⟨H0, Hs⟩
    ihave %e := (share_agree f0 f) $$ [H0 Ha]
    · isplitl [H0] <;> iassumption
    subst e
    isplitl [H0]; · iexact H0
    isplitl [Ha]; · iexact Ha
    iexact Hs

/-- What only tile 0 is handed. -/
theorem bigSep_ite_zero (A : Fin τ.nSub → sProp 𝕄) :
    (bigSep Finset.univ fun i : Fin τ.nSub => if i.val = 0 then A i else iprop(emp)) = A i0 := by
  show (bigSep Finset.univ fun i : Fin τ.nSub => if i.val = 0 then A i else (BI.emp : sProp 𝕄)) = A i0
  rw [← bigSep_filter, show (Finset.univ.filter fun i : Fin τ.nSub => i.val = 0) = {i0} by decide, bigSep_singleton]

theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

/-- The split, for SparseCore c. The table's share goes to tile 0 whole with the shared table; the index array's share
    is cut into the tiles' shares, the remainder staying here; the chunks go to their workers. Coming back, the shares
    rejoin. -/
theorem split_core (d : Dev nD) (c : Fin τ.nSC) :
    iprop(stC m d c ∗ ownBufs (S d c)) ⊢ |={Set.univ}=> iprop((bigSep Finset.univ fun i : Fin τ.nSub => goC m d c i)
      ∗ ((bigSep Finset.univ fun i : Fin τ.nSub => tdC m d c i) -∗ iprop(dnC m d c ∗ ownBufs (S d c)))) := by
  unfold stC dnC goC tdC
  rw [bigSep_sep', bigSep_sep', bigSep_sep', bigSep_sep', bigSep_sep', bigSep_ite_zero, bigSep_ite_zero, sh_toks_eq, ownBufs_S,
    sc_split, sc_split]
  iintro ⟨⟨Htbl, Hidx, Hch⟩, ⟨%fsh, Hsh⟩, Hrest⟩
  ihave Hidx' := (Transfers.pointsTo_toks_split (scShare c) τ.nSub) $$ Hidx
  icases Hidx' with ⟨Hdrop, Htoks⟩
  imodintro
  isplitl [Htbl Hsh Htoks Hch]
  · isplitl [Htbl Hsh]
    · isplitl [Htbl]; · iexact Htbl
      iexists fsh; iexact Hsh
    isplitl [Htoks]; · iexact Htoks
    iexact Hch
  iintro ⟨⟨Hback, ⟨%f0, Hsh0⟩⟩, Hshs, Htoks, Hch⟩
  isplitl [Hback Hdrop Htoks Hch]
  · isplitl [Hback]; · iexact Hback
    isplitl [Hdrop Htoks]
    · iapply (Transfers.pointsTo_toks_join (scShare c) τ.nSub); isplitl [Hdrop] <;> iassumption
    iexact Hch
  isplitl [Hsh0 Hshs]
  · ihave H := (toks_agree (shareDrop fullShare τ.nSub) (fun i : Fin τ.nSub => shShare i) f0 Finset.univ) $$ [Hsh0 Hshs]
    · isplitl [Hsh0] <;> iassumption
    iexists f0
    iapply (Transfers.pointsTo_toks_join fullShare τ.nSub); iexact H
  iexact Hrest

theorem vecSplit : (K (F := F)).VecSplit (P m) 0 := by
  intro d c
  show iprop(stC m d ((K (F := F)).core 0 c) ∗ ownBufs (S d ((K (F := F)).core 0 c))) ⊢ |={Set.univ}=> iprop(
      (bigSep Finset.univ fun i : Fin ((K (F := F)).nSub 0) => goC m d ((K (F := F)).core 0 c) ((K (F := F)).sub 0 i))
      ∗ ((bigSep Finset.univ fun i : Fin ((K (F := F)).nSub 0) => tdC m d ((K (F := F)).core 0 c) ((K (F := F)).sub 0 i))
          -∗ iprop(dnC m d ((K (F := F)).core 0 c) ∗ ownBufs (S d ((K (F := F)).core 0 c)))))
  rw [bigSep_tasks (F := F) (fun i => goC m d ((K (F := F)).core 0 c) i), bigSep_tasks (F := F) (fun i => tdC m d ((K (F := F)).core 0 c) i)]
  exact split_core m d ((K (F := F)).core 0 c)

end Split

/-! ## The launch element of the ghost state, and what the launch hands over -/

section Elem
variable [FloatOps F]

abbrev DCI : Type := Dev nD × Fin τ.nSC × Fin τ.nSub
abbrev bcell₃ (x : DCI) : GSem nD τ sig := bcell x.1 x.2.1 x.2.2

/-- every tile's barrier cell -/
def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)

/-- The launch element: the handshake cells' rounds, the barrier cells' rounds, the TensorCore pipeline's component. -/
def u₀ (pInit : UP) : UU := (initOf (K (F := F)).hsCells (K (F := F)).hsToks, (initOf bCells bToks, (pInit, 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the tiles' barrier arrivals, regrouped: each tile the sixteen units of its own cell. -/
theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bigSep_emp' {I : Type} (s : Finset I) : (bigSep s fun _ => iprop(emp)) = (iprop(emp) : sProp 𝕄) := bigSep_emp_const s

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

omit [FloatOps F] in
theorem tok_intro (d : Dev nD) (c : Fin τ.nSC) (i : Fin τ.nSub) (j : Fin (grid1.bound 1)) :
    iprop((bigSep Finset.univ fun x : DCI => reached EB (bcell₃ x) 0) ∗ dutyTok EB (bcell d c (j.castLE hsub1)) 0 i.val)
      ⊢ (iprop(dutyTok EB (bcell d c (j.castLE hsub1)) 0 i.val ∗ reached EB (bcell d c (j.castLE hsub1)) 0) : sProp 𝕄) := by
  iintro ⟨#Hr, Ht⟩
  isplitl [Ht]; · iexact Ht
  iapply (SparseCore.ent (bigSep_elim (Φ := fun x : DCI => (reached EB (bcell₃ x) 0 : sProp 𝕄)) (i := (d, c, j.castLE hsub1)) (Finset.mem_univ _))); iexact Hr

/-- One tile's kit out of those. -/
theorem kit_intro (dci : DCI) : iprop(shared (F := F) m ∗ mine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub1 j)) (Finset.mem_univ _))))
    isplitl; · iexact Hinv
    rw [bigSep_emp']; iempintro
  isplitl [Htok]
  · iapply (SparseCore.ent (bigSep_mono_frame (s := (Finset.univ : Finset (Fin (grid1.bound 1))))
      (R := bigSep Finset.univ fun x : DCI => reached EB (bcell₃ x) 0)
      (Φ := fun j : Fin (grid1.bound 1) => dutyTok EB (bcell d c (j.castLE hsub1)) 0 i.val) fun j _ => tok_intro (F := F) d c i j))
    isplitr; · iexact Hr
    iexact Htok
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- The launch: from the launch element, the credit for the tiles' barrier arrivals and the barrier semaphores at zero,
    the handshake cells' rounds, what @main starts from on each device, and every tile's barrier kit. -/
theorem hu₀ (pInit : UP) (GP : Dev nD → sProp 𝕄)
    (gp_fund : (BI.own (EP (F := F) pInit) : sProp 𝕄) ⊢ |={Set.univ}=> bigSep Finset.univ GP) :
    iprop(ownU (u₀ (F := F) pInit) ∗ (P (F := F) m).oxCred ∗ (K (F := F)).freeSems0)
      ⊢ |={Set.univ}=> iprop(BI.own (EH (initOf (K (F := F)).hsCells (K (F := F)).hsToks)) ∗ bigSep Finset.univ GP
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  imod gp_fund $$ HP with HG
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Elem

/-! ## The program's run -/

section Run
variable [FloatOps F]

/-- The run of the whole program — @main on each TensorCore, the sequencers and the tiles beside it — from the launch
    memory to a final memory of which the claim holds: from the tile's obligation and @main's proof. -/
theorem run_main [∀ e, Nonempty (Elt F e)] (pInit : UP) (GP : Dev nD → sProp 𝕄)
    (gp_fund : (BI.own (EP (F := F) pInit) : sProp 𝕄) ⊢ |={Set.univ}=> bigSep Finset.univ GP)
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ GP d)
        ⊢ wp frame (wpE ((K (F := F)).defs (D (F := F))) 𝒱 (SparseCore.T d) none) Set.univ (main d)
            fun _ => iprop((K (F := F)).tcSt EH d 1 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main GP (FIN m) (u₀ (F := F) pInit) (hu₀ m pInit GP gp_fund) hmain (fq m) (hfin m) (QC m) (fun _ h => h)

end Run

end Cert.Proof.KI

end
-- ==== Proof.TileDefs.lean ====
/-
  A tile's names: the grid coordinates of tile (c, s), its thread, the kernel function applied to the program's arrays
  and the tile's scratch, and the memrefs as the function addresses them.
-/
import proofs.«203041_g70987219468541_cont_9to1_m_1244_31_alg».proof.Proof.Pay
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

def coordsV (c : Fin (grid1.bound 0)) (s : Fin (grid1.bound 1)) : grid1.Coords :=
  fun | 0 => c | 1 => s | ⟨_ + 2, h⟩ => absurd h (Nat.not_lt.2 (Nat.le_add_left _ _))

abbrev cT (c : Fin (grid1.bound 0)) : Fin τ.nSC := c.castLE hcore1
abbrev sT (s : Fin (grid1.bound 1)) : Fin τ.nSub := s.castLE hsub1
abbrev thr (d : Dev nD) (c : Fin (grid1.bound 0)) (s : Fin (grid1.bound 1)) : Thread nD τ := V d (cT c) (sT s)

abbrev tblV : Memref sig .scVector .hbm S128x128 .f32 := Memref.whole main_v1_scv
abbrev idxV : Memref sig .scVector .hbm S2064384 .i32 := Memref.whole main_v2_scv
abbrev outW : Memref sig .scVector .hbm S2000000x128 .f32 := Memref.whole main_v3_scv
abbrev ixS : Memref sig .scVector .vmem S7168 .i32 := Memref.whole cc1_scratch0
abbrev rwS : Memref sig .scVector .vmem S7x128x128 .f32 := Memref.whole cc1_scratch1
abbrev shS : Memref sig .scVector .shared S128x128 .f32 := Memref.whole cc1_scratch2

/-- the kernel function on tile `L`, applied as the body table applies it -/
abbrev body (L : grid1.Coords) : Prog (TpuEff nD τ sig (Elt F) Λ₀ (.scVector ((L 0).castLE hcore1) ((L 1).castLE hsub1))) PUnit :=
  cc1_gather (F := F) L tblV (Memref.isWhole_whole _) idxV (Memref.isWhole_whole _) outW (Memref.isWhole_whole _)
    ixS (Memref.isWhole_whole _) rwS (Memref.isWhole_whole _) shS (Memref.isWhole_whole _)
    cc1_scratch3 cc1_scratch4 cc1_scratch5 cc1_scratch6 cc1_scratch7 cc1_scratch8 cc1_scratch9 cc1_scratch10 cc1_scratch11
    cc1_scratch12 cc1_scratch13 cc1_scratch14 cc1_scratch15 cc1_scratch16 cc1_scratch17 cc1_scoped0

/-- What the launch theorem asks of one tile, stated over the tile's coordinates: from its barrier kit, what the
    sequencer's go hands it, its scoped storage and what it owes (the launch's debts and its arrivals at the barrier)
    to what its taskDone hands back. -/
def TileSpec (d : Dev nD) (c : Fin (grid1.bound 0)) (s : Fin (grid1.bound 1)) (O : CellTallies nD τ sig (HIx 1)) (W : Waits sig (HIx 1)) : Prop :=
  iprop(levAts (K (F := F)).L (K (F := F)).lev ∗ bkit m d (cT c) (sT s) ∗ goC m d (cT c) (sT s)
      ∗ scopedBufs (thr d c s) ∗ scopedSems0 (thr d c s) ∗ owes (thr d c s) (O + oxV d (cT c)) W)
    ⊢ wp frame (wpE (defs₀ (F := F)) 𝒱₀ (thr d c s) none) Set.univ (body (F := F) (coordsV c s))
        fun _ => iprop(tdC m d (cT c) (sT s) ∗ scopedBufs (thr d c s) ∗ scopedSems0 (thr d c s)
          ∗ ∃ W', ⌜∀ p ∈ W', p ∈ W ∨ p.2 = none ∨ p.2 = some 0⌝ ∗ owes (thr d c s) O W')

end Cert.Proof.KI

end
-- ==== Proof.TileObl.lean ====
/-
  The launch theorem's obligation for the one vector-subcore kernel, from the body's proof stated over a tile's grid
  coordinates: the call's label runs, on vector subcore (c, s) of the grid, the kernel function at those coordinates.
-/
import proofs.«203041_g70987219468541_cont_9to1_m_1244_31_alg».proof.Proof.TileDefs

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-- The body table at the kernel's label on a vector subcore: the kernel function at the subcore's coordinates when the
    grid holds it. -/
theorem defs₀_vector (c : Fin τ.nSC) (s : Fin τ.nSub) :
    defs₀ (F := F) (.scVector c s) 1 ()
      = SparseCore.onTile hcore1 hsub1 (fun c s => body (F := F) (coordsV c s)) ⟨⟩ c s := rfl

/-- The tile's obligation, from the body's proof at every tile of the grid. -/
theorem tileObl
    (hbody : ∀ (d : Dev nD) (c : Fin (grid1.bound 0)) (s : Fin (grid1.bound 1)) (O : CellTallies nD τ sig (HIx 1)) (W : Waits sig (HIx 1)),
      (∀ g, O g none = 0) → (∀ g ι, 0 < O g ι → 8 * (0 : Fin 1).val + 6 ≤ (K (F := F)).lev g ι) → TileSpec m d c s O W) :
    (K (F := F)).TileObl (D (F := F)) 𝒱 (P m) v₀ 0 := by
  intro d c i O W hO hlev _
  change iprop(levAts _ _ ∗ bkit m d ((K (F := F)).core 0 c) ((K (F := F)).sub 0 i) ∗ goC m d ((K (F := F)).core 0 c) ((K (F := F)).sub 0 i)
      ∗ scopedBufs _ ∗ scopedSems0 _ ∗ owes _ (O + oxV d ((K (F := F)).core 0 c)) W)
    ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact hbody d ⟨_, hc.1⟩ ⟨_, hc.2⟩ O W hO hlev

end Cert.Proof.KI

end
-- ==== Proof.KBCommon.lean ====
/-
  The program as the launch theorem of a SparseCore program reads it, and the resource algebra of the proof:
  the launch handshakes' rounds, the subcore barrier cells' rounds, the TensorCore pipeline's cells' rounds
  (the projection of the table is a TensorCore kernel region of @main), and the local transfers' counters.
  The names of the argument, intermediate and result arrays as locations of a device.
-/
import proofs.«203041_g70987219468541_cont_9to1_m_1244_31_alg».proof.Defs
import proofs.«203041_g70987219468541_cont_9to1_m_1244_31_alg».proof.Proof.Spec
import proofs.«203041_g70987219468541_cont_9to1_m_1244_31_alg».proof.Proof.Gen.Kernel
import proofs.«203041_g70987219468541_cont_9to1_m_1244_31_alg».proof.Proof.Gen.Kernel.Skeleton
import proofs.«203041_g70987219468541_cont_9to1_m_1244_31_alg».proof.Proof.Gen.Kernel.Launch
import proofs.«203041_g70987219468541_cont_9to1_m_1244_31_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- the launch handshakes' rounds -/
abbrev UH : Type := URounds (GSem nD τ sig) ℕ
/-- the subcore barrier cells' rounds: a duty is named by the number of the tile that pays it -/
abbrev UB : Type := URounds (GSem nD τ sig) ℕ
/-- the TensorCore pipeline's staging cells' rounds -/
abbrev UP : Type := URounds (GSem nD τ sig) Unit
/-- all of them, the local transfers' counters last (found there by instance) -/
abbrev UU : Type := UH × (UB × (UP × Counters))

local notation "𝕄" => MT nD τ sig (HIx 1) (Elt F) ℕ UU ℕ

abbrev EH : Emb UH (MT nD τ sig (HIx 1) (Elt F) ℕ UU ℕ) := embL
/-- everything but the handshakes: the right factor -/
abbrev ER1 : Emb (UB × (UP × Counters)) (MT nD τ sig (HIx 1) (Elt F) ℕ UU ℕ) := embR
def EB : Emb UB (MT nD τ sig (HIx 1) (Elt F) ℕ UU ℕ) := (Emb.inl : Emb UB (UB × (UP × Counters))).trans ER1
instance EB_landsIn : (EB : Emb UB 𝕄).LandsIn (upEmb : UEmb _ 𝕄) := by unfold EB ER1 embR; infer_instance
abbrev ER2 : Emb (UP × Counters) (MT nD τ sig (HIx 1) (Elt F) ℕ UU ℕ) := (Emb.inr : Emb (UP × Counters) (UB × (UP × Counters))).trans ER1
def EP : Emb UP (MT nD τ sig (HIx 1) (Elt F) ℕ UU ℕ) := (Emb.inl : Emb UP (UP × Counters)).trans ER2
instance EP_landsIn : (EP : Emb UP 𝕄).LandsIn (upEmb : UEmb _ 𝕄) := by unfold EP ER2 ER1 embR; infer_instance

/-- The launch element splits into its three rounds components (the counters' component is the unit). -/
theorem ownU_split (a : UH) (b : UB) (p : UP) :
    (ownU ((a, (b, (p, 1))) : UU) : sProp 𝕄) ⊢ iprop(BI.own (EH a) ∗ BI.own (EB b) ∗ BI.own (EP p)) := by
  iintro Hu
  ihave H := (ownU_pair _ _) $$ Hu
  icases H with ⟨HH, HR⟩
  ihave H1 := (own_pair_emb (ER1 (F := F)) b (p, 1)) $$ HR
  icases H1 with ⟨HB, HR2⟩
  ihave H2 := (own_pair_emb (ER2 (F := F)) p 1) $$ HR2
  icases H2 with ⟨HP, -⟩
  isplitl [HH]; · iexact HH
  isplitl [HB]; · iexact HB
  iexact HP

/-! ## The arrays, as locations of a device -/

variable (m : (ℓ : Loc nD τ sig) → Buf (Elt F) ℓ) (ρ : Dev nD → PrngReg)

abbrev srcLoc (d : Dev nD) : Loc nD τ sig := (SparseCore.T d).loc main_arg0
abbrev fmLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
/-- the bias as a row [1, 128] -/
abbrev brLoc (d : Dev nD) : Loc nD τ sig := (SparseCore.T d).loc main_v0
/-- the projected table [128, 128] in HBM (rows 119..127 never written) -/
abbrev tblLoc (d : Dev nD) : Loc nD τ sig := (SparseCore.T d).loc main_v1
/-- the indices padded with zeros to 32 x 504 chunks of 128 -/
abbrev idxLoc (d : Dev nD) : Loc nD τ sig := (SparseCore.T d).loc main_v2
/-- the result [2000000, 128] -/
abbrev outLoc (d : Dev nD) : Loc nD τ sig := (SparseCore.T d).loc main_v3

end Cert.Proof.KB

end
-- ==== Proof.KBPay.lean ====
/-
  What the launch handshakes of the one SparseCore call carry, and the values they are stated over.

  The values. The TensorCore region leaves in HBM a table of 128 rows of which rows 0..118 are the dense layer
  applied to the 119 feature rows (`projAt`; rows 119..127 are never written and hold whatever the staging buffer
  held: `TableOK` says nothing of them). The index array is the 2,000,000 indices followed by zeros (`idxOf`).
  The result is, row by row, the table's row the index names (`outG`, stated through the clamped `Spec.rowOf` so that
  it is a total function of the launch memory; under the precondition the clamp does nothing).

  The resources. The result array is cut into 15625 chunks of 128 rows; tile (c, i) is worker 2 i + c and owns the
  chunks 504 w .. 504 w + 503 that exist. The call hands SparseCore c a read share of the table and of the index array and
  its tiles' chunks; the sequencer's split hands tile 0 the table's share (it copies the table into the SparseCore's
  shared memory) and that shared memory whole, every tile a read share of the indices and its chunks. At the subcore
  barrier tile 0's arrival at tile j's cell carries a read share of the shared table, at contents that are
  `TableOK`; the other arrivals carry nothing. Each tile hands back its chunks at `outG`.
-/
import proofs.«203041_g70987219468541_cont_9to1_m_1244_31_alg».proof.Proof.KBCommon

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The values -/

section Values
variable [FloatOps F]

/-- the bias [128] as a row [1, 128] -/
abbrev brOf (x : Vec F S128 .f32) : Vec F S1x128 .f32 := shapeCast S1x128 x shapeCasts_S128_S1x128

/-- Entry (a, col) of the projected table: the region's body applied to the three argument arrays. -/
def projAt (d : Dev nD) (a : Fin 119) (col : Fin 128) : Elt F .f32 :=
  k0_pay1 (F := F) (m (fmLoc d)) (m (wLoc d)) (brOf (m (bLoc d))) (ix2 a col)

/-- A 128-row table whose first 119 rows are the projected feature rows. -/
def TableOK (d : Dev nD) (tbl : Vec F S128x128 .f32) : Prop :=
  ∀ (a : Fin 119) (col : Fin 128), tbl (ix2 (a.castLE (by decide)) col) = projAt m d a col

/-- The indices followed by 64384 zeros. -/
def idxOf (src : IVec S2000000 32) : IVec S2064384 32 :=
  pad S2064384 ![0] ![64384] ![0] src (constantI S_ 32 0#32) pads_S2000000_S2064384_0643840 h_S_

/-- The result: row r is the table's row the r-th index names. -/
def outG (d : Dev nD) : Buf (Elt F) (outLoc d) :=
  fun j => projAt m d (Cert.Proof.Spec.rowOf (m (srcLoc d) (ix1 (j 0)))) (j 1)

end Values

/-- What the proof asks of the launch memory: every index names a row of the feature table. -/
def PreOK : Prop := ∀ d : Dev nD, Cert.Proof.Spec.InRange (m (srcLoc d))

/-! ## Chunks of the result -/

abbrev outV : Memref sig .scVector .hbm S2000000x128 .f32 := Memref.whole main_v3_scv

theorem chunk_inb (g : Fin 15625) : ∀ a, (![128 * g.val, 0] : Fin 2 → Nat) a + S128x128.size a ≤ S2000000x128.size a := by
  have := g.isLt
  intro a; fin_cases a <;> simp <;> omega

/-- rows 128 g .. 128 g + 127, all columns -/
abbrev chunkRect (g : Fin 15625) : Rect S2000000x128 := Rect.unit (s := S2000000x128) ![128 * g.val, 0] S128x128.size (chunk_inb g)
abbrev chunkSet (g : Fin 15625) : Finset S2000000x128.Idx := ((outV).view.slice (chunkRect g)).set

/-- the worker number of tile (c, i) -/
def widOf (c : Fin τ.nSC) (i : Fin τ.nSub) : ℕ := 2 * i.val + c.val
/-- the chunks of tile (c, i) -/
def tileChunks (c : Fin τ.nSC) (i : Fin τ.nSub) : Finset (Fin 15625) := Finset.univ.filter fun g => g.val / 504 = widOf c i
/-- the chunks of SparseCore c's tiles -/
def scChunks (c : Fin τ.nSC) : Finset (Fin 15625) := Finset.univ.filter fun g => (g.val / 504) % 2 = c.val

/-! ## Shares -/

/-- SparseCore c's read share of an array both SparseCores read -/
abbrev scShare (c : Fin τ.nSC) : PosShare TreeShare := shareTok fullShare τ.nSC c
/-- tile (c, i)'s read share of it -/
abbrev tileShare (c : Fin τ.nSC) (i : Fin τ.nSub) : PosShare TreeShare := shareTok (scShare c) τ.nSub i
/-- tile i's read share of its SparseCore's shared table -/
abbrev shShare (i : Fin τ.nSub) : PosShare TreeShare := shareTok fullShare τ.nSub i

/-- the SparseCore's shared table, as tile (c, i) addresses it -/
abbrev shLoc (d : Dev nD) (c : Fin τ.nSC) (i : Fin τ.nSub) : Loc nD τ sig := (V d c i).loc cc1_scratch2

/-! ## The barrier cells -/

abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

section Sched
variable [FloatOps F]

/-- What tile number `n`'s arrival at a tile's barrier cell hands that tile: tile 0's, a read share of the shared
    table at contents whose first 119 rows are the projected rows; the others', nothing. -/
def bPay (g : GSem nD τ sig) (n : ℕ) : sProp 𝕄 :=
  match g with
  | ((d, .scVector c j), _) =>
      if n = 0 then iprop(∃ f : Buf (Elt F) (shLoc d c j), ⌜TableOK m d f⌝ ∗ shLoc d c j ↦{shShare j} f) else iprop(emp)
  | _ => iprop(emp)

/-- The barrier cells' schedule: one round on each, one unit duty per tile of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl
theorem bRd_payload_zero (d : Dev nD) (c : Fin τ.nSC) (j : Fin τ.nSub) :
    (bRd (F := F) m).payload (bcell d c j) 0 0 = iprop(∃ f : Buf (Elt F) (shLoc d c j), ⌜TableOK m d f⌝ ∗ shLoc d c j ↦{shShare j} f) := by
  show bPay m (bcell d c j) 0 = _; unfold bPay; exact if_pos rfl
theorem bRd_payload_succ (d : Dev nD) (c : Fin τ.nSC) (j : Fin τ.nSub) (n : ℕ) :
    (bRd (F := F) m).payload (bcell d c j) 0 (n + 1) = iprop(emp) := by
  show bPay m (bcell d c j) (n + 1) = _; unfold bPay; exact if_neg (Nat.succ_ne_zero n)

end Sched

/-- What the launch has a tile owe for the barrier: a unit on every tile's cell of its SparseCore, at the call's index. -/
def oxV (d : Dev nD) (c : Fin τ.nSC) : CellTallies nD τ sig (HIx 1) := ∑ j : Fin (grid1.bound 1), tallyAt (bcell d c (j.castLE hsub1)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

section PayDef
variable [FloatOps F]

/-- Tile (c, i)'s barrier kit: every cell invariant of its SparseCore's tiles, its duty token in every tile's round 0 and
    that each has reached round 0, its own position at the origin of round 0, and the credit for its own round's units.
    (What its arrivals hand over it brings itself: tile 0 the table's shares, the others nothing.) -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => iprop(dutyTok EB (bcell d c (j.castLE hsub1)) 0 i.val
        ∗ reached EB (bcell d c (j.castLE hsub1)) 0))
    ∗ atPos EB (bcell d c i) 0 ∅ 0
    ∗ cred (tallyAt (bcell d c i) (some 0) (grid1.bound 1)))

/-! ## What the handshakes carry -/

abbrev outChunk (d : Dev nD) (g : Fin 15625) (f : Buf (Elt F) (outLoc d)) : sProp 𝕄 := outLoc d ↦[chunkSet g]{fullShare} f

/-- the table's read share with contents known to hold the projected rows -/
abbrev tblIn (d : Dev nD) (c : Fin τ.nSC) : sProp 𝕄 := iprop(∃ tbl : Buf (Elt F) (tblLoc d), ⌜TableOK m d tbl⌝ ∗ tblLoc d ↦{scShare c} tbl)
abbrev tblBack (d : Dev nD) (c : Fin τ.nSC) : sProp 𝕄 := iprop(∃ tbl : Buf (Elt F) (tblLoc d), tblLoc d ↦{scShare c} tbl)

def stC (d : Dev nD) (c : Fin τ.nSC) : sProp 𝕄 :=
  iprop(tblIn m d c ∗ (idxLoc d ↦{scShare c} idxOf (m (srcLoc d))) ∗ bigSep (scChunks c) fun g => outChunk d g (m (outLoc d)))
def dnC (d : Dev nD) (c : Fin τ.nSC) : sProp 𝕄 :=
  iprop(tblBack d c ∗ (idxLoc d ↦{scShare c} idxOf (m (srcLoc d))) ∗ bigSep (scChunks c) fun g => outChunk d g (outG m d))
def goC (d : Dev nD) (c : Fin τ.nSC) (i : Fin τ.nSub) : sProp 𝕄 :=
  iprop((if i.val = 0 then iprop(tblIn m d c ∗ ∃ f : Buf (Elt F) (shLoc d c i), shLoc d c i ↦{fullShare} f) else iprop(emp))
    ∗ (idxLoc d ↦{tileShare c i} idxOf (m (srcLoc d))) ∗ bigSep (tileChunks c i) fun g => outChunk d g (m (outLoc d)))
def tdC (d : Dev nD) (c : Fin τ.nSC) (i : Fin τ.nSub) : sProp 𝕄 :=
  iprop((if i.val = 0 then iprop(tblBack d c ∗ ∃ f : Buf (Elt F) (shLoc d c i), shLoc d c i ↦{shareDrop fullShare τ.nSub} f) else iprop(emp))
    ∗ (∃ f : Buf (Elt F) (shLoc d c i), shLoc d c i ↦{shShare i} f)
    ∗ (idxLoc d ↦{tileShare c i} idxOf (m (srcLoc d))) ∗ bigSep (tileChunks c i) fun g => outChunk d g (outG m d))

instance stC_storable (d : Dev nD) (c : Fin τ.nSC) : BI.Storable (upEmb : UEmb _ 𝕄) (stC m d c) := by unfold stC; infer_instance
instance dnC_storable (d : Dev nD) (c : Fin τ.nSC) : BI.Storable (upEmb : UEmb _ 𝕄) (dnC m d c) := by unfold dnC; infer_instance
instance goC_storable (d : Dev nD) (c : Fin τ.nSC) (i : Fin τ.nSub) : BI.Storable (upEmb : UEmb _ 𝕄) (goC m d c i) := by
  unfold goC; split <;> infer_instance
instance tdC_storable (d : Dev nD) (c : Fin τ.nSC) (i : Fin τ.nSub) : BI.Storable (upEmb : UEmb _ 𝕄) (tdC m d c i) := by
  unfold tdC; split <;> infer_instance

def P : (K (F := F)).Pay (nD := nD) (Val := Elt F) (Name := ℕ) (U := UU) where
  st := fun q d c => stC m d ((K (F := F)).core q c)
  dn := fun q d c => dnC m d ((K (F := F)).core q c)
  go := fun q d c i => goC m d ((K (F := F)).core q c) ((K (F := F)).sub q i)
  td := fun q d c i => tdC m d ((K (F := F)).core q c) ((K (F := F)).sub q i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st _ d c := by unfold P; infer_instance
  dn _ d c := by unfold P; infer_instance
  go _ d c i := by unfold P; infer_instance
  td _ d c i := by unfold P; infer_instance

/-- What @main leaves the claim: the four arguments at their launch contents, the result at `outG`. -/
def FIN (d : Dev nD) : sProp 𝕄 :=
  iprop((srcLoc d ↦{fullShare} m (srcLoc d)) ∗ (fmLoc d ↦{fullShare} m (fmLoc d)) ∗ (wLoc d ↦{fullShare} m (wLoc d))
    ∗ (bLoc d ↦{fullShare} m (bLoc d)) ∗ outLoc d ↦{fullShare} outG m d)

end PayDef

end Cert.Proof.KB

end
-- ==== Proof.KBChunks.lean ====
/-
  The result array cut into its 15625 chunks of 128 rows: the chunks are the 15625 equal parts of axis 0
  (15625 * 128 = 2000000), so they are pairwise disjoint and cover the array. The chunks are dealt in two levels:
  chunk g goes to worker g / 504; worker w is tile w / 2 of SparseCore w % 2. Both levels are partitions of the
  chunk numbers, by arithmetic (15625 ≤ 32 * 504).
-/
import proofs.«203041_g70987219468541_cont_9to1_m_1244_31_alg».proof.Proof.KBPay

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The chunks are the equal parts of axis 0 -/

theorem hdivC : 15625 ∣ S2000000x128.size 0 := ⟨128, rfl⟩

/-- chunk g is the g-th of the 15625 parts of the rows -/
theorem chunkRect_eq_part (g : Fin 15625) : chunkRect g = Rect.part (s := S2000000x128) (a₀ := 0) hdivC g := by
  unfold chunkRect Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

theorem chunkSet_eq (g : Fin 15625) : chunkSet g = (Rect.part (s := S2000000x128) (a₀ := 0) hdivC g).set := by
  show ((View.whole (main_v3_scv : Ref sig .scVector)).slice (chunkRect g)).set = _
  rw [View.set_slice, chunkRect_eq_part]; exact Finset.map_refl

theorem chunkSet_disjoint : ∀ g ∈ (Finset.univ : Finset (Fin 15625)), ∀ g' ∈ (Finset.univ : Finset (Fin 15625)), g ≠ g' → Disjoint (chunkSet g) (chunkSet g') :=
  fun g _ g' _ h => by rw [chunkSet_eq, chunkSet_eq]; exact Rect.part_disjoint hdivC h

theorem chunkSet_cover : (Finset.univ : Finset (Fin 15625)).biUnion chunkSet = Finset.univ :=
  (Finset.biUnion_congr rfl fun g _ => chunkSet_eq g).trans (Rect.biUnion_part hdivC)

/-- The whole result is its chunks. -/
theorem out_chunks (d : Dev nD) (f : Buf (Elt F) (outLoc d)) :
    (outLoc d ↦{fullShare} f : sProp 𝕄) = bigSep Finset.univ fun g : Fin 15625 => outChunk d g f := by
  rw [← pointsTo_biUnion Finset.univ (ℓ := outLoc d) chunkSet chunkSet_disjoint, chunkSet_cover]; try rfl

/-! ## The two levels of the deal -/

theorem nSC_eq : τ.nSC = 2 := rfl
theorem nSub_eq : τ.nSub = 16 := rfl

theorem scChunks_disjoint : ∀ c ∈ (Finset.univ : Finset (Fin τ.nSC)), ∀ c' ∈ (Finset.univ : Finset (Fin τ.nSC)), c ≠ c' → Disjoint (scChunks c) (scChunks c') := by
  intro c _ c' _ h
  unfold scChunks
  rw [Finset.disjoint_filter]
  intro g _ h1 h2
  exact h (Fin.ext (h1.symm.trans h2))

theorem scChunks_cover : (Finset.univ : Finset (Fin τ.nSC)).biUnion scChunks = (Finset.univ : Finset (Fin 15625)) := by
  ext g
  simp only [Finset.mem_biUnion, Finset.mem_univ, true_and, iff_true]
  refine ⟨⟨(g.val / 504) % 2, Nat.mod_lt _ (by decide)⟩, ?_⟩
  unfold scChunks
  rw [Finset.mem_filter]
  exact ⟨Finset.mem_univ _, rfl⟩

theorem tileChunks_disjoint (c : Fin τ.nSC) : ∀ i ∈ (Finset.univ : Finset (Fin τ.nSub)), ∀ i' ∈ (Finset.univ : Finset (Fin τ.nSub)), i ≠ i' → Disjoint (tileChunks c i) (tileChunks c i') := by
  intro i _ i' _ h
  unfold tileChunks
  rw [Finset.disjoint_filter]
  intro g _ h1 h2
  refine h (Fin.ext ?_)
  have := h1.symm.trans h2
  unfold widOf at this
  omega

theorem tileChunks_cover (c : Fin τ.nSC) : (Finset.univ : Finset (Fin τ.nSub)).biUnion (tileChunks c) = scChunks c := by
  ext g
  unfold tileChunks scChunks widOf
  simp only [Finset.mem_biUnion, Finset.mem_univ, true_and, Finset.mem_filter]
  have hg := g.isLt
  have hc : c.val < 2 := c.isLt
  constructor
  · rintro ⟨i, hi⟩; omega
  · intro h
    refine ⟨⟨(g.val / 504) / 2, ?_⟩, ?_⟩
    · show (g.val / 504) / 2 < 16
      omega
    · show g.val / 504 = 2 * ((g.val / 504) / 2) + c.val
      omega

/-- The whole result is, per SparseCore, its tiles' chunks. -/
theorem out_split (d : Dev nD) (f : Buf (Elt F) (outLoc d)) :
    (outLoc d ↦{fullShare} f : sProp 𝕄) = bigSep Finset.univ fun c : Fin τ.nSC => bigSep (scChunks c) fun g => outChunk d g f := by
  rw [out_chunks, ← scChunks_cover]
  exact SparseCore.Cfg.bigSep_biUnion_eq Finset.univ scChunks _ scChunks_disjoint

/-- A SparseCore's chunks are its tiles' chunks. -/
theorem sc_split (d : Dev nD) (c : Fin τ.nSC) (f : Buf (Elt F) (outLoc d)) :
    (bigSep (scChunks c) fun g => outChunk d g f : sProp 𝕄) = bigSep Finset.univ fun i : Fin τ.nSub => bigSep (tileChunks c i) fun g => outChunk d g f := by
  rw [← tileChunks_cover c]
  exact SparseCore.Cfg.bigSep_biUnion_eq Finset.univ (tileChunks c) _ (tileChunks_disjoint c)

end Cert.Proof.KB

end
-- ==== Proof.KBLaunch.lean ====
/-
  The launch of the one SparseCore call.

  The launch element of the ghost state: the handshake cells' rounds, the subcore barrier cells' rounds (one cell per
  tile, one round, a unit duty per tile of the same SparseCore) and the TensorCore pipeline's component. From it, the
  credit for the tiles' barrier arrivals and the barrier semaphores at zero, every tile is dealt its barrier kit.

  The sequencer's split: the table's read share goes to tile 0 whole, with the SparseCore's shared table (one of the
  sequencer's own buffers); the index array's share is cut into the tiles' shares; the chunks go to their workers. Coming
  back, the sixteen shares of the shared table and tile 0's remainder rejoin (shares of one location agree on its
  contents) and return to the sequencer.

  How the final memory reads the claim, and the launch theorem applied.
-/
import proofs.«203041_g70987219468541_cont_9to1_m_1244_31_alg».proof.Proof.KBChunks

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay ownBufs ownRefs mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## How the final memory reads the claim -/

section Fin
variable [FloatOps F]

/-- The claim of the final memory: the result is the gathered projected rows, the four arguments are as launched. -/
def QC : PUnit × MemSt nD τ sig (Elt F) → Prop := fun r => ∀ c : Dev nD,
  r.2.mem (outLoc c) = outG m c ∧ r.2.mem (srcLoc c) = m (srcLoc c) ∧ r.2.mem (fmLoc c) = m (fmLoc c)
    ∧ r.2.mem (wLoc c) = m (wLoc c) ∧ r.2.mem (bLoc c) = m (bLoc c)

def fq (d : Dev nD) (s' : Phys nD τ sig (Elt F)) : Prop :=
  s'.mem.mem (outLoc d) = outG m d ∧ s'.mem.mem (srcLoc d) = m (srcLoc d) ∧ s'.mem.mem (fmLoc d) = m (fmLoc d)
    ∧ s'.mem.mem (wLoc d) = m (wLoc d) ∧ s'.mem.mem (bLoc d) = m (bLoc d)

/-- A whole array held at full share is what the memory holds. -/
theorem SI_read (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  unfold FIN
  iintro ⟨⟨Hs, Hf, Hw, Hb, Ho⟩, HSI⟩
  ihave %hs := (SI_read s' (srcLoc d) (m (srcLoc d))) $$ [Hs HSI]
  · isplitl [Hs] <;> iassumption
  ihave %hf := (SI_read s' (fmLoc d) (m (fmLoc d))) $$ [Hf HSI]
  · isplitl [Hf] <;> iassumption
  ihave %hw := (SI_read s' (wLoc d) (m (wLoc d))) $$ [Hw HSI]
  · isplitl [Hw] <;> iassumption
  ihave %hb := (SI_read s' (bLoc d) (m (bLoc d))) $$ [Hb HSI]
  · isplitl [Hb] <;> iassumption
  ihave %ho := (SI_read s' (outLoc d) (outG m d)) $$ [Ho HSI]
  · isplitl [Ho] <;> iassumption
  ipureintro
  exact ⟨ho, hs, hf, hw, hb⟩

end Fin

/-! ## The sequencer's split of the call's operands among its tiles -/

section Split
variable [FloatOps F]

/-- tile 0 of a SparseCore -/
abbrev i0 : Fin τ.nSub := ⟨0, by decide⟩

/-- every tile of a SparseCore addresses the one shared table -/
theorem shLoc_eq (d : Dev nD) (c : Fin τ.nSC) (i : Fin τ.nSub) : shLoc d c i = shLoc d c i0 := rfl

/-- The shared table is among the sequencer's own buffers: it is it, at some contents, and the rest. -/
theorem ownBufs_S (d : Dev nD) (c : Fin τ.nSC) :
    (ownBufs (S d c) : sProp 𝕄)
      = iprop((∃ f, shLoc d c i0 ↦{fullShare} f)
          ∗ bigSep ((ownRefs (τ := τ) (.scScalar c)).erase ((Proc.scVector c i0).devRef cc1_scratch2)) fun b => iprop(∃ f, ((d, b) : Loc nD τ sig) ↦{fullShare} f)) := by
  unfold SparseCore.Cfg.ownBufs
  have h : (Proc.scVector c i0).devRef cc1_scratch2 ∈ ownRefs (τ := τ) (sig := sig) (.scScalar c) :=
    (mem_ownRefs (p := Proc.scScalar c) (b := (Proc.scVector c i0).devRef cc1_scratch2)).mpr rfl
  exact SparseCore.bigSep_erase' h

/-- The tiles' shares of the shared table, all at the one location. -/
theorem sh_toks_eq (d : Dev nD) (c : Fin τ.nSC) :
    (bigSep Finset.univ fun i : Fin τ.nSub => iprop(∃ f : Buf (Elt F) (shLoc d c i), shLoc d c i ↦{shShare i} f) : sProp 𝕄)
      = bigSep Finset.univ fun i : Fin τ.nSub => iprop(∃ f : Buf (Elt F) (shLoc d c i0), shLoc d c i0 ↦{shShare i} f) := rfl

/-- Two shares of one array hold the same contents. -/
theorem share_agree {ℓ : Loc nD τ sig} {q₁ q₂ : PosShare TreeShare} (f g : Buf (Elt F) ℓ) :
    iprop((ℓ ↦{q₁} f) ∗ ℓ ↦{q₂} g) ⊢ (⌜g = f⌝ : sProp 𝕄) :=
  pointsTo_agree.trans (BI.pure_mono fun h => funext fun i =>
    ((h i (Finset.mem_inter.mpr ⟨Finset.mem_univ _, Finset.mem_univ _⟩)).1).symm)

/-- A family of shares of one array, each at some contents, beside a share at known contents: all are at those. -/
theorem toks_agree {I : Type} [DecidableEq I] {ℓ : Loc nD τ sig} (q0 : PosShare TreeShare) (q : I → PosShare TreeShare)
    (f0 : Buf (Elt F) ℓ) (s : Finset I) :
    iprop((ℓ ↦{q0} f0) ∗ bigSep s fun i => iprop(∃ f, ℓ ↦{q i} f))
      ⊢ (iprop((ℓ ↦{q0} f0) ∗ bigSep s fun i => ℓ ↦{q i} f0) : sProp 𝕄) := by
  induction s using Finset.induction_on with
  | empty => rw [bigSep_empty, bigSep_empty]
  | insert a s ha ih =>
    rw [SparseCore.bigSep_insert' ha, SparseCore.bigSep_insert' ha]
    iintro ⟨H0, ⟨%f, Ha⟩, Hs⟩
    ihave H := (ih) $$ [H0 Hs]
    · isplitl [H0] <;> iassumption
    icases H with ⟨H0, Hs⟩
    ihave %e := (share_agree f0 f) $$ [H0 Ha]
    · isplitl [H0] <;> iassumption
    subst e
    isplitl [H0]; · iexact H0
    isplitl [Ha]; · iexact Ha
    iexact Hs

/-- What only tile 0 is handed. -/
theorem bigSep_ite_zero (A : Fin τ.nSub → sProp 𝕄) :
    (bigSep Finset.univ fun i : Fin τ.nSub => if i.val = 0 then A i else iprop(emp)) = A i0 := by
  show (bigSep Finset.univ fun i : Fin τ.nSub => if i.val = 0 then A i else (BI.emp : sProp 𝕄)) = A i0
  rw [← bigSep_filter, show (Finset.univ.filter fun i : Fin τ.nSub => i.val = 0) = {i0} by decide, bigSep_singleton]

theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

/-- The split, for SparseCore c. The table's share goes to tile 0 whole with the shared table; the index array's share
    is cut into the tiles' shares, the remainder staying here; the chunks go to their workers. Coming back, the shares
    rejoin. -/
theorem split_core (d : Dev nD) (c : Fin τ.nSC) :
    iprop(stC m d c ∗ ownBufs (S d c)) ⊢ |={Set.univ}=> iprop((bigSep Finset.univ fun i : Fin τ.nSub => goC m d c i)
      ∗ ((bigSep Finset.univ fun i : Fin τ.nSub => tdC m d c i) -∗ iprop(dnC m d c ∗ ownBufs (S d c)))) := by
  unfold stC dnC goC tdC
  rw [bigSep_sep', bigSep_sep', bigSep_sep', bigSep_sep', bigSep_sep', bigSep_ite_zero, bigSep_ite_zero, sh_toks_eq, ownBufs_S,
    sc_split, sc_split]
  iintro ⟨⟨Htbl, Hidx, Hch⟩, ⟨%fsh, Hsh⟩, Hrest⟩
  ihave Hidx' := (Transfers.pointsTo_toks_split (scShare c) τ.nSub) $$ Hidx
  icases Hidx' with ⟨Hdrop, Htoks⟩
  imodintro
  isplitl [Htbl Hsh Htoks Hch]
  · isplitl [Htbl Hsh]
    · isplitl [Htbl]; · iexact Htbl
      iexists fsh; iexact Hsh
    isplitl [Htoks]; · iexact Htoks
    iexact Hch
  iintro ⟨⟨Hback, ⟨%f0, Hsh0⟩⟩, Hshs, Htoks, Hch⟩
  isplitl [Hback Hdrop Htoks Hch]
  · isplitl [Hback]; · iexact Hback
    isplitl [Hdrop Htoks]
    · iapply (Transfers.pointsTo_toks_join (scShare c) τ.nSub); isplitl [Hdrop] <;> iassumption
    iexact Hch
  isplitl [Hsh0 Hshs]
  · ihave H := (toks_agree (shareDrop fullShare τ.nSub) (fun i : Fin τ.nSub => shShare i) f0 Finset.univ) $$ [Hsh0 Hshs]
    · isplitl [Hsh0] <;> iassumption
    iexists f0
    iapply (Transfers.pointsTo_toks_join fullShare τ.nSub); iexact H
  iexact Hrest

theorem vecSplit : (K (F := F)).VecSplit (P m) 0 := by
  intro d c
  show iprop(stC m d ((K (F := F)).core 0 c) ∗ ownBufs (S d ((K (F := F)).core 0 c))) ⊢ |={Set.univ}=> iprop(
      (bigSep Finset.univ fun i : Fin ((K (F := F)).nSub 0) => goC m d ((K (F := F)).core 0 c) ((K (F := F)).sub 0 i))
      ∗ ((bigSep Finset.univ fun i : Fin ((K (F := F)).nSub 0) => tdC m d ((K (F := F)).core 0 c) ((K (F := F)).sub 0 i))
          -∗ iprop(dnC m d ((K (F := F)).core 0 c) ∗ ownBufs (S d ((K (F := F)).core 0 c)))))
  rw [bigSep_tasks (F := F) (fun i => goC m d ((K (F := F)).core 0 c) i), bigSep_tasks (F := F) (fun i => tdC m d ((K (F := F)).core 0 c) i)]
  exact split_core m d ((K (F := F)).core 0 c)

end Split

/-! ## The launch element of the ghost state, and what the launch hands over -/

section Elem
variable [FloatOps F]

abbrev DCI : Type := Dev nD × Fin τ.nSC × Fin τ.nSub
abbrev bcell₃ (x : DCI) : GSem nD τ sig := bcell x.1 x.2.1 x.2.2

/-- every tile's barrier cell -/
def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)

/-- The launch element: the handshake cells' rounds, the barrier cells' rounds, the TensorCore pipeline's component. -/
def u₀ (pInit : UP) : UU := (initOf (K (F := F)).hsCells (K (F := F)).hsToks, (initOf bCells bToks, (pInit, 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the tiles' barrier arrivals, regrouped: each tile the sixteen units of its own cell. -/
theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bigSep_emp' {I : Type} (s : Finset I) : (bigSep s fun _ => iprop(emp)) = (iprop(emp) : sProp 𝕄) := bigSep_emp_const s

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

omit [FloatOps F] in
theorem tok_intro (d : Dev nD) (c : Fin τ.nSC) (i : Fin τ.nSub) (j : Fin (grid1.bound 1)) :
    iprop((bigSep Finset.univ fun x : DCI => reached EB (bcell₃ x) 0) ∗ dutyTok EB (bcell d c (j.castLE hsub1)) 0 i.val)
      ⊢ (iprop(dutyTok EB (bcell d c (j.castLE hsub1)) 0 i.val ∗ reached EB (bcell d c (j.castLE hsub1)) 0) : sProp 𝕄) := by
  iintro ⟨#Hr, Ht⟩
  isplitl [Ht]; · iexact Ht
  iapply (SparseCore.ent (bigSep_elim (Φ := fun x : DCI => (reached EB (bcell₃ x) 0 : sProp 𝕄)) (i := (d, c, j.castLE hsub1)) (Finset.mem_univ _))); iexact Hr

/-- One tile's kit out of those. -/
theorem kit_intro (dci : DCI) : iprop(shared (F := F) m ∗ mine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub1 j)) (Finset.mem_univ _))))
    isplitl; · iexact Hinv
    rw [bigSep_emp']; iempintro
  isplitl [Htok]
  · iapply (SparseCore.ent (bigSep_mono_frame (s := (Finset.univ : Finset (Fin (grid1.bound 1))))
      (R := bigSep Finset.univ fun x : DCI => reached EB (bcell₃ x) 0)
      (Φ := fun j : Fin (grid1.bound 1) => dutyTok EB (bcell d c (j.castLE hsub1)) 0 i.val) fun j _ => tok_intro (F := F) d c i j))
    isplitr; · iexact Hr
    iexact Htok
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- The launch: from the launch element, the credit for the tiles' barrier arrivals and the barrier semaphores at zero,
    the handshake cells' rounds, what @main starts from on each device, and every tile's barrier kit. -/
theorem hu₀ (pInit : UP) (GP : Dev nD → sProp 𝕄)
    (gp_fund : (BI.own (EP (F := F) pInit) : sProp 𝕄) ⊢ |={Set.univ}=> bigSep Finset.univ GP) :
    iprop(ownU (u₀ (F := F) pInit) ∗ (P (F := F) m).oxCred ∗ (K (F := F)).freeSems0)
      ⊢ |={Set.univ}=> iprop(BI.own (EH (initOf (K (F := F)).hsCells (K (F := F)).hsToks)) ∗ bigSep Finset.univ GP
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  imod gp_fund $$ HP with HG
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Elem

/-! ## The program's run -/

section Run
variable [FloatOps F]

/-- The run of the whole program — @main on each TensorCore, the sequencers and the tiles beside it — from the launch
    memory to a final memory of which the claim holds: from the tile's obligation and @main's proof. -/
theorem run_main [∀ e, Nonempty (Elt F e)] (pInit : UP) (GP : Dev nD → sProp 𝕄)
    (gp_fund : (BI.own (EP (F := F) pInit) : sProp 𝕄) ⊢ |={Set.univ}=> bigSep Finset.univ GP)
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ GP d)
        ⊢ wp frame (wpE ((K (F := F)).defs (D (F := F))) 𝒱 (SparseCore.T d) none) Set.univ (main d)
            fun _ => iprop((K (F := F)).tcSt EH d 1 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main GP (FIN m) (u₀ (F := F) pInit) (hu₀ m pInit GP gp_fund) hmain (fq m) (hfin m) (QC m) (fun _ h => h)

end Run

end Cert.Proof.KB

end
-- ==== Proof.KBTileDefs.lean ====
/-
  A tile's names: the grid coordinates of tile (c, s), its thread, the kernel function applied to the program's arrays
  and the tile's scratch, and the memrefs as the function addresses them.
-/
import proofs.«203041_g70987219468541_cont_9to1_m_1244_31_alg».proof.Proof.KBPay
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

def coordsV (c : Fin (grid1.bound 0)) (s : Fin (grid1.bound 1)) : grid1.Coords :=
  fun | 0 => c | 1 => s | ⟨_ + 2, h⟩ => absurd h (Nat.not_lt.2 (Nat.le_add_left _ _))

abbrev cT (c : Fin (grid1.bound 0)) : Fin τ.nSC := c.castLE hcore1
abbrev sT (s : Fin (grid1.bound 1)) : Fin τ.nSub := s.castLE hsub1
abbrev thr (d : Dev nD) (c : Fin (grid1.bound 0)) (s : Fin (grid1.bound 1)) : Thread nD τ := V d (cT c) (sT s)

abbrev tblV : Memref sig .scVector .hbm S128x128 .f32 := Memref.whole main_v1_scv
abbrev idxV : Memref sig .scVector .hbm S2064384 .i32 := Memref.whole main_v2_scv
abbrev outW : Memref sig .scVector .hbm S2000000x128 .f32 := Memref.whole main_v3_scv
abbrev ixS : Memref sig .scVector .vmem S7168 .i32 := Memref.whole cc1_scratch0
abbrev rwS : Memref sig .scVector .vmem S7x128x128 .f32 := Memref.whole cc1_scratch1
abbrev shS : Memref sig .scVector .shared S128x128 .f32 := Memref.whole cc1_scratch2

/-- the kernel function on tile `L`, applied as the body table applies it -/
abbrev body (L : grid1.Coords) : Prog (TpuEff nD τ sig (Elt F) Λ₀ (.scVector ((L 0).castLE hcore1) ((L 1).castLE hsub1))) PUnit :=
  cc1_gather (F := F) L tblV (Memref.isWhole_whole _) idxV (Memref.isWhole_whole _) outW (Memref.isWhole_whole _)
    ixS (Memref.isWhole_whole _) rwS (Memref.isWhole_whole _) shS (Memref.isWhole_whole _)
    cc1_scratch3 cc1_scratch4 cc1_scratch5 cc1_scratch6 cc1_scratch7 cc1_scratch8 cc1_scratch9 cc1_scratch10 cc1_scratch11
    cc1_scratch12 cc1_scratch13 cc1_scratch14 cc1_scratch15 cc1_scratch16 cc1_scratch17 cc1_scoped0

/-- What the launch theorem asks of one tile, stated over the tile's coordinates: from its barrier kit, what the
    sequencer's go hands it, its scoped storage and what it owes (the launch's debts and its arrivals at the barrier)
    to what its taskDone hands back. -/
def TileSpec (d : Dev nD) (c : Fin (grid1.bound 0)) (s : Fin (grid1.bound 1)) (O : CellTallies nD τ sig (HIx 1)) (W : Waits sig (HIx 1)) : Prop :=
  iprop(levAts (K (F := F)).L (K (F := F)).lev ∗ bkit m d (cT c) (sT s) ∗ goC m d (cT c) (sT s)
      ∗ scopedBufs (thr d c s) ∗ scopedSems0 (thr d c s) ∗ owes (thr d c s) (O + oxV d (cT c)) W)
    ⊢ wp frame (wpE (defs₀ (F := F)) 𝒱₀ (thr d c s) none) Set.univ (body (F := F) (coordsV c s))
        fun _ => iprop(tdC m d (cT c) (sT s) ∗ scopedBufs (thr d c s) ∗ scopedSems0 (thr d c s)
          ∗ ∃ W', ⌜∀ p ∈ W', p ∈ W ∨ p.2 = none ∨ p.2 = some 0⌝ ∗ owes (thr d c s) O W')

end Cert.Proof.KB

end
-- ==== Proof.KBTileObl.lean ====
/-
  The launch theorem's obligation for the one vector-subcore kernel, from the body's proof stated over a tile's grid
  coordinates: the call's label runs, on vector subcore (c, s) of the grid, the kernel function at those coordinates.
-/
import proofs.«203041_g70987219468541_cont_9to1_m_1244_31_alg».proof.Proof.KBTileDefs

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-- The body table at the kernel's label on a vector subcore: the kernel function at the subcore's coordinates when the
    grid holds it. -/
theorem defs₀_vector (c : Fin τ.nSC) (s : Fin τ.nSub) :
    defs₀ (F := F) (.scVector c s) 1 ()
      = SparseCore.onTile hcore1 hsub1 (fun c s => body (F := F) (coordsV c s)) ⟨⟩ c s := rfl

/-- The tile's obligation, from the body's proof at every tile of the grid. -/
theorem tileObl
    (hbody : ∀ (d : Dev nD) (c : Fin (grid1.bound 0)) (s : Fin (grid1.bound 1)) (O : CellTallies nD τ sig (HIx 1)) (W : Waits sig (HIx 1)),
      (∀ g, O g none = 0) → (∀ g ι, 0 < O g ι → 8 * (0 : Fin 1).val + 6 ≤ (K (F := F)).lev g ι) → TileSpec m d c s O W) :
    (K (F := F)).TileObl (D (F := F)) 𝒱 (P m) v₀ 0 := by
  intro d c i O W hO hlev _
  change iprop(levAts _ _ ∗ bkit m d ((K (F := F)).core 0 c) ((K (F := F)).sub 0 i) ∗ goC m d ((K (F := F)).core 0 c) ((K (F := F)).sub 0 i)
      ∗ scopedBufs _ ∗ scopedSems0 _ ∗ owes _ (O + oxV d ((K (F := F)).core 0 c)) W)
    ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact hbody d ⟨_, hc.1⟩ ⟨_, hc.2⟩ O W hO hlev

end Cert.Proof.KB

end
-- ==== Proof.RefRun.lean ====
/-
  The reference program's run, read back. Its @main is a straight line of 27 host operations once the two
  module-local functions are unfolded at their calls: the lookup `take(feature_map, src)` in fill mode (a negative
  index wrapped by the table's height, the rows gathered with the start index clamped into the table, the
  validity bit `0 ≤ index ≤ 118` of each row, and the select that keeps a gathered row where the bit is set and
  puts the not-a-number constant elsewhere), then the product with the weights, the bias broadcast to every
  row, and the sum. Every weakly fair execution terminates with the result buffer at the operations' composed
  term `refTerm` of the four argument arrays and the arguments unchanged.
-/
import proofs.«203041_g70987219468541_cont_9to1_m_1244_31_alg».proof.Proof.Gen.ReferenceIdeal
import Idealize.ShloMosaic.Lib.StableHlo.Run
import Idealize.ShloMosaic.PureOps.Ideal

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

/-! ## The composed term, stage by stage -/

section Stages
variable {F : FTy → Type} [FloatOps F]

/-- The index with a negative word wrapped: `src r + 119` where `src r < 0` (signed), else `src r`. -/
def wrapIdx (a0 : IVec S2000000 32) : IVec S2000000 32 :=
  select (cmpi .slt a0 (broadcastInDim S2000000 ![] bcast_S_S2000000 (constantI S_ 32 0#32)))
    (addi a0 (broadcastInDim S2000000 ![] bcast_S_S2000000 (constantI S_ 32 119#32))) a0

/-- The wrapped indices as a column: one start index per row. -/
def colIdx (a0 : IVec S2000000 32) : IVec S2000000x1 32 :=
  broadcastInDim S2000000x1 ![0] bcast_S2000000_S2000000x1_0 (wrapIdx a0)

/-- The validity bit of each row: `0 ≤ index ≤ 118` (signed), reduced by `and` over the column's unit axis. -/
def validMask (a0 : IVec S2000000 32) : IVec S2000000 1 :=
  Host.reduce IntOp.andi
    (andi (cmpi .sge (colIdx a0) (broadcastInDim S2000000x1 ![] bcast_S_S2000000x1 (constantI S_ 32 0#32)))
      (cmpi .sle (colIdx a0) (broadcastInDim S2000000x1 ![0, 1] bcast_S1x1_S2000000x1_0_1
        (broadcastInDim S1x1 ![1] bcast_S1_S1x1_1 (constantI S1 32 118#32)))))
    (constantI S_ 1 1#1) reducesTo_S2000000x1_S2000000_d1 h_S_

/-- The rows looked up: the gathered row where the validity bit is set, the not-a-number constant elsewhere. -/
def taken (a0 : IVec S2000000 32) (a1 : FVec F S119x3 .f32) : FVec F S2000000x3 .f32 :=
  select (broadcastInDim S2000000x3 ![0] bcast_S2000000_S2000000x3_0 (validMask a0))
    (Host.gather gather_S119x3_S2000000x1_S2000000x3_1_0_n_n_0_1_13 a1 (colIdx a0))
    (broadcastInDim S2000000x3 ![] bcast_S_S2000000x3 (constant S_ .f32 0x7FC00000#32))

/-- The bias on every row. -/
def biasRows (a3 : FVec F S128 .f32) : FVec F S2000000x128 .f32 :=
  broadcastInDim S2000000x128 ![0, 1] bcast_S1x128_S2000000x128_0_1 (broadcastInDim S1x128 ![1] bcast_S128_S1x128_1 a3)

end Stages

/-- The operations' composed term for the result: the looked-up rows times the weights, plus the bias. -/
def refTerm (a0 : IVec S2000000 32) (a1 : FVec Ideal S119x3 .f32) (a2 : FVec Ideal S3x128 .f32) (a3 : FVec Ideal S128 .f32) :
    FVec Ideal S2000000x128 .f32 :=
  addf (Host.dotGeneral dot_S2000000x3_S3x128_S2000000x128_1_0_0_1_n_n none (taken a0 a1) a2) (biasRows a3)

/-! ## The program as a list of operations -/

variable {F : FTy → Type} [FloatOps F]

/-- @main's 27 operations in order, the two calls unfolded: the lookup's 23 (the select of the wrapped index is the
    inner function's one operation) over the call's buffers, then @main's own four. -/
abbrev ops : List (HloOp τ sig (Elt F)) :=
  [ TRef.nullary main_call0.c (constantI S_ 32 0#32),
    TRef.unary main_call0.c main_call0.v0 (broadcastInDim S2000000 ![] bcast_S_S2000000),
    TRef.binary (.of main_arg0) main_call0.v0 main_call0.v1 (cmpi .slt),
    TRef.nullary main_call0.c_0 (constantI S_ 32 119#32),
    TRef.unary main_call0.c_0 main_call0.v2 (broadcastInDim S2000000 ![] bcast_S_S2000000),
    TRef.binary (.of main_arg0) main_call0.v2 main_call0.v3 addi,
    TRef.ternary main_call0.v1 main_call0.v3 (.of main_arg0) main_call0.call0.v0 select,
    TRef.unary main_call0.call0.v0 main_call0.v5 (broadcastInDim S2000000x1 ![0] bcast_S2000000_S2000000x1_0),
    TRef.nullary main_call0.c_1 (constantI S1 32 118#32),
    TRef.nullary main_call0.c_2 (constantI S_ 32 0#32),
    TRef.unary main_call0.c_2 main_call0.v6 (broadcastInDim S2000000x1 ![] bcast_S_S2000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2000000x1 ![0, 1] bcast_S1x1_S2000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2000000x1_S2000000_d1 h_S_),
    TRef.binary (.of main_arg1) main_call0.v5 main_call0.v13 (fun x i => Host.gather gather_S119x3_S2000000x1_S2000000x3_1_0_n_n_0_1_13 x i),
    TRef.unary main_call0.v12 main_call0.v14 (broadcastInDim S2000000x3 ![0] bcast_S2000000_S2000000x3_0),
    TRef.nullary main_call0.cst (constant S_ .f32 0x7FC00000#32),
    TRef.unary main_call0.cst main_call0.v15 (broadcastInDim S2000000x3 ![] bcast_S_S2000000x3),
    TRef.ternary main_call0.v14 main_call0.v13 main_call0.v15 main_call0.v16 select,
    binary main_v0 main_arg2 main_v1 ((fun l r => Host.dotGeneral dot_S2000000x3_S3x128_S2000000x128_1_0_0_1_n_n none l r) : (⟨S2000000x3, .f32⟩ : BufTy).Contents (Elt F) → (⟨S3x128, .f32⟩ : BufTy).Contents (Elt F) → (⟨S2000000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S2000000x128 ![0, 1] bcast_S1x128_S2000000x128_0_1 : (⟨S1x128, .f32⟩ : BufTy).Contents (Elt F) → (⟨S2000000x128, .f32⟩ : BufTy).Contents (Elt F)),
    binary main_v1 main_v3 main_v4 (addf : (⟨S2000000x128, .f32⟩ : BufTy).Contents (Elt F) → (⟨S2000000x128, .f32⟩ : BufTy).Contents (Elt F) → (⟨S2000000x128, .f32⟩ : BufTy).Contents (Elt F)) ]

set_option maxRecDepth 1024 in
/-- @main is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub ..⟩

/-! ## The run

The composed term is read back in three stretches, the buffers' contents between them named: the lookup's index and
validity computations and the gather (19 operations), the select under the validity mask (4), and @main's own four. -/

/-- The first stretch: the wrapped index, its column, the validity bits and the gather. -/
abbrev opsA : List (HloOp τ sig (Elt F)) :=
  [ TRef.nullary main_call0.c (constantI S_ 32 0#32),
    TRef.unary main_call0.c main_call0.v0 (broadcastInDim S2000000 ![] bcast_S_S2000000),
    TRef.binary (.of main_arg0) main_call0.v0 main_call0.v1 (cmpi .slt),
    TRef.nullary main_call0.c_0 (constantI S_ 32 119#32),
    TRef.unary main_call0.c_0 main_call0.v2 (broadcastInDim S2000000 ![] bcast_S_S2000000),
    TRef.binary (.of main_arg0) main_call0.v2 main_call0.v3 addi,
    TRef.ternary main_call0.v1 main_call0.v3 (.of main_arg0) main_call0.call0.v0 select,
    TRef.unary main_call0.call0.v0 main_call0.v5 (broadcastInDim S2000000x1 ![0] bcast_S2000000_S2000000x1_0),
    TRef.nullary main_call0.c_1 (constantI S1 32 118#32),
    TRef.nullary main_call0.c_2 (constantI S_ 32 0#32),
    TRef.unary main_call0.c_2 main_call0.v6 (broadcastInDim S2000000x1 ![] bcast_S_S2000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2000000x1 ![0, 1] bcast_S1x1_S2000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2000000x1_S2000000_d1 h_S_),
    TRef.binary (.of main_arg1) main_call0.v5 main_call0.v13 (fun x i => Host.gather gather_S119x3_S2000000x1_S2000000x3_1_0_n_n_0_1_13 x i) ]

/-- The second stretch: the mask broadcast along the features, the not-a-number constant, the select. -/
abbrev opsB : List (HloOp τ sig (Elt F)) :=
  [ TRef.unary main_call0.v12 main_call0.v14 (broadcastInDim S2000000x3 ![0] bcast_S2000000_S2000000x3_0),
    TRef.nullary main_call0.cst (constant S_ .f32 0x7FC00000#32),
    TRef.unary main_call0.cst main_call0.v15 (broadcastInDim S2000000x3 ![] bcast_S_S2000000x3),
    TRef.ternary main_call0.v14 main_call0.v13 main_call0.v15 main_call0.v16 select ]

/-- The third stretch: the product with the weights, the bias on every row, the sum. -/
abbrev opsC : List (HloOp τ sig (Elt F)) :=
  [ binary main_v0 main_arg2 main_v1 ((fun l r => Host.dotGeneral dot_S2000000x3_S3x128_S2000000x128_1_0_0_1_n_n none l r) : (⟨S2000000x3, .f32⟩ : BufTy).Contents (Elt F) → (⟨S3x128, .f32⟩ : BufTy).Contents (Elt F) → (⟨S2000000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S2000000x128 ![0, 1] bcast_S1x128_S2000000x128_0_1 : (⟨S1x128, .f32⟩ : BufTy).Contents (Elt F) → (⟨S2000000x128, .f32⟩ : BufTy).Contents (Elt F)),
    binary main_v1 main_v3 main_v4 (addf : (⟨S2000000x128, .f32⟩ : BufTy).Contents (Elt F) → (⟨S2000000x128, .f32⟩ : BufTy).Contents (Elt F) → (⟨S2000000x128, .f32⟩ : BufTy).Contents (Elt F)) ]

theorem ops_split : (ops : List (HloOp τ sig (Elt F))) = opsA ++ (opsB ++ opsC) := rfl

/-- Two lines run one after the other: the second from what the first left. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

section Stretches
variable (V : Valuation τ sig (Elt Ideal))

theorem A_v12 : after opsA V (main_call0_v12 : DevRef τ sig) = (validMask (V (main_arg0 : DevRef τ sig)) : IVec S2000000 1) := by
  after_results_simp
  simp only [cast_cast, cast_eq]
  unfold validMask colIdx wrapIdx
  with_reducible rfl

theorem A_v13 : after opsA V (main_call0_v13 : DevRef τ sig)
    = (Host.gather gather_S119x3_S2000000x1_S2000000x3_1_0_n_n_0_1_13 (V (main_arg1 : DevRef τ sig)) (colIdx (V (main_arg0 : DevRef τ sig))) : FVec Ideal S2000000x3 .f32) := by
  after_results_simp
  simp only [cast_cast, cast_eq]
  unfold colIdx wrapIdx
  with_reducible rfl

theorem A_arg2 : after opsA V (main_arg2 : DevRef τ sig) = V (main_arg2 : DevRef τ sig) := by after_results_simp
theorem A_arg3 : after opsA V (main_arg3 : DevRef τ sig) = V (main_arg3 : DevRef τ sig) := by after_results_simp

theorem B_v0 : after opsB V (main_v0 : DevRef τ sig)
    = (select (broadcastInDim S2000000x3 ![0] bcast_S2000000_S2000000x3_0 (V (main_call0_v12 : DevRef τ sig)))
        (V (main_call0_v13 : DevRef τ sig))
        (broadcastInDim S2000000x3 ![] bcast_S_S2000000x3 (constant S_ .f32 0x7FC00000#32)) : FVec Ideal S2000000x3 .f32) := by
  after_results_simp
  simp only [cast_cast, cast_eq]

theorem B_arg2 : after opsB V (main_arg2 : DevRef τ sig) = V (main_arg2 : DevRef τ sig) := by after_results_simp
theorem B_arg3 : after opsB V (main_arg3 : DevRef τ sig) = V (main_arg3 : DevRef τ sig) := by after_results_simp

theorem C_v4 : after opsC V (main_v4 : DevRef τ sig)
    = (addf (Host.dotGeneral (φ₁ := .f32) (φ₂ := .f32) dot_S2000000x3_S3x128_S2000000x128_1_0_0_1_n_n none (V (main_v0 : DevRef τ sig) : FVec Ideal S2000000x3 .f32) (V (main_arg2 : DevRef τ sig) : FVec Ideal S3x128 .f32))
        (biasRows (V (main_arg3 : DevRef τ sig) : FVec Ideal S128 .f32)) : FVec Ideal S2000000x128 .f32) := by
  after_results_simp
  unfold biasRows
  with_reducible rfl

end Stretches

/-- `refTerm` spelt out to the looked-up rows' select. -/
theorem refTerm_def (a0 : IVec S2000000 32) (a1 : FVec Ideal S119x3 .f32) (a2 : FVec Ideal S3x128 .f32) (a3 : FVec Ideal S128 .f32) :
    refTerm a0 a1 a2 a3
      = addf (Host.dotGeneral dot_S2000000x3_S3x128_S2000000x128_1_0_0_1_n_n none
          (select (broadcastInDim S2000000x3 ![0] bcast_S2000000_S2000000x3_0 (validMask a0))
            (Host.gather gather_S119x3_S2000000x1_S2000000x3_1_0_n_n_0_1_13 a1 (colIdx a0))
            (broadcastInDim S2000000x3 ![] bcast_S_S2000000x3 (constant S_ .f32 0x7FC00000#32))) a2) (biasRows a3) := rfl

/-- What the result buffer holds after the 27 operations, from any contents: the composed term of the four arguments. -/
theorem out_eq (V : Valuation τ sig (Elt Ideal)) :
    after ops V (main_v4 : DevRef τ sig)
      = refTerm (V (main_arg0 : DevRef τ sig)) (V (main_arg1 : DevRef τ sig)) (V (main_arg2 : DevRef τ sig)) (V (main_arg3 : DevRef τ sig)) := by
  rw [ops_split, after_append, after_append, C_v4, B_v0, B_arg2, B_arg3, A_v12, A_v13, A_arg2, A_arg3, refTerm_def]

theorem arg0_eq (V : Valuation τ sig (Elt Ideal)) : after ops V (main_arg0 : DevRef τ sig) = V (main_arg0 : DevRef τ sig) := by after_results_simp
theorem arg1_eq (V : Valuation τ sig (Elt Ideal)) : after ops V (main_arg1 : DevRef τ sig) = V (main_arg1 : DevRef τ sig) := by after_results_simp
theorem arg2_eq (V : Valuation τ sig (Elt Ideal)) : after ops V (main_arg2 : DevRef τ sig) = V (main_arg2 : DevRef τ sig) := by after_results_simp
theorem arg3_eq (V : Valuation τ sig (Elt Ideal)) : after ops V (main_arg3 : DevRef τ sig) = V (main_arg3 : DevRef τ sig) := by after_results_simp

/-- At the compiled mesh, from any memory with zero counters: every weakly fair execution of @main on the
    TensorCores terminates with the result buffer at `refTerm` of the arguments' launch contents and the four
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v4).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.PreDecode.lean ====
/-
  The precondition, read back to the one fact the value proof uses: every index word names a row of the
  119-row table. The printed predicate is a conjunction of four `all`-reductions; its last conjunct reduces,
  over the 2,000,000 index words, the bit `0 ≤ src r ∧ src r ≤ 118` (both comparisons signed). A reduction by
  `and` that came out 1 met a 1 at every element, and a 32-bit word in [0, 118] signed is its own unsigned value.
-/
import proofs.«203041_g70987219468541_cont_9to1_m_1244_31_alg».proof.Pre_input_domain
import proofs.«203041_g70987219468541_cont_9to1_m_1244_31_alg».proof.Proof.Gen.Pre_input_domain
import proofs.«203041_g70987219468541_cont_9to1_m_1244_31_alg».proof.Proof.Spec
import Idealize.ShloMosaic.Lib.ReduceAll

noncomputable section

namespace Cert.Proof.PreDecode

open Idealize.ShloMosaic Idealize.ShloMosaic.ValueIdx

/-- A 32-bit word that is at least 0 and at most 118 read signed is at most 118 read unsigned. -/
theorem toNat_le_of_signed (v : BitVec 32) (h0 : IntOp.cmpi .sge v 0#32 = 1#1) (h1 : IntOp.cmpi .sle v 118#32 = 1#1) :
    v.toNat ≤ 118 := by
  rw [IntOp.cmpi_sge] at h0
  rw [IntOp.cmpi_sle] at h1
  have e0 : (0#32 : BitVec 32).toInt = 0 := by decide
  have e1 : (118#32 : BitVec 32).toInt = 118 := by decide
  rw [e0] at h0
  rw [e1] at h1
  rw [BitVec.toInt_eq_toNat_cond] at h0 h1
  have hlt := v.isLt
  split at h0 <;> omega

/-- The rank-0 shape has one index. -/
instance : Subsingleton Cert.Pre_input_domain.S_.Idx := ⟨fun a b => funext fun d => d.elim0⟩

/-- The precondition holding (the predicate all ones) puts every index word in [0, 118]. -/
theorem inRange_of_fn {F : FTy → Type} [FloatOps F] [Cert.Pre_input_domain.Facts]
    (a0 : IVec Cert.Pre_input_domain.S2000000 32) (a1 : FVec F Cert.Pre_input_domain.S119x3 .f32)
    (a2 : FVec F Cert.Pre_input_domain.S3x128 .f32) (a3 : FVec F Cert.Pre_input_domain.S128 .f32)
    (h : Cert.Pre_input_domain.fn (F := F) a0 a1 a2 a3 = fun _ => 1#1) : Cert.Proof.Spec.InRange a0 := by
  intro r
  have e := congrFun h ix0
  dsimp only [Cert.Pre_input_domain.fn, Cert.Pre_input_domain.fn_part1] at e
  have e2 := (IntOp.andi_eq_one.1 e).2
  have e3 := Host.reduce_andi_all _ _ _ _ ix0 e2 (ix1 r)
  obtain ⟨h0, h1⟩ := IntOp.andi_eq_one.1 e3
  exact toNat_le_of_signed _ h0 h1

end Cert.Proof.PreDecode

end
-- ==== Proof.Assemble.lean ====
/-
  The claims, assembled.

  Each printed kernel program's run (the launch theorem applied to the tile's obligation and @main's proof) ends with
  the result at the gathered projected rows and the four arguments as launched; its frame is that run with the result
  dropped. The reference's frame is its run with the result dropped. At the ideal instance the kernel's result — row r
  is the projected table's row the r-th index names — and the reference's — the looked-up feature row projected — are
  the one function of the four arguments, when every index names a row of the table; the precondition says they do.
-/
import proofs.«203041_g70987219468541_cont_9to1_m_1244_31_alg».proof.Defs
import proofs.«203041_g70987219468541_cont_9to1_m_1244_31_alg».proof.Proof.Launch
import proofs.«203041_g70987219468541_cont_9to1_m_1244_31_alg».proof.Proof.TileObl
import proofs.«203041_g70987219468541_cont_9to1_m_1244_31_alg».proof.Proof.KBLaunch
import proofs.«203041_g70987219468541_cont_9to1_m_1244_31_alg».proof.Proof.KBTileObl
import proofs.«203041_g70987219468541_cont_9to1_m_1244_31_alg».proof.Proof.RefRun
import proofs.«203041_g70987219468541_cont_9to1_m_1244_31_alg».proof.Proof.PreDecode
import proofs.«203041_g70987219468541_cont_9to1_m_1244_31_alg».proof.Proof.Gen.Pre_input_domain

noncomputable section

/-! ## The kernel program at the ideal instance's names -/

namespace Cert.Proof.KI

section Pieces
open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The precondition as printed (the predicate all ones on every device's arguments) gives what the proof asks of the
    launch memory: every index names a row of the feature table. -/
theorem preOK_of_fn (m : (ℓ : Loc nD τ sig) → Buf (Elt F) ℓ)
    (h : ∀ c : Dev nD, Cert.Pre_input_domain.fn (F := F) (m (srcLoc c)) (m (fmLoc c)) (m (wLoc c)) (m (bLoc c)) = fun _ => 1#1) :
    PreOK m :=
  fun d => Cert.Proof.PreDecode.inRange_of_fn _ _ _ _ (h d)

/-- What the run is assembled from, at one launch memory: the TensorCore pipeline's component of the launch element
    with what it funds on each device, the proof of one tile's body at every tile of the grid, and the proof of @main. -/
structure Pieces (m : (ℓ : Loc nD τ sig) → Buf (Elt F) ℓ) (ρ : Dev nD → PrngReg) where
  pInit : UP
  GP : Dev nD → sProp 𝕄
  gp_fund : (BI.own (EP (F := F) pInit) : sProp 𝕄) ⊢ |={Set.univ}=> bigSep Finset.univ GP
  hbody : ∀ (d : Dev nD) (c : Fin (grid1.bound 0)) (s : Fin (grid1.bound 1)) (O : CellTallies nD τ sig (HIx 1)) (W : Waits sig (HIx 1)),
    (∀ g, O g none = 0) → (∀ g ι, 0 < O g ι → 8 * (0 : Fin 1).val + 6 ≤ (K (F := F)).lev g ι) → TileSpec m d c s O W
  hmain : ∀ (κ : GSem nD τ sig → ℕ) (d : Dev nD),
    iprop((K (F := F)).ctx EH (P m) κ ∗ (K (F := F)).tcSt EH d 0 ∗ (K (F := F)).tcRes m ρ d ∗ GP d)
      ⊢ wp frame (wpE ((K (F := F)).defs (D (F := F))) 𝒱 (SparseCore.T d) none) Set.univ (main d)
          fun _ => iprop((K (F := F)).tcSt EH d 1 ∗ FIN m d)

/-- The whole program's run, from the pieces: the result is the gathered projected rows, the arguments are as launched. -/
theorem run_all [∀ e, Nonempty (Elt F e)] (m : (ℓ : Loc nD τ sig) → Buf (Elt F) ℓ) (ρ : Dev nD → PrngReg) (pc : Pieces m ρ) :
    θ_run (Cert.KernelIdeal.defs (F := F)) (Cert.KernelIdeal.threads (F := F)) ⟨m, fun _ => 0, ρ⟩ (QC m) :=
  run_main m ρ pc.pInit pc.GP pc.gp_fund (tileObl m pc.hbody) pc.hmain

end Pieces

end Cert.Proof.KI

/-! ## The same over the program as printed -/

namespace Cert.Proof.KB

section Pieces
open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The precondition as printed (the predicate all ones on every device's arguments) gives what the proof asks of the
    launch memory: every index names a row of the feature table. -/
theorem preOK_of_fn (m : (ℓ : Loc nD τ sig) → Buf (Elt F) ℓ)
    (h : ∀ c : Dev nD, Cert.Pre_input_domain.fn (F := F) (m (srcLoc c)) (m (fmLoc c)) (m (wLoc c)) (m (bLoc c)) = fun _ => 1#1) :
    PreOK m :=
  fun d => Cert.Proof.PreDecode.inRange_of_fn _ _ _ _ (h d)

/-- What the run is assembled from, at one launch memory: the TensorCore pipeline's component of the launch element
    with what it funds on each device, the proof of one tile's body at every tile of the grid, and the proof of @main. -/
structure Pieces (m : (ℓ : Loc nD τ sig) → Buf (Elt F) ℓ) (ρ : Dev nD → PrngReg) where
  pInit : UP
  GP : Dev nD → sProp 𝕄
  gp_fund : (BI.own (EP (F := F) pInit) : sProp 𝕄) ⊢ |={Set.univ}=> bigSep Finset.univ GP
  hbody : ∀ (d : Dev nD) (c : Fin (grid1.bound 0)) (s : Fin (grid1.bound 1)) (O : CellTallies nD τ sig (HIx 1)) (W : Waits sig (HIx 1)),
    (∀ g, O g none = 0) → (∀ g ι, 0 < O g ι → 8 * (0 : Fin 1).val + 6 ≤ (K (F := F)).lev g ι) → TileSpec m d c s O W
  hmain : ∀ (κ : GSem nD τ sig → ℕ) (d : Dev nD),
    iprop((K (F := F)).ctx EH (P m) κ ∗ (K (F := F)).tcSt EH d 0 ∗ (K (F := F)).tcRes m ρ d ∗ GP d)
      ⊢ wp frame (wpE ((K (F := F)).defs (D (F := F))) 𝒱 (SparseCore.T d) none) Set.univ (main d)
          fun _ => iprop((K (F := F)).tcSt EH d 1 ∗ FIN m d)

/-- The whole program's run, from the pieces: the result is the gathered projected rows, the arguments are as launched. -/
theorem run_all [∀ e, Nonempty (Elt F e)] (m : (ℓ : Loc nD τ sig) → Buf (Elt F) ℓ) (ρ : Dev nD → PrngReg) (pc : Pieces m ρ) :
    θ_run (Cert.Kernel.defs (F := F)) (Cert.Kernel.threads (F := F)) ⟨m, fun _ => 0, ρ⟩ (QC m) :=
  run_main m ρ pc.pInit pc.GP pc.gp_fund (tileObl m pc.hbody) pc.hmain

end Pieces

end Cert.Proof.KB

/-! ## The claims -/

namespace Cert.Proof

open Idealize.ShloMosaic Idealize.SL.Sem

theorem preOK_of_pre (m : (ℓ : Loc Cert.KernelIdeal.nD Cert.KernelIdeal.τ Cert.KernelIdeal.sig) → Buf (Elt Ideal) ℓ)
    (h : Cert.Pre_KernelIdeal m) : KI.PreOK m := KI.preOK_of_fn m h

theorem preOK_of_pre_bits (m : (ℓ : Loc Cert.Kernel.nD Cert.Kernel.τ Cert.Kernel.sig) → Buf (Elt Bits) ℓ)
    (h : Cert.Pre_Kernel m) : KB.PreOK m := KB.preOK_of_fn m h

/-- The program as printed runs and leaves its arguments unchanged. -/
theorem frame_Kernel (pcs : ∀ m ρ, KB.PreOK m → KB.Pieces (F := Bits) m ρ) : Cert.frame_Kernel := fun m ρ hpre =>
  (θ_run Cert.Kernel.defs _ _).mono (fun _ h c => (h c).2)
    (KB.run_all (F := Bits) m ρ (pcs m ρ (preOK_of_pre_bits m hpre)))

/-- The program at the ideal instance runs and leaves its arguments unchanged. -/
theorem frame_KernelIdeal (pcs : ∀ m ρ, KI.PreOK m → KI.Pieces (F := Ideal) m ρ) : Cert.frame_KernelIdeal := fun m ρ hpre =>
  (θ_run Cert.KernelIdeal.defs _ _).mono (fun _ h c => (h c).2)
    (KI.run_all (F := Ideal) m ρ (pcs m ρ (preOK_of_pre m hpre)))

/-- The reference runs and leaves its arguments unchanged. -/
theorem frame_ReferenceIdeal : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- At the ideal instance, from memories agreeing on the arguments, both programs end with the one result: the
    kernel's run ends at the gathered projected rows, the reference's at its composed term, and both are the function
    `Spec.G` of the arguments when every index names a row. -/
theorem algebraic (pcs : ∀ m ρ, KI.PreOK m → KI.Pieces (F := Ideal) m ρ)
    (refTerm_eq_G : ∀ a0 a1 a2 a3, Cert.Proof.Spec.InRange a0 →
      Cert.ReferenceIdeal.RefValue.refTerm a0 a1 a2 a3 = Cert.Proof.Spec.G a0 a1 a2 a3)
    (outG_eq : ∀ (m : (ℓ : Loc Cert.KernelIdeal.nD Cert.KernelIdeal.τ Cert.KernelIdeal.sig) → Buf (Elt Ideal) ℓ) (d : Dev Cert.KernelIdeal.nD),
      KI.outG (F := Ideal) m d = Cert.Proof.Spec.G (m (KI.srcLoc d)) (m (KI.fmLoc d)) (m (KI.wLoc d)) (m (KI.bLoc d))) :
    Cert.algebraic_KernelIdeal_ReferenceIdeal := by
  intro m ρ m' ρ' hpre hagree
  have hP : KI.PreOK m := preOK_of_pre m hpre
  refine ⟨fun c => KI.outG (F := Ideal) m c, KI.run_all (F := Ideal) m ρ (pcs m ρ hP), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  exact (refTerm_eq_G _ _ _ _ (hP c)).trans (outG_eq m c).symm

/-- Everything the certificate claims, from the pieces of the two kernel runs and the two value equations. -/
theorem claim_of (pcsB : ∀ m ρ, KB.PreOK m → KB.Pieces (F := Bits) m ρ) (pcsI : ∀ m ρ, KI.PreOK m → KI.Pieces (F := Ideal) m ρ)
    (refTerm_eq_G : ∀ a0 a1 a2 a3, Cert.Proof.Spec.InRange a0 →
      Cert.ReferenceIdeal.RefValue.refTerm a0 a1 a2 a3 = Cert.Proof.Spec.G a0 a1 a2 a3)
    (outG_eq : ∀ (m : (ℓ : Loc Cert.KernelIdeal.nD Cert.KernelIdeal.τ Cert.KernelIdeal.sig) → Buf (Elt Ideal) ℓ) (d : Dev Cert.KernelIdeal.nD),
      KI.outG (F := Ideal) m d = Cert.Proof.Spec.G (m (KI.srcLoc d)) (m (KI.fmLoc d)) (m (KI.wLoc d)) (m (KI.bLoc d))) :
    Cert.Claim :=
  ⟨Cert.Kernel.Gen.facts, Cert.KernelIdeal.Gen.facts, Cert.ReferenceIdeal.Gen.facts, Cert.Pre_input_domain.Gen.facts,
    frame_Kernel pcsB, frame_KernelIdeal pcsI, frame_ReferenceIdeal, preserves, algebraic pcsI refTerm_eq_G outG_eq⟩

end Cert.Proof

end
-- ==== Proof.TileSets.lean ====
/-
  The pieces a tile's transfers move, named once.
  The tile's index scratch (7168 words) is two halves of 3584 words (one stage of 28 chunks' indices each), each half 28
  lists of 128 indices; its row scratch is seven slots of 128 rows; the padded index array's part of worker w is 18
  stage blocks of 3584 words; the result's chunks are Pay.lean's `chunkSet`. Trip k of worker w works on chunks
  504 w + 7 k + b (b < 7), whose index lists are the lists 28 ((k / 4) % 2) + 7 (k % 4) + b of the scratch.
-/
import proofs.«203041_g70987219468541_cont_9to1_m_1244_31_alg».proof.Proof.TileDefs
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The index scratch: halves and lists -/

theorem pc_inb (p : Fin 56) : ∀ a, (![128 * p.val] : Fin 1 → Nat) a + S128.size a ≤ S7168.size a := by
  have := p.isLt
  intro a; fin_cases a; simp; omega
theorem half_inb (h : Fin 2) : ∀ a, (![3584 * h.val] : Fin 1 → Nat) a + S3584.size a ≤ S7168.size a := by
  have := h.isLt
  intro a; fin_cases a; simp; omega

/-- list p of the index scratch: words 128 p .. 128 p + 127 -/
abbrev pcM (p : Fin 56) : Memref sig .scVector .vmem S128 .i32 := (ixS).slice (Rect.unit (s := S7168) ![128 * p.val] S128.size (pc_inb p)) (fun _ => rfl)
abbrev pcSet (p : Fin 56) : Finset S7168.Idx := (pcM p).view.set
/-- half h of the index scratch: words 3584 h .. 3584 h + 3583 -/
abbrev halfM (h : Fin 2) : Memref sig .scVector .vmem S3584 .i32 := (ixS).slice (Rect.unit (s := S7168) ![3584 * h.val] S3584.size (half_inb h)) (fun _ => rfl)
abbrev halfSet (h : Fin 2) : Finset S7168.Idx := (halfM h).view.set

/-- the half stage j's indices land in -/
def halfOf (j : ℕ) : Fin 2 := ⟨j % 2, Nat.mod_lt _ (by decide)⟩
/-- the list of trip k's slot b -/
def listOf (k : Fin k1_t1_loop.trips) (b : Fin 7) : Fin 56 := ⟨28 * ((k.val / 4) % 2) + 7 * (k.val % 4) + b.val, by omega⟩

/-! ## The row scratch: seven slots -/

abbrev slotM0 : Memref sig .scVector .vmem S128x128 .f32 := (((rwS).slice (Rect.unit (s := S7x128x128) ![0, 0, 0] S1x128x128.size inb_S7x128x128_S1x128x128_0_0_0) (fun _ => rfl)).squeeze S128x128 squeezes_S1x128x128_S128x128)
abbrev slotM1 : Memref sig .scVector .vmem S128x128 .f32 := (((rwS).slice (Rect.unit (s := S7x128x128) ![1, 0, 0] S1x128x128.size inb_S7x128x128_S1x128x128_1_0_0) (fun _ => rfl)).squeeze S128x128 squeezes_S1x128x128_S128x128)
abbrev slotM2 : Memref sig .scVector .vmem S128x128 .f32 := (((rwS).slice (Rect.unit (s := S7x128x128) ![2, 0, 0] S1x128x128.size inb_S7x128x128_S1x128x128_2_0_0) (fun _ => rfl)).squeeze S128x128 squeezes_S1x128x128_S128x128)
abbrev slotM3 : Memref sig .scVector .vmem S128x128 .f32 := (((rwS).slice (Rect.unit (s := S7x128x128) ![3, 0, 0] S1x128x128.size inb_S7x128x128_S1x128x128_3_0_0) (fun _ => rfl)).squeeze S128x128 squeezes_S1x128x128_S128x128)
abbrev slotM4 : Memref sig .scVector .vmem S128x128 .f32 := (((rwS).slice (Rect.unit (s := S7x128x128) ![4, 0, 0] S1x128x128.size inb_S7x128x128_S1x128x128_4_0_0) (fun _ => rfl)).squeeze S128x128 squeezes_S1x128x128_S128x128)
abbrev slotM5 : Memref sig .scVector .vmem S128x128 .f32 := (((rwS).slice (Rect.unit (s := S7x128x128) ![5, 0, 0] S1x128x128.size inb_S7x128x128_S1x128x128_5_0_0) (fun _ => rfl)).squeeze S128x128 squeezes_S1x128x128_S128x128)
abbrev slotM6 : Memref sig .scVector .vmem S128x128 .f32 := (((rwS).slice (Rect.unit (s := S7x128x128) ![6, 0, 0] S1x128x128.size inb_S7x128x128_S1x128x128_6_0_0) (fun _ => rfl)).squeeze S128x128 squeezes_S1x128x128_S128x128)
abbrev slotM : Fin 7 → Memref sig .scVector .vmem S128x128 .f32 := ![slotM0, slotM1, slotM2, slotM3, slotM4, slotM5, slotM6]

/-! ## The padded index array: a worker's stage blocks -/

theorem st_inb (w : Fin 32) (j : Fin 18) : ∀ a, (![64512 * w.val + 3584 * j.val] : Fin 1 → Nat) a + S3584.size a ≤ S2064384.size a := by
  have := w.isLt; have := j.isLt
  intro a; fin_cases a; simp; omega
/-- stage j of worker w: words 64512 w + 3584 j .. + 3583 of the padded indices (the indices of its chunks 28 j .. 28 j + 27) -/
abbrev stM (w : Fin 32) (j : Fin 18) : Memref sig .scVector .hbm S3584 .i32 := (idxV).slice (Rect.unit (s := S2064384) ![64512 * w.val + 3584 * j.val] S3584.size (st_inb w j)) (fun _ => rfl)
abbrev stSet (w : Fin 32) (j : Fin 18) : Finset S2064384.Idx := (stM w j).view.set

/-- the worker number of tile (c, s), as a Fin 32 -/
def wOf (c : Fin (grid1.bound 0)) (s : Fin (grid1.bound 1)) : Fin 32 := ⟨2 * s.val + c.val, by have := c.isLt; have := s.isLt; simp [grid1, Pipeline.Grid.bound] at *; omega⟩

/-- chunk number of trip k, slot b, of worker w (when it exists) -/
def chunkOf (w : Fin 32) (k : Fin k1_t1_loop.trips) (b : Fin 7) (h : 504 * w.val + 7 * k.val + b.val < 15625) : Fin 15625 := ⟨504 * w.val + 7 * k.val + b.val, h⟩

end Cert.Proof.KI

end
-- ==== Proof.TileInv.lean ====
/-
  The invariant of a tile's loop of 72 trips, for a worker whose 504 chunks all exist (workers 0 .. 30).

  Before trip k the tile holds:
  * for its index prefetch: while k ≤ 68 one copy is in flight on its semaphore, bringing stage (k + 3) / 4 of the
    worker's indices into half ((k + 3) / 4) % 2 of the index scratch; the other half is held, and when k is not a
    multiple of 4 it holds stage k / 4 — the lists this trip's gathers read. From trip 69 on nothing is in flight and
    half 1 holds stage 17.
  * for each of the seven row slots: before trip 0 the slot and its copy-out semaphore at zero; later a copy-out in
    flight that will hand back chunk 7 (k - 1) + b of the worker at the result's values, and the slot.
  * the worker's chunks before trip k - 1 at the result's values, those from trip k on untouched;
  * seven read shares of the shared table (one per gather semaphore), the gather semaphores at zero, what it owes.
-/
import proofs.«203041_g70987219468541_cont_9to1_m_1244_31_alg».proof.Proof.TileSets
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Inv

variable (d : Dev nD) (c : Fin (grid1.bound 0)) (s : Fin (grid1.bound 1))

/-- the padded indices, as the launch memory determines them -/
abbrev idxc : Buf (Elt F) (idxLoc d) := idxOf (m (srcLoc d))
/-- the tile's read share of them -/
abbrev qI : PosShare TreeShare := tileShare (cT c) (sT s)

def stJ (j : ℕ) : Fin 18 := ⟨min j 17, by omega⟩
/-- the worker's n-th chunk, n = 7 k + b for trip k and slot b (clamped into range so as to be total; exact for workers 0 .. 30) -/
def chunkIxN (n : ℕ) : Fin 15625 := ⟨min (504 * (wOf c s).val + n) 15624, by omega⟩
/-- chunk number of the worker's trip k, slot b -/
abbrev chunkIx (k b : ℕ) : Fin 15625 := chunkIxN c s (7 * k + b)

/-- half h of the index scratch holds stage j of the worker's indices -/
def StageAt (h : Fin 2) (j : ℕ) (f : Buf (Elt F) ((ixS).view.loc (thr d c s))) : Prop :=
  (halfM h).view.read (Elt F) f = (stM (wOf c s) (stJ j)).view.read (Elt F) (idxc m d)

/-- a half of the index scratch held, holding stage j if `p` -/
def HalfHeld (h : Fin 2) (p : Prop) (j : ℕ) : sProp 𝕄 :=
  iprop(∃ f : Buf (Elt F) ((ixS).view.loc (thr d c s)), ⌜p → StageAt m d c s h j f⌝ ∗ (halfM h).view.loc (thr d c s) ↦[halfSet h]{fullShare} f)

/-- the prefetch of stage j in flight: its wait hands back half j % 2 holding the stage, and the stage's block of the indices -/
def PrefFlight (j : ℕ) : sProp 𝕄 :=
  iprop(Transfers.Flight (countersEmb (U := UU)) (thr d c s) (SemLoc.dma cc1_scratch3.sem) (none : HIx 1) 114688
      iprop(HalfHeld m d c s (halfOf j) True j ∗ (stM (wOf c s) (stJ j)).view.loc (thr d c s) ↦[stSet (wOf c s) (stJ j)]{qI c s} idxc m d)
    ∗ (idxV).view.loc (thr d c s) ↦[Finset.univ \ stSet (wOf c s) (stJ j)]{qI c s} idxc m d)

/-- the index prefetch's state before trip k -/
def IdxSt (k : ℕ) : sProp 𝕄 :=
  if k ≤ 68 then iprop(PrefFlight m d c s ((k + 3) / 4) ∗ HalfHeld m d c s (halfOf ((k + 3) / 4 + 1)) (k % 4 ≠ 0) (k / 4))
  else iprop(semVal (thr d c s, SemLoc.dma cc1_scratch3.sem) 0 ∗ ((idxV).view.loc (thr d c s) ↦{qI c s} idxc m d)
    ∗ HalfHeld m d c s (halfOf 17) True 17 ∗ HalfHeld m d c s (halfOf 18) False 0)

/-- slot 0 before trip k -/
def Slot0 (k : ℕ) : sProp 𝕄 :=
  if k = 0 then iprop(semVal (thr d c s, SemLoc.dma cc1_scratch11.sem) 0 ∗ ∃ f : Buf (Elt F) ((rwS).view.loc (thr d c s)), (slotM0).view.loc (thr d c s) ↦[(slotM0).view.set]{fullShare} f)
  else iprop(∃ fR : Buf (Elt F) ((rwS).view.loc (thr d c s)), Transfers.Flight (countersEmb (U := UU)) (thr d c s) (SemLoc.dma cc1_scratch11.sem) (none : HIx 1) 524288
    iprop((outLoc d ↦[chunkSet (chunkIx c s (k - 1) 0)]{fullShare} outG m d) ∗ (slotM0).view.loc (thr d c s) ↦[(slotM0).view.set]{fullShare} fR))
/-- slot 1 before trip k -/
def Slot1 (k : ℕ) : sProp 𝕄 :=
  if k = 0 then iprop(semVal (thr d c s, SemLoc.dma cc1_scratch12.sem) 0 ∗ ∃ f : Buf (Elt F) ((rwS).view.loc (thr d c s)), (slotM1).view.loc (thr d c s) ↦[(slotM1).view.set]{fullShare} f)
  else iprop(∃ fR : Buf (Elt F) ((rwS).view.loc (thr d c s)), Transfers.Flight (countersEmb (U := UU)) (thr d c s) (SemLoc.dma cc1_scratch12.sem) (none : HIx 1) 524288
    iprop((outLoc d ↦[chunkSet (chunkIx c s (k - 1) 1)]{fullShare} outG m d) ∗ (slotM1).view.loc (thr d c s) ↦[(slotM1).view.set]{fullShare} fR))
/-- slot 2 before trip k -/
def Slot2 (k : ℕ) : sProp 𝕄 :=
  if k = 0 then iprop(semVal (thr d c s, SemLoc.dma cc1_scratch13.sem) 0 ∗ ∃ f : Buf (Elt F) ((rwS).view.loc (thr d c s)), (slotM2).view.loc (thr d c s) ↦[(slotM2).view.set]{fullShare} f)
  else iprop(∃ fR : Buf (Elt F) ((rwS).view.loc (thr d c s)), Transfers.Flight (countersEmb (U := UU)) (thr d c s) (SemLoc.dma cc1_scratch13.sem) (none : HIx 1) 524288
    iprop((outLoc d ↦[chunkSet (chunkIx c s (k - 1) 2)]{fullShare} outG m d) ∗ (slotM2).view.loc (thr d c s) ↦[(slotM2).view.set]{fullShare} fR))
/-- slot 3 before trip k -/
def Slot3 (k : ℕ) : sProp 𝕄 :=
  if k = 0 then iprop(semVal (thr d c s, SemLoc.dma cc1_scratch14.sem) 0 ∗ ∃ f : Buf (Elt F) ((rwS).view.loc (thr d c s)), (slotM3).view.loc (thr d c s) ↦[(slotM3).view.set]{fullShare} f)
  else iprop(∃ fR : Buf (Elt F) ((rwS).view.loc (thr d c s)), Transfers.Flight (countersEmb (U := UU)) (thr d c s) (SemLoc.dma cc1_scratch14.sem) (none : HIx 1) 524288
    iprop((outLoc d ↦[chunkSet (chunkIx c s (k - 1) 3)]{fullShare} outG m d) ∗ (slotM3).view.loc (thr d c s) ↦[(slotM3).view.set]{fullShare} fR))
/-- slot 4 before trip k -/
def Slot4 (k : ℕ) : sProp 𝕄 :=
  if k = 0 then iprop(semVal (thr d c s, SemLoc.dma cc1_scratch15.sem) 0 ∗ ∃ f : Buf (Elt F) ((rwS).view.loc (thr d c s)), (slotM4).view.loc (thr d c s) ↦[(slotM4).view.set]{fullShare} f)
  else iprop(∃ fR : Buf (Elt F) ((rwS).view.loc (thr d c s)), Transfers.Flight (countersEmb (U := UU)) (thr d c s) (SemLoc.dma cc1_scratch15.sem) (none : HIx 1) 524288
    iprop((outLoc d ↦[chunkSet (chunkIx c s (k - 1) 4)]{fullShare} outG m d) ∗ (slotM4).view.loc (thr d c s) ↦[(slotM4).view.set]{fullShare} fR))
/-- slot 5 before trip k -/
def Slot5 (k : ℕ) : sProp 𝕄 :=
  if k = 0 then iprop(semVal (thr d c s, SemLoc.dma cc1_scratch16.sem) 0 ∗ ∃ f : Buf (Elt F) ((rwS).view.loc (thr d c s)), (slotM5).view.loc (thr d c s) ↦[(slotM5).view.set]{fullShare} f)
  else iprop(∃ fR : Buf (Elt F) ((rwS).view.loc (thr d c s)), Transfers.Flight (countersEmb (U := UU)) (thr d c s) (SemLoc.dma cc1_scratch16.sem) (none : HIx 1) 524288
    iprop((outLoc d ↦[chunkSet (chunkIx c s (k - 1) 5)]{fullShare} outG m d) ∗ (slotM5).view.loc (thr d c s) ↦[(slotM5).view.set]{fullShare} fR))
/-- slot 6 before trip k -/
def Slot6 (k : ℕ) : sProp 𝕄 :=
  if k = 0 then iprop(semVal (thr d c s, SemLoc.dma cc1_scratch17.sem) 0 ∗ ∃ f : Buf (Elt F) ((rwS).view.loc (thr d c s)), (slotM6).view.loc (thr d c s) ↦[(slotM6).view.set]{fullShare} f)
  else iprop(∃ fR : Buf (Elt F) ((rwS).view.loc (thr d c s)), Transfers.Flight (countersEmb (U := UU)) (thr d c s) (SemLoc.dma cc1_scratch17.sem) (none : HIx 1) 524288
    iprop((outLoc d ↦[chunkSet (chunkIx c s (k - 1) 6)]{fullShare} outG m d) ∗ (slotM6).view.loc (thr d c s) ↦[(slotM6).view.set]{fullShare} fR))

/-- the seven slots -/
def Slots (k : ℕ) : sProp 𝕄 :=
  iprop(Slot0 m d c s k ∗ Slot1 m d c s k ∗ Slot2 m d c s k ∗ Slot3 m d c s k ∗ Slot4 m d c s k ∗ Slot5 m d c s k ∗ Slot6 m d c s k)

/-- the worker's chunks of the trips before k - 1, at the result's values -/
def Done (k : ℕ) : sProp 𝕄 := bigSep (Finset.range (7 * (k - 1))) fun n => outChunk d (chunkIxN c s n) (outG m d)
/-- the worker's chunks of the trips from k on, untouched -/
def Todo (k : ℕ) : sProp 𝕄 := bigSep (Finset.Ico (7 * k) 504) fun n => outChunk d (chunkIxN c s n) (m (outLoc d))
/-- the worker's chunks not in flight -/
def ChunksSt (k : ℕ) : sProp 𝕄 := iprop(Done m d c s k ∗ Todo m d c s k)

/-- the seven read shares of the shared table, one per gather semaphore, and those semaphores at zero -/
def Toks (tblS : Buf (Elt F) ((shS).view.loc (thr d c s))) : sProp 𝕄 :=
  iprop(((shS).view.loc (thr d c s) ↦{Transfers.shareTokN (shShare (sT s)) 5} tblS) ∗ ((shS).view.loc (thr d c s) ↦{Transfers.shareTokN (shShare (sT s)) 6} tblS) ∗ ((shS).view.loc (thr d c s) ↦{Transfers.shareTokN (shShare (sT s)) 7} tblS) ∗ ((shS).view.loc (thr d c s) ↦{Transfers.shareTokN (shShare (sT s)) 8} tblS) ∗ ((shS).view.loc (thr d c s) ↦{Transfers.shareTokN (shShare (sT s)) 9} tblS) ∗ ((shS).view.loc (thr d c s) ↦{Transfers.shareTokN (shShare (sT s)) 10} tblS) ∗ ((shS).view.loc (thr d c s) ↦{Transfers.shareTokN (shShare (sT s)) 11} tblS))
def GSems : sProp 𝕄 :=
  iprop(semVal (thr d c s, SemLoc.dma cc1_scratch4.sem) 0 ∗ semVal (thr d c s, SemLoc.dma cc1_scratch5.sem) 0 ∗ semVal (thr d c s, SemLoc.dma cc1_scratch6.sem) 0 ∗ semVal (thr d c s, SemLoc.dma cc1_scratch7.sem) 0 ∗ semVal (thr d c s, SemLoc.dma cc1_scratch8.sem) 0 ∗ semVal (thr d c s, SemLoc.dma cc1_scratch9.sem) 0 ∗ semVal (thr d c s, SemLoc.dma cc1_scratch10.sem) 0)

/-- what the tile owes, its recorded waits grown by waits at its own index or the call's -/
def Owes (O : CellTallies nD τ sig (HIx 1)) (W : Waits sig (HIx 1)) : sProp 𝕄 :=
  iprop(∃ W', ⌜∀ p ∈ W', p ∈ W ∨ p.2 = none ∨ p.2 = some 0⌝ ∗ owes (thr d c s) O W')

/-- The loop's invariant before trip k. -/
def Inv (tblS : Buf (Elt F) ((shS).view.loc (thr d c s))) (O : CellTallies nD τ sig (HIx 1)) (W : Waits sig (HIx 1)) (k : ℕ) (_ : PUnit) : sProp 𝕄 :=
  iprop(Transfers.MayWaits (thr d c s) (none : HIx 1) O ∗ IdxSt m d c s k ∗ Slots m d c s k ∗ ChunksSt m d c s k
    ∗ Toks d c s tblS ∗ GSems d c s ∗ Owes d c s O W)

end Inv

end Cert.Proof.KI

end
-- ==== Proof.TileSetLemmas.lean ====
/-
  The pieces a tile's transfers move, under the names the program gives their memrefs: each slice the program takes of
  the index scratch, the row scratch, the result and the padded index array is one of the named pieces, because its offset
  (in closed form) is the piece's.
-/
import proofs.«203041_g70987219468541_cont_9to1_m_1244_31_alg».proof.Proof.TileSets
import proofs.«203041_g70987219468541_cont_9to1_m_1244_31_alg».proof.Proof.Chunks

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Rectangles at equal offsets -/

/-- Two unit-stride rectangles of the same sizes at equal offsets are the same rectangle. -/
theorem unit_congr {s : Shape} {off off' size : Fin s.rank → Nat} {inb : ∀ a, off a + size a ≤ s.size a}
    {inb' : ∀ a, off' a + size a ≤ s.size a} (h : off = off') :
    Rect.unit (s := s) off size inb = Rect.unit (s := s) off' size inb' := by subst h; rfl

section Tile

variable (d : Dev nD) (c : Fin (grid1.bound 0)) (s : Fin (grid1.bound 1))

/-! ## The result's chunks: rows 128 (504 w + 7 k + b) .. + 127 -/

/-- The rectangle at rows 129024 s + 64512 c + 896 k + 128 b is chunk 504 (2 s + c) + 7 k + b. -/
theorem chunk_unit (k : Fin k1_t1_loop.trips) (b : Fin 7) (h : 504 * (wOf c s).val + 7 * k.val + b.val < 15625)
    (off : Fin 2 → Nat) (inb : ∀ a, off a + S128x128.size a ≤ S2000000x128.size a)
    (e : off = ![129024 * s.val + 64512 * c.val + 896 * k.val + 128 * b.val, 0]) :
    Rect.unit (s := S2000000x128) off S128x128.size inb = chunkRect (chunkOf (wOf c s) k b h) := by
  refine unit_congr ?_
  rw [e]
  funext a
  fin_cases a
  · simp [chunkOf, wOf]; omega
  · rfl

theorem pts_chunk_gen (k : Fin k1_t1_loop.trips) (b : Fin 7) (h : 504 * (wOf c s).val + 7 * k.val + b.val < 15625)
    (off : Fin 2 → Nat) (inb : ∀ a, off a + S128x128.size a ≤ S2000000x128.size a)
    (e : off = ![129024 * s.val + 64512 * c.val + 896 * k.val + 128 * b.val, 0])
    (q : PosShare TreeShare) (f : Buf (Elt F) (outLoc d)) :
    (((outW).slice (Rect.unit (s := S2000000x128) off S128x128.size inb) (fun _ => rfl)).view.loc (thr d c s)
        ↦[((outW).slice (Rect.unit (s := S2000000x128) off S128x128.size inb) (fun _ => rfl)).view.set]{q} f : sProp 𝕄)
      = (outLoc d ↦[chunkSet (chunkOf (wOf c s) k b h)]{q} f) := by
  show (outLoc d ↦[((outV).view.slice (Rect.unit (s := S2000000x128) off S128x128.size inb)).set]{q} f : sProp 𝕄) = _
  rw [chunk_unit c s k b h off inb e]

theorem pts_chunk0 (k : Fin k1_t1_loop.trips) (hc : k1_cond18 (coordsV c s) k = 1#1) (h : 504 * (wOf c s).val + 7 * k.val + 0 < 15625)
    (q : PosShare TreeShare) (f : Buf (Elt F) (outLoc d)) :
    (((outW).slice (Rect.unit (s := S2000000x128) (k1_off12 (coordsV c s) k) S128x128.size (k1_off12_inb (coordsV c s) k hc)) (fun _ => rfl)).view.loc (thr d c s)
        ↦[((outW).slice (Rect.unit (s := S2000000x128) (k1_off12 (coordsV c s) k) S128x128.size (k1_off12_inb (coordsV c s) k hc)) (fun _ => rfl)).view.set]{q} f : sProp 𝕄)
      = (outLoc d ↦[chunkSet (chunkOf (wOf c s) k ⟨0, of_decide_eq_true rfl⟩ h)]{q} f) :=
  pts_chunk_gen d c s k ⟨0, of_decide_eq_true rfl⟩ h _ _ (k1_off12_eq _ _) q f

theorem pts_chunk1 (k : Fin k1_t1_loop.trips) (hc : k1_cond19 (coordsV c s) k = 1#1) (h : 504 * (wOf c s).val + 7 * k.val + 1 < 15625)
    (q : PosShare TreeShare) (f : Buf (Elt F) (outLoc d)) :
    (((outW).slice (Rect.unit (s := S2000000x128) (k1_off14 (coordsV c s) k) S128x128.size (k1_off14_inb (coordsV c s) k hc)) (fun _ => rfl)).view.loc (thr d c s)
        ↦[((outW).slice (Rect.unit (s := S2000000x128) (k1_off14 (coordsV c s) k) S128x128.size (k1_off14_inb (coordsV c s) k hc)) (fun _ => rfl)).view.set]{q} f : sProp 𝕄)
      = (outLoc d ↦[chunkSet (chunkOf (wOf c s) k ⟨1, of_decide_eq_true rfl⟩ h)]{q} f) :=
  pts_chunk_gen d c s k ⟨1, of_decide_eq_true rfl⟩ h _ _ (k1_off14_eq _ _) q f

theorem pts_chunk2 (k : Fin k1_t1_loop.trips) (hc : k1_cond20 (coordsV c s) k = 1#1) (h : 504 * (wOf c s).val + 7 * k.val + 2 < 15625)
    (q : PosShare TreeShare) (f : Buf (Elt F) (outLoc d)) :
    (((outW).slice (Rect.unit (s := S2000000x128) (k1_off16 (coordsV c s) k) S128x128.size (k1_off16_inb (coordsV c s) k hc)) (fun _ => rfl)).view.loc (thr d c s)
        ↦[((outW).slice (Rect.unit (s := S2000000x128) (k1_off16 (coordsV c s) k) S128x128.size (k1_off16_inb (coordsV c s) k hc)) (fun _ => rfl)).view.set]{q} f : sProp 𝕄)
      = (outLoc d ↦[chunkSet (chunkOf (wOf c s) k ⟨2, of_decide_eq_true rfl⟩ h)]{q} f) :=
  pts_chunk_gen d c s k ⟨2, of_decide_eq_true rfl⟩ h _ _ (k1_off16_eq _ _) q f

theorem pts_chunk3 (k : Fin k1_t1_loop.trips) (hc : k1_cond21 (coordsV c s) k = 1#1) (h : 504 * (wOf c s).val + 7 * k.val + 3 < 15625)
    (q : PosShare TreeShare) (f : Buf (Elt F) (outLoc d)) :
    (((outW).slice (Rect.unit (s := S2000000x128) (k1_off18 (coordsV c s) k) S128x128.size (k1_off18_inb (coordsV c s) k hc)) (fun _ => rfl)).view.loc (thr d c s)
        ↦[((outW).slice (Rect.unit (s := S2000000x128) (k1_off18 (coordsV c s) k) S128x128.size (k1_off18_inb (coordsV c s) k hc)) (fun _ => rfl)).view.set]{q} f : sProp 𝕄)
      = (outLoc d ↦[chunkSet (chunkOf (wOf c s) k ⟨3, of_decide_eq_true rfl⟩ h)]{q} f) :=
  pts_chunk_gen d c s k ⟨3, of_decide_eq_true rfl⟩ h _ _ (k1_off18_eq _ _) q f

theorem pts_chunk4 (k : Fin k1_t1_loop.trips) (hc : k1_cond22 (coordsV c s) k = 1#1) (h : 504 * (wOf c s).val + 7 * k.val + 4 < 15625)
    (q : PosShare TreeShare) (f : Buf (Elt F) (outLoc d)) :
    (((outW).slice (Rect.unit (s := S2000000x128) (k1_off20 (coordsV c s) k) S128x128.size (k1_off20_inb (coordsV c s) k hc)) (fun _ => rfl)).view.loc (thr d c s)
        ↦[((outW).slice (Rect.unit (s := S2000000x128) (k1_off20 (coordsV c s) k) S128x128.size (k1_off20_inb (coordsV c s) k hc)) (fun _ => rfl)).view.set]{q} f : sProp 𝕄)
      = (outLoc d ↦[chunkSet (chunkOf (wOf c s) k ⟨4, of_decide_eq_true rfl⟩ h)]{q} f) :=
  pts_chunk_gen d c s k ⟨4, of_decide_eq_true rfl⟩ h _ _ (k1_off20_eq _ _) q f

theorem pts_chunk5 (k : Fin k1_t1_loop.trips) (hc : k1_cond23 (coordsV c s) k = 1#1) (h : 504 * (wOf c s).val + 7 * k.val + 5 < 15625)
    (q : PosShare TreeShare) (f : Buf (Elt F) (outLoc d)) :
    (((outW).slice (Rect.unit (s := S2000000x128) (k1_off22 (coordsV c s) k) S128x128.size (k1_off22_inb (coordsV c s) k hc)) (fun _ => rfl)).view.loc (thr d c s)
        ↦[((outW).slice (Rect.unit (s := S2000000x128) (k1_off22 (coordsV c s) k) S128x128.size (k1_off22_inb (coordsV c s) k hc)) (fun _ => rfl)).view.set]{q} f : sProp 𝕄)
      = (outLoc d ↦[chunkSet (chunkOf (wOf c s) k ⟨5, of_decide_eq_true rfl⟩ h)]{q} f) :=
  pts_chunk_gen d c s k ⟨5, of_decide_eq_true rfl⟩ h _ _ (k1_off22_eq _ _) q f

theorem pts_chunk6 (k : Fin k1_t1_loop.trips) (hc : k1_cond24 (coordsV c s) k = 1#1) (h : 504 * (wOf c s).val + 7 * k.val + 6 < 15625)
    (q : PosShare TreeShare) (f : Buf (Elt F) (outLoc d)) :
    (((outW).slice (Rect.unit (s := S2000000x128) (k1_off24 (coordsV c s) k) S128x128.size (k1_off24_inb (coordsV c s) k hc)) (fun _ => rfl)).view.loc (thr d c s)
        ↦[((outW).slice (Rect.unit (s := S2000000x128) (k1_off24 (coordsV c s) k) S128x128.size (k1_off24_inb (coordsV c s) k hc)) (fun _ => rfl)).view.set]{q} f : sProp 𝕄)
      = (outLoc d ↦[chunkSet (chunkOf (wOf c s) k ⟨6, of_decide_eq_true rfl⟩ h)]{q} f) :=
  pts_chunk_gen d c s k ⟨6, of_decide_eq_true rfl⟩ h _ _ (k1_off24_eq _ _) q f

/-! ## The index scratch's lists: words 128 p .. 128 p + 127, p = 28 ((k / 4) % 2) + 7 (k % 4) + b -/

/-- The rectangle at word 3584 ((k / 4) % 2) + 896 (k % 4) + 128 b is list 28 ((k / 4) % 2) + 7 (k % 4) + b. -/
theorem list_unit (k : Fin k1_t1_loop.trips) (b : Fin 7)
    (off : Fin 1 → Nat) (inb : ∀ a, off a + S128.size a ≤ S7168.size a)
    (e : off = ![3584 * ((k.val / 4) % 2) + 896 * (k.val % 4) + 128 * b.val]) :
    Rect.unit (s := S7168) off S128.size inb = Rect.unit (s := S7168) ![128 * (listOf k b).val] S128.size (pc_inb (listOf k b)) := by
  refine unit_congr ?_
  rw [e]
  funext a
  fin_cases a
  simp [listOf]; omega

theorem pts_list_gen (k : Fin k1_t1_loop.trips) (b : Fin 7)
    (off : Fin 1 → Nat) (inb : ∀ a, off a + S128.size a ≤ S7168.size a)
    (e : off = ![3584 * ((k.val / 4) % 2) + 896 * (k.val % 4) + 128 * b.val])
    (q : PosShare TreeShare) (f : Buf (Elt F) ((ixS).view.loc (thr d c s))) :
    (((ixS).slice (Rect.unit (s := S7168) off S128.size inb) (fun _ => rfl)).view.loc (thr d c s)
        ↦[((ixS).slice (Rect.unit (s := S7168) off S128.size inb) (fun _ => rfl)).view.set]{q} f : sProp 𝕄)
      = ((pcM (listOf k b)).view.loc (thr d c s) ↦[pcSet (listOf k b)]{q} f) := by
  show ((ixS).view.loc (thr d c s) ↦[((ixS).view.slice (Rect.unit (s := S7168) off S128.size inb)).set]{q} f : sProp 𝕄) = _
  rw [list_unit k b off inb e]

theorem pts_list0 (k : Fin k1_t1_loop.trips) (hc : k1_cond5 (coordsV c s) k = 1#1)
    (q : PosShare TreeShare) (f : Buf (Elt F) ((ixS).view.loc (thr d c s))) :
    (((ixS).slice (Rect.unit (s := S7168) (k1_off4 k) S128.size (k1_off4_inb (coordsV c s) k hc)) (fun _ => rfl)).view.loc (thr d c s)
        ↦[((ixS).slice (Rect.unit (s := S7168) (k1_off4 k) S128.size (k1_off4_inb (coordsV c s) k hc)) (fun _ => rfl)).view.set]{q} f : sProp 𝕄)
      = ((pcM (listOf k ⟨0, of_decide_eq_true rfl⟩)).view.loc (thr d c s) ↦[pcSet (listOf k ⟨0, of_decide_eq_true rfl⟩)]{q} f) :=
  pts_list_gen d c s k ⟨0, of_decide_eq_true rfl⟩ _ _ (k1_off4_eq _) q f

theorem pts_list1 (k : Fin k1_t1_loop.trips) (hc : k1_cond7 (coordsV c s) k = 1#1)
    (q : PosShare TreeShare) (f : Buf (Elt F) ((ixS).view.loc (thr d c s))) :
    (((ixS).slice (Rect.unit (s := S7168) (k1_off5 k) S128.size (k1_off5_inb (coordsV c s) k hc)) (fun _ => rfl)).view.loc (thr d c s)
        ↦[((ixS).slice (Rect.unit (s := S7168) (k1_off5 k) S128.size (k1_off5_inb (coordsV c s) k hc)) (fun _ => rfl)).view.set]{q} f : sProp 𝕄)
      = ((pcM (listOf k ⟨1, of_decide_eq_true rfl⟩)).view.loc (thr d c s) ↦[pcSet (listOf k ⟨1, of_decide_eq_true rfl⟩)]{q} f) :=
  pts_list_gen d c s k ⟨1, of_decide_eq_true rfl⟩ _ _ (k1_off5_eq _) q f

theorem pts_list2 (k : Fin k1_t1_loop.trips) (hc : k1_cond9 (coordsV c s) k = 1#1)
    (q : PosShare TreeShare) (f : Buf (Elt F) ((ixS).view.loc (thr d c s))) :
    (((ixS).slice (Rect.unit (s := S7168) (k1_off6 k) S128.size (k1_off6_inb (coordsV c s) k hc)) (fun _ => rfl)).view.loc (thr d c s)
        ↦[((ixS).slice (Rect.unit (s := S7168) (k1_off6 k) S128.size (k1_off6_inb (coordsV c s) k hc)) (fun _ => rfl)).view.set]{q} f : sProp 𝕄)
      = ((pcM (listOf k ⟨2, of_decide_eq_true rfl⟩)).view.loc (thr d c s) ↦[pcSet (listOf k ⟨2, of_decide_eq_true rfl⟩)]{q} f) :=
  pts_list_gen d c s k ⟨2, of_decide_eq_true rfl⟩ _ _ (k1_off6_eq _) q f

theorem pts_list3 (k : Fin k1_t1_loop.trips) (hc : k1_cond11 (coordsV c s) k = 1#1)
    (q : PosShare TreeShare) (f : Buf (Elt F) ((ixS).view.loc (thr d c s))) :
    (((ixS).slice (Rect.unit (s := S7168) (k1_off7 k) S128.size (k1_off7_inb (coordsV c s) k hc)) (fun _ => rfl)).view.loc (thr d c s)
        ↦[((ixS).slice (Rect.unit (s := S7168) (k1_off7 k) S128.size (k1_off7_inb (coordsV c s) k hc)) (fun _ => rfl)).view.set]{q} f : sProp 𝕄)
      = ((pcM (listOf k ⟨3, of_decide_eq_true rfl⟩)).view.loc (thr d c s) ↦[pcSet (listOf k ⟨3, of_decide_eq_true rfl⟩)]{q} f) :=
  pts_list_gen d c s k ⟨3, of_decide_eq_true rfl⟩ _ _ (k1_off7_eq _) q f

theorem pts_list4 (k : Fin k1_t1_loop.trips) (hc : k1_cond13 (coordsV c s) k = 1#1)
    (q : PosShare TreeShare) (f : Buf (Elt F) ((ixS).view.loc (thr d c s))) :
    (((ixS).slice (Rect.unit (s := S7168) (k1_off8 k) S128.size (k1_off8_inb (coordsV c s) k hc)) (fun _ => rfl)).view.loc (thr d c s)
        ↦[((ixS).slice (Rect.unit (s := S7168) (k1_off8 k) S128.size (k1_off8_inb (coordsV c s) k hc)) (fun _ => rfl)).view.set]{q} f : sProp 𝕄)
      = ((pcM (listOf k ⟨4, of_decide_eq_true rfl⟩)).view.loc (thr d c s) ↦[pcSet (listOf k ⟨4, of_decide_eq_true rfl⟩)]{q} f) :=
  pts_list_gen d c s k ⟨4, of_decide_eq_true rfl⟩ _ _ (k1_off8_eq _) q f

theorem pts_list5 (k : Fin k1_t1_loop.trips) (hc : k1_cond15 (coordsV c s) k = 1#1)
    (q : PosShare TreeShare) (f : Buf (Elt F) ((ixS).view.loc (thr d c s))) :
    (((ixS).slice (Rect.unit (s := S7168) (k1_off9 k) S128.size (k1_off9_inb (coordsV c s) k hc)) (fun _ => rfl)).view.loc (thr d c s)
        ↦[((ixS).slice (Rect.unit (s := S7168) (k1_off9 k) S128.size (k1_off9_inb (coordsV c s) k hc)) (fun _ => rfl)).view.set]{q} f : sProp 𝕄)
      = ((pcM (listOf k ⟨5, of_decide_eq_true rfl⟩)).view.loc (thr d c s) ↦[pcSet (listOf k ⟨5, of_decide_eq_true rfl⟩)]{q} f) :=
  pts_list_gen d c s k ⟨5, of_decide_eq_true rfl⟩ _ _ (k1_off9_eq _) q f

theorem pts_list6 (k : Fin k1_t1_loop.trips) (hc : k1_cond17 (coordsV c s) k = 1#1)
    (q : PosShare TreeShare) (f : Buf (Elt F) ((ixS).view.loc (thr d c s))) :
    (((ixS).slice (Rect.unit (s := S7168) (k1_off10 k) S128.size (k1_off10_inb (coordsV c s) k hc)) (fun _ => rfl)).view.loc (thr d c s)
        ↦[((ixS).slice (Rect.unit (s := S7168) (k1_off10 k) S128.size (k1_off10_inb (coordsV c s) k hc)) (fun _ => rfl)).view.set]{q} f : sProp 𝕄)
      = ((pcM (listOf k ⟨6, of_decide_eq_true rfl⟩)).view.loc (thr d c s) ↦[pcSet (listOf k ⟨6, of_decide_eq_true rfl⟩)]{q} f) :=
  pts_list_gen d c s k ⟨6, of_decide_eq_true rfl⟩ _ _ (k1_off10_eq _) q f

end Tile

end Cert.Proof.KI

end
-- ==== Proof.TileSetLemmas2.lean ====
/-
  The index scratch is its two halves, a half is the seven lists of a trip and the rest; the row scratch is its seven
  slots. The sets are unit-stride rectangles of one axis, compared by their first and last coordinates.
-/
import proofs.«203041_g70987219468541_cont_9to1_m_1244_31_alg».proof.Proof.TileSetLemmas

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Two unit-stride rectangles at equal offsets and equal sizes are the same rectangle. -/
theorem unit_congr2 {s : Shape} {off off' size size' : Fin s.rank → Nat} {inb : ∀ a, off a + size a ≤ s.size a}
    {inb' : ∀ a, off' a + size' a ≤ s.size a} (h : off = off') (h' : size = size') :
    Rect.unit (s := s) off size inb = Rect.unit (s := s) off' size' inb' := by subst h; subst h'; rfl

/-! ## The index scratch: its two halves, a half's lists -/

theorem pcSet_eq (p : Fin 56) : pcSet p = (Rect.unit (s := S7168) ![128 * p.val] S128.size (pc_inb p)).set :=
  View.set_slice_whole cc1_scratch0 _
theorem halfSet_eq (h : Fin 2) : halfSet h = (Rect.unit (s := S7168) ![3584 * h.val] S3584.size (half_inb h)).set :=
  View.set_slice_whole cc1_scratch0 _

theorem half_disjoint : Disjoint (halfSet 0) (halfSet 1) := by
  rw [halfSet_eq, halfSet_eq]
  exact Rect.unit_disjoint 0 (Or.inl (by simp))

theorem half_union : halfSet 0 ∪ halfSet 1 = Finset.univ := by
  ext i
  simp only [halfSet_eq, Finset.mem_union, Rect.mem_set_unit, Finset.mem_univ, iff_true]
  have hi : (i 0).val < 7168 := (i 0).isLt
  by_cases h : (i 0).val < 3584
  · exact Or.inl (Fin.forall_fin_one.mpr (by simp; omega))
  · exact Or.inr (Fin.forall_fin_one.mpr (by simp; omega))

/-- lists at different places are apart -/
theorem pcSet_disjoint {p p' : Fin 56} (h : p ≠ p') : Disjoint (pcSet p) (pcSet p') := by
  rw [pcSet_eq, pcSet_eq]
  have hv : p.val ≠ p'.val := fun e => h (Fin.ext e)
  refine Rect.unit_disjoint 0 ?_
  simp
  omega

/-- list p lies in half p / 28 -/
theorem pcSet_subset_half {p : Fin 56} {h : Fin 2} (e : p.val / 28 = h.val) : pcSet p ⊆ halfSet h := by
  intro i
  rw [pcSet_eq, halfSet_eq, Rect.mem_set_unit, Rect.mem_set_unit]
  intro hi
  have h0 := hi 0
  refine Fin.forall_fin_one.mpr ?_
  simp at h0 ⊢
  omega

section Tile

variable (d : Dev nD) (c : Fin (grid1.bound 0)) (s : Fin (grid1.bound 1))

/-- The index scratch is its two halves. -/
theorem ix_split (f : Buf (Elt F) ((ixS).view.loc (thr d c s))) :
    ((ixS).view.loc (thr d c s) ↦{fullShare} f : sProp 𝕄)
      = iprop(((halfM 0).view.loc (thr d c s) ↦[halfSet 0]{fullShare} f) ∗ (halfM 1).view.loc (thr d c s) ↦[halfSet 1]{fullShare} f) := by
  have hu : ((ixS).view.loc (thr d c s) ↦[halfSet 0 ∪ halfSet 1]{fullShare} f : sProp 𝕄)
      ⊣⊢ iprop(((ixS).view.loc (thr d c s) ↦[halfSet 0]{fullShare} f) ∗ (ixS).view.loc (thr d c s) ↦[halfSet 1]{fullShare} f) :=
    pointsTo_union half_disjoint
  rw [half_union] at hu
  exact BI.equiv_iff.mp ⟨hu.1, hu.2⟩

/-- Half (k / 4) % 2 is the seven lists of trip k and the rest of the half. -/
theorem half_split (h : Fin 2) (k : Fin k1_t1_loop.trips) (hk : (k.val / 4) % 2 = h.val)
    (q : PosShare TreeShare) (f : Buf (Elt F) ((ixS).view.loc (thr d c s))) :
    ((halfM h).view.loc (thr d c s) ↦[halfSet h]{q} f : sProp 𝕄)
      = iprop((bigSep Finset.univ fun b : Fin 7 => (pcM (listOf k b)).view.loc (thr d c s) ↦[pcSet (listOf k b)]{q} f)
          ∗ (ixS).view.loc (thr d c s) ↦[halfSet h \ (Finset.univ.biUnion fun b : Fin 7 => pcSet (listOf k b))]{q} f) := by
  have hsub : (Finset.univ.biUnion fun b : Fin 7 => pcSet (listOf k b)) ⊆ halfSet h :=
    Finset.biUnion_subset.mpr fun b _ => pcSet_subset_half (by
      have := b.isLt
      show (28 * ((k.val / 4) % 2) + 7 * (k.val % 4) + b.val) / 28 = h.val
      omega)
  have hs : ((ixS).view.loc (thr d c s) ↦[halfSet h]{q} f : sProp 𝕄)
      ⊣⊢ iprop(((ixS).view.loc (thr d c s) ↦[Finset.univ.biUnion fun b : Fin 7 => pcSet (listOf k b)]{q} f)
          ∗ (ixS).view.loc (thr d c s) ↦[halfSet h \ (Finset.univ.biUnion fun b : Fin 7 => pcSet (listOf k b))]{q} f) :=
    pointsTo_split_subset hsub
  have hb : ((ixS).view.loc (thr d c s) ↦[Finset.univ.biUnion fun b : Fin 7 => pcSet (listOf k b)]{q} f : sProp 𝕄)
      = bigSep Finset.univ fun b : Fin 7 => (ixS).view.loc (thr d c s) ↦[pcSet (listOf k b)]{q} f :=
    pointsTo_biUnion Finset.univ _ (fun b _ b' _ hb => pcSet_disjoint (fun e => hb (Fin.ext (by
      have e' : 28 * ((k.val / 4) % 2) + 7 * (k.val % 4) + b.val = 28 * ((k.val / 4) % 2) + 7 * (k.val % 4) + b'.val := congrArg Fin.val e
      omega))))
  refine (BI.equiv_iff.mp ⟨hs.1, hs.2⟩).trans ?_
  rw [hb]

/-- The slice of the index scratch at a half's first word is that half. -/
theorem pts_half_gen (h : Fin 2) (off : Fin 1 → Nat) (inb : ∀ a, off a + S3584.size a ≤ S7168.size a) (e : off = ![3584 * h.val])
    (q : PosShare TreeShare) (f : Buf (Elt F) ((ixS).view.loc (thr d c s))) :
    (((ixS).slice (Rect.unit (s := S7168) off S3584.size inb) (fun _ => rfl)).view.loc (thr d c s)
        ↦[((ixS).slice (Rect.unit (s := S7168) off S3584.size inb) (fun _ => rfl)).view.set]{q} f : sProp 𝕄)
      = ((halfM h).view.loc (thr d c s) ↦[halfSet h]{q} f) := by
  show ((ixS).view.loc (thr d c s) ↦[((ixS).view.slice (Rect.unit (s := S7168) off S3584.size inb)).set]{q} f : sProp 𝕄) = _
  rw [show Rect.unit (s := S7168) off S3584.size inb = Rect.unit (s := S7168) ![3584 * h.val] S3584.size (half_inb h) from unit_congr e]

theorem pts_half0 (q : PosShare TreeShare) (f : Buf (Elt F) ((ixS).view.loc (thr d c s))) :
    (((ixS).slice (Rect.unit (s := S7168) ![0] S3584.size inb_S7168_S3584_0) (fun _ => rfl)).view.loc (thr d c s)
        ↦[((ixS).slice (Rect.unit (s := S7168) ![0] S3584.size inb_S7168_S3584_0) (fun _ => rfl)).view.set]{q} f : sProp 𝕄)
      = ((halfM 0).view.loc (thr d c s) ↦[halfSet 0]{q} f) :=
  pts_half_gen d c s 0 _ _ rfl q f

theorem pts_pref (k : Fin k1_t1_loop.trips) (h2 : k1_cond2 k = 1#1) (h3 : k1_cond3 k = 1#1)
    (q : PosShare TreeShare) (f : Buf (Elt F) ((ixS).view.loc (thr d c s))) :
    (((ixS).slice (Rect.unit (s := S7168) (k1_off2 k) S3584.size (k1_off2_inb k h2 h3)) (fun _ => rfl)).view.loc (thr d c s)
        ↦[((ixS).slice (Rect.unit (s := S7168) (k1_off2 k) S3584.size (k1_off2_inb k h2 h3)) (fun _ => rfl)).view.set]{q} f : sProp 𝕄)
      = ((halfM (halfOf (k.val / 4 + 1))).view.loc (thr d c s) ↦[halfSet (halfOf (k.val / 4 + 1))]{q} f) :=
  pts_half_gen d c s (halfOf (k.val / 4 + 1)) _ _ (by
    rw [k1_off2_eq]
    funext a
    fin_cases a
    show 3584 - 3584 * ((k.val / 4) % 2) = 3584 * ((k.val / 4 + 1) % 2)
    omega) q f

end Tile

/-! ## The row scratch: its seven slots are the seven parts of axis 0 -/

theorem hdiv7 : 7 ∣ S7x128x128.size 0 := ⟨1, rfl⟩

/-- slot b: rows [b, b + 1) of axis 0, everything of the other two axes -/
abbrev slotSet (b : Fin 7) : Finset S7x128x128.Idx := (Rect.part (s := S7x128x128) (a₀ := 0) hdiv7 b).set

theorem set_slot_gen (b : Fin 7) (off : Fin 3 → Nat) (inb : ∀ a, off a + S1x128x128.size a ≤ S7x128x128.size a) (e : off = ![b.val, 0, 0]) :
    (((rwS).slice (Rect.unit (s := S7x128x128) off S1x128x128.size inb) (fun _ => rfl)).squeeze S128x128 squeezes_S1x128x128_S128x128).view.set
      = slotSet b := by
  show (((View.whole cc1_scratch1).slice (Rect.unit (s := S7x128x128) off S1x128x128.size inb)).reshape S128x128
    squeezes_S1x128x128_S128x128.numel_eq).set = _
  rw [View.set_reshape, View.set_slice_whole]
  refine congrArg (fun r : Rect S7x128x128 => r.set) (unit_congr2 ?_ ?_)
  · rw [e]; funext a
    match a with
    | 0 => simp [Shape.partIx, Shape.partSize]
    | 1 => simp [Shape.partIx, Shape.partSize]
    | 2 => simp [Shape.partIx, Shape.partSize]
  · funext a
    match a with
    | 0 => simp [Shape.partSize]
    | 1 => simp [Shape.partSize]
    | 2 => simp [Shape.partSize]

theorem set_slot0 : (slotM0).view.set = slotSet 0 := set_slot_gen 0 _ _ rfl
theorem set_slot1 : (slotM1).view.set = slotSet 1 := set_slot_gen 1 _ _ rfl
theorem set_slot2 : (slotM2).view.set = slotSet 2 := set_slot_gen 2 _ _ rfl
theorem set_slot3 : (slotM3).view.set = slotSet 3 := set_slot_gen 3 _ _ rfl
theorem set_slot4 : (slotM4).view.set = slotSet 4 := set_slot_gen 4 _ _ rfl
theorem set_slot5 : (slotM5).view.set = slotSet 5 := set_slot_gen 5 _ _ rfl
theorem set_slot6 : (slotM6).view.set = slotSet 6 := set_slot_gen 6 _ _ rfl

theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide,
    bigSep_insert (by decide), bigSep_insert (by decide), bigSep_insert (by decide), bigSep_insert (by decide),
    bigSep_insert (by decide), bigSep_insert (by decide), bigSep_singleton]
  rfl

section Tile

variable (d : Dev nD) (c : Fin (grid1.bound 0)) (s : Fin (grid1.bound 1))

/-- The row scratch is its seven slots. -/
theorem rw_split (f : Buf (Elt F) ((rwS).view.loc (thr d c s))) :
    ((rwS).view.loc (thr d c s) ↦{fullShare} f : sProp 𝕄)
      = iprop(((slotM0).view.loc (thr d c s) ↦[(slotM0).view.set]{fullShare} f)
          ∗ ((slotM1).view.loc (thr d c s) ↦[(slotM1).view.set]{fullShare} f)
          ∗ ((slotM2).view.loc (thr d c s) ↦[(slotM2).view.set]{fullShare} f)
          ∗ ((slotM3).view.loc (thr d c s) ↦[(slotM3).view.set]{fullShare} f)
          ∗ ((slotM4).view.loc (thr d c s) ↦[(slotM4).view.set]{fullShare} f)
          ∗ ((slotM5).view.loc (thr d c s) ↦[(slotM5).view.set]{fullShare} f)
          ∗ (slotM6).view.loc (thr d c s) ↦[(slotM6).view.set]{fullShare} f) := by
  rw [set_slot0, set_slot1, set_slot2, set_slot3, set_slot4, set_slot5, set_slot6]
  have h : ((rwS).view.loc (thr d c s) ↦[Finset.univ.biUnion fun b : Fin 7 => slotSet b]{fullShare} f : sProp 𝕄)
      = bigSep Finset.univ fun b : Fin 7 => (rwS).view.loc (thr d c s) ↦[slotSet b]{fullShare} f :=
    pointsTo_biUnion Finset.univ _ (fun b _ b' _ hb => Rect.part_disjoint hdiv7 hb)
  rw [Rect.biUnion_part hdiv7, bigSep_fin7] at h
  exact h

end Tile

end Cert.Proof.KI

end
-- ==== Proof.TripFacts.lean ====
/-
  Facts about the loop's printed conditions, decided once over all tiles and trips.
  Worker w = 2 s + c works on chunks 504 w + 7 k + b; all of them exist when w ≤ 30, so every gather and copy-out
  condition of such a worker holds; the index prefetch is awaited on the trips that are multiples of 4 and issued again
  unless it is the last stage.
-/
import proofs.«203041_g70987219468541_cont_9to1_m_1244_31_alg».proof.Proof.TileInv
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- the worker's first chunk number as the kernel computes it: (s * 2 + c) * 504 -/
def v2of (c : Fin (grid1.bound 0)) (s : Fin (grid1.bound 1)) : BitVec 32 :=
  Scalar.muli (Scalar.addi (Scalar.muli (BitVec.ofNat 32 s.val) 2#32) (BitVec.ofNat 32 c.val)) 504#32

theorem hG0 : ∀ (c : Fin (grid1.bound 0)) (s : Fin (grid1.bound 1)) (k : Fin k1_t1_loop.trips), 2 * s.val + c.val ≤ 30 → k1_cond5 (coordsV c s) k = 1#1 := by decide +kernel
theorem hO0 : ∀ (c : Fin (grid1.bound 0)) (s : Fin (grid1.bound 1)) (k : Fin k1_t1_loop.trips), 2 * s.val + c.val ≤ 30 → k1_cond18 (coordsV c s) k = 1#1 := by decide +kernel
theorem hG1 : ∀ (c : Fin (grid1.bound 0)) (s : Fin (grid1.bound 1)) (k : Fin k1_t1_loop.trips), 2 * s.val + c.val ≤ 30 → k1_cond7 (coordsV c s) k = 1#1 := by decide +kernel
theorem hO1 : ∀ (c : Fin (grid1.bound 0)) (s : Fin (grid1.bound 1)) (k : Fin k1_t1_loop.trips), 2 * s.val + c.val ≤ 30 → k1_cond19 (coordsV c s) k = 1#1 := by decide +kernel
theorem hG2 : ∀ (c : Fin (grid1.bound 0)) (s : Fin (grid1.bound 1)) (k : Fin k1_t1_loop.trips), 2 * s.val + c.val ≤ 30 → k1_cond9 (coordsV c s) k = 1#1 := by decide +kernel
theorem hO2 : ∀ (c : Fin (grid1.bound 0)) (s : Fin (grid1.bound 1)) (k : Fin k1_t1_loop.trips), 2 * s.val + c.val ≤ 30 → k1_cond20 (coordsV c s) k = 1#1 := by decide +kernel
theorem hG3 : ∀ (c : Fin (grid1.bound 0)) (s : Fin (grid1.bound 1)) (k : Fin k1_t1_loop.trips), 2 * s.val + c.val ≤ 30 → k1_cond11 (coordsV c s) k = 1#1 := by decide +kernel
theorem hO3 : ∀ (c : Fin (grid1.bound 0)) (s : Fin (grid1.bound 1)) (k : Fin k1_t1_loop.trips), 2 * s.val + c.val ≤ 30 → k1_cond21 (coordsV c s) k = 1#1 := by decide +kernel
theorem hG4 : ∀ (c : Fin (grid1.bound 0)) (s : Fin (grid1.bound 1)) (k : Fin k1_t1_loop.trips), 2 * s.val + c.val ≤ 30 → k1_cond13 (coordsV c s) k = 1#1 := by decide +kernel
theorem hO4 : ∀ (c : Fin (grid1.bound 0)) (s : Fin (grid1.bound 1)) (k : Fin k1_t1_loop.trips), 2 * s.val + c.val ≤ 30 → k1_cond22 (coordsV c s) k = 1#1 := by decide +kernel
theorem hG5 : ∀ (c : Fin (grid1.bound 0)) (s : Fin (grid1.bound 1)) (k : Fin k1_t1_loop.trips), 2 * s.val + c.val ≤ 30 → k1_cond15 (coordsV c s) k = 1#1 := by decide +kernel
theorem hO5 : ∀ (c : Fin (grid1.bound 0)) (s : Fin (grid1.bound 1)) (k : Fin k1_t1_loop.trips), 2 * s.val + c.val ≤ 30 → k1_cond23 (coordsV c s) k = 1#1 := by decide +kernel
theorem hG6 : ∀ (c : Fin (grid1.bound 0)) (s : Fin (grid1.bound 1)) (k : Fin k1_t1_loop.trips), 2 * s.val + c.val ≤ 30 → k1_cond17 (coordsV c s) k = 1#1 := by decide +kernel
theorem hO6 : ∀ (c : Fin (grid1.bound 0)) (s : Fin (grid1.bound 1)) (k : Fin k1_t1_loop.trips), 2 * s.val + c.val ≤ 30 → k1_cond24 (coordsV c s) k = 1#1 := by decide +kernel

theorem h2F : ∀ (k : Fin k1_t1_loop.trips), k.val % 4 ≠ 0 → ¬ k1_cond2 k = 1#1 := by decide +kernel
theorem h2T : ∀ (k : Fin k1_t1_loop.trips), k.val % 4 = 0 → k1_cond2 k = 1#1 := by decide +kernel
theorem h3T : ∀ (k : Fin k1_t1_loop.trips), k.val + 4 < 72 → k1_cond3 k = 1#1 := by decide +kernel
theorem h3F : ∀ (k : Fin k1_t1_loop.trips), ¬ k.val + 4 < 72 → ¬ k1_cond3 k = 1#1 := by decide +kernel

end Cert.Proof.KI

end
-- ==== Proof.TileSetLemmas3.lean ====
/-
  The padded index array: the slices the program takes of it are a worker's stage blocks; its words are the indices
  followed by zeros, so every word names a row of the 128-row table.
-/
import proofs.«203041_g70987219468541_cont_9to1_m_1244_31_alg».proof.Proof.TileSetLemmas
import Idealize.ShloMosaic.Lib.KernelVsHost

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The padded index array: a worker's stage blocks -/

theorem stSet_eq (w : Fin 32) (j : Fin 18) :
    stSet w j = (Rect.unit (s := S2064384) ![64512 * w.val + 3584 * j.val] S3584.size (st_inb w j)).set :=
  View.set_slice_whole main_v2_scv _

/-- The slice of the padded indices at word 64512 w + 3584 j is stage j of worker w. -/
theorem set_st_gen (w : Fin 32) (j : Fin 18) (off : Fin 1 → Nat) (inb : ∀ a, off a + S3584.size a ≤ S2064384.size a)
    (e : off = ![64512 * w.val + 3584 * j.val]) :
    ((idxV).slice (Rect.unit (s := S2064384) off S3584.size inb) (fun _ => rfl)).view.set = stSet w j := by
  show ((idxV).view.slice (Rect.unit (s := S2064384) off S3584.size inb)).set
    = ((idxV).view.slice (Rect.unit (s := S2064384) ![64512 * w.val + 3584 * j.val] S3584.size (st_inb w j))).set
  rw [show Rect.unit (s := S2064384) off S3584.size inb
    = Rect.unit (s := S2064384) ![64512 * w.val + 3584 * j.val] S3584.size (st_inb w j) from unit_congr e]

/-- a prefetching trip is a multiple of four -/
theorem cond2_mod : ∀ k : Fin k1_t1_loop.trips, k1_cond2 k = 1#1 → k.val % 4 = 0 := by decide +kernel
/-- a prefetching trip has a next stage -/
theorem cond3_lt : ∀ k : Fin k1_t1_loop.trips, k1_cond3 k = 1#1 → k.val / 4 + 1 < 18 := by decide +kernel

section Tile

variable (d : Dev nD) (c : Fin (grid1.bound 0)) (s : Fin (grid1.bound 1))

theorem set_st0 :
    ((idxV).slice (Rect.unit (s := S2064384) (k1_off1 (coordsV c s)) S3584.size (k1_off1_inb (coordsV c s))) (fun _ => rfl)).view.set
      = stSet (wOf c s) ⟨0, of_decide_eq_true rfl⟩ :=
  set_st_gen (wOf c s) ⟨0, of_decide_eq_true rfl⟩ _ _ (by
    rw [k1_off1_eq]
    funext a
    fin_cases a
    show 129024 * s.val + 64512 * c.val = 64512 * (2 * s.val + c.val) + 3584 * 0
    omega)

theorem set_st (k : Fin k1_t1_loop.trips) (h2 : k1_cond2 k = 1#1) (h3 : k1_cond3 k = 1#1) :
    ((idxV).slice (Rect.unit (s := S2064384) (k1_off3 (coordsV c s) k) S3584.size (k1_off3_inb (coordsV c s) k h2 h3)) (fun _ => rfl)).view.set
      = stSet (wOf c s) ⟨k.val / 4 + 1, cond3_lt k h3⟩ :=
  set_st_gen (wOf c s) ⟨k.val / 4 + 1, cond3_lt k h3⟩ _ _ (by
    have hm := cond2_mod k h2
    rw [k1_off3_eq]
    funext a
    fin_cases a
    show 129024 * s.val + 64512 * c.val + 896 * k.val + 3584 = 64512 * (2 * s.val + c.val) + 3584 * (k.val / 4 + 1)
    omega)

end Tile

/-! ## The padded indices' values -/

/-- The padded index array at word r: the r-th index, or zero past the last. -/
theorem idxOf_apply (src : IVec S2000000 32) (r : Fin 2064384) :
    idxOf src (ix1 r) = if h : r.val < 2000000 then src (ix1 ⟨r.val, h⟩) else 0#32 := by
  unfold idxOf
  split
  · next h =>
    exact pad_apply_of_inside _ _ _ src _ _ _ (ix1 r) (ix1 ⟨r.val, h⟩) (fun a => by fin_cases a; simp)
  · next h =>
    rw [pad_apply_of_not_inside _ _ _ src _ _ _ (ix1 r) 0 (by
      show ¬(0 ≤ r.val ∧ (r.val - 0) % (0 + 1) = 0 ∧ (r.val - 0) / (0 + 1) < 2000000)
      omega)]
    rfl

/-- Every word of the padded index array names one of the table's 128 rows. -/
theorem idxOf_lt (src : IVec S2000000 32) (h : Cert.Proof.Spec.InRange src) (r : S2064384.Idx) : (idxOf src r).toNat < 128 := by
  obtain ⟨r0, rfl⟩ : ∃ r0 : Fin 2064384, r = ix1 r0 := ⟨r 0, eq_ix1 r⟩
  rw [idxOf_apply]
  split
  · next hr => exact Nat.lt_of_le_of_lt (h ⟨r0.val, hr⟩) (by decide)
  · exact by decide

end Cert.Proof.KI

end
-- ==== Proof.TileStage.lean ====
/-
  What a half of the index scratch holds once a stage block has landed in it, and what a list of the half then holds:
  the half reads what the block reads, and word x of list 28 h + 7 (k % 4) + b of half h = (k / 4) % 2 holding stage k / 4
  is word 3584 (k / 4) + 896 (k % 4) + 128 b + x = 896 k + 128 b + x of the worker's part of the padded index array.
-/
import proofs.«203041_g70987219468541_cont_9to1_m_1244_31_alg».proof.Proof.TileInv
import proofs.«203041_g70987219468541_cont_9to1_m_1244_31_alg».proof.Proof.TileSetLemmas3

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile

variable (d : Dev nD) (c : Fin (grid1.bound 0)) (s : Fin (grid1.bound 1))

/-! ## A stage landed in a half -/

/-- A half written whole with what a stage block reads, read back, is what that block reads. -/
theorem stageAt_landed (h : Fin 2) (j : ℕ) (f0 : Buf (Elt F) ((ixS).view.loc (thr d c s))) :
    StageAt m d c s h j ((halfM h).view.writes (Elt F) f0 [⟨Rect.whole S3584, ReadAs.same.apply ((stM (wOf c s) (stJ j)).view.read (Elt F) (idxc m d))⟩]) := by
  unfold StageAt
  rw [View.read_writes_whole]

/-- The same with the half and the block taken as slices at offsets equal to theirs. -/
theorem stageAt_landed_gen (h : Fin 2) (j : ℕ)
    (offD : Fin 1 → Nat) (inbD : ∀ a, offD a + S3584.size a ≤ S7168.size a) (eD : offD = ![3584 * h.val])
    (offS : Fin 1 → Nat) (inbS : ∀ a, offS a + S3584.size a ≤ S2064384.size a) (eS : offS = ![64512 * (wOf c s).val + 3584 * (stJ j).val])
    (f0 : Buf (Elt F) ((ixS).view.loc (thr d c s))) :
    StageAt m d c s h j (((ixS).slice (Rect.unit (s := S7168) offD S3584.size inbD) (fun _ => rfl)).view.writes (Elt F) f0 [⟨Rect.whole S3584, ReadAs.same.apply (((idxV).slice (Rect.unit (s := S2064384) offS S3584.size inbS) (fun _ => rfl)).view.read (Elt F) (idxc m d))⟩]) := by
  subst eD
  subst eS
  exact stageAt_landed m d c s h j f0

/-- Stage 0 landed in half 0, as the first copy leaves it. -/
theorem stageAt_landed0 (f0 : Buf (Elt F) ((ixS).view.loc (thr d c s))) :
    StageAt m d c s 0 0 (((ixS).slice (Rect.unit (s := S7168) ![0] S3584.size inb_S7168_S3584_0) (fun _ => rfl)).view.writes (Elt F) f0 [⟨Rect.whole S3584, ReadAs.same.apply (((idxV).slice (Rect.unit (s := S2064384) (k1_off1 (coordsV c s)) S3584.size (k1_off1_inb (coordsV c s))) (fun _ => rfl)).view.read (Elt F) (idxc m d))⟩]) :=
  stageAt_landed_gen m d c s 0 0 _ _ rfl _ _ (by
    rw [k1_off1_eq]
    funext a
    fin_cases a
    show 129024 * s.val + 64512 * c.val = 64512 * (2 * s.val + c.val) + 3584 * min 0 17
    omega) f0

/-- Stage k / 4 + 1 landed in its half, as a prefetching trip's copy leaves it. -/
theorem stageAt_landedK (k : Fin k1_t1_loop.trips) (h2 : k1_cond2 k = 1#1) (h3 : k1_cond3 k = 1#1)
    (f0 : Buf (Elt F) ((ixS).view.loc (thr d c s))) :
    StageAt m d c s (halfOf (k.val / 4 + 1)) (k.val / 4 + 1) (((ixS).slice (Rect.unit (s := S7168) (k1_off2 k) S3584.size (k1_off2_inb k h2 h3)) (fun _ => rfl)).view.writes (Elt F) f0 [⟨Rect.whole S3584, ReadAs.same.apply (((idxV).slice (Rect.unit (s := S2064384) (k1_off3 (coordsV c s) k) S3584.size (k1_off3_inb (coordsV c s) k h2 h3)) (fun _ => rfl)).view.read (Elt F) (idxc m d))⟩]) :=
  stageAt_landed_gen m d c s (halfOf (k.val / 4 + 1)) (k.val / 4 + 1) _ _ (by
    rw [k1_off2_eq]
    funext a
    fin_cases a
    show 3584 - 3584 * ((k.val / 4) % 2) = 3584 * ((k.val / 4 + 1) % 2)
    omega) _ _ (by
    have hm := cond2_mod k h2
    have hl := cond3_lt k h3
    rw [k1_off3_eq]
    funext a
    fin_cases a
    show 129024 * s.val + 64512 * c.val + 896 * k.val + 3584 = 64512 * (2 * s.val + c.val) + 3584 * min (k.val / 4 + 1) 17
    omega) f0

/-! ## A list's words -/

theorem trips_le (k : Fin k1_t1_loop.trips) : k.val < 72 := Nat.lt_of_lt_of_le k.isLt k1_t1_abs.2.1

/-- every word of every list of every trip of every worker is a word of the padded index array -/
theorem listWord_lt (k : Fin k1_t1_loop.trips) (b : Fin 7) (x : S128.Idx) :
    64512 * (wOf c s).val + 896 * k.val + 128 * b.val + (x 0).val < 2064384 := by
  have hk := trips_le k
  have hb := b.isLt
  have hx : (x 0).val < 128 := (x 0).isLt
  have hw := (wOf c s).isLt
  omega

/-- When half (k / 4) % 2 holds stage k / 4, word x of trip k's list b is word 896 k + 128 b + x of the worker's
    part of the padded index array. -/
theorem stageAt_list (h : Fin 2) (j : ℕ) (f : Buf (Elt F) ((ixS).view.loc (thr d c s))) (hst : StageAt m d c s h j f)
    (k : Fin k1_t1_loop.trips) (hk : (k.val / 4) % 2 = h.val) (hj : j = k.val / 4) (b : Fin 7) (x : S128.Idx) :
    f ((pcM (listOf k b)).view.emb x)
      = idxc m d (ix1 ⟨64512 * (wOf c s).val + 896 * k.val + 128 * b.val + (x 0).val, listWord_lt c s k b x⟩) := by
  have hk72 := trips_le k
  have hb := b.isLt
  have hx : (x 0).val < 128 := (x 0).isLt
  have hy : 896 * (k.val % 4) + 128 * b.val + (x 0).val < 3584 := by omega
  have h1 := congrFun hst (ix1 ⟨896 * (k.val % 4) + 128 * b.val + (x 0).val, hy⟩)
  have eL : (pcM (listOf k b)).view.emb x = (halfM h).view.emb (ix1 ⟨896 * (k.val % 4) + 128 * b.val + (x 0).val, hy⟩) := by
    funext a
    fin_cases a
    refine Fin.ext ?_
    show 128 * (28 * ((k.val / 4) % 2) + 7 * (k.val % 4) + b.val) + 1 * (x 0).val
      = 3584 * h.val + 1 * (896 * (k.val % 4) + 128 * b.val + (x 0).val)
    omega
  have eR : (stM (wOf c s) (stJ j)).view.emb (ix1 ⟨896 * (k.val % 4) + 128 * b.val + (x 0).val, hy⟩)
      = ix1 ⟨64512 * (wOf c s).val + 896 * k.val + 128 * b.val + (x 0).val, listWord_lt c s k b x⟩ := by
    funext a
    fin_cases a
    refine Fin.ext ?_
    show 64512 * (wOf c s).val + 3584 * min j 17 + 1 * (896 * (k.val % 4) + 128 * b.val + (x 0).val)
      = 64512 * (wOf c s).val + 896 * k.val + 128 * b.val + (x 0).val
    omega
  rw [eL, ← eR]
  exact h1

end Tile

end Cert.Proof.KI

end
-- ==== Proof.TileChunkSteps.lean ====
/-
  The worker's chunks, numbered 0 .. 503: a trip takes the next seven off those still to do and, a trip later, adds them
  to those done; for a worker whose 504 chunks all exist the numbering is a bijection onto the tile's chunks.
-/
import proofs.«203041_g70987219468541_cont_9to1_m_1244_31_alg».proof.Proof.TileInv
import proofs.«203041_g70987219468541_cont_9to1_m_1244_31_alg».proof.Proof.Chunks

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## Seven consecutive numbers off an interval -/

theorem Ico_seven_left {a b : ℕ} (h : a + 7 ≤ b) :
    Finset.Ico a b = insert a (insert (a + 1) (insert (a + 2) (insert (a + 3) (insert (a + 4) (insert (a + 5) (insert (a + 6) (Finset.Ico (a + 7) b))))))) := by
  ext x
  simp only [Finset.mem_Ico, Finset.mem_insert]
  omega

theorem Ico_seven (a : ℕ) : Finset.Ico a (a + 7) = {a, a + 1, a + 2, a + 3, a + 4, a + 5, a + 6} := by
  ext x
  simp only [Finset.mem_Ico, Finset.mem_insert, Finset.mem_singleton]
  omega

theorem bigSep_Ico_seven (Φ : ℕ → sProp 𝕄) {a b : ℕ} (h : a + 7 ≤ b) :
    bigSep (Finset.Ico a b) Φ
      = iprop(Φ (a + 0) ∗ Φ (a + 1) ∗ Φ (a + 2) ∗ Φ (a + 3) ∗ Φ (a + 4) ∗ Φ (a + 5) ∗ Φ (a + 6) ∗ bigSep (Finset.Ico (a + 7) b) Φ) := by
  rw [Ico_seven_left h,
    bigSep_insert (by simp only [Finset.mem_Ico, Finset.mem_insert]; omega),
    bigSep_insert (by simp only [Finset.mem_Ico, Finset.mem_insert]; omega),
    bigSep_insert (by simp only [Finset.mem_Ico, Finset.mem_insert]; omega),
    bigSep_insert (by simp only [Finset.mem_Ico, Finset.mem_insert]; omega),
    bigSep_insert (by simp only [Finset.mem_Ico, Finset.mem_insert]; omega),
    bigSep_insert (by simp only [Finset.mem_Ico, Finset.mem_insert]; omega),
    bigSep_insert (by simp only [Finset.mem_Ico]; omega)]
  rfl

theorem bigSep_Ico_seven' (Φ : ℕ → sProp 𝕄) (a : ℕ) :
    bigSep (Finset.Ico a (a + 7)) Φ = iprop(Φ (a + 0) ∗ Φ (a + 1) ∗ Φ (a + 2) ∗ Φ (a + 3) ∗ Φ (a + 4) ∗ Φ (a + 5) ∗ Φ (a + 6)) := by
  rw [Ico_seven,
    bigSep_insert (by simp only [Finset.mem_insert, Finset.mem_singleton]; omega),
    bigSep_insert (by simp only [Finset.mem_insert, Finset.mem_singleton]; omega),
    bigSep_insert (by simp only [Finset.mem_insert, Finset.mem_singleton]; omega),
    bigSep_insert (by simp only [Finset.mem_insert, Finset.mem_singleton]; omega),
    bigSep_insert (by simp only [Finset.mem_insert, Finset.mem_singleton]; omega),
    bigSep_insert (by simp only [Finset.mem_singleton]; omega),
    bigSep_singleton]
  rfl

theorem bigSep_range_seven (Φ : ℕ → sProp 𝕄) (n : ℕ) :
    bigSep (Finset.range (n + 7)) Φ
      = iprop(bigSep (Finset.range n) Φ ∗ Φ (n + 0) ∗ Φ (n + 1) ∗ Φ (n + 2) ∗ Φ (n + 3) ∗ Φ (n + 4) ∗ Φ (n + 5) ∗ Φ (n + 6)) := by
  have e : Finset.range (n + 7) = Finset.range n ∪ Finset.Ico n (n + 7) := by
    ext x
    simp only [Finset.mem_range, Finset.mem_union, Finset.mem_Ico]
    omega
  have hd : Disjoint (Finset.range n) (Finset.Ico n (n + 7)) := by
    rw [Finset.disjoint_left]
    intro x hx hx'
    simp only [Finset.mem_range, Finset.mem_Ico] at hx hx'
    omega
  rw [e, bigSep_union hd, bigSep_Ico_seven']
  rfl

section Tile

variable (d : Dev nD) (c : Fin (grid1.bound 0)) (s : Fin (grid1.bound 1))

/-! ## The worker's chunk numbers -/

/-- for a worker whose 504 chunks all exist the clamp does nothing -/
theorem chunkIxN_val (hw : 2 * s.val + c.val ≤ 30) (n : ℕ) (hn : n < 504) : (chunkIxN c s n).val = 504 * (wOf c s).val + n := by
  show min (504 * (2 * s.val + c.val) + n) 15624 = 504 * (2 * s.val + c.val) + n
  omega

theorem chunkIx_eq_chunkOf (_hw : 2 * s.val + c.val ≤ 30) (k : Fin k1_t1_loop.trips) (b : Fin 7)
    (h : 504 * (wOf c s).val + 7 * k.val + b.val < 15625) : chunkIxN c s (7 * k.val + b.val) = chunkOf (wOf c s) k b h := by
  refine Fin.ext ?_
  show min (504 * (2 * s.val + c.val) + (7 * k.val + b.val)) 15624 = 504 * (2 * s.val + c.val) + 7 * k.val + b.val
  have h' : 504 * (2 * s.val + c.val) + 7 * k.val + b.val < 15625 := h
  omega

/-- The worker's 504 chunk numbers are the tile's chunks. -/
theorem tileChunks_eq_image (hw : 2 * s.val + c.val ≤ 30) : tileChunks (cT c) (sT s) = (Finset.range 504).image (chunkIxN c s) := by
  ext g
  simp only [tileChunks, Finset.mem_filter, Finset.mem_univ, true_and, Finset.mem_image, Finset.mem_range]
  have hg := g.isLt
  constructor
  · intro h
    have h' : g.val / 504 = 2 * s.val + c.val := h
    refine ⟨g.val - 504 * (2 * s.val + c.val), by omega, Fin.ext ?_⟩
    show min (504 * (2 * s.val + c.val) + (g.val - 504 * (2 * s.val + c.val))) 15624 = g.val
    omega
  · rintro ⟨n, hn, rfl⟩
    show (chunkIxN c s n).val / 504 = 2 * s.val + c.val
    rw [chunkIxN_val c s hw n hn]
    show (504 * (2 * s.val + c.val) + n) / 504 = 2 * s.val + c.val
    omega

theorem chunkIxN_injOn (hw : 2 * s.val + c.val ≤ 30) : Set.InjOn (chunkIxN c s) (Finset.range 504 : Finset ℕ) := by
  intro n hn n' hn' e
  have hn := Finset.mem_range.mp (Finset.mem_coe.mp hn)
  have hn' := Finset.mem_range.mp (Finset.mem_coe.mp hn')
  have e' := congrArg Fin.val e
  rw [chunkIxN_val c s hw n hn, chunkIxN_val c s hw n' hn'] at e'
  omega

/-- The worker's chunks, numbered, are the tile's chunks. -/
theorem done_end (hw : 2 * s.val + c.val ≤ 30) (f : Buf (Elt F) (outLoc d)) :
    (bigSep (Finset.range 504) fun n => outChunk d (chunkIxN c s n) f : sProp 𝕄) = bigSep (tileChunks (cT c) (sT s)) fun g => outChunk d g f := by
  rw [tileChunks_eq_image c s hw, SparseCore.bigSep_image_of_injOn (chunkIxN_injOn c s hw)]

/-! ## The invariant's chunks, trip by trip -/

theorem todo_step (k : ℕ) (hk : k < 72) :
    Todo m d c s k = iprop(outChunk d (chunkIxN c s (7 * k + 0)) (m (outLoc d))
        ∗ outChunk d (chunkIxN c s (7 * k + 1)) (m (outLoc d))
        ∗ outChunk d (chunkIxN c s (7 * k + 2)) (m (outLoc d))
        ∗ outChunk d (chunkIxN c s (7 * k + 3)) (m (outLoc d))
        ∗ outChunk d (chunkIxN c s (7 * k + 4)) (m (outLoc d))
        ∗ outChunk d (chunkIxN c s (7 * k + 5)) (m (outLoc d))
        ∗ outChunk d (chunkIxN c s (7 * k + 6)) (m (outLoc d))
        ∗ Todo m d c s (k + 1)) := by
  unfold Todo
  exact bigSep_Ico_seven (fun n => outChunk d (chunkIxN c s n) (m (outLoc d))) (by omega)

theorem done_step (k : ℕ) (hk : 0 < k) :
    Done m d c s (k + 1) = iprop(Done m d c s k
        ∗ outChunk d (chunkIxN c s (7 * (k - 1) + 0)) (outG m d)
        ∗ outChunk d (chunkIxN c s (7 * (k - 1) + 1)) (outG m d)
        ∗ outChunk d (chunkIxN c s (7 * (k - 1) + 2)) (outG m d)
        ∗ outChunk d (chunkIxN c s (7 * (k - 1) + 3)) (outG m d)
        ∗ outChunk d (chunkIxN c s (7 * (k - 1) + 4)) (outG m d)
        ∗ outChunk d (chunkIxN c s (7 * (k - 1) + 5)) (outG m d)
        ∗ outChunk d (chunkIxN c s (7 * (k - 1) + 6)) (outG m d)) := by
  unfold Done
  rw [show 7 * (k + 1 - 1) = 7 * (k - 1) + 7 by omega]
  exact bigSep_range_seven (fun n => outChunk d (chunkIxN c s n) (outG m d)) (7 * (k - 1))

theorem done_zero : Done m d c s 0 = iprop(emp) := by
  unfold Done
  rw [show 7 * (0 - 1) = 0 from rfl, Finset.range_zero, bigSep_empty]
  rfl

theorem done_one : Done m d c s 1 = iprop(emp) := by
  unfold Done
  rw [show 7 * (1 - 1) = 0 from rfl, Finset.range_zero, bigSep_empty]
  rfl

theorem todo_end : Todo m d c s 72 = iprop(emp) := by
  unfold Todo
  rw [show 7 * 72 = 504 from rfl, Finset.Ico_self, bigSep_empty]
  rfl

theorem todo_zero (hw : 2 * s.val + c.val ≤ 30) :
    (bigSep (tileChunks (cT c) (sT s)) fun g => outChunk d g (m (outLoc d)) : sProp 𝕄) = Todo m d c s 0 := by
  unfold Todo
  rw [← done_end d c s hw, show 7 * 0 = 0 from rfl, ← Finset.range_eq_Ico]

end Tile

end Cert.Proof.KI

end
-- ==== Proof.TripClose.lean ====
/-
  What a trip of the tile's loop needs beside its run: the invariant's pieces as equations by the case of the trip
  number, the bound on a list's words from the bound on its half's, and the re-establishment of each piece of the
  invariant after the run — a slot's new copy-out as the next trip's slot, the chunks handed back joined to the chunks
  done, the gather semaphores, and the waits recorded at the tile's own index.
-/
import proofs.«203041_g70987219468541_cont_9to1_m_1244_31_alg».proof.Proof.TileInv
import proofs.«203041_g70987219468541_cont_9to1_m_1244_31_alg».proof.Proof.TileSetLemmas
import proofs.«203041_g70987219468541_cont_9to1_m_1244_31_alg».proof.Proof.TileSetLemmas2
import proofs.«203041_g70987219468541_cont_9to1_m_1244_31_alg».proof.Proof.TripFacts
import proofs.«203041_g70987219468541_cont_9to1_m_1244_31_alg».proof.Proof.TileStage
import proofs.«203041_g70987219468541_cont_9to1_m_1244_31_alg».proof.Proof.TileChunkSteps
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Close

variable (d : Dev nD) (c : Fin (grid1.bound 0)) (s : Fin (grid1.bound 1))

/-! ## The invariant's pieces, by case -/

theorem inv_def (tblS : Buf (Elt F) ((shS).view.loc (thr d c s))) (O : CellTallies nD τ sig (HIx 1)) (W : Waits sig (HIx 1)) (k : ℕ) (u : PUnit) :
    KI.Inv m d c s tblS O W k u = iprop(Transfers.MayWaits (thr d c s) (none : HIx 1) O ∗ IdxSt m d c s k ∗ Slots m d c s k ∗ ChunksSt m d c s k
      ∗ Toks d c s tblS ∗ GSems d c s ∗ KI.Owes d c s O W) := rfl

theorem idxSt_le (k : ℕ) (h : k ≤ 68) :
    IdxSt m d c s k = iprop(PrefFlight m d c s ((k + 3) / 4) ∗ HalfHeld m d c s (halfOf ((k + 3) / 4 + 1)) (k % 4 ≠ 0) (k / 4)) := by
  unfold IdxSt; rw [if_pos h]

theorem idxSt_gt (k : ℕ) (h : ¬ k ≤ 68) :
    IdxSt m d c s k = iprop(semVal (thr d c s, SemLoc.dma cc1_scratch3.sem) 0 ∗ ((idxV).view.loc (thr d c s) ↦{qI c s} idxc m d)
      ∗ HalfHeld m d c s (halfOf 17) True 17 ∗ HalfHeld m d c s (halfOf 18) False 0) := by
  unfold IdxSt; rw [if_neg h]

theorem slot0_pos (k : ℕ) (h : ¬ k = 0) :
    Slot0 m d c s k = iprop(∃ fR : Buf (Elt F) ((rwS).view.loc (thr d c s)), Transfers.Flight (countersEmb (U := UU)) (thr d c s) (SemLoc.dma cc1_scratch11.sem) (none : HIx 1) 524288
      iprop((outLoc d ↦[chunkSet (chunkIx c s (k - 1) 0)]{fullShare} outG m d) ∗ (slotM0).view.loc (thr d c s) ↦[(slotM0).view.set]{fullShare} fR)) := by
  unfold Slot0; rw [if_neg h]
theorem slot0_zero :
    Slot0 m d c s 0 = iprop(semVal (thr d c s, SemLoc.dma cc1_scratch11.sem) 0 ∗ ∃ f : Buf (Elt F) ((rwS).view.loc (thr d c s)), (slotM0).view.loc (thr d c s) ↦[(slotM0).view.set]{fullShare} f) := by
  unfold Slot0; rw [if_pos rfl]
theorem slot1_pos (k : ℕ) (h : ¬ k = 0) :
    Slot1 m d c s k = iprop(∃ fR : Buf (Elt F) ((rwS).view.loc (thr d c s)), Transfers.Flight (countersEmb (U := UU)) (thr d c s) (SemLoc.dma cc1_scratch12.sem) (none : HIx 1) 524288
      iprop((outLoc d ↦[chunkSet (chunkIx c s (k - 1) 1)]{fullShare} outG m d) ∗ (slotM1).view.loc (thr d c s) ↦[(slotM1).view.set]{fullShare} fR)) := by
  unfold Slot1; rw [if_neg h]
theorem slot1_zero :
    Slot1 m d c s 0 = iprop(semVal (thr d c s, SemLoc.dma cc1_scratch12.sem) 0 ∗ ∃ f : Buf (Elt F) ((rwS).view.loc (thr d c s)), (slotM1).view.loc (thr d c s) ↦[(slotM1).view.set]{fullShare} f) := by
  unfold Slot1; rw [if_pos rfl]
theorem slot2_pos (k : ℕ) (h : ¬ k = 0) :
    Slot2 m d c s k = iprop(∃ fR : Buf (Elt F) ((rwS).view.loc (thr d c s)), Transfers.Flight (countersEmb (U := UU)) (thr d c s) (SemLoc.dma cc1_scratch13.sem) (none : HIx 1) 524288
      iprop((outLoc d ↦[chunkSet (chunkIx c s (k - 1) 2)]{fullShare} outG m d) ∗ (slotM2).view.loc (thr d c s) ↦[(slotM2).view.set]{fullShare} fR)) := by
  unfold Slot2; rw [if_neg h]
theorem slot2_zero :
    Slot2 m d c s 0 = iprop(semVal (thr d c s, SemLoc.dma cc1_scratch13.sem) 0 ∗ ∃ f : Buf (Elt F) ((rwS).view.loc (thr d c s)), (slotM2).view.loc (thr d c s) ↦[(slotM2).view.set]{fullShare} f) := by
  unfold Slot2; rw [if_pos rfl]
theorem slot3_pos (k : ℕ) (h : ¬ k = 0) :
    Slot3 m d c s k = iprop(∃ fR : Buf (Elt F) ((rwS).view.loc (thr d c s)), Transfers.Flight (countersEmb (U := UU)) (thr d c s) (SemLoc.dma cc1_scratch14.sem) (none : HIx 1) 524288
      iprop((outLoc d ↦[chunkSet (chunkIx c s (k - 1) 3)]{fullShare} outG m d) ∗ (slotM3).view.loc (thr d c s) ↦[(slotM3).view.set]{fullShare} fR)) := by
  unfold Slot3; rw [if_neg h]
theorem slot3_zero :
    Slot3 m d c s 0 = iprop(semVal (thr d c s, SemLoc.dma cc1_scratch14.sem) 0 ∗ ∃ f : Buf (Elt F) ((rwS).view.loc (thr d c s)), (slotM3).view.loc (thr d c s) ↦[(slotM3).view.set]{fullShare} f) := by
  unfold Slot3; rw [if_pos rfl]
theorem slot4_pos (k : ℕ) (h : ¬ k = 0) :
    Slot4 m d c s k = iprop(∃ fR : Buf (Elt F) ((rwS).view.loc (thr d c s)), Transfers.Flight (countersEmb (U := UU)) (thr d c s) (SemLoc.dma cc1_scratch15.sem) (none : HIx 1) 524288
      iprop((outLoc d ↦[chunkSet (chunkIx c s (k - 1) 4)]{fullShare} outG m d) ∗ (slotM4).view.loc (thr d c s) ↦[(slotM4).view.set]{fullShare} fR)) := by
  unfold Slot4; rw [if_neg h]
theorem slot4_zero :
    Slot4 m d c s 0 = iprop(semVal (thr d c s, SemLoc.dma cc1_scratch15.sem) 0 ∗ ∃ f : Buf (Elt F) ((rwS).view.loc (thr d c s)), (slotM4).view.loc (thr d c s) ↦[(slotM4).view.set]{fullShare} f) := by
  unfold Slot4; rw [if_pos rfl]
theorem slot5_pos (k : ℕ) (h : ¬ k = 0) :
    Slot5 m d c s k = iprop(∃ fR : Buf (Elt F) ((rwS).view.loc (thr d c s)), Transfers.Flight (countersEmb (U := UU)) (thr d c s) (SemLoc.dma cc1_scratch16.sem) (none : HIx 1) 524288
      iprop((outLoc d ↦[chunkSet (chunkIx c s (k - 1) 5)]{fullShare} outG m d) ∗ (slotM5).view.loc (thr d c s) ↦[(slotM5).view.set]{fullShare} fR)) := by
  unfold Slot5; rw [if_neg h]
theorem slot5_zero :
    Slot5 m d c s 0 = iprop(semVal (thr d c s, SemLoc.dma cc1_scratch16.sem) 0 ∗ ∃ f : Buf (Elt F) ((rwS).view.loc (thr d c s)), (slotM5).view.loc (thr d c s) ↦[(slotM5).view.set]{fullShare} f) := by
  unfold Slot5; rw [if_pos rfl]
theorem slot6_pos (k : ℕ) (h : ¬ k = 0) :
    Slot6 m d c s k = iprop(∃ fR : Buf (Elt F) ((rwS).view.loc (thr d c s)), Transfers.Flight (countersEmb (U := UU)) (thr d c s) (SemLoc.dma cc1_scratch17.sem) (none : HIx 1) 524288
      iprop((outLoc d ↦[chunkSet (chunkIx c s (k - 1) 6)]{fullShare} outG m d) ∗ (slotM6).view.loc (thr d c s) ↦[(slotM6).view.set]{fullShare} fR)) := by
  unfold Slot6; rw [if_neg h]
theorem slot6_zero :
    Slot6 m d c s 0 = iprop(semVal (thr d c s, SemLoc.dma cc1_scratch17.sem) 0 ∗ ∃ f : Buf (Elt F) ((rwS).view.loc (thr d c s)), (slotM6).view.loc (thr d c s) ↦[(slotM6).view.set]{fullShare} f) := by
  unfold Slot6; rw [if_pos rfl]

/-! ## Lists and their half -/

/-- every word of a list lies in its half: a bound on the half's words bounds the list's -/
theorem list_read_lt (k : Fin k1_t1_loop.trips) (b : Fin 7)
    (off : Fin 1 → Nat) (inb : ∀ a, off a + S128.size a ≤ S7168.size a)
    (e : off = ![3584 * ((k.val / 4) % 2) + 896 * (k.val % 4) + 128 * b.val])
    (f : Buf (Elt F) ((ixS).view.loc (thr d c s))) (hf : ∀ i ∈ halfSet (halfOf (k.val / 4)), BitVec.toNat (f i) < 128) :
    ∀ x, BitVec.toNat ((((ixS).slice (Rect.unit (s := S7168) off S128.size inb) (fun _ => rfl))).view.read (Elt F) f x) < 128 := by
  intro x
  rw [View.read_apply]
  refine hf _ (pcSet_subset_half (p := listOf k b) (h := halfOf (k.val / 4)) ?_ ?_)
  · have := b.isLt
    show (28 * ((k.val / 4) % 2) + 7 * (k.val % 4) + b.val) / 28 = (k.val / 4) % 2
    omega
  · have hm := View.emb_mem_set (((ixS).slice (Rect.unit (s := S7168) off S128.size inb) (fun _ => rfl))).view x
    have hs : (((ixS).slice (Rect.unit (s := S7168) off S128.size inb) (fun _ => rfl))).view.set = pcSet (listOf k b) := by
      show ((ixS).view.slice (Rect.unit (s := S7168) off S128.size inb)).set = _
      rw [list_unit k b off inb e]
    rw [hs] at hm
    exact hm

/-- a half holding a stage of the padded indices holds words that name rows of the table -/
theorem half_lt (hpre : PreOK m) (h : Fin 2) (j : ℕ) (f : Buf (Elt F) ((ixS).view.loc (thr d c s))) (hst : StageAt m d c s h j f) :
    ∀ i ∈ halfSet h, BitVec.toNat (f i) < 128 := by
  intro i hi
  obtain ⟨y, -, rfl⟩ := Finset.mem_map.mp hi
  have h1 := congrFun hst y
  rw [View.read_apply, View.read_apply] at h1
  have h2 : f ((halfM h).view.emb y) = idxc m d ((KI.stM (wOf c s) (stJ j)).view.emb y) := h1
  rw [h2]; exact idxOf_lt _ (hpre d) _

theorem bigSep_fin7' (Φ : Fin 7 → sProp 𝕄) :
    bigSep Finset.univ Φ = iprop(Φ ⟨0, of_decide_eq_true rfl⟩ ∗ Φ ⟨1, of_decide_eq_true rfl⟩ ∗ Φ ⟨2, of_decide_eq_true rfl⟩ ∗ Φ ⟨3, of_decide_eq_true rfl⟩ ∗ Φ ⟨4, of_decide_eq_true rfl⟩ ∗ Φ ⟨5, of_decide_eq_true rfl⟩ ∗ Φ ⟨6, of_decide_eq_true rfl⟩) := bigSep_fin7 Φ

/-! ## The waits a trip records -/

theorem waits_ok_insert {W W' : Waits sig (HIx 1)} (sm : SemLoc sig)
    (h : ∀ p ∈ W', p ∈ W ∨ p.2 = none ∨ p.2 = some 0) : ∀ p ∈ insert (sm, (none : HIx 1)) W', p ∈ W ∨ p.2 = none ∨ p.2 = some 0 := by
  intro p hp
  rcases Finset.mem_insert.mp hp with rfl | hp
  · exact Or.inr (Or.inl rfl)
  · exact h p hp

theorem chunk_lt (hw : 2 * s.val + c.val ≤ 30) (k : Fin k1_t1_loop.trips) (b : Fin 7) : 504 * (wOf c s).val + 7 * k.val + b.val < 15625 := by
  have := k.isLt; have := b.isLt
  show 504 * (2 * s.val + c.val) + 7 * k.val + b.val < 15625
  have : k.val < 72 := k.isLt
  omega

/-! ## A slot's new copy-out is the next trip's slot -/

/-- slot 0: the flight of the copy-out of chunk 7 k + 0, its delivery restated at the result's values -/
theorem slot0_close (hw : 2 * s.val + c.val ≤ 30) (k : Fin k1_t1_loop.trips) (sm : SemLoc sig) (hsm : sm = SemLoc.dma cc1_scratch11.sem) (ι : HIx 1) (hι : ι = none)
    (fo : Buf (Elt F) (outLoc d)) (fR : Buf (Elt F) ((rwS).view.loc (thr d c s)))
    (wc : (Rect.whole (Rect.unit (s := S2000000x128) (k1_off12 (coordsV c s) k) S128x128.size (k1_off12_inb (coordsV c s) k (hO0 c s k hw))).shape).shape.Idx → Elt F .f32)
    (ws : (Rect.whole S128x128).shape.Idx → Elt F .f32)
    (hval : ∀ i ∈ chunkSet (chunkIx c s k.val 0), (((outW).slice (Rect.unit (s := S2000000x128) (k1_off12 (coordsV c s) k) S128x128.size (k1_off12_inb (coordsV c s) k (hO0 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off12 (coordsV c s) k) S128x128.size (k1_off12_inb (coordsV c s) k (hO0 c s k hw))) (fun _ => rfl))).view.loc (thr d c s) ↦[(((outW).slice (Rect.unit (s := S2000000x128) (k1_off12 (coordsV c s) k) S128x128.size (k1_off12_inb (coordsV c s) k (hO0 c s k hw))) (fun _ => rfl))).view.set]{fullShare} (((outW).slice (Rect.unit (s := S2000000x128) (k1_off12 (coordsV c s) k) S128x128.size (k1_off12_inb (coordsV c s) k (hO0 c s k hw))) (fun _ => rfl))).view.writes (Elt F) fo [⟨Rect.whole _, wc⟩])
          ∗ (slotM0).view.loc (thr d c s) ↦[(slotM0).view.set]{fullShare} (slotM0).view.writes (Elt F) fR [⟨Rect.whole S128x128, ws⟩])
      ⊢ (Slot0 m d c s (k.val + 1) : sProp 𝕄) := by
  subst hsm; subst hι
  rw [slot0_pos m d c s (k.val + 1) (Nat.succ_ne_zero _), Nat.add_sub_cancel]
  have hD : ((((outW).slice (Rect.unit (s := S2000000x128) (k1_off12 (coordsV c s) k) S128x128.size (k1_off12_inb (coordsV c s) k (hO0 c s k hw))) (fun _ => rfl))).view.loc (thr d c s) ↦[(((outW).slice (Rect.unit (s := S2000000x128) (k1_off12 (coordsV c s) k) S128x128.size (k1_off12_inb (coordsV c s) k (hO0 c s k hw))) (fun _ => rfl))).view.set]{fullShare} (((outW).slice (Rect.unit (s := S2000000x128) (k1_off12 (coordsV c s) k) S128x128.size (k1_off12_inb (coordsV c s) k (hO0 c s k hw))) (fun _ => rfl))).view.writes (Elt F) fo [⟨Rect.whole _, wc⟩] : sProp 𝕄)
      = (outLoc d ↦[chunkSet (chunkIx c s k.val 0)]{fullShare} outG m d) :=
    (pts_chunk0 d c s k (hO0 c s k hw) (chunk_lt c s hw k ⟨0, of_decide_eq_true rfl⟩) fullShare _).trans
      ((congrArg (fun g => (outLoc d ↦[chunkSet g]{fullShare} (((outW).slice (Rect.unit (s := S2000000x128) (k1_off12 (coordsV c s) k) S128x128.size (k1_off12_inb (coordsV c s) k (hO0 c s k hw))) (fun _ => rfl))).view.writes (Elt F) fo [⟨Rect.whole _, wc⟩] : sProp 𝕄))
        (chunkIx_eq_chunkOf c s hw k ⟨0, of_decide_eq_true rfl⟩ (chunk_lt c s hw k ⟨0, of_decide_eq_true rfl⟩)).symm).trans (pointsTo_congr hval))
  iintro H
  iexists ((slotM0).view.writes (Elt F) fR [⟨Rect.whole S128x128, ws⟩])
  iapply (Transfers.Flight_mono (countersEmb (U := UU)) (thr d c s) (BI.sep_mono (Entails.of_eq hD) (BI.Entails.refl _))) $$ H

/-- slot 1: the flight of the copy-out of chunk 7 k + 1, its delivery restated at the result's values -/
theorem slot1_close (hw : 2 * s.val + c.val ≤ 30) (k : Fin k1_t1_loop.trips) (sm : SemLoc sig) (hsm : sm = SemLoc.dma cc1_scratch12.sem) (ι : HIx 1) (hι : ι = none)
    (fo : Buf (Elt F) (outLoc d)) (fR : Buf (Elt F) ((rwS).view.loc (thr d c s)))
    (wc : (Rect.whole (Rect.unit (s := S2000000x128) (k1_off14 (coordsV c s) k) S128x128.size (k1_off14_inb (coordsV c s) k (hO1 c s k hw))).shape).shape.Idx → Elt F .f32)
    (ws : (Rect.whole S128x128).shape.Idx → Elt F .f32)
    (hval : ∀ i ∈ chunkSet (chunkIx c s k.val 1), (((outW).slice (Rect.unit (s := S2000000x128) (k1_off14 (coordsV c s) k) S128x128.size (k1_off14_inb (coordsV c s) k (hO1 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off14 (coordsV c s) k) S128x128.size (k1_off14_inb (coordsV c s) k (hO1 c s k hw))) (fun _ => rfl))).view.loc (thr d c s) ↦[(((outW).slice (Rect.unit (s := S2000000x128) (k1_off14 (coordsV c s) k) S128x128.size (k1_off14_inb (coordsV c s) k (hO1 c s k hw))) (fun _ => rfl))).view.set]{fullShare} (((outW).slice (Rect.unit (s := S2000000x128) (k1_off14 (coordsV c s) k) S128x128.size (k1_off14_inb (coordsV c s) k (hO1 c s k hw))) (fun _ => rfl))).view.writes (Elt F) fo [⟨Rect.whole _, wc⟩])
          ∗ (slotM1).view.loc (thr d c s) ↦[(slotM1).view.set]{fullShare} (slotM1).view.writes (Elt F) fR [⟨Rect.whole S128x128, ws⟩])
      ⊢ (Slot1 m d c s (k.val + 1) : sProp 𝕄) := by
  subst hsm; subst hι
  rw [slot1_pos m d c s (k.val + 1) (Nat.succ_ne_zero _), Nat.add_sub_cancel]
  have hD : ((((outW).slice (Rect.unit (s := S2000000x128) (k1_off14 (coordsV c s) k) S128x128.size (k1_off14_inb (coordsV c s) k (hO1 c s k hw))) (fun _ => rfl))).view.loc (thr d c s) ↦[(((outW).slice (Rect.unit (s := S2000000x128) (k1_off14 (coordsV c s) k) S128x128.size (k1_off14_inb (coordsV c s) k (hO1 c s k hw))) (fun _ => rfl))).view.set]{fullShare} (((outW).slice (Rect.unit (s := S2000000x128) (k1_off14 (coordsV c s) k) S128x128.size (k1_off14_inb (coordsV c s) k (hO1 c s k hw))) (fun _ => rfl))).view.writes (Elt F) fo [⟨Rect.whole _, wc⟩] : sProp 𝕄)
      = (outLoc d ↦[chunkSet (chunkIx c s k.val 1)]{fullShare} outG m d) :=
    (pts_chunk1 d c s k (hO1 c s k hw) (chunk_lt c s hw k ⟨1, of_decide_eq_true rfl⟩) fullShare _).trans
      ((congrArg (fun g => (outLoc d ↦[chunkSet g]{fullShare} (((outW).slice (Rect.unit (s := S2000000x128) (k1_off14 (coordsV c s) k) S128x128.size (k1_off14_inb (coordsV c s) k (hO1 c s k hw))) (fun _ => rfl))).view.writes (Elt F) fo [⟨Rect.whole _, wc⟩] : sProp 𝕄))
        (chunkIx_eq_chunkOf c s hw k ⟨1, of_decide_eq_true rfl⟩ (chunk_lt c s hw k ⟨1, of_decide_eq_true rfl⟩)).symm).trans (pointsTo_congr hval))
  iintro H
  iexists ((slotM1).view.writes (Elt F) fR [⟨Rect.whole S128x128, ws⟩])
  iapply (Transfers.Flight_mono (countersEmb (U := UU)) (thr d c s) (BI.sep_mono (Entails.of_eq hD) (BI.Entails.refl _))) $$ H

/-- slot 2: the flight of the copy-out of chunk 7 k + 2, its delivery restated at the result's values -/
theorem slot2_close (hw : 2 * s.val + c.val ≤ 30) (k : Fin k1_t1_loop.trips) (sm : SemLoc sig) (hsm : sm = SemLoc.dma cc1_scratch13.sem) (ι : HIx 1) (hι : ι = none)
    (fo : Buf (Elt F) (outLoc d)) (fR : Buf (Elt F) ((rwS).view.loc (thr d c s)))
    (wc : (Rect.whole (Rect.unit (s := S2000000x128) (k1_off16 (coordsV c s) k) S128x128.size (k1_off16_inb (coordsV c s) k (hO2 c s k hw))).shape).shape.Idx → Elt F .f32)
    (ws : (Rect.whole S128x128).shape.Idx → Elt F .f32)
    (hval : ∀ i ∈ chunkSet (chunkIx c s k.val 2), (((outW).slice (Rect.unit (s := S2000000x128) (k1_off16 (coordsV c s) k) S128x128.size (k1_off16_inb (coordsV c s) k (hO2 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off16 (coordsV c s) k) S128x128.size (k1_off16_inb (coordsV c s) k (hO2 c s k hw))) (fun _ => rfl))).view.loc (thr d c s) ↦[(((outW).slice (Rect.unit (s := S2000000x128) (k1_off16 (coordsV c s) k) S128x128.size (k1_off16_inb (coordsV c s) k (hO2 c s k hw))) (fun _ => rfl))).view.set]{fullShare} (((outW).slice (Rect.unit (s := S2000000x128) (k1_off16 (coordsV c s) k) S128x128.size (k1_off16_inb (coordsV c s) k (hO2 c s k hw))) (fun _ => rfl))).view.writes (Elt F) fo [⟨Rect.whole _, wc⟩])
          ∗ (slotM2).view.loc (thr d c s) ↦[(slotM2).view.set]{fullShare} (slotM2).view.writes (Elt F) fR [⟨Rect.whole S128x128, ws⟩])
      ⊢ (Slot2 m d c s (k.val + 1) : sProp 𝕄) := by
  subst hsm; subst hι
  rw [slot2_pos m d c s (k.val + 1) (Nat.succ_ne_zero _), Nat.add_sub_cancel]
  have hD : ((((outW).slice (Rect.unit (s := S2000000x128) (k1_off16 (coordsV c s) k) S128x128.size (k1_off16_inb (coordsV c s) k (hO2 c s k hw))) (fun _ => rfl))).view.loc (thr d c s) ↦[(((outW).slice (Rect.unit (s := S2000000x128) (k1_off16 (coordsV c s) k) S128x128.size (k1_off16_inb (coordsV c s) k (hO2 c s k hw))) (fun _ => rfl))).view.set]{fullShare} (((outW).slice (Rect.unit (s := S2000000x128) (k1_off16 (coordsV c s) k) S128x128.size (k1_off16_inb (coordsV c s) k (hO2 c s k hw))) (fun _ => rfl))).view.writes (Elt F) fo [⟨Rect.whole _, wc⟩] : sProp 𝕄)
      = (outLoc d ↦[chunkSet (chunkIx c s k.val 2)]{fullShare} outG m d) :=
    (pts_chunk2 d c s k (hO2 c s k hw) (chunk_lt c s hw k ⟨2, of_decide_eq_true rfl⟩) fullShare _).trans
      ((congrArg (fun g => (outLoc d ↦[chunkSet g]{fullShare} (((outW).slice (Rect.unit (s := S2000000x128) (k1_off16 (coordsV c s) k) S128x128.size (k1_off16_inb (coordsV c s) k (hO2 c s k hw))) (fun _ => rfl))).view.writes (Elt F) fo [⟨Rect.whole _, wc⟩] : sProp 𝕄))
        (chunkIx_eq_chunkOf c s hw k ⟨2, of_decide_eq_true rfl⟩ (chunk_lt c s hw k ⟨2, of_decide_eq_true rfl⟩)).symm).trans (pointsTo_congr hval))
  iintro H
  iexists ((slotM2).view.writes (Elt F) fR [⟨Rect.whole S128x128, ws⟩])
  iapply (Transfers.Flight_mono (countersEmb (U := UU)) (thr d c s) (BI.sep_mono (Entails.of_eq hD) (BI.Entails.refl _))) $$ H

/-- slot 3: the flight of the copy-out of chunk 7 k + 3, its delivery restated at the result's values -/
theorem slot3_close (hw : 2 * s.val + c.val ≤ 30) (k : Fin k1_t1_loop.trips) (sm : SemLoc sig) (hsm : sm = SemLoc.dma cc1_scratch14.sem) (ι : HIx 1) (hι : ι = none)
    (fo : Buf (Elt F) (outLoc d)) (fR : Buf (Elt F) ((rwS).view.loc (thr d c s)))
    (wc : (Rect.whole (Rect.unit (s := S2000000x128) (k1_off18 (coordsV c s) k) S128x128.size (k1_off18_inb (coordsV c s) k (hO3 c s k hw))).shape).shape.Idx → Elt F .f32)
    (ws : (Rect.whole S128x128).shape.Idx → Elt F .f32)
    (hval : ∀ i ∈ chunkSet (chunkIx c s k.val 3), (((outW).slice (Rect.unit (s := S2000000x128) (k1_off18 (coordsV c s) k) S128x128.size (k1_off18_inb (coordsV c s) k (hO3 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off18 (coordsV c s) k) S128x128.size (k1_off18_inb (coordsV c s) k (hO3 c s k hw))) (fun _ => rfl))).view.loc (thr d c s) ↦[(((outW).slice (Rect.unit (s := S2000000x128) (k1_off18 (coordsV c s) k) S128x128.size (k1_off18_inb (coordsV c s) k (hO3 c s k hw))) (fun _ => rfl))).view.set]{fullShare} (((outW).slice (Rect.unit (s := S2000000x128) (k1_off18 (coordsV c s) k) S128x128.size (k1_off18_inb (coordsV c s) k (hO3 c s k hw))) (fun _ => rfl))).view.writes (Elt F) fo [⟨Rect.whole _, wc⟩])
          ∗ (slotM3).view.loc (thr d c s) ↦[(slotM3).view.set]{fullShare} (slotM3).view.writes (Elt F) fR [⟨Rect.whole S128x128, ws⟩])
      ⊢ (Slot3 m d c s (k.val + 1) : sProp 𝕄) := by
  subst hsm; subst hι
  rw [slot3_pos m d c s (k.val + 1) (Nat.succ_ne_zero _), Nat.add_sub_cancel]
  have hD : ((((outW).slice (Rect.unit (s := S2000000x128) (k1_off18 (coordsV c s) k) S128x128.size (k1_off18_inb (coordsV c s) k (hO3 c s k hw))) (fun _ => rfl))).view.loc (thr d c s) ↦[(((outW).slice (Rect.unit (s := S2000000x128) (k1_off18 (coordsV c s) k) S128x128.size (k1_off18_inb (coordsV c s) k (hO3 c s k hw))) (fun _ => rfl))).view.set]{fullShare} (((outW).slice (Rect.unit (s := S2000000x128) (k1_off18 (coordsV c s) k) S128x128.size (k1_off18_inb (coordsV c s) k (hO3 c s k hw))) (fun _ => rfl))).view.writes (Elt F) fo [⟨Rect.whole _, wc⟩] : sProp 𝕄)
      = (outLoc d ↦[chunkSet (chunkIx c s k.val 3)]{fullShare} outG m d) :=
    (pts_chunk3 d c s k (hO3 c s k hw) (chunk_lt c s hw k ⟨3, of_decide_eq_true rfl⟩) fullShare _).trans
      ((congrArg (fun g => (outLoc d ↦[chunkSet g]{fullShare} (((outW).slice (Rect.unit (s := S2000000x128) (k1_off18 (coordsV c s) k) S128x128.size (k1_off18_inb (coordsV c s) k (hO3 c s k hw))) (fun _ => rfl))).view.writes (Elt F) fo [⟨Rect.whole _, wc⟩] : sProp 𝕄))
        (chunkIx_eq_chunkOf c s hw k ⟨3, of_decide_eq_true rfl⟩ (chunk_lt c s hw k ⟨3, of_decide_eq_true rfl⟩)).symm).trans (pointsTo_congr hval))
  iintro H
  iexists ((slotM3).view.writes (Elt F) fR [⟨Rect.whole S128x128, ws⟩])
  iapply (Transfers.Flight_mono (countersEmb (U := UU)) (thr d c s) (BI.sep_mono (Entails.of_eq hD) (BI.Entails.refl _))) $$ H

/-- slot 4: the flight of the copy-out of chunk 7 k + 4, its delivery restated at the result's values -/
theorem slot4_close (hw : 2 * s.val + c.val ≤ 30) (k : Fin k1_t1_loop.trips) (sm : SemLoc sig) (hsm : sm = SemLoc.dma cc1_scratch15.sem) (ι : HIx 1) (hι : ι = none)
    (fo : Buf (Elt F) (outLoc d)) (fR : Buf (Elt F) ((rwS).view.loc (thr d c s)))
    (wc : (Rect.whole (Rect.unit (s := S2000000x128) (k1_off20 (coordsV c s) k) S128x128.size (k1_off20_inb (coordsV c s) k (hO4 c s k hw))).shape).shape.Idx → Elt F .f32)
    (ws : (Rect.whole S128x128).shape.Idx → Elt F .f32)
    (hval : ∀ i ∈ chunkSet (chunkIx c s k.val 4), (((outW).slice (Rect.unit (s := S2000000x128) (k1_off20 (coordsV c s) k) S128x128.size (k1_off20_inb (coordsV c s) k (hO4 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off20 (coordsV c s) k) S128x128.size (k1_off20_inb (coordsV c s) k (hO4 c s k hw))) (fun _ => rfl))).view.loc (thr d c s) ↦[(((outW).slice (Rect.unit (s := S2000000x128) (k1_off20 (coordsV c s) k) S128x128.size (k1_off20_inb (coordsV c s) k (hO4 c s k hw))) (fun _ => rfl))).view.set]{fullShare} (((outW).slice (Rect.unit (s := S2000000x128) (k1_off20 (coordsV c s) k) S128x128.size (k1_off20_inb (coordsV c s) k (hO4 c s k hw))) (fun _ => rfl))).view.writes (Elt F) fo [⟨Rect.whole _, wc⟩])
          ∗ (slotM4).view.loc (thr d c s) ↦[(slotM4).view.set]{fullShare} (slotM4).view.writes (Elt F) fR [⟨Rect.whole S128x128, ws⟩])
      ⊢ (Slot4 m d c s (k.val + 1) : sProp 𝕄) := by
  subst hsm; subst hι
  rw [slot4_pos m d c s (k.val + 1) (Nat.succ_ne_zero _), Nat.add_sub_cancel]
  have hD : ((((outW).slice (Rect.unit (s := S2000000x128) (k1_off20 (coordsV c s) k) S128x128.size (k1_off20_inb (coordsV c s) k (hO4 c s k hw))) (fun _ => rfl))).view.loc (thr d c s) ↦[(((outW).slice (Rect.unit (s := S2000000x128) (k1_off20 (coordsV c s) k) S128x128.size (k1_off20_inb (coordsV c s) k (hO4 c s k hw))) (fun _ => rfl))).view.set]{fullShare} (((outW).slice (Rect.unit (s := S2000000x128) (k1_off20 (coordsV c s) k) S128x128.size (k1_off20_inb (coordsV c s) k (hO4 c s k hw))) (fun _ => rfl))).view.writes (Elt F) fo [⟨Rect.whole _, wc⟩] : sProp 𝕄)
      = (outLoc d ↦[chunkSet (chunkIx c s k.val 4)]{fullShare} outG m d) :=
    (pts_chunk4 d c s k (hO4 c s k hw) (chunk_lt c s hw k ⟨4, of_decide_eq_true rfl⟩) fullShare _).trans
      ((congrArg (fun g => (outLoc d ↦[chunkSet g]{fullShare} (((outW).slice (Rect.unit (s := S2000000x128) (k1_off20 (coordsV c s) k) S128x128.size (k1_off20_inb (coordsV c s) k (hO4 c s k hw))) (fun _ => rfl))).view.writes (Elt F) fo [⟨Rect.whole _, wc⟩] : sProp 𝕄))
        (chunkIx_eq_chunkOf c s hw k ⟨4, of_decide_eq_true rfl⟩ (chunk_lt c s hw k ⟨4, of_decide_eq_true rfl⟩)).symm).trans (pointsTo_congr hval))
  iintro H
  iexists ((slotM4).view.writes (Elt F) fR [⟨Rect.whole S128x128, ws⟩])
  iapply (Transfers.Flight_mono (countersEmb (U := UU)) (thr d c s) (BI.sep_mono (Entails.of_eq hD) (BI.Entails.refl _))) $$ H

/-- slot 5: the flight of the copy-out of chunk 7 k + 5, its delivery restated at the result's values -/
theorem slot5_close (hw : 2 * s.val + c.val ≤ 30) (k : Fin k1_t1_loop.trips) (sm : SemLoc sig) (hsm : sm = SemLoc.dma cc1_scratch16.sem) (ι : HIx 1) (hι : ι = none)
    (fo : Buf (Elt F) (outLoc d)) (fR : Buf (Elt F) ((rwS).view.loc (thr d c s)))
    (wc : (Rect.whole (Rect.unit (s := S2000000x128) (k1_off22 (coordsV c s) k) S128x128.size (k1_off22_inb (coordsV c s) k (hO5 c s k hw))).shape).shape.Idx → Elt F .f32)
    (ws : (Rect.whole S128x128).shape.Idx → Elt F .f32)
    (hval : ∀ i ∈ chunkSet (chunkIx c s k.val 5), (((outW).slice (Rect.unit (s := S2000000x128) (k1_off22 (coordsV c s) k) S128x128.size (k1_off22_inb (coordsV c s) k (hO5 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off22 (coordsV c s) k) S128x128.size (k1_off22_inb (coordsV c s) k (hO5 c s k hw))) (fun _ => rfl))).view.loc (thr d c s) ↦[(((outW).slice (Rect.unit (s := S2000000x128) (k1_off22 (coordsV c s) k) S128x128.size (k1_off22_inb (coordsV c s) k (hO5 c s k hw))) (fun _ => rfl))).view.set]{fullShare} (((outW).slice (Rect.unit (s := S2000000x128) (k1_off22 (coordsV c s) k) S128x128.size (k1_off22_inb (coordsV c s) k (hO5 c s k hw))) (fun _ => rfl))).view.writes (Elt F) fo [⟨Rect.whole _, wc⟩])
          ∗ (slotM5).view.loc (thr d c s) ↦[(slotM5).view.set]{fullShare} (slotM5).view.writes (Elt F) fR [⟨Rect.whole S128x128, ws⟩])
      ⊢ (Slot5 m d c s (k.val + 1) : sProp 𝕄) := by
  subst hsm; subst hι
  rw [slot5_pos m d c s (k.val + 1) (Nat.succ_ne_zero _), Nat.add_sub_cancel]
  have hD : ((((outW).slice (Rect.unit (s := S2000000x128) (k1_off22 (coordsV c s) k) S128x128.size (k1_off22_inb (coordsV c s) k (hO5 c s k hw))) (fun _ => rfl))).view.loc (thr d c s) ↦[(((outW).slice (Rect.unit (s := S2000000x128) (k1_off22 (coordsV c s) k) S128x128.size (k1_off22_inb (coordsV c s) k (hO5 c s k hw))) (fun _ => rfl))).view.set]{fullShare} (((outW).slice (Rect.unit (s := S2000000x128) (k1_off22 (coordsV c s) k) S128x128.size (k1_off22_inb (coordsV c s) k (hO5 c s k hw))) (fun _ => rfl))).view.writes (Elt F) fo [⟨Rect.whole _, wc⟩] : sProp 𝕄)
      = (outLoc d ↦[chunkSet (chunkIx c s k.val 5)]{fullShare} outG m d) :=
    (pts_chunk5 d c s k (hO5 c s k hw) (chunk_lt c s hw k ⟨5, of_decide_eq_true rfl⟩) fullShare _).trans
      ((congrArg (fun g => (outLoc d ↦[chunkSet g]{fullShare} (((outW).slice (Rect.unit (s := S2000000x128) (k1_off22 (coordsV c s) k) S128x128.size (k1_off22_inb (coordsV c s) k (hO5 c s k hw))) (fun _ => rfl))).view.writes (Elt F) fo [⟨Rect.whole _, wc⟩] : sProp 𝕄))
        (chunkIx_eq_chunkOf c s hw k ⟨5, of_decide_eq_true rfl⟩ (chunk_lt c s hw k ⟨5, of_decide_eq_true rfl⟩)).symm).trans (pointsTo_congr hval))
  iintro H
  iexists ((slotM5).view.writes (Elt F) fR [⟨Rect.whole S128x128, ws⟩])
  iapply (Transfers.Flight_mono (countersEmb (U := UU)) (thr d c s) (BI.sep_mono (Entails.of_eq hD) (BI.Entails.refl _))) $$ H

/-- slot 6: the flight of the copy-out of chunk 7 k + 6, its delivery restated at the result's values -/
theorem slot6_close (hw : 2 * s.val + c.val ≤ 30) (k : Fin k1_t1_loop.trips) (sm : SemLoc sig) (hsm : sm = SemLoc.dma cc1_scratch17.sem) (ι : HIx 1) (hι : ι = none)
    (fo : Buf (Elt F) (outLoc d)) (fR : Buf (Elt F) ((rwS).view.loc (thr d c s)))
    (wc : (Rect.whole (Rect.unit (s := S2000000x128) (k1_off24 (coordsV c s) k) S128x128.size (k1_off24_inb (coordsV c s) k (hO6 c s k hw))).shape).shape.Idx → Elt F .f32)
    (ws : (Rect.whole S128x128).shape.Idx → Elt F .f32)
    (hval : ∀ i ∈ chunkSet (chunkIx c s k.val 6), (((outW).slice (Rect.unit (s := S2000000x128) (k1_off24 (coordsV c s) k) S128x128.size (k1_off24_inb (coordsV c s) k (hO6 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off24 (coordsV c s) k) S128x128.size (k1_off24_inb (coordsV c s) k (hO6 c s k hw))) (fun _ => rfl))).view.loc (thr d c s) ↦[(((outW).slice (Rect.unit (s := S2000000x128) (k1_off24 (coordsV c s) k) S128x128.size (k1_off24_inb (coordsV c s) k (hO6 c s k hw))) (fun _ => rfl))).view.set]{fullShare} (((outW).slice (Rect.unit (s := S2000000x128) (k1_off24 (coordsV c s) k) S128x128.size (k1_off24_inb (coordsV c s) k (hO6 c s k hw))) (fun _ => rfl))).view.writes (Elt F) fo [⟨Rect.whole _, wc⟩])
          ∗ (slotM6).view.loc (thr d c s) ↦[(slotM6).view.set]{fullShare} (slotM6).view.writes (Elt F) fR [⟨Rect.whole S128x128, ws⟩])
      ⊢ (Slot6 m d c s (k.val + 1) : sProp 𝕄) := by
  subst hsm; subst hι
  rw [slot6_pos m d c s (k.val + 1) (Nat.succ_ne_zero _), Nat.add_sub_cancel]
  have hD : ((((outW).slice (Rect.unit (s := S2000000x128) (k1_off24 (coordsV c s) k) S128x128.size (k1_off24_inb (coordsV c s) k (hO6 c s k hw))) (fun _ => rfl))).view.loc (thr d c s) ↦[(((outW).slice (Rect.unit (s := S2000000x128) (k1_off24 (coordsV c s) k) S128x128.size (k1_off24_inb (coordsV c s) k (hO6 c s k hw))) (fun _ => rfl))).view.set]{fullShare} (((outW).slice (Rect.unit (s := S2000000x128) (k1_off24 (coordsV c s) k) S128x128.size (k1_off24_inb (coordsV c s) k (hO6 c s k hw))) (fun _ => rfl))).view.writes (Elt F) fo [⟨Rect.whole _, wc⟩] : sProp 𝕄)
      = (outLoc d ↦[chunkSet (chunkIx c s k.val 6)]{fullShare} outG m d) :=
    (pts_chunk6 d c s k (hO6 c s k hw) (chunk_lt c s hw k ⟨6, of_decide_eq_true rfl⟩) fullShare _).trans
      ((congrArg (fun g => (outLoc d ↦[chunkSet g]{fullShare} (((outW).slice (Rect.unit (s := S2000000x128) (k1_off24 (coordsV c s) k) S128x128.size (k1_off24_inb (coordsV c s) k (hO6 c s k hw))) (fun _ => rfl))).view.writes (Elt F) fo [⟨Rect.whole _, wc⟩] : sProp 𝕄))
        (chunkIx_eq_chunkOf c s hw k ⟨6, of_decide_eq_true rfl⟩ (chunk_lt c s hw k ⟨6, of_decide_eq_true rfl⟩)).symm).trans (pointsTo_congr hval))
  iintro H
  iexists ((slotM6).view.writes (Elt F) fR [⟨Rect.whole S128x128, ws⟩])
  iapply (Transfers.Flight_mono (countersEmb (U := UU)) (thr d c s) (BI.sep_mono (Entails.of_eq hD) (BI.Entails.refl _))) $$ H

/-! ## The chunks, the gather semaphores, the waits -/

/-- the seven chunks the previous trip's copy-outs hand back join the chunks done -/
theorem done_close (k : ℕ) (hk : 0 < k) :
    iprop(Done m d c s k ∗ (outLoc d ↦[chunkSet (chunkIx c s (k - 1) 0)]{fullShare} outG m d) ∗ (outLoc d ↦[chunkSet (chunkIx c s (k - 1) 1)]{fullShare} outG m d) ∗ (outLoc d ↦[chunkSet (chunkIx c s (k - 1) 2)]{fullShare} outG m d) ∗ (outLoc d ↦[chunkSet (chunkIx c s (k - 1) 3)]{fullShare} outG m d) ∗ (outLoc d ↦[chunkSet (chunkIx c s (k - 1) 4)]{fullShare} outG m d) ∗ (outLoc d ↦[chunkSet (chunkIx c s (k - 1) 5)]{fullShare} outG m d) ∗ (outLoc d ↦[chunkSet (chunkIx c s (k - 1) 6)]{fullShare} outG m d))
      ⊢ (Done m d c s (k + 1) : sProp 𝕄) := by
  rw [done_step m d c s k hk]

theorem gsems_close (g0 g1 g2 g3 g4 g5 g6 : SemLoc sig) (h0 : g0 = SemLoc.dma cc1_scratch4.sem) (h1 : g1 = SemLoc.dma cc1_scratch5.sem) (h2 : g2 = SemLoc.dma cc1_scratch6.sem) (h3 : g3 = SemLoc.dma cc1_scratch7.sem) (h4 : g4 = SemLoc.dma cc1_scratch8.sem) (h5 : g5 = SemLoc.dma cc1_scratch9.sem) (h6 : g6 = SemLoc.dma cc1_scratch10.sem) :
    iprop(semVal (thr d c s, g0) 0 ∗ semVal (thr d c s, g1) 0 ∗ semVal (thr d c s, g2) 0 ∗ semVal (thr d c s, g3) 0 ∗ semVal (thr d c s, g4) 0 ∗ semVal (thr d c s, g5) 0 ∗ semVal (thr d c s, g6) 0) ⊢ (GSems d c s : sProp 𝕄) := by
  subst h0 h1 h2 h3 h4 h5 h6
  unfold GSems; exact BI.Entails.refl _

theorem owes_close (O : CellTallies nD τ sig (HIx 1)) (W W' : Waits sig (HIx 1)) (h : ∀ p ∈ W', p ∈ W ∨ p.2 = none ∨ p.2 = some 0) :
    owes (thr d c s) O W' ⊢ (KI.Owes d c s O W : sProp 𝕄) := by
  unfold KI.Owes
  iintro H
  iexists W'
  isplitr
  · ipureintro; exact h
  · iexact H

/-! ## The index scratch after a prefetching trip -/

/-- the trip's seven lists and the rest of their half are the half again -/
theorem half_join (hw : 2 * s.val + c.val ≤ 30) (k : Fin k1_t1_loop.trips) (f : Buf (Elt F) ((ixS).view.loc (thr d c s))) :
    iprop((((ixS).slice (Rect.unit (s := S7168) (k1_off4 k) S128.size (k1_off4_inb (coordsV c s) k (hG0 c s k hw))) (fun _ => rfl)).view.loc (thr d c s) ↦[((ixS).slice (Rect.unit (s := S7168) (k1_off4 k) S128.size (k1_off4_inb (coordsV c s) k (hG0 c s k hw))) (fun _ => rfl)).view.set]{fullShare} f)
        ∗ (((ixS).slice (Rect.unit (s := S7168) (k1_off5 k) S128.size (k1_off5_inb (coordsV c s) k (hG1 c s k hw))) (fun _ => rfl)).view.loc (thr d c s) ↦[((ixS).slice (Rect.unit (s := S7168) (k1_off5 k) S128.size (k1_off5_inb (coordsV c s) k (hG1 c s k hw))) (fun _ => rfl)).view.set]{fullShare} f)
        ∗ (((ixS).slice (Rect.unit (s := S7168) (k1_off6 k) S128.size (k1_off6_inb (coordsV c s) k (hG2 c s k hw))) (fun _ => rfl)).view.loc (thr d c s) ↦[((ixS).slice (Rect.unit (s := S7168) (k1_off6 k) S128.size (k1_off6_inb (coordsV c s) k (hG2 c s k hw))) (fun _ => rfl)).view.set]{fullShare} f)
        ∗ (((ixS).slice (Rect.unit (s := S7168) (k1_off7 k) S128.size (k1_off7_inb (coordsV c s) k (hG3 c s k hw))) (fun _ => rfl)).view.loc (thr d c s) ↦[((ixS).slice (Rect.unit (s := S7168) (k1_off7 k) S128.size (k1_off7_inb (coordsV c s) k (hG3 c s k hw))) (fun _ => rfl)).view.set]{fullShare} f)
        ∗ (((ixS).slice (Rect.unit (s := S7168) (k1_off8 k) S128.size (k1_off8_inb (coordsV c s) k (hG4 c s k hw))) (fun _ => rfl)).view.loc (thr d c s) ↦[((ixS).slice (Rect.unit (s := S7168) (k1_off8 k) S128.size (k1_off8_inb (coordsV c s) k (hG4 c s k hw))) (fun _ => rfl)).view.set]{fullShare} f)
        ∗ (((ixS).slice (Rect.unit (s := S7168) (k1_off9 k) S128.size (k1_off9_inb (coordsV c s) k (hG5 c s k hw))) (fun _ => rfl)).view.loc (thr d c s) ↦[((ixS).slice (Rect.unit (s := S7168) (k1_off9 k) S128.size (k1_off9_inb (coordsV c s) k (hG5 c s k hw))) (fun _ => rfl)).view.set]{fullShare} f)
        ∗ (((ixS).slice (Rect.unit (s := S7168) (k1_off10 k) S128.size (k1_off10_inb (coordsV c s) k (hG6 c s k hw))) (fun _ => rfl)).view.loc (thr d c s) ↦[((ixS).slice (Rect.unit (s := S7168) (k1_off10 k) S128.size (k1_off10_inb (coordsV c s) k (hG6 c s k hw))) (fun _ => rfl)).view.set]{fullShare} f)
        ∗ (ixS).view.loc (thr d c s) ↦[halfSet (halfOf (k.val / 4)) \ (Finset.univ.biUnion fun b : Fin 7 => pcSet (listOf k b))]{fullShare} f)
      ⊢ ((halfM (halfOf (k.val / 4))).view.loc (thr d c s) ↦[halfSet (halfOf (k.val / 4))]{fullShare} f : sProp 𝕄) := by
  rw [half_split d c s (halfOf (k.val / 4)) k rfl fullShare f,
    bigSep_fin7' (F := F) (fun b : Fin 7 => (pcM (listOf k b)).view.loc (thr d c s) ↦[pcSet (listOf k b)]{fullShare} f),
    ← pts_list0 d c s k (hG0 c s k hw) fullShare f, ← pts_list1 d c s k (hG1 c s k hw) fullShare f, ← pts_list2 d c s k (hG2 c s k hw) fullShare f, ← pts_list3 d c s k (hG3 c s k hw) fullShare f, ← pts_list4 d c s k (hG4 c s k hw) fullShare f, ← pts_list5 d c s k (hG5 c s k hw) fullShare f, ← pts_list6 d c s k (hG6 c s k hw) fullShare f]
  iintro ⟨H0, H1, H2, H3, H4, H5, H6, Hr⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  · iexact Hr

theorem stJ_of_le (j : ℕ) (h : j < 18) : stJ j = ⟨j, h⟩ := Fin.ext (by show min j 17 = j; omega)

/-- After a trip that waited for stage k / 4 and issued stage k / 4 + 1: the new flight is the next trip's prefetch in
    flight, the half just landed the next trip's held half. -/
theorem idx_close_issue (k : Fin k1_t1_loop.trips) (h2 : k1_cond2 k = 1#1) (h3 : k1_cond3 k = 1#1)
    (sm : SemLoc sig) (hsm : sm = SemLoc.dma cc1_scratch3.sem) (ι : HIx 1) (hι : ι = none)
    (fA fB : Buf (Elt F) ((ixS).view.loc (thr d c s))) (hA : StageAt m d c s (halfOf (k.val / 4)) (k.val / 4) fA)
    (w : (Rect.whole (Rect.unit (s := S7168) (k1_off2 k) S3584.size (k1_off2_inb k h2 h3)).shape).shape.Idx → Elt F .i32)
    (hB : StageAt m d c s (halfOf (k.val / 4 + 1)) (k.val / 4 + 1) (((ixS).slice (Rect.unit (s := S7168) (k1_off2 k) S3584.size (k1_off2_inb k h2 h3)) (fun _ => rfl)).view.writes (Elt F) fB [⟨Rect.whole _, w⟩])) :
    iprop(Transfers.Flight (countersEmb (U := UU)) (thr d c s) sm ι 114688
          iprop((((ixS).slice (Rect.unit (s := S7168) (k1_off2 k) S3584.size (k1_off2_inb k h2 h3)) (fun _ => rfl)).view.loc (thr d c s) ↦[((ixS).slice (Rect.unit (s := S7168) (k1_off2 k) S3584.size (k1_off2_inb k h2 h3)) (fun _ => rfl)).view.set]{fullShare} ((ixS).slice (Rect.unit (s := S7168) (k1_off2 k) S3584.size (k1_off2_inb k h2 h3)) (fun _ => rfl)).view.writes (Elt F) fB [⟨Rect.whole _, w⟩])
            ∗ (idxV).view.loc (thr d c s) ↦[((idxV).slice (Rect.unit (s := S2064384) (k1_off3 (coordsV c s) k) S3584.size (k1_off3_inb (coordsV c s) k h2 h3)) (fun _ => rfl)).view.set]{qI c s} idxc m d)
        ∗ ((idxV).view.loc (thr d c s) ↦[Finset.univ \ ((idxV).slice (Rect.unit (s := S2064384) (k1_off3 (coordsV c s) k) S3584.size (k1_off3_inb (coordsV c s) k h2 h3)) (fun _ => rfl)).view.set]{qI c s} idxc m d)
        ∗ (halfM (halfOf (k.val / 4))).view.loc (thr d c s) ↦[halfSet (halfOf (k.val / 4))]{fullShare} fA)
      ⊢ (IdxSt m d c s (k.val + 1) : sProp 𝕄) := by
  subst hsm; subst hι
  have hm := cond2_mod k h2
  have hlt := cond3_lt k h3
  have hset : ((idxV).slice (Rect.unit (s := S2064384) (k1_off3 (coordsV c s) k) S3584.size (k1_off3_inb (coordsV c s) k h2 h3)) (fun _ => rfl)).view.set = stSet (wOf c s) (stJ (k.val / 4 + 1)) := by
    rw [set_st c s k h2 h3, stJ_of_le (k.val / 4 + 1) hlt]
  have hk68 : k.val + 1 ≤ 68 := by omega
  rw [idxSt_le m d c s (k.val + 1) hk68, show (k.val + 1 + 3) / 4 = k.val / 4 + 1 by omega, show (k.val + 1) / 4 = k.val / 4 by omega,
    show halfOf (k.val / 4 + 1 + 1) = halfOf (k.val / 4) from Fin.ext (by show (k.val / 4 + 1 + 1) % 2 = (k.val / 4) % 2; omega)]
  unfold PrefFlight HalfHeld
  rw [hset]
  iintro ⟨Hfl, Hrest, Hhalf⟩
  isplitl [Hfl Hrest]
  · isplitl [Hfl]
    · iapply (Transfers.Flight_mono (countersEmb (U := UU)) (thr d c s) ?_) $$ Hfl
      iintro ⟨H1, H2⟩
      isplitl [H1]
      · iexists (((ixS).slice (Rect.unit (s := S7168) (k1_off2 k) S3584.size (k1_off2_inb k h2 h3)) (fun _ => rfl)).view.writes (Elt F) fB [⟨Rect.whole _, w⟩])
        isplitr
        · ipureintro; exact fun _ => hB
        · iapply (Entails.of_eq (pts_pref d c s k h2 h3 fullShare _)) $$ H1
      · iexact H2
    · iexact Hrest
  · iexists fA
    isplitr
    · ipureintro; exact fun _ => hA
    · iexact Hhalf

/-! ## The first trip and the last prefetching trip -/

theorem slot0_of_zero (k : ℕ) (h : k = 0) :
    Slot0 m d c s k = iprop(semVal (thr d c s, SemLoc.dma cc1_scratch11.sem) 0 ∗ ∃ f : Buf (Elt F) ((rwS).view.loc (thr d c s)), (slotM0).view.loc (thr d c s) ↦[(slotM0).view.set]{fullShare} f) := by
  subst h; exact slot0_zero m d c s
theorem slot1_of_zero (k : ℕ) (h : k = 0) :
    Slot1 m d c s k = iprop(semVal (thr d c s, SemLoc.dma cc1_scratch12.sem) 0 ∗ ∃ f : Buf (Elt F) ((rwS).view.loc (thr d c s)), (slotM1).view.loc (thr d c s) ↦[(slotM1).view.set]{fullShare} f) := by
  subst h; exact slot1_zero m d c s
theorem slot2_of_zero (k : ℕ) (h : k = 0) :
    Slot2 m d c s k = iprop(semVal (thr d c s, SemLoc.dma cc1_scratch13.sem) 0 ∗ ∃ f : Buf (Elt F) ((rwS).view.loc (thr d c s)), (slotM2).view.loc (thr d c s) ↦[(slotM2).view.set]{fullShare} f) := by
  subst h; exact slot2_zero m d c s
theorem slot3_of_zero (k : ℕ) (h : k = 0) :
    Slot3 m d c s k = iprop(semVal (thr d c s, SemLoc.dma cc1_scratch14.sem) 0 ∗ ∃ f : Buf (Elt F) ((rwS).view.loc (thr d c s)), (slotM3).view.loc (thr d c s) ↦[(slotM3).view.set]{fullShare} f) := by
  subst h; exact slot3_zero m d c s
theorem slot4_of_zero (k : ℕ) (h : k = 0) :
    Slot4 m d c s k = iprop(semVal (thr d c s, SemLoc.dma cc1_scratch15.sem) 0 ∗ ∃ f : Buf (Elt F) ((rwS).view.loc (thr d c s)), (slotM4).view.loc (thr d c s) ↦[(slotM4).view.set]{fullShare} f) := by
  subst h; exact slot4_zero m d c s
theorem slot5_of_zero (k : ℕ) (h : k = 0) :
    Slot5 m d c s k = iprop(semVal (thr d c s, SemLoc.dma cc1_scratch16.sem) 0 ∗ ∃ f : Buf (Elt F) ((rwS).view.loc (thr d c s)), (slotM5).view.loc (thr d c s) ↦[(slotM5).view.set]{fullShare} f) := by
  subst h; exact slot5_zero m d c s
theorem slot6_of_zero (k : ℕ) (h : k = 0) :
    Slot6 m d c s k = iprop(semVal (thr d c s, SemLoc.dma cc1_scratch17.sem) 0 ∗ ∃ f : Buf (Elt F) ((rwS).view.loc (thr d c s)), (slotM6).view.loc (thr d c s) ↦[(slotM6).view.set]{fullShare} f) := by
  subst h; exact slot6_zero m d c s

/-- before the second trip no chunk is done yet -/
theorem done_of_zero (k : ℕ) (h : k = 0) : (Done m d c s k : sProp 𝕄) = Done m d c s (k + 1) := by subst h; rfl

/-- After the trip that waited for the last stage and issued nothing: the prefetch's semaphore at zero, the padded
    indices whole, the half just landed holding stage 17, the other half held. -/
theorem idx_close_last (k : Fin k1_t1_loop.trips) (hk : k.val = 68)
    (sm : SemLoc sig) (hsm : sm = SemLoc.dma cc1_scratch3.sem)
    (fA fB : Buf (Elt F) ((ixS).view.loc (thr d c s))) (hA : StageAt m d c s (halfOf (k.val / 4)) (k.val / 4) fA) :
    iprop(semVal (thr d c s, sm) 0 ∗ ((idxV).view.loc (thr d c s) ↦{qI c s} idxc m d)
        ∗ ((halfM (halfOf (k.val / 4))).view.loc (thr d c s) ↦[halfSet (halfOf (k.val / 4))]{fullShare} fA)
        ∗ (halfM (halfOf (k.val / 4 + 1))).view.loc (thr d c s) ↦[halfSet (halfOf (k.val / 4 + 1))]{fullShare} fB)
      ⊢ (IdxSt m d c s (k.val + 1) : sProp 𝕄) := by
  subst hsm
  have e : k.val / 4 = 17 := by omega
  rw [e] at hA
  rw [idxSt_gt m d c s (k.val + 1) (by omega), e, show halfOf (17 + 1) = halfOf 18 from rfl]
  unfold HalfHeld
  iintro ⟨Hs, Hi, HA, HB⟩
  isplitl [Hs]; · iexact Hs
  isplitl [Hi]; · iexact Hi
  isplitl [HA]
  · iexists fA
    isplitr
    · ipureintro; exact fun _ => hA
    · iexact HA
  · iexists fB
    isplitr
    · ipureintro; exact fun h => absurd h id
    · iexact HB

end Close

end Cert.Proof.KI

end
-- ==== Proof.TileValue.lean ====
/-
  What a trip's copy-out writes into a chunk of the result is the result. Row r of chunk g = 504 w + 7 k + b is
  the slot's row r read back, which the gather filled with the shared table's row named by word r of the trip's
  list b; that word is word 128 g + r of the padded indices (the half of the index scratch the list lies in holds
  the stage of trip k), an index of the lookup, at most 118 under the precondition; and the shared table's rows
  below 119 are the projected rows.
-/
import proofs.«203041_g70987219468541_cont_9to1_m_1244_31_alg».proof.Proof.TileInv
import proofs.«203041_g70987219468541_cont_9to1_m_1244_31_alg».proof.Proof.TileSetLemmas
import proofs.«203041_g70987219468541_cont_9to1_m_1244_31_alg».proof.Proof.TileSetLemmas3

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (c : Fin (grid1.bound 0)) (s : Fin (grid1.bound 1))

/-- the shared table as the gather reads it: its whole rectangle -/
abbrev shSl : Memref sig .scVector .shared S128x128 .f32 :=
  (shS).slice (Rect.unit (s := S128x128) ![0, 0] S128x128.size inb_S128x128_S128x128_0_0) (fun _ => rfl)

/-- a whole write read back whole is the payload -/
theorem read_writes_whole {sg : RefSig} {κ : Kind} {sp : Space} {sh : Shape} {e : EltTy} (v : View sg κ sp sh e) (f : v.ty.Contents (Elt F))
    (G : sh.Idx → Elt F e) : v.read (Elt F) (v.writes (Elt F) f [⟨Rect.whole sh, G⟩]) = G := by
  funext x
  have h := View.read_writes_cons_emb v f (Rect.whole sh) G [] x
  rwa [Rect.emb_whole_apply] at h

/-- a rank-1 index read off its row-major position -/
theorem rowMajor_symm_one {n : Nat} (p : Fin (⟨1, ![n]⟩ : Shape).numel) :
    ((⟨1, ![n]⟩ : Shape).rowMajor.symm p 0).val = p.val := by
  have h := Shape.rowMajor_val_one ((⟨1, ![n]⟩ : Shape).rowMajor.symm p)
  rw [Equiv.apply_symm_apply] at h
  exact h.symm

/-- Word x of list b of trip k is word 128 (504 w + 7 k + b) + x of the padded indices, the half the list lies in
    holding the trip's stage. -/
theorem list_word (k : Fin k1_t1_loop.trips) (b : Fin 7)
    (loff : Fin 1 → Nat) (linb : ∀ a, loff a + S128.size a ≤ S7168.size a)
    (el : loff = ![3584 * ((k.val / 4) % 2) + 896 * (k.val % 4) + 128 * b.val])
    (fI : Buf (Elt F) ((ixS).view.loc (thr d c s))) (hst : StageAt m d c s (halfOf (k.val / 4)) (k.val / 4) fI)
    (x : S128.Idx) (hx : 64512 * (wOf c s).val + 896 * k.val + 128 * b.val + (x 0).val < 2064384) :
    ((ixS).slice (Rect.unit (s := S7168) loff S128.size linb) (fun _ => rfl)).view.read (Elt F) fI x
      = idxc m d (ix1 ⟨64512 * (wOf c s).val + 896 * k.val + 128 * b.val + (x 0).val, hx⟩) := by
  subst el
  have hk' : k.val < 72 := k.isLt
  have hb := b.isLt
  have hx0 : (x 0).val < 128 := (x 0).isLt
  let x' : S3584.Idx := ix1 ⟨896 * (k.val % 4) + 128 * b.val + (x 0).val, by omega⟩
  have h := congrFun hst x'
  calc ((ixS).slice (Rect.unit (s := S7168) ![3584 * ((k.val / 4) % 2) + 896 * (k.val % 4) + 128 * b.val] S128.size linb) (fun _ => rfl)).view.read (Elt F) fI x
      = fI ((Rect.unit (s := S7168) ![3584 * ((k.val / 4) % 2) + 896 * (k.val % 4) + 128 * b.val] S128.size linb).idx x) := rfl
    _ = fI ((Rect.unit (s := S7168) ![3584 * (halfOf (k.val / 4)).val] S3584.size (half_inb (halfOf (k.val / 4)))).idx x') := by
        refine congrArg fI (funext fun a => Fin.ext ?_)
        match a with
        | ⟨0, _⟩ =>
          show 3584 * ((k.val / 4) % 2) + 896 * (k.val % 4) + 128 * b.val + 1 * (x 0).val
            = 3584 * ((k.val / 4) % 2) + 1 * (896 * (k.val % 4) + 128 * b.val + (x 0).val)
          omega
    _ = (halfM (halfOf (k.val / 4))).view.read (Elt F) fI x' := rfl
    _ = (stM (wOf c s) (stJ (k.val / 4))).view.read (Elt F) (idxc m d) x' := h
    _ = idxc m d ((Rect.unit (s := S2064384) ![64512 * (wOf c s).val + 3584 * (stJ (k.val / 4)).val] S3584.size (st_inb (wOf c s) (stJ (k.val / 4)))).idx x') := rfl
    _ = idxc m d (ix1 ⟨64512 * (wOf c s).val + 896 * k.val + 128 * b.val + (x 0).val, hx⟩) := by
        refine congrArg (idxc m d) (funext fun a => Fin.ext ?_)
        match a with
        | ⟨0, _⟩ =>
          show 64512 * (wOf c s).val + 3584 * (min (k.val / 4) 17) + 1 * (896 * (k.val % 4) + 128 * b.val + (x 0).val)
            = 64512 * (wOf c s).val + 896 * k.val + 128 * b.val + (x 0).val
          omega

theorem copy_value_gen (hpre : PreOK m) (k : Fin k1_t1_loop.trips) (b : Fin 7) (hg : 504 * (wOf c s).val + 7 * k.val + b.val < 15625)
    (off : Fin 2 → Nat) (inb : ∀ a, off a + S128x128.size a ≤ S2000000x128.size a)
    (e : off = ![129024 * s.val + 64512 * c.val + 896 * k.val + 128 * b.val, 0])
    (loff : Fin 1 → Nat) (linb : ∀ a, loff a + S128.size a ≤ S7168.size a)
    (el : loff = ![3584 * ((k.val / 4) % 2) + 896 * (k.val % 4) + 128 * b.val])
    (tblS : Buf (Elt F) ((shS).view.loc (thr d c s))) (htbl : TableOK m d tblS)
    (fI : Buf (Elt F) ((ixS).view.loc (thr d c s))) (hst : StageAt m d c s (halfOf (k.val / 4)) (k.val / 4) fI)
    (SM : Memref sig .scVector .vmem S128x128 .f32) (fR : Buf (Elt F) (SM.view.loc (thr d c s)))
    (fo : Buf (Elt F) (outLoc d))
    (hn : S128.numel = S128x128.size (gathers_S128x128_S128x128).axis')
    (hin : ∀ x, BitVec.toNat (((ixS).slice (Rect.unit (s := S7168) loff S128.size linb) (fun _ => rfl)).view.read (Elt F) fI x) < 128) :
    ∀ i ∈ chunkSet (chunkIx c s k.val b.val),
      ((outW).slice (Rect.unit (s := S2000000x128) off S128x128.size inb) (fun _ => rfl)).view.writes (Elt F) fo
        [⟨Rect.whole _, (ReadAs.same (Val := Elt F)).apply (View.read (Elt F) SM.view (SM.view.writes (Elt F) fR
          [⟨Rect.whole S128x128, SparseCore.gatherPayload gathers_S128x128_S128x128 (View.read (Elt F) (shSl).view tblS)
            (SparseCore.rows (View.read (Elt F) ((ixS).slice (Rect.unit (s := S7168) loff S128.size linb) (fun _ => rfl)).view fI) hn hin)⟩]))⟩] i
        = outG m d i := by
  intro i hi
  subst e
  have hk' : k.val < 72 := k.isLt
  have hb := b.isLt
  have hwv : (wOf c s).val = 2 * s.val + c.val := rfl
  have hch : chunkIx c s k.val b.val = chunkOf (wOf c s) k b hg := Fin.ext (by
    show min (504 * (wOf c s).val + (7 * k.val + b.val)) 15624 = 504 * (wOf c s).val + 7 * k.val + b.val
    omega)
  have hR := chunk_unit c s k b hg _ inb rfl
  have hi' : i ∈ (Rect.unit (s := S2000000x128) ![129024 * s.val + 64512 * c.val + 896 * k.val + 128 * b.val, 0] S128x128.size inb).set := by
    rw [hR, ← hch, ← View.set_slice_whole main_v3_scv]
    exact hi
  obtain ⟨y, rfl⟩ := (Rect.unit (s := S2000000x128) ![129024 * s.val + 64512 * c.val + 896 * k.val + 128 * b.val, 0] S128x128.size inb).exists_idx_of_mem hi'
  -- the copy-out's payload is the gather's: a whole write read back whole
  rw [show (ReadAs.same (Val := Elt F)).apply (View.read (Elt F) SM.view (SM.view.writes (Elt F) fR
          [⟨Rect.whole S128x128, SparseCore.gatherPayload gathers_S128x128_S128x128 (View.read (Elt F) (shSl).view tblS)
            (SparseCore.rows (View.read (Elt F) ((ixS).slice (Rect.unit (s := S7168) loff S128.size linb) (fun _ => rfl)).view fI) hn hin)⟩]))
        = SparseCore.gatherPayload gathers_S128x128_S128x128 (View.read (Elt F) (shSl).view tblS)
            (SparseCore.rows (View.read (Elt F) ((ixS).slice (Rect.unit (s := S7168) loff S128.size linb) (fun _ => rfl)).view fI) hn hin)
      from read_writes_whole SM.view fR _]
  generalize hr : SparseCore.rows (z := S128x128.size (gathers_S128x128_S128x128).axis) (View.read (Elt F) ((ixS).slice (Rect.unit (s := S7168) loff S128.size linb) (fun _ => rfl)).view fI) hn hin = rws
  generalize hGt : SparseCore.gatherPayload gathers_S128x128_S128x128 (View.read (Elt F) (shSl).view tblS) rws = Gt
  -- what the whole write leaves at the chunk's element y is the payload at y
  have h1 := View.read_writes_cons_emb ((outW).slice (Rect.unit (s := S2000000x128) ![129024 * s.val + 64512 * c.val + 896 * k.val + 128 * b.val, 0] S128x128.size inb) (fun _ => rfl)).view fo (Rect.whole _) Gt [] y
  rw [Rect.emb_whole_apply] at h1
  generalize ((outW).slice (Rect.unit (s := S2000000x128) ![129024 * s.val + 64512 * c.val + 896 * k.val + 128 * b.val, 0] S128x128.size inb) (fun _ => rfl)).view.writes (Elt F) fo [⟨Rect.whole _, Gt⟩] = X at h1 ⊢
  refine Eq.trans (show X ((Rect.unit (s := S2000000x128) ![129024 * s.val + 64512 * c.val + 896 * k.val + 128 * b.val, 0] S128x128.size inb).idx y)
      = ((outW).slice (Rect.unit (s := S2000000x128) ![129024 * s.val + 64512 * c.val + 896 * k.val + 128 * b.val, 0] S128x128.size inb) (fun _ => rfl)).view.read (Elt F) X y from rfl) (h1.trans ?_)
  subst hGt
  -- the gather's payload at y: the shared table at the row the list names, which is a projected row
  show tblS ((Rect.unit (s := S128x128) ![0, 0] S128x128.size inb_S128x128_S128x128_0_0).idx (gathers_S128x128_S128x128.idx rws y))
    = projAt m d (Cert.Proof.Spec.rowOf (m (srcLoc d) (ix1 (((Rect.unit (s := S2000000x128) ![129024 * s.val + 64512 * c.val + 896 * k.val + 128 * b.val, 0] S128x128.size inb).idx y) 0))))
        (((Rect.unit (s := S2000000x128) ![129024 * s.val + 64512 * c.val + 896 * k.val + 128 * b.val, 0] S128x128.size inb).idx y) 1)
  refine Eq.trans ?_ (htbl _ _)
  refine congrArg tblS (funext fun a => Fin.ext ?_)
  match a with
  | ⟨0, _⟩ =>
    have e0 : gathers_S128x128_S128x128.idx rws y ⟨0, Nat.zero_lt_two⟩ = rws (y ⟨0, Nat.zero_lt_two⟩) :=
      Shape.Gathers.idx_axis gathers_S128x128_S128x128 rws y
    have hrw : (rws (y ⟨0, Nat.zero_lt_two⟩)).val
        = (((ixS).slice (Rect.unit (s := S7168) loff S128.size linb) (fun _ => rfl)).view.read (Elt F) fI (S128.rowMajor.symm ((y ⟨0, Nat.zero_lt_two⟩).cast hn.symm))).toNat := by
      rw [← hr]; rfl
    have hx0 : ((S128.rowMajor.symm ((y ⟨0, Nat.zero_lt_two⟩).cast hn.symm)) 0).val = (y ⟨0, Nat.zero_lt_two⟩).val :=
      rowMajor_symm_one _
    have hy0 : (y ⟨0, Nat.zero_lt_two⟩).val < 128 := (y ⟨0, Nat.zero_lt_two⟩).isLt
    have hlw := list_word m d c s k b loff linb el fI hst (S128.rowMajor.symm ((y ⟨0, Nat.zero_lt_two⟩).cast hn.symm))
      (by rw [hx0]; omega)
    have hsrc := hpre d
    show 0 + 1 * (gathers_S128x128_S128x128.idx rws y ⟨0, Nat.zero_lt_two⟩).val
      = (Cert.Proof.Spec.rowOf (m (srcLoc d) (ix1 ((Rect.unit (s := S2000000x128) ![129024 * s.val + 64512 * c.val + 896 * k.val + 128 * b.val, 0] S128x128.size inb).idx y 0)))).val
    generalize ht : ((Rect.unit (s := S2000000x128) ![129024 * s.val + 64512 * c.val + 896 * k.val + 128 * b.val, 0] S128x128.size inb).idx y 0 : Fin 2000000) = t
    have htv : t.val = 129024 * s.val + 64512 * c.val + 896 * k.val + 128 * b.val + 1 * (y ⟨0, Nat.zero_lt_two⟩).val := by
      rw [← ht]; rfl
    rw [e0, hrw, hlw, Cert.Proof.Spec.rowOf_val (hsrc t)]
    show 0 + 1 * (idxOf (m (srcLoc d)) (ix1 _)).toNat = _
    rw [idxOf_apply, dif_pos (show 64512 * (wOf c s).val + 896 * k.val + 128 * b.val
      + ((S128.rowMajor.symm ((y ⟨0, Nat.zero_lt_two⟩).cast hn.symm)) 0).val < 2000000 by rw [hx0]; omega)]
    rw [Nat.zero_add, Nat.one_mul]
    refine congrArg (fun t : Fin 2000000 => (m (srcLoc d) (ix1 t)).toNat) (Fin.ext ?_)
    show 64512 * (wOf c s).val + 896 * k.val + 128 * b.val + ((S128.rowMajor.symm ((y ⟨0, Nat.zero_lt_two⟩).cast hn.symm)) 0).val
      = t.val
    rw [hx0, htv]; omega
  | ⟨1, _⟩ =>
    have e1 := Shape.Gathers.idx_of_ne gathers_S128x128_S128x128 rws y ⟨1, Nat.one_lt_two⟩ Nat.one_ne_zero
    show 0 + 1 * (gathers_S128x128_S128x128.idx rws y ⟨1, Nat.one_lt_two⟩).val = 0 + 1 * (y ⟨1, Nat.one_lt_two⟩).val
    rw [e1]
    rfl

/-- Every word of list b of trip k names one of the table's 128 rows (the run asks it of the list it reads). -/
theorem hin_gen (hpre : PreOK m) (k : Fin k1_t1_loop.trips) (b : Fin 7)
    (loff : Fin 1 → Nat) (linb : ∀ a, loff a + S128.size a ≤ S7168.size a)
    (el : loff = ![3584 * ((k.val / 4) % 2) + 896 * (k.val % 4) + 128 * b.val])
    (fI : Buf (Elt F) ((ixS).view.loc (thr d c s))) (hst : StageAt m d c s (halfOf (k.val / 4)) (k.val / 4) fI) :
    ∀ x, BitVec.toNat (((ixS).slice (Rect.unit (s := S7168) loff S128.size linb) (fun _ => rfl)).view.read (Elt F) fI x) < 128 := by
  intro x
  have hk' : k.val < 72 := k.isLt
  have hb := b.isLt
  have hw32 : (wOf c s).val < 32 := (wOf c s).isLt
  have hx0 : ((x : S128.Idx) 0).val < 128 := ((x : S128.Idx) 0).isLt
  rw [list_word m d c s k b loff linb el fI hst (x : S128.Idx) (by omega)]
  exact idxOf_lt (m (srcLoc d)) (hpre d) _

/-! ## The seven slots, in the program's spelling -/

theorem hin0 (hpre : PreOK m) (k : Fin k1_t1_loop.trips) (hc' : k1_cond5 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off4 k) S128.size (k1_off4_inb (coordsV c s) k hc')) (fun _ => rfl)).view.read (Elt F) fI x) < 128 :=
  hin_gen m d c s hpre k ⟨0, of_decide_eq_true rfl⟩ _ _ (k1_off4_eq _) fI hst

theorem copy_value0 (hpre : PreOK m) (k : Fin k1_t1_loop.trips) (hg : 504 * (wOf c s).val + 7 * k.val + 0 < 15625)
    (hc : k1_cond18 (coordsV c s) k = 1#1) (hc' : k1_cond5 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off4 k) S128.size (k1_off4_inb (coordsV c s) k hc')) (fun _ => rfl)).view.read (Elt F) fI x) < 128) :
    ∀ i ∈ chunkSet (chunkIx c s k.val 0),
      ((outW).slice (Rect.unit (s := S2000000x128) (k1_off12 (coordsV c s) k) S128x128.size (k1_off12_inb (coordsV c s) k hc)) (fun _ => rfl)).view.writes (Elt F) fo
        [⟨Rect.whole _, (ReadAs.same (Val := Elt F)).apply (View.read (Elt F) (slotM0).view ((slotM0).view.writes (Elt F) fR
          [⟨Rect.whole S128x128, SparseCore.gatherPayload gathers_S128x128_S128x128 (View.read (Elt F) (shSl).view tblS)
            (SparseCore.rows (View.read (Elt F) ((ixS).slice (Rect.unit (s := S7168) (k1_off4 k) S128.size (k1_off4_inb (coordsV c s) k hc')) (fun _ => rfl)).view fI) hn hin)⟩]))⟩] i
        = outG m d i :=
  copy_value_gen m d c s hpre k ⟨0, of_decide_eq_true rfl⟩ hg _ _ (k1_off12_eq _ _) _ _ (k1_off4_eq _) tblS htbl fI hst (slotM0) fR fo hn hin

theorem hin1 (hpre : PreOK m) (k : Fin k1_t1_loop.trips) (hc' : k1_cond7 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off5 k) S128.size (k1_off5_inb (coordsV c s) k hc')) (fun _ => rfl)).view.read (Elt F) fI x) < 128 :=
  hin_gen m d c s hpre k ⟨1, of_decide_eq_true rfl⟩ _ _ (k1_off5_eq _) fI hst

theorem copy_value1 (hpre : PreOK m) (k : Fin k1_t1_loop.trips) (hg : 504 * (wOf c s).val + 7 * k.val + 1 < 15625)
    (hc : k1_cond19 (coordsV c s) k = 1#1) (hc' : k1_cond7 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off5 k) S128.size (k1_off5_inb (coordsV c s) k hc')) (fun _ => rfl)).view.read (Elt F) fI x) < 128) :
    ∀ i ∈ chunkSet (chunkIx c s k.val 1),
      ((outW).slice (Rect.unit (s := S2000000x128) (k1_off14 (coordsV c s) k) S128x128.size (k1_off14_inb (coordsV c s) k hc)) (fun _ => rfl)).view.writes (Elt F) fo
        [⟨Rect.whole _, (ReadAs.same (Val := Elt F)).apply (View.read (Elt F) (slotM1).view ((slotM1).view.writes (Elt F) fR
          [⟨Rect.whole S128x128, SparseCore.gatherPayload gathers_S128x128_S128x128 (View.read (Elt F) (shSl).view tblS)
            (SparseCore.rows (View.read (Elt F) ((ixS).slice (Rect.unit (s := S7168) (k1_off5 k) S128.size (k1_off5_inb (coordsV c s) k hc')) (fun _ => rfl)).view fI) hn hin)⟩]))⟩] i
        = outG m d i :=
  copy_value_gen m d c s hpre k ⟨1, of_decide_eq_true rfl⟩ hg _ _ (k1_off14_eq _ _) _ _ (k1_off5_eq _) tblS htbl fI hst (slotM1) fR fo hn hin

theorem hin2 (hpre : PreOK m) (k : Fin k1_t1_loop.trips) (hc' : k1_cond9 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off6 k) S128.size (k1_off6_inb (coordsV c s) k hc')) (fun _ => rfl)).view.read (Elt F) fI x) < 128 :=
  hin_gen m d c s hpre k ⟨2, of_decide_eq_true rfl⟩ _ _ (k1_off6_eq _) fI hst

theorem copy_value2 (hpre : PreOK m) (k : Fin k1_t1_loop.trips) (hg : 504 * (wOf c s).val + 7 * k.val + 2 < 15625)
    (hc : k1_cond20 (coordsV c s) k = 1#1) (hc' : k1_cond9 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off6 k) S128.size (k1_off6_inb (coordsV c s) k hc')) (fun _ => rfl)).view.read (Elt F) fI x) < 128) :
    ∀ i ∈ chunkSet (chunkIx c s k.val 2),
      ((outW).slice (Rect.unit (s := S2000000x128) (k1_off16 (coordsV c s) k) S128x128.size (k1_off16_inb (coordsV c s) k hc)) (fun _ => rfl)).view.writes (Elt F) fo
        [⟨Rect.whole _, (ReadAs.same (Val := Elt F)).apply (View.read (Elt F) (slotM2).view ((slotM2).view.writes (Elt F) fR
          [⟨Rect.whole S128x128, SparseCore.gatherPayload gathers_S128x128_S128x128 (View.read (Elt F) (shSl).view tblS)
            (SparseCore.rows (View.read (Elt F) ((ixS).slice (Rect.unit (s := S7168) (k1_off6 k) S128.size (k1_off6_inb (coordsV c s) k hc')) (fun _ => rfl)).view fI) hn hin)⟩]))⟩] i
        = outG m d i :=
  copy_value_gen m d c s hpre k ⟨2, of_decide_eq_true rfl⟩ hg _ _ (k1_off16_eq _ _) _ _ (k1_off6_eq _) tblS htbl fI hst (slotM2) fR fo hn hin

theorem hin3 (hpre : PreOK m) (k : Fin k1_t1_loop.trips) (hc' : k1_cond11 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off7 k) S128.size (k1_off7_inb (coordsV c s) k hc')) (fun _ => rfl)).view.read (Elt F) fI x) < 128 :=
  hin_gen m d c s hpre k ⟨3, of_decide_eq_true rfl⟩ _ _ (k1_off7_eq _) fI hst

theorem copy_value3 (hpre : PreOK m) (k : Fin k1_t1_loop.trips) (hg : 504 * (wOf c s).val + 7 * k.val + 3 < 15625)
    (hc : k1_cond21 (coordsV c s) k = 1#1) (hc' : k1_cond11 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off7 k) S128.size (k1_off7_inb (coordsV c s) k hc')) (fun _ => rfl)).view.read (Elt F) fI x) < 128) :
    ∀ i ∈ chunkSet (chunkIx c s k.val 3),
      ((outW).slice (Rect.unit (s := S2000000x128) (k1_off18 (coordsV c s) k) S128x128.size (k1_off18_inb (coordsV c s) k hc)) (fun _ => rfl)).view.writes (Elt F) fo
        [⟨Rect.whole _, (ReadAs.same (Val := Elt F)).apply (View.read (Elt F) (slotM3).view ((slotM3).view.writes (Elt F) fR
          [⟨Rect.whole S128x128, SparseCore.gatherPayload gathers_S128x128_S128x128 (View.read (Elt F) (shSl).view tblS)
            (SparseCore.rows (View.read (Elt F) ((ixS).slice (Rect.unit (s := S7168) (k1_off7 k) S128.size (k1_off7_inb (coordsV c s) k hc')) (fun _ => rfl)).view fI) hn hin)⟩]))⟩] i
        = outG m d i :=
  copy_value_gen m d c s hpre k ⟨3, of_decide_eq_true rfl⟩ hg _ _ (k1_off18_eq _ _) _ _ (k1_off7_eq _) tblS htbl fI hst (slotM3) fR fo hn hin

theorem hin4 (hpre : PreOK m) (k : Fin k1_t1_loop.trips) (hc' : k1_cond13 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off8 k) S128.size (k1_off8_inb (coordsV c s) k hc')) (fun _ => rfl)).view.read (Elt F) fI x) < 128 :=
  hin_gen m d c s hpre k ⟨4, of_decide_eq_true rfl⟩ _ _ (k1_off8_eq _) fI hst

theorem copy_value4 (hpre : PreOK m) (k : Fin k1_t1_loop.trips) (hg : 504 * (wOf c s).val + 7 * k.val + 4 < 15625)
    (hc : k1_cond22 (coordsV c s) k = 1#1) (hc' : k1_cond13 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off8 k) S128.size (k1_off8_inb (coordsV c s) k hc')) (fun _ => rfl)).view.read (Elt F) fI x) < 128) :
    ∀ i ∈ chunkSet (chunkIx c s k.val 4),
      ((outW).slice (Rect.unit (s := S2000000x128) (k1_off20 (coordsV c s) k) S128x128.size (k1_off20_inb (coordsV c s) k hc)) (fun _ => rfl)).view.writes (Elt F) fo
        [⟨Rect.whole _, (ReadAs.same (Val := Elt F)).apply (View.read (Elt F) (slotM4).view ((slotM4).view.writes (Elt F) fR
          [⟨Rect.whole S128x128, SparseCore.gatherPayload gathers_S128x128_S128x128 (View.read (Elt F) (shSl).view tblS)
            (SparseCore.rows (View.read (Elt F) ((ixS).slice (Rect.unit (s := S7168) (k1_off8 k) S128.size (k1_off8_inb (coordsV c s) k hc')) (fun _ => rfl)).view fI) hn hin)⟩]))⟩] i
        = outG m d i :=
  copy_value_gen m d c s hpre k ⟨4, of_decide_eq_true rfl⟩ hg _ _ (k1_off20_eq _ _) _ _ (k1_off8_eq _) tblS htbl fI hst (slotM4) fR fo hn hin

theorem hin5 (hpre : PreOK m) (k : Fin k1_t1_loop.trips) (hc' : k1_cond15 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off9 k) S128.size (k1_off9_inb (coordsV c s) k hc')) (fun _ => rfl)).view.read (Elt F) fI x) < 128 :=
  hin_gen m d c s hpre k ⟨5, of_decide_eq_true rfl⟩ _ _ (k1_off9_eq _) fI hst

theorem copy_value5 (hpre : PreOK m) (k : Fin k1_t1_loop.trips) (hg : 504 * (wOf c s).val + 7 * k.val + 5 < 15625)
    (hc : k1_cond23 (coordsV c s) k = 1#1) (hc' : k1_cond15 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off9 k) S128.size (k1_off9_inb (coordsV c s) k hc')) (fun _ => rfl)).view.read (Elt F) fI x) < 128) :
    ∀ i ∈ chunkSet (chunkIx c s k.val 5),
      ((outW).slice (Rect.unit (s := S2000000x128) (k1_off22 (coordsV c s) k) S128x128.size (k1_off22_inb (coordsV c s) k hc)) (fun _ => rfl)).view.writes (Elt F) fo
        [⟨Rect.whole _, (ReadAs.same (Val := Elt F)).apply (View.read (Elt F) (slotM5).view ((slotM5).view.writes (Elt F) fR
          [⟨Rect.whole S128x128, SparseCore.gatherPayload gathers_S128x128_S128x128 (View.read (Elt F) (shSl).view tblS)
            (SparseCore.rows (View.read (Elt F) ((ixS).slice (Rect.unit (s := S7168) (k1_off9 k) S128.size (k1_off9_inb (coordsV c s) k hc')) (fun _ => rfl)).view fI) hn hin)⟩]))⟩] i
        = outG m d i :=
  copy_value_gen m d c s hpre k ⟨5, of_decide_eq_true rfl⟩ hg _ _ (k1_off22_eq _ _) _ _ (k1_off9_eq _) tblS htbl fI hst (slotM5) fR fo hn hin

theorem hin6 (hpre : PreOK m) (k : Fin k1_t1_loop.trips) (hc' : k1_cond17 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off10 k) S128.size (k1_off10_inb (coordsV c s) k hc')) (fun _ => rfl)).view.read (Elt F) fI x) < 128 :=
  hin_gen m d c s hpre k ⟨6, of_decide_eq_true rfl⟩ _ _ (k1_off10_eq _) fI hst

theorem copy_value6 (hpre : PreOK m) (k : Fin k1_t1_loop.trips) (hg : 504 * (wOf c s).val + 7 * k.val + 6 < 15625)
    (hc : k1_cond24 (coordsV c s) k = 1#1) (hc' : k1_cond17 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off10 k) S128.size (k1_off10_inb (coordsV c s) k hc')) (fun _ => rfl)).view.read (Elt F) fI x) < 128) :
    ∀ i ∈ chunkSet (chunkIx c s k.val 6),
      ((outW).slice (Rect.unit (s := S2000000x128) (k1_off24 (coordsV c s) k) S128x128.size (k1_off24_inb (coordsV c s) k hc)) (fun _ => rfl)).view.writes (Elt F) fo
        [⟨Rect.whole _, (ReadAs.same (Val := Elt F)).apply (View.read (Elt F) (slotM6).view ((slotM6).view.writes (Elt F) fR
          [⟨Rect.whole S128x128, SparseCore.gatherPayload gathers_S128x128_S128x128 (View.read (Elt F) (shSl).view tblS)
            (SparseCore.rows (View.read (Elt F) ((ixS).slice (Rect.unit (s := S7168) (k1_off10 k) S128.size (k1_off10_inb (coordsV c s) k hc')) (fun _ => rfl)).view fI) hn hin)⟩]))⟩] i
        = outG m d i :=
  copy_value_gen m d c s hpre k ⟨6, of_decide_eq_true rfl⟩ hg _ _ (k1_off24_eq _ _) _ _ (k1_off10_eq _) tblS htbl fI hst (slotM6) fR fo hn hin

end Tile

end Cert.Proof.KI

end
-- ==== Proof.TripA.lean ====
/-
  The first trip of a tile's loop, for a worker whose chunks all exist. The prefetch of stage 0 is in flight: the trip
  waits for it (half 0 of the index scratch now holds the lists this and the next three trips' gathers read) and issues
  the prefetch of stage 1 from the padded indices into the other half. The seven row slots are idle — no copy-out was
  issued before, their semaphores are at zero — so nothing is waited for on them; for each slot the trip gathers the
  chunk's rows of the shared table by the slot's list and copies the slot out to the result's chunk 7 · 0 + b of the
  worker. No chunk is done before the trip, and none is handed back by it.
-/
import proofs.«203041_g70987219468541_cont_9to1_m_1244_31_alg».proof.Proof.TripClose
import proofs.«203041_g70987219468541_cont_9to1_m_1244_31_alg».proof.Proof.TileValue
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

set_option maxHeartbeats 1600000 in
theorem trip_A (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips)
    (h0 : k.val = 0) :
    KI.Inv m d c s tblS O W k.val ⟨⟩ ⊢ wp frame (wpE (defs₀ (F := F)) 𝒱₀ (thr d c s) none) Set.univ
      (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => KI.Inv m d c s tblS O W (k.val + 1) ⟨⟩) := by
  have hk4 : k.val % 4 = 0 := by omega
  have e1 : (k.val + 3) / 4 = k.val / 4 := by omega
  rw [inv_def m d c s tblS O W k.val, idxSt_le m d c s k.val (by omega), e1]
  unfold PrefFlight Slots Toks GSems KI.Owes ChunksSt
  rw [slot0_of_zero m d c s k.val h0, slot1_of_zero m d c s k.val h0, slot2_of_zero m d c s k.val h0, slot3_of_zero m d c s k.val h0, slot4_of_zero m d c s k.val h0, slot5_of_zero m d c s k.val h0, slot6_of_zero m d c s k.val h0]
  unfold k1_t1_body
  rw [k1_part1_eq_skeleton, k1_part2_eq_skeleton, k1_part3_eq_skeleton, k1_part4_eq_skeleton]
  unfold k1_part1_skel k1_part2_skel k1_part3_skel k1_part4_skel
  iintro ⟨#Hmw, ⟨⟨Hpf, Hrest⟩, Hoth⟩, ⟨⟨Ho0, %fR0, Hs0⟩, ⟨Ho1, %fR1, Hs1⟩, ⟨Ho2, %fR2, Hs2⟩, ⟨Ho3, %fR3, Hs3⟩, ⟨Ho4, %fR4, Hs4⟩, ⟨Ho5, %fR5, Hs5⟩, ⟨Ho6, %fR6, Hs6⟩⟩, ⟨Hdone, Htodo⟩, ⟨Hsh0, Hsh1, Hsh2, Hsh3, Hsh4, Hsh5, Hsh6⟩, ⟨Hg0, Hg1, Hg2, Hg3, Hg4, Hg5, Hg6⟩, ⟨%W0, %hW0, HO⟩⟩
  sl_exec (disch := first | sl_exact (h2T k hk4) | sl_exact (h3T k (by omega)))
  -- the landed half, the other half, the padded indices whole again
  unfold HalfHeld
  icases Hpf_dst with ⟨%fA, %hA, HhalfA⟩
  icases Hoth with ⟨%fB, -, HhalfB⟩
  ihave HhalfB' := (Entails.of_eq (pts_pref d c s k (h2T k hk4) (h3T k (by omega)) fullShare fB).symm) $$ HhalfB
  ihave Hidx := (Entails.of_eq (show ((KI.stM (wOf c s) (stJ (k.val / 4))).view.loc (thr d c s) ↦{qI c s} idxc m d : sProp 𝕄)
      = ((idxV).view.loc (thr d c s) ↦{qI c s} idxc m d) from rfl)) $$ Hrest
  have hfA := half_lt m d c s hpre (halfOf (k.val / 4)) (k.val / 4) fA (hA trivial)
  have hin0 := list_read_lt d c s k ⟨0, of_decide_eq_true rfl⟩ _ (k1_off4_inb (coordsV c s) k (hG0 c s k hw)) (k1_off4_eq k) fA hfA
  have hin1 := list_read_lt d c s k ⟨1, of_decide_eq_true rfl⟩ _ (k1_off5_inb (coordsV c s) k (hG1 c s k hw)) (k1_off5_eq k) fA hfA
  have hin2 := list_read_lt d c s k ⟨2, of_decide_eq_true rfl⟩ _ (k1_off6_inb (coordsV c s) k (hG2 c s k hw)) (k1_off6_eq k) fA hfA
  have hin3 := list_read_lt d c s k ⟨3, of_decide_eq_true rfl⟩ _ (k1_off7_inb (coordsV c s) k (hG3 c s k hw)) (k1_off7_eq k) fA hfA
  have hin4 := list_read_lt d c s k ⟨4, of_decide_eq_true rfl⟩ _ (k1_off8_inb (coordsV c s) k (hG4 c s k hw)) (k1_off8_eq k) fA hfA
  have hin5 := list_read_lt d c s k ⟨5, of_decide_eq_true rfl⟩ _ (k1_off9_inb (coordsV c s) k (hG5 c s k hw)) (k1_off9_eq k) fA hfA
  have hin6 := list_read_lt d c s k ⟨6, of_decide_eq_true rfl⟩ _ (k1_off10_inb (coordsV c s) k (hG6 c s k hw)) (k1_off10_eq k) fA hfA
  -- the landed half cut into the trip's lists
  ihave Hsp := (Entails.of_eq (half_split d c s (halfOf (k.val / 4)) k rfl fullShare fA)) $$ HhalfA
  icases Hsp with ⟨Hlists, HrestA⟩
  ihave Hl := (Entails.of_eq (bigSep_fin7' (F := F) (fun b : Fin 7 => (pcM (listOf k b)).view.loc (thr d c s) ↦[pcSet (listOf k b)]{fullShare} fA))) $$ Hlists
  icases Hl with ⟨Hix0, Hix1, Hix2, Hix3, Hix4, Hix5, Hix6⟩
  ihave Hix0' := (Entails.of_eq (pts_list0 d c s k (hG0 c s k hw) fullShare fA).symm) $$ Hix0
  ihave Hix1' := (Entails.of_eq (pts_list1 d c s k (hG1 c s k hw) fullShare fA).symm) $$ Hix1
  ihave Hix2' := (Entails.of_eq (pts_list2 d c s k (hG2 c s k hw) fullShare fA).symm) $$ Hix2
  ihave Hix3' := (Entails.of_eq (pts_list3 d c s k (hG3 c s k hw) fullShare fA).symm) $$ Hix3
  ihave Hix4' := (Entails.of_eq (pts_list4 d c s k (hG4 c s k hw) fullShare fA).symm) $$ Hix4
  ihave Hix5' := (Entails.of_eq (pts_list5 d c s k (hG5 c s k hw) fullShare fA).symm) $$ Hix5
  ihave Hix6' := (Entails.of_eq (pts_list6 d c s k (hG6 c s k hw) fullShare fA).symm) $$ Hix6
  -- the trip's chunks off the chunks to do
  ihave Htd := (Entails.of_eq (todo_step m d c s k.val k.isLt)) $$ Htodo
  icases Htd with ⟨Hout0, Hout1, Hout2, Hout3, Hout4, Hout5, Hout6, Htodo'⟩
  ihave Hout0' := (Entails.of_eq ((congrArg (fun g => (outLoc d ↦[chunkSet g]{fullShare} m (outLoc d) : sProp 𝕄)) (chunkIx_eq_chunkOf c s hw k ⟨0, of_decide_eq_true rfl⟩ (chunk_lt c s hw k ⟨0, of_decide_eq_true rfl⟩))).trans
      (pts_chunk0 d c s k (hO0 c s k hw) (chunk_lt c s hw k ⟨0, of_decide_eq_true rfl⟩) fullShare (m (outLoc d))).symm)) $$ Hout0
  ihave Hout1' := (Entails.of_eq ((congrArg (fun g => (outLoc d ↦[chunkSet g]{fullShare} m (outLoc d) : sProp 𝕄)) (chunkIx_eq_chunkOf c s hw k ⟨1, of_decide_eq_true rfl⟩ (chunk_lt c s hw k ⟨1, of_decide_eq_true rfl⟩))).trans
      (pts_chunk1 d c s k (hO1 c s k hw) (chunk_lt c s hw k ⟨1, of_decide_eq_true rfl⟩) fullShare (m (outLoc d))).symm)) $$ Hout1
  ihave Hout2' := (Entails.of_eq ((congrArg (fun g => (outLoc d ↦[chunkSet g]{fullShare} m (outLoc d) : sProp 𝕄)) (chunkIx_eq_chunkOf c s hw k ⟨2, of_decide_eq_true rfl⟩ (chunk_lt c s hw k ⟨2, of_decide_eq_true rfl⟩))).trans
      (pts_chunk2 d c s k (hO2 c s k hw) (chunk_lt c s hw k ⟨2, of_decide_eq_true rfl⟩) fullShare (m (outLoc d))).symm)) $$ Hout2
  ihave Hout3' := (Entails.of_eq ((congrArg (fun g => (outLoc d ↦[chunkSet g]{fullShare} m (outLoc d) : sProp 𝕄)) (chunkIx_eq_chunkOf c s hw k ⟨3, of_decide_eq_true rfl⟩ (chunk_lt c s hw k ⟨3, of_decide_eq_true rfl⟩))).trans
      (pts_chunk3 d c s k (hO3 c s k hw) (chunk_lt c s hw k ⟨3, of_decide_eq_true rfl⟩) fullShare (m (outLoc d))).symm)) $$ Hout3
  ihave Hout4' := (Entails.of_eq ((congrArg (fun g => (outLoc d ↦[chunkSet g]{fullShare} m (outLoc d) : sProp 𝕄)) (chunkIx_eq_chunkOf c s hw k ⟨4, of_decide_eq_true rfl⟩ (chunk_lt c s hw k ⟨4, of_decide_eq_true rfl⟩))).trans
      (pts_chunk4 d c s k (hO4 c s k hw) (chunk_lt c s hw k ⟨4, of_decide_eq_true rfl⟩) fullShare (m (outLoc d))).symm)) $$ Hout4
  ihave Hout5' := (Entails.of_eq ((congrArg (fun g => (outLoc d ↦[chunkSet g]{fullShare} m (outLoc d) : sProp 𝕄)) (chunkIx_eq_chunkOf c s hw k ⟨5, of_decide_eq_true rfl⟩ (chunk_lt c s hw k ⟨5, of_decide_eq_true rfl⟩))).trans
      (pts_chunk5 d c s k (hO5 c s k hw) (chunk_lt c s hw k ⟨5, of_decide_eq_true rfl⟩) fullShare (m (outLoc d))).symm)) $$ Hout5
  ihave Hout6' := (Entails.of_eq ((congrArg (fun g => (outLoc d ↦[chunkSet g]{fullShare} m (outLoc d) : sProp 𝕄)) (chunkIx_eq_chunkOf c s hw k ⟨6, of_decide_eq_true rfl⟩ (chunk_lt c s hw k ⟨6, of_decide_eq_true rfl⟩))).trans
      (pts_chunk6 d c s k (hO6 c s k hw) (chunk_lt c s hw k ⟨6, of_decide_eq_true rfl⟩) fullShare (m (outLoc d))).symm)) $$ Hout6
  set_option sl_exec.dischHeartbeats 400000 in
  sl_exec (disch := first | sl_exact (h2T k hk4) | sl_exact (h3T k (by omega)) | sl_exact (hG0 c s k hw) | sl_exact (hO0 c s k hw) | sl_exact (hG1 c s k hw) | sl_exact (hO1 c s k hw) | sl_exact (hG2 c s k hw) | sl_exact (hO2 c s k hw) | sl_exact (hG3 c s k hw) | sl_exact (hO3 c s k hw) | sl_exact (hG4 c s k hw) | sl_exact (hO4 c s k hw) | sl_exact (hG5 c s k hw) | sl_exact (hO5 c s k hw) | sl_exact (hG6 c s k hw) | sl_exact (hO6 c s k hw) | (clear * - h0 hw; revert h0 hw; revert k s c; decide +kernel))
  sl_step
  rw [inv_def m d c s tblS O W (k.val + 1)]
  isplitr; · iexact Hmw
  isplitl [Hpf Hidx Hix0' Hix1' Hix2' Hix3' Hix4' Hix5' Hix6' HrestA]
  · ihave Hh := (half_join d c s hw k fA) $$ [Hix0' Hix1' Hix2' Hix3' Hix4' Hix5' Hix6' HrestA]
    · isplitl [Hix0']; · iexact Hix0'
      isplitl [Hix1']; · iexact Hix1'
      isplitl [Hix2']; · iexact Hix2'
      isplitl [Hix3']; · iexact Hix3'
      isplitl [Hix4']; · iexact Hix4'
      isplitl [Hix5']; · iexact Hix5'
      isplitl [Hix6']; · iexact Hix6'
      iexact HrestA
    iapply (idx_close_issue m d c s k (h2T k hk4) (h3T k (by omega)) (SemLoc.dma ⟨4, of_decide_eq_true rfl⟩ : SemLoc sig) rfl default rfl fA fB (hA trivial) _
      (stageAt_landedK m d c s k (h2T k hk4) (h3T k (by omega)) fB))
    isplitl [Hpf]; · iexact Hpf
    isplitl [Hidx]; · iexact Hidx
    iexact Hh
  isplitl [Ho0 Ho1 Ho2 Ho3 Ho4 Ho5 Ho6]
  · unfold Slots
    isplitl [Ho0]
    · iapply (slot0_close m d c s hw k (SemLoc.dma ⟨12, of_decide_eq_true rfl⟩ : SemLoc sig) rfl default rfl (m (outLoc d)) fR0 _ _ ?_) $$ Ho0
      exact copy_value0 m d c s hpre k (chunk_lt c s hw k ⟨0, of_decide_eq_true rfl⟩) (hO0 c s k hw) (hG0 c s k hw) tblS htbl fA (hA trivial) fR0 (m (outLoc d)) rfl hin0
    isplitl [Ho1]
    · iapply (slot1_close m d c s hw k (SemLoc.dma ⟨13, of_decide_eq_true rfl⟩ : SemLoc sig) rfl default rfl (m (outLoc d)) fR1 _ _ ?_) $$ Ho1
      exact copy_value1 m d c s hpre k (chunk_lt c s hw k ⟨1, of_decide_eq_true rfl⟩) (hO1 c s k hw) (hG1 c s k hw) tblS htbl fA (hA trivial) fR1 (m (outLoc d)) rfl hin1
    isplitl [Ho2]
    · iapply (slot2_close m d c s hw k (SemLoc.dma ⟨14, of_decide_eq_true rfl⟩ : SemLoc sig) rfl default rfl (m (outLoc d)) fR2 _ _ ?_) $$ Ho2
      exact copy_value2 m d c s hpre k (chunk_lt c s hw k ⟨2, of_decide_eq_true rfl⟩) (hO2 c s k hw) (hG2 c s k hw) tblS htbl fA (hA trivial) fR2 (m (outLoc d)) rfl hin2
    isplitl [Ho3]
    · iapply (slot3_close m d c s hw k (SemLoc.dma ⟨15, of_decide_eq_true rfl⟩ : SemLoc sig) rfl default rfl (m (outLoc d)) fR3 _ _ ?_) $$ Ho3
      exact copy_value3 m d c s hpre k (chunk_lt c s hw k ⟨3, of_decide_eq_true rfl⟩) (hO3 c s k hw) (hG3 c s k hw) tblS htbl fA (hA trivial) fR3 (m (outLoc d)) rfl hin3
    isplitl [Ho4]
    · iapply (slot4_close m d c s hw k (SemLoc.dma ⟨16, of_decide_eq_true rfl⟩ : SemLoc sig) rfl default rfl (m (outLoc d)) fR4 _ _ ?_) $$ Ho4
      exact copy_value4 m d c s hpre k (chunk_lt c s hw k ⟨4, of_decide_eq_true rfl⟩) (hO4 c s k hw) (hG4 c s k hw) tblS htbl fA (hA trivial) fR4 (m (outLoc d)) rfl hin4
    isplitl [Ho5]
    · iapply (slot5_close m d c s hw k (SemLoc.dma ⟨17, of_decide_eq_true rfl⟩ : SemLoc sig) rfl default rfl (m (outLoc d)) fR5 _ _ ?_) $$ Ho5
      exact copy_value5 m d c s hpre k (chunk_lt c s hw k ⟨5, of_decide_eq_true rfl⟩) (hO5 c s k hw) (hG5 c s k hw) tblS htbl fA (hA trivial) fR5 (m (outLoc d)) rfl hin5
    iapply (slot6_close m d c s hw k (SemLoc.dma ⟨18, of_decide_eq_true rfl⟩ : SemLoc sig) rfl default rfl (m (outLoc d)) fR6 _ _ ?_) $$ Ho6
    exact copy_value6 m d c s hpre k (chunk_lt c s hw k ⟨6, of_decide_eq_true rfl⟩) (hO6 c s k hw) (hG6 c s k hw) tblS htbl fA (hA trivial) fR6 (m (outLoc d)) rfl hin6
  isplitl [Hdone Htodo']
  · unfold ChunksSt
    isplitl [Hdone]
    · iapply (Entails.of_eq (done_of_zero m d c s k.val h0)) $$ Hdone
    · iexact Htodo'
  isplitl [Hsh0 Hsh1 Hsh2 Hsh3 Hsh4 Hsh5 Hsh6]
  · unfold Toks
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  isplitl [Hg0 Hg1 Hg2 Hg3 Hg4 Hg5 Hg6]
  · iapply (gsems_close d c s (SemLoc.dma ⟨5, of_decide_eq_true rfl⟩ : SemLoc sig) (SemLoc.dma ⟨6, of_decide_eq_true rfl⟩ : SemLoc sig) (SemLoc.dma ⟨7, of_decide_eq_true rfl⟩ : SemLoc sig) (SemLoc.dma ⟨8, of_decide_eq_true rfl⟩ : SemLoc sig) (SemLoc.dma ⟨9, of_decide_eq_true rfl⟩ : SemLoc sig) (SemLoc.dma ⟨10, of_decide_eq_true rfl⟩ : SemLoc sig) (SemLoc.dma ⟨11, of_decide_eq_true rfl⟩ : SemLoc sig) rfl rfl rfl rfl rfl rfl rfl)
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    iexact Hg6
  iapply (owes_close d c s O W _ (waits_ok_insert _ (waits_ok_insert _ (waits_ok_insert _ (waits_ok_insert _ (waits_ok_insert _ (waits_ok_insert _ (waits_ok_insert _
      (waits_ok_insert _ hW0))))))))) $$ HO

end Cert.Proof.KI

end
-- ==== Proof.TripB.lean ====
/-
  A trip of the tile's loop that waits for the index prefetch in flight and issues the next one: trips 4, 8, …, 64.
  The trip first waits for the prefetch of stage k / 4 (the landed half now holds the lists this and the next three trips'
  gathers read), issues the prefetch of stage k / 4 + 1 from the padded indices into the other half, then for each of the
  seven slots waits for the previous trip's copy-out, gathers the chunk's rows of the shared table by the slot's list,
  and copies the slot out to the result's chunk.
-/
import proofs.«203041_g70987219468541_cont_9to1_m_1244_31_alg».proof.Proof.TripClose
import proofs.«203041_g70987219468541_cont_9to1_m_1244_31_alg».proof.Proof.TileValue
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

set_option maxHeartbeats 1600000 in
theorem trip_B (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips)
    (hk4 : k.val % 4 = 0) (hk0 : 0 < k.val) (hk : k.val ≤ 64) :
    KI.Inv m d c s tblS O W k.val ⟨⟩ ⊢ wp frame (wpE (defs₀ (F := F)) 𝒱₀ (thr d c s) none) Set.univ
      (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => KI.Inv m d c s tblS O W (k.val + 1) ⟨⟩) := by
  have e1 : (k.val + 3) / 4 = k.val / 4 := by omega
  have hne : ¬ k.val = 0 := by omega
  rw [inv_def m d c s tblS O W k.val, idxSt_le m d c s k.val (by omega), e1]
  unfold PrefFlight Slots Toks GSems KI.Owes ChunksSt
  rw [slot0_pos m d c s k.val hne, slot1_pos m d c s k.val hne, slot2_pos m d c s k.val hne, slot3_pos m d c s k.val hne, slot4_pos m d c s k.val hne, slot5_pos m d c s k.val hne, slot6_pos m d c s k.val hne]
  unfold k1_t1_body
  rw [k1_part1_eq_skeleton, k1_part2_eq_skeleton, k1_part3_eq_skeleton, k1_part4_eq_skeleton]
  unfold k1_part1_skel k1_part2_skel k1_part3_skel k1_part4_skel
  iintro ⟨#Hmw, ⟨⟨Hpf, Hrest⟩, Hoth⟩, ⟨⟨%fR0, Ho0⟩, ⟨%fR1, Ho1⟩, ⟨%fR2, Ho2⟩, ⟨%fR3, Ho3⟩, ⟨%fR4, Ho4⟩, ⟨%fR5, Ho5⟩, ⟨%fR6, Ho6⟩⟩, ⟨Hdone, Htodo⟩, ⟨Hsh0, Hsh1, Hsh2, Hsh3, Hsh4, Hsh5, Hsh6⟩, ⟨Hg0, Hg1, Hg2, Hg3, Hg4, Hg5, Hg6⟩, ⟨%W0, %hW0, HO⟩⟩
  sl_exec (disch := first | sl_exact (h2T k hk4) | sl_exact (h3T k (by omega)))
  -- the landed half, the other half, the padded indices whole again
  unfold HalfHeld
  icases Hpf_dst with ⟨%fA, %hA, HhalfA⟩
  icases Hoth with ⟨%fB, -, HhalfB⟩
  ihave HhalfB' := (Entails.of_eq (pts_pref d c s k (h2T k hk4) (h3T k (by omega)) fullShare fB).symm) $$ HhalfB
  ihave Hidx := (Entails.of_eq (show ((KI.stM (wOf c s) (stJ (k.val / 4))).view.loc (thr d c s) ↦{qI c s} idxc m d : sProp 𝕄)
      = ((idxV).view.loc (thr d c s) ↦{qI c s} idxc m d) from rfl)) $$ Hrest
  have hfA := half_lt m d c s hpre (halfOf (k.val / 4)) (k.val / 4) fA (hA trivial)
  have hin0 := list_read_lt d c s k ⟨0, of_decide_eq_true rfl⟩ _ (k1_off4_inb (coordsV c s) k (hG0 c s k hw)) (k1_off4_eq k) fA hfA
  have hin1 := list_read_lt d c s k ⟨1, of_decide_eq_true rfl⟩ _ (k1_off5_inb (coordsV c s) k (hG1 c s k hw)) (k1_off5_eq k) fA hfA
  have hin2 := list_read_lt d c s k ⟨2, of_decide_eq_true rfl⟩ _ (k1_off6_inb (coordsV c s) k (hG2 c s k hw)) (k1_off6_eq k) fA hfA
  have hin3 := list_read_lt d c s k ⟨3, of_decide_eq_true rfl⟩ _ (k1_off7_inb (coordsV c s) k (hG3 c s k hw)) (k1_off7_eq k) fA hfA
  have hin4 := list_read_lt d c s k ⟨4, of_decide_eq_true rfl⟩ _ (k1_off8_inb (coordsV c s) k (hG4 c s k hw)) (k1_off8_eq k) fA hfA
  have hin5 := list_read_lt d c s k ⟨5, of_decide_eq_true rfl⟩ _ (k1_off9_inb (coordsV c s) k (hG5 c s k hw)) (k1_off9_eq k) fA hfA
  have hin6 := list_read_lt d c s k ⟨6, of_decide_eq_true rfl⟩ _ (k1_off10_inb (coordsV c s) k (hG6 c s k hw)) (k1_off10_eq k) fA hfA
  -- the landed half cut into the trip's lists
  ihave Hsp := (Entails.of_eq (half_split d c s (halfOf (k.val / 4)) k rfl fullShare fA)) $$ HhalfA
  icases Hsp with ⟨Hlists, HrestA⟩
  ihave Hl := (Entails.of_eq (bigSep_fin7' (F := F) (fun b : Fin 7 => (pcM (listOf k b)).view.loc (thr d c s) ↦[pcSet (listOf k b)]{fullShare} fA))) $$ Hlists
  icases Hl with ⟨Hix0, Hix1, Hix2, Hix3, Hix4, Hix5, Hix6⟩
  ihave Hix0' := (Entails.of_eq (pts_list0 d c s k (hG0 c s k hw) fullShare fA).symm) $$ Hix0
  ihave Hix1' := (Entails.of_eq (pts_list1 d c s k (hG1 c s k hw) fullShare fA).symm) $$ Hix1
  ihave Hix2' := (Entails.of_eq (pts_list2 d c s k (hG2 c s k hw) fullShare fA).symm) $$ Hix2
  ihave Hix3' := (Entails.of_eq (pts_list3 d c s k (hG3 c s k hw) fullShare fA).symm) $$ Hix3
  ihave Hix4' := (Entails.of_eq (pts_list4 d c s k (hG4 c s k hw) fullShare fA).symm) $$ Hix4
  ihave Hix5' := (Entails.of_eq (pts_list5 d c s k (hG5 c s k hw) fullShare fA).symm) $$ Hix5
  ihave Hix6' := (Entails.of_eq (pts_list6 d c s k (hG6 c s k hw) fullShare fA).symm) $$ Hix6
  -- the trip's chunks off the chunks to do
  ihave Htd := (Entails.of_eq (todo_step m d c s k.val k.isLt)) $$ Htodo
  icases Htd with ⟨Hout0, Hout1, Hout2, Hout3, Hout4, Hout5, Hout6, Htodo'⟩
  ihave Hout0' := (Entails.of_eq ((congrArg (fun g => (outLoc d ↦[chunkSet g]{fullShare} m (outLoc d) : sProp 𝕄)) (chunkIx_eq_chunkOf c s hw k ⟨0, of_decide_eq_true rfl⟩ (chunk_lt c s hw k ⟨0, of_decide_eq_true rfl⟩))).trans
      (pts_chunk0 d c s k (hO0 c s k hw) (chunk_lt c s hw k ⟨0, of_decide_eq_true rfl⟩) fullShare (m (outLoc d))).symm)) $$ Hout0
  ihave Hout1' := (Entails.of_eq ((congrArg (fun g => (outLoc d ↦[chunkSet g]{fullShare} m (outLoc d) : sProp 𝕄)) (chunkIx_eq_chunkOf c s hw k ⟨1, of_decide_eq_true rfl⟩ (chunk_lt c s hw k ⟨1, of_decide_eq_true rfl⟩))).trans
      (pts_chunk1 d c s k (hO1 c s k hw) (chunk_lt c s hw k ⟨1, of_decide_eq_true rfl⟩) fullShare (m (outLoc d))).symm)) $$ Hout1
  ihave Hout2' := (Entails.of_eq ((congrArg (fun g => (outLoc d ↦[chunkSet g]{fullShare} m (outLoc d) : sProp 𝕄)) (chunkIx_eq_chunkOf c s hw k ⟨2, of_decide_eq_true rfl⟩ (chunk_lt c s hw k ⟨2, of_decide_eq_true rfl⟩))).trans
      (pts_chunk2 d c s k (hO2 c s k hw) (chunk_lt c s hw k ⟨2, of_decide_eq_true rfl⟩) fullShare (m (outLoc d))).symm)) $$ Hout2
  ihave Hout3' := (Entails.of_eq ((congrArg (fun g => (outLoc d ↦[chunkSet g]{fullShare} m (outLoc d) : sProp 𝕄)) (chunkIx_eq_chunkOf c s hw k ⟨3, of_decide_eq_true rfl⟩ (chunk_lt c s hw k ⟨3, of_decide_eq_true rfl⟩))).trans
      (pts_chunk3 d c s k (hO3 c s k hw) (chunk_lt c s hw k ⟨3, of_decide_eq_true rfl⟩) fullShare (m (outLoc d))).symm)) $$ Hout3
  ihave Hout4' := (Entails.of_eq ((congrArg (fun g => (outLoc d ↦[chunkSet g]{fullShare} m (outLoc d) : sProp 𝕄)) (chunkIx_eq_chunkOf c s hw k ⟨4, of_decide_eq_true rfl⟩ (chunk_lt c s hw k ⟨4, of_decide_eq_true rfl⟩))).trans
      (pts_chunk4 d c s k (hO4 c s k hw) (chunk_lt c s hw k ⟨4, of_decide_eq_true rfl⟩) fullShare (m (outLoc d))).symm)) $$ Hout4
  ihave Hout5' := (Entails.of_eq ((congrArg (fun g => (outLoc d ↦[chunkSet g]{fullShare} m (outLoc d) : sProp 𝕄)) (chunkIx_eq_chunkOf c s hw k ⟨5, of_decide_eq_true rfl⟩ (chunk_lt c s hw k ⟨5, of_decide_eq_true rfl⟩))).trans
      (pts_chunk5 d c s k (hO5 c s k hw) (chunk_lt c s hw k ⟨5, of_decide_eq_true rfl⟩) fullShare (m (outLoc d))).symm)) $$ Hout5
  ihave Hout6' := (Entails.of_eq ((congrArg (fun g => (outLoc d ↦[chunkSet g]{fullShare} m (outLoc d) : sProp 𝕄)) (chunkIx_eq_chunkOf c s hw k ⟨6, of_decide_eq_true rfl⟩ (chunk_lt c s hw k ⟨6, of_decide_eq_true rfl⟩))).trans
      (pts_chunk6 d c s k (hO6 c s k hw) (chunk_lt c s hw k ⟨6, of_decide_eq_true rfl⟩) fullShare (m (outLoc d))).symm)) $$ Hout6
  set_option sl_exec.dischHeartbeats 400000 in
  sl_exec (disch := first | sl_exact (h2T k hk4) | sl_exact (h3T k (by omega)) | sl_exact (hG0 c s k hw) | sl_exact (hO0 c s k hw) | sl_exact (hG1 c s k hw) | sl_exact (hO1 c s k hw) | sl_exact (hG2 c s k hw) | sl_exact (hO2 c s k hw) | sl_exact (hG3 c s k hw) | sl_exact (hO3 c s k hw) | sl_exact (hG4 c s k hw) | sl_exact (hO4 c s k hw) | sl_exact (hG5 c s k hw) | sl_exact (hO5 c s k hw) | sl_exact (hG6 c s k hw) | sl_exact (hO6 c s k hw) | (clear hin0 hin1 hin2 hin3 hin4 hin5 hin6 hfA hA fA fB fR0 fR1 fR2 fR3 fR4 fR5 fR6 hW0 W0 htbl tblS hpre e1 hne hk; revert hk0 hk4 hw; revert k s c; decide +kernel))
  sl_step
  rw [inv_def m d c s tblS O W (k.val + 1)]
  isplitr; · iexact Hmw
  isplitl [Hpf Hidx Hix0' Hix1' Hix2' Hix3' Hix4' Hix5' Hix6' HrestA]
  · ihave Hh := (half_join d c s hw k fA) $$ [Hix0' Hix1' Hix2' Hix3' Hix4' Hix5' Hix6' HrestA]
    · isplitl [Hix0']; · iexact Hix0'
      isplitl [Hix1']; · iexact Hix1'
      isplitl [Hix2']; · iexact Hix2'
      isplitl [Hix3']; · iexact Hix3'
      isplitl [Hix4']; · iexact Hix4'
      isplitl [Hix5']; · iexact Hix5'
      isplitl [Hix6']; · iexact Hix6'
      iexact HrestA
    iapply (idx_close_issue m d c s k (h2T k hk4) (h3T k (by omega)) (SemLoc.dma ⟨4, of_decide_eq_true rfl⟩ : SemLoc sig) rfl default rfl fA fB (hA trivial) _
      (stageAt_landedK m d c s k (h2T k hk4) (h3T k (by omega)) fB))
    isplitl [Hpf]; · iexact Hpf
    isplitl [Hidx]; · iexact Hidx
    iexact Hh
  isplitl [Ho0 Ho1 Ho2 Ho3 Ho4 Ho5 Ho6]
  · unfold Slots
    isplitl [Ho0]
    · iapply (slot0_close m d c s hw k (SemLoc.dma ⟨12, of_decide_eq_true rfl⟩ : SemLoc sig) rfl default rfl (m (outLoc d)) fR0 _ _ ?_) $$ Ho0
      exact copy_value0 m d c s hpre k (chunk_lt c s hw k ⟨0, of_decide_eq_true rfl⟩) (hO0 c s k hw) (hG0 c s k hw) tblS htbl fA (hA trivial) fR0 (m (outLoc d)) rfl hin0
    isplitl [Ho1]
    · iapply (slot1_close m d c s hw k (SemLoc.dma ⟨13, of_decide_eq_true rfl⟩ : SemLoc sig) rfl default rfl (m (outLoc d)) fR1 _ _ ?_) $$ Ho1
      exact copy_value1 m d c s hpre k (chunk_lt c s hw k ⟨1, of_decide_eq_true rfl⟩) (hO1 c s k hw) (hG1 c s k hw) tblS htbl fA (hA trivial) fR1 (m (outLoc d)) rfl hin1
    isplitl [Ho2]
    · iapply (slot2_close m d c s hw k (SemLoc.dma ⟨14, of_decide_eq_true rfl⟩ : SemLoc sig) rfl default rfl (m (outLoc d)) fR2 _ _ ?_) $$ Ho2
      exact copy_value2 m d c s hpre k (chunk_lt c s hw k ⟨2, of_decide_eq_true rfl⟩) (hO2 c s k hw) (hG2 c s k hw) tblS htbl fA (hA trivial) fR2 (m (outLoc d)) rfl hin2
    isplitl [Ho3]
    · iapply (slot3_close m d c s hw k (SemLoc.dma ⟨15, of_decide_eq_true rfl⟩ : SemLoc sig) rfl default rfl (m (outLoc d)) fR3 _ _ ?_) $$ Ho3
      exact copy_value3 m d c s hpre k (chunk_lt c s hw k ⟨3, of_decide_eq_true rfl⟩) (hO3 c s k hw) (hG3 c s k hw) tblS htbl fA (hA trivial) fR3 (m (outLoc d)) rfl hin3
    isplitl [Ho4]
    · iapply (slot4_close m d c s hw k (SemLoc.dma ⟨16, of_decide_eq_true rfl⟩ : SemLoc sig) rfl default rfl (m (outLoc d)) fR4 _ _ ?_) $$ Ho4
      exact copy_value4 m d c s hpre k (chunk_lt c s hw k ⟨4, of_decide_eq_true rfl⟩) (hO4 c s k hw) (hG4 c s k hw) tblS htbl fA (hA trivial) fR4 (m (outLoc d)) rfl hin4
    isplitl [Ho5]
    · iapply (slot5_close m d c s hw k (SemLoc.dma ⟨17, of_decide_eq_true rfl⟩ : SemLoc sig) rfl default rfl (m (outLoc d)) fR5 _ _ ?_) $$ Ho5
      exact copy_value5 m d c s hpre k (chunk_lt c s hw k ⟨5, of_decide_eq_true rfl⟩) (hO5 c s k hw) (hG5 c s k hw) tblS htbl fA (hA trivial) fR5 (m (outLoc d)) rfl hin5
    iapply (slot6_close m d c s hw k (SemLoc.dma ⟨18, of_decide_eq_true rfl⟩ : SemLoc sig) rfl default rfl (m (outLoc d)) fR6 _ _ ?_) $$ Ho6
    exact copy_value6 m d c s hpre k (chunk_lt c s hw k ⟨6, of_decide_eq_true rfl⟩) (hO6 c s k hw) (hG6 c s k hw) tblS htbl fA (hA trivial) fR6 (m (outLoc d)) rfl hin6
  isplitl [Hdone Ho0_dst Ho1_dst Ho2_dst Ho3_dst Ho4_dst Ho5_dst Ho6_dst Htodo']
  · unfold ChunksSt
    isplitl [Hdone Ho0_dst Ho1_dst Ho2_dst Ho3_dst Ho4_dst Ho5_dst Ho6_dst]
    · iapply (done_close m d c s k.val hk0)
      isplitl [Hdone]; · iexact Hdone
      isplitl [Ho0_dst]; · iexact Ho0_dst
      isplitl [Ho1_dst]; · iexact Ho1_dst
      isplitl [Ho2_dst]; · iexact Ho2_dst
      isplitl [Ho3_dst]; · iexact Ho3_dst
      isplitl [Ho4_dst]; · iexact Ho4_dst
      isplitl [Ho5_dst]; · iexact Ho5_dst
      iexact Ho6_dst
    · iexact Htodo'
  isplitl [Hsh0 Hsh1 Hsh2 Hsh3 Hsh4 Hsh5 Hsh6]
  · unfold Toks
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  isplitl [Hg0 Hg1 Hg2 Hg3 Hg4 Hg5 Hg6]
  · iapply (gsems_close d c s (SemLoc.dma ⟨5, of_decide_eq_true rfl⟩ : SemLoc sig) (SemLoc.dma ⟨6, of_decide_eq_true rfl⟩ : SemLoc sig) (SemLoc.dma ⟨7, of_decide_eq_true rfl⟩ : SemLoc sig) (SemLoc.dma ⟨8, of_decide_eq_true rfl⟩ : SemLoc sig) (SemLoc.dma ⟨9, of_decide_eq_true rfl⟩ : SemLoc sig) (SemLoc.dma ⟨10, of_decide_eq_true rfl⟩ : SemLoc sig) (SemLoc.dma ⟨11, of_decide_eq_true rfl⟩ : SemLoc sig) rfl rfl rfl rfl rfl rfl rfl)
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    iexact Hg6
  iapply (owes_close d c s O W _ (waits_ok_insert _ (waits_ok_insert _ (waits_ok_insert _ (waits_ok_insert _ (waits_ok_insert _ (waits_ok_insert _ (waits_ok_insert _
      (waits_ok_insert _ (waits_ok_insert _ (waits_ok_insert _ (waits_ok_insert _ (waits_ok_insert _ (waits_ok_insert _ (waits_ok_insert _
      (waits_ok_insert _ hW0)))))))))))))))) $$ HO

end Cert.Proof.KI

end
-- ==== Proof.TripC.lean ====
/-
  The last trip of the tile's loop that waits for the index prefetch: trip 68. The prefetch of stage 17 lands and no
  further stage is fetched; from here on the prefetch's semaphore stays at zero and the padded indices stay whole. The
  seven slots go as in every trip: the previous copy-out awaited, the chunk's rows gathered by the slot's list, the
  slot copied out.
-/
import proofs.«203041_g70987219468541_cont_9to1_m_1244_31_alg».proof.Proof.TripClose
import proofs.«203041_g70987219468541_cont_9to1_m_1244_31_alg».proof.Proof.TileValue
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

set_option maxHeartbeats 1600000 in
theorem trip_C (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips) (h68 : k.val = 68) :
    KI.Inv m d c s tblS O W k.val ⟨⟩ ⊢ wp frame (wpE (defs₀ (F := F)) 𝒱₀ (thr d c s) none) Set.univ
      (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => KI.Inv m d c s tblS O W (k.val + 1) ⟨⟩) := by
  have hk4 : k.val % 4 = 0 := by omega
  have hk0 : 0 < k.val := by omega
  have e1 : (k.val + 3) / 4 = k.val / 4 := by omega
  have hne : ¬ k.val = 0 := by omega
  rw [inv_def m d c s tblS O W k.val, idxSt_le m d c s k.val (by omega), e1]
  unfold PrefFlight Slots Toks GSems KI.Owes ChunksSt
  rw [slot0_pos m d c s k.val hne, slot1_pos m d c s k.val hne, slot2_pos m d c s k.val hne, slot3_pos m d c s k.val hne, slot4_pos m d c s k.val hne, slot5_pos m d c s k.val hne, slot6_pos m d c s k.val hne]
  unfold k1_t1_body
  rw [k1_part1_eq_skeleton, k1_part2_eq_skeleton, k1_part3_eq_skeleton, k1_part4_eq_skeleton]
  unfold k1_part1_skel k1_part2_skel k1_part3_skel k1_part4_skel
  iintro ⟨#Hmw, ⟨⟨Hpf, Hrest⟩, Hoth⟩, ⟨⟨%fR0, Ho0⟩, ⟨%fR1, Ho1⟩, ⟨%fR2, Ho2⟩, ⟨%fR3, Ho3⟩, ⟨%fR4, Ho4⟩, ⟨%fR5, Ho5⟩, ⟨%fR6, Ho6⟩⟩, ⟨Hdone, Htodo⟩, ⟨Hsh0, Hsh1, Hsh2, Hsh3, Hsh4, Hsh5, Hsh6⟩, ⟨Hg0, Hg1, Hg2, Hg3, Hg4, Hg5, Hg6⟩, ⟨%W0, %hW0, HO⟩⟩
  sl_exec (disch := first | sl_exact (h2T k hk4) | sl_exact (h3F k (by omega)) | sl_exact (hG0 c s k hw) | (clear * - h68 hw; revert h68 hw; revert k s c; decide +kernel))
  -- the landed half, the other half, the padded indices whole again
  unfold HalfHeld
  icases Hpf_dst with ⟨%fA, %hA, HhalfA⟩
  icases Hoth with ⟨%fB, -, HhalfB⟩
  ihave Hidx := (Entails.of_eq (show ((KI.stM (wOf c s) (stJ (k.val / 4))).view.loc (thr d c s) ↦{qI c s} idxc m d : sProp 𝕄)
      = ((idxV).view.loc (thr d c s) ↦{qI c s} idxc m d) from rfl)) $$ Hrest
  have hfA := half_lt m d c s hpre (halfOf (k.val / 4)) (k.val / 4) fA (hA trivial)
  have hin0 := list_read_lt d c s k ⟨0, of_decide_eq_true rfl⟩ _ (k1_off4_inb (coordsV c s) k (hG0 c s k hw)) (k1_off4_eq k) fA hfA
  have hin1 := list_read_lt d c s k ⟨1, of_decide_eq_true rfl⟩ _ (k1_off5_inb (coordsV c s) k (hG1 c s k hw)) (k1_off5_eq k) fA hfA
  have hin2 := list_read_lt d c s k ⟨2, of_decide_eq_true rfl⟩ _ (k1_off6_inb (coordsV c s) k (hG2 c s k hw)) (k1_off6_eq k) fA hfA
  have hin3 := list_read_lt d c s k ⟨3, of_decide_eq_true rfl⟩ _ (k1_off7_inb (coordsV c s) k (hG3 c s k hw)) (k1_off7_eq k) fA hfA
  have hin4 := list_read_lt d c s k ⟨4, of_decide_eq_true rfl⟩ _ (k1_off8_inb (coordsV c s) k (hG4 c s k hw)) (k1_off8_eq k) fA hfA
  have hin5 := list_read_lt d c s k ⟨5, of_decide_eq_true rfl⟩ _ (k1_off9_inb (coordsV c s) k (hG5 c s k hw)) (k1_off9_eq k) fA hfA
  have hin6 := list_read_lt d c s k ⟨6, of_decide_eq_true rfl⟩ _ (k1_off10_inb (coordsV c s) k (hG6 c s k hw)) (k1_off10_eq k) fA hfA
  -- the landed half cut into the trip's lists
  ihave Hsp := (Entails.of_eq (half_split d c s (halfOf (k.val / 4)) k rfl fullShare fA)) $$ HhalfA
  icases Hsp with ⟨Hlists, HrestA⟩
  ihave Hl := (Entails.of_eq (bigSep_fin7' (F := F) (fun b : Fin 7 => (pcM (listOf k b)).view.loc (thr d c s) ↦[pcSet (listOf k b)]{fullShare} fA))) $$ Hlists
  icases Hl with ⟨Hix0, Hix1, Hix2, Hix3, Hix4, Hix5, Hix6⟩
  ihave Hix0' := (Entails.of_eq (pts_list0 d c s k (hG0 c s k hw) fullShare fA).symm) $$ Hix0
  ihave Hix1' := (Entails.of_eq (pts_list1 d c s k (hG1 c s k hw) fullShare fA).symm) $$ Hix1
  ihave Hix2' := (Entails.of_eq (pts_list2 d c s k (hG2 c s k hw) fullShare fA).symm) $$ Hix2
  ihave Hix3' := (Entails.of_eq (pts_list3 d c s k (hG3 c s k hw) fullShare fA).symm) $$ Hix3
  ihave Hix4' := (Entails.of_eq (pts_list4 d c s k (hG4 c s k hw) fullShare fA).symm) $$ Hix4
  ihave Hix5' := (Entails.of_eq (pts_list5 d c s k (hG5 c s k hw) fullShare fA).symm) $$ Hix5
  ihave Hix6' := (Entails.of_eq (pts_list6 d c s k (hG6 c s k hw) fullShare fA).symm) $$ Hix6
  -- the trip's chunks off the chunks to do
  ihave Htd := (Entails.of_eq (todo_step m d c s k.val k.isLt)) $$ Htodo
  icases Htd with ⟨Hout0, Hout1, Hout2, Hout3, Hout4, Hout5, Hout6, Htodo'⟩
  ihave Hout0' := (Entails.of_eq ((congrArg (fun g => (outLoc d ↦[chunkSet g]{fullShare} m (outLoc d) : sProp 𝕄)) (chunkIx_eq_chunkOf c s hw k ⟨0, of_decide_eq_true rfl⟩ (chunk_lt c s hw k ⟨0, of_decide_eq_true rfl⟩))).trans
      (pts_chunk0 d c s k (hO0 c s k hw) (chunk_lt c s hw k ⟨0, of_decide_eq_true rfl⟩) fullShare (m (outLoc d))).symm)) $$ Hout0
  ihave Hout1' := (Entails.of_eq ((congrArg (fun g => (outLoc d ↦[chunkSet g]{fullShare} m (outLoc d) : sProp 𝕄)) (chunkIx_eq_chunkOf c s hw k ⟨1, of_decide_eq_true rfl⟩ (chunk_lt c s hw k ⟨1, of_decide_eq_true rfl⟩))).trans
      (pts_chunk1 d c s k (hO1 c s k hw) (chunk_lt c s hw k ⟨1, of_decide_eq_true rfl⟩) fullShare (m (outLoc d))).symm)) $$ Hout1
  ihave Hout2' := (Entails.of_eq ((congrArg (fun g => (outLoc d ↦[chunkSet g]{fullShare} m (outLoc d) : sProp 𝕄)) (chunkIx_eq_chunkOf c s hw k ⟨2, of_decide_eq_true rfl⟩ (chunk_lt c s hw k ⟨2, of_decide_eq_true rfl⟩))).trans
      (pts_chunk2 d c s k (hO2 c s k hw) (chunk_lt c s hw k ⟨2, of_decide_eq_true rfl⟩) fullShare (m (outLoc d))).symm)) $$ Hout2
  ihave Hout3' := (Entails.of_eq ((congrArg (fun g => (outLoc d ↦[chunkSet g]{fullShare} m (outLoc d) : sProp 𝕄)) (chunkIx_eq_chunkOf c s hw k ⟨3, of_decide_eq_true rfl⟩ (chunk_lt c s hw k ⟨3, of_decide_eq_true rfl⟩))).trans
      (pts_chunk3 d c s k (hO3 c s k hw) (chunk_lt c s hw k ⟨3, of_decide_eq_true rfl⟩) fullShare (m (outLoc d))).symm)) $$ Hout3
  ihave Hout4' := (Entails.of_eq ((congrArg (fun g => (outLoc d ↦[chunkSet g]{fullShare} m (outLoc d) : sProp 𝕄)) (chunkIx_eq_chunkOf c s hw k ⟨4, of_decide_eq_true rfl⟩ (chunk_lt c s hw k ⟨4, of_decide_eq_true rfl⟩))).trans
      (pts_chunk4 d c s k (hO4 c s k hw) (chunk_lt c s hw k ⟨4, of_decide_eq_true rfl⟩) fullShare (m (outLoc d))).symm)) $$ Hout4
  ihave Hout5' := (Entails.of_eq ((congrArg (fun g => (outLoc d ↦[chunkSet g]{fullShare} m (outLoc d) : sProp 𝕄)) (chunkIx_eq_chunkOf c s hw k ⟨5, of_decide_eq_true rfl⟩ (chunk_lt c s hw k ⟨5, of_decide_eq_true rfl⟩))).trans
      (pts_chunk5 d c s k (hO5 c s k hw) (chunk_lt c s hw k ⟨5, of_decide_eq_true rfl⟩) fullShare (m (outLoc d))).symm)) $$ Hout5
  ihave Hout6' := (Entails.of_eq ((congrArg (fun g => (outLoc d ↦[chunkSet g]{fullShare} m (outLoc d) : sProp 𝕄)) (chunkIx_eq_chunkOf c s hw k ⟨6, of_decide_eq_true rfl⟩ (chunk_lt c s hw k ⟨6, of_decide_eq_true rfl⟩))).trans
      (pts_chunk6 d c s k (hO6 c s k hw) (chunk_lt c s hw k ⟨6, of_decide_eq_true rfl⟩) fullShare (m (outLoc d))).symm)) $$ Hout6
  set_option sl_exec.dischHeartbeats 400000 in
  sl_exec (disch := first | sl_exact (h2T k hk4) | sl_exact (h3F k (by omega)) | sl_exact (hG0 c s k hw) | sl_exact (hO0 c s k hw) | sl_exact (hG1 c s k hw) | sl_exact (hO1 c s k hw) | sl_exact (hG2 c s k hw) | sl_exact (hO2 c s k hw) | sl_exact (hG3 c s k hw) | sl_exact (hO3 c s k hw) | sl_exact (hG4 c s k hw) | sl_exact (hO4 c s k hw) | sl_exact (hG5 c s k hw) | sl_exact (hO5 c s k hw) | sl_exact (hG6 c s k hw) | sl_exact (hO6 c s k hw) | (clear * - h68 hw; revert h68 hw; revert k s c; decide +kernel))
  sl_step
  rw [inv_def m d c s tblS O W (k.val + 1)]
  isplitr; · iexact Hmw
  isplitl [Hpf Hidx Hix0' Hix1' Hix2' Hix3' Hix4' Hix5' Hix6' HrestA HhalfB]
  · ihave Hh := (half_join d c s hw k fA) $$ [Hix0' Hix1' Hix2' Hix3' Hix4' Hix5' Hix6' HrestA]
    · isplitl [Hix0']; · iexact Hix0'
      isplitl [Hix1']; · iexact Hix1'
      isplitl [Hix2']; · iexact Hix2'
      isplitl [Hix3']; · iexact Hix3'
      isplitl [Hix4']; · iexact Hix4'
      isplitl [Hix5']; · iexact Hix5'
      isplitl [Hix6']; · iexact Hix6'
      iexact HrestA
    iapply (idx_close_last m d c s k h68 (SemLoc.dma ⟨4, of_decide_eq_true rfl⟩ : SemLoc sig) rfl fA fB (hA trivial))
    isplitl [Hpf]; · iexact Hpf
    isplitl [Hidx]; · iexact Hidx
    isplitl [Hh]; · iexact Hh
    iexact HhalfB
  isplitl [Ho0 Ho1 Ho2 Ho3 Ho4 Ho5 Ho6]
  · unfold Slots
    isplitl [Ho0]
    · iapply (slot0_close m d c s hw k (SemLoc.dma ⟨12, of_decide_eq_true rfl⟩ : SemLoc sig) rfl default rfl (m (outLoc d)) fR0 _ _ ?_) $$ Ho0
      exact copy_value0 m d c s hpre k (chunk_lt c s hw k ⟨0, of_decide_eq_true rfl⟩) (hO0 c s k hw) (hG0 c s k hw) tblS htbl fA (hA trivial) fR0 (m (outLoc d)) rfl hin0
    isplitl [Ho1]
    · iapply (slot1_close m d c s hw k (SemLoc.dma ⟨13, of_decide_eq_true rfl⟩ : SemLoc sig) rfl default rfl (m (outLoc d)) fR1 _ _ ?_) $$ Ho1
      exact copy_value1 m d c s hpre k (chunk_lt c s hw k ⟨1, of_decide_eq_true rfl⟩) (hO1 c s k hw) (hG1 c s k hw) tblS htbl fA (hA trivial) fR1 (m (outLoc d)) rfl hin1
    isplitl [Ho2]
    · iapply (slot2_close m d c s hw k (SemLoc.dma ⟨14, of_decide_eq_true rfl⟩ : SemLoc sig) rfl default rfl (m (outLoc d)) fR2 _ _ ?_) $$ Ho2
      exact copy_value2 m d c s hpre k (chunk_lt c s hw k ⟨2, of_decide_eq_true rfl⟩) (hO2 c s k hw) (hG2 c s k hw) tblS htbl fA (hA trivial) fR2 (m (outLoc d)) rfl hin2
    isplitl [Ho3]
    · iapply (slot3_close m d c s hw k (SemLoc.dma ⟨15, of_decide_eq_true rfl⟩ : SemLoc sig) rfl default rfl (m (outLoc d)) fR3 _ _ ?_) $$ Ho3
      exact copy_value3 m d c s hpre k (chunk_lt c s hw k ⟨3, of_decide_eq_true rfl⟩) (hO3 c s k hw) (hG3 c s k hw) tblS htbl fA (hA trivial) fR3 (m (outLoc d)) rfl hin3
    isplitl [Ho4]
    · iapply (slot4_close m d c s hw k (SemLoc.dma ⟨16, of_decide_eq_true rfl⟩ : SemLoc sig) rfl default rfl (m (outLoc d)) fR4 _ _ ?_) $$ Ho4
      exact copy_value4 m d c s hpre k (chunk_lt c s hw k ⟨4, of_decide_eq_true rfl⟩) (hO4 c s k hw) (hG4 c s k hw) tblS htbl fA (hA trivial) fR4 (m (outLoc d)) rfl hin4
    isplitl [Ho5]
    · iapply (slot5_close m d c s hw k (SemLoc.dma ⟨17, of_decide_eq_true rfl⟩ : SemLoc sig) rfl default rfl (m (outLoc d)) fR5 _ _ ?_) $$ Ho5
      exact copy_value5 m d c s hpre k (chunk_lt c s hw k ⟨5, of_decide_eq_true rfl⟩) (hO5 c s k hw) (hG5 c s k hw) tblS htbl fA (hA trivial) fR5 (m (outLoc d)) rfl hin5
    iapply (slot6_close m d c s hw k (SemLoc.dma ⟨18, of_decide_eq_true rfl⟩ : SemLoc sig) rfl default rfl (m (outLoc d)) fR6 _ _ ?_) $$ Ho6
    exact copy_value6 m d c s hpre k (chunk_lt c s hw k ⟨6, of_decide_eq_true rfl⟩) (hO6 c s k hw) (hG6 c s k hw) tblS htbl fA (hA trivial) fR6 (m (outLoc d)) rfl hin6
  isplitl [Hdone Ho0_dst Ho1_dst Ho2_dst Ho3_dst Ho4_dst Ho5_dst Ho6_dst Htodo']
  · unfold ChunksSt
    isplitl [Hdone Ho0_dst Ho1_dst Ho2_dst Ho3_dst Ho4_dst Ho5_dst Ho6_dst]
    · iapply (done_close m d c s k.val hk0)
      isplitl [Hdone]; · iexact Hdone
      isplitl [Ho0_dst]; · iexact Ho0_dst
      isplitl [Ho1_dst]; · iexact Ho1_dst
      isplitl [Ho2_dst]; · iexact Ho2_dst
      isplitl [Ho3_dst]; · iexact Ho3_dst
      isplitl [Ho4_dst]; · iexact Ho4_dst
      isplitl [Ho5_dst]; · iexact Ho5_dst
      iexact Ho6_dst
    · iexact Htodo'
  isplitl [Hsh0 Hsh1 Hsh2 Hsh3 Hsh4 Hsh5 Hsh6]
  · unfold Toks
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  isplitl [Hg0 Hg1 Hg2 Hg3 Hg4 Hg5 Hg6]
  · iapply (gsems_close d c s (SemLoc.dma ⟨5, of_decide_eq_true rfl⟩ : SemLoc sig) (SemLoc.dma ⟨6, of_decide_eq_true rfl⟩ : SemLoc sig) (SemLoc.dma ⟨7, of_decide_eq_true rfl⟩ : SemLoc sig) (SemLoc.dma ⟨8, of_decide_eq_true rfl⟩ : SemLoc sig) (SemLoc.dma ⟨9, of_decide_eq_true rfl⟩ : SemLoc sig) (SemLoc.dma ⟨10, of_decide_eq_true rfl⟩ : SemLoc sig) (SemLoc.dma ⟨11, of_decide_eq_true rfl⟩ : SemLoc sig) rfl rfl rfl rfl rfl rfl rfl)
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    iexact Hg6
  iapply (owes_close d c s O W _ (waits_ok_insert _ (waits_ok_insert _ (waits_ok_insert _ (waits_ok_insert _ (waits_ok_insert _ (waits_ok_insert _ (waits_ok_insert _
      (waits_ok_insert _ (waits_ok_insert _ (waits_ok_insert _ (waits_ok_insert _ (waits_ok_insert _ (waits_ok_insert _ (waits_ok_insert _
      (waits_ok_insert _ hW0)))))))))))))))) $$ HO

end Cert.Proof.KI

end
-- ==== Proof.TripD.lean ====
/-
  One trip of a tile's loop away from the index prefetch: trip k with k not a multiple of 4 and k ≤ 67, for a worker
  whose chunks all exist. The prefetch in flight is not touched. The trip waits for the seven copy-outs of trip k - 1
  (each hands back its chunk at the result's values and its row slot), gathers the table's rows named by the seven lists
  of this trip (the lists lie in the half of the index scratch that holds stage k / 4) into the slots, and copies the
  slots out to the chunks 7 k .. 7 k + 6 of the worker: what is written there is the result, because a list's word is
  the padded index of its row and the table's row of an index below 119 is the projected feature row.
-/
import proofs.«203041_g70987219468541_cont_9to1_m_1244_31_alg».proof.Proof.TripFacts
import proofs.«203041_g70987219468541_cont_9to1_m_1244_31_alg».proof.Proof.TileSetLemmas2
import proofs.«203041_g70987219468541_cont_9to1_m_1244_31_alg».proof.Proof.TileChunkSteps
import proofs.«203041_g70987219468541_cont_9to1_m_1244_31_alg».proof.Proof.TileValue
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- every chunk of a worker below 31 exists -/
theorem chunk_ltD (c : Fin (grid1.bound 0)) (s : Fin (grid1.bound 1)) (hw : 2 * s.val + c.val ≤ 30) (k : Fin k1_t1_loop.trips) (b : ℕ) (hb : b < 7) : 504 * (wOf c s).val + 7 * k.val + b < 15625 := by
  have := k.isLt; have : (wOf c s).val = 2 * s.val + c.val := rfl
  have : k1_t1_loop.trips ≤ 72 := Cert.KernelIdeal.Gen.k1_t1_abs.2.1
  omega

set_option maxHeartbeats 4000000 in
theorem trip_D (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips) (hk4 : k.val % 4 ≠ 0) (hk : k.val ≤ 67) :
    Inv m d c s tblS O W k.val ⟨⟩ ⊢ wp frame (wpE (defs₀ (F := F)) 𝒱₀ (thr d c s) none) Set.univ
          (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => Inv m d c s tblS O W (k.val + 1) ⟨⟩) := by
  have hk0 : 0 < k.val := by omega
  have hk0' : ¬ k.val = 0 := by omega
  have hk1' : ¬ k.val + 1 = 0 := by omega
  have e1 : halfOf ((k.val + 3) / 4 + 1) = halfOf (k.val / 4) := by
    unfold halfOf; apply Fin.ext; show ((k.val + 3) / 4 + 1) % 2 = (k.val / 4) % 2; omega
  have e2 : (k.val + 1 + 3) / 4 = (k.val + 3) / 4 := by omega
  unfold Inv ChunksSt Slots Slot0 Slot1 Slot2 Slot3 Slot4 Slot5 Slot6
  rw [show IdxSt m d c s k.val = iprop(PrefFlight m d c s ((k.val + 3) / 4) ∗ HalfHeld m d c s (halfOf (k.val / 4)) (k.val % 4 ≠ 0) (k.val / 4)) from by
      unfold IdxSt; rw [if_pos (by omega), e1],
    show IdxSt m d c s (k.val + 1) = iprop(PrefFlight m d c s ((k.val + 3) / 4) ∗ HalfHeld m d c s (halfOf (k.val / 4)) ((k.val + 1) % 4 ≠ 0) ((k.val + 1) / 4)) from by
      unfold IdxSt; rw [if_pos (by omega), e2, e1]]
  rw [if_neg hk0', if_neg hk0', if_neg hk0', if_neg hk0', if_neg hk0', if_neg hk0', if_neg hk0', if_neg hk1', if_neg hk1', if_neg hk1', if_neg hk1', if_neg hk1', if_neg hk1', if_neg hk1', Nat.add_sub_cancel]
  rw [todo_step m d c s k.val (by have := k.isLt; have : k1_t1_loop.trips ≤ 72 := Cert.KernelIdeal.Gen.k1_t1_abs.2.1; omega), done_step m d c s k.val hk0]
  have ec0 : chunkIxN c s (7 * k.val + 0) = chunkOf (wOf c s) k ⟨0, of_decide_eq_true rfl⟩ (chunk_ltD c s hw k 0 (by decide)) := chunkIx_eq_chunkOf c s hw k ⟨0, of_decide_eq_true rfl⟩ _
  have ec1 : chunkIxN c s (7 * k.val + 1) = chunkOf (wOf c s) k ⟨1, of_decide_eq_true rfl⟩ (chunk_ltD c s hw k 1 (by decide)) := chunkIx_eq_chunkOf c s hw k ⟨1, of_decide_eq_true rfl⟩ _
  have ec2 : chunkIxN c s (7 * k.val + 2) = chunkOf (wOf c s) k ⟨2, of_decide_eq_true rfl⟩ (chunk_ltD c s hw k 2 (by decide)) := chunkIx_eq_chunkOf c s hw k ⟨2, of_decide_eq_true rfl⟩ _
  have ec3 : chunkIxN c s (7 * k.val + 3) = chunkOf (wOf c s) k ⟨3, of_decide_eq_true rfl⟩ (chunk_ltD c s hw k 3 (by decide)) := chunkIx_eq_chunkOf c s hw k ⟨3, of_decide_eq_true rfl⟩ _
  have ec4 : chunkIxN c s (7 * k.val + 4) = chunkOf (wOf c s) k ⟨4, of_decide_eq_true rfl⟩ (chunk_ltD c s hw k 4 (by decide)) := chunkIx_eq_chunkOf c s hw k ⟨4, of_decide_eq_true rfl⟩ _
  have ec5 : chunkIxN c s (7 * k.val + 5) = chunkOf (wOf c s) k ⟨5, of_decide_eq_true rfl⟩ (chunk_ltD c s hw k 5 (by decide)) := chunkIx_eq_chunkOf c s hw k ⟨5, of_decide_eq_true rfl⟩ _
  have ec6 : chunkIxN c s (7 * k.val + 6) = chunkOf (wOf c s) k ⟨6, of_decide_eq_true rfl⟩ (chunk_ltD c s hw k 6 (by decide)) := chunkIx_eq_chunkOf c s hw k ⟨6, of_decide_eq_true rfl⟩ _
  rw [ec0, ec1, ec2, ec3, ec4, ec5, ec6]
  unfold HalfHeld Toks GSems Owes
  unfold k1_t1_body
  rw [k1_part1_eq_skeleton, k1_part2_eq_skeleton, k1_part3_eq_skeleton, k1_part4_eq_skeleton]
  unfold k1_part1_skel k1_part2_skel k1_part3_skel k1_part4_skel
  iintro ⟨#Hmw, ⟨Hpf, Hhalf⟩, ⟨Hs0, Hs1, Hs2, Hs3, Hs4, Hs5, Hs6⟩, ⟨Hdone, Hc0, Hc1, Hc2, Hc3, Hc4, Hc5, Hc6, Htodo⟩, Htoks, Hgs, HOw⟩
  icases Hhalf with ⟨%fI, %hst0, Hh⟩
  have hst := hst0 hk4
  icases Hs0 with ⟨%fR0, Ho0⟩
  icases Hs1 with ⟨%fR1, Ho1⟩
  icases Hs2 with ⟨%fR2, Ho2⟩
  icases Hs3 with ⟨%fR3, Ho3⟩
  icases Hs4 with ⟨%fR4, Ho4⟩
  icases Hs5 with ⟨%fR5, Ho5⟩
  icases Hs6 with ⟨%fR6, Ho6⟩
  icases Htoks with ⟨Hsh0, Hsh1, Hsh2, Hsh3, Hsh4, Hsh5, Hsh6⟩
  icases Hgs with ⟨Hg0, Hg1, Hg2, Hg3, Hg4, Hg5, Hg6⟩
  icases HOw with ⟨%W', %hW', HO⟩
  ihave Hh' := (Entails.of_eq (half_split d c s (halfOf (k.val / 4)) k rfl fullShare fI)) $$ Hh
  icases Hh' with ⟨Hlists, Hrest⟩
  ihave Hl := (Entails.of_eq (bigSep_fin7 _)) $$ Hlists
  icases Hl with ⟨Hl0, Hl1, Hl2, Hl3, Hl4, Hl5, Hl6⟩
  have pl0 : ((pcM (listOf k 0)).view.loc (thr d c s) ↦[pcSet (listOf k 0)]{fullShare} fI : sProp 𝕄) = ((((ixS).slice (Rect.unit (s := S7168) (k1_off4 k) S128.size (k1_off4_inb (coordsV c s) k (hG0 c s k hw))) (fun _ => rfl))).view.loc (thr d c s) ↦[(((ixS).slice (Rect.unit (s := S7168) (k1_off4 k) S128.size (k1_off4_inb (coordsV c s) k (hG0 c s k hw))) (fun _ => rfl))).view.set]{fullShare} fI) := (pts_list0 d c s k (hG0 c s k hw) fullShare fI).symm
  have pl1 : ((pcM (listOf k 1)).view.loc (thr d c s) ↦[pcSet (listOf k 1)]{fullShare} fI : sProp 𝕄) = ((((ixS).slice (Rect.unit (s := S7168) (k1_off5 k) S128.size (k1_off5_inb (coordsV c s) k (hG1 c s k hw))) (fun _ => rfl))).view.loc (thr d c s) ↦[(((ixS).slice (Rect.unit (s := S7168) (k1_off5 k) S128.size (k1_off5_inb (coordsV c s) k (hG1 c s k hw))) (fun _ => rfl))).view.set]{fullShare} fI) := (pts_list1 d c s k (hG1 c s k hw) fullShare fI).symm
  have pl2 : ((pcM (listOf k 2)).view.loc (thr d c s) ↦[pcSet (listOf k 2)]{fullShare} fI : sProp 𝕄) = ((((ixS).slice (Rect.unit (s := S7168) (k1_off6 k) S128.size (k1_off6_inb (coordsV c s) k (hG2 c s k hw))) (fun _ => rfl))).view.loc (thr d c s) ↦[(((ixS).slice (Rect.unit (s := S7168) (k1_off6 k) S128.size (k1_off6_inb (coordsV c s) k (hG2 c s k hw))) (fun _ => rfl))).view.set]{fullShare} fI) := (pts_list2 d c s k (hG2 c s k hw) fullShare fI).symm
  have pl3 : ((pcM (listOf k 3)).view.loc (thr d c s) ↦[pcSet (listOf k 3)]{fullShare} fI : sProp 𝕄) = ((((ixS).slice (Rect.unit (s := S7168) (k1_off7 k) S128.size (k1_off7_inb (coordsV c s) k (hG3 c s k hw))) (fun _ => rfl))).view.loc (thr d c s) ↦[(((ixS).slice (Rect.unit (s := S7168) (k1_off7 k) S128.size (k1_off7_inb (coordsV c s) k (hG3 c s k hw))) (fun _ => rfl))).view.set]{fullShare} fI) := (pts_list3 d c s k (hG3 c s k hw) fullShare fI).symm
  have pl4 : ((pcM (listOf k 4)).view.loc (thr d c s) ↦[pcSet (listOf k 4)]{fullShare} fI : sProp 𝕄) = ((((ixS).slice (Rect.unit (s := S7168) (k1_off8 k) S128.size (k1_off8_inb (coordsV c s) k (hG4 c s k hw))) (fun _ => rfl))).view.loc (thr d c s) ↦[(((ixS).slice (Rect.unit (s := S7168) (k1_off8 k) S128.size (k1_off8_inb (coordsV c s) k (hG4 c s k hw))) (fun _ => rfl))).view.set]{fullShare} fI) := (pts_list4 d c s k (hG4 c s k hw) fullShare fI).symm
  have pl5 : ((pcM (listOf k 5)).view.loc (thr d c s) ↦[pcSet (listOf k 5)]{fullShare} fI : sProp 𝕄) = ((((ixS).slice (Rect.unit (s := S7168) (k1_off9 k) S128.size (k1_off9_inb (coordsV c s) k (hG5 c s k hw))) (fun _ => rfl))).view.loc (thr d c s) ↦[(((ixS).slice (Rect.unit (s := S7168) (k1_off9 k) S128.size (k1_off9_inb (coordsV c s) k (hG5 c s k hw))) (fun _ => rfl))).view.set]{fullShare} fI) := (pts_list5 d c s k (hG5 c s k hw) fullShare fI).symm
  have pl6 : ((pcM (listOf k 6)).view.loc (thr d c s) ↦[pcSet (listOf k 6)]{fullShare} fI : sProp 𝕄) = ((((ixS).slice (Rect.unit (s := S7168) (k1_off10 k) S128.size (k1_off10_inb (coordsV c s) k (hG6 c s k hw))) (fun _ => rfl))).view.loc (thr d c s) ↦[(((ixS).slice (Rect.unit (s := S7168) (k1_off10 k) S128.size (k1_off10_inb (coordsV c s) k (hG6 c s k hw))) (fun _ => rfl))).view.set]{fullShare} fI) := (pts_list6 d c s k (hG6 c s k hw) fullShare fI).symm
  ihave Hix0 := (Entails.of_eq pl0) $$ Hl0
  ihave Hix1 := (Entails.of_eq pl1) $$ Hl1
  ihave Hix2 := (Entails.of_eq pl2) $$ Hl2
  ihave Hix3 := (Entails.of_eq pl3) $$ Hl3
  ihave Hix4 := (Entails.of_eq pl4) $$ Hl4
  ihave Hix5 := (Entails.of_eq pl5) $$ Hl5
  ihave Hix6 := (Entails.of_eq pl6) $$ Hl6
  ihave Hout0 := (Entails.of_eq (pts_chunk0 d c s k (hO0 c s k hw) (chunk_ltD c s hw k 0 (by decide)) fullShare (m (outLoc d))).symm) $$ Hc0
  ihave Hout1 := (Entails.of_eq (pts_chunk1 d c s k (hO1 c s k hw) (chunk_ltD c s hw k 1 (by decide)) fullShare (m (outLoc d))).symm) $$ Hc1
  ihave Hout2 := (Entails.of_eq (pts_chunk2 d c s k (hO2 c s k hw) (chunk_ltD c s hw k 2 (by decide)) fullShare (m (outLoc d))).symm) $$ Hc2
  ihave Hout3 := (Entails.of_eq (pts_chunk3 d c s k (hO3 c s k hw) (chunk_ltD c s hw k 3 (by decide)) fullShare (m (outLoc d))).symm) $$ Hc3
  ihave Hout4 := (Entails.of_eq (pts_chunk4 d c s k (hO4 c s k hw) (chunk_ltD c s hw k 4 (by decide)) fullShare (m (outLoc d))).symm) $$ Hc4
  ihave Hout5 := (Entails.of_eq (pts_chunk5 d c s k (hO5 c s k hw) (chunk_ltD c s hw k 5 (by decide)) fullShare (m (outLoc d))).symm) $$ Hc5
  ihave Hout6 := (Entails.of_eq (pts_chunk6 d c s k (hO6 c s k hw) (chunk_ltD c s hw k 6 (by decide)) fullShare (m (outLoc d))).symm) $$ Hc6
  have hin0 := hin0 m d c s hpre k (hG0 c s k hw) fI hst
  have hin1 := hin1 m d c s hpre k (hG1 c s k hw) fI hst
  have hin2 := hin2 m d c s hpre k (hG2 c s k hw) fI hst
  have hin3 := hin3 m d c s hpre k (hG3 c s k hw) fI hst
  have hin4 := hin4 m d c s hpre k (hG4 c s k hw) fI hst
  have hin5 := hin5 m d c s hpre k (hG5 c s k hw) fI hst
  have hin6 := hin6 m d c s hpre k (hG6 c s k hw) fI hst
  set_option sl_exec.dischHeartbeats 400000 in
  sl_exec (disch := first | sl_exact (h2F k hk4) | sl_exact (hG0 c s k hw) | sl_exact (hO0 c s k hw) | sl_exact (hG1 c s k hw) | sl_exact (hO1 c s k hw) | sl_exact (hG2 c s k hw) | sl_exact (hO2 c s k hw) | sl_exact (hG3 c s k hw) | sl_exact (hO3 c s k hw) | sl_exact (hG4 c s k hw) | sl_exact (hO4 c s k hw) | sl_exact (hG5 c s k hw) | sl_exact (hO5 c s k hw) | sl_exact (hG6 c s k hw) | sl_exact (hO6 c s k hw) | (clear * - hk0 hk4 hk hw; revert hk0 hk4 hk hw; revert k s c; decide +kernel))
  sl_step
  isplitr
  · iexact Hmw
  isplitl [Hpf Hix0 Hix1 Hix2 Hix3 Hix4 Hix5 Hix6 Hrest]
  · isplitl [Hpf]
    · iexact Hpf
    iexists fI
    isplitr
    · ipureintro; intro _; rw [show (k.val + 1) / 4 = k.val / 4 from by omega]; exact hst
    · iapply (Entails.of_eq (half_split d c s (halfOf (k.val / 4)) k rfl fullShare fI).symm)
      isplitl [Hix0 Hix1 Hix2 Hix3 Hix4 Hix5 Hix6]
      · iapply (Entails.of_eq (bigSep_fin7 _).symm)
        isplitl [Hix0]
        · iapply (Entails.of_eq pl0.symm); iexact Hix0
        isplitl [Hix1]
        · iapply (Entails.of_eq pl1.symm); iexact Hix1
        isplitl [Hix2]
        · iapply (Entails.of_eq pl2.symm); iexact Hix2
        isplitl [Hix3]
        · iapply (Entails.of_eq pl3.symm); iexact Hix3
        isplitl [Hix4]
        · iapply (Entails.of_eq pl4.symm); iexact Hix4
        isplitl [Hix5]
        · iapply (Entails.of_eq pl5.symm); iexact Hix5
        iapply (Entails.of_eq pl6.symm); iexact Hix6
      · iexact Hrest
  isplitl [Ho0 Ho1 Ho2 Ho3 Ho4 Ho5 Ho6]
  · isplitl [Ho0]
    · iexists _
      iapply (Transfers.Flight_mono (countersEmb (U := UU)) (thr d c s) ?hm0) $$ Ho0
      case hm0 =>
        iintro ⟨Hd, Hs⟩
        isplitl [Hd]
        · ihave Hd' := (Entails.of_eq (pts_chunk0 d c s k (hO0 c s k hw) (chunk_ltD c s hw k 0 (by decide)) fullShare _)) $$ Hd
          rw [← ec0]
          iapply (Entails.of_eq (pointsTo_congr (copy_value0 m d c s hpre k (chunk_ltD c s hw k 0 (by decide)) (hO0 c s k hw) (hG0 c s k hw) tblS htbl fI hst _ _ _ _)))
          iexact Hd'
        · iexact Hs
    isplitl [Ho1]
    · iexists _
      iapply (Transfers.Flight_mono (countersEmb (U := UU)) (thr d c s) ?hm1) $$ Ho1
      case hm1 =>
        iintro ⟨Hd, Hs⟩
        isplitl [Hd]
        · ihave Hd' := (Entails.of_eq (pts_chunk1 d c s k (hO1 c s k hw) (chunk_ltD c s hw k 1 (by decide)) fullShare _)) $$ Hd
          rw [← ec1]
          iapply (Entails.of_eq (pointsTo_congr (copy_value1 m d c s hpre k (chunk_ltD c s hw k 1 (by decide)) (hO1 c s k hw) (hG1 c s k hw) tblS htbl fI hst _ _ _ _)))
          iexact Hd'
        · iexact Hs
    isplitl [Ho2]
    · iexists _
      iapply (Transfers.Flight_mono (countersEmb (U := UU)) (thr d c s) ?hm2) $$ Ho2
      case hm2 =>
        iintro ⟨Hd, Hs⟩
        isplitl [Hd]
        · ihave Hd' := (Entails.of_eq (pts_chunk2 d c s k (hO2 c s k hw) (chunk_ltD c s hw k 2 (by decide)) fullShare _)) $$ Hd
          rw [← ec2]
          iapply (Entails.of_eq (pointsTo_congr (copy_value2 m d c s hpre k (chunk_ltD c s hw k 2 (by decide)) (hO2 c s k hw) (hG2 c s k hw) tblS htbl fI hst _ _ _ _)))
          iexact Hd'
        · iexact Hs
    isplitl [Ho3]
    · iexists _
      iapply (Transfers.Flight_mono (countersEmb (U := UU)) (thr d c s) ?hm3) $$ Ho3
      case hm3 =>
        iintro ⟨Hd, Hs⟩
        isplitl [Hd]
        · ihave Hd' := (Entails.of_eq (pts_chunk3 d c s k (hO3 c s k hw) (chunk_ltD c s hw k 3 (by decide)) fullShare _)) $$ Hd
          rw [← ec3]
          iapply (Entails.of_eq (pointsTo_congr (copy_value3 m d c s hpre k (chunk_ltD c s hw k 3 (by decide)) (hO3 c s k hw) (hG3 c s k hw) tblS htbl fI hst _ _ _ _)))
          iexact Hd'
        · iexact Hs
    isplitl [Ho4]
    · iexists _
      iapply (Transfers.Flight_mono (countersEmb (U := UU)) (thr d c s) ?hm4) $$ Ho4
      case hm4 =>
        iintro ⟨Hd, Hs⟩
        isplitl [Hd]
        · ihave Hd' := (Entails.of_eq (pts_chunk4 d c s k (hO4 c s k hw) (chunk_ltD c s hw k 4 (by decide)) fullShare _)) $$ Hd
          rw [← ec4]
          iapply (Entails.of_eq (pointsTo_congr (copy_value4 m d c s hpre k (chunk_ltD c s hw k 4 (by decide)) (hO4 c s k hw) (hG4 c s k hw) tblS htbl fI hst _ _ _ _)))
          iexact Hd'
        · iexact Hs
    isplitl [Ho5]
    · iexists _
      iapply (Transfers.Flight_mono (countersEmb (U := UU)) (thr d c s) ?hm5) $$ Ho5
      case hm5 =>
        iintro ⟨Hd, Hs⟩
        isplitl [Hd]
        · ihave Hd' := (Entails.of_eq (pts_chunk5 d c s k (hO5 c s k hw) (chunk_ltD c s hw k 5 (by decide)) fullShare _)) $$ Hd
          rw [← ec5]
          iapply (Entails.of_eq (pointsTo_congr (copy_value5 m d c s hpre k (chunk_ltD c s hw k 5 (by decide)) (hO5 c s k hw) (hG5 c s k hw) tblS htbl fI hst _ _ _ _)))
          iexact Hd'
        · iexact Hs
    iexists _
    iapply (Transfers.Flight_mono (countersEmb (U := UU)) (thr d c s) ?hm6) $$ Ho6
    case hm6 =>
      iintro ⟨Hd, Hs⟩
      isplitl [Hd]
      · ihave Hd' := (Entails.of_eq (pts_chunk6 d c s k (hO6 c s k hw) (chunk_ltD c s hw k 6 (by decide)) fullShare _)) $$ Hd
        rw [← ec6]
        iapply (Entails.of_eq (pointsTo_congr (copy_value6 m d c s hpre k (chunk_ltD c s hw k 6 (by decide)) (hO6 c s k hw) (hG6 c s k hw) tblS htbl fI hst _ _ _ _)))
        iexact Hd'
      · iexact Hs
  isplitl [Hdone Ho0_dst Ho1_dst Ho2_dst Ho3_dst Ho4_dst Ho5_dst Ho6_dst Htodo]
  · isplitl [Hdone Ho0_dst Ho1_dst Ho2_dst Ho3_dst Ho4_dst Ho5_dst Ho6_dst]
    · isplitl [Hdone]
      · iexact Hdone
      isplitl [Ho0_dst]
      · iexact Ho0_dst
      isplitl [Ho1_dst]
      · iexact Ho1_dst
      isplitl [Ho2_dst]
      · iexact Ho2_dst
      isplitl [Ho3_dst]
      · iexact Ho3_dst
      isplitl [Ho4_dst]
      · iexact Ho4_dst
      isplitl [Ho5_dst]
      · iexact Ho5_dst
      iexact Ho6_dst
    iexact Htodo
  isplitl [Hsh0 Hsh1 Hsh2 Hsh3 Hsh4 Hsh5 Hsh6]
  · isplitl [Hsh0]
    · iexact Hsh0
    isplitl [Hsh1]
    · iexact Hsh1
    isplitl [Hsh2]
    · iexact Hsh2
    isplitl [Hsh3]
    · iexact Hsh3
    isplitl [Hsh4]
    · iexact Hsh4
    isplitl [Hsh5]
    · iexact Hsh5
    iexact Hsh6
  isplitl [Hg0 Hg1 Hg2 Hg3 Hg4 Hg5 Hg6]
  · isplitl [Hg0]
    · iexact Hg0
    isplitl [Hg1]
    · iexact Hg1
    isplitl [Hg2]
    · iexact Hg2
    isplitl [Hg3]
    · iexact Hg3
    isplitl [Hg4]
    · iexact Hg4
    isplitl [Hg5]
    · iexact Hg5
    iexact Hg6
  iexists _; isplitr
  rotate_left
  · iexact HO
  · ipureintro
    intro p hp
    repeat (rcases Finset.mem_insert.mp hp with rfl | hp; · exact Or.inr (Or.inl rfl))
    exact hW' p hp

end Cert.Proof.KI

end
-- ==== Proof.TripE.lean ====
/-
  The last trips of a tile's loop, 69 to 71, for a worker whose chunks all exist: the index prefetch is over
  (nothing is in flight on its semaphore, half 1 of the index scratch holds stage 17, the last) and no trip here is a
  multiple of 4, so none waits for or issues a prefetch. The trip waits for the seven copy-outs of trip k - 1 (each
  hands back its chunk at the result's values and its row slot), gathers the table's rows named by the seven lists of
  this trip — they lie in half 1, which holds stage 17 = k / 4 — into the slots, and copies the slots out to the chunks
  7 k .. 7 k + 6 of the worker: what is written there is the result.
-/
import proofs.«203041_g70987219468541_cont_9to1_m_1244_31_alg».proof.Proof.TripFacts
import proofs.«203041_g70987219468541_cont_9to1_m_1244_31_alg».proof.Proof.TileSetLemmas2
import proofs.«203041_g70987219468541_cont_9to1_m_1244_31_alg».proof.Proof.TileChunkSteps
import proofs.«203041_g70987219468541_cont_9to1_m_1244_31_alg».proof.Proof.TileValue
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- every chunk of a worker below 31 exists -/
theorem chunk_ltE (c : Fin (grid1.bound 0)) (s : Fin (grid1.bound 1)) (hw : 2 * s.val + c.val ≤ 30) (k : Fin k1_t1_loop.trips) (b : ℕ) (hb : b < 7) : 504 * (wOf c s).val + 7 * k.val + b < 15625 := by
  have := k.isLt; have : (wOf c s).val = 2 * s.val + c.val := rfl
  have : k1_t1_loop.trips ≤ 72 := Cert.KernelIdeal.Gen.k1_t1_abs.2.1
  omega

set_option maxHeartbeats 4000000 in
theorem trip_E (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips) (hk : 69 ≤ k.val) :
    Inv m d c s tblS O W k.val ⟨⟩ ⊢ wp frame (wpE (defs₀ (F := F)) 𝒱₀ (thr d c s) none) Set.univ
          (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => Inv m d c s tblS O W (k.val + 1) ⟨⟩) := by
  have hk72 : k.val < 72 := by
    have := k.isLt; have : k1_t1_loop.trips ≤ 72 := Cert.KernelIdeal.Gen.k1_t1_abs.2.1; omega
  have hk4 : k.val % 4 ≠ 0 := by omega
  have hk0 : 0 < k.val := by omega
  have hk0' : ¬ k.val = 0 := by omega
  have hk1' : ¬ k.val + 1 = 0 := by omega
  have hkd : k.val / 4 = 17 := by omega
  have hh17 : (k.val / 4) % 2 = (halfOf 17).val := by show (k.val / 4) % 2 = 17 % 2; omega
  unfold Inv ChunksSt Slots Slot0 Slot1 Slot2 Slot3 Slot4 Slot5 Slot6
  rw [show IdxSt m d c s k.val = iprop(semVal (thr d c s, SemLoc.dma cc1_scratch3.sem) 0 ∗ ((idxV).view.loc (thr d c s) ↦{qI c s} idxc m d)
        ∗ HalfHeld m d c s (halfOf 17) True 17 ∗ HalfHeld m d c s (halfOf 18) False 0) from by
      unfold IdxSt; rw [if_neg (by omega)],
    show IdxSt m d c s (k.val + 1) = iprop(semVal (thr d c s, SemLoc.dma cc1_scratch3.sem) 0 ∗ ((idxV).view.loc (thr d c s) ↦{qI c s} idxc m d)
        ∗ HalfHeld m d c s (halfOf 17) True 17 ∗ HalfHeld m d c s (halfOf 18) False 0) from by
      unfold IdxSt; rw [if_neg (by omega)]]
  rw [if_neg hk0', if_neg hk0', if_neg hk0', if_neg hk0', if_neg hk0', if_neg hk0', if_neg hk0', if_neg hk1', if_neg hk1', if_neg hk1', if_neg hk1', if_neg hk1', if_neg hk1', if_neg hk1', Nat.add_sub_cancel]
  rw [todo_step m d c s k.val (by have := k.isLt; have : k1_t1_loop.trips ≤ 72 := Cert.KernelIdeal.Gen.k1_t1_abs.2.1; omega), done_step m d c s k.val hk0]
  have ec0 : chunkIxN c s (7 * k.val + 0) = chunkOf (wOf c s) k ⟨0, of_decide_eq_true rfl⟩ (chunk_ltE c s hw k 0 (by decide)) := chunkIx_eq_chunkOf c s hw k ⟨0, of_decide_eq_true rfl⟩ _
  have ec1 : chunkIxN c s (7 * k.val + 1) = chunkOf (wOf c s) k ⟨1, of_decide_eq_true rfl⟩ (chunk_ltE c s hw k 1 (by decide)) := chunkIx_eq_chunkOf c s hw k ⟨1, of_decide_eq_true rfl⟩ _
  have ec2 : chunkIxN c s (7 * k.val + 2) = chunkOf (wOf c s) k ⟨2, of_decide_eq_true rfl⟩ (chunk_ltE c s hw k 2 (by decide)) := chunkIx_eq_chunkOf c s hw k ⟨2, of_decide_eq_true rfl⟩ _
  have ec3 : chunkIxN c s (7 * k.val + 3) = chunkOf (wOf c s) k ⟨3, of_decide_eq_true rfl⟩ (chunk_ltE c s hw k 3 (by decide)) := chunkIx_eq_chunkOf c s hw k ⟨3, of_decide_eq_true rfl⟩ _
  have ec4 : chunkIxN c s (7 * k.val + 4) = chunkOf (wOf c s) k ⟨4, of_decide_eq_true rfl⟩ (chunk_ltE c s hw k 4 (by decide)) := chunkIx_eq_chunkOf c s hw k ⟨4, of_decide_eq_true rfl⟩ _
  have ec5 : chunkIxN c s (7 * k.val + 5) = chunkOf (wOf c s) k ⟨5, of_decide_eq_true rfl⟩ (chunk_ltE c s hw k 5 (by decide)) := chunkIx_eq_chunkOf c s hw k ⟨5, of_decide_eq_true rfl⟩ _
  have ec6 : chunkIxN c s (7 * k.val + 6) = chunkOf (wOf c s) k ⟨6, of_decide_eq_true rfl⟩ (chunk_ltE c s hw k 6 (by decide)) := chunkIx_eq_chunkOf c s hw k ⟨6, of_decide_eq_true rfl⟩ _
  rw [ec0, ec1, ec2, ec3, ec4, ec5, ec6]
  unfold HalfHeld Toks GSems Owes
  unfold k1_t1_body
  rw [k1_part1_eq_skeleton, k1_part2_eq_skeleton, k1_part3_eq_skeleton, k1_part4_eq_skeleton]
  unfold k1_part1_skel k1_part2_skel k1_part3_skel k1_part4_skel
  iintro ⟨#Hmw, ⟨Hsem3, Hidx, Hhalf, Hhalf2⟩, ⟨Hs0, Hs1, Hs2, Hs3, Hs4, Hs5, Hs6⟩, ⟨Hdone, Hc0, Hc1, Hc2, Hc3, Hc4, Hc5, Hc6, Htodo⟩, Htoks, Hgs, HOw⟩
  icases Hhalf with ⟨%fI, %hst0, Hh⟩
  have hst : StageAt m d c s (halfOf (k.val / 4)) (k.val / 4) fI := by rw [hkd]; exact hst0 trivial
  icases Hs0 with ⟨%fR0, Ho0⟩
  icases Hs1 with ⟨%fR1, Ho1⟩
  icases Hs2 with ⟨%fR2, Ho2⟩
  icases Hs3 with ⟨%fR3, Ho3⟩
  icases Hs4 with ⟨%fR4, Ho4⟩
  icases Hs5 with ⟨%fR5, Ho5⟩
  icases Hs6 with ⟨%fR6, Ho6⟩
  icases Htoks with ⟨Hsh0, Hsh1, Hsh2, Hsh3, Hsh4, Hsh5, Hsh6⟩
  icases Hgs with ⟨Hg0, Hg1, Hg2, Hg3, Hg4, Hg5, Hg6⟩
  icases HOw with ⟨%W', %hW', HO⟩
  ihave Hh' := (Entails.of_eq (half_split d c s (halfOf 17) k hh17 fullShare fI)) $$ Hh
  icases Hh' with ⟨Hlists, Hrest⟩
  ihave Hl := (Entails.of_eq (bigSep_fin7 _)) $$ Hlists
  icases Hl with ⟨Hl0, Hl1, Hl2, Hl3, Hl4, Hl5, Hl6⟩
  have pl0 : ((pcM (listOf k 0)).view.loc (thr d c s) ↦[pcSet (listOf k 0)]{fullShare} fI : sProp 𝕄) = ((((ixS).slice (Rect.unit (s := S7168) (k1_off4 k) S128.size (k1_off4_inb (coordsV c s) k (hG0 c s k hw))) (fun _ => rfl))).view.loc (thr d c s) ↦[(((ixS).slice (Rect.unit (s := S7168) (k1_off4 k) S128.size (k1_off4_inb (coordsV c s) k (hG0 c s k hw))) (fun _ => rfl))).view.set]{fullShare} fI) := (pts_list0 d c s k (hG0 c s k hw) fullShare fI).symm
  have pl1 : ((pcM (listOf k 1)).view.loc (thr d c s) ↦[pcSet (listOf k 1)]{fullShare} fI : sProp 𝕄) = ((((ixS).slice (Rect.unit (s := S7168) (k1_off5 k) S128.size (k1_off5_inb (coordsV c s) k (hG1 c s k hw))) (fun _ => rfl))).view.loc (thr d c s) ↦[(((ixS).slice (Rect.unit (s := S7168) (k1_off5 k) S128.size (k1_off5_inb (coordsV c s) k (hG1 c s k hw))) (fun _ => rfl))).view.set]{fullShare} fI) := (pts_list1 d c s k (hG1 c s k hw) fullShare fI).symm
  have pl2 : ((pcM (listOf k 2)).view.loc (thr d c s) ↦[pcSet (listOf k 2)]{fullShare} fI : sProp 𝕄) = ((((ixS).slice (Rect.unit (s := S7168) (k1_off6 k) S128.size (k1_off6_inb (coordsV c s) k (hG2 c s k hw))) (fun _ => rfl))).view.loc (thr d c s) ↦[(((ixS).slice (Rect.unit (s := S7168) (k1_off6 k) S128.size (k1_off6_inb (coordsV c s) k (hG2 c s k hw))) (fun _ => rfl))).view.set]{fullShare} fI) := (pts_list2 d c s k (hG2 c s k hw) fullShare fI).symm
  have pl3 : ((pcM (listOf k 3)).view.loc (thr d c s) ↦[pcSet (listOf k 3)]{fullShare} fI : sProp 𝕄) = ((((ixS).slice (Rect.unit (s := S7168) (k1_off7 k) S128.size (k1_off7_inb (coordsV c s) k (hG3 c s k hw))) (fun _ => rfl))).view.loc (thr d c s) ↦[(((ixS).slice (Rect.unit (s := S7168) (k1_off7 k) S128.size (k1_off7_inb (coordsV c s) k (hG3 c s k hw))) (fun _ => rfl))).view.set]{fullShare} fI) := (pts_list3 d c s k (hG3 c s k hw) fullShare fI).symm
  have pl4 : ((pcM (listOf k 4)).view.loc (thr d c s) ↦[pcSet (listOf k 4)]{fullShare} fI : sProp 𝕄) = ((((ixS).slice (Rect.unit (s := S7168) (k1_off8 k) S128.size (k1_off8_inb (coordsV c s) k (hG4 c s k hw))) (fun _ => rfl))).view.loc (thr d c s) ↦[(((ixS).slice (Rect.unit (s := S7168) (k1_off8 k) S128.size (k1_off8_inb (coordsV c s) k (hG4 c s k hw))) (fun _ => rfl))).view.set]{fullShare} fI) := (pts_list4 d c s k (hG4 c s k hw) fullShare fI).symm
  have pl5 : ((pcM (listOf k 5)).view.loc (thr d c s) ↦[pcSet (listOf k 5)]{fullShare} fI : sProp 𝕄) = ((((ixS).slice (Rect.unit (s := S7168) (k1_off9 k) S128.size (k1_off9_inb (coordsV c s) k (hG5 c s k hw))) (fun _ => rfl))).view.loc (thr d c s) ↦[(((ixS).slice (Rect.unit (s := S7168) (k1_off9 k) S128.size (k1_off9_inb (coordsV c s) k (hG5 c s k hw))) (fun _ => rfl))).view.set]{fullShare} fI) := (pts_list5 d c s k (hG5 c s k hw) fullShare fI).symm
  have pl6 : ((pcM (listOf k 6)).view.loc (thr d c s) ↦[pcSet (listOf k 6)]{fullShare} fI : sProp 𝕄) = ((((ixS).slice (Rect.unit (s := S7168) (k1_off10 k) S128.size (k1_off10_inb (coordsV c s) k (hG6 c s k hw))) (fun _ => rfl))).view.loc (thr d c s) ↦[(((ixS).slice (Rect.unit (s := S7168) (k1_off10 k) S128.size (k1_off10_inb (coordsV c s) k (hG6 c s k hw))) (fun _ => rfl))).view.set]{fullShare} fI) := (pts_list6 d c s k (hG6 c s k hw) fullShare fI).symm
  ihave Hix0 := (Entails.of_eq pl0) $$ Hl0
  ihave Hix1 := (Entails.of_eq pl1) $$ Hl1
  ihave Hix2 := (Entails.of_eq pl2) $$ Hl2
  ihave Hix3 := (Entails.of_eq pl3) $$ Hl3
  ihave Hix4 := (Entails.of_eq pl4) $$ Hl4
  ihave Hix5 := (Entails.of_eq pl5) $$ Hl5
  ihave Hix6 := (Entails.of_eq pl6) $$ Hl6
  ihave Hout0 := (Entails.of_eq (pts_chunk0 d c s k (hO0 c s k hw) (chunk_ltE c s hw k 0 (by decide)) fullShare (m (outLoc d))).symm) $$ Hc0
  ihave Hout1 := (Entails.of_eq (pts_chunk1 d c s k (hO1 c s k hw) (chunk_ltE c s hw k 1 (by decide)) fullShare (m (outLoc d))).symm) $$ Hc1
  ihave Hout2 := (Entails.of_eq (pts_chunk2 d c s k (hO2 c s k hw) (chunk_ltE c s hw k 2 (by decide)) fullShare (m (outLoc d))).symm) $$ Hc2
  ihave Hout3 := (Entails.of_eq (pts_chunk3 d c s k (hO3 c s k hw) (chunk_ltE c s hw k 3 (by decide)) fullShare (m (outLoc d))).symm) $$ Hc3
  ihave Hout4 := (Entails.of_eq (pts_chunk4 d c s k (hO4 c s k hw) (chunk_ltE c s hw k 4 (by decide)) fullShare (m (outLoc d))).symm) $$ Hc4
  ihave Hout5 := (Entails.of_eq (pts_chunk5 d c s k (hO5 c s k hw) (chunk_ltE c s hw k 5 (by decide)) fullShare (m (outLoc d))).symm) $$ Hc5
  ihave Hout6 := (Entails.of_eq (pts_chunk6 d c s k (hO6 c s k hw) (chunk_ltE c s hw k 6 (by decide)) fullShare (m (outLoc d))).symm) $$ Hc6
  have hin0 := hin0 m d c s hpre k (hG0 c s k hw) fI hst
  have hin1 := hin1 m d c s hpre k (hG1 c s k hw) fI hst
  have hin2 := hin2 m d c s hpre k (hG2 c s k hw) fI hst
  have hin3 := hin3 m d c s hpre k (hG3 c s k hw) fI hst
  have hin4 := hin4 m d c s hpre k (hG4 c s k hw) fI hst
  have hin5 := hin5 m d c s hpre k (hG5 c s k hw) fI hst
  have hin6 := hin6 m d c s hpre k (hG6 c s k hw) fI hst
  set_option sl_exec.dischHeartbeats 400000 in
  sl_exec (disch := first | sl_exact (h2F k hk4) | sl_exact (hG0 c s k hw) | sl_exact (hO0 c s k hw) | sl_exact (hG1 c s k hw) | sl_exact (hO1 c s k hw) | sl_exact (hG2 c s k hw) | sl_exact (hO2 c s k hw) | sl_exact (hG3 c s k hw) | sl_exact (hO3 c s k hw) | sl_exact (hG4 c s k hw) | sl_exact (hO4 c s k hw) | sl_exact (hG5 c s k hw) | sl_exact (hO5 c s k hw) | sl_exact (hG6 c s k hw) | sl_exact (hO6 c s k hw) | (clear * - hk0 hk4 hk hw; revert hk0 hk4 hk hw; revert k s c; decide +kernel))
  sl_step
  isplitr
  · iexact Hmw
  isplitl [Hsem3 Hidx Hhalf2 Hix0 Hix1 Hix2 Hix3 Hix4 Hix5 Hix6 Hrest]
  · isplitl [Hsem3]
    · iexact Hsem3
    isplitl [Hidx]
    · iexact Hidx
    isplitr [Hhalf2]
    rotate_left
    · iexact Hhalf2
    iexists fI
    isplitr
    · ipureintro; exact hst0
    · iapply (Entails.of_eq (half_split d c s (halfOf 17) k hh17 fullShare fI).symm)
      isplitl [Hix0 Hix1 Hix2 Hix3 Hix4 Hix5 Hix6]
      · iapply (Entails.of_eq (bigSep_fin7 _).symm)
        isplitl [Hix0]
        · iapply (Entails.of_eq pl0.symm); iexact Hix0
        isplitl [Hix1]
        · iapply (Entails.of_eq pl1.symm); iexact Hix1
        isplitl [Hix2]
        · iapply (Entails.of_eq pl2.symm); iexact Hix2
        isplitl [Hix3]
        · iapply (Entails.of_eq pl3.symm); iexact Hix3
        isplitl [Hix4]
        · iapply (Entails.of_eq pl4.symm); iexact Hix4
        isplitl [Hix5]
        · iapply (Entails.of_eq pl5.symm); iexact Hix5
        iapply (Entails.of_eq pl6.symm); iexact Hix6
      · iexact Hrest
  isplitl [Ho0 Ho1 Ho2 Ho3 Ho4 Ho5 Ho6]
  · isplitl [Ho0]
    · iexists _
      iapply (Transfers.Flight_mono (countersEmb (U := UU)) (thr d c s) ?hm0) $$ Ho0
      case hm0 =>
        iintro ⟨Hd, Hs⟩
        isplitl [Hd]
        · ihave Hd' := (Entails.of_eq (pts_chunk0 d c s k (hO0 c s k hw) (chunk_ltE c s hw k 0 (by decide)) fullShare _)) $$ Hd
          rw [← ec0]
          iapply (Entails.of_eq (pointsTo_congr (copy_value0 m d c s hpre k (chunk_ltE c s hw k 0 (by decide)) (hO0 c s k hw) (hG0 c s k hw) tblS htbl fI hst _ _ _ _)))
          iexact Hd'
        · iexact Hs
    isplitl [Ho1]
    · iexists _
      iapply (Transfers.Flight_mono (countersEmb (U := UU)) (thr d c s) ?hm1) $$ Ho1
      case hm1 =>
        iintro ⟨Hd, Hs⟩
        isplitl [Hd]
        · ihave Hd' := (Entails.of_eq (pts_chunk1 d c s k (hO1 c s k hw) (chunk_ltE c s hw k 1 (by decide)) fullShare _)) $$ Hd
          rw [← ec1]
          iapply (Entails.of_eq (pointsTo_congr (copy_value1 m d c s hpre k (chunk_ltE c s hw k 1 (by decide)) (hO1 c s k hw) (hG1 c s k hw) tblS htbl fI hst _ _ _ _)))
          iexact Hd'
        · iexact Hs
    isplitl [Ho2]
    · iexists _
      iapply (Transfers.Flight_mono (countersEmb (U := UU)) (thr d c s) ?hm2) $$ Ho2
      case hm2 =>
        iintro ⟨Hd, Hs⟩
        isplitl [Hd]
        · ihave Hd' := (Entails.of_eq (pts_chunk2 d c s k (hO2 c s k hw) (chunk_ltE c s hw k 2 (by decide)) fullShare _)) $$ Hd
          rw [← ec2]
          iapply (Entails.of_eq (pointsTo_congr (copy_value2 m d c s hpre k (chunk_ltE c s hw k 2 (by decide)) (hO2 c s k hw) (hG2 c s k hw) tblS htbl fI hst _ _ _ _)))
          iexact Hd'
        · iexact Hs
    isplitl [Ho3]
    · iexists _
      iapply (Transfers.Flight_mono (countersEmb (U := UU)) (thr d c s) ?hm3) $$ Ho3
      case hm3 =>
        iintro ⟨Hd, Hs⟩
        isplitl [Hd]
        · ihave Hd' := (Entails.of_eq (pts_chunk3 d c s k (hO3 c s k hw) (chunk_ltE c s hw k 3 (by decide)) fullShare _)) $$ Hd
          rw [← ec3]
          iapply (Entails.of_eq (pointsTo_congr (copy_value3 m d c s hpre k (chunk_ltE c s hw k 3 (by decide)) (hO3 c s k hw) (hG3 c s k hw) tblS htbl fI hst _ _ _ _)))
          iexact Hd'
        · iexact Hs
    isplitl [Ho4]
    · iexists _
      iapply (Transfers.Flight_mono (countersEmb (U := UU)) (thr d c s) ?hm4) $$ Ho4
      case hm4 =>
        iintro ⟨Hd, Hs⟩
        isplitl [Hd]
        · ihave Hd' := (Entails.of_eq (pts_chunk4 d c s k (hO4 c s k hw) (chunk_ltE c s hw k 4 (by decide)) fullShare _)) $$ Hd
          rw [← ec4]
          iapply (Entails.of_eq (pointsTo_congr (copy_value4 m d c s hpre k (chunk_ltE c s hw k 4 (by decide)) (hO4 c s k hw) (hG4 c s k hw) tblS htbl fI hst _ _ _ _)))
          iexact Hd'
        · iexact Hs
    isplitl [Ho5]
    · iexists _
      iapply (Transfers.Flight_mono (countersEmb (U := UU)) (thr d c s) ?hm5) $$ Ho5
      case hm5 =>
        iintro ⟨Hd, Hs⟩
        isplitl [Hd]
        · ihave Hd' := (Entails.of_eq (pts_chunk5 d c s k (hO5 c s k hw) (chunk_ltE c s hw k 5 (by decide)) fullShare _)) $$ Hd
          rw [← ec5]
          iapply (Entails.of_eq (pointsTo_congr (copy_value5 m d c s hpre k (chunk_ltE c s hw k 5 (by decide)) (hO5 c s k hw) (hG5 c s k hw) tblS htbl fI hst _ _ _ _)))
          iexact Hd'
        · iexact Hs
    iexists _
    iapply (Transfers.Flight_mono (countersEmb (U := UU)) (thr d c s) ?hm6) $$ Ho6
    case hm6 =>
      iintro ⟨Hd, Hs⟩
      isplitl [Hd]
      · ihave Hd' := (Entails.of_eq (pts_chunk6 d c s k (hO6 c s k hw) (chunk_ltE c s hw k 6 (by decide)) fullShare _)) $$ Hd
        rw [← ec6]
        iapply (Entails.of_eq (pointsTo_congr (copy_value6 m d c s hpre k (chunk_ltE c s hw k 6 (by decide)) (hO6 c s k hw) (hG6 c s k hw) tblS htbl fI hst _ _ _ _)))
        iexact Hd'
      · iexact Hs
  isplitl [Hdone Ho0_dst Ho1_dst Ho2_dst Ho3_dst Ho4_dst Ho5_dst Ho6_dst Htodo]
  · isplitl [Hdone Ho0_dst Ho1_dst Ho2_dst Ho3_dst Ho4_dst Ho5_dst Ho6_dst]
    · isplitl [Hdone]
      · iexact Hdone
      isplitl [Ho0_dst]
      · iexact Ho0_dst
      isplitl [Ho1_dst]
      · iexact Ho1_dst
      isplitl [Ho2_dst]
      · iexact Ho2_dst
      isplitl [Ho3_dst]
      · iexact Ho3_dst
      isplitl [Ho4_dst]
      · iexact Ho4_dst
      isplitl [Ho5_dst]
      · iexact Ho5_dst
      iexact Ho6_dst
    iexact Htodo
  isplitl [Hsh0 Hsh1 Hsh2 Hsh3 Hsh4 Hsh5 Hsh6]
  · isplitl [Hsh0]
    · iexact Hsh0
    isplitl [Hsh1]
    · iexact Hsh1
    isplitl [Hsh2]
    · iexact Hsh2
    isplitl [Hsh3]
    · iexact Hsh3
    isplitl [Hsh4]
    · iexact Hsh4
    isplitl [Hsh5]
    · iexact Hsh5
    iexact Hsh6
  isplitl [Hg0 Hg1 Hg2 Hg3 Hg4 Hg5 Hg6]
  · isplitl [Hg0]
    · iexact Hg0
    isplitl [Hg1]
    · iexact Hg1
    isplitl [Hg2]
    · iexact Hg2
    isplitl [Hg3]
    · iexact Hg3
    isplitl [Hg4]
    · iexact Hg4
    isplitl [Hg5]
    · iexact Hg5
    iexact Hg6
  iexists _; isplitr
  rotate_left
  · iexact HO
  · ipureintro
    intro p hp
    repeat (rcases Finset.mem_insert.mp hp with rfl | hp; · exact Or.inr (Or.inl rfl))
    exact hW' p hp

end Cert.Proof.KI

end
-- ==== Proof.Trip.lean ====
/-
  A trip of the loop, whatever its number: the five kinds of trip (the first; a later multiple of 4 up to 64, which waits
  for a stage of indices and asks for the next; trip 68, which waits for the last stage; a trip that leaves the prefetch
  alone, up to 67; the last three) each carry the invariant from k to k + 1.
-/
import proofs.«203041_g70987219468541_cont_9to1_m_1244_31_alg».proof.Proof.TripA
import proofs.«203041_g70987219468541_cont_9to1_m_1244_31_alg».proof.Proof.TripB
import proofs.«203041_g70987219468541_cont_9to1_m_1244_31_alg».proof.Proof.TripC
import proofs.«203041_g70987219468541_cont_9to1_m_1244_31_alg».proof.Proof.TripD
import proofs.«203041_g70987219468541_cont_9to1_m_1244_31_alg».proof.Proof.TripE
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

set_option maxHeartbeats 4000000 in
theorem trip (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips) :
    Inv m d c s tblS O W k.val ⟨⟩ ⊢ wp frame (wpE (defs₀ (F := F)) 𝒱₀ (thr d c s) none) Set.univ
          (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => Inv m d c s tblS O W (k.val + 1) ⟨⟩) := by
  have hk72 : k.val < 72 := lt_of_lt_of_le k.isLt Cert.KernelIdeal.Gen.k1_t1_abs.2.1
  by_cases h0 : k.val = 0
  · exact trip_A m hpre d c s hw tblS htbl O W k h0
  by_cases h4 : k.val % 4 = 0
  · by_cases h64 : k.val ≤ 64
    · exact trip_B m hpre d c s hw tblS htbl O W k h4 (by omega) h64
    · exact trip_C m hpre d c s hw tblS htbl O W k (by omega)
  · by_cases h67 : k.val ≤ 67
    · exact trip_D m hpre d c s hw tblS htbl O W k h4 h67
    · exact trip_E m hpre d c s hw tblS htbl O W k (by omega)

end Cert.Proof.KI

end
-- ==== Proof.TileBarrier.lean ====
/-
  The subcore barrier, as one step of a tile's run.

  Arriving, tile s pays its unit duty of every tile's round 0 (sixteen signals), each with the duty's payload: tile 0's
  arrival at tile j's cell carries tile j's read share of the shared table (tile 0 cuts its full share into the sixteen
  shares and keeps the remainder); the other tiles' arrivals carry nothing. Leaving, the tile waits for the sixteen units
  of its own round and reads the payloads: its own read share of the shared table, at contents that hold the projected
  rows. The barrier's wait sits at level 3 of the call; everything the tile still owes sits at level 6 or above.
-/
import proofs.«203041_g70987219468541_cont_9to1_m_1244_31_alg».proof.Proof.TileDefs

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-- A family over the tiles of the grid is one over the tiles of the SparseCore. -/
theorem bigSep_grid (Φ : Fin τ.nSub → sProp 𝕄) :
    (bigSep Finset.univ fun j : Fin (grid1.bound 1) => Φ (j.castLE hsub1)) = bigSep Finset.univ Φ :=
  bigSep_congr fun _ _ => congrArg Φ (Fin.ext rfl)

/-- Tokens with that their rounds are reached, and payloads: the arrivals' premises. -/
theorem toks_pays {J : Type} [DecidableEq J] (s : Finset J) (A B C : J → sProp 𝕄) :
    iprop((bigSep s fun j => iprop(A j ∗ C j)) ∗ bigSep s B) ⊢ bigSep s fun j => iprop(A j ∗ B j ∗ C j) := by
  rw [bigSep_sep', bigSep_sep', bigSep_sep']
  iintro ⟨⟨HA, HC⟩, HB⟩
  isplitl [HA]; · iexact HA
  isplitl [HB]; · iexact HB
  iexact HC

/-- What tile i hands the sixteen cells at its arrivals: tile 0 cuts its full share of the shared table into the
    tiles' read shares and keeps the remainder; the others hand nothing. -/
theorem pays_intro (d : Dev nD) (cc : Fin τ.nSC) (i : Fin τ.nSub) :
    (if i.val = 0 then iprop(∃ f : Buf (Elt F) (shLoc d cc i), ⌜TableOK m d f⌝ ∗ shLoc d cc i ↦{fullShare} f) else iprop(emp))
      ⊢ (iprop((bigSep Finset.univ fun j : Fin (grid1.bound 1) => (bRd (F := F) m).payload (bcell d cc (j.castLE hsub1)) 0 i.val)
          ∗ (if i.val = 0 then iprop(∃ f : Buf (Elt F) (shLoc d cc i), shLoc d cc i ↦{shareDrop fullShare τ.nSub} f) else iprop(emp))) : sProp 𝕄) := by
  by_cases h : i.val = 0
  · rw [if_pos h, if_pos h, h]
    simp only [bRd_payload_zero]
    rw [bigSep_grid (F := F) (fun j => iprop(∃ f : Buf (Elt F) (shLoc d cc j), ⌜TableOK m d f⌝ ∗ shLoc d cc j ↦{shShare j} f))]
    iintro ⟨%f, %hf, H⟩
    have hj : ∀ j : Fin τ.nSub, (shLoc d cc i ↦{shareTok fullShare τ.nSub j} f : sProp 𝕄)
        ⊢ iprop(∃ f : Buf (Elt F) (shLoc d cc j), ⌜TableOK m d f⌝ ∗ shLoc d cc j ↦{shShare j} f) := by
      intro j
      iintro H
      iexists f
      isplitr
      · ipureintro; exact hf
      · iexact H
    ihave H' := (Transfers.pointsTo_toks_split fullShare τ.nSub) $$ H
    icases H' with ⟨Hdrop, Htoks⟩
    isplitl [Htoks]
    · iapply (SparseCore.ent (bigSep_mono (Φ := fun j : Fin τ.nSub => (shLoc d cc i ↦{shareTok fullShare τ.nSub j} f : sProp 𝕄))
        (Ψ := fun j : Fin τ.nSub => iprop(∃ f : Buf (Elt F) (shLoc d cc j), ⌜TableOK m d f⌝ ∗ shLoc d cc j ↦{shShare j} f)) fun j _ => hj j))
      iexact Htoks
    · iexists f; iexact Hdrop
  · obtain ⟨n, hn⟩ := Nat.exists_eq_succ_of_ne_zero h
    rw [if_neg h, if_neg h, hn]
    simp only [bRd_payload_succ]
    rw [show (bigSep Finset.univ fun _ : Fin (grid1.bound 1) => iprop(emp)) = (iprop(emp) : sProp 𝕄) from bigSep_emp_const _]
    iintro -
    isplitl <;> iempintro

/-- What a tile reads off its own round at its departure: its read share of the shared table, at the projected rows. -/
theorem pays_elim (d : Dev nD) (cc : Fin τ.nSC) (i : Fin τ.nSub) :
    (bigSep ((bRd (F := F) m).duties (bcell d cc i) 0 \ ∅) fun n => (bRd (F := F) m).payload (bcell d cc i) 0 n)
      ⊢ (iprop(∃ f : Buf (Elt F) (shLoc d cc i), ⌜TableOK m d f⌝ ∗ shLoc d cc i ↦{shShare i} f) : sProp 𝕄) := by
  have h0 : 0 ∈ (bRd (F := F) m).duties (bcell d cc i) 0 \ ∅ := by
    rw [Finset.sdiff_empty, bRd_duties₀]
    exact Finset.mem_image.mpr ⟨⟨0, by decide⟩, Finset.mem_univ _, rfl⟩
  refine (bigSep_elim h0).trans ?_
  rw [bRd_payload_zero]
  exact Entails.refl _

/-- The barrier's own wait sits below everything the tile still owes. -/
theorem barrier_mayWait (d : Dev nD) (cc : Fin τ.nSC) (i : Fin τ.nSub) (O : CellTallies nD τ sig (HIx 1))
    (hlev : ∀ g ι, 0 < O g ι → 8 * (0 : Fin 1).val + 6 ≤ (K (F := F)).lev g ι) :
    (levAts (K (F := F)).L (K (F := F)).lev : sProp 𝕄) ⊢ MayWait (V d cc i) (.reg sc_bar0) (some 0) O :=
  (K (F := F)).mayOwe_of_bound (8 * (0 : Fin 1).val + 3)
    (fun p hp => by
      rw [Finset.mem_singleton] at hp; subst hp
      rw [(K (F := F)).lev_V_reg d cc i (show (sc_bar0 : Sem sig) ≠ (K (F := F)).go from sc_bar0_ne_go)])
    (fun g ι h => lt_of_lt_of_le (by omega) (hlev g ι h))

/-- The barrier at the head of tile (c, s)'s run. -/
theorem tile_barrier (d : Dev nD) (c : Fin (grid1.bound 0)) (s : Fin (grid1.bound 1)) (O : CellTallies nD τ sig (HIx 1)) (W : Waits sig (HIx 1))
    (hlev : ∀ g ι, 0 < O g ι → 8 * (0 : Fin 1).val + 6 ≤ (K (F := F)).lev g ι) {α : Type}
    (k : PUnit → Prog (TpuEff nD τ sig (Elt F) Λ₀ (thr d c s).2) α) (Q : α → sProp 𝕄) :
    iprop(levAts (K (F := F)).L (K (F := F)).lev ∗ bkit m d (cT c) (sT s) ∗ owes (thr d c s) (O + oxV d (cT c)) W
        ∗ (if s.val = 0 then iprop(∃ f : Buf (Elt F) (shLoc d (cT c) (sT s)), ⌜TableOK m d f⌝ ∗ shLoc d (cT c) (sT s) ↦{fullShare} f) else iprop(emp))
        ∗ (iprop(owes (thr d c s) O (insert (SemLoc.reg sc_bar0, some 0) W)
              ∗ (∃ f : Buf (Elt F) (shLoc d (cT c) (sT s)), ⌜TableOK m d f⌝ ∗ shLoc d (cT c) (sT s) ↦{shShare (sT s)} f)
              ∗ (if s.val = 0 then iprop(∃ f : Buf (Elt F) (shLoc d (cT c) (sT s)), shLoc d (cT c) (sT s) ↦{shareDrop fullShare τ.nSub} f) else iprop(emp)))
            -∗ wp frame (wpE (defs₀ (F := F)) 𝒱₀ (thr d c s) none) Set.univ (k ⟨⟩) Q))
      ⊢ wp frame (wpE (defs₀ (F := F)) 𝒱₀ (thr d c s) none) Set.univ (SparseCore.subcoreBarrier sc_bar0 (grid1.bound 1) hsub1 >>= k) Q := by
  rw [show s.val = (sT s).val from rfl]
  unfold bkit oxV
  iintro ⟨Hlev, ⟨⟨%κ, #Hinv⟩, Htok, Hat, Hcred⟩, HO, Hsh, Hk⟩
  ihave Hmw := (barrier_mayWait (F := F) d (cT c) (sT s) O hlev) $$ Hlev
  ihave Hp := (pays_intro m d (cT c) (sT s)) $$ Hsh
  icases Hp with ⟨Hpays, Hdrop⟩
  ihave Htp := (toks_pays (F := F) Finset.univ
    (fun j : Fin (grid1.bound 1) => dutyTok EB (bcell d (cT c) (j.castLE hsub1)) 0 (sT s).val)
    (fun j : Fin (grid1.bound 1) => (bRd (F := F) m).payload (bcell d (cT c) (j.castLE hsub1)) 0 (sT s).val)
    (fun j : Fin (grid1.bound 1) => reached EB (bcell d (cT c) (j.castLE hsub1)) 0)) $$ [Htok Hpays]
  · isplitl [Htok] <;> iassumption
  iapply (SparseCore.wp_subcoreBarrier (defs := defs₀ (F := F)) 𝒱₀ none EB (bRd (F := F) m) d (sc := cT c) (i := sT s) sc_bar0 (grid1.bound 1) hsub1 s rfl
      κ (fun _ => 0) (sT s).val (fun j => bRd_mem₀ m d (cT c) (j.castLE hsub1) (sT s)) (fun _ => rfl) (bRd_expect m d (cT c) (sT s))
      (some 0) O W (k := k) (Q := Q)) $$ [HO Htp Hcred Hat Hmw]
  · isplitr; · iexact Hinv
    isplitl [HO]; · iexact HO
    isplitl [Htp]; · iexact Htp
    isplitl [Hcred]; · iexact Hcred
    isplitl [Hat]; · iexact Hat
    iexact Hmw
  iintro ⟨HO, -, -, Hpay⟩
  iapply Hk
  isplitl [HO]; · iexact HO
  isplitl [Hpay]
  · iapply (pays_elim m d (cT c) (sT s)); iexact Hpay
  iexact Hdrop

end Cert.Proof.KI

end
-- ==== Proof.TileStore.lean ====
/-
  A tile's scoped storage, opened: its two vector-memory scratch arrays (the staged indices and the seven slots of
  gathered rows), each whole at some contents, and its sixteen transfer semaphores at zero, each named; what is left of
  either kind stays closed.
-/
import proofs.«203041_g70987219468541_cont_9to1_m_1244_31_alg».proof.Proof.TileDefs

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## A listed part of a `bigSep`, as a chain -/

/-- `Φ a ∗ Φ b ∗ … ∗ Φ z ∗ R` -/
def chainL {I : Type} (Φ : I → sProp 𝕄) (R : sProp 𝕄) : List I → sProp 𝕄
  | [] => R
  | a :: l => iprop(Φ a ∗ chainL Φ R l)

/-- A `bigSep` over a set is the chain of the listed members (listed once each) and the `bigSep` over the others. -/
theorem bigSep_chainL {I : Type} [DecidableEq I] (Φ : I → sProp 𝕄) (l : List I) :
    ∀ (S : Finset I), l.Nodup → (∀ a ∈ l, a ∈ S) → bigSep S Φ = chainL (F := F) Φ (bigSep (S \ l.toFinset) Φ) l := by
  induction l with
  | nil => intro S _ _; rw [List.toFinset_nil, Finset.sdiff_empty]; rfl
  | cons a l ih =>
    intro S hl hS
    obtain ⟨ha, hl'⟩ := List.nodup_cons.mp hl
    have hmem : ∀ b ∈ l, b ∈ S.erase a := fun b hb =>
      Finset.mem_erase.mpr ⟨fun e => ha (e ▸ hb), hS b (List.mem_cons_of_mem _ hb)⟩
    rw [SparseCore.bigSep_erase' (hS a (List.mem_cons_self ..)), ih (S.erase a) hl' hmem, List.toFinset_cons, Finset.sdiff_insert,
      Finset.erase_sdiff_comm]
    rfl

/-! ## The tile's scratch arrays -/

/-- The two scratch arrays are among the subcore's own buffers: they are them, at some contents, and the rest. -/
theorem scopedBufs_open (d : Dev nD) (c : Fin (grid1.bound 0)) (s : Fin (grid1.bound 1)) :
    (scopedBufs (thr d c s) : sProp 𝕄)
      = iprop((∃ f, (ixS).view.loc (thr d c s) ↦{fullShare} f) ∗ (∃ f, (rwS).view.loc (thr d c s) ↦{fullShare} f)
          ∗ bigSep (((ownRefs (τ := τ) (.scVector (cT c) (sT s))).erase ((Proc.scVector (cT c) (sT s)).devRef cc1_scratch0)).erase
              ((Proc.scVector (cT c) (sT s)).devRef cc1_scratch1))
              fun b => iprop(∃ f, ((d, b) : Loc nD τ sig) ↦{fullShare} f)) := by
  rw [(K (F := F)).scopedBufs_V facts d (cT c) (sT s)]
  unfold SparseCore.Cfg.ownBufs
  refine (SparseCore.bigSep_erase' (SparseCore.Cfg.mem_ownRefs_of_owner (p := Proc.scVector (cT c) (sT s))
    (b := (Proc.scVector (cT c) (sT s)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cT c) (sT s)) (b := (Proc.scVector (cT c) (sT s)).devRef cc1_scratch1) rfl⟩)]

/-! ## The tile's transfer semaphores -/

/-- a vector subcore's scoped semaphores -/
abbrev scopedV : Finset (SemLoc sig) := Finset.univ.filter fun sm : SemLoc sig => sm.isScoped .scVector

/-- the kernel's sixteen transfer semaphores, in the order of its arguments -/
abbrev semsL : List (SemLoc sig) := [.dma cc1_scratch3.sem, .dma cc1_scratch4.sem, .dma cc1_scratch5.sem, .dma cc1_scratch6.sem, .dma cc1_scratch7.sem, .dma cc1_scratch8.sem, .dma cc1_scratch9.sem, .dma cc1_scratch10.sem, .dma cc1_scratch11.sem, .dma cc1_scratch12.sem, .dma cc1_scratch13.sem, .dma cc1_scratch14.sem, .dma cc1_scratch15.sem, .dma cc1_scratch16.sem, .dma cc1_scratch17.sem, .dma cc1_scoped0.sem]

theorem semsL_nodup : (semsL).Nodup := by decide
theorem semsL_scoped : ∀ a ∈ semsL, a ∈ scopedV := fun a ha =>
  Finset.mem_filter.mpr ⟨Finset.mem_univ _, (show ∀ a ∈ semsL, (a : SemLoc sig).isScoped .scVector = true by decide) a ha⟩

/-- The sixteen transfer semaphores are among the subcore's scoped ones: they are them, at zero, and the rest. -/
theorem scopedSems0_open (d : Dev nD) (c : Fin (grid1.bound 0)) (s : Fin (grid1.bound 1)) :
    (scopedSems0 (thr d c s) : sProp 𝕄)
      = iprop(semVal (thr d c s, SemLoc.dma cc1_scratch3.sem) 0
        ∗ semVal (thr d c s, SemLoc.dma cc1_scratch4.sem) 0
        ∗ semVal (thr d c s, SemLoc.dma cc1_scratch5.sem) 0
        ∗ semVal (thr d c s, SemLoc.dma cc1_scratch6.sem) 0
        ∗ semVal (thr d c s, SemLoc.dma cc1_scratch7.sem) 0
        ∗ semVal (thr d c s, SemLoc.dma cc1_scratch8.sem) 0
        ∗ semVal (thr d c s, SemLoc.dma cc1_scratch9.sem) 0
        ∗ semVal (thr d c s, SemLoc.dma cc1_scratch10.sem) 0
        ∗ semVal (thr d c s, SemLoc.dma cc1_scratch11.sem) 0
        ∗ semVal (thr d c s, SemLoc.dma cc1_scratch12.sem) 0
        ∗ semVal (thr d c s, SemLoc.dma cc1_scratch13.sem) 0
        ∗ semVal (thr d c s, SemLoc.dma cc1_scratch14.sem) 0
        ∗ semVal (thr d c s, SemLoc.dma cc1_scratch15.sem) 0
        ∗ semVal (thr d c s, SemLoc.dma cc1_scratch16.sem) 0
        ∗ semVal (thr d c s, SemLoc.dma cc1_scratch17.sem) 0
        ∗ semVal (thr d c s, SemLoc.dma cc1_scoped0.sem) 0
        ∗ bigSep (scopedV \ (semsL).toFinset) fun sm => semVal (thr d c s, sm) 0) := by
  rw [SparseCore.Cfg.scopedSems0_V (Val := Elt F) d (cT c) (sT s), SparseCore.Cfg.ownSems0_eq]
  exact bigSep_chainL (F := F) (fun sm : SemLoc sig => semVal (thr d c s, sm) 0) semsL scopedV semsL_nodup semsL_scoped

end Cert.Proof.KI

end
-- ==== Proof.TileMain.lean ====
/-
  A tile's run around its loop of 72 trips, for a worker whose 504 chunks all exist (workers 0 .. 30), with the trip
  as a hypothesis. Before the loop: tile 0 copies the table into its SparseCore's shared memory; every tile arrives at
  the subcore barrier and leaves it with its read share of the shared table, at contents whose first 119 rows are the
  projected rows; the share is cut into the seven tokens its gathers hold (the rest is kept aside); the index scratch is
  held as its two halves, the row scratch as its seven slots; the first index prefetch is issued: the loop's invariant
  before trip 0. After the loop: the seven trailing waits hand back the last trip's chunks at the result's values and the
  slots; the chunks, the shares, the halves, the slots and the sixteen semaphores (all at zero) are what the tile hands back.
-/
import proofs.«203041_g70987219468541_cont_9to1_m_1244_31_alg».proof.Proof.TileInv
import proofs.«203041_g70987219468541_cont_9to1_m_1244_31_alg».proof.Proof.TileBarrier
import proofs.«203041_g70987219468541_cont_9to1_m_1244_31_alg».proof.Proof.TileStore
import proofs.«203041_g70987219468541_cont_9to1_m_1244_31_alg».proof.Proof.TripFacts
import proofs.«203041_g70987219468541_cont_9to1_m_1244_31_alg».proof.Proof.TileSetLemmas2
import proofs.«203041_g70987219468541_cont_9to1_m_1244_31_alg».proof.Proof.TileSetLemmas3
import proofs.«203041_g70987219468541_cont_9to1_m_1244_31_alg».proof.Proof.TileChunkSteps
import proofs.«203041_g70987219468541_cont_9to1_m_1244_31_alg».proof.Proof.TileStage
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Shares
variable (d : Dev nD) (c : Fin (grid1.bound 0)) (s : Fin (grid1.bound 1))

/-- the shares of the shared table a tile keeps aside while its gathers hold the seven tokens -/
def KeepT (tblS : Buf (Elt F) ((shS).view.loc (thr d c s))) : sProp 𝕄 :=
  iprop(((shS).view.loc (thr d c s) ↦{Transfers.shareDrop (shShare (sT s)) 12} tblS)
    ∗ bigSep (Finset.range 5) fun i => (shS).view.loc (thr d c s) ↦{Transfers.shareTokN (shShare (sT s)) i} tblS)

theorem toks_open (tblS : Buf (Elt F) ((shS).view.loc (thr d c s))) :
    ((shS).view.loc (thr d c s) ↦{shShare (sT s)} tblS : sProp 𝕄) ⊣⊢ iprop(KeepT d c s tblS ∗ Toks d c s tblS) := by
  have h : ((shS).view.loc (thr d c s) ↦[Finset.univ]{shShare (sT s)} tblS : sProp 𝕄) ⊣⊢ _ := Transfers.pointsTo_toks_range (shShare (sT s)) 12
  rw [show (12 : ℕ) = 5 + 7 from rfl, bigSep_range_seven] at h
  unfold KeepT Toks
  constructor
  · refine h.1.trans ?_
    iintro ⟨Hd, Hr, H5, H6, H7, H8, H9, H10, H11⟩
    isplitl [Hd Hr]; · isplitl [Hd]; · iexact Hd
                       iexact Hr
    isplitl [H5]; · iexact H5
    isplitl [H6]; · iexact H6
    isplitl [H7]; · iexact H7
    isplitl [H8]; · iexact H8
    isplitl [H9]; · iexact H9
    isplitl [H10]; · iexact H10
    iexact H11
  · iintro ⟨⟨Hd, Hr⟩, H5, H6, H7, H8, H9, H10, H11⟩
    iapply h.2
    isplitl [Hd]; · iexact Hd
    isplitl [Hr]; · iexact Hr
    isplitl [H5]; · iexact H5
    isplitl [H6]; · iexact H6
    isplitl [H7]; · iexact H7
    isplitl [H8]; · iexact H8
    isplitl [H9]; · iexact H9
    isplitl [H10]; · iexact H10
    iexact H11

end Shares

section Pref
variable (d : Dev nD) (c : Fin (grid1.bound 0)) (s : Fin (grid1.bound 1))

theorem stJ_zero : stJ 0 = (⟨0, of_decide_eq_true rfl⟩ : Fin 18) := Fin.ext rfl

/-- The first prefetch in flight, in the invariant's words. -/
theorem pref0_intro (fI : Buf (Elt F) ((ixS).view.loc (thr d c s))) :
    iprop(Transfers.Flight (countersEmb (U := UU)) (thr d c s) (SemLoc.dma cc1_scratch3.sem) (none : HIx 1) 114688
        iprop((((ixS).slice (Rect.unit (s := S7168) ![0] S3584.size inb_S7168_S3584_0) (fun _ => rfl)).view.loc (thr d c s)
              ↦[((ixS).slice (Rect.unit (s := S7168) ![0] S3584.size inb_S7168_S3584_0) (fun _ => rfl)).view.set]{fullShare}
              ((ixS).slice (Rect.unit (s := S7168) ![0] S3584.size inb_S7168_S3584_0) (fun _ => rfl)).view.writes (Elt F) fI
                [⟨Rect.whole S3584, ReadAs.same.apply (((idxV).slice (Rect.unit (s := S2064384) (k1_off1 (coordsV c s)) S3584.size (k1_off1_inb (coordsV c s))) (fun _ => rfl)).view.read (Elt F) (idxc m d))⟩])
          ∗ (idxV).view.loc (thr d c s) ↦[((idxV).slice (Rect.unit (s := S2064384) (k1_off1 (coordsV c s)) S3584.size (k1_off1_inb (coordsV c s))) (fun _ => rfl)).view.set]{qI c s} idxc m d)
      ∗ ((idxV).view.loc (thr d c s) ↦[Finset.univ \ ((idxV).slice (Rect.unit (s := S2064384) (k1_off1 (coordsV c s)) S3584.size (k1_off1_inb (coordsV c s))) (fun _ => rfl)).view.set]{qI c s} idxc m d))
      ⊢ PrefFlight m d c s 0 := by
  unfold PrefFlight
  rw [set_st0, stJ_zero]
  iintro ⟨Hf, Hrest⟩
  isplitr [Hrest]
  swap; · iexact Hrest
  iapply (Transfers.Flight_mono ?_) $$ Hf
  iintro ⟨Hd, Hs⟩
  isplitl [Hd]
  · unfold HalfHeld
    iexists _
    isplitr
    · ipureintro; intro _; exact stageAt_landed0 m d c s fI
    · iapply (Entails.of_eq (pts_half0 (d := d) (c := c) (s := s) fullShare _)); iexact Hd
  · iexact Hs

end Pref

section Inv0
variable (d : Dev nD) (c : Fin (grid1.bound 0)) (s : Fin (grid1.bound 1))

/-- The invariant before the first trip. -/
theorem inv0_intro (tblS : Buf (Elt F) ((shS).view.loc (thr d c s))) (O : CellTallies nD τ sig (HIx 1)) (W W₁ : Waits sig (HIx 1))
    (hW₁ : ∀ p ∈ W₁, p ∈ W ∨ p.2 = none ∨ p.2 = some 0)
    (fI : Buf (Elt F) ((ixS).view.loc (thr d c s))) (fR : Buf (Elt F) ((rwS).view.loc (thr d c s))) :
    iprop(Transfers.MayWaits (thr d c s) (none : HIx 1) O ∗ PrefFlight m d c s 0
        ∗ ((halfM 1).view.loc (thr d c s) ↦[halfSet 1]{fullShare} fI) ∗ ((rwS).view.loc (thr d c s) ↦{fullShare} fR)
        ∗ semVal (thr d c s, SemLoc.dma cc1_scratch11.sem) 0 ∗ semVal (thr d c s, SemLoc.dma cc1_scratch12.sem) 0
        ∗ semVal (thr d c s, SemLoc.dma cc1_scratch13.sem) 0 ∗ semVal (thr d c s, SemLoc.dma cc1_scratch14.sem) 0
        ∗ semVal (thr d c s, SemLoc.dma cc1_scratch15.sem) 0 ∗ semVal (thr d c s, SemLoc.dma cc1_scratch16.sem) 0
        ∗ semVal (thr d c s, SemLoc.dma cc1_scratch17.sem) 0
        ∗ Todo m d c s 0 ∗ Toks d c s tblS ∗ GSems d c s ∗ owes (thr d c s) O W₁)
      ⊢ Inv m d c s tblS O W 0 ⟨⟩ := by
  unfold Inv IdxSt Slots Slot0 Slot1 Slot2 Slot3 Slot4 Slot5 Slot6 ChunksSt Owes
  rw [if_pos (by decide : (0 : ℕ) ≤ 68), if_pos rfl, if_pos rfl, if_pos rfl, if_pos rfl, if_pos rfl, if_pos rfl, if_pos rfl, done_zero, rw_split]
  iintro ⟨Hmw, Hpf, Hh1, ⟨Hr0, Hr1, Hr2, Hr3, Hr4, Hr5, Hr6⟩, Hs11, Hs12, Hs13, Hs14, Hs15, Hs16, Hs17, Htodo, Htoks, Hg, HO⟩
  isplitl [Hmw]; · iexact Hmw
  isplitl [Hpf Hh1]
  · isplitl [Hpf]; · iexact Hpf
    unfold HalfHeld
    iexists fI; isplitr
    · ipureintro; intro h; exact absurd rfl h
    · iexact Hh1
  isplitl [Hr0 Hr1 Hr2 Hr3 Hr4 Hr5 Hr6 Hs11 Hs12 Hs13 Hs14 Hs15 Hs16 Hs17]
  · isplitl [Hs11 Hr0]; · isplitl [Hs11]; · iexact Hs11
                          iexists fR; iexact Hr0
    isplitl [Hs12 Hr1]; · isplitl [Hs12]; · iexact Hs12
                          iexists fR; iexact Hr1
    isplitl [Hs13 Hr2]; · isplitl [Hs13]; · iexact Hs13
                          iexists fR; iexact Hr2
    isplitl [Hs14 Hr3]; · isplitl [Hs14]; · iexact Hs14
                          iexists fR; iexact Hr3
    isplitl [Hs15 Hr4]; · isplitl [Hs15]; · iexact Hs15
                          iexists fR; iexact Hr4
    isplitl [Hs16 Hr5]; · isplitl [Hs16]; · iexact Hs16
                          iexists fR; iexact Hr5
    isplitl [Hs17]; · iexact Hs17
    iexists fR; iexact Hr6
  isplitl [Htodo]
  · isplitr; · iempintro
    iexact Htodo
  isplitl [Htoks]; · iexact Htoks
  isplitl [Hg]; · iexact Hg
  iexists W₁; isplitr
  · ipureintro; exact hW₁
  · iexact HO

end Inv0

section Inv72
variable (d : Dev nD) (c : Fin (grid1.bound 0)) (s : Fin (grid1.bound 1))

theorem trips72 : Scf.trips k1_t1_loop.lb k1_t1_loop.ub k1_t1_loop.st = 72 := by decide

/-- The invariant after the last trip, opened. -/
theorem inv72_elim (tblS : Buf (Elt F) ((shS).view.loc (thr d c s))) (O : CellTallies nD τ sig (HIx 1)) (W : Waits sig (HIx 1)) :
    Inv m d c s tblS O W 72 ⟨⟩
      ⊢ iprop((semVal (thr d c s, SemLoc.dma cc1_scratch3.sem) 0 ∗ ((idxV).view.loc (thr d c s) ↦{qI c s} idxc m d)
          ∗ HalfHeld m d c s (halfOf 17) True 17 ∗ HalfHeld m d c s (halfOf 18) False 0)
        ∗ (Slot0 m d c s 72 ∗ Slot1 m d c s 72 ∗ Slot2 m d c s 72 ∗ Slot3 m d c s 72 ∗ Slot4 m d c s 72 ∗ Slot5 m d c s 72 ∗ Slot6 m d c s 72)
        ∗ Done m d c s 72 ∗ Toks d c s tblS ∗ GSems d c s ∗ Owes d c s O W) := by
  unfold Inv IdxSt Slots ChunksSt
  rw [if_neg (by decide : ¬ (72 : ℕ) ≤ 68), todo_end]
  iintro ⟨-, Hi, Hsl, ⟨Hd, -⟩, Ht, Hg, HO⟩
  isplitl [Hi]; · iexact Hi
  isplitl [Hsl]; · iexact Hsl
  isplitl [Hd]; · iexact Hd
  isplitl [Ht]; · iexact Ht
  isplitl [Hg]; · iexact Hg
  iexact HO

theorem tail_T0 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 0#32) 15625#32)) 0#32 = 1#1 := by decide +kernel
theorem tail_T1 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 1#32) 15625#32)) 0#32 = 1#1 := by decide +kernel
theorem tail_T2 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 2#32) 15625#32)) 0#32 = 1#1 := by decide +kernel
theorem tail_T3 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 3#32) 15625#32)) 0#32 = 1#1 := by decide +kernel
theorem tail_T4 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 4#32) 15625#32)) 0#32 = 1#1 := by decide +kernel
theorem tail_T5 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 5#32) 15625#32)) 0#32 = 1#1 := by decide +kernel
theorem tail_T6 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 6#32) 15625#32)) 0#32 = 1#1 := by decide +kernel

end Inv72

section Close
variable (d : Dev nD) (c : Fin (grid1.bound 0)) (s : Fin (grid1.bound 1))

/-- the two halves of the index scratch, whatever each holds, are the scratch at some contents -/
theorem halves_join (p₁ p₀ : Prop) (j₁ j₀ : ℕ) :
    iprop(HalfHeld m d c s (halfOf 17) p₁ j₁ ∗ HalfHeld m d c s (halfOf 18) p₀ j₀) ⊢ (iprop(∃ f, (ixS).view.loc (thr d c s) ↦{fullShare} f) : sProp 𝕄) := by
  unfold HalfHeld
  iintro ⟨⟨%f1, -, H1⟩, ⟨%f0, -, H0⟩⟩
  ihave H := (pointsTo_join (ℓ := (ixS).view.loc (thr d c s)) (q := fullShare) (f := f0) (g := f1) half_disjoint) $$ [H0 H1]
  · isplitl [H0]; · iexact H0
    iexact H1
  rw [half_union]
  iexists _; iexact H

/-- the seven slots of the row scratch, whatever each holds, are the scratch at some contents -/
theorem slots_join (f0 f1 f2 f3 f4 f5 f6 : Buf (Elt F) ((rwS).view.loc (thr d c s))) :
    iprop(((slotM0).view.loc (thr d c s) ↦[(slotM0).view.set]{fullShare} f0)
          ∗ ((slotM1).view.loc (thr d c s) ↦[(slotM1).view.set]{fullShare} f1)
          ∗ ((slotM2).view.loc (thr d c s) ↦[(slotM2).view.set]{fullShare} f2)
          ∗ ((slotM3).view.loc (thr d c s) ↦[(slotM3).view.set]{fullShare} f3)
          ∗ ((slotM4).view.loc (thr d c s) ↦[(slotM4).view.set]{fullShare} f4)
          ∗ ((slotM5).view.loc (thr d c s) ↦[(slotM5).view.set]{fullShare} f5)
          ∗ (slotM6).view.loc (thr d c s) ↦[(slotM6).view.set]{fullShare} f6)
      ⊢ (iprop(∃ f, (rwS).view.loc (thr d c s) ↦{fullShare} f) : sProp 𝕄) := by
  rw [set_slot0, set_slot1, set_slot2, set_slot3, set_slot4, set_slot5, set_slot6]
  have h := pointsTo_biUnion_join (Ix := HIx 1) (Name := ℕ) (U := UU) (Lvl := ℕ) (Val := Elt F) (ℓ := (rwS).view.loc (thr d c s)) (q := fullShare)
    (Finset.univ : Finset (Fin 7)) (fun b : Fin 7 => slotSet b) ![f0, f1, f2, f3, f4, f5, f6] f0 (fun b _ b' _ hb => Rect.part_disjoint hdiv7 hb)
  rw [Rect.biUnion_part hdiv7, bigSep_fin7] at h
  refine h.trans ?_
  iintro ⟨%g, -, Hg⟩
  iexists g; iexact Hg

/-- the worker's chunks, all at the result's values -/
theorem chunks_close (hw : 2 * s.val + c.val ≤ 30) :
    iprop(Done m d c s 72 ∗ (outLoc d ↦[chunkSet (chunkIx c s (72 - 1) 0)]{fullShare} outG m d) ∗ (outLoc d ↦[chunkSet (chunkIx c s (72 - 1) 1)]{fullShare} outG m d)
        ∗ (outLoc d ↦[chunkSet (chunkIx c s (72 - 1) 2)]{fullShare} outG m d) ∗ (outLoc d ↦[chunkSet (chunkIx c s (72 - 1) 3)]{fullShare} outG m d)
        ∗ (outLoc d ↦[chunkSet (chunkIx c s (72 - 1) 4)]{fullShare} outG m d) ∗ (outLoc d ↦[chunkSet (chunkIx c s (72 - 1) 5)]{fullShare} outG m d)
        ∗ (outLoc d ↦[chunkSet (chunkIx c s (72 - 1) 6)]{fullShare} outG m d))
      ⊢ (bigSep (tileChunks (cT c) (sT s)) fun g => outChunk d g (outG m d) : sProp 𝕄) := by
  have e : (bigSep (Finset.range 504) fun n => outChunk d (chunkIxN c s n) (outG m d) : sProp 𝕄) = Done m d c s (72 + 1) := rfl
  rw [← done_end d c s hw, e, done_step m d c s 72 (by decide)]

theorem ins_ok {W W' : Waits sig (HIx 1)} {q : SemLoc sig × HIx 1} (h : ∀ p ∈ W', p ∈ W ∨ p.2 = none ∨ p.2 = some 0) (hq : q.2 = none ∨ q.2 = some 0) :
    ∀ p ∈ insert q W', p ∈ W ∨ p.2 = none ∨ p.2 = some 0 := fun p hp => by
  rcases Finset.mem_insert.mp hp with rfl | hp
  · exact .inr hq
  · exact h p hp

/-- the shared table, written whole with the table read from HBM, holds the projected rows -/
theorem tbl_ok (tbl : Buf (Elt F) (tblLoc d)) (htbl : TableOK m d tbl) (f0 w : Buf (Elt F) ((shS).view.loc (thr d c s))) (hw : w = tbl) :
    TableOK m d (View.write (Elt F) (shS).view f0 w Finset.univ) := by
  subst hw
  have e : View.write (Elt F) (shS).view f0 w Finset.univ = w := View.write_whole_univ cc1_scratch2 f0 w
  rw [e]; exact htbl

end Close

theorem head_F : ∀ (s : Fin (grid1.bound 1)), s.val ≠ 0 →
    ¬ Scalar.cmpi CmpIPredicate.ne (Scalar.extui (Scalar.cmpi CmpIPredicate.eq (BitVec.ofNat 32 s.val) 0#32)) 0#32 = 1#1 := by decide +kernel

set_option maxHeartbeats 8000000 in
theorem tile_mainN (hpre : PreOK m) (d : Dev nD) (c : Fin (grid1.bound 0)) (s : Fin (grid1.bound 1)) (hw : 2 * s.val + c.val ≤ 30) (hs : s.val ≠ 0)
    (O : CellTallies nD τ sig (HIx 1)) (W : Waits sig (HIx 1)) (hO : ∀ g, O g none = 0)
    (hlev : ∀ g ι, 0 < O g ι → 8 * (0 : Fin 1).val + 6 ≤ (K (F := F)).lev g ι)
    (htrip : ∀ (tblS : Buf (Elt F) ((shS).view.loc (thr d c s))), TableOK m d tblS → ∀ (W₀ : Waits sig (HIx 1)) (k : Fin k1_t1_loop.trips), Inv m d c s tblS O W₀ k.val ⟨⟩ ⊢ wp frame (wpE (defs₀ (F := F)) 𝒱₀ (thr d c s) none) Set.univ (k1_t1_body (F := F) (coordsV c s) tblV (Memref.isWhole_whole _) idxV (Memref.isWhole_whole _) outW (Memref.isWhole_whole _) ixS (Memref.isWhole_whole _) rwS (Memref.isWhole_whole _) shS (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scoped0 (v2of c s) k ()) (fun _ => Inv m d c s tblS O W₀ (k.val + 1) ⟨⟩)) : TileSpec m d c s O W := by
  unfold TileSpec body
  rw [cc1_gather_eq_skeleton]; unfold cc1_gather_skel
  rw [k1_part5_eq_skeleton]; unfold k1_part5_skel
  have hO' : ∀ g, (O + oxV d (cT c)) g none = 0 := fun g => by
    rw [Pi.add_apply, Finsupp.add_apply, hO g, oxV_none]
  unfold goC
  rw [if_neg (show ¬ (sT s).val = 0 from hs), scopedBufs_open, scopedSems0_open, todo_zero (m := m) d c s hw]
  iintro ⟨#Hlv, Hbk, ⟨-, Hidx, Htodo⟩, ⟨⟨%fI, HixS⟩, ⟨%fR, HrwS⟩, Hbrest⟩, ⟨Hs3, Hs4, Hs5, Hs6, Hs7, Hs8, Hs9, Hs10, Hs11, Hs12, Hs13, Hs14, Hs15, Hs16, Hs17, Hs19, Hsrest⟩, HO⟩
  ihave Hmw0 := ((K (F := F)).mayWaits_none (thr := thr d c s) hO') $$ Hlv
  sl_exec (disch := first | sl_exact (head_F s hs) | decide)
  iapply (Entails.of_eq (wp_bind _ _ _ _ _ _).symm)
  iapply (tile_barrier m d c s O W hlev _ _)
  isplitr; · iexact Hlv
  isplitl [Hbk]; · iexact Hbk
  isplitl [HO]; · iexact HO
  isplitr; · rw [if_neg hs]; iempintro
  iintro ⟨HO, ⟨%tblS, %htblS, Hsh⟩, -⟩
  ihave Hmw := ((K (F := F)).mayWaits_none (thr := thr d c s) hO) $$ Hlv
  ihave Hidx' := (Entails.of_eq (show (idxLoc d ↦{tileShare (cT c) (sT s)} idxOf (m (srcLoc d)) : sProp 𝕄) = ((idxV).view.loc (thr d c s) ↦{qI c s} idxc m d) from rfl)) $$ Hidx
  ihave Hix2 := (Entails.of_eq (ix_split (d := d) (c := c) (s := s) fI)) $$ HixS
  icases Hix2 with ⟨Hh0, Hh1⟩
  ihave Hh0' := (Entails.of_eq (pts_half0 (d := d) (c := c) (s := s) fullShare fI).symm) $$ Hh0
  sl_exec (disch := decide)
  ihave Hpf := (pref0_intro m d c s fI) $$ [Hs3 Hidx']
  · isplitl [Hs3]; · iexact Hs3
    iexact Hidx'
  ihave Hsh' := (toks_open d c s tblS).1 $$ Hsh
  icases Hsh' with ⟨Hkeep, Htoks⟩
  ihave Hinv := (inv0_intro m d c s tblS O W (insert (SemLoc.reg sc_bar0, some 0) W)
      (ins_ok (fun p hp => .inl hp) (.inr rfl)) fI fR) $$ [Hmw Hpf Hh1 HrwS Hs11 Hs12 Hs13 Hs14 Hs15 Hs16 Hs17 Htodo Htoks Hs4 Hs5 Hs6 Hs7 Hs8 Hs9 Hs10 HO]
  · isplitr; · iexact Hmw
    isplitl [Hpf]; · iexact Hpf
    isplitl [Hh1]; · iexact Hh1
    isplitl [HrwS]; · iexact HrwS
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Htodo]; · iexact Htodo
    isplitl [Htoks]; · iexact Htoks
    isplitl [Hs4 Hs5 Hs6 Hs7 Hs8 Hs9 Hs10]
    · unfold GSems
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      iexact Hs10
    iexact HO
  sl_for (Inv m d c s tblS O W) $$ [Hinv]
  case region =>
    intro k _
    exact htrip tblS htblS W k
  · iexact Hinv
  iintro %_ HI
  rw [trips72]
  ihave HI' := (inv72_elim m d c s tblS O W) $$ HI
  unfold Slot0 Slot1 Slot2 Slot3 Slot4 Slot5 Slot6 Owes
  rw [if_neg (by decide : ¬ (72 : ℕ) = 0), if_neg (by decide : ¬ (72 : ℕ) = 0), if_neg (by decide : ¬ (72 : ℕ) = 0), if_neg (by decide : ¬ (72 : ℕ) = 0),
    if_neg (by decide : ¬ (72 : ℕ) = 0), if_neg (by decide : ¬ (72 : ℕ) = 0), if_neg (by decide : ¬ (72 : ℕ) = 0)]
  icases HI' with ⟨⟨Hs3, Hidx, Hh17, Hh18⟩, ⟨⟨%fR0, Hf0⟩, ⟨%fR1, Hf1⟩, ⟨%fR2, Hf2⟩, ⟨%fR3, Hf3⟩, ⟨%fR4, Hf4⟩, ⟨%fR5, Hf5⟩, ⟨%fR6, Hf6⟩⟩, Hdone, Htoks, Hg, ⟨%W', %hW', HO⟩⟩
  sl_exec (disch := first | sl_exact (tail_T0 c s hw) | sl_exact (tail_T1 c s hw) | sl_exact (tail_T2 c s hw) | sl_exact (tail_T3 c s hw) | sl_exact (tail_T4 c s hw) | sl_exact (tail_T5 c s hw) | sl_exact (tail_T6 c s hw) | decide)
  sl_step
  -- what the tile hands back
  isplitl [Hkeep Htoks Hidx Hdone Hf0_dst Hf1_dst Hf2_dst Hf3_dst Hf4_dst Hf5_dst Hf6_dst]
  · unfold tdC
    rw [if_neg (show ¬ (sT s).val = 0 from hs)]
    isplitr; · iempintro
    isplitl [Hkeep Htoks]
    · iexists tblS
      iapply (toks_open d c s tblS).2
      isplitl [Hkeep]; · iexact Hkeep
      iexact Htoks
    isplitl [Hidx]; · iexact Hidx
    iapply (chunks_close m d c s hw)
    isplitl [Hdone]; · iexact Hdone
    isplitl [Hf0_dst]; · iexact Hf0_dst
    isplitl [Hf1_dst]; · iexact Hf1_dst
    isplitl [Hf2_dst]; · iexact Hf2_dst
    isplitl [Hf3_dst]; · iexact Hf3_dst
    isplitl [Hf4_dst]; · iexact Hf4_dst
    isplitl [Hf5_dst]; · iexact Hf5_dst
    iexact Hf6_dst
  -- its scratch arrays
  isplitl [Hh17 Hh18 Hf0_src Hf1_src Hf2_src Hf3_src Hf4_src Hf5_src Hf6_src Hbrest]
  · isplitl [Hh17 Hh18]
    · iapply (halves_join m d c s True False 17 0)
      isplitl [Hh17]; · iexact Hh17
      iexact Hh18
    isplitl [Hf0_src Hf1_src Hf2_src Hf3_src Hf4_src Hf5_src Hf6_src]
    · iapply (slots_join d c s fR0 fR1 fR2 fR3 fR4 fR5 fR6)
      isplitl [Hf0_src]; · iexact Hf0_src
      isplitl [Hf1_src]; · iexact Hf1_src
      isplitl [Hf2_src]; · iexact Hf2_src
      isplitl [Hf3_src]; · iexact Hf3_src
      isplitl [Hf4_src]; · iexact Hf4_src
      isplitl [Hf5_src]; · iexact Hf5_src
      iexact Hf6_src
    iexact Hbrest
  -- its semaphores, all at zero
  isplitl [Hs3 Hg Hf0 Hf1 Hf2 Hf3 Hf4 Hf5 Hf6 Hs19 Hsrest]
  · unfold GSems
    icases Hg with ⟨Hs4, Hs5, Hs6, Hs7, Hs8, Hs9, Hs10⟩
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hs19]; · iexact Hs19
    iexact Hsrest
  iexists _; isplitr
  swap; · iexact HO
  ipureintro
  exact ins_ok (ins_ok (ins_ok (ins_ok (ins_ok (ins_ok (ins_ok hW' (.inl rfl)) (.inl rfl)) (.inl rfl)) (.inl rfl)) (.inl rfl)) (.inl rfl)) (.inl rfl)

/-- subcore 0 of a SparseCore -/
abbrev s0' : Fin (grid1.bound 1) := ⟨0, by decide⟩

set_option maxHeartbeats 8000000 in
theorem tile_main0 (hpre : PreOK m) (d : Dev nD) (c : Fin (grid1.bound 0)) (hw : 2 * s0'.val + c.val ≤ 30)
    (O : CellTallies nD τ sig (HIx 1)) (W : Waits sig (HIx 1)) (hO : ∀ g, O g none = 0)
    (hlev : ∀ g ι, 0 < O g ι → 8 * (0 : Fin 1).val + 6 ≤ (K (F := F)).lev g ι)
    (htrip : ∀ (tblS : Buf (Elt F) ((shS).view.loc (thr d c s0'))), TableOK m d tblS → ∀ (W₀ : Waits sig (HIx 1)) (k : Fin k1_t1_loop.trips), Inv m d c s0' tblS O W₀ k.val ⟨⟩ ⊢ wp frame (wpE (defs₀ (F := F)) 𝒱₀ (thr d c s0') none) Set.univ (k1_t1_body (F := F) (coordsV c s0') tblV (Memref.isWhole_whole _) idxV (Memref.isWhole_whole _) outW (Memref.isWhole_whole _) ixS (Memref.isWhole_whole _) rwS (Memref.isWhole_whole _) shS (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scoped0 (v2of c s0') k ()) (fun _ => Inv m d c s0' tblS O W₀ (k.val + 1) ⟨⟩)) : TileSpec m d c s0' O W := by
  unfold TileSpec body
  rw [cc1_gather_eq_skeleton]; unfold cc1_gather_skel
  rw [k1_part5_eq_skeleton]; unfold k1_part5_skel
  have hO' : ∀ g, (O + oxV d (cT c)) g none = 0 := fun g => by
    rw [Pi.add_apply, Finsupp.add_apply, hO g, oxV_none]
  unfold goC
  rw [if_pos (show (sT s0').val = 0 from rfl), scopedBufs_open, scopedSems0_open, todo_zero (m := m) d c s0' hw]
  iintro ⟨#Hlv, Hbk, ⟨⟨⟨%tbl, %htbl, Htbl⟩, ⟨%f0, Hsh0⟩⟩, Hidx, Htodo⟩, ⟨⟨%fI, HixS⟩, ⟨%fR, HrwS⟩, Hbrest⟩, ⟨Hs3, Hs4, Hs5, Hs6, Hs7, Hs8, Hs9, Hs10, Hs11, Hs12, Hs13, Hs14, Hs15, Hs16, Hs17, Hs19, Hsrest⟩, HO⟩
  ihave Hmw0 := ((K (F := F)).mayWaits_none (thr := thr d c s0') hO') $$ Hlv
  ihave Htbl' := (Entails.of_eq (show (tblLoc d ↦{scShare (cT c)} tbl : sProp 𝕄) = ((tblV).view.loc (thr d c s0') ↦{scShare (cT c)} tbl) from rfl)) $$ Htbl
  ihave Hsh0' := (Entails.of_eq (show (shLoc d (cT c) (sT s0') ↦{fullShare} f0 : sProp 𝕄) = ((shS).view.loc (thr d c s0') ↦{fullShare} f0) from rfl)) $$ Hsh0
  sl_exec (disch := decide)
  iapply (Entails.of_eq (wp_bind _ _ _ _ _ _).symm)
  iapply (tile_barrier m d c s0' O _ hlev _ _)
  isplitr; · iexact Hlv
  isplitl [Hbk]; · iexact Hbk
  isplitl [HO]; · iexact HO
  isplitl [Hsh0']
  · rw [if_pos (show s0'.val = 0 from rfl)]
    iexists _; isplitr
    · ipureintro; exact tbl_ok m d c s0' tbl htbl f0 _ rfl
    · iexact Hsh0'
  iintro ⟨HO, ⟨%tblS, %htblS, Hsh⟩, Hdrop⟩
  ihave Hdrop' := (Entails.of_eq (if_pos (show s0'.val = 0 from rfl))) $$ Hdrop
  ihave Hmw := ((K (F := F)).mayWaits_none (thr := thr d c s0') hO) $$ Hlv
  ihave Hidx' := (Entails.of_eq (show (idxLoc d ↦{tileShare (cT c) (sT s0')} idxOf (m (srcLoc d)) : sProp 𝕄) = ((idxV).view.loc (thr d c s0') ↦{qI c s0'} idxc m d) from rfl)) $$ Hidx
  ihave Hix2 := (Entails.of_eq (ix_split (d := d) (c := c) (s := s0') fI)) $$ HixS
  icases Hix2 with ⟨Hh0, Hh1⟩
  ihave Hh0' := (Entails.of_eq (pts_half0 (d := d) (c := c) (s := s0') fullShare fI).symm) $$ Hh0
  sl_exec (disch := decide)
  ihave Hpf := (pref0_intro m d c s0' fI) $$ [Hs3 Hidx']
  · isplitl [Hs3]; · iexact Hs3
    iexact Hidx'
  ihave Hsh' := (toks_open d c s0' tblS).1 $$ Hsh
  icases Hsh' with ⟨Hkeep, Htoks⟩
  ihave Hinv := (inv0_intro m d c s0' tblS O W (insert (SemLoc.reg sc_bar0, some 0) (insert (SemLoc.dma cc1_scoped0.sem, (default : HIx 1)) W))
      (ins_ok (ins_ok (fun p hp => .inl hp) (.inl rfl)) (.inr rfl)) fI fR) $$ [Hmw Hpf Hh1 HrwS Hs11 Hs12 Hs13 Hs14 Hs15 Hs16 Hs17 Htodo Htoks Hs4 Hs5 Hs6 Hs7 Hs8 Hs9 Hs10 HO]
  · isplitr; · iexact Hmw
    isplitl [Hpf]; · iexact Hpf
    isplitl [Hh1]; · iexact Hh1
    isplitl [HrwS]; · iexact HrwS
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Htodo]; · iexact Htodo
    isplitl [Htoks]; · iexact Htoks
    isplitl [Hs4 Hs5 Hs6 Hs7 Hs8 Hs9 Hs10]
    · unfold GSems
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      iexact Hs10
    iexact HO
  sl_for (Inv m d c s0' tblS O W) $$ [Hinv]
  case region =>
    intro k _
    exact htrip tblS htblS W k
  · iexact Hinv
  iintro %_ HI
  rw [trips72]
  ihave HI' := (inv72_elim m d c s0' tblS O W) $$ HI
  unfold Slot0 Slot1 Slot2 Slot3 Slot4 Slot5 Slot6 Owes
  rw [if_neg (by decide : ¬ (72 : ℕ) = 0), if_neg (by decide : ¬ (72 : ℕ) = 0), if_neg (by decide : ¬ (72 : ℕ) = 0), if_neg (by decide : ¬ (72 : ℕ) = 0),
    if_neg (by decide : ¬ (72 : ℕ) = 0), if_neg (by decide : ¬ (72 : ℕ) = 0), if_neg (by decide : ¬ (72 : ℕ) = 0)]
  icases HI' with ⟨⟨Hs3, Hidx, Hh17, Hh18⟩, ⟨⟨%fR0, Hf0⟩, ⟨%fR1, Hf1⟩, ⟨%fR2, Hf2⟩, ⟨%fR3, Hf3⟩, ⟨%fR4, Hf4⟩, ⟨%fR5, Hf5⟩, ⟨%fR6, Hf6⟩⟩, Hdone, Htoks, Hg, ⟨%W', %hW', HO⟩⟩
  sl_exec (disch := first | sl_exact (tail_T0 c s0' hw) | sl_exact (tail_T1 c s0' hw) | sl_exact (tail_T2 c s0' hw) | sl_exact (tail_T3 c s0' hw) | sl_exact (tail_T4 c s0' hw) | sl_exact (tail_T5 c s0' hw) | sl_exact (tail_T6 c s0' hw) | decide)
  sl_step
  -- what the tile hands back
  isplitl [Htbl' Hdrop' Hkeep Htoks Hidx Hdone Hf0_dst Hf1_dst Hf2_dst Hf3_dst Hf4_dst Hf5_dst Hf6_dst]
  · unfold tdC
    rw [if_pos (show (sT s0').val = 0 from rfl)]
    isplitl [Htbl' Hdrop']
    · isplitl [Htbl']
      · iexists tbl; iexact Htbl'
      · iexact Hdrop'
    isplitl [Hkeep Htoks]
    · iexists tblS
      iapply (toks_open d c s0' tblS).2
      isplitl [Hkeep]; · iexact Hkeep
      iexact Htoks
    isplitl [Hidx]; · iexact Hidx
    iapply (chunks_close m d c s0' hw)
    isplitl [Hdone]; · iexact Hdone
    isplitl [Hf0_dst]; · iexact Hf0_dst
    isplitl [Hf1_dst]; · iexact Hf1_dst
    isplitl [Hf2_dst]; · iexact Hf2_dst
    isplitl [Hf3_dst]; · iexact Hf3_dst
    isplitl [Hf4_dst]; · iexact Hf4_dst
    isplitl [Hf5_dst]; · iexact Hf5_dst
    iexact Hf6_dst
  -- its scratch arrays
  isplitl [Hh17 Hh18 Hf0_src Hf1_src Hf2_src Hf3_src Hf4_src Hf5_src Hf6_src Hbrest]
  · isplitl [Hh17 Hh18]
    · iapply (halves_join m d c s0' True False 17 0)
      isplitl [Hh17]; · iexact Hh17
      iexact Hh18
    isplitl [Hf0_src Hf1_src Hf2_src Hf3_src Hf4_src Hf5_src Hf6_src]
    · iapply (slots_join d c s0' fR0 fR1 fR2 fR3 fR4 fR5 fR6)
      isplitl [Hf0_src]; · iexact Hf0_src
      isplitl [Hf1_src]; · iexact Hf1_src
      isplitl [Hf2_src]; · iexact Hf2_src
      isplitl [Hf3_src]; · iexact Hf3_src
      isplitl [Hf4_src]; · iexact Hf4_src
      isplitl [Hf5_src]; · iexact Hf5_src
      iexact Hf6_src
    iexact Hbrest
  -- its semaphores, all at zero
  isplitl [Hs3 Hg Hf0 Hf1 Hf2 Hf3 Hf4 Hf5 Hf6 Hs19 Hsrest]
  · unfold GSems
    icases Hg with ⟨Hs4, Hs5, Hs6, Hs7, Hs8, Hs9, Hs10⟩
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hs19]; · iexact Hs19
    iexact Hsrest
  iexists _; isplitr
  swap; · iexact HO
  ipureintro
  exact ins_ok (ins_ok (ins_ok (ins_ok (ins_ok (ins_ok (ins_ok hW' (.inl rfl)) (.inl rfl)) (.inl rfl)) (.inl rfl)) (.inl rfl)) (.inl rfl)) (.inl rfl)

/-- The tile's obligation from the trip's: the head, the barrier, the first prefetch, the loop by its invariant, the
    trailing waits, and what is handed back. -/
theorem tile_main (hpre : PreOK m) (d : Dev nD) (c : Fin (grid1.bound 0)) (s : Fin (grid1.bound 1)) (hw : 2 * s.val + c.val ≤ 30)
    (O : CellTallies nD τ sig (HIx 1)) (W : Waits sig (HIx 1)) (hO : ∀ g, O g none = 0)
    (hlev : ∀ g ι, 0 < O g ι → 8 * (0 : Fin 1).val + 6 ≤ (K (F := F)).lev g ι)
    (htrip : ∀ (tblS : Buf (Elt F) ((shS).view.loc (thr d c s))), TableOK m d tblS → ∀ (W₀ : Waits sig (HIx 1)) (k : Fin k1_t1_loop.trips), Inv m d c s tblS O W₀ k.val ⟨⟩ ⊢ wp frame (wpE (defs₀ (F := F)) 𝒱₀ (thr d c s) none) Set.univ (k1_t1_body (F := F) (coordsV c s) tblV (Memref.isWhole_whole _) idxV (Memref.isWhole_whole _) outW (Memref.isWhole_whole _) ixS (Memref.isWhole_whole _) rwS (Memref.isWhole_whole _) shS (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scoped0 (v2of c s) k ()) (fun _ => Inv m d c s tblS O W₀ (k.val + 1) ⟨⟩)) :
    TileSpec m d c s O W := by
  by_cases hs : s.val = 0
  · obtain rfl : s = s0' := Fin.ext hs
    exact tile_main0 m hpre d c hw O W hO hlev htrip
  · exact tile_mainN m hpre d c s hw hs O W hO hlev htrip

end Cert.Proof.KI

end
-- ==== Proof.TileLastInv.lean ====
/-
  The last worker's tile (SparseCore 1, subcore 15: worker 31). Of its 504 chunk numbers only the first exists
  (504 * 31 = 15624 < 15625): trip 0 gathers and copies out chunk 15624 through slot 0, trip 1 awaits that copy-out, and no
  other trip touches a row slot; the index prefetch runs as on every tile.
-/
import proofs.«203041_g70987219468541_cont_9to1_m_1244_31_alg».proof.Proof.TileInv
import proofs.«203041_g70987219468541_cont_9to1_m_1244_31_alg».proof.Proof.TripFacts
import proofs.«203041_g70987219468541_cont_9to1_m_1244_31_alg».proof.Proof.Chunks

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## The last worker's tile: SparseCore 1, subcore 15, worker 31 -/

abbrev c31 : Fin (grid1.bound 0) := ⟨1, of_decide_eq_true rfl⟩
abbrev s31 : Fin (grid1.bound 1) := ⟨15, of_decide_eq_true rfl⟩

/-- the one chunk of worker 31 that exists: 504 * 31 = 15624 -/
abbrev gLast : Fin 15625 := ⟨15624, of_decide_eq_true rfl⟩

theorem tileChunks31 : tileChunks (cT c31) (sT s31) = {gLast} := by
  ext g
  simp only [tileChunks, Finset.mem_filter, Finset.mem_univ, true_and, Finset.mem_singleton]
  have hg := g.isLt
  constructor
  · intro h
    have h' : g.val / 504 = 2 * 15 + 1 := h
    exact Fin.ext (show g.val = 15624 by omega)
  · rintro rfl
    rfl

/-! ## The printed conditions at worker 31, decided over the trips -/

theorem l_g0T : ∀ k : Fin k1_t1_loop.trips, k.val = 0 → k1_cond5 (coordsV c31 s31) k = 1#1 := by decide +kernel
theorem l_g0F : ∀ k : Fin k1_t1_loop.trips, k.val ≠ 0 → ¬ k1_cond5 (coordsV c31 s31) k = 1#1 := by decide +kernel
theorem l_o0T : ∀ k : Fin k1_t1_loop.trips, k.val = 0 → k1_cond18 (coordsV c31 s31) k = 1#1 := by decide +kernel
theorem l_o0F : ∀ k : Fin k1_t1_loop.trips, k.val ≠ 0 → ¬ k1_cond18 (coordsV c31 s31) k = 1#1 := by decide +kernel
theorem l_g1F : ∀ k : Fin k1_t1_loop.trips, ¬ k1_cond7 (coordsV c31 s31) k = 1#1 := by decide +kernel
theorem l_g2F : ∀ k : Fin k1_t1_loop.trips, ¬ k1_cond9 (coordsV c31 s31) k = 1#1 := by decide +kernel
theorem l_g3F : ∀ k : Fin k1_t1_loop.trips, ¬ k1_cond11 (coordsV c31 s31) k = 1#1 := by decide +kernel
theorem l_g4F : ∀ k : Fin k1_t1_loop.trips, ¬ k1_cond13 (coordsV c31 s31) k = 1#1 := by decide +kernel
theorem l_g5F : ∀ k : Fin k1_t1_loop.trips, ¬ k1_cond15 (coordsV c31 s31) k = 1#1 := by decide +kernel
theorem l_g6F : ∀ k : Fin k1_t1_loop.trips, ¬ k1_cond17 (coordsV c31 s31) k = 1#1 := by decide +kernel
theorem l_o1F : ∀ k : Fin k1_t1_loop.trips, ¬ k1_cond19 (coordsV c31 s31) k = 1#1 := by decide +kernel
theorem l_o2F : ∀ k : Fin k1_t1_loop.trips, ¬ k1_cond20 (coordsV c31 s31) k = 1#1 := by decide +kernel
theorem l_o3F : ∀ k : Fin k1_t1_loop.trips, ¬ k1_cond21 (coordsV c31 s31) k = 1#1 := by decide +kernel
theorem l_o4F : ∀ k : Fin k1_t1_loop.trips, ¬ k1_cond22 (coordsV c31 s31) k = 1#1 := by decide +kernel
theorem l_o5F : ∀ k : Fin k1_t1_loop.trips, ¬ k1_cond23 (coordsV c31 s31) k = 1#1 := by decide +kernel
theorem l_o6F : ∀ k : Fin k1_t1_loop.trips, ¬ k1_cond24 (coordsV c31 s31) k = 1#1 := by decide +kernel

/-! ## The invariant of the last worker's loop -/

/-- slot 0 before trip k: its copy-out of chunk 15624 in flight before trip 1, idle otherwise -/
def LSlot0 (d : Dev nD) (k : ℕ) : sProp 𝕄 :=
  if k = 1 then iprop(∃ fR : Buf (Elt F) ((rwS).view.loc (thr d c31 s31)), Transfers.Flight (countersEmb (U := UU)) (thr d c31 s31) (SemLoc.dma cc1_scratch11.sem) (none : HIx 1) 524288
    iprop((outLoc d ↦[chunkSet gLast]{fullShare} outG m d) ∗ (slotM0).view.loc (thr d c31 s31) ↦[(slotM0).view.set]{fullShare} fR))
  else iprop(semVal (thr d c31 s31, SemLoc.dma cc1_scratch11.sem) 0 ∗ ∃ f : Buf (Elt F) ((rwS).view.loc (thr d c31 s31)), (slotM0).view.loc (thr d c31 s31) ↦[(slotM0).view.set]{fullShare} f)

/-- the chunk before trip k: untouched before trip 0, in flight before trip 1, written afterwards -/
def LChunk (d : Dev nD) (k : ℕ) : sProp 𝕄 :=
  if k = 0 then outChunk d gLast (m (outLoc d)) else if k = 1 then iprop(emp) else outChunk d gLast (outG m d)

/-- the copy-out semaphores of slots 1 .. 6 at zero, and those slots -/
def LIdle (d : Dev nD) : sProp 𝕄 :=
  iprop(semVal (thr d c31 s31, SemLoc.dma cc1_scratch12.sem) 0 ∗ semVal (thr d c31 s31, SemLoc.dma cc1_scratch13.sem) 0 ∗ semVal (thr d c31 s31, SemLoc.dma cc1_scratch14.sem) 0
    ∗ semVal (thr d c31 s31, SemLoc.dma cc1_scratch15.sem) 0 ∗ semVal (thr d c31 s31, SemLoc.dma cc1_scratch16.sem) 0 ∗ semVal (thr d c31 s31, SemLoc.dma cc1_scratch17.sem) 0
    ∗ ∃ f : Buf (Elt F) ((rwS).view.loc (thr d c31 s31)), (rwS).view.loc (thr d c31 s31) ↦[Finset.univ \ (slotM0).view.set]{fullShare} f)

/-- The loop's invariant before trip k. -/
def Inv31 (d : Dev nD) (tblS : Buf (Elt F) ((shS).view.loc (thr d c31 s31))) (O : CellTallies nD τ sig (HIx 1)) (W : Waits sig (HIx 1)) (k : ℕ) (_ : PUnit) : sProp 𝕄 :=
  iprop(Transfers.MayWaits (thr d c31 s31) (none : HIx 1) O ∗ IdxSt m d c31 s31 k ∗ LSlot0 m d k ∗ LIdle d ∗ LChunk m d k
    ∗ Toks d c31 s31 tblS ∗ GSems d c31 s31 ∗ Owes d c31 s31 O W)

end Cert.Proof.KI

end
-- ==== Proof.TileLastTrips.lean ====
/-
  The last worker's trips after trip 0. Trip 1 awaits slot 0's copy-out of chunk 15624 and has it written; a trip that is
  a multiple of four awaits the index prefetch and, but for the last stage, issues the next; any other trip does nothing at
  all (every printed condition is false at worker 31).
-/
import proofs.«203041_g70987219468541_cont_9to1_m_1244_31_alg».proof.Proof.TileLastInv
import proofs.«203041_g70987219468541_cont_9to1_m_1244_31_alg».proof.Proof.TileSetLemmas2
import proofs.«203041_g70987219468541_cont_9to1_m_1244_31_alg».proof.Proof.TileSetLemmas3
import proofs.«203041_g70987219468541_cont_9to1_m_1244_31_alg».proof.Proof.TileStage

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## The invariant's pieces from one trip to the next -/

/-- A held half keeps what it is known to hold under a weaker condition. -/
theorem halfHeld_mono (d : Dev nD) (c : Fin (grid1.bound 0)) (s : Fin (grid1.bound 1)) (h : Fin 2) {p p' : Prop} {j j' : ℕ}
    (hp : p' → p ∧ j = j') : HalfHeld m d c s h p j ⊢ HalfHeld m d c s h p' j' := by
  unfold HalfHeld
  iintro ⟨%f, %hf, H⟩
  iexists f
  isplitr
  · ipureintro
    intro hp'
    obtain ⟨h1, rfl⟩ := hp hp'
    exact hf h1
  · iexact H

/-- On a trip that is not a multiple of four the index prefetch's state is unchanged. -/
theorem idxSt_idle (d : Dev nD) (c : Fin (grid1.bound 0)) (s : Fin (grid1.bound 1)) (k : ℕ) (hk4 : k % 4 ≠ 0) :
    IdxSt m d c s k ⊢ IdxSt m d c s (k + 1) := by
  unfold IdxSt
  by_cases h68 : k ≤ 68
  · have h68' : k + 1 ≤ 68 := by omega
    rw [if_pos h68, if_pos h68', show (k + 1 + 3) / 4 = (k + 3) / 4 by omega]
    iintro ⟨Hp, Hh⟩
    isplitl [Hp]
    · iexact Hp
    · iapply (halfHeld_mono m d c s _ (p := k % 4 ≠ 0) (j := k / 4) (by omega))
      iexact Hh
  · rw [if_neg h68, if_neg (by omega)]

theorem lSlot0_idle (d : Dev nD) (k : ℕ) (hk : 2 ≤ k) : LSlot0 m d k = LSlot0 m d (k + 1) := by
  unfold LSlot0
  rw [if_neg (by omega), if_neg (by omega)]

theorem lChunk_idle (d : Dev nD) (k : ℕ) (hk : 2 ≤ k) : LChunk m d k = LChunk m d (k + 1) := by
  unfold LChunk
  rw [if_neg (by omega), if_neg (by omega), if_neg (by omega), if_neg (by omega)]

/-- The index prefetch's state while a copy is in flight, opened. -/
theorem idxSt_open (d : Dev nD) (c : Fin (grid1.bound 0)) (s : Fin (grid1.bound 1)) (k : ℕ) (h68 : k ≤ 68) :
    IdxSt m d c s k
      = iprop((Transfers.Flight (countersEmb (U := UU)) (thr d c s) (SemLoc.dma cc1_scratch3.sem) (none : HIx 1) 114688
            iprop(HalfHeld m d c s (halfOf ((k + 3) / 4)) True ((k + 3) / 4)
              ∗ (stM (wOf c s) (stJ ((k + 3) / 4))).view.loc (thr d c s) ↦[stSet (wOf c s) (stJ ((k + 3) / 4))]{qI c s} idxc m d)
          ∗ (idxV).view.loc (thr d c s) ↦[Finset.univ \ stSet (wOf c s) (stJ ((k + 3) / 4))]{qI c s} idxc m d)
        ∗ HalfHeld m d c s (halfOf ((k + 3) / 4 + 1)) (k % 4 ≠ 0) (k / 4)) := by
  unfold IdxSt PrefFlight
  rw [if_pos h68]

theorem stJ_eq (j : ℕ) (h : j < 18) : stJ j = ⟨j, h⟩ := Fin.ext (by show min j 17 = j; omega)

/-- The copy a prefetching trip issues is the prefetch of stage k / 4 + 1 in flight. -/
theorem prefFlight_intro (d : Dev nD) (c : Fin (grid1.bound 0)) (s : Fin (grid1.bound 1)) (k : Fin k1_t1_loop.trips)
    (h2 : k1_cond2 k = 1#1) (h3 : k1_cond3 k = 1#1) (fB : Buf (Elt F) ((ixS).view.loc (thr d c s))) :
    iprop(Transfers.Flight (countersEmb (U := UU)) (thr d c s) (SemLoc.dma cc1_scratch3.sem) (none : HIx 1) 114688
        iprop((((ixS).slice (Rect.unit (s := S7168) (k1_off2 k) S3584.size (k1_off2_inb k h2 h3)) (fun _ => rfl)).view.loc (thr d c s) ↦[((ixS).slice (Rect.unit (s := S7168) (k1_off2 k) S3584.size (k1_off2_inb k h2 h3)) (fun _ => rfl)).view.set]{fullShare}
              ((ixS).slice (Rect.unit (s := S7168) (k1_off2 k) S3584.size (k1_off2_inb k h2 h3)) (fun _ => rfl)).view.writes (Elt F) fB [⟨Rect.whole S3584, ReadAs.same.apply (((idxV).slice (Rect.unit (s := S2064384) (k1_off3 (coordsV c s) k) S3584.size (k1_off3_inb (coordsV c s) k h2 h3)) (fun _ => rfl)).view.read (Elt F) (idxc m d))⟩])
          ∗ (idxV).view.loc (thr d c s) ↦[((idxV).slice (Rect.unit (s := S2064384) (k1_off3 (coordsV c s) k) S3584.size (k1_off3_inb (coordsV c s) k h2 h3)) (fun _ => rfl)).view.set]{qI c s} idxc m d)
      ∗ (idxV).view.loc (thr d c s) ↦[Finset.univ \ ((idxV).slice (Rect.unit (s := S2064384) (k1_off3 (coordsV c s) k) S3584.size (k1_off3_inb (coordsV c s) k h2 h3)) (fun _ => rfl)).view.set]{qI c s} idxc m d)
    ⊢ PrefFlight m d c s (k.val / 4 + 1) := by
  have hD : iprop((((ixS).slice (Rect.unit (s := S7168) (k1_off2 k) S3584.size (k1_off2_inb k h2 h3)) (fun _ => rfl)).view.loc (thr d c s) ↦[((ixS).slice (Rect.unit (s := S7168) (k1_off2 k) S3584.size (k1_off2_inb k h2 h3)) (fun _ => rfl)).view.set]{fullShare}
              ((ixS).slice (Rect.unit (s := S7168) (k1_off2 k) S3584.size (k1_off2_inb k h2 h3)) (fun _ => rfl)).view.writes (Elt F) fB [⟨Rect.whole S3584, ReadAs.same.apply (((idxV).slice (Rect.unit (s := S2064384) (k1_off3 (coordsV c s) k) S3584.size (k1_off3_inb (coordsV c s) k h2 h3)) (fun _ => rfl)).view.read (Elt F) (idxc m d))⟩])
          ∗ (idxV).view.loc (thr d c s) ↦[((idxV).slice (Rect.unit (s := S2064384) (k1_off3 (coordsV c s) k) S3584.size (k1_off3_inb (coordsV c s) k h2 h3)) (fun _ => rfl)).view.set]{qI c s} idxc m d)
      ⊢ iprop(HalfHeld m d c s (halfOf (k.val / 4 + 1)) True (k.val / 4 + 1)
          ∗ (stM (wOf c s) ⟨k.val / 4 + 1, cond3_lt k h3⟩).view.loc (thr d c s) ↦[((idxV).slice (Rect.unit (s := S2064384) (k1_off3 (coordsV c s) k) S3584.size (k1_off3_inb (coordsV c s) k h2 h3)) (fun _ => rfl)).view.set]{qI c s} idxc m d) := by
    iintro ⟨Hd, Hs⟩
    isplitl [Hd]
    · unfold HalfHeld
      iexists (((ixS).slice (Rect.unit (s := S7168) (k1_off2 k) S3584.size (k1_off2_inb k h2 h3)) (fun _ => rfl)).view.writes (Elt F) fB [⟨Rect.whole S3584, ReadAs.same.apply (((idxV).slice (Rect.unit (s := S2064384) (k1_off3 (coordsV c s) k) S3584.size (k1_off3_inb (coordsV c s) k h2 h3)) (fun _ => rfl)).view.read (Elt F) (idxc m d))⟩])
      isplitr
      · ipureintro; intro _; exact stageAt_landedK m d c s k h2 h3 fB
      · iapply (Entails.of_eq (pts_pref d c s k h2 h3 fullShare _)); iexact Hd
    · iexact Hs
  unfold PrefFlight
  rw [stJ_eq (k.val / 4 + 1) (cond3_lt k h3), ← set_st c s k h2 h3]
  iintro ⟨Hf, Hr⟩
  isplitl [Hf]
  · iapply (Transfers.Flight_mono (countersEmb (U := UU)) (thr d c s) hD); iexact Hf
  · iexact Hr

/-- After a prefetching trip: the next stage in flight, the landed half held. -/
theorem idxSt_close (d : Dev nD) (c : Fin (grid1.bound 0)) (s : Fin (grid1.bound 1)) (k : ℕ) (hk4 : k % 4 = 0) (hk : k ≤ 64) :
    iprop(PrefFlight m d c s (k / 4 + 1) ∗ HalfHeld m d c s (halfOf (k / 4)) True (k / 4)) ⊢ IdxSt m d c s (k + 1) := by
  unfold IdxSt
  rw [if_pos (show k + 1 ≤ 68 by omega), show (k + 1 + 3) / 4 = k / 4 + 1 by omega,
    show halfOf (k / 4 + 1 + 1) = halfOf (k / 4) from Fin.ext (by show (k / 4 + 1 + 1) % 2 = (k / 4) % 2; omega)]
  iintro ⟨Hp, Hh⟩
  isplitl [Hp]
  · iexact Hp
  · iapply (halfHeld_mono m d c s _ (p := True) (j := k / 4) (fun _ => ⟨trivial, by omega⟩)); iexact Hh

/-- After the last stage has landed: nothing in flight, half 1 holds stage 17. -/
theorem idxSt_close68 (d : Dev nD) (c : Fin (grid1.bound 0)) (s : Fin (grid1.bound 1)) :
    iprop(semVal (thr d c s, SemLoc.dma cc1_scratch3.sem) 0 ∗ ((idxV).view.loc (thr d c s) ↦{qI c s} idxc m d)
        ∗ HalfHeld m d c s (halfOf 17) True 17 ∗ HalfHeld m d c s (halfOf (17 + 1)) False 0) ⊢ IdxSt m d c s (68 + 1) := by
  unfold IdxSt
  rw [if_neg (by decide)]

theorem trip31_idle (d : Dev nD) (tblS : Buf (Elt F) ((shS).view.loc (thr d c31 s31))) (O : CellTallies nD τ sig (HIx 1)) (W : Waits sig (HIx 1))
    (k : Fin k1_t1_loop.trips) (hk2 : 2 ≤ k.val) (hk4 : k.val % 4 ≠ 0) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  unfold k1_t1_body
  rw [k1_part1_eq_skeleton, k1_part2_eq_skeleton, k1_part3_eq_skeleton, k1_part4_eq_skeleton]
  unfold k1_part1_skel k1_part2_skel k1_part3_skel k1_part4_skel
  unfold Inv31
  iintro ⟨#Hmw, Hidx, Hs0, Hidle, Hch, Htok, Hgs, HO⟩
  set_option sl_exec.dischHeartbeats 400000 in
  sl_exec (disch := first | sl_exact (h2F k hk4) | sl_exact (l_g0F k (by omega)) | sl_exact (l_o0F k (by omega)) | sl_exact (l_g1F k) | sl_exact (l_g2F k) | sl_exact (l_g3F k) | sl_exact (l_g4F k) | sl_exact (l_g5F k) | sl_exact (l_g6F k) | sl_exact (l_o1F k) | sl_exact (l_o2F k) | sl_exact (l_o3F k) | sl_exact (l_o4F k) | sl_exact (l_o5F k) | sl_exact (l_o6F k) | (revert hk2 hk4; revert k; decide +kernel))
  rw [wp_ret]; imodintro
  isplitr
  · iexact Hmw
  isplitl [Hidx]
  · iapply (idxSt_idle m d c31 s31 k.val hk4); iexact Hidx
  isplitl [Hs0]
  · rw [← lSlot0_idle m d k.val hk2]; iexact Hs0
  isplitl [Hidle]
  · iexact Hidle
  isplitl [Hch]
  · rw [← lChunk_idle m d k.val hk2]; iexact Hch
  isplitl [Htok]
  · iexact Htok
  isplitl [Hgs]
  · iexact Hgs
  iexact HO

theorem trip31_one (d : Dev nD) (tblS : Buf (Elt F) ((shS).view.loc (thr d c31 s31))) (O : CellTallies nD τ sig (HIx 1)) (W : Waits sig (HIx 1))
    (k : Fin k1_t1_loop.trips) (hk1 : k.val = 1) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  unfold k1_t1_body
  rw [k1_part1_eq_skeleton, k1_part2_eq_skeleton, k1_part3_eq_skeleton, k1_part4_eq_skeleton]
  unfold k1_part1_skel k1_part2_skel k1_part3_skel k1_part4_skel
  unfold Inv31
  have hk4 : k.val % 4 ≠ 0 := by omega
  rw [hk1]
  unfold LSlot0 LChunk Owes
  rw [if_pos rfl, if_neg (by decide), if_pos rfl]
  iintro ⟨#Hmw, Hidx, ⟨%fR, Hfl⟩, Hidle, -, Htok, Hgs, ⟨%W', %hW', HO⟩⟩
  set_option sl_exec.dischHeartbeats 400000 in
  sl_exec (disch := first | sl_exact (h2F k hk4) | sl_exact (l_g0F k (by omega)) | sl_exact (l_o0F k (by omega)) | sl_exact (l_g1F k) | sl_exact (l_g2F k) | sl_exact (l_g3F k) | sl_exact (l_g4F k) | sl_exact (l_g5F k) | sl_exact (l_g6F k) | sl_exact (l_o1F k) | sl_exact (l_o2F k) | sl_exact (l_o3F k) | sl_exact (l_o4F k) | sl_exact (l_o5F k) | sl_exact (l_o6F k) | (clear hW' W' fR; revert hk1 hk4; revert k; decide +kernel))
  rw [wp_ret]; imodintro
  rw [if_neg (by decide), if_neg (by decide), if_neg (by decide)]
  isplitr
  · iexact Hmw
  isplitl [Hidx]
  · iapply (idxSt_idle m d c31 s31 1 (by decide)); iexact Hidx
  isplitl [Hfl Hfl_src]
  · isplitl [Hfl]
    · iexact Hfl
    · iexists fR; iexact Hfl_src
  isplitl [Hidle]
  · iexact Hidle
  isplitl [Hfl_dst]
  · iexact Hfl_dst
  isplitl [Htok]
  · iexact Htok
  isplitl [Hgs]
  · iexact Hgs
  iexists (insert (SemLoc.dma cc1_scratch11.sem, (none : HIx 1)) W')
  isplitr
  · ipureintro
    intro p hp
    rcases Finset.mem_insert.mp hp with rfl | hp
    · exact Or.inr (Or.inl rfl)
    · exact hW' p hp
  · iexact HO

theorem trip31_pref (d : Dev nD) (tblS : Buf (Elt F) ((shS).view.loc (thr d c31 s31))) (O : CellTallies nD τ sig (HIx 1)) (W : Waits sig (HIx 1))
    (k : Fin k1_t1_loop.trips) (hk4 : k.val % 4 = 0) (hk0 : 4 ≤ k.val) (hk : k.val ≤ 64) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  have e1 : (k.val + 3) / 4 = k.val / 4 := by omega
  unfold k1_t1_body
  rw [k1_part1_eq_skeleton, k1_part2_eq_skeleton, k1_part3_eq_skeleton, k1_part4_eq_skeleton]
  unfold k1_part1_skel k1_part2_skel k1_part3_skel k1_part4_skel
  unfold Inv31 Owes
  iintro ⟨#Hmw, Hidx, Hs0, Hidle, Hch, Htok, Hgs, ⟨%W', %hW', HO⟩⟩
  ihave Hi := (Entails.of_eq (idxSt_open m d c31 s31 k.val (by omega))) $$ Hidx
  rw [e1]
  icases Hi with ⟨⟨Hpf, Hrest⟩, Hoth⟩
  sl_exec (disch := first | sl_exact (h2T k hk4) | sl_exact (h3T k (by omega)))
  unfold HalfHeld
  icases Hpf_dst with ⟨%fA, %hA, HhalfA⟩
  icases Hoth with ⟨%fB, -, HhalfB⟩
  ihave HhalfB' := (Entails.of_eq (pts_pref d c31 s31 k (h2T k hk4) (h3T k (by omega)) fullShare fB).symm) $$ HhalfB
  ihave Hidx := (Entails.of_eq (show ((stM (wOf c31 s31) (stJ (k.val / 4))).view.loc (thr d c31 s31) ↦{qI c31 s31} idxc m d : sProp 𝕄)
      = ((idxV).view.loc (thr d c31 s31) ↦{qI c31 s31} idxc m d) from rfl)) $$ Hrest
  set_option sl_exec.dischHeartbeats 400000 in
  sl_exec (disch := first | sl_exact (h2T k hk4) | sl_exact (h3T k (by omega)) | sl_exact (l_g0F k (by omega)) | sl_exact (l_o0F k (by omega)) | sl_exact (l_g1F k) | sl_exact (l_g2F k) | sl_exact (l_g3F k) | sl_exact (l_g4F k) | sl_exact (l_g5F k) | sl_exact (l_g6F k) | sl_exact (l_o1F k) | sl_exact (l_o2F k) | sl_exact (l_o3F k) | sl_exact (l_o4F k) | sl_exact (l_o5F k) | sl_exact (l_o6F k) | (clear hA fA fB hW' W'; revert hk4 hk0 hk; revert k; decide +kernel))
  rw [wp_ret]; imodintro
  ihave Hpf' := (prefFlight_intro m d c31 s31 k (h2T k hk4) (h3T k (by omega)) fB) $$ [Hpf Hidx]
  · isplitl [Hpf]
    · iexact Hpf
    · iexact Hidx
  isplitr
  · iexact Hmw
  isplitl [Hpf' HhalfA]
  · iapply (idxSt_close m d c31 s31 k.val hk4 hk)
    isplitl [Hpf']
    · iexact Hpf'
    · unfold HalfHeld
      iexists fA
      isplitr
      · ipureintro; exact hA
      · iexact HhalfA
  isplitl [Hs0]
  · rw [← lSlot0_idle m d k.val (by omega)]; iexact Hs0
  isplitl [Hidle]
  · iexact Hidle
  isplitl [Hch]
  · rw [← lChunk_idle m d k.val (by omega)]; iexact Hch
  isplitl [Htok]
  · iexact Htok
  isplitl [Hgs]
  · iexact Hgs
  iexists (insert (SemLoc.dma cc1_scratch3.sem, (none : HIx 1)) W')
  isplitr
  · ipureintro
    intro p hp
    rcases Finset.mem_insert.mp hp with rfl | hp
    · exact Or.inr (Or.inl rfl)
    · exact hW' p hp
  · iexact HO

theorem trip31_w68 (d : Dev nD) (tblS : Buf (Elt F) ((shS).view.loc (thr d c31 s31))) (O : CellTallies nD τ sig (HIx 1)) (W : Waits sig (HIx 1))
    (k : Fin k1_t1_loop.trips) (hk68 : k.val = 68) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  unfold k1_t1_body
  rw [k1_part1_eq_skeleton, k1_part2_eq_skeleton, k1_part3_eq_skeleton, k1_part4_eq_skeleton]
  unfold k1_part1_skel k1_part2_skel k1_part3_skel k1_part4_skel
  unfold Inv31 Owes
  rw [hk68]
  iintro ⟨#Hmw, Hidx, Hs0, Hidle, Hch, Htok, Hgs, ⟨%W', %hW', HO⟩⟩
  ihave Hi := (Entails.of_eq (idxSt_open m d c31 s31 68 (by decide))) $$ Hidx
  rw [show (68 + 3) / 4 = 17 from rfl]
  icases Hi with ⟨⟨Hpf, Hrest⟩, Hoth⟩
  set_option sl_exec.dischHeartbeats 400000 in
  sl_exec (disch := first | sl_exact (h2T k (by omega)) | sl_exact (h3F k (by omega)) | sl_exact (l_g0F k (by omega)) | sl_exact (l_o0F k (by omega)) | sl_exact (l_g1F k) | sl_exact (l_g2F k) | sl_exact (l_g3F k) | sl_exact (l_g4F k) | sl_exact (l_g5F k) | sl_exact (l_g6F k) | sl_exact (l_o1F k) | sl_exact (l_o2F k) | sl_exact (l_o3F k) | sl_exact (l_o4F k) | sl_exact (l_o5F k) | sl_exact (l_o6F k) | (clear hW' W'; revert hk68; revert k; decide +kernel))
  rw [wp_ret]; imodintro
  isplitr
  · iexact Hmw
  isplitl [Hpf Hrest Hpf_dst Hoth]
  · iapply (idxSt_close68 m d c31 s31)
    isplitl [Hpf]
    · iexact Hpf
    isplitl [Hrest]
    · iexact Hrest
    isplitl [Hpf_dst]
    · iexact Hpf_dst
    · iapply (halfHeld_mono m d c31 s31 _ (p := 68 % 4 ≠ 0) (j := 68 / 4) (fun h => h.elim)); iexact Hoth
  isplitl [Hs0]
  · rw [← lSlot0_idle m d 68 (by decide)]; iexact Hs0
  isplitl [Hidle]
  · iexact Hidle
  isplitl [Hch]
  · rw [← lChunk_idle m d 68 (by decide)]; iexact Hch
  isplitl [Htok]
  · iexact Htok
  isplitl [Hgs]
  · iexact Hgs
  iexists (insert (SemLoc.dma cc1_scratch3.sem, (none : HIx 1)) W')
  isplitr
  · ipureintro
    intro p hp
    rcases Finset.mem_insert.mp hp with rfl | hp
    · exact Or.inr (Or.inl rfl)
    · exact hW' p hp
  · iexact HO

end Cert.Proof.KI

end
-- ==== Proof.TileLastZero.lean ====
/-
  The last worker's trip 0: it awaits stage 0 of the index prefetch and issues stage 1, gathers through slot 0 the rows
  the 128 indices of its list 0 name and copies them out to chunk 15624. What the copy-out writes is the result's values:
  taken here as a hypothesis on the gathered payload.
-/
import proofs.«203041_g70987219468541_cont_9to1_m_1244_31_alg».proof.Proof.TileLastTrips

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-- The words of trip k's list 0 name rows of the 128-row table once the half holds the trip's stage. -/
theorem list0_read_lt (hpre : PreOK m) (d : Dev nD) (c : Fin (grid1.bound 0)) (s : Fin (grid1.bound 1)) (k : Fin k1_t1_loop.trips)
    (hc : k1_cond5 (coordsV c s) k = 1#1) (fA : Buf (Elt F) ((ixS).view.loc (thr d c s)))
    (hst : StageAt m d c s (halfOf (k.val / 4)) (k.val / 4) fA) :
    ∀ x, BitVec.toNat (((ixS).slice (Rect.unit (s := S7168) (k1_off4 k) S128.size (k1_off4_inb (coordsV c s) k hc)) (fun _ => rfl)).view.read (Elt F) fA x) < 128 := by
  intro x
  rw [View.read_apply]
  have h4 : k1_off4 k 0 = 3584 * ((k.val / 4) % 2) + 896 * (k.val % 4) := congrFun (k1_off4_eq k) 0
  have e : ((ixS).slice (Rect.unit (s := S7168) (k1_off4 k) S128.size (k1_off4_inb (coordsV c s) k hc)) (fun _ => rfl)).view.emb x = (pcM (listOf k ⟨0, of_decide_eq_true rfl⟩)).view.emb x := by
    funext a
    fin_cases a
    refine Fin.ext ?_
    show k1_off4 k 0 + 1 * (x 0).val = 128 * (28 * ((k.val / 4) % 2) + 7 * (k.val % 4) + 0) + 1 * (x 0).val
    rw [h4]
    omega
  rw [e, stageAt_list m d c s (halfOf (k.val / 4)) (k.val / 4) fA hst k rfl rfl ⟨0, of_decide_eq_true rfl⟩ x]
  exact idxOf_lt _ (hpre d) _

theorem bigSep_fin7L (Φ : Fin 7 → sProp 𝕄) :
    bigSep Finset.univ Φ = iprop(Φ ⟨0, of_decide_eq_true rfl⟩ ∗ Φ ⟨1, of_decide_eq_true rfl⟩ ∗ Φ ⟨2, of_decide_eq_true rfl⟩ ∗ Φ ⟨3, of_decide_eq_true rfl⟩ ∗ Φ ⟨4, of_decide_eq_true rfl⟩ ∗ Φ ⟨5, of_decide_eq_true rfl⟩ ∗ Φ ⟨6, of_decide_eq_true rfl⟩) := bigSep_fin7 Φ

theorem chunkOf31 (k : Fin k1_t1_loop.trips) (hk0 : k.val = 0) (h : 504 * (wOf c31 s31).val + 7 * k.val + 0 < 15625) :
    chunkOf (wOf c31 s31) k ⟨0, of_decide_eq_true rfl⟩ h = gLast :=
  Fin.ext (by show 504 * (2 * 15 + 1) + 7 * k.val + 0 = 15624; omega)

/-- Slot 0's copy-out of chunk 15624 in flight, once what it writes is known to be the result's values. -/
theorem lslot0_intro (d : Dev nD) (k : Fin k1_t1_loop.trips) (hk0 : k.val = 0) (hc18 : k1_cond18 (coordsV c31 s31) k = 1#1)
    (h504 : 504 * (wOf c31 s31).val + 7 * k.val + 0 < 15625)
    (fR' : Buf (Elt F) ((rwS).view.loc (thr d c31 s31))) (Wc : Buf (Elt F) (outLoc d)) (hW : ∀ i ∈ chunkSet gLast, Wc i = outG m d i) :
    (Transfers.Flight (countersEmb (U := UU)) (thr d c31 s31) (SemLoc.dma cc1_scratch11.sem) (none : HIx 1) 524288
        iprop((((outW).slice (Rect.unit (s := S2000000x128) (k1_off12 (coordsV c31 s31) k) S128x128.size (k1_off12_inb (coordsV c31 s31) k hc18)) (fun _ => rfl)).view.loc (thr d c31 s31) ↦[((outW).slice (Rect.unit (s := S2000000x128) (k1_off12 (coordsV c31 s31) k) S128x128.size (k1_off12_inb (coordsV c31 s31) k hc18)) (fun _ => rfl)).view.set]{fullShare} Wc)
          ∗ (slotM0).view.loc (thr d c31 s31) ↦[(slotM0).view.set]{fullShare} fR') : sProp 𝕄)
      ⊢ iprop(∃ fR : Buf (Elt F) ((rwS).view.loc (thr d c31 s31)), Transfers.Flight (countersEmb (U := UU)) (thr d c31 s31) (SemLoc.dma cc1_scratch11.sem) (none : HIx 1) 524288
          iprop((outLoc d ↦[chunkSet gLast]{fullShare} outG m d) ∗ (slotM0).view.loc (thr d c31 s31) ↦[(slotM0).view.set]{fullShare} fR)) := by
  have hD : iprop((((outW).slice (Rect.unit (s := S2000000x128) (k1_off12 (coordsV c31 s31) k) S128x128.size (k1_off12_inb (coordsV c31 s31) k hc18)) (fun _ => rfl)).view.loc (thr d c31 s31) ↦[((outW).slice (Rect.unit (s := S2000000x128) (k1_off12 (coordsV c31 s31) k) S128x128.size (k1_off12_inb (coordsV c31 s31) k hc18)) (fun _ => rfl)).view.set]{fullShare} Wc)
          ∗ (slotM0).view.loc (thr d c31 s31) ↦[(slotM0).view.set]{fullShare} fR')
      ⊢ (iprop((outLoc d ↦[chunkSet gLast]{fullShare} outG m d) ∗ (slotM0).view.loc (thr d c31 s31) ↦[(slotM0).view.set]{fullShare} fR') : sProp 𝕄) := by
    iintro ⟨Hd, Hs⟩
    isplitl [Hd]
    · iapply (Entails.of_eq (pointsTo_congr (ℓ := outLoc d) (q := fullShare) hW))
      iapply (Entails.of_eq ((pts_chunk0 d c31 s31 k hc18 h504 fullShare Wc).trans (by rw [chunkOf31 k hk0 h504])))
      iexact Hd
    · iexact Hs
  iintro Hf
  iexists fR'
  iapply (Transfers.Flight_mono (countersEmb (U := UU)) (thr d c31 s31) hD)
  iexact Hf

/-- What trip 0 asks of the values: whatever slot 0 and the index scratch held, once half 0 holds stage 0 the copy-out of
    the rows gathered at list 0's indices writes the result's values into chunk 15624. -/
def LastValue (d : Dev nD) (tblS : Buf (Elt F) ((shS).view.loc (thr d c31 s31))) (k : Fin k1_t1_loop.trips) : Prop :=
  ∀ (fR0 : Buf (Elt F) ((rwS).view.loc (thr d c31 s31))) (fA : Buf (Elt F) ((ixS).view.loc (thr d c31 s31))) (hc5 : k1_cond5 (coordsV c31 s31) k = 1#1) (hc18 : k1_cond18 (coordsV c31 s31) k = 1#1)
      (_hst : StageAt m d c31 s31 (halfOf (k.val / 4)) (k.val / 4) fA) (hin0 : ∀ x, BitVec.toNat (((ixS).slice (Rect.unit (s := S7168) (k1_off4 k) S128.size (k1_off4_inb (coordsV c31 s31) k hc5)) (fun _ => rfl)).view.read (Elt F) fA x) < 128),
      ∀ i ∈ chunkSet gLast, (((outW).slice (Rect.unit (s := S2000000x128) (k1_off12 (coordsV c31 s31) k) S128x128.size (k1_off12_inb (coordsV c31 s31) k hc18)) (fun _ => rfl)).view.writes (Elt F) (m (outLoc d)) [⟨Rect.whole S128x128, ReadAs.same.apply ((slotM0).view.read (Elt F) ((slotM0).view.writes (Elt F) fR0 [⟨Rect.whole S128x128, (SparseCore.gatherPayload gathers_S128x128_S128x128 (((shS).slice (Rect.unit (s := S128x128) ![0, 0] S128x128.size inb_S128x128_S128x128_0_0) (fun _ => rfl)).view.read (Elt F) tblS) (SparseCore.rows (((ixS).slice (Rect.unit (s := S7168) (k1_off4 k) S128.size (k1_off4_inb (coordsV c31 s31) k hc5)) (fun _ => rfl)).view.read (Elt F) fA) rfl hin0))⟩]))⟩]) i = outG m d i

theorem trip31_zero (d : Dev nD) (tblS : Buf (Elt F) ((shS).view.loc (thr d c31 s31))) (O : CellTallies nD τ sig (HIx 1)) (W : Waits sig (HIx 1))
    (k : Fin k1_t1_loop.trips) (hk0 : k.val = 0) (hpre : PreOK m)
    (hval : LastValue m d tblS k) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  have hk4 : k.val % 4 = 0 := by omega
  unfold LastValue at hval
  have h504 : 504 * (wOf c31 s31).val + 7 * k.val + 0 < 15625 := by show 504 * (2 * 15 + 1) + 7 * k.val + 0 < 15625; omega
  unfold k1_t1_body
  rw [k1_part1_eq_skeleton, k1_part2_eq_skeleton, k1_part3_eq_skeleton, k1_part4_eq_skeleton]
  unfold k1_part1_skel k1_part2_skel k1_part3_skel k1_part4_skel
  unfold Inv31 Owes LSlot0 LChunk Toks GSems
  rw [hk0, if_neg (show ¬ (0 = 1) by decide), if_pos (show 0 = 0 from rfl), if_pos (show 0 + 1 = 1 from rfl), if_neg (show ¬ (0 + 1 = 0) by decide), if_pos (show 0 + 1 = 1 from rfl)]
  iintro ⟨#Hmw, Hidx, ⟨Hsem12, ⟨%fR0, Hslot0⟩⟩, Hidle, Hchunk, ⟨Hsh0, Hsh1, Hsh2, Hsh3, Hsh4, Hsh5, Hsh6⟩, ⟨Hg0, Hg1, Hg2, Hg3, Hg4, Hg5, Hg6⟩, ⟨%W', %hW', HO⟩⟩
  ihave Hi := (Entails.of_eq (idxSt_open m d c31 s31 0 (by decide))) $$ Hidx
  rw [show (0 + 3) / 4 = 0 from rfl]
  icases Hi with ⟨⟨Hpf, Hrest⟩, Hoth⟩
  sl_exec (disch := first | sl_exact (h2T k hk4) | sl_exact (h3T k (by omega)))
  unfold HalfHeld
  icases Hpf_dst with ⟨%fA, %hA, HhalfA⟩
  icases Hoth with ⟨%fB, -, HhalfB⟩
  have e01 : halfOf (0 + 1) = halfOf (k.val / 4 + 1) := by rw [hk0]
  have e00 : halfOf 0 = halfOf (k.val / 4) := by rw [hk0]
  rw [e01, e00]
  ihave HhalfB' := (Entails.of_eq (pts_pref d c31 s31 k (h2T k hk4) (h3T k (by omega)) fullShare fB).symm) $$ HhalfB
  ihave Hidx := (Entails.of_eq (show ((stM (wOf c31 s31) (stJ 0)).view.loc (thr d c31 s31) ↦{qI c31 s31} idxc m d : sProp 𝕄)
      = ((idxV).view.loc (thr d c31 s31) ↦{qI c31 s31} idxc m d) from rfl)) $$ Hrest
  have hst : StageAt m d c31 s31 (halfOf (k.val / 4)) (k.val / 4) fA := by
    rw [show k.val / 4 = 0 by omega]
    exact hA trivial
  have hin0 := list0_read_lt m hpre d c31 s31 k (l_g0T k hk0) fA hst
  ihave Hsp := (Entails.of_eq (half_split d c31 s31 (halfOf (k.val / 4)) k rfl fullShare fA)) $$ HhalfA
  icases Hsp with ⟨Hlists, HrestA⟩
  ihave Hl := (Entails.of_eq (bigSep_fin7L (F := F) (fun b : Fin 7 => (pcM (listOf k b)).view.loc (thr d c31 s31) ↦[pcSet (listOf k b)]{fullShare} fA))) $$ Hlists
  icases Hl with ⟨Hix0, Hix1, Hix2, Hix3, Hix4, Hix5, Hix6⟩
  ihave Hix0' := (Entails.of_eq (pts_list0 d c31 s31 k (l_g0T k hk0) fullShare fA).symm) $$ Hix0
  ihave Hchunk' := (Entails.of_eq ((pts_chunk0 d c31 s31 k (l_o0T k hk0) h504 fullShare (m (outLoc d))).trans (by rw [chunkOf31 k hk0 h504])).symm) $$ Hchunk
  set_option sl_exec.dischHeartbeats 400000 in
  sl_exec (disch := first | sl_exact (h2T k hk4) | sl_exact (h3T k (by omega)) | sl_exact (l_g0T k hk0) | sl_exact (l_o0T k hk0) | sl_exact (l_g1F k) | sl_exact (l_g2F k) | sl_exact (l_g3F k) | sl_exact (l_g4F k) | sl_exact (l_g5F k) | sl_exact (l_g6F k) | sl_exact (l_o1F k) | sl_exact (l_o2F k) | sl_exact (l_o3F k) | sl_exact (l_o4F k) | sl_exact (l_o5F k) | sl_exact (l_o6F k) | (clear hval hin0 hst hA fA fB fR0 hW' W' e01 e00; revert hk4 hk0 h504; revert k; decide +kernel))
  rw [wp_ret]; imodintro
  -- the next stage's prefetch in flight
  ihave Hpf' := (prefFlight_intro m d c31 s31 k (h2T k hk4) (h3T k (by omega)) fB) $$ [Hpf Hidx]
  · isplitl [Hpf]
    · iexact Hpf
    · iexact Hidx
  ihave Hpf'' := (Entails.of_eq (show PrefFlight m d c31 s31 (k.val / 4 + 1) = PrefFlight m d c31 s31 (0 / 4 + 1) by rw [hk0])) $$ Hpf'
  -- the lists back into the half
  ihave Hix0 := (Entails.of_eq (pts_list0 d c31 s31 k (l_g0T k hk0) fullShare fA)) $$ Hix0'
  ihave Hlists := (Entails.of_eq (bigSep_fin7L (F := F) (fun b : Fin 7 => (pcM (listOf k b)).view.loc (thr d c31 s31) ↦[pcSet (listOf k b)]{fullShare} fA)).symm) $$ [Hix0 Hix1 Hix2 Hix3 Hix4 Hix5 Hix6]
  ·
    isplitl [Hix0]
    · iexact Hix0
    isplitl [Hix1]
    · iexact Hix1
    isplitl [Hix2]
    · iexact Hix2
    isplitl [Hix3]
    · iexact Hix3
    isplitl [Hix4]
    · iexact Hix4
    isplitl [Hix5]
    · iexact Hix5
    iexact Hix6
  ihave HhalfA := (Entails.of_eq (half_split d c31 s31 (halfOf (k.val / 4)) k rfl fullShare fA).symm) $$ [Hlists HrestA]
  · isplitl [Hlists]
    · iexact Hlists
    · iexact HrestA
  ihave HhalfA' := (Entails.of_eq (show ((halfM (halfOf (k.val / 4))).view.loc (thr d c31 s31) ↦[halfSet (halfOf (k.val / 4))]{fullShare} fA : sProp 𝕄)
      = ((halfM (halfOf (0 / 4))).view.loc (thr d c31 s31) ↦[halfSet (halfOf (0 / 4))]{fullShare} fA) by rw [hk0])) $$ HhalfA
  isplitr
  · iexact Hmw
  isplitl [Hpf'' HhalfA']
  · iapply (idxSt_close m d c31 s31 0 rfl (by decide))
    isplitl [Hpf'']
    · iexact Hpf''
    · unfold HalfHeld
      iexists fA
      isplitr
      · ipureintro; exact hA
      · iexact HhalfA'
  isplitl [Hsem12]
  · iapply (lslot0_intro m d k hk0 (l_o0T k hk0) h504
      ((slotM0).view.writes (Elt F) fR0 [⟨Rect.whole S128x128, SparseCore.gatherPayload gathers_S128x128_S128x128 (((shS).slice (Rect.unit (s := S128x128) ![0, 0] S128x128.size inb_S128x128_S128x128_0_0) (fun _ => rfl)).view.read (Elt F) tblS) (SparseCore.rows (((ixS).slice (Rect.unit (s := S7168) (k1_off4 k) S128.size (k1_off4_inb (coordsV c31 s31) k (l_g0T k hk0))) (fun _ => rfl)).view.read (Elt F) fA) rfl hin0)⟩])
      _ (hval fR0 fA (l_g0T k hk0) (l_o0T k hk0) hst hin0))
    iexact Hsem12
  isplitl [Hidle]
  · iexact Hidle
  isplitr
  · iempintro
  isplitl [Hsh0 Hsh1 Hsh2 Hsh3 Hsh4 Hsh5 Hsh6]
  ·
    isplitl [Hsh0]
    · iexact Hsh0
    isplitl [Hsh1]
    · iexact Hsh1
    isplitl [Hsh2]
    · iexact Hsh2
    isplitl [Hsh3]
    · iexact Hsh3
    isplitl [Hsh4]
    · iexact Hsh4
    isplitl [Hsh5]
    · iexact Hsh5
    iexact Hsh6
  isplitl [Hg0 Hg1 Hg2 Hg3 Hg4 Hg5 Hg6]
  ·
    isplitl [Hg0]
    · iexact Hg0
    isplitl [Hg1]
    · iexact Hg1
    isplitl [Hg2]
    · iexact Hg2
    isplitl [Hg3]
    · iexact Hg3
    isplitl [Hg4]
    · iexact Hg4
    isplitl [Hg5]
    · iexact Hg5
    iexact Hg6
  iexists (insert (SemLoc.dma cc1_scratch4.sem, (none : HIx 1)) (insert (SemLoc.dma cc1_scratch3.sem, (none : HIx 1)) W'))
  isplitr
  · ipureintro
    intro p hp
    rcases Finset.mem_insert.mp hp with rfl | hp
    · exact Or.inr (Or.inl rfl)
    rcases Finset.mem_insert.mp hp with rfl | hp
    · exact Or.inr (Or.inl rfl)
    · exact hW' p hp
  · iexact HO

end Cert.Proof.KI

end
-- ==== Proof.TileLastAll.lean ====
/-
  Every trip of the last worker's loop keeps its invariant: the five cases (trip 0, trip 1, a prefetching trip, the last
  stage's wait, a trip that does nothing), with trip 0's value fact supplied by the copy-out's value lemma at chunk 15624.
-/
import proofs.«203041_g70987219468541_cont_9to1_m_1244_31_alg».proof.Proof.TileLastZero
import proofs.«203041_g70987219468541_cont_9to1_m_1244_31_alg».proof.Proof.TileValue

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-- Trip 0's copy-out writes the result's values into chunk 15624. -/
theorem lastValue_holds (hpre : PreOK m) (d : Dev nD) (tblS : Buf (Elt F) ((shS).view.loc (thr d c31 s31))) (htbl : TableOK m d tblS)
    (k : Fin k1_t1_loop.trips) (hk0 : k.val = 0) : LastValue m d tblS k := by
  unfold LastValue
  intro fR0 fA hc5 hc18 hst hin0 i hi
  have hg : 504 * (wOf c31 s31).val + 7 * k.val + 0 < 15625 := by
    show 504 * (2 * 15 + 1) + 7 * k.val + 0 < 15625
    omega
  have e : chunkIx c31 s31 k.val 0 = gLast := Fin.ext (by
    show min (504 * (2 * 15 + 1) + (7 * k.val + 0)) 15624 = 15624
    omega)
  have hi' : i ∈ chunkSet (chunkIx c31 s31 k.val 0) := by rw [e]; exact hi
  exact copy_value0 m d c31 s31 hpre k hg hc18 hc5 tblS htbl fA hst fR0 (m (outLoc d)) rfl hin0 i hi'

set_option maxHeartbeats 2000000 in
/-- Every trip of the last worker's loop keeps the invariant. -/
theorem trip31 (hpre : PreOK m) (d : Dev nD) (tblS : Buf (Elt F) ((shS).view.loc (thr d c31 s31))) (htbl : TableOK m d tblS)
    (O : CellTallies nD τ sig (HIx 1)) (W : Waits sig (HIx 1)) (k : Fin k1_t1_loop.trips) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  have hk := trips_le k
  by_cases h0 : k.val = 0
  · exact trip31_zero m d tblS O W k h0 hpre (lastValue_holds m hpre d tblS htbl k h0)
  by_cases h1 : k.val = 1
  · exact trip31_one m d tblS O W k h1
  by_cases h4 : k.val % 4 = 0
  · by_cases h68 : k.val = 68
    · exact trip31_w68 m d tblS O W k h68
    · exact trip31_pref m d tblS O W k h4 (by omega) (by omega)
  · exact trip31_idle m d tblS O W k (by omega) h4

end Cert.Proof.KI

end
-- ==== Proof.TileLast.lean ====
/-
  The last worker's tile (SparseCore 1, subcore 15: worker 31) around its loop of 72 trips: the head (no table copy:
  the subcore is not 0), the barrier, the seven tokens of the shared table's read share, the first index prefetch, the
  loop by its invariant and its trips, no trailing wait (none of the last trip's chunks exists), and what is handed back:
  its one chunk at the result's values, the shares, the scratch arrays, the sixteen semaphores at zero.
-/
import proofs.«203041_g70987219468541_cont_9to1_m_1244_31_alg».proof.Proof.TileInv
import proofs.«203041_g70987219468541_cont_9to1_m_1244_31_alg».proof.Proof.TileBarrier
import proofs.«203041_g70987219468541_cont_9to1_m_1244_31_alg».proof.Proof.TileStore
import proofs.«203041_g70987219468541_cont_9to1_m_1244_31_alg».proof.Proof.TripFacts
import proofs.«203041_g70987219468541_cont_9to1_m_1244_31_alg».proof.Proof.TileSetLemmas2
import proofs.«203041_g70987219468541_cont_9to1_m_1244_31_alg».proof.Proof.TileSetLemmas3
import proofs.«203041_g70987219468541_cont_9to1_m_1244_31_alg».proof.Proof.TileChunkSteps
import proofs.«203041_g70987219468541_cont_9to1_m_1244_31_alg».proof.Proof.TileStage
import proofs.«203041_g70987219468541_cont_9to1_m_1244_31_alg».proof.Proof.TileLastInv
import proofs.«203041_g70987219468541_cont_9to1_m_1244_31_alg».proof.Proof.TileLastAll
import proofs.«203041_g70987219468541_cont_9to1_m_1244_31_alg».proof.Proof.TileMain
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Last
variable (d : Dev nD)

/-- The last worker's invariant before the first trip. -/
theorem inv31_0_intro (tblS : Buf (Elt F) ((shS).view.loc (thr d c31 s31))) (O : CellTallies nD τ sig (HIx 1)) (W W₁ : Waits sig (HIx 1))
    (hW₁ : ∀ p ∈ W₁, p ∈ W ∨ p.2 = none ∨ p.2 = some 0)
    (fI : Buf (Elt F) ((ixS).view.loc (thr d c31 s31))) (fR : Buf (Elt F) ((rwS).view.loc (thr d c31 s31))) :
    iprop(Transfers.MayWaits (thr d c31 s31) (none : HIx 1) O ∗ PrefFlight m d c31 s31 0
        ∗ ((halfM 1).view.loc (thr d c31 s31) ↦[halfSet 1]{fullShare} fI) ∗ ((rwS).view.loc (thr d c31 s31) ↦{fullShare} fR)
        ∗ semVal (thr d c31 s31, SemLoc.dma cc1_scratch11.sem) 0 ∗ semVal (thr d c31 s31, SemLoc.dma cc1_scratch12.sem) 0
        ∗ semVal (thr d c31 s31, SemLoc.dma cc1_scratch13.sem) 0 ∗ semVal (thr d c31 s31, SemLoc.dma cc1_scratch14.sem) 0
        ∗ semVal (thr d c31 s31, SemLoc.dma cc1_scratch15.sem) 0 ∗ semVal (thr d c31 s31, SemLoc.dma cc1_scratch16.sem) 0
        ∗ semVal (thr d c31 s31, SemLoc.dma cc1_scratch17.sem) 0
        ∗ outChunk d gLast (m (outLoc d)) ∗ Toks d c31 s31 tblS ∗ GSems d c31 s31 ∗ owes (thr d c31 s31) O W₁)
      ⊢ Inv31 m d tblS O W 0 ⟨⟩ := by
  unfold Inv31 IdxSt LSlot0 LIdle LChunk Owes
  rw [if_pos (by decide : (0 : ℕ) ≤ 68), if_neg (by decide : ¬ (0 : ℕ) = 1), if_pos rfl]
  iintro ⟨Hmw, Hpf, Hh1, Hrw, Hs11, Hs12, Hs13, Hs14, Hs15, Hs16, Hs17, Hch, Htoks, Hg, HO⟩
  ihave Hrw' := (pointsTo_split_subset (ℓ := (rwS).view.loc (thr d c31 s31)) (q := fullShare) (f := fR) (Finset.subset_univ (slotM0).view.set)).1 $$ Hrw
  icases Hrw' with ⟨Hr0, Hrest⟩
  isplitl [Hmw]; · iexact Hmw
  isplitl [Hpf Hh1]
  · isplitl [Hpf]; · iexact Hpf
    unfold HalfHeld
    iexists fI; isplitr
    · ipureintro; intro h; exact absurd rfl h
    · iexact Hh1
  isplitl [Hs11 Hr0]
  · isplitl [Hs11]; · iexact Hs11
    iexists fR; iexact Hr0
  isplitl [Hs12 Hs13 Hs14 Hs15 Hs16 Hs17 Hrest]
  · isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    iexists fR; iexact Hrest
  isplitl [Hch]; · iexact Hch
  isplitl [Htoks]; · iexact Htoks
  isplitl [Hg]; · iexact Hg
  iexists W₁; isplitr
  · ipureintro; exact hW₁
  · iexact HO

/-- The last worker's invariant after the last trip, opened. -/
theorem inv31_72_elim (tblS : Buf (Elt F) ((shS).view.loc (thr d c31 s31))) (O : CellTallies nD τ sig (HIx 1)) (W : Waits sig (HIx 1)) :
    Inv31 m d tblS O W 72 ⟨⟩
      ⊢ iprop((semVal (thr d c31 s31, SemLoc.dma cc1_scratch3.sem) 0 ∗ ((idxV).view.loc (thr d c31 s31) ↦{qI c31 s31} idxc m d)
          ∗ HalfHeld m d c31 s31 (halfOf 17) True 17 ∗ HalfHeld m d c31 s31 (halfOf 18) False 0)
        ∗ (semVal (thr d c31 s31, SemLoc.dma cc1_scratch11.sem) 0 ∗ ∃ f : Buf (Elt F) ((rwS).view.loc (thr d c31 s31)), (slotM0).view.loc (thr d c31 s31) ↦[(slotM0).view.set]{fullShare} f)
        ∗ LIdle d ∗ outChunk d gLast (outG m d) ∗ Toks d c31 s31 tblS ∗ GSems d c31 s31 ∗ Owes d c31 s31 O W) := by
  unfold Inv31 IdxSt LSlot0 LChunk
  rw [if_neg (by decide : ¬ (72 : ℕ) ≤ 68), if_neg (by decide : ¬ (72 : ℕ) = 1), if_neg (by decide : ¬ (72 : ℕ) = 0), if_neg (by decide : ¬ (72 : ℕ) = 1)]
  iintro ⟨-, Hi, Hsl, Hid, Hch, Ht, Hg, HO⟩
  isplitl [Hi]; · iexact Hi
  isplitl [Hsl]; · iexact Hsl
  isplitl [Hid]; · iexact Hid
  isplitl [Hch]; · iexact Hch
  isplitl [Ht]; · iexact Ht
  isplitl [Hg]; · iexact Hg
  iexact HO

/-- slot 0 and the rest of the row scratch, whatever each holds, are the scratch at some contents -/
theorem slot0_join (f g : Buf (Elt F) ((rwS).view.loc (thr d c31 s31))) :
    iprop(((slotM0).view.loc (thr d c31 s31) ↦[(slotM0).view.set]{fullShare} g) ∗ ((rwS).view.loc (thr d c31 s31) ↦[Finset.univ \ (slotM0).view.set]{fullShare} f))
      ⊢ (iprop(∃ f, (rwS).view.loc (thr d c31 s31) ↦{fullShare} f) : sProp 𝕄) := by
  iintro H
  ihave H' := (pointsTo_join_subset (ℓ := (rwS).view.loc (thr d c31 s31)) (q := fullShare) (f := f) (g := g) (Finset.subset_univ (slotM0).view.set)) $$ H
  iexists _; iexact H'

end Last

set_option maxHeartbeats 8000000 in
/-- The last worker's tile, from its trips: as every tile's run, with its one chunk, slot 0 alone off the row scratch,
    and no trailing wait (none of its last trip's chunks exists). -/
theorem tile_last_of (hpre : PreOK m) (d : Dev nD) (O : CellTallies nD τ sig (HIx 1)) (W : Waits sig (HIx 1)) (hO : ∀ g, O g none = 0)
    (hlev : ∀ g ι, 0 < O g ι → 8 * (0 : Fin 1).val + 6 ≤ (K (F := F)).lev g ι)
    (htrip31 : ∀ (tblS : Buf (Elt F) ((shS).view.loc (thr d c31 s31))), TableOK m d tblS → ∀ (W₀ : Waits sig (HIx 1)) (k : Fin k1_t1_loop.trips), Inv31 m d tblS O W₀ k.val ⟨⟩ ⊢ wp frame (wpE (defs₀ (F := F)) 𝒱₀ (thr d c31 s31) none) Set.univ (k1_t1_body (F := F) (coordsV c31 s31) tblV (Memref.isWhole_whole _) idxV (Memref.isWhole_whole _) outW (Memref.isWhole_whole _) ixS (Memref.isWhole_whole _) rwS (Memref.isWhole_whole _) shS (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scoped0 (v2of c31 s31) k ()) (fun _ => Inv31 m d tblS O W₀ (k.val + 1) ⟨⟩)) :
    TileSpec m d c31 s31 O W := by
  unfold TileSpec body
  rw [cc1_gather_eq_skeleton]; unfold cc1_gather_skel
  rw [k1_part5_eq_skeleton]; unfold k1_part5_skel
  have hO' : ∀ g, (O + oxV d (cT c31)) g none = 0 := fun g => by
    rw [Pi.add_apply, Finsupp.add_apply, hO g, oxV_none]
  have hs31 : ¬ (sT s31).val = 0 := by decide
  unfold goC tdC
  rw [if_neg hs31, if_neg hs31, scopedBufs_open, scopedSems0_open, tileChunks31, bigSep_singleton, bigSep_singleton]
  iintro ⟨#Hlv, Hbk, ⟨-, Hidx, Hchunk⟩, ⟨⟨%fI, HixS⟩, ⟨%fR, HrwS⟩, Hbrest⟩, ⟨Hs3, Hs4, Hs5, Hs6, Hs7, Hs8, Hs9, Hs10, Hs11, Hs12, Hs13, Hs14, Hs15, Hs16, Hs17, Hs19, Hsrest⟩, HO⟩
  ihave Hmw0 := ((K (F := F)).mayWaits_none (thr := thr d c31 s31) hO') $$ Hlv
  sl_exec (disch := decide)
  iapply (Entails.of_eq (wp_bind _ _ _ _ _ _).symm)
  iapply (tile_barrier m d c31 s31 O W hlev _ _)
  isplitr; · iexact Hlv
  isplitl [Hbk]; · iexact Hbk
  isplitl [HO]; · iexact HO
  isplitr; · rw [if_neg (show ¬ s31.val = 0 by decide)]; iempintro
  iintro ⟨HO, ⟨%tblS, %htblS, Hsh⟩, -⟩
  ihave Hmw := ((K (F := F)).mayWaits_none (thr := thr d c31 s31) hO) $$ Hlv
  ihave Hidx' := (Entails.of_eq (show (idxLoc d ↦{tileShare (cT c31) (sT s31)} idxOf (m (srcLoc d)) : sProp 𝕄) = ((idxV).view.loc (thr d c31 s31) ↦{qI c31 s31} idxc m d) from rfl)) $$ Hidx
  ihave Hix2 := (Entails.of_eq (ix_split (d := d) (c := c31) (s := s31) fI)) $$ HixS
  icases Hix2 with ⟨Hh0, Hh1⟩
  ihave Hh0' := (Entails.of_eq (pts_half0 (d := d) (c := c31) (s := s31) fullShare fI).symm) $$ Hh0
  sl_exec (disch := decide)
  ihave Hpf := (pref0_intro m d c31 s31 fI) $$ [Hs3 Hidx']
  · isplitl [Hs3]; · iexact Hs3
    iexact Hidx'
  ihave Hsh' := (toks_open d c31 s31 tblS).1 $$ Hsh
  icases Hsh' with ⟨Hkeep, Htoks⟩
  ihave Hinv := (inv31_0_intro m d tblS O W (insert (SemLoc.reg sc_bar0, some 0) W)
      (ins_ok (fun p hp => .inl hp) (.inr rfl)) fI fR) $$ [Hmw Hpf Hh1 HrwS Hs11 Hs12 Hs13 Hs14 Hs15 Hs16 Hs17 Hchunk Htoks Hs4 Hs5 Hs6 Hs7 Hs8 Hs9 Hs10 HO]
  · isplitr; · iexact Hmw
    isplitl [Hpf]; · iexact Hpf
    isplitl [Hh1]; · iexact Hh1
    isplitl [HrwS]; · iexact HrwS
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hchunk]; · iexact Hchunk
    isplitl [Htoks]; · iexact Htoks
    isplitl [Hs4 Hs5 Hs6 Hs7 Hs8 Hs9 Hs10]
    · unfold GSems
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      iexact Hs10
    iexact HO
  sl_for (Inv31 m d tblS O W) $$ [Hinv]
  case region =>
    intro k _
    exact htrip31 tblS htblS W k
  · iexact Hinv
  iintro %_ HI
  rw [trips72]
  ihave HI' := (inv31_72_elim m d tblS O W) $$ HI
  unfold LIdle Owes
  icases HI' with ⟨⟨Hs3, Hidx, Hh17, Hh18⟩, ⟨Hs11, ⟨%fR0, Hr0⟩⟩, ⟨Hs12, Hs13, Hs14, Hs15, Hs16, Hs17, ⟨%fR1, Hrest⟩⟩, Hchunk, Htoks, Hg, ⟨%W', %hW', HO⟩⟩
  sl_exec (disch := decide)
  sl_step
  -- what the tile hands back
  isplitl [Hkeep Htoks Hidx Hchunk]
  · isplitr; · iempintro
    isplitl [Hkeep Htoks]
    · iexists tblS
      iapply (toks_open d c31 s31 tblS).2
      isplitl [Hkeep]; · iexact Hkeep
      iexact Htoks
    isplitl [Hidx]; · iexact Hidx
    iexact Hchunk
  -- its scratch arrays
  isplitl [Hh17 Hh18 Hr0 Hrest Hbrest]
  · isplitl [Hh17 Hh18]
    · iapply (halves_join m d c31 s31 True False 17 0)
      isplitl [Hh17]; · iexact Hh17
      iexact Hh18
    isplitl [Hr0 Hrest]
    · iapply (slot0_join d fR1 fR0)
      isplitl [Hr0]; · iexact Hr0
      iexact Hrest
    iexact Hbrest
  -- its semaphores, all at zero
  isplitl [Hs3 Hg Hs11 Hs12 Hs13 Hs14 Hs15 Hs16 Hs17 Hs19 Hsrest]
  · unfold GSems
    icases Hg with ⟨Hs4, Hs5, Hs6, Hs7, Hs8, Hs9, Hs10⟩
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs19]; · iexact Hs19
    iexact Hsrest
  iexists W'; isplitr
  · ipureintro; exact hW'
  · iexact HO

/-- The last worker's tile. -/
theorem tile_last (hpre : PreOK m) (d : Dev nD) (O : CellTallies nD τ sig (HIx 1)) (W : Waits sig (HIx 1)) (hO : ∀ g, O g none = 0)
    (hlev : ∀ g ι, 0 < O g ι → 8 * (0 : Fin 1).val + 6 ≤ (K (F := F)).lev g ι) : TileSpec m d c31 s31 O W :=
  tile_last_of.{1, 1} m hpre d O W hO hlev (fun tblS htbl W₀ k => trip31.{1, 1} m hpre d tblS htbl O W₀ k)

end Cert.Proof.KI

end
-- ==== Proof.Region.lean ====
/-
  The TensorCore kernel region of @main: the dense layer applied to the 119 feature rows, written into rows 0..118 of the
  128-row table through a pipeline of four whole-array windows at one point. The proof data is relational: the three
  operand blocks are left as found, and of the table's block only its first 119 rows are stated (the body stores a
  [119, 128] rectangle of the [128, 128] staging buffer, so rows 119..127 come back as the staging buffer held them).
  The body by symbolic execution; the region as a segment of @main entered from the operands, the table's buffer and
  what the TensorCore owes (its start signals, owed throughout); the pipeline's staging cells funded from its own
  component of the launch element.
-/
import proofs.«203041_g70987219468541_cont_9to1_m_1244_31_alg».proof.Proof.Pay

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The pipeline of the TensorCore region and its proof data -/

/-- no pipeline has a prefetched table -/
abbrev adm : (p : Fin 1) → (pcfgs (F := F) p).Adm := fun p => (cfgs p).toPCfg_adm

abbrev pcfg0 : Pipeline.Cfg sig Λ₀ := Pipeline.pin (pcfgs (F := F)) adm 0

theorem phinj : Function.Injective (Pipeline.cellOf (nD := nD) (τ := τ) (Pipeline.pin (pcfgs (F := F)) adm)) := Gen.cellOf_inj

section Data
variable [FloatOps F]

/-- the pairs a wait at the kernels' own index records -/
def recNone : Set (SemLoc sig × HIx 1) := {p | p.2 = none}

/-- The region's proof data on device d: the three inputs at their launch contents (the bias as a row), the table at
    whatever it held; the body leaves the inputs' blocks as it found them and the table's block with its first 119 rows
    the projected rows; the TensorCore owes its start signals throughout. -/
def rdat (d : Dev nD) : Pipeline.RDat τ (Elt F) (HIx 1) ℕ UU ℕ cfg0 d where
  A w := match w with
    | ⟨0, _⟩ => m (fmLoc d)
    | ⟨1, _⟩ => m (wLoc d)
    | ⟨2, _⟩ => brOf (m (bLoc d))
    | ⟨3, _⟩ => m (tblLoc d)
  after w t := match w with
    | ⟨0, _⟩ => fun Y X => X = Y
    | ⟨1, _⟩ => fun Y X => X = Y
    | ⟨2, _⟩ => fun Y X => X = Y
    | ⟨3, _⟩ => fun _ X => TableOK m d X
  Φ _ := iprop(emp)
  q _ := fullShare
  owed _ := (K (F := F)).Otc d 0
  recorded _ := recNone

def rdats : (p : Fin 1) → (d : Dev nD) → Pipeline.RDat τ (Elt F) (HIx 1) ℕ UU ℕ (Pipeline.pin (pcfgs (F := F)) adm p) d :=
  fun p d => match p with | ⟨0, _⟩ => rdat m d

end Data

/-! ## The region's body -/

section Body
variable [FloatOps F]
open Idealize.ShloMosaic.TcCoe Idealize.ShloMosaic.Tactic

theorem zeros2 : (![0, 0] : Fin 2 → ℕ) = fun _ => 0 := by funext a; fin_cases a <;> rfl

/-- a load of all of a block at offsets zero reads the block -/
theorem readAt_unit_zero' {Val : EltTy → Type} {κ : Kind} {sp : Space} {S : Shape} {e' : EltTy} (v : View sig κ sp S e') (f : v.ty.Contents Val)
    {off : Fin S.rank → ℕ} (h : off = fun _ => 0) (inb : ∀ a, off a + S.size a ≤ S.size a) :
    v.readAt Val (Rect.unit off S.size inb).toLoadRect f = v.read Val f := by
  subst h; funext x
  show v.read Val f ((Rect.whole S).emb x) = v.read Val f x
  rw [Rect.emb_whole_apply]

theorem emb_rows (a : Fin 119) (col : Fin 128) :
    (Rect.unit (s := S128x128) ![0, 0] S119x128.size inb_S128x128_S119x128_0_0).emb (ix2 a col) = ix2 (a.castLE (by decide)) col := by
  funext i; apply Fin.ext; rw [Rect.emb_apply]
  fin_cases i <;> simp [ix2]

/-- the first 119 rows of a [128, 128] block are the dense layer of the three operand blocks -/
def RowsOK (x0 : Vec F S119x3 .f32) (x1 : Vec F S3x128 .f32) (x2 : Vec F S1x128 .f32) (X : Vec F S128x128 .f32) : Prop :=
  ∀ (a : Fin 119) (col : Fin 128), X (ix2 (a.castLE (by decide)) col) = k0_pay1 (F := F) x0 x1 x2 (ix2 a col)

set_option maxHeartbeats 1000000 in
theorem sound_kernel (c : Dev nD) (E : Set ℕ) (arg0 : Memref sig .tc .vmem S119x3 .f32) (harg0 : arg0.IsWhole) (arg1 : Memref sig .tc .vmem S3x128 .f32) (harg1 : arg1.IsWhole)
    (arg2 : Memref sig .tc .vmem S1x128 .f32) (harg2 : arg2.IsWhole) (arg3 : Memref sig .tc .vmem S128x128 .f32) (harg3 : arg3.IsWhole)
    (x0 : Vec F S119x3 .f32) (x1 : Vec F S3x128 .f32) (x2 : Vec F S1x128 .f32) (Kk : PUnit → sProp 𝕄) :
    iprop(owns (c : Thread nD τ) arg0 fullShare x0 ∗ owns (c : Thread nD τ) arg1 fullShare x1 ∗ owns (c : Thread nD τ) arg2 fullShare x2
        ∗ (∃ y, owns (c : Thread nD τ) arg3 fullShare y)
        ∗ (iprop(owns (c : Thread nD τ) arg0 fullShare x0 ∗ owns (c : Thread nD τ) arg1 fullShare x1 ∗ owns (c : Thread nD τ) arg2 fullShare x2
            ∗ ∃ X, ⌜RowsOK x0 x1 x2 X⌝ ∗ owns (c : Thread nD τ) arg3 fullShare X) -∗ Kk ⟨⟩))
      ⊢ wp frame (wpE (defs₀ (F := F)) Variants.none c none) E (cc0__proj_body arg0 harg0 arg1 harg1 arg2 harg2 arg3 harg3) Kk := by
  simp only [cc0__proj_body_eq_skeleton]; unfold cc0__proj_body_skel
  unfold owns
  iintro ⟨⟨%f0, %hf0, H0⟩, ⟨%f1, %hf1, H1⟩, ⟨%f2, %hf2, H2⟩, ⟨%y, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap
  · iexists _; isplitr
    swap
    · iexact H3
    · ipureintro; rfl
  ipureintro
  intro a col
  rw [← emb_rows a col, View.read_writes_cons_emb, readAt_unit_zero' _ _ zeros2, readAt_unit_zero' _ _ zeros2, readAt_unit_zero' _ _ zeros2]

end Body

/-! ## What the proof data says at the one point -/

section Facts
variable [FloatOps F]
open Idealize.ShloMosaic.TcCoe

theorem rdat_A0 (d : Dev nD) : (rdat m d).A 0 = m (fmLoc d) := by dsimp only [rdat]
theorem rdat_A1 (d : Dev nD) : (rdat m d).A 1 = m (wLoc d) := by dsimp only [rdat]
theorem rdat_A2 (d : Dev nD) : (rdat m d).A 2 = brOf (m (bLoc d)) := by dsimp only [rdat]
theorem rdat_A3 (d : Dev nD) : (rdat m d).A 3 = m (tblLoc d) := by dsimp only [rdat]
theorem rdat_after0 (d : Dev nD) (t Y X) : (rdat m d).after 0 t Y X = (X = Y) := by dsimp only [rdat]
theorem rdat_after1 (d : Dev nD) (t Y X) : (rdat m d).after 1 t Y X = (X = Y) := by dsimp only [rdat]
theorem rdat_after2 (d : Dev nD) (t Y X) : (rdat m d).after 2 t Y X = (X = Y) := by dsimp only [rdat]
theorem rdat_after3 (d : Dev nD) (t Y X) : (rdat m d).after 3 t Y X = TableOK m d X := by dsimp only [rdat]

/-- A fetch of a whole, uncut block leaves the array's contents in the staging buffer. -/
theorem fetched0 (d : Dev nD) (t : Fin cfg0.N) (d0) : (rdat m d).fetched 0 t d0 = m (fmLoc d) := by
  show ((cfg0.win 0).blk t).view.read (Elt F) ((rdat m d).A 0) = _
  rw [rdat_A0]
  exact readAt_unit_zero' (Memref.whole main_arg1).view (m (fmLoc d)) (funext fun a => Nat.zero_mul _) _
theorem fetched1 (d : Dev nD) (t : Fin cfg0.N) (d0) : (rdat m d).fetched 1 t d0 = m (wLoc d) := by
  show ((cfg0.win 1).blk t).view.read (Elt F) ((rdat m d).A 1) = _
  rw [rdat_A1]
  exact readAt_unit_zero' (Memref.whole main_arg2).view (m (wLoc d)) (funext fun a => Nat.zero_mul _) _
theorem fetched2 (d : Dev nD) (t : Fin cfg0.N) (d0) : (rdat m d).fetched 2 t d0 = brOf (m (bLoc d)) := by
  show ((cfg0.win 2).blk t).view.read (Elt F) ((rdat m d).A 2) = _
  rw [rdat_A2]
  exact readAt_unit_zero' (Memref.whole main_v0).view (brOf (m (bLoc d))) (funext fun a => Nat.zero_mul _) _

end Facts

/-! ## The body obligation -/

section Obl
variable [FloatOps F]
open Idealize.ShloMosaic.TcCoe

theorem body_obl (d : Dev nD) : (rdat m d).BodyObligation (defs₀ (F := F)) Variants.none none Set.univ := fun t Y hY => by
  rw [bigSep_W0, bigSep_W0]
  obtain ⟨d0, h0⟩ := ((rdat m d).finds_of_fetch (fetch0_0 t) (Y 0)).mp (hY 0)
  obtain ⟨d1, h1⟩ := ((rdat m d).finds_of_fetch (fetch0_1 t) (Y 1)).mp (hY 1)
  obtain ⟨d2, h2⟩ := ((rdat m d).finds_of_fetch (fetch0_2 t) (Y 2)).mp (hY 2)
  rw [fetched0] at h0; rw [fetched1] at h1; rw [fetched2] at h2
  rw [show (rdat m d).Φ t.castSucc = iprop(emp) from rfl, show (rdat m d).Φ t.succ = iprop(emp) from rfl,
    show (rdat m d).owesAt none t.succ = (rdat m d).owesAt none t.castSucc from rfl]
  iintro ⟨-, HO, H0, H1, H2, H3⟩
  iapply (sound_kernel d Set.univ (win0_0.stage (cfg0.slots t 0)) (hstage0_0 0) (win0_1.stage (cfg0.slots t 1)) (hstage0_1 0)
    (win0_2.stage (cfg0.slots t 2)) (hstage0_2 0) (win0_3.stage (cfg0.slots t 3)) (hstage0_3 0) (Y 0) (Y 1) (Y 2) _)
  isplitl [H0]; · iexact H0
  isplitl [H1]; · iexact H1
  isplitl [H2]; · iexact H2
  isplitl [H3]; · iexists (Y 3); iexact H3
  iintro ⟨H0, H1, H2, ⟨%X, %hX, H3⟩⟩
  isplitr; · iempintro
  isplitl [HO]; · iexact HO
  isplitl [H0]
  · iexists (Y 0); isplitr; · ipureintro; rw [rdat_after0]
    iexact H0
  isplitl [H1]
  · iexists (Y 1); isplitr; · ipureintro; rw [rdat_after1]
    iexact H1
  isplitl [H2]
  · iexists (Y 2); isplitr; · ipureintro; rw [rdat_after2]
    iexact H2
  iexists X; isplitr
  · ipureintro; rw [rdat_after3]
    intro a col; rw [hX a col]; unfold projAt; rw [h0, h1, h2]
  iexact H3

end Obl

/-! ## The region as a segment of @main -/

section Seg
variable [FloatOps F]
open Idealize.ShloMosaic.TcCoe

theorem Otc_none (d : Dev nD) (g : GSem nD τ sig) : (K (F := F)).Otc d 0 g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun c _ => by rw [tallyAt_apply, if_neg (fun e => nomatch e.2)]
  · rfl

/-- what the TensorCore owes and has recorded before the SparseCore call -/
abbrev owesTc (d : Dev nD) : sProp 𝕄 := iprop(∃ W, ⌜(K (F := F)).WBelow (T d) W (8 * 0)⌝ ∗ owes (T d) ((K (F := F)).Otc d 0) W)

theorem arrays_eq (d : Dev nD) (Fa : (w : Fin cfg0.W) → Buf (Elt F) ((cfg0.win w).arr.view.loc (d.tc : Thread nD τ))) :
    ((rdat m d).arrays Fa : sProp 𝕄)
      = iprop((fmLoc d ↦{fullShare} Fa 0) ∗ (wLoc d ↦{fullShare} Fa 1) ∗ (brLoc d ↦{fullShare} Fa 2) ∗ (tblLoc d ↦{fullShare} Fa 3)) := by
  unfold Pipeline.RDat.arrays
  rw [bigSep_W0]
  simp only [Memref.view_whole, View.set_whole]
  rfl

end Seg

section Seg2
variable [FloatOps F]
open Idealize.ShloMosaic.TcCoe

theorem recNone_below (d : Dev nD) {W : Waits sig (HIx 1)} (h : (↑W : Set (SemLoc sig × HIx 1)) ⊆ (rdat m d).bound none 0) :
    (K (F := F)).WBelow (T d) W (8 * 0) := by
  intro p hp
  have : p.2 = none := by
    rcases h hp with h' | ⟨w, s, h'⟩
    · exact h'
    · rw [h']
  rw [this]; exact le_rfl

theorem below_recNone (d : Dev nD) {W : Waits sig (HIx 1)} (h : (K (F := F)).WBelow (T d) W (8 * 0)) :
    (↑W : Set (SemLoc sig × HIx 1)) ⊆ (rdat m d).bound none 0 := by
  intro p hp
  left
  show p.2 = none
  have h' := h p hp
  cases hq : p.2 with
  | none => rfl
  | some q => rw [hq] at h'; have := (K (F := F)).lev_some_pos (T d, p.1) q; omega

/-- What the region is entered from: the three operands and the table's buffer, and what the TensorCore owes. -/
def regPre (d : Dev nD) : sProp 𝕄 :=
  iprop((fmLoc d ↦{fullShare} m (fmLoc d)) ∗ (wLoc d ↦{fullShare} m (wLoc d)) ∗ (brLoc d ↦{fullShare} brOf (m (bLoc d)))
    ∗ (tblLoc d ↦{fullShare} m (tblLoc d)) ∗ owesTc d)
/-- What it leaves: the operands as they were, the table with its first 119 rows projected. -/
def regPost (d : Dev nD) : sProp 𝕄 :=
  iprop((fmLoc d ↦{fullShare} m (fmLoc d)) ∗ (wLoc d ↦{fullShare} m (wLoc d)) ∗ (brLoc d ↦{fullShare} brOf (m (bLoc d)))
    ∗ (∃ tbl : Buf (Elt F) (tblLoc d), ⌜TableOK m d tbl⌝ ∗ tblLoc d ↦{fullShare} tbl) ∗ owesTc d)

theorem hwaits0 (d : Dev nD) : (levAts (K (F := F)).L (K (F := F)).lev : sProp 𝕄) ⊢ Pipeline.RDat.cellsWaits (Pipeline.pin (pcfgs (F := F)) adm) (rdats m) none 0 d :=
  Pipeline.RDat.cellsWaits_intro (Pipeline.pin (pcfgs (F := F)) adm) (rdats m) none 0 d fun w s t =>
    (K (F := F)).mayWait_none _ (Otc_none d)

end Seg2

section Seg3
variable [FloatOps F]
open Idealize.ShloMosaic.TcCoe

theorem bigSep_fin0 {M : Type} [URA M] (Φ : Fin 0 → sProp M) : bigSep Finset.univ Φ = (BI.emp : sProp M) := by
  rw [Finset.univ_eq_empty, BI.bigSep_empty]

theorem prefHeld0 (d : Dev nD) (q) (pf) :
    (Pipeline.prefHeld (Ix := HIx 1) (Name := ℕ) (U := UU) (Lvl := ℕ) (Val := Elt F) (pcfgs (F := F) 0).pre d q pf : sProp 𝕄) = BI.emp :=
  bigSep_fin0 _

/-- The table after the one write-back: its first 119 rows are the projected rows. -/
theorem arrAt3 (d : Dev nD) (G : Buf (Elt F) ((cfg0.win 3).arr.view.loc (d.tc : Thread nD τ))) (h : (rdat m d).ArrAt 3 cfg0.N G) : TableOK m d G := by
  have hN : cfg0.N = 1 := N_0
  have h0 : 0 < cfg0.N := by rw [hN]; exact Nat.one_pos
  have hstep : (rdat m d).ArrStep 3 ⟨0, h0⟩ (fun F => F = (rdat m d).A 3) G := by
    have h' : (rdat m d).ArrAt 3 (0 + 1) G := by rw [hN] at h; exact h
    unfold Pipeline.RDat.ArrAt at h'
    dsimp only at h'
    rw [dif_pos h0, if_pos (flush0_3 ⟨0, h0⟩)] at h'
    exact h'
  obtain ⟨G₀, X, hG₀, ⟨Y, -, hX⟩, rfl⟩ := hstep
  rw [rdat_after3] at hX
  intro a col
  have hw : ((cfg0.win 3).blk ⟨0, h0⟩).view.write (Elt F) G₀ ((cfg0.win 3).cut (cfg0.grid.coords ⟨0, h0⟩) X) Finset.univ = X :=
    Memref.write_access_unit_zero_univ (Elt F) main_v1 (funext fun a => Nat.zero_mul _) _ G₀ X
  rw [hw]
  exact hX a col

theorem arrAt0 (d : Dev nD) (G : Buf (Elt F) ((cfg0.win 0).arr.view.loc (d.tc : Thread nD τ))) (h : (rdat m d).ArrAt 0 cfg0.N G) : G = m (fmLoc d) := by
  rw [(rdat m d).ArrAt_in 0 rfl] at h; exact h.trans (rdat_A0 m d)
theorem arrAt1 (d : Dev nD) (G : Buf (Elt F) ((cfg0.win 1).arr.view.loc (d.tc : Thread nD τ))) (h : (rdat m d).ArrAt 1 cfg0.N G) : G = m (wLoc d) := by
  rw [(rdat m d).ArrAt_in 1 rfl] at h; exact h.trans (rdat_A1 m d)
theorem arrAt2 (d : Dev nD) (G : Buf (Elt F) ((cfg0.win 2).arr.view.loc (d.tc : Thread nD τ))) (h : (rdat m d).ArrAt 2 cfg0.N G) : G = brOf (m (bLoc d)) := by
  rw [(rdat m d).ArrAt_in 2 rfl] at h; exact h.trans (rdat_A2 m d)

theorem arraysAt_eq (d : Dev nD) : ((rdat m d).arraysAt cfg0.N : sProp 𝕄)
    = iprop((∃ F0, ⌜(rdat m d).ArrAt 0 cfg0.N F0⌝ ∗ fmLoc d ↦{fullShare} F0) ∗ (∃ F1, ⌜(rdat m d).ArrAt 1 cfg0.N F1⌝ ∗ wLoc d ↦{fullShare} F1)
        ∗ (∃ F2, ⌜(rdat m d).ArrAt 2 cfg0.N F2⌝ ∗ brLoc d ↦{fullShare} F2) ∗ (∃ F3, ⌜(rdat m d).ArrAt 3 cfg0.N F3⌝ ∗ tblLoc d ↦{fullShare} F3)) := by
  unfold Pipeline.RDat.arraysAt
  rw [bigSep_W0]
  simp only [Memref.view_whole, View.set_whole]
  rfl

theorem arraysAt_elim (d : Dev nD) : ((rdat m d).arraysAt cfg0.N : sProp 𝕄)
    ⊢ iprop((fmLoc d ↦{fullShare} m (fmLoc d)) ∗ (wLoc d ↦{fullShare} m (wLoc d)) ∗ (brLoc d ↦{fullShare} brOf (m (bLoc d)))
        ∗ (∃ tbl : Buf (Elt F) (tblLoc d), ⌜TableOK m d tbl⌝ ∗ tblLoc d ↦{fullShare} tbl)) := by
  rw [arraysAt_eq]
  iintro ⟨⟨%F0, %h0, H0⟩, ⟨%F1, %h1, H1⟩, ⟨%F2, %h2, H2⟩, ⟨%F3, %h3, H3⟩⟩
  obtain rfl := arrAt0 m d F0 h0
  obtain rfl := arrAt1 m d F1 h1
  obtain rfl := arrAt2 m d F2 h2
  isplitl [H0]; · iexact H0
  isplitl [H1]; · iexact H1
  isplitl [H2]; · iexact H2
  iexists F3; isplitr; · ipureintro; exact arrAt3 m d F3 h3
  iexact H3

def reg0 : Pipeline.RDat.RegionSeg (pcfgs (F := F)) adm (rdats m) (none : HIx 1) (defs₀ (F := F)) 𝒱₀
    (SparseCore.Cfg.L (nD := nD) (K (F := F))) (SparseCore.Cfg.lev (nD := nD) (K (F := F))) 0 where
  win := Gen.winFacts0.to₀
  block_pos := Gen.block_pos0
  stage_whole := Gen.stage_whole0
  K := PEmpty
  osem k := k.elim
  ho := Pipeline.OwnSemFacts.none _
  hbody d := body_obl m d
  hwaits d := hwaits0 m d
  pre := regPre m
  post := regPost m
  X _ := iprop(emp)
  Y _ := iprop(emp)
  Z _ := iprop(emp)
  hentry d := by
    rw [Pipeline.ownSems0_none, prefHeld0]
    show iprop(regPre m d ∗ emp ∗ _) ⊢ |={Set.univ}=> iprop((rdat m d).arrays (rdat m d).A ∗ emp ∗ (rdat m d).owesAt none 0 ∗ emp ∗ emp)
    rw [arrays_eq, rdat_A0, rdat_A1, rdat_A2, rdat_A3]
    unfold regPre
    iintro ⟨⟨H0, H1, H2, H3, ⟨%W, %hW, HO⟩⟩, -, -⟩
    imodintro
    isplitl [H0 H1 H2 H3]
    · isplitl [H0]; · iexact H0
      isplitl [H1]; · iexact H1
      isplitl [H2]; · iexact H2
      iexact H3
    isplitr; · iempintro
    isplitl [HO]
    · iexists W; isplitr; · ipureintro; exact below_recNone m d hW
      iexact HO
    isplitr <;> iempintro
  hin d := by
    show _ ⊢ iprop(emp)
    iintro -; iempintro
  hout d := by
    rw [Pipeline.ownSems0_none, scopedRest0_eq]
    show iprop(emp) ⊢ _
    iintro -; isplitr; · iempintro
    isplitr <;> iempintro
  hexit d := by
    show iprop((rdat m d).arraysAt cfg0.N ∗ (rdat m d).owesAt none (Fin.last cfg0.N) ∗ emp ∗ emp) ⊢ |={Set.univ}=> regPost m d
    unfold regPost
    iintro ⟨Ha, ⟨%W, %hW, HO⟩, -, -⟩
    imodintro
    ihave Ha' := (arraysAt_elim m d) $$ Ha
    icases Ha' with ⟨H0, H1, H2, H3⟩
    isplitl [H0]; · iexact H0
    isplitl [H1]; · iexact H1
    isplitl [H2]; · iexact H2
    isplitl [H3]; · iexact H3
    iexists W; isplitr; · ipureintro; exact recNone_below m d hW
    iexact HO

end Seg3

/-! ## The pipeline's part of the launch element, and the region inside @main -/

section Region
variable [FloatOps F]
open Idealize.ShloMosaic.TcCoe

/-- the pipeline's rounds at launch: its staging cells, the duty tokens of the transfers its loop issues -/
def pInit : UP := initOf (Pipeline.cells (nD := nD) (τ := τ) (Pipeline.pin (pcfgs (F := F)) adm) phinj) (Pipeline.launchToks (nD := nD) (τ := τ) (Pipeline.pin (pcfgs (F := F)) adm) phinj)

/-- what the launch element funds device d's TensorCore with for the region: its staging cells' ghost state and duty tokens -/
def GP (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem gp_fund : (BI.own (EP (F := F) (pInit (F := F))) : sProp 𝕄) ⊢ |==> bigSep Finset.univ (GP (F := F)) := by
  have h := Pipeline.fund_ghost (Ix := HIx 1) (Val := Elt F) (Name := ℕ) (U := UU) (Lvl := ℕ) (Pipeline.pin (pcfgs (F := F)) adm) (EP (F := F)) phinj
  simp only [bigSep_univ_of_subsingleton (0 : Fin 1)] at h
  unfold pInit GP
  rw [bigSep_sep']
  simp only [bigSep_univ_of_subsingleton (0 : Fin 1)]
  exact h

theorem reg0_pre (d : Dev nD) : (reg0 m).pre d = regPre m d := rfl
theorem reg0_post (d : Dev nD) : (reg0 m).post d = regPost m d := rfl

theorem wp_region_inner (d : Dev nD) (Q' : PUnit → sProp 𝕄) :
    iprop(levAts (SparseCore.Cfg.L (nD := nD) (K (F := F))) (SparseCore.Cfg.lev (nD := nD) (K (F := F))) ∗ boundary (d.tc : Thread nD τ) ∗ regPre m d ∗ GP d
        ∗ (iprop(boundary (d.tc : Thread nD τ) ∗ regPost m d) -∗ Q' ⟨⟩))
      ⊢ wp frame (wpE (D (F := F)) 𝒱 (d.tc : Thread nD τ) none) Set.univ (.op (.customCall (Pipeline.entry 0) ()) fun _ => .ret ⟨⟩) Q' := by
  unfold GP
  iintro ⟨#Hlev, Hb, Hpre, ⟨Hg, Ht⟩, Hk⟩
  have hR := Pipeline.RDat.RegionSeg.wp (pcfgs (F := F)) adm (rdats m) none phinj (EP (F := F)) (defs₀ (F := F)) 𝒱₀ _ _ (reg0 m) d none
    (fun _ h => nomatch h) (fun _ => .ret ⟨⟩) Q'
  rw [reg0_pre, reg0_post] at hR
  iapply hR
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitr; · iexact Hlev
  isplitl [Hg]; · iexact Hg
  iexact Ht

end Region

section Region2
variable [FloatOps F]
open Idealize.ShloMosaic.TcCoe

theorem lift_e : (Prog.lift (TpuEff.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) := rfl

theorem lift1 (d : Dev nD) (Q : PUnit → sProp 𝕄) :
    wp frame (wpE (D (F := F)) 𝒱 (T d) none) Set.univ (.op (.customCall (Pipeline.entry 0) ()) fun _ => .ret ⟨⟩) Q
      ⊢ wp frame (wpE ((K (F := F)).defs (D (F := F))) 𝒱 (T d) none) Set.univ
          (SparseCore.liftProg (.op (.customCall (Pipeline.entry 0) ()) fun _ => .ret ⟨⟩)) Q :=
  (K (F := F)).wp_liftProg (D (F := F)) 𝒱 (T d) Set.univ none _ Q

set_option backward.isDefEq.respectTransparency.types false in
theorem wp_region (d : Dev nD) (Q : PUnit → sProp 𝕄) :
    iprop(levAts (SparseCore.Cfg.L (nD := nD) (K (F := F))) (SparseCore.Cfg.lev (nD := nD) (K (F := F))) ∗ boundary (T d) ∗ regPre m d ∗ GP d
        ∗ (iprop(boundary (T d) ∗ regPost m d) -∗ Q ⟨⟩))
      ⊢ wp frame (wpE ((K (F := F)).defs (D (F := F))) 𝒱 (T d) none) Set.univ
          (Prog.lift (.customCall (SparseCore.inner (Pipeline.entry 0)) ())) Q :=
  (wp_region_inner m d Q).trans (lift1 d Q)

end Region2

end Cert.Proof.KI

end
-- ==== Proof.Region2.lean ====
/-
  @main on the TensorCore of a device: the bias reshaped to a row, the kernel region that projects the table, the index
  array padded with zeros, the SparseCore call, from the launch's resources to the four arguments unchanged and the
  result at the gathered rows.
-/
import proofs.«203041_g70987219468541_cont_9to1_m_1244_31_alg».proof.Proof.Region
import proofs.«203041_g70987219468541_cont_9to1_m_1244_31_alg».proof.Proof.Chunks

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## @main on the TensorCore -/

section Main
variable [FloatOps F]
open Idealize.ShloMosaic.TcCoe
open Idealize.ShloMosaic.StableHlo (held wp_hlo_within)

abbrev r0' : DevRef τ sig := Proc.devRef .tc (main_arg0 : Ref sig .tc)
abbrev r3' : DevRef τ sig := Proc.devRef .tc (main_arg3 : Ref sig .tc)
abbrev v0' : DevRef τ sig := Proc.devRef .tc (main_v0 : Ref sig .tc)
abbrev c' : DevRef τ sig := Proc.devRef .tc (main_c : Ref sig .tc)
abbrev cv' : DevRef τ sig := Proc.devRef .tc (main_call0_v0 : Ref sig .tc)
abbrev v2' : DevRef τ sig := Proc.devRef .tc (main_v2 : Ref sig .tc)

/-- the four host operations of @main -/
abbrev opR : HloOp τ sig (Elt F) := StableHlo.reshape main_arg3 main_v0 rfl shapeCasts_S128_S1x128
abbrev opC : HloOp τ sig (Elt F) := StableHlo.nullary main_c (constantI S_ 32 0#32)
abbrev opU : HloOp τ sig (Elt F) := StableHlo.TRef.unary (Tx := ⟨S_, .i32⟩) (Ty := ⟨S_, .i32⟩) (.of main_c) (.of main_call0_v0) id
abbrev opP : HloOp τ sig (Elt F) := StableHlo.TRef.binary (Ta := ⟨S2000000, .i32⟩) (Tb := ⟨S_, .i32⟩) (Ty := ⟨S2064384, .i32⟩) (.of main_arg0) (.of main_call0_v0) (.of main_v2)
  (fun x v => pad S2064384 ![0] ![64384] ![0] x v pads_S2000000_S2064384_0643840 h_S_)

/-- The TensorCore's ten arrays in HBM. -/
theorem unscopedBufs_eq (d : Dev nD) (W : (b : Ref sig .tc) → Buf (Elt F) ((d.tc : Thread nD τ).loc b)) :
    (unscopedBufs d W : sProp 𝕄) = iprop((srcLoc d ↦{fullShare} W main_arg0) ∗ (fmLoc d ↦{fullShare} W main_arg1) ∗ (wLoc d ↦{fullShare} W main_arg2)
      ∗ (bLoc d ↦{fullShare} W main_arg3) ∗ (brLoc d ↦{fullShare} W main_v0) ∗ (tblLoc d ↦{fullShare} W main_v1)
      ∗ ((SparseCore.T d).loc main_c ↦{fullShare} W main_c) ∗ ((SparseCore.T d).loc main_call0_v0 ↦{fullShare} W main_call0_v0)
      ∗ (idxLoc d ↦{fullShare} W main_v2) ∗ (outLoc d ↦{fullShare} W main_v3)) := by
  unfold unscopedBufs
  rw [bigSep_eq_bigSepL_of_eq [main_arg0, main_arg1, main_arg2, main_arg3, main_v0, main_v1, main_c, main_call0_v0, main_v2, main_v3] (by decide) (by decide)]
  rfl

/-- the launch valuation -/
def V0 (d : Dev nD) : Valuation τ sig (Elt F) := fun b => m (d, b)

theorem heldR (d : Dev nD) (W : Valuation τ sig (Elt F)) :
    (held (T d) (opR (F := F)).bufs W : sProp 𝕄) = iprop((bLoc d ↦{fullShare} W r3') ∗ (brLoc d ↦{fullShare} W v0')) := by
  unfold held
  show bigSep ({r3', v0'} : Finset (DevRef τ sig)) _ = _
  rw [SparseCore.bigSep_insert' (by decide), bigSep_singleton]
theorem heldC (d : Dev nD) (W : Valuation τ sig (Elt F)) :
    (held (T d) (opC (F := F)).bufs W : sProp 𝕄) = iprop(((SparseCore.T d).loc main_c ↦{fullShare} W c')) := by
  unfold held
  show bigSep ({c'} : Finset (DevRef τ sig)) _ = _
  rw [bigSep_singleton]
theorem heldU (d : Dev nD) (W : Valuation τ sig (Elt F)) :
    (held (T d) (opU (F := F)).bufs W : sProp 𝕄) = iprop(((SparseCore.T d).loc main_c ↦{fullShare} W c') ∗ ((SparseCore.T d).loc main_call0_v0 ↦{fullShare} W cv')) := by
  unfold held
  show bigSep ({c', cv'} : Finset (DevRef τ sig)) _ = _
  rw [SparseCore.bigSep_insert' (by decide), bigSep_singleton]
theorem heldP (d : Dev nD) (W : Valuation τ sig (Elt F)) :
    (held (T d) (opP (F := F)).bufs W : sProp 𝕄) = iprop((srcLoc d ↦{fullShare} W r0') ∗ ((SparseCore.T d).loc main_call0_v0 ↦{fullShare} W cv') ∗ (idxLoc d ↦{fullShare} W v2')) := by
  unfold held
  show bigSep ({r0', cv', v2'} : Finset (DevRef τ sig)) _ = _
  rw [SparseCore.bigSep_insert' (by decide), SparseCore.bigSep_insert' (by decide), bigSep_singleton]

end Main

section Vals
variable [FloatOps F]
open Idealize.ShloMosaic.TcCoe
open Idealize.ShloMosaic.StableHlo (held wp_hlo_within)

theorem VR_b (d : Dev nD) : (opR (F := F)).result (V0 m d) r3' = m (bLoc d) :=
  (opR (F := F)).result_of_not_mem (V0 m d) (b := r3') (show r3' ∉ ({v0'} : Finset (DevRef τ sig)) by decide)
theorem VR_br (d : Dev nD) : (opR (F := F)).result (V0 m d) v0' = brOf (m (bLoc d)) :=
  (StableHlo.reshape_result main_arg3 main_v0 rfl shapeCasts_S128_S1x128 _ _ (V0 m d)).trans rfl

/-- the valuations after the constant and after the conversion -/
def VC (d : Dev nD) : Valuation τ sig (Elt F) := (opC (F := F)).result (V0 m d)
def VU (d : Dev nD) : Valuation τ sig (Elt F) := (opU (F := F)).result (VC m d)

theorem VC_c (d : Dev nD) : VC m d c' = constantI S_ 32 0#32 := StableHlo.nullary_result main_c _ _ (V0 m d)
theorem VC_cv (d : Dev nD) : VC m d cv' = m ((SparseCore.T d).loc main_call0_v0) :=
  (opC (F := F)).result_of_not_mem (V0 m d) (b := cv') (show cv' ∉ ({c'} : Finset (DevRef τ sig)) by decide)
theorem VU_cv (d : Dev nD) : VU m d cv' = constantI S_ 32 0#32 := by
  unfold VU
  rw [show (opU (F := F)).result (VC m d) cv' = _ from StableHlo.unary_result main_c main_call0_v0 _ _ _ (VC m d), VC_c]
  rfl
theorem VU_c (d : Dev nD) : VU m d c' = constantI S_ 32 0#32 := by
  unfold VU
  rw [(opU (F := F)).result_of_not_mem (VC m d) (b := c') (show c' ∉ ({cv'} : Finset (DevRef τ sig)) by decide), VC_c]
theorem VU_src (d : Dev nD) : VU m d r0' = m (srcLoc d) := by
  unfold VU VC
  rw [(opU (F := F)).result_of_not_mem _ (b := r0') (show r0' ∉ ({cv'} : Finset (DevRef τ sig)) by decide),
    (opC (F := F)).result_of_not_mem _ (b := r0') (show r0' ∉ ({c'} : Finset (DevRef τ sig)) by decide)]
  rfl
theorem VU_idx (d : Dev nD) : VU m d v2' = m (idxLoc d) := by
  unfold VU VC
  rw [(opU (F := F)).result_of_not_mem _ (b := v2') (show v2' ∉ ({cv'} : Finset (DevRef τ sig)) by decide),
    (opC (F := F)).result_of_not_mem _ (b := v2') (show v2' ∉ ({c'} : Finset (DevRef τ sig)) by decide)]
  rfl
theorem VP_src (d : Dev nD) : (opP (F := F)).result (VU m d) r0' = m (srcLoc d) := by
  rw [(opP (F := F)).result_of_not_mem _ (b := r0') (show r0' ∉ ({v2'} : Finset (DevRef τ sig)) by decide), VU_src]
theorem VP_idx (d : Dev nD) : (opP (F := F)).result (VU m d) v2' = idxOf (m (srcLoc d)) := by
  rw [show (opP (F := F)).result (VU m d) v2' = _ from StableHlo.binary_result main_arg0 main_call0_v0 main_v2 _ _ _ _ (VU m d)]
  rw [show VU m d (Proc.devRef .tc (main_arg0 : Ref sig .tc)) = m (srcLoc d) from VU_src m d,
    show VU m d (Proc.devRef .tc (main_call0_v0 : Ref sig .tc)) = constantI S_ 32 0#32 from VU_cv m d]
  rfl

end Vals

section Call
variable [FloatOps F]
open Idealize.ShloMosaic.TcCoe
open Idealize.ShloMosaic.StableHlo (held wp_hlo_within)

theorem heldR_after (d : Dev nD) : (held (T d) (opR (F := F)).bufs ((opR (F := F)).result (V0 m d)) : sProp 𝕄)
    = iprop((bLoc d ↦{fullShare} m (bLoc d)) ∗ (brLoc d ↦{fullShare} brOf (m (bLoc d)))) := by rw [heldR, VR_b, VR_br]
theorem heldC_after (d : Dev nD) : (held (T d) (opC (F := F)).bufs ((opC (F := F)).result (V0 m d)) : sProp 𝕄)
    = iprop(((SparseCore.T d).loc main_c ↦{fullShare} VC m d c')) := heldC d _
theorem heldU_before (d : Dev nD) : (held (T d) (opU (F := F)).bufs (VC m d) : sProp 𝕄)
    = iprop(((SparseCore.T d).loc main_c ↦{fullShare} VC m d c') ∗ ((SparseCore.T d).loc main_call0_v0 ↦{fullShare} m ((SparseCore.T d).loc main_call0_v0))) := by
  rw [heldU, VC_cv]
theorem heldU_after (d : Dev nD) : (held (T d) (opU (F := F)).bufs ((opU (F := F)).result (VC m d)) : sProp 𝕄)
    = iprop(((SparseCore.T d).loc main_c ↦{fullShare} VU m d c') ∗ ((SparseCore.T d).loc main_call0_v0 ↦{fullShare} VU m d cv')) := heldU d _
theorem heldP_before (d : Dev nD) : (held (T d) (opP (F := F)).bufs (VU m d) : sProp 𝕄)
    = iprop((srcLoc d ↦{fullShare} m (srcLoc d)) ∗ ((SparseCore.T d).loc main_call0_v0 ↦{fullShare} VU m d cv') ∗ (idxLoc d ↦{fullShare} m (idxLoc d))) := by
  rw [heldP, VU_src, VU_idx]
theorem heldP_after (d : Dev nD) : (held (T d) (opP (F := F)).bufs ((opP (F := F)).result (VU m d)) : sProp 𝕄)
    = iprop((srcLoc d ↦{fullShare} m (srcLoc d)) ∗ ((SparseCore.T d).loc main_call0_v0 ↦{fullShare} (opP (F := F)).result (VU m d) cv') ∗ (idxLoc d ↦{fullShare} idxOf (m (srcLoc d)))) := by
  rw [heldP, VP_src, VP_idx]

/-- the TensorCore's handshake state before the call, but for what it owes -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt0_eq (d : Dev nD) : ((K (F := F)).tcSt EH d 0 : sProp 𝕄) = iprop(owesTc d ∗ tcRest d) := by
  unfold SparseCore.Cfg.tcSt tcRest; rfl

/-- The call's operands, and its results, SparseCore by SparseCore. -/
theorem st0_eq (d : Dev nD) : (bigSep Finset.univ fun c : Fin ((K (F := F)).nCore 0) => (P m).st 0 d c) = iprop(stC m d 0 ∗ stC m d 1) := by
  show (bigSep (Finset.univ : Finset (Fin 2)) fun c => stC m d ((K (F := F)).core 0 c)) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c) = iprop(dnC m d 0 ∗ dnC m d 1) := by
  show (bigSep (Finset.univ : Finset (Fin 2)) fun c => dnC m d ((K (F := F)).core 0 c)) = _
  rw [show (Finset.univ : Finset (Fin 2)) = {0, 1} by decide, SparseCore.bigSep_insert' (by decide), bigSep_singleton]
  rfl

theorem two_nSC (Φ : Fin τ.nSC → sProp 𝕄) : bigSep Finset.univ Φ = iprop(Φ 0 ∗ Φ 1) := by
  show bigSep (Finset.univ : Finset (Fin 2)) Φ = _
  rw [show (Finset.univ : Finset (Fin 2)) = {0, 1} by decide, SparseCore.bigSep_insert' (by decide), bigSep_singleton]

/-- The table, the indices and the result split between the two SparseCores (the shares kept aside are dropped). -/
theorem mk_st (d : Dev nD) (tbl : Buf (Elt F) (tblLoc d)) (htbl : TableOK m d tbl) :
    iprop((tblLoc d ↦{fullShare} tbl) ∗ (idxLoc d ↦{fullShare} idxOf (m (srcLoc d))) ∗ (outLoc d ↦{fullShare} m (outLoc d)))
      ⊢ (iprop(stC m d 0 ∗ stC m d 1) : sProp 𝕄) := by
  rw [out_split, two_nSC]
  iintro ⟨Ht, Hi, ⟨Ho0, Ho1⟩⟩
  ihave Ht' := (Transfers.pointsTo_toks_split (ℓ := tblLoc d) (S := Finset.univ) (f := tbl) fullShare τ.nSC) $$ Ht
  ihave Hi' := (Transfers.pointsTo_toks_split (ℓ := idxLoc d) (S := Finset.univ) (f := idxOf (m (srcLoc d))) fullShare τ.nSC) $$ Hi
  rw [two_nSC, two_nSC]
  icases Ht' with ⟨-, Ht0, Ht1⟩
  icases Hi' with ⟨-, Hi0, Hi1⟩
  unfold stC
  isplitl [Ht0 Hi0 Ho0]
  · isplitl [Ht0]
    · iexists tbl; isplitr
      · ipureintro; exact htbl
      · iexact Ht0
    isplitl [Hi0]; · iexact Hi0
    iexact Ho0
  · isplitl [Ht1]
    · iexists tbl; isplitr
      · ipureintro; exact htbl
      · iexact Ht1
    isplitl [Hi1]; · iexact Hi1
    iexact Ho1

/-- The result's chunks joined. -/
theorem of_dn (d : Dev nD) : (iprop(dnC m d 0 ∗ dnC m d 1) : sProp 𝕄) ⊢ (outLoc d ↦{fullShare} outG m d) := by
  rw [out_split, two_nSC]
  unfold dnC
  iintro ⟨⟨-, -, Ho0⟩, ⟨-, -, Ho1⟩⟩
  isplitl [Ho0]; · iexact Ho0
  iexact Ho1

end Call

section HMain
variable [FloatOps F]
open Idealize.ShloMosaic.TcCoe
open Idealize.ShloMosaic.StableHlo (held wp_hlo_within)

/-- @main on device d's TensorCore: the bias as a row; the projection of the table (the TensorCore kernel region); the
    padded indices (a constant, a conversion, a pad); the SparseCore call from the table's and the indices' read shares
    and the result's chunks; the result joined. The four arguments are never touched. -/
theorem hmain (κ : GSem nD τ sig → ℕ) (d : Dev nD) (hpre : PreOK m) :
    iprop((K (F := F)).ctx EH (P m) κ ∗ (K (F := F)).tcSt EH d 0 ∗ (K (F := F)).tcRes m ρ d ∗ GP d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, fn_pad.body, wp_bind, wp_pure]
  iintro ⟨#Hctx, Hst, ⟨Hb, ⟨Hsrc, Hfm, Hw, Hbb, Hbr, Htbl, Hc, Hcv, Hidx, Hout⟩, -, -⟩, HGP⟩
  -- the bias as a row
  iapply (wp_hlo_within 𝒱 (T d) none Set.univ (op := opR) (S := (opR (F := F)).bufs) subset_rfl (V := V0 m d)) $$ [Hb Hbb Hbr]
  · isplitl [Hb]; · iexact Hb
    rw [heldR]
    isplitl [Hbb]; · iexact Hbb
    iexact Hbr
  iintro ⟨Hb, Hheld⟩
  ihave Hh := (Entails.of_eq (heldR_after m d)) $$ Hheld
  icases Hh with ⟨Hbb, Hbr⟩
  rw [wp_ret]; imodintro
  -- the table's projection: the TensorCore kernel region
  ihave Hst' := (Entails.of_eq (tcSt0_eq d)) $$ Hst
  icases Hst' with ⟨HO, Hrest⟩
  iapply (wp_region m d _)
  isplitr
  · iapply (SparseCore.Cfg.ctx_levAts (K := K (F := F)) (EH := EH) (P := P m) κ); iexact Hctx
  isplitl [Hb]; · iexact Hb
  isplitl [Hfm Hw Hbr Htbl HO]
  · unfold regPre
    isplitl [Hfm]; · iexact Hfm
    isplitl [Hw]; · iexact Hw
    isplitl [Hbr]; · iexact Hbr
    isplitl [Htbl]; · iexact Htbl
    iexact HO
  isplitl [HGP]; · iexact HGP
  iintro ⟨Hb, Hpost⟩
  unfold regPost
  icases Hpost with ⟨Hfm, Hw, Hbr, ⟨%tbl, %htbl, Htbl⟩, HO⟩
  -- the padded indices
  iapply (wp_hlo_within 𝒱 (T d) none Set.univ (op := opC) (S := (opC (F := F)).bufs) subset_rfl (V := V0 m d)) $$ [Hb Hc]
  · isplitl [Hb]; · iexact Hb
    rw [heldC]; iexact Hc
  iintro ⟨Hb, Hheld⟩
  ihave Hh := (Entails.of_eq (heldC_after m d)) $$ Hheld
  rw [wp_ret]; imodintro
  iapply (wp_hlo_within 𝒱 (T d) none Set.univ (op := opU) (S := (opU (F := F)).bufs) subset_rfl (V := VC m d)) $$ [Hb Hh Hcv]
  · isplitl [Hb]; · iexact Hb
    rw [heldU_before]
    isplitl [Hh]; · iexact Hh
    iexact Hcv
  iintro ⟨Hb, Hheld⟩
  ihave Hh := (Entails.of_eq (heldU_after m d)) $$ Hheld
  icases Hh with ⟨Hc, Hcv⟩
  rw [wp_ret]; imodintro
  iapply (wp_hlo_within 𝒱 (T d) none Set.univ (op := opP) (S := (opP (F := F)).bufs) subset_rfl (V := VU m d)) $$ [Hb Hsrc Hcv Hidx]
  · isplitl [Hb]; · iexact Hb
    rw [heldP_before]
    isplitl [Hsrc]; · iexact Hsrc
    isplitl [Hcv]; · iexact Hcv
    iexact Hidx
  iintro ⟨Hb, Hheld⟩
  ihave Hh := (Entails.of_eq (heldP_after m d)) $$ Hheld
  icases Hh with ⟨Hsrc, Hcv, Hidx⟩
  rw [wp_ret]; imodintro; imodintro
  -- the call
  iapply ((K (F := F)).wp_run (D (F := F)) 𝒱 (EH := EH) (P := P m) κ d 0) $$ [HO Hrest Htbl Hidx Hout Hsrc Hfm Hw Hbb]
  isplitr; · iexact Hctx
  isplitl [HO Hrest]
  · rw [show ((0 : Fin 1).val) = 0 from rfl, tcSt0_eq]
    isplitl [HO]; · iexact HO
    iexact Hrest
  isplitl [Htbl Hidx Hout]
  · rw [st0_eq]
    iapply (mk_st m d tbl htbl)
    isplitl [Htbl]; · iexact Htbl
    isplitl [Hidx]; · iexact Hidx
    iexact Hout
  iintro ⟨Hst, Hdn⟩
  ihave Hdn' := (Entails.of_eq (dn0_eq m d)) $$ Hdn
  ihave Ho := (of_dn m d) $$ Hdn'
  imodintro
  isplitl [Hst]; · iexact Hst
  unfold FIN
  isplitl [Hsrc]; · iexact Hsrc
  isplitl [Hfm]; · iexact Hfm
  isplitl [Hw]; · iexact Hw
  isplitl [Hbb]; · iexact Hbb
  iexact Ho

end HMain

end Cert.Proof.KI

end
-- ==== Proof.TileAll.lean ====
/-
  Every tile's obligation. The 32 tiles are workers 0 .. 31 (worker 2 s + c on subcore s of SparseCore c): workers 0 .. 30
  have all their 504 chunks and run the loop under the invariant of the full trips; worker 31 = (1, 15) has one chunk.
  With the region on the TensorCore, the launch element and @main's proof this is everything the launch theorem asks.
-/
import proofs.«203041_g70987219468541_cont_9to1_m_1244_31_alg».proof.Proof.Trip
import proofs.«203041_g70987219468541_cont_9to1_m_1244_31_alg».proof.Proof.TileMain
import proofs.«203041_g70987219468541_cont_9to1_m_1244_31_alg».proof.Proof.TileLast
import proofs.«203041_g70987219468541_cont_9to1_m_1244_31_alg».proof.Proof.TileLastAll
import proofs.«203041_g70987219468541_cont_9to1_m_1244_31_alg».proof.Proof.Region2
import proofs.«203041_g70987219468541_cont_9to1_m_1244_31_alg».proof.Proof.Launch
import Idealize.ShloMosaic.Lib.SparseCore.Stream

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

theorem hbody (hpre : PreOK m) (d : Dev nD) (c : Fin (grid1.bound 0)) (s : Fin (grid1.bound 1))
    (O : CellTallies nD τ sig (HIx 1)) (W : Waits sig (HIx 1)) (hO : ∀ g, O g none = 0)
    (hlev : ∀ g ι, 0 < O g ι → 8 * (0 : Fin 1).val + 6 ≤ (K (F := F)).lev g ι) : TileSpec m d c s O W := by
  by_cases hw : 2 * s.val + c.val ≤ 30
  · exact tile_main.{1, 1} m hpre d c s hw O W hO hlev (fun tblS htbl W₀ k => trip.{1, 1} m hpre d c s hw tblS htbl O W₀ k)
  · have hc : c.val < 2 := c.isLt
    have hs : s.val < 16 := s.isLt
    obtain rfl : c = c31 := Fin.ext (by show c.val = 1; omega)
    obtain rfl : s = s31 := Fin.ext (by show s.val = 15; omega)
    exact tile_last m hpre d O W hO hlev

/-- the TensorCore pipeline's part of the launch element funds its cells, as an update at the full mask -/
theorem gp_fund' : (BI.own (EP (F := F) (pInit (F := F))) : sProp 𝕄) ⊢ |={Set.univ}=> bigSep Finset.univ (GP (F := F)) :=
by
  iintro H
  imod (gp_fund (F := F)) $$ H with H'
  imodintro
  iexact H'

end Cert.Proof.KI

end
-- ==== Proof.KBTileSets.lean ====
/-
  The pieces a tile's transfers move, named once.
  The tile's index scratch (7168 words) is two halves of 3584 words (one stage of 28 chunks' indices each), each half 28
  lists of 128 indices; its row scratch is seven slots of 128 rows; the padded index array's part of worker w is 18
  stage blocks of 3584 words; the result's chunks are Pay.lean's `chunkSet`. Trip k of worker w works on chunks
  504 w + 7 k + b (b < 7), whose index lists are the lists 28 ((k / 4) % 2) + 7 (k % 4) + b of the scratch.
-/
import proofs.«203041_g70987219468541_cont_9to1_m_1244_31_alg».proof.Proof.KBTileDefs
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The index scratch: halves and lists -/

theorem pc_inb (p : Fin 56) : ∀ a, (![128 * p.val] : Fin 1 → Nat) a + S128.size a ≤ S7168.size a := by
  have := p.isLt
  intro a; fin_cases a; simp; omega
theorem half_inb (h : Fin 2) : ∀ a, (![3584 * h.val] : Fin 1 → Nat) a + S3584.size a ≤ S7168.size a := by
  have := h.isLt
  intro a; fin_cases a; simp; omega

/-- list p of the index scratch: words 128 p .. 128 p + 127 -/
abbrev pcM (p : Fin 56) : Memref sig .scVector .vmem S128 .i32 := (ixS).slice (Rect.unit (s := S7168) ![128 * p.val] S128.size (pc_inb p)) (fun _ => rfl)
abbrev pcSet (p : Fin 56) : Finset S7168.Idx := (pcM p).view.set
/-- half h of the index scratch: words 3584 h .. 3584 h + 3583 -/
abbrev halfM (h : Fin 2) : Memref sig .scVector .vmem S3584 .i32 := (ixS).slice (Rect.unit (s := S7168) ![3584 * h.val] S3584.size (half_inb h)) (fun _ => rfl)
abbrev halfSet (h : Fin 2) : Finset S7168.Idx := (halfM h).view.set

/-- the half stage j's indices land in -/
def halfOf (j : ℕ) : Fin 2 := ⟨j % 2, Nat.mod_lt _ (by decide)⟩
/-- the list of trip k's slot b -/
def listOf (k : Fin k1_t1_loop.trips) (b : Fin 7) : Fin 56 := ⟨28 * ((k.val / 4) % 2) + 7 * (k.val % 4) + b.val, by omega⟩

/-! ## The row scratch: seven slots -/

abbrev slotM0 : Memref sig .scVector .vmem S128x128 .f32 := (((rwS).slice (Rect.unit (s := S7x128x128) ![0, 0, 0] S1x128x128.size inb_S7x128x128_S1x128x128_0_0_0) (fun _ => rfl)).squeeze S128x128 squeezes_S1x128x128_S128x128)
abbrev slotM1 : Memref sig .scVector .vmem S128x128 .f32 := (((rwS).slice (Rect.unit (s := S7x128x128) ![1, 0, 0] S1x128x128.size inb_S7x128x128_S1x128x128_1_0_0) (fun _ => rfl)).squeeze S128x128 squeezes_S1x128x128_S128x128)
abbrev slotM2 : Memref sig .scVector .vmem S128x128 .f32 := (((rwS).slice (Rect.unit (s := S7x128x128) ![2, 0, 0] S1x128x128.size inb_S7x128x128_S1x128x128_2_0_0) (fun _ => rfl)).squeeze S128x128 squeezes_S1x128x128_S128x128)
abbrev slotM3 : Memref sig .scVector .vmem S128x128 .f32 := (((rwS).slice (Rect.unit (s := S7x128x128) ![3, 0, 0] S1x128x128.size inb_S7x128x128_S1x128x128_3_0_0) (fun _ => rfl)).squeeze S128x128 squeezes_S1x128x128_S128x128)
abbrev slotM4 : Memref sig .scVector .vmem S128x128 .f32 := (((rwS).slice (Rect.unit (s := S7x128x128) ![4, 0, 0] S1x128x128.size inb_S7x128x128_S1x128x128_4_0_0) (fun _ => rfl)).squeeze S128x128 squeezes_S1x128x128_S128x128)
abbrev slotM5 : Memref sig .scVector .vmem S128x128 .f32 := (((rwS).slice (Rect.unit (s := S7x128x128) ![5, 0, 0] S1x128x128.size inb_S7x128x128_S1x128x128_5_0_0) (fun _ => rfl)).squeeze S128x128 squeezes_S1x128x128_S128x128)
abbrev slotM6 : Memref sig .scVector .vmem S128x128 .f32 := (((rwS).slice (Rect.unit (s := S7x128x128) ![6, 0, 0] S1x128x128.size inb_S7x128x128_S1x128x128_6_0_0) (fun _ => rfl)).squeeze S128x128 squeezes_S1x128x128_S128x128)
abbrev slotM : Fin 7 → Memref sig .scVector .vmem S128x128 .f32 := ![slotM0, slotM1, slotM2, slotM3, slotM4, slotM5, slotM6]

/-! ## The padded index array: a worker's stage blocks -/

theorem st_inb (w : Fin 32) (j : Fin 18) : ∀ a, (![64512 * w.val + 3584 * j.val] : Fin 1 → Nat) a + S3584.size a ≤ S2064384.size a := by
  have := w.isLt; have := j.isLt
  intro a; fin_cases a; simp; omega
/-- stage j of worker w: words 64512 w + 3584 j .. + 3583 of the padded indices (the indices of its chunks 28 j .. 28 j + 27) -/
abbrev stM (w : Fin 32) (j : Fin 18) : Memref sig .scVector .hbm S3584 .i32 := (idxV).slice (Rect.unit (s := S2064384) ![64512 * w.val + 3584 * j.val] S3584.size (st_inb w j)) (fun _ => rfl)
abbrev stSet (w : Fin 32) (j : Fin 18) : Finset S2064384.Idx := (stM w j).view.set

/-- the worker number of tile (c, s), as a Fin 32 -/
def wOf (c : Fin (grid1.bound 0)) (s : Fin (grid1.bound 1)) : Fin 32 := ⟨2 * s.val + c.val, by have := c.isLt; have := s.isLt; simp [grid1, Pipeline.Grid.bound] at *; omega⟩

/-- chunk number of trip k, slot b, of worker w (when it exists) -/
def chunkOf (w : Fin 32) (k : Fin k1_t1_loop.trips) (b : Fin 7) (h : 504 * w.val + 7 * k.val + b.val < 15625) : Fin 15625 := ⟨504 * w.val + 7 * k.val + b.val, h⟩

end Cert.Proof.KB

end
-- ==== Proof.KBTileInv.lean ====
/-
  The invariant of a tile's loop of 72 trips, for a worker whose 504 chunks all exist (workers 0 .. 30).

  Before trip k the tile holds:
  * for its index prefetch: while k ≤ 68 one copy is in flight on its semaphore, bringing stage (k + 3) / 4 of the
    worker's indices into half ((k + 3) / 4) % 2 of the index scratch; the other half is held, and when k is not a
    multiple of 4 it holds stage k / 4 — the lists this trip's gathers read. From trip 69 on nothing is in flight and
    half 1 holds stage 17.
  * for each of the seven row slots: before trip 0 the slot and its copy-out semaphore at zero; later a copy-out in
    flight that will hand back chunk 7 (k - 1) + b of the worker at the result's values, and the slot.
  * the worker's chunks before trip k - 1 at the result's values, those from trip k on untouched;
  * seven read shares of the shared table (one per gather semaphore), the gather semaphores at zero, what it owes.
-/
import proofs.«203041_g70987219468541_cont_9to1_m_1244_31_alg».proof.Proof.KBTileSets
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Inv

variable (d : Dev nD) (c : Fin (grid1.bound 0)) (s : Fin (grid1.bound 1))

/-- the padded indices, as the launch memory determines them -/
abbrev idxc : Buf (Elt F) (idxLoc d) := idxOf (m (srcLoc d))
/-- the tile's read share of them -/
abbrev qI : PosShare TreeShare := tileShare (cT c) (sT s)

def stJ (j : ℕ) : Fin 18 := ⟨min j 17, by omega⟩
/-- the worker's n-th chunk, n = 7 k + b for trip k and slot b (clamped into range so as to be total; exact for workers 0 .. 30) -/
def chunkIxN (n : ℕ) : Fin 15625 := ⟨min (504 * (wOf c s).val + n) 15624, by omega⟩
/-- chunk number of the worker's trip k, slot b -/
abbrev chunkIx (k b : ℕ) : Fin 15625 := chunkIxN c s (7 * k + b)

/-- half h of the index scratch holds stage j of the worker's indices -/
def StageAt (h : Fin 2) (j : ℕ) (f : Buf (Elt F) ((ixS).view.loc (thr d c s))) : Prop :=
  (halfM h).view.read (Elt F) f = (stM (wOf c s) (stJ j)).view.read (Elt F) (idxc m d)

/-- a half of the index scratch held, holding stage j if `p` -/
def HalfHeld (h : Fin 2) (p : Prop) (j : ℕ) : sProp 𝕄 :=
  iprop(∃ f : Buf (Elt F) ((ixS).view.loc (thr d c s)), ⌜p → StageAt m d c s h j f⌝ ∗ (halfM h).view.loc (thr d c s) ↦[halfSet h]{fullShare} f)

/-- the prefetch of stage j in flight: its wait hands back half j % 2 holding the stage, and the stage's block of the indices -/
def PrefFlight (j : ℕ) : sProp 𝕄 :=
  iprop(Transfers.Flight (countersEmb (U := UU)) (thr d c s) (SemLoc.dma cc1_scratch3.sem) (none : HIx 1) 114688
      iprop(HalfHeld m d c s (halfOf j) True j ∗ (stM (wOf c s) (stJ j)).view.loc (thr d c s) ↦[stSet (wOf c s) (stJ j)]{qI c s} idxc m d)
    ∗ (idxV).view.loc (thr d c s) ↦[Finset.univ \ stSet (wOf c s) (stJ j)]{qI c s} idxc m d)

/-- the index prefetch's state before trip k -/
def IdxSt (k : ℕ) : sProp 𝕄 :=
  if k ≤ 68 then iprop(PrefFlight m d c s ((k + 3) / 4) ∗ HalfHeld m d c s (halfOf ((k + 3) / 4 + 1)) (k % 4 ≠ 0) (k / 4))
  else iprop(semVal (thr d c s, SemLoc.dma cc1_scratch3.sem) 0 ∗ ((idxV).view.loc (thr d c s) ↦{qI c s} idxc m d)
    ∗ HalfHeld m d c s (halfOf 17) True 17 ∗ HalfHeld m d c s (halfOf 18) False 0)

/-- slot 0 before trip k -/
def Slot0 (k : ℕ) : sProp 𝕄 :=
  if k = 0 then iprop(semVal (thr d c s, SemLoc.dma cc1_scratch11.sem) 0 ∗ ∃ f : Buf (Elt F) ((rwS).view.loc (thr d c s)), (slotM0).view.loc (thr d c s) ↦[(slotM0).view.set]{fullShare} f)
  else iprop(∃ fR : Buf (Elt F) ((rwS).view.loc (thr d c s)), Transfers.Flight (countersEmb (U := UU)) (thr d c s) (SemLoc.dma cc1_scratch11.sem) (none : HIx 1) 524288
    iprop((outLoc d ↦[chunkSet (chunkIx c s (k - 1) 0)]{fullShare} outG m d) ∗ (slotM0).view.loc (thr d c s) ↦[(slotM0).view.set]{fullShare} fR))
/-- slot 1 before trip k -/
def Slot1 (k : ℕ) : sProp 𝕄 :=
  if k = 0 then iprop(semVal (thr d c s, SemLoc.dma cc1_scratch12.sem) 0 ∗ ∃ f : Buf (Elt F) ((rwS).view.loc (thr d c s)), (slotM1).view.loc (thr d c s) ↦[(slotM1).view.set]{fullShare} f)
  else iprop(∃ fR : Buf (Elt F) ((rwS).view.loc (thr d c s)), Transfers.Flight (countersEmb (U := UU)) (thr d c s) (SemLoc.dma cc1_scratch12.sem) (none : HIx 1) 524288
    iprop((outLoc d ↦[chunkSet (chunkIx c s (k - 1) 1)]{fullShare} outG m d) ∗ (slotM1).view.loc (thr d c s) ↦[(slotM1).view.set]{fullShare} fR))
/-- slot 2 before trip k -/
def Slot2 (k : ℕ) : sProp 𝕄 :=
  if k = 0 then iprop(semVal (thr d c s, SemLoc.dma cc1_scratch13.sem) 0 ∗ ∃ f : Buf (Elt F) ((rwS).view.loc (thr d c s)), (slotM2).view.loc (thr d c s) ↦[(slotM2).view.set]{fullShare} f)
  else iprop(∃ fR : Buf (Elt F) ((rwS).view.loc (thr d c s)), Transfers.Flight (countersEmb (U := UU)) (thr d c s) (SemLoc.dma cc1_scratch13.sem) (none : HIx 1) 524288
    iprop((outLoc d ↦[chunkSet (chunkIx c s (k - 1) 2)]{fullShare} outG m d) ∗ (slotM2).view.loc (thr d c s) ↦[(slotM2).view.set]{fullShare} fR))
/-- slot 3 before trip k -/
def Slot3 (k : ℕ) : sProp 𝕄 :=
  if k = 0 then iprop(semVal (thr d c s, SemLoc.dma cc1_scratch14.sem) 0 ∗ ∃ f : Buf (Elt F) ((rwS).view.loc (thr d c s)), (slotM3).view.loc (thr d c s) ↦[(slotM3).view.set]{fullShare} f)
  else iprop(∃ fR : Buf (Elt F) ((rwS).view.loc (thr d c s)), Transfers.Flight (countersEmb (U := UU)) (thr d c s) (SemLoc.dma cc1_scratch14.sem) (none : HIx 1) 524288
    iprop((outLoc d ↦[chunkSet (chunkIx c s (k - 1) 3)]{fullShare} outG m d) ∗ (slotM3).view.loc (thr d c s) ↦[(slotM3).view.set]{fullShare} fR))
/-- slot 4 before trip k -/
def Slot4 (k : ℕ) : sProp 𝕄 :=
  if k = 0 then iprop(semVal (thr d c s, SemLoc.dma cc1_scratch15.sem) 0 ∗ ∃ f : Buf (Elt F) ((rwS).view.loc (thr d c s)), (slotM4).view.loc (thr d c s) ↦[(slotM4).view.set]{fullShare} f)
  else iprop(∃ fR : Buf (Elt F) ((rwS).view.loc (thr d c s)), Transfers.Flight (countersEmb (U := UU)) (thr d c s) (SemLoc.dma cc1_scratch15.sem) (none : HIx 1) 524288
    iprop((outLoc d ↦[chunkSet (chunkIx c s (k - 1) 4)]{fullShare} outG m d) ∗ (slotM4).view.loc (thr d c s) ↦[(slotM4).view.set]{fullShare} fR))
/-- slot 5 before trip k -/
def Slot5 (k : ℕ) : sProp 𝕄 :=
  if k = 0 then iprop(semVal (thr d c s, SemLoc.dma cc1_scratch16.sem) 0 ∗ ∃ f : Buf (Elt F) ((rwS).view.loc (thr d c s)), (slotM5).view.loc (thr d c s) ↦[(slotM5).view.set]{fullShare} f)
  else iprop(∃ fR : Buf (Elt F) ((rwS).view.loc (thr d c s)), Transfers.Flight (countersEmb (U := UU)) (thr d c s) (SemLoc.dma cc1_scratch16.sem) (none : HIx 1) 524288
    iprop((outLoc d ↦[chunkSet (chunkIx c s (k - 1) 5)]{fullShare} outG m d) ∗ (slotM5).view.loc (thr d c s) ↦[(slotM5).view.set]{fullShare} fR))
/-- slot 6 before trip k -/
def Slot6 (k : ℕ) : sProp 𝕄 :=
  if k = 0 then iprop(semVal (thr d c s, SemLoc.dma cc1_scratch17.sem) 0 ∗ ∃ f : Buf (Elt F) ((rwS).view.loc (thr d c s)), (slotM6).view.loc (thr d c s) ↦[(slotM6).view.set]{fullShare} f)
  else iprop(∃ fR : Buf (Elt F) ((rwS).view.loc (thr d c s)), Transfers.Flight (countersEmb (U := UU)) (thr d c s) (SemLoc.dma cc1_scratch17.sem) (none : HIx 1) 524288
    iprop((outLoc d ↦[chunkSet (chunkIx c s (k - 1) 6)]{fullShare} outG m d) ∗ (slotM6).view.loc (thr d c s) ↦[(slotM6).view.set]{fullShare} fR))

/-- the seven slots -/
def Slots (k : ℕ) : sProp 𝕄 :=
  iprop(Slot0 m d c s k ∗ Slot1 m d c s k ∗ Slot2 m d c s k ∗ Slot3 m d c s k ∗ Slot4 m d c s k ∗ Slot5 m d c s k ∗ Slot6 m d c s k)

/-- the worker's chunks of the trips before k - 1, at the result's values -/
def Done (k : ℕ) : sProp 𝕄 := bigSep (Finset.range (7 * (k - 1))) fun n => outChunk d (chunkIxN c s n) (outG m d)
/-- the worker's chunks of the trips from k on, untouched -/
def Todo (k : ℕ) : sProp 𝕄 := bigSep (Finset.Ico (7 * k) 504) fun n => outChunk d (chunkIxN c s n) (m (outLoc d))
/-- the worker's chunks not in flight -/
def ChunksSt (k : ℕ) : sProp 𝕄 := iprop(Done m d c s k ∗ Todo m d c s k)

/-- the seven read shares of the shared table, one per gather semaphore, and those semaphores at zero -/
def Toks (tblS : Buf (Elt F) ((shS).view.loc (thr d c s))) : sProp 𝕄 :=
  iprop(((shS).view.loc (thr d c s) ↦{Transfers.shareTokN (shShare (sT s)) 5} tblS) ∗ ((shS).view.loc (thr d c s) ↦{Transfers.shareTokN (shShare (sT s)) 6} tblS) ∗ ((shS).view.loc (thr d c s) ↦{Transfers.shareTokN (shShare (sT s)) 7} tblS) ∗ ((shS).view.loc (thr d c s) ↦{Transfers.shareTokN (shShare (sT s)) 8} tblS) ∗ ((shS).view.loc (thr d c s) ↦{Transfers.shareTokN (shShare (sT s)) 9} tblS) ∗ ((shS).view.loc (thr d c s) ↦{Transfers.shareTokN (shShare (sT s)) 10} tblS) ∗ ((shS).view.loc (thr d c s) ↦{Transfers.shareTokN (shShare (sT s)) 11} tblS))
def GSems : sProp 𝕄 :=
  iprop(semVal (thr d c s, SemLoc.dma cc1_scratch4.sem) 0 ∗ semVal (thr d c s, SemLoc.dma cc1_scratch5.sem) 0 ∗ semVal (thr d c s, SemLoc.dma cc1_scratch6.sem) 0 ∗ semVal (thr d c s, SemLoc.dma cc1_scratch7.sem) 0 ∗ semVal (thr d c s, SemLoc.dma cc1_scratch8.sem) 0 ∗ semVal (thr d c s, SemLoc.dma cc1_scratch9.sem) 0 ∗ semVal (thr d c s, SemLoc.dma cc1_scratch10.sem) 0)

/-- what the tile owes, its recorded waits grown by waits at its own index or the call's -/
def Owes (O : CellTallies nD τ sig (HIx 1)) (W : Waits sig (HIx 1)) : sProp 𝕄 :=
  iprop(∃ W', ⌜∀ p ∈ W', p ∈ W ∨ p.2 = none ∨ p.2 = some 0⌝ ∗ owes (thr d c s) O W')

/-- The loop's invariant before trip k. -/
def Inv (tblS : Buf (Elt F) ((shS).view.loc (thr d c s))) (O : CellTallies nD τ sig (HIx 1)) (W : Waits sig (HIx 1)) (k : ℕ) (_ : PUnit) : sProp 𝕄 :=
  iprop(Transfers.MayWaits (thr d c s) (none : HIx 1) O ∗ IdxSt m d c s k ∗ Slots m d c s k ∗ ChunksSt m d c s k
    ∗ Toks d c s tblS ∗ GSems d c s ∗ Owes d c s O W)

end Inv

end Cert.Proof.KB

end
-- ==== Proof.KBTileSetLemmas.lean ====
/-
  The pieces a tile's transfers move, under the names the program gives their memrefs: each slice the program takes of
  the index scratch, the row scratch, the result and the padded index array is one of the named pieces, because its offset
  (in closed form) is the piece's.
-/
import proofs.«203041_g70987219468541_cont_9to1_m_1244_31_alg».proof.Proof.KBTileSets
import proofs.«203041_g70987219468541_cont_9to1_m_1244_31_alg».proof.Proof.KBChunks

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Rectangles at equal offsets -/

/-- Two unit-stride rectangles of the same sizes at equal offsets are the same rectangle. -/
theorem unit_congr {s : Shape} {off off' size : Fin s.rank → Nat} {inb : ∀ a, off a + size a ≤ s.size a}
    {inb' : ∀ a, off' a + size a ≤ s.size a} (h : off = off') :
    Rect.unit (s := s) off size inb = Rect.unit (s := s) off' size inb' := by subst h; rfl

section Tile

variable (d : Dev nD) (c : Fin (grid1.bound 0)) (s : Fin (grid1.bound 1))

/-! ## The result's chunks: rows 128 (504 w + 7 k + b) .. + 127 -/

/-- The rectangle at rows 129024 s + 64512 c + 896 k + 128 b is chunk 504 (2 s + c) + 7 k + b. -/
theorem chunk_unit (k : Fin k1_t1_loop.trips) (b : Fin 7) (h : 504 * (wOf c s).val + 7 * k.val + b.val < 15625)
    (off : Fin 2 → Nat) (inb : ∀ a, off a + S128x128.size a ≤ S2000000x128.size a)
    (e : off = ![129024 * s.val + 64512 * c.val + 896 * k.val + 128 * b.val, 0]) :
    Rect.unit (s := S2000000x128) off S128x128.size inb = chunkRect (chunkOf (wOf c s) k b h) := by
  refine unit_congr ?_
  rw [e]
  funext a
  fin_cases a
  · simp [chunkOf, wOf]; omega
  · rfl

theorem pts_chunk_gen (k : Fin k1_t1_loop.trips) (b : Fin 7) (h : 504 * (wOf c s).val + 7 * k.val + b.val < 15625)
    (off : Fin 2 → Nat) (inb : ∀ a, off a + S128x128.size a ≤ S2000000x128.size a)
    (e : off = ![129024 * s.val + 64512 * c.val + 896 * k.val + 128 * b.val, 0])
    (q : PosShare TreeShare) (f : Buf (Elt F) (outLoc d)) :
    (((outW).slice (Rect.unit (s := S2000000x128) off S128x128.size inb) (fun _ => rfl)).view.loc (thr d c s)
        ↦[((outW).slice (Rect.unit (s := S2000000x128) off S128x128.size inb) (fun _ => rfl)).view.set]{q} f : sProp 𝕄)
      = (outLoc d ↦[chunkSet (chunkOf (wOf c s) k b h)]{q} f) := by
  show (outLoc d ↦[((outV).view.slice (Rect.unit (s := S2000000x128) off S128x128.size inb)).set]{q} f : sProp 𝕄) = _
  rw [chunk_unit c s k b h off inb e]

theorem pts_chunk0 (k : Fin k1_t1_loop.trips) (hc : k1_cond18 (coordsV c s) k = 1#1) (h : 504 * (wOf c s).val + 7 * k.val + 0 < 15625)
    (q : PosShare TreeShare) (f : Buf (Elt F) (outLoc d)) :
    (((outW).slice (Rect.unit (s := S2000000x128) (k1_off12 (coordsV c s) k) S128x128.size (k1_off12_inb (coordsV c s) k hc)) (fun _ => rfl)).view.loc (thr d c s)
        ↦[((outW).slice (Rect.unit (s := S2000000x128) (k1_off12 (coordsV c s) k) S128x128.size (k1_off12_inb (coordsV c s) k hc)) (fun _ => rfl)).view.set]{q} f : sProp 𝕄)
      = (outLoc d ↦[chunkSet (chunkOf (wOf c s) k ⟨0, of_decide_eq_true rfl⟩ h)]{q} f) :=
  pts_chunk_gen d c s k ⟨0, of_decide_eq_true rfl⟩ h _ _ (k1_off12_eq _ _) q f

theorem pts_chunk1 (k : Fin k1_t1_loop.trips) (hc : k1_cond19 (coordsV c s) k = 1#1) (h : 504 * (wOf c s).val + 7 * k.val + 1 < 15625)
    (q : PosShare TreeShare) (f : Buf (Elt F) (outLoc d)) :
    (((outW).slice (Rect.unit (s := S2000000x128) (k1_off14 (coordsV c s) k) S128x128.size (k1_off14_inb (coordsV c s) k hc)) (fun _ => rfl)).view.loc (thr d c s)
        ↦[((outW).slice (Rect.unit (s := S2000000x128) (k1_off14 (coordsV c s) k) S128x128.size (k1_off14_inb (coordsV c s) k hc)) (fun _ => rfl)).view.set]{q} f : sProp 𝕄)
      = (outLoc d ↦[chunkSet (chunkOf (wOf c s) k ⟨1, of_decide_eq_true rfl⟩ h)]{q} f) :=
  pts_chunk_gen d c s k ⟨1, of_decide_eq_true rfl⟩ h _ _ (k1_off14_eq _ _) q f

theorem pts_chunk2 (k : Fin k1_t1_loop.trips) (hc : k1_cond20 (coordsV c s) k = 1#1) (h : 504 * (wOf c s).val + 7 * k.val + 2 < 15625)
    (q : PosShare TreeShare) (f : Buf (Elt F) (outLoc d)) :
    (((outW).slice (Rect.unit (s := S2000000x128) (k1_off16 (coordsV c s) k) S128x128.size (k1_off16_inb (coordsV c s) k hc)) (fun _ => rfl)).view.loc (thr d c s)
        ↦[((outW).slice (Rect.unit (s := S2000000x128) (k1_off16 (coordsV c s) k) S128x128.size (k1_off16_inb (coordsV c s) k hc)) (fun _ => rfl)).view.set]{q} f : sProp 𝕄)
      = (outLoc d ↦[chunkSet (chunkOf (wOf c s) k ⟨2, of_decide_eq_true rfl⟩ h)]{q} f) :=
  pts_chunk_gen d c s k ⟨2, of_decide_eq_true rfl⟩ h _ _ (k1_off16_eq _ _) q f

theorem pts_chunk3 (k : Fin k1_t1_loop.trips) (hc : k1_cond21 (coordsV c s) k = 1#1) (h : 504 * (wOf c s).val + 7 * k.val + 3 < 15625)
    (q : PosShare TreeShare) (f : Buf (Elt F) (outLoc d)) :
    (((outW).slice (Rect.unit (s := S2000000x128) (k1_off18 (coordsV c s) k) S128x128.size (k1_off18_inb (coordsV c s) k hc)) (fun _ => rfl)).view.loc (thr d c s)
        ↦[((outW).slice (Rect.unit (s := S2000000x128) (k1_off18 (coordsV c s) k) S128x128.size (k1_off18_inb (coordsV c s) k hc)) (fun _ => rfl)).view.set]{q} f : sProp 𝕄)
      = (outLoc d ↦[chunkSet (chunkOf (wOf c s) k ⟨3, of_decide_eq_true rfl⟩ h)]{q} f) :=
  pts_chunk_gen d c s k ⟨3, of_decide_eq_true rfl⟩ h _ _ (k1_off18_eq _ _) q f

theorem pts_chunk4 (k : Fin k1_t1_loop.trips) (hc : k1_cond22 (coordsV c s) k = 1#1) (h : 504 * (wOf c s).val + 7 * k.val + 4 < 15625)
    (q : PosShare TreeShare) (f : Buf (Elt F) (outLoc d)) :
    (((outW).slice (Rect.unit (s := S2000000x128) (k1_off20 (coordsV c s) k) S128x128.size (k1_off20_inb (coordsV c s) k hc)) (fun _ => rfl)).view.loc (thr d c s)
        ↦[((outW).slice (Rect.unit (s := S2000000x128) (k1_off20 (coordsV c s) k) S128x128.size (k1_off20_inb (coordsV c s) k hc)) (fun _ => rfl)).view.set]{q} f : sProp 𝕄)
      = (outLoc d ↦[chunkSet (chunkOf (wOf c s) k ⟨4, of_decide_eq_true rfl⟩ h)]{q} f) :=
  pts_chunk_gen d c s k ⟨4, of_decide_eq_true rfl⟩ h _ _ (k1_off20_eq _ _) q f

theorem pts_chunk5 (k : Fin k1_t1_loop.trips) (hc : k1_cond23 (coordsV c s) k = 1#1) (h : 504 * (wOf c s).val + 7 * k.val + 5 < 15625)
    (q : PosShare TreeShare) (f : Buf (Elt F) (outLoc d)) :
    (((outW).slice (Rect.unit (s := S2000000x128) (k1_off22 (coordsV c s) k) S128x128.size (k1_off22_inb (coordsV c s) k hc)) (fun _ => rfl)).view.loc (thr d c s)
        ↦[((outW).slice (Rect.unit (s := S2000000x128) (k1_off22 (coordsV c s) k) S128x128.size (k1_off22_inb (coordsV c s) k hc)) (fun _ => rfl)).view.set]{q} f : sProp 𝕄)
      = (outLoc d ↦[chunkSet (chunkOf (wOf c s) k ⟨5, of_decide_eq_true rfl⟩ h)]{q} f) :=
  pts_chunk_gen d c s k ⟨5, of_decide_eq_true rfl⟩ h _ _ (k1_off22_eq _ _) q f

theorem pts_chunk6 (k : Fin k1_t1_loop.trips) (hc : k1_cond24 (coordsV c s) k = 1#1) (h : 504 * (wOf c s).val + 7 * k.val + 6 < 15625)
    (q : PosShare TreeShare) (f : Buf (Elt F) (outLoc d)) :
    (((outW).slice (Rect.unit (s := S2000000x128) (k1_off24 (coordsV c s) k) S128x128.size (k1_off24_inb (coordsV c s) k hc)) (fun _ => rfl)).view.loc (thr d c s)
        ↦[((outW).slice (Rect.unit (s := S2000000x128) (k1_off24 (coordsV c s) k) S128x128.size (k1_off24_inb (coordsV c s) k hc)) (fun _ => rfl)).view.set]{q} f : sProp 𝕄)
      = (outLoc d ↦[chunkSet (chunkOf (wOf c s) k ⟨6, of_decide_eq_true rfl⟩ h)]{q} f) :=
  pts_chunk_gen d c s k ⟨6, of_decide_eq_true rfl⟩ h _ _ (k1_off24_eq _ _) q f

/-! ## The index scratch's lists: words 128 p .. 128 p + 127, p = 28 ((k / 4) % 2) + 7 (k % 4) + b -/

/-- The rectangle at word 3584 ((k / 4) % 2) + 896 (k % 4) + 128 b is list 28 ((k / 4) % 2) + 7 (k % 4) + b. -/
theorem list_unit (k : Fin k1_t1_loop.trips) (b : Fin 7)
    (off : Fin 1 → Nat) (inb : ∀ a, off a + S128.size a ≤ S7168.size a)
    (e : off = ![3584 * ((k.val / 4) % 2) + 896 * (k.val % 4) + 128 * b.val]) :
    Rect.unit (s := S7168) off S128.size inb = Rect.unit (s := S7168) ![128 * (listOf k b).val] S128.size (pc_inb (listOf k b)) := by
  refine unit_congr ?_
  rw [e]
  funext a
  fin_cases a
  simp [listOf]; omega

theorem pts_list_gen (k : Fin k1_t1_loop.trips) (b : Fin 7)
    (off : Fin 1 → Nat) (inb : ∀ a, off a + S128.size a ≤ S7168.size a)
    (e : off = ![3584 * ((k.val / 4) % 2) + 896 * (k.val % 4) + 128 * b.val])
    (q : PosShare TreeShare) (f : Buf (Elt F) ((ixS).view.loc (thr d c s))) :
    (((ixS).slice (Rect.unit (s := S7168) off S128.size inb) (fun _ => rfl)).view.loc (thr d c s)
        ↦[((ixS).slice (Rect.unit (s := S7168) off S128.size inb) (fun _ => rfl)).view.set]{q} f : sProp 𝕄)
      = ((pcM (listOf k b)).view.loc (thr d c s) ↦[pcSet (listOf k b)]{q} f) := by
  show ((ixS).view.loc (thr d c s) ↦[((ixS).view.slice (Rect.unit (s := S7168) off S128.size inb)).set]{q} f : sProp 𝕄) = _
  rw [list_unit k b off inb e]

theorem pts_list0 (k : Fin k1_t1_loop.trips) (hc : k1_cond5 (coordsV c s) k = 1#1)
    (q : PosShare TreeShare) (f : Buf (Elt F) ((ixS).view.loc (thr d c s))) :
    (((ixS).slice (Rect.unit (s := S7168) (k1_off4 k) S128.size (k1_off4_inb (coordsV c s) k hc)) (fun _ => rfl)).view.loc (thr d c s)
        ↦[((ixS).slice (Rect.unit (s := S7168) (k1_off4 k) S128.size (k1_off4_inb (coordsV c s) k hc)) (fun _ => rfl)).view.set]{q} f : sProp 𝕄)
      = ((pcM (listOf k ⟨0, of_decide_eq_true rfl⟩)).view.loc (thr d c s) ↦[pcSet (listOf k ⟨0, of_decide_eq_true rfl⟩)]{q} f) :=
  pts_list_gen d c s k ⟨0, of_decide_eq_true rfl⟩ _ _ (k1_off4_eq _) q f

theorem pts_list1 (k : Fin k1_t1_loop.trips) (hc : k1_cond7 (coordsV c s) k = 1#1)
    (q : PosShare TreeShare) (f : Buf (Elt F) ((ixS).view.loc (thr d c s))) :
    (((ixS).slice (Rect.unit (s := S7168) (k1_off5 k) S128.size (k1_off5_inb (coordsV c s) k hc)) (fun _ => rfl)).view.loc (thr d c s)
        ↦[((ixS).slice (Rect.unit (s := S7168) (k1_off5 k) S128.size (k1_off5_inb (coordsV c s) k hc)) (fun _ => rfl)).view.set]{q} f : sProp 𝕄)
      = ((pcM (listOf k ⟨1, of_decide_eq_true rfl⟩)).view.loc (thr d c s) ↦[pcSet (listOf k ⟨1, of_decide_eq_true rfl⟩)]{q} f) :=
  pts_list_gen d c s k ⟨1, of_decide_eq_true rfl⟩ _ _ (k1_off5_eq _) q f

theorem pts_list2 (k : Fin k1_t1_loop.trips) (hc : k1_cond9 (coordsV c s) k = 1#1)
    (q : PosShare TreeShare) (f : Buf (Elt F) ((ixS).view.loc (thr d c s))) :
    (((ixS).slice (Rect.unit (s := S7168) (k1_off6 k) S128.size (k1_off6_inb (coordsV c s) k hc)) (fun _ => rfl)).view.loc (thr d c s)
        ↦[((ixS).slice (Rect.unit (s := S7168) (k1_off6 k) S128.size (k1_off6_inb (coordsV c s) k hc)) (fun _ => rfl)).view.set]{q} f : sProp 𝕄)
      = ((pcM (listOf k ⟨2, of_decide_eq_true rfl⟩)).view.loc (thr d c s) ↦[pcSet (listOf k ⟨2, of_decide_eq_true rfl⟩)]{q} f) :=
  pts_list_gen d c s k ⟨2, of_decide_eq_true rfl⟩ _ _ (k1_off6_eq _) q f

theorem pts_list3 (k : Fin k1_t1_loop.trips) (hc : k1_cond11 (coordsV c s) k = 1#1)
    (q : PosShare TreeShare) (f : Buf (Elt F) ((ixS).view.loc (thr d c s))) :
    (((ixS).slice (Rect.unit (s := S7168) (k1_off7 k) S128.size (k1_off7_inb (coordsV c s) k hc)) (fun _ => rfl)).view.loc (thr d c s)
        ↦[((ixS).slice (Rect.unit (s := S7168) (k1_off7 k) S128.size (k1_off7_inb (coordsV c s) k hc)) (fun _ => rfl)).view.set]{q} f : sProp 𝕄)
      = ((pcM (listOf k ⟨3, of_decide_eq_true rfl⟩)).view.loc (thr d c s) ↦[pcSet (listOf k ⟨3, of_decide_eq_true rfl⟩)]{q} f) :=
  pts_list_gen d c s k ⟨3, of_decide_eq_true rfl⟩ _ _ (k1_off7_eq _) q f

theorem pts_list4 (k : Fin k1_t1_loop.trips) (hc : k1_cond13 (coordsV c s) k = 1#1)
    (q : PosShare TreeShare) (f : Buf (Elt F) ((ixS).view.loc (thr d c s))) :
    (((ixS).slice (Rect.unit (s := S7168) (k1_off8 k) S128.size (k1_off8_inb (coordsV c s) k hc)) (fun _ => rfl)).view.loc (thr d c s)
        ↦[((ixS).slice (Rect.unit (s := S7168) (k1_off8 k) S128.size (k1_off8_inb (coordsV c s) k hc)) (fun _ => rfl)).view.set]{q} f : sProp 𝕄)
      = ((pcM (listOf k ⟨4, of_decide_eq_true rfl⟩)).view.loc (thr d c s) ↦[pcSet (listOf k ⟨4, of_decide_eq_true rfl⟩)]{q} f) :=
  pts_list_gen d c s k ⟨4, of_decide_eq_true rfl⟩ _ _ (k1_off8_eq _) q f

theorem pts_list5 (k : Fin k1_t1_loop.trips) (hc : k1_cond15 (coordsV c s) k = 1#1)
    (q : PosShare TreeShare) (f : Buf (Elt F) ((ixS).view.loc (thr d c s))) :
    (((ixS).slice (Rect.unit (s := S7168) (k1_off9 k) S128.size (k1_off9_inb (coordsV c s) k hc)) (fun _ => rfl)).view.loc (thr d c s)
        ↦[((ixS).slice (Rect.unit (s := S7168) (k1_off9 k) S128.size (k1_off9_inb (coordsV c s) k hc)) (fun _ => rfl)).view.set]{q} f : sProp 𝕄)
      = ((pcM (listOf k ⟨5, of_decide_eq_true rfl⟩)).view.loc (thr d c s) ↦[pcSet (listOf k ⟨5, of_decide_eq_true rfl⟩)]{q} f) :=
  pts_list_gen d c s k ⟨5, of_decide_eq_true rfl⟩ _ _ (k1_off9_eq _) q f

theorem pts_list6 (k : Fin k1_t1_loop.trips) (hc : k1_cond17 (coordsV c s) k = 1#1)
    (q : PosShare TreeShare) (f : Buf (Elt F) ((ixS).view.loc (thr d c s))) :
    (((ixS).slice (Rect.unit (s := S7168) (k1_off10 k) S128.size (k1_off10_inb (coordsV c s) k hc)) (fun _ => rfl)).view.loc (thr d c s)
        ↦[((ixS).slice (Rect.unit (s := S7168) (k1_off10 k) S128.size (k1_off10_inb (coordsV c s) k hc)) (fun _ => rfl)).view.set]{q} f : sProp 𝕄)
      = ((pcM (listOf k ⟨6, of_decide_eq_true rfl⟩)).view.loc (thr d c s) ↦[pcSet (listOf k ⟨6, of_decide_eq_true rfl⟩)]{q} f) :=
  pts_list_gen d c s k ⟨6, of_decide_eq_true rfl⟩ _ _ (k1_off10_eq _) q f

end Tile

end Cert.Proof.KB

end
-- ==== Proof.KBTileSetLemmas2.lean ====
/-
  The index scratch is its two halves, a half is the seven lists of a trip and the rest; the row scratch is its seven
  slots. The sets are unit-stride rectangles of one axis, compared by their first and last coordinates.
-/
import proofs.«203041_g70987219468541_cont_9to1_m_1244_31_alg».proof.Proof.KBTileSetLemmas

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Two unit-stride rectangles at equal offsets and equal sizes are the same rectangle. -/
theorem unit_congr2 {s : Shape} {off off' size size' : Fin s.rank → Nat} {inb : ∀ a, off a + size a ≤ s.size a}
    {inb' : ∀ a, off' a + size' a ≤ s.size a} (h : off = off') (h' : size = size') :
    Rect.unit (s := s) off size inb = Rect.unit (s := s) off' size' inb' := by subst h; subst h'; rfl

/-! ## The index scratch: its two halves, a half's lists -/

theorem pcSet_eq (p : Fin 56) : pcSet p = (Rect.unit (s := S7168) ![128 * p.val] S128.size (pc_inb p)).set :=
  View.set_slice_whole cc1_scratch0 _
theorem halfSet_eq (h : Fin 2) : halfSet h = (Rect.unit (s := S7168) ![3584 * h.val] S3584.size (half_inb h)).set :=
  View.set_slice_whole cc1_scratch0 _

theorem half_disjoint : Disjoint (halfSet 0) (halfSet 1) := by
  rw [halfSet_eq, halfSet_eq]
  exact Rect.unit_disjoint 0 (Or.inl (by simp))

theorem half_union : halfSet 0 ∪ halfSet 1 = Finset.univ := by
  ext i
  simp only [halfSet_eq, Finset.mem_union, Rect.mem_set_unit, Finset.mem_univ, iff_true]
  have hi : (i 0).val < 7168 := (i 0).isLt
  by_cases h : (i 0).val < 3584
  · exact Or.inl (Fin.forall_fin_one.mpr (by simp; omega))
  · exact Or.inr (Fin.forall_fin_one.mpr (by simp; omega))

/-- lists at different places are apart -/
theorem pcSet_disjoint {p p' : Fin 56} (h : p ≠ p') : Disjoint (pcSet p) (pcSet p') := by
  rw [pcSet_eq, pcSet_eq]
  have hv : p.val ≠ p'.val := fun e => h (Fin.ext e)
  refine Rect.unit_disjoint 0 ?_
  simp
  omega

/-- list p lies in half p / 28 -/
theorem pcSet_subset_half {p : Fin 56} {h : Fin 2} (e : p.val / 28 = h.val) : pcSet p ⊆ halfSet h := by
  intro i
  rw [pcSet_eq, halfSet_eq, Rect.mem_set_unit, Rect.mem_set_unit]
  intro hi
  have h0 := hi 0
  refine Fin.forall_fin_one.mpr ?_
  simp at h0 ⊢
  omega

section Tile

variable (d : Dev nD) (c : Fin (grid1.bound 0)) (s : Fin (grid1.bound 1))

/-- The index scratch is its two halves. -/
theorem ix_split (f : Buf (Elt F) ((ixS).view.loc (thr d c s))) :
    ((ixS).view.loc (thr d c s) ↦{fullShare} f : sProp 𝕄)
      = iprop(((halfM 0).view.loc (thr d c s) ↦[halfSet 0]{fullShare} f) ∗ (halfM 1).view.loc (thr d c s) ↦[halfSet 1]{fullShare} f) := by
  have hu : ((ixS).view.loc (thr d c s) ↦[halfSet 0 ∪ halfSet 1]{fullShare} f : sProp 𝕄)
      ⊣⊢ iprop(((ixS).view.loc (thr d c s) ↦[halfSet 0]{fullShare} f) ∗ (ixS).view.loc (thr d c s) ↦[halfSet 1]{fullShare} f) :=
    pointsTo_union half_disjoint
  rw [half_union] at hu
  exact BI.equiv_iff.mp ⟨hu.1, hu.2⟩

/-- Half (k / 4) % 2 is the seven lists of trip k and the rest of the half. -/
theorem half_split (h : Fin 2) (k : Fin k1_t1_loop.trips) (hk : (k.val / 4) % 2 = h.val)
    (q : PosShare TreeShare) (f : Buf (Elt F) ((ixS).view.loc (thr d c s))) :
    ((halfM h).view.loc (thr d c s) ↦[halfSet h]{q} f : sProp 𝕄)
      = iprop((bigSep Finset.univ fun b : Fin 7 => (pcM (listOf k b)).view.loc (thr d c s) ↦[pcSet (listOf k b)]{q} f)
          ∗ (ixS).view.loc (thr d c s) ↦[halfSet h \ (Finset.univ.biUnion fun b : Fin 7 => pcSet (listOf k b))]{q} f) := by
  have hsub : (Finset.univ.biUnion fun b : Fin 7 => pcSet (listOf k b)) ⊆ halfSet h :=
    Finset.biUnion_subset.mpr fun b _ => pcSet_subset_half (by
      have := b.isLt
      show (28 * ((k.val / 4) % 2) + 7 * (k.val % 4) + b.val) / 28 = h.val
      omega)
  have hs : ((ixS).view.loc (thr d c s) ↦[halfSet h]{q} f : sProp 𝕄)
      ⊣⊢ iprop(((ixS).view.loc (thr d c s) ↦[Finset.univ.biUnion fun b : Fin 7 => pcSet (listOf k b)]{q} f)
          ∗ (ixS).view.loc (thr d c s) ↦[halfSet h \ (Finset.univ.biUnion fun b : Fin 7 => pcSet (listOf k b))]{q} f) :=
    pointsTo_split_subset hsub
  have hb : ((ixS).view.loc (thr d c s) ↦[Finset.univ.biUnion fun b : Fin 7 => pcSet (listOf k b)]{q} f : sProp 𝕄)
      = bigSep Finset.univ fun b : Fin 7 => (ixS).view.loc (thr d c s) ↦[pcSet (listOf k b)]{q} f :=
    pointsTo_biUnion Finset.univ _ (fun b _ b' _ hb => pcSet_disjoint (fun e => hb (Fin.ext (by
      have e' : 28 * ((k.val / 4) % 2) + 7 * (k.val % 4) + b.val = 28 * ((k.val / 4) % 2) + 7 * (k.val % 4) + b'.val := congrArg Fin.val e
      omega))))
  refine (BI.equiv_iff.mp ⟨hs.1, hs.2⟩).trans ?_
  rw [hb]

/-- The slice of the index scratch at a half's first word is that half. -/
theorem pts_half_gen (h : Fin 2) (off : Fin 1 → Nat) (inb : ∀ a, off a + S3584.size a ≤ S7168.size a) (e : off = ![3584 * h.val])
    (q : PosShare TreeShare) (f : Buf (Elt F) ((ixS).view.loc (thr d c s))) :
    (((ixS).slice (Rect.unit (s := S7168) off S3584.size inb) (fun _ => rfl)).view.loc (thr d c s)
        ↦[((ixS).slice (Rect.unit (s := S7168) off S3584.size inb) (fun _ => rfl)).view.set]{q} f : sProp 𝕄)
      = ((halfM h).view.loc (thr d c s) ↦[halfSet h]{q} f) := by
  show ((ixS).view.loc (thr d c s) ↦[((ixS).view.slice (Rect.unit (s := S7168) off S3584.size inb)).set]{q} f : sProp 𝕄) = _
  rw [show Rect.unit (s := S7168) off S3584.size inb = Rect.unit (s := S7168) ![3584 * h.val] S3584.size (half_inb h) from unit_congr e]

theorem pts_half0 (q : PosShare TreeShare) (f : Buf (Elt F) ((ixS).view.loc (thr d c s))) :
    (((ixS).slice (Rect.unit (s := S7168) ![0] S3584.size inb_S7168_S3584_0) (fun _ => rfl)).view.loc (thr d c s)
        ↦[((ixS).slice (Rect.unit (s := S7168) ![0] S3584.size inb_S7168_S3584_0) (fun _ => rfl)).view.set]{q} f : sProp 𝕄)
      = ((halfM 0).view.loc (thr d c s) ↦[halfSet 0]{q} f) :=
  pts_half_gen d c s 0 _ _ rfl q f

theorem pts_pref (k : Fin k1_t1_loop.trips) (h2 : k1_cond2 k = 1#1) (h3 : k1_cond3 k = 1#1)
    (q : PosShare TreeShare) (f : Buf (Elt F) ((ixS).view.loc (thr d c s))) :
    (((ixS).slice (Rect.unit (s := S7168) (k1_off2 k) S3584.size (k1_off2_inb k h2 h3)) (fun _ => rfl)).view.loc (thr d c s)
        ↦[((ixS).slice (Rect.unit (s := S7168) (k1_off2 k) S3584.size (k1_off2_inb k h2 h3)) (fun _ => rfl)).view.set]{q} f : sProp 𝕄)
      = ((halfM (halfOf (k.val / 4 + 1))).view.loc (thr d c s) ↦[halfSet (halfOf (k.val / 4 + 1))]{q} f) :=
  pts_half_gen d c s (halfOf (k.val / 4 + 1)) _ _ (by
    rw [k1_off2_eq]
    funext a
    fin_cases a
    show 3584 - 3584 * ((k.val / 4) % 2) = 3584 * ((k.val / 4 + 1) % 2)
    omega) q f

end Tile

/-! ## The row scratch: its seven slots are the seven parts of axis 0 -/

theorem hdiv7 : 7 ∣ S7x128x128.size 0 := ⟨1, rfl⟩

/-- slot b: rows [b, b + 1) of axis 0, everything of the other two axes -/
abbrev slotSet (b : Fin 7) : Finset S7x128x128.Idx := (Rect.part (s := S7x128x128) (a₀ := 0) hdiv7 b).set

theorem set_slot_gen (b : Fin 7) (off : Fin 3 → Nat) (inb : ∀ a, off a + S1x128x128.size a ≤ S7x128x128.size a) (e : off = ![b.val, 0, 0]) :
    (((rwS).slice (Rect.unit (s := S7x128x128) off S1x128x128.size inb) (fun _ => rfl)).squeeze S128x128 squeezes_S1x128x128_S128x128).view.set
      = slotSet b := by
  show (((View.whole cc1_scratch1).slice (Rect.unit (s := S7x128x128) off S1x128x128.size inb)).reshape S128x128
    squeezes_S1x128x128_S128x128.numel_eq).set = _
  rw [View.set_reshape, View.set_slice_whole]
  refine congrArg (fun r : Rect S7x128x128 => r.set) (unit_congr2 ?_ ?_)
  · rw [e]; funext a
    match a with
    | 0 => simp [Shape.partIx, Shape.partSize]
    | 1 => simp [Shape.partIx, Shape.partSize]
    | 2 => simp [Shape.partIx, Shape.partSize]
  · funext a
    match a with
    | 0 => simp [Shape.partSize]
    | 1 => simp [Shape.partSize]
    | 2 => simp [Shape.partSize]

theorem set_slot0 : (slotM0).view.set = slotSet 0 := set_slot_gen 0 _ _ rfl
theorem set_slot1 : (slotM1).view.set = slotSet 1 := set_slot_gen 1 _ _ rfl
theorem set_slot2 : (slotM2).view.set = slotSet 2 := set_slot_gen 2 _ _ rfl
theorem set_slot3 : (slotM3).view.set = slotSet 3 := set_slot_gen 3 _ _ rfl
theorem set_slot4 : (slotM4).view.set = slotSet 4 := set_slot_gen 4 _ _ rfl
theorem set_slot5 : (slotM5).view.set = slotSet 5 := set_slot_gen 5 _ _ rfl
theorem set_slot6 : (slotM6).view.set = slotSet 6 := set_slot_gen 6 _ _ rfl

theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide,
    bigSep_insert (by decide), bigSep_insert (by decide), bigSep_insert (by decide), bigSep_insert (by decide),
    bigSep_insert (by decide), bigSep_insert (by decide), bigSep_singleton]
  rfl

section Tile

variable (d : Dev nD) (c : Fin (grid1.bound 0)) (s : Fin (grid1.bound 1))

/-- The row scratch is its seven slots. -/
theorem rw_split (f : Buf (Elt F) ((rwS).view.loc (thr d c s))) :
    ((rwS).view.loc (thr d c s) ↦{fullShare} f : sProp 𝕄)
      = iprop(((slotM0).view.loc (thr d c s) ↦[(slotM0).view.set]{fullShare} f)
          ∗ ((slotM1).view.loc (thr d c s) ↦[(slotM1).view.set]{fullShare} f)
          ∗ ((slotM2).view.loc (thr d c s) ↦[(slotM2).view.set]{fullShare} f)
          ∗ ((slotM3).view.loc (thr d c s) ↦[(slotM3).view.set]{fullShare} f)
          ∗ ((slotM4).view.loc (thr d c s) ↦[(slotM4).view.set]{fullShare} f)
          ∗ ((slotM5).view.loc (thr d c s) ↦[(slotM5).view.set]{fullShare} f)
          ∗ (slotM6).view.loc (thr d c s) ↦[(slotM6).view.set]{fullShare} f) := by
  rw [set_slot0, set_slot1, set_slot2, set_slot3, set_slot4, set_slot5, set_slot6]
  have h : ((rwS).view.loc (thr d c s) ↦[Finset.univ.biUnion fun b : Fin 7 => slotSet b]{fullShare} f : sProp 𝕄)
      = bigSep Finset.univ fun b : Fin 7 => (rwS).view.loc (thr d c s) ↦[slotSet b]{fullShare} f :=
    pointsTo_biUnion Finset.univ _ (fun b _ b' _ hb => Rect.part_disjoint hdiv7 hb)
  rw [Rect.biUnion_part hdiv7, bigSep_fin7] at h
  exact h

end Tile

end Cert.Proof.KB

end
-- ==== Proof.KBTripFacts.lean ====
/-
  Facts about the loop's printed conditions, decided once over all tiles and trips.
  Worker w = 2 s + c works on chunks 504 w + 7 k + b; all of them exist when w ≤ 30, so every gather and copy-out
  condition of such a worker holds; the index prefetch is awaited on the trips that are multiples of 4 and issued again
  unless it is the last stage.
-/
import proofs.«203041_g70987219468541_cont_9to1_m_1244_31_alg».proof.Proof.KBTileInv
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- the worker's first chunk number as the kernel computes it: (s * 2 + c) * 504 -/
def v2of (c : Fin (grid1.bound 0)) (s : Fin (grid1.bound 1)) : BitVec 32 :=
  Scalar.muli (Scalar.addi (Scalar.muli (BitVec.ofNat 32 s.val) 2#32) (BitVec.ofNat 32 c.val)) 504#32

theorem hG0 : ∀ (c : Fin (grid1.bound 0)) (s : Fin (grid1.bound 1)) (k : Fin k1_t1_loop.trips), 2 * s.val + c.val ≤ 30 → k1_cond5 (coordsV c s) k = 1#1 := by decide +kernel
theorem hO0 : ∀ (c : Fin (grid1.bound 0)) (s : Fin (grid1.bound 1)) (k : Fin k1_t1_loop.trips), 2 * s.val + c.val ≤ 30 → k1_cond18 (coordsV c s) k = 1#1 := by decide +kernel
theorem hG1 : ∀ (c : Fin (grid1.bound 0)) (s : Fin (grid1.bound 1)) (k : Fin k1_t1_loop.trips), 2 * s.val + c.val ≤ 30 → k1_cond7 (coordsV c s) k = 1#1 := by decide +kernel
theorem hO1 : ∀ (c : Fin (grid1.bound 0)) (s : Fin (grid1.bound 1)) (k : Fin k1_t1_loop.trips), 2 * s.val + c.val ≤ 30 → k1_cond19 (coordsV c s) k = 1#1 := by decide +kernel
theorem hG2 : ∀ (c : Fin (grid1.bound 0)) (s : Fin (grid1.bound 1)) (k : Fin k1_t1_loop.trips), 2 * s.val + c.val ≤ 30 → k1_cond9 (coordsV c s) k = 1#1 := by decide +kernel
theorem hO2 : ∀ (c : Fin (grid1.bound 0)) (s : Fin (grid1.bound 1)) (k : Fin k1_t1_loop.trips), 2 * s.val + c.val ≤ 30 → k1_cond20 (coordsV c s) k = 1#1 := by decide +kernel
theorem hG3 : ∀ (c : Fin (grid1.bound 0)) (s : Fin (grid1.bound 1)) (k : Fin k1_t1_loop.trips), 2 * s.val + c.val ≤ 30 → k1_cond11 (coordsV c s) k = 1#1 := by decide +kernel
theorem hO3 : ∀ (c : Fin (grid1.bound 0)) (s : Fin (grid1.bound 1)) (k : Fin k1_t1_loop.trips), 2 * s.val + c.val ≤ 30 → k1_cond21 (coordsV c s) k = 1#1 := by decide +kernel
theorem hG4 : ∀ (c : Fin (grid1.bound 0)) (s : Fin (grid1.bound 1)) (k : Fin k1_t1_loop.trips), 2 * s.val + c.val ≤ 30 → k1_cond13 (coordsV c s) k = 1#1 := by decide +kernel
theorem hO4 : ∀ (c : Fin (grid1.bound 0)) (s : Fin (grid1.bound 1)) (k : Fin k1_t1_loop.trips), 2 * s.val + c.val ≤ 30 → k1_cond22 (coordsV c s) k = 1#1 := by decide +kernel
theorem hG5 : ∀ (c : Fin (grid1.bound 0)) (s : Fin (grid1.bound 1)) (k : Fin k1_t1_loop.trips), 2 * s.val + c.val ≤ 30 → k1_cond15 (coordsV c s) k = 1#1 := by decide +kernel
theorem hO5 : ∀ (c : Fin (grid1.bound 0)) (s : Fin (grid1.bound 1)) (k : Fin k1_t1_loop.trips), 2 * s.val + c.val ≤ 30 → k1_cond23 (coordsV c s) k = 1#1 := by decide +kernel
theorem hG6 : ∀ (c : Fin (grid1.bound 0)) (s : Fin (grid1.bound 1)) (k : Fin k1_t1_loop.trips), 2 * s.val + c.val ≤ 30 → k1_cond17 (coordsV c s) k = 1#1 := by decide +kernel
theorem hO6 : ∀ (c : Fin (grid1.bound 0)) (s : Fin (grid1.bound 1)) (k : Fin k1_t1_loop.trips), 2 * s.val + c.val ≤ 30 → k1_cond24 (coordsV c s) k = 1#1 := by decide +kernel

theorem h2F : ∀ (k : Fin k1_t1_loop.trips), k.val % 4 ≠ 0 → ¬ k1_cond2 k = 1#1 := by decide +kernel
theorem h2T : ∀ (k : Fin k1_t1_loop.trips), k.val % 4 = 0 → k1_cond2 k = 1#1 := by decide +kernel
theorem h3T : ∀ (k : Fin k1_t1_loop.trips), k.val + 4 < 72 → k1_cond3 k = 1#1 := by decide +kernel
theorem h3F : ∀ (k : Fin k1_t1_loop.trips), ¬ k.val + 4 < 72 → ¬ k1_cond3 k = 1#1 := by decide +kernel

end Cert.Proof.KB

end
-- ==== Proof.KBTileSetLemmas3.lean ====
/-
  The padded index array: the slices the program takes of it are a worker's stage blocks; its words are the indices
  followed by zeros, so every word names a row of the 128-row table.
-/
import proofs.«203041_g70987219468541_cont_9to1_m_1244_31_alg».proof.Proof.KBTileSetLemmas
import Idealize.ShloMosaic.Lib.KernelVsHost

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The padded index array: a worker's stage blocks -/

theorem stSet_eq (w : Fin 32) (j : Fin 18) :
    stSet w j = (Rect.unit (s := S2064384) ![64512 * w.val + 3584 * j.val] S3584.size (st_inb w j)).set :=
  View.set_slice_whole main_v2_scv _

/-- The slice of the padded indices at word 64512 w + 3584 j is stage j of worker w. -/
theorem set_st_gen (w : Fin 32) (j : Fin 18) (off : Fin 1 → Nat) (inb : ∀ a, off a + S3584.size a ≤ S2064384.size a)
    (e : off = ![64512 * w.val + 3584 * j.val]) :
    ((idxV).slice (Rect.unit (s := S2064384) off S3584.size inb) (fun _ => rfl)).view.set = stSet w j := by
  show ((idxV).view.slice (Rect.unit (s := S2064384) off S3584.size inb)).set
    = ((idxV).view.slice (Rect.unit (s := S2064384) ![64512 * w.val + 3584 * j.val] S3584.size (st_inb w j))).set
  rw [show Rect.unit (s := S2064384) off S3584.size inb
    = Rect.unit (s := S2064384) ![64512 * w.val + 3584 * j.val] S3584.size (st_inb w j) from unit_congr e]

/-- a prefetching trip is a multiple of four -/
theorem cond2_mod : ∀ k : Fin k1_t1_loop.trips, k1_cond2 k = 1#1 → k.val % 4 = 0 := by decide +kernel
/-- a prefetching trip has a next stage -/
theorem cond3_lt : ∀ k : Fin k1_t1_loop.trips, k1_cond3 k = 1#1 → k.val / 4 + 1 < 18 := by decide +kernel

section Tile

variable (d : Dev nD) (c : Fin (grid1.bound 0)) (s : Fin (grid1.bound 1))

theorem set_st0 :
    ((idxV).slice (Rect.unit (s := S2064384) (k1_off1 (coordsV c s)) S3584.size (k1_off1_inb (coordsV c s))) (fun _ => rfl)).view.set
      = stSet (wOf c s) ⟨0, of_decide_eq_true rfl⟩ :=
  set_st_gen (wOf c s) ⟨0, of_decide_eq_true rfl⟩ _ _ (by
    rw [k1_off1_eq]
    funext a
    fin_cases a
    show 129024 * s.val + 64512 * c.val = 64512 * (2 * s.val + c.val) + 3584 * 0
    omega)

theorem set_st (k : Fin k1_t1_loop.trips) (h2 : k1_cond2 k = 1#1) (h3 : k1_cond3 k = 1#1) :
    ((idxV).slice (Rect.unit (s := S2064384) (k1_off3 (coordsV c s) k) S3584.size (k1_off3_inb (coordsV c s) k h2 h3)) (fun _ => rfl)).view.set
      = stSet (wOf c s) ⟨k.val / 4 + 1, cond3_lt k h3⟩ :=
  set_st_gen (wOf c s) ⟨k.val / 4 + 1, cond3_lt k h3⟩ _ _ (by
    have hm := cond2_mod k h2
    rw [k1_off3_eq]
    funext a
    fin_cases a
    show 129024 * s.val + 64512 * c.val + 896 * k.val + 3584 = 64512 * (2 * s.val + c.val) + 3584 * (k.val / 4 + 1)
    omega)

end Tile

/-! ## The padded indices' values -/

/-- The padded index array at word r: the r-th index, or zero past the last. -/
theorem idxOf_apply (src : IVec S2000000 32) (r : Fin 2064384) :
    idxOf src (ix1 r) = if h : r.val < 2000000 then src (ix1 ⟨r.val, h⟩) else 0#32 := by
  unfold idxOf
  split
  · next h =>
    exact pad_apply_of_inside _ _ _ src _ _ _ (ix1 r) (ix1 ⟨r.val, h⟩) (fun a => by fin_cases a; simp)
  · next h =>
    rw [pad_apply_of_not_inside _ _ _ src _ _ _ (ix1 r) 0 (by
      show ¬(0 ≤ r.val ∧ (r.val - 0) % (0 + 1) = 0 ∧ (r.val - 0) / (0 + 1) < 2000000)
      omega)]
    rfl

/-- Every word of the padded index array names one of the table's 128 rows. -/
theorem idxOf_lt (src : IVec S2000000 32) (h : Cert.Proof.Spec.InRange src) (r : S2064384.Idx) : (idxOf src r).toNat < 128 := by
  obtain ⟨r0, rfl⟩ : ∃ r0 : Fin 2064384, r = ix1 r0 := ⟨r 0, eq_ix1 r⟩
  rw [idxOf_apply]
  split
  · next hr => exact Nat.lt_of_le_of_lt (h ⟨r0.val, hr⟩) (by decide)
  · exact by decide

end Cert.Proof.KB

end
-- ==== Proof.KBTileStage.lean ====
/-
  What a half of the index scratch holds once a stage block has landed in it, and what a list of the half then holds:
  the half reads what the block reads, and word x of list 28 h + 7 (k % 4) + b of half h = (k / 4) % 2 holding stage k / 4
  is word 3584 (k / 4) + 896 (k % 4) + 128 b + x = 896 k + 128 b + x of the worker's part of the padded index array.
-/
import proofs.«203041_g70987219468541_cont_9to1_m_1244_31_alg».proof.Proof.KBTileInv
import proofs.«203041_g70987219468541_cont_9to1_m_1244_31_alg».proof.Proof.KBTileSetLemmas3

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile

variable (d : Dev nD) (c : Fin (grid1.bound 0)) (s : Fin (grid1.bound 1))

/-! ## A stage landed in a half -/

/-- A half written whole with what a stage block reads, read back, is what that block reads. -/
theorem stageAt_landed (h : Fin 2) (j : ℕ) (f0 : Buf (Elt F) ((ixS).view.loc (thr d c s))) :
    StageAt m d c s h j ((halfM h).view.writes (Elt F) f0 [⟨Rect.whole S3584, ReadAs.same.apply ((stM (wOf c s) (stJ j)).view.read (Elt F) (idxc m d))⟩]) := by
  unfold StageAt
  rw [View.read_writes_whole]

/-- The same with the half and the block taken as slices at offsets equal to theirs. -/
theorem stageAt_landed_gen (h : Fin 2) (j : ℕ)
    (offD : Fin 1 → Nat) (inbD : ∀ a, offD a + S3584.size a ≤ S7168.size a) (eD : offD = ![3584 * h.val])
    (offS : Fin 1 → Nat) (inbS : ∀ a, offS a + S3584.size a ≤ S2064384.size a) (eS : offS = ![64512 * (wOf c s).val + 3584 * (stJ j).val])
    (f0 : Buf (Elt F) ((ixS).view.loc (thr d c s))) :
    StageAt m d c s h j (((ixS).slice (Rect.unit (s := S7168) offD S3584.size inbD) (fun _ => rfl)).view.writes (Elt F) f0 [⟨Rect.whole S3584, ReadAs.same.apply (((idxV).slice (Rect.unit (s := S2064384) offS S3584.size inbS) (fun _ => rfl)).view.read (Elt F) (idxc m d))⟩]) := by
  subst eD
  subst eS
  exact stageAt_landed m d c s h j f0

/-- Stage 0 landed in half 0, as the first copy leaves it. -/
theorem stageAt_landed0 (f0 : Buf (Elt F) ((ixS).view.loc (thr d c s))) :
    StageAt m d c s 0 0 (((ixS).slice (Rect.unit (s := S7168) ![0] S3584.size inb_S7168_S3584_0) (fun _ => rfl)).view.writes (Elt F) f0 [⟨Rect.whole S3584, ReadAs.same.apply (((idxV).slice (Rect.unit (s := S2064384) (k1_off1 (coordsV c s)) S3584.size (k1_off1_inb (coordsV c s))) (fun _ => rfl)).view.read (Elt F) (idxc m d))⟩]) :=
  stageAt_landed_gen m d c s 0 0 _ _ rfl _ _ (by
    rw [k1_off1_eq]
    funext a
    fin_cases a
    show 129024 * s.val + 64512 * c.val = 64512 * (2 * s.val + c.val) + 3584 * min 0 17
    omega) f0

/-- Stage k / 4 + 1 landed in its half, as a prefetching trip's copy leaves it. -/
theorem stageAt_landedK (k : Fin k1_t1_loop.trips) (h2 : k1_cond2 k = 1#1) (h3 : k1_cond3 k = 1#1)
    (f0 : Buf (Elt F) ((ixS).view.loc (thr d c s))) :
    StageAt m d c s (halfOf (k.val / 4 + 1)) (k.val / 4 + 1) (((ixS).slice (Rect.unit (s := S7168) (k1_off2 k) S3584.size (k1_off2_inb k h2 h3)) (fun _ => rfl)).view.writes (Elt F) f0 [⟨Rect.whole S3584, ReadAs.same.apply (((idxV).slice (Rect.unit (s := S2064384) (k1_off3 (coordsV c s) k) S3584.size (k1_off3_inb (coordsV c s) k h2 h3)) (fun _ => rfl)).view.read (Elt F) (idxc m d))⟩]) :=
  stageAt_landed_gen m d c s (halfOf (k.val / 4 + 1)) (k.val / 4 + 1) _ _ (by
    rw [k1_off2_eq]
    funext a
    fin_cases a
    show 3584 - 3584 * ((k.val / 4) % 2) = 3584 * ((k.val / 4 + 1) % 2)
    omega) _ _ (by
    have hm := cond2_mod k h2
    have hl := cond3_lt k h3
    rw [k1_off3_eq]
    funext a
    fin_cases a
    show 129024 * s.val + 64512 * c.val + 896 * k.val + 3584 = 64512 * (2 * s.val + c.val) + 3584 * min (k.val / 4 + 1) 17
    omega) f0

/-! ## A list's words -/

theorem trips_le (k : Fin k1_t1_loop.trips) : k.val < 72 := Nat.lt_of_lt_of_le k.isLt k1_t1_abs.2.1

/-- every word of every list of every trip of every worker is a word of the padded index array -/
theorem listWord_lt (k : Fin k1_t1_loop.trips) (b : Fin 7) (x : S128.Idx) :
    64512 * (wOf c s).val + 896 * k.val + 128 * b.val + (x 0).val < 2064384 := by
  have hk := trips_le k
  have hb := b.isLt
  have hx : (x 0).val < 128 := (x 0).isLt
  have hw := (wOf c s).isLt
  omega

/-- When half (k / 4) % 2 holds stage k / 4, word x of trip k's list b is word 896 k + 128 b + x of the worker's
    part of the padded index array. -/
theorem stageAt_list (h : Fin 2) (j : ℕ) (f : Buf (Elt F) ((ixS).view.loc (thr d c s))) (hst : StageAt m d c s h j f)
    (k : Fin k1_t1_loop.trips) (hk : (k.val / 4) % 2 = h.val) (hj : j = k.val / 4) (b : Fin 7) (x : S128.Idx) :
    f ((pcM (listOf k b)).view.emb x)
      = idxc m d (ix1 ⟨64512 * (wOf c s).val + 896 * k.val + 128 * b.val + (x 0).val, listWord_lt c s k b x⟩) := by
  have hk72 := trips_le k
  have hb := b.isLt
  have hx : (x 0).val < 128 := (x 0).isLt
  have hy : 896 * (k.val % 4) + 128 * b.val + (x 0).val < 3584 := by omega
  have h1 := congrFun hst (ix1 ⟨896 * (k.val % 4) + 128 * b.val + (x 0).val, hy⟩)
  have eL : (pcM (listOf k b)).view.emb x = (halfM h).view.emb (ix1 ⟨896 * (k.val % 4) + 128 * b.val + (x 0).val, hy⟩) := by
    funext a
    fin_cases a
    refine Fin.ext ?_
    show 128 * (28 * ((k.val / 4) % 2) + 7 * (k.val % 4) + b.val) + 1 * (x 0).val
      = 3584 * h.val + 1 * (896 * (k.val % 4) + 128 * b.val + (x 0).val)
    omega
  have eR : (stM (wOf c s) (stJ j)).view.emb (ix1 ⟨896 * (k.val % 4) + 128 * b.val + (x 0).val, hy⟩)
      = ix1 ⟨64512 * (wOf c s).val + 896 * k.val + 128 * b.val + (x 0).val, listWord_lt c s k b x⟩ := by
    funext a
    fin_cases a
    refine Fin.ext ?_
    show 64512 * (wOf c s).val + 3584 * min j 17 + 1 * (896 * (k.val % 4) + 128 * b.val + (x 0).val)
      = 64512 * (wOf c s).val + 896 * k.val + 128 * b.val + (x 0).val
    omega
  rw [eL, ← eR]
  exact h1

end Tile

end Cert.Proof.KB

end
-- ==== Proof.KBTileChunkSteps.lean ====
/-
  The worker's chunks, numbered 0 .. 503: a trip takes the next seven off those still to do and, a trip later, adds them
  to those done; for a worker whose 504 chunks all exist the numbering is a bijection onto the tile's chunks.
-/
import proofs.«203041_g70987219468541_cont_9to1_m_1244_31_alg».proof.Proof.KBTileInv
import proofs.«203041_g70987219468541_cont_9to1_m_1244_31_alg».proof.Proof.KBChunks

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## Seven consecutive numbers off an interval -/

theorem Ico_seven_left {a b : ℕ} (h : a + 7 ≤ b) :
    Finset.Ico a b = insert a (insert (a + 1) (insert (a + 2) (insert (a + 3) (insert (a + 4) (insert (a + 5) (insert (a + 6) (Finset.Ico (a + 7) b))))))) := by
  ext x
  simp only [Finset.mem_Ico, Finset.mem_insert]
  omega

theorem Ico_seven (a : ℕ) : Finset.Ico a (a + 7) = {a, a + 1, a + 2, a + 3, a + 4, a + 5, a + 6} := by
  ext x
  simp only [Finset.mem_Ico, Finset.mem_insert, Finset.mem_singleton]
  omega

theorem bigSep_Ico_seven (Φ : ℕ → sProp 𝕄) {a b : ℕ} (h : a + 7 ≤ b) :
    bigSep (Finset.Ico a b) Φ
      = iprop(Φ (a + 0) ∗ Φ (a + 1) ∗ Φ (a + 2) ∗ Φ (a + 3) ∗ Φ (a + 4) ∗ Φ (a + 5) ∗ Φ (a + 6) ∗ bigSep (Finset.Ico (a + 7) b) Φ) := by
  rw [Ico_seven_left h,
    bigSep_insert (by simp only [Finset.mem_Ico, Finset.mem_insert]; omega),
    bigSep_insert (by simp only [Finset.mem_Ico, Finset.mem_insert]; omega),
    bigSep_insert (by simp only [Finset.mem_Ico, Finset.mem_insert]; omega),
    bigSep_insert (by simp only [Finset.mem_Ico, Finset.mem_insert]; omega),
    bigSep_insert (by simp only [Finset.mem_Ico, Finset.mem_insert]; omega),
    bigSep_insert (by simp only [Finset.mem_Ico, Finset.mem_insert]; omega),
    bigSep_insert (by simp only [Finset.mem_Ico]; omega)]
  rfl

theorem bigSep_Ico_seven' (Φ : ℕ → sProp 𝕄) (a : ℕ) :
    bigSep (Finset.Ico a (a + 7)) Φ = iprop(Φ (a + 0) ∗ Φ (a + 1) ∗ Φ (a + 2) ∗ Φ (a + 3) ∗ Φ (a + 4) ∗ Φ (a + 5) ∗ Φ (a + 6)) := by
  rw [Ico_seven,
    bigSep_insert (by simp only [Finset.mem_insert, Finset.mem_singleton]; omega),
    bigSep_insert (by simp only [Finset.mem_insert, Finset.mem_singleton]; omega),
    bigSep_insert (by simp only [Finset.mem_insert, Finset.mem_singleton]; omega),
    bigSep_insert (by simp only [Finset.mem_insert, Finset.mem_singleton]; omega),
    bigSep_insert (by simp only [Finset.mem_insert, Finset.mem_singleton]; omega),
    bigSep_insert (by simp only [Finset.mem_singleton]; omega),
    bigSep_singleton]
  rfl

theorem bigSep_range_seven (Φ : ℕ → sProp 𝕄) (n : ℕ) :
    bigSep (Finset.range (n + 7)) Φ
      = iprop(bigSep (Finset.range n) Φ ∗ Φ (n + 0) ∗ Φ (n + 1) ∗ Φ (n + 2) ∗ Φ (n + 3) ∗ Φ (n + 4) ∗ Φ (n + 5) ∗ Φ (n + 6)) := by
  have e : Finset.range (n + 7) = Finset.range n ∪ Finset.Ico n (n + 7) := by
    ext x
    simp only [Finset.mem_range, Finset.mem_union, Finset.mem_Ico]
    omega
  have hd : Disjoint (Finset.range n) (Finset.Ico n (n + 7)) := by
    rw [Finset.disjoint_left]
    intro x hx hx'
    simp only [Finset.mem_range, Finset.mem_Ico] at hx hx'
    omega
  rw [e, bigSep_union hd, bigSep_Ico_seven']
  rfl

section Tile

variable (d : Dev nD) (c : Fin (grid1.bound 0)) (s : Fin (grid1.bound 1))

/-! ## The worker's chunk numbers -/

/-- for a worker whose 504 chunks all exist the clamp does nothing -/
theorem chunkIxN_val (hw : 2 * s.val + c.val ≤ 30) (n : ℕ) (hn : n < 504) : (chunkIxN c s n).val = 504 * (wOf c s).val + n := by
  show min (504 * (2 * s.val + c.val) + n) 15624 = 504 * (2 * s.val + c.val) + n
  omega

theorem chunkIx_eq_chunkOf (_hw : 2 * s.val + c.val ≤ 30) (k : Fin k1_t1_loop.trips) (b : Fin 7)
    (h : 504 * (wOf c s).val + 7 * k.val + b.val < 15625) : chunkIxN c s (7 * k.val + b.val) = chunkOf (wOf c s) k b h := by
  refine Fin.ext ?_
  show min (504 * (2 * s.val + c.val) + (7 * k.val + b.val)) 15624 = 504 * (2 * s.val + c.val) + 7 * k.val + b.val
  have h' : 504 * (2 * s.val + c.val) + 7 * k.val + b.val < 15625 := h
  omega

/-- The worker's 504 chunk numbers are the tile's chunks. -/
theorem tileChunks_eq_image (hw : 2 * s.val + c.val ≤ 30) : tileChunks (cT c) (sT s) = (Finset.range 504).image (chunkIxN c s) := by
  ext g
  simp only [tileChunks, Finset.mem_filter, Finset.mem_univ, true_and, Finset.mem_image, Finset.mem_range]
  have hg := g.isLt
  constructor
  · intro h
    have h' : g.val / 504 = 2 * s.val + c.val := h
    refine ⟨g.val - 504 * (2 * s.val + c.val), by omega, Fin.ext ?_⟩
    show min (504 * (2 * s.val + c.val) + (g.val - 504 * (2 * s.val + c.val))) 15624 = g.val
    omega
  · rintro ⟨n, hn, rfl⟩
    show (chunkIxN c s n).val / 504 = 2 * s.val + c.val
    rw [chunkIxN_val c s hw n hn]
    show (504 * (2 * s.val + c.val) + n) / 504 = 2 * s.val + c.val
    omega

theorem chunkIxN_injOn (hw : 2 * s.val + c.val ≤ 30) : Set.InjOn (chunkIxN c s) (Finset.range 504 : Finset ℕ) := by
  intro n hn n' hn' e
  have hn := Finset.mem_range.mp (Finset.mem_coe.mp hn)
  have hn' := Finset.mem_range.mp (Finset.mem_coe.mp hn')
  have e' := congrArg Fin.val e
  rw [chunkIxN_val c s hw n hn, chunkIxN_val c s hw n' hn'] at e'
  omega

/-- The worker's chunks, numbered, are the tile's chunks. -/
theorem done_end (hw : 2 * s.val + c.val ≤ 30) (f : Buf (Elt F) (outLoc d)) :
    (bigSep (Finset.range 504) fun n => outChunk d (chunkIxN c s n) f : sProp 𝕄) = bigSep (tileChunks (cT c) (sT s)) fun g => outChunk d g f := by
  rw [tileChunks_eq_image c s hw, SparseCore.bigSep_image_of_injOn (chunkIxN_injOn c s hw)]

/-! ## The invariant's chunks, trip by trip -/

theorem todo_step (k : ℕ) (hk : k < 72) :
    Todo m d c s k = iprop(outChunk d (chunkIxN c s (7 * k + 0)) (m (outLoc d))
        ∗ outChunk d (chunkIxN c s (7 * k + 1)) (m (outLoc d))
        ∗ outChunk d (chunkIxN c s (7 * k + 2)) (m (outLoc d))
        ∗ outChunk d (chunkIxN c s (7 * k + 3)) (m (outLoc d))
        ∗ outChunk d (chunkIxN c s (7 * k + 4)) (m (outLoc d))
        ∗ outChunk d (chunkIxN c s (7 * k + 5)) (m (outLoc d))
        ∗ outChunk d (chunkIxN c s (7 * k + 6)) (m (outLoc d))
        ∗ Todo m d c s (k + 1)) := by
  unfold Todo
  exact bigSep_Ico_seven (fun n => outChunk d (chunkIxN c s n) (m (outLoc d))) (by omega)

theorem done_step (k : ℕ) (hk : 0 < k) :
    Done m d c s (k + 1) = iprop(Done m d c s k
        ∗ outChunk d (chunkIxN c s (7 * (k - 1) + 0)) (outG m d)
        ∗ outChunk d (chunkIxN c s (7 * (k - 1) + 1)) (outG m d)
        ∗ outChunk d (chunkIxN c s (7 * (k - 1) + 2)) (outG m d)
        ∗ outChunk d (chunkIxN c s (7 * (k - 1) + 3)) (outG m d)
        ∗ outChunk d (chunkIxN c s (7 * (k - 1) + 4)) (outG m d)
        ∗ outChunk d (chunkIxN c s (7 * (k - 1) + 5)) (outG m d)
        ∗ outChunk d (chunkIxN c s (7 * (k - 1) + 6)) (outG m d)) := by
  unfold Done
  rw [show 7 * (k + 1 - 1) = 7 * (k - 1) + 7 by omega]
  exact bigSep_range_seven (fun n => outChunk d (chunkIxN c s n) (outG m d)) (7 * (k - 1))

theorem done_zero : Done m d c s 0 = iprop(emp) := by
  unfold Done
  rw [show 7 * (0 - 1) = 0 from rfl, Finset.range_zero, bigSep_empty]
  rfl

theorem done_one : Done m d c s 1 = iprop(emp) := by
  unfold Done
  rw [show 7 * (1 - 1) = 0 from rfl, Finset.range_zero, bigSep_empty]
  rfl

theorem todo_end : Todo m d c s 72 = iprop(emp) := by
  unfold Todo
  rw [show 7 * 72 = 504 from rfl, Finset.Ico_self, bigSep_empty]
  rfl

theorem todo_zero (hw : 2 * s.val + c.val ≤ 30) :
    (bigSep (tileChunks (cT c) (sT s)) fun g => outChunk d g (m (outLoc d)) : sProp 𝕄) = Todo m d c s 0 := by
  unfold Todo
  rw [← done_end d c s hw, show 7 * 0 = 0 from rfl, ← Finset.range_eq_Ico]

end Tile

end Cert.Proof.KB

end
-- ==== Proof.KBTripClose.lean ====
/-
  What a trip of the tile's loop needs beside its run: the invariant's pieces as equations by the case of the trip
  number, the bound on a list's words from the bound on its half's, and the re-establishment of each piece of the
  invariant after the run — a slot's new copy-out as the next trip's slot, the chunks handed back joined to the chunks
  done, the gather semaphores, and the waits recorded at the tile's own index.
-/
import proofs.«203041_g70987219468541_cont_9to1_m_1244_31_alg».proof.Proof.KBTileInv
import proofs.«203041_g70987219468541_cont_9to1_m_1244_31_alg».proof.Proof.KBTileSetLemmas
import proofs.«203041_g70987219468541_cont_9to1_m_1244_31_alg».proof.Proof.KBTileSetLemmas2
import proofs.«203041_g70987219468541_cont_9to1_m_1244_31_alg».proof.Proof.KBTripFacts
import proofs.«203041_g70987219468541_cont_9to1_m_1244_31_alg».proof.Proof.KBTileStage
import proofs.«203041_g70987219468541_cont_9to1_m_1244_31_alg».proof.Proof.KBTileChunkSteps
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Close

variable (d : Dev nD) (c : Fin (grid1.bound 0)) (s : Fin (grid1.bound 1))

/-! ## The invariant's pieces, by case -/

theorem inv_def (tblS : Buf (Elt F) ((shS).view.loc (thr d c s))) (O : CellTallies nD τ sig (HIx 1)) (W : Waits sig (HIx 1)) (k : ℕ) (u : PUnit) :
    KB.Inv m d c s tblS O W k u = iprop(Transfers.MayWaits (thr d c s) (none : HIx 1) O ∗ IdxSt m d c s k ∗ Slots m d c s k ∗ ChunksSt m d c s k
      ∗ Toks d c s tblS ∗ GSems d c s ∗ KB.Owes d c s O W) := rfl

theorem idxSt_le (k : ℕ) (h : k ≤ 68) :
    IdxSt m d c s k = iprop(PrefFlight m d c s ((k + 3) / 4) ∗ HalfHeld m d c s (halfOf ((k + 3) / 4 + 1)) (k % 4 ≠ 0) (k / 4)) := by
  unfold IdxSt; rw [if_pos h]

theorem idxSt_gt (k : ℕ) (h : ¬ k ≤ 68) :
    IdxSt m d c s k = iprop(semVal (thr d c s, SemLoc.dma cc1_scratch3.sem) 0 ∗ ((idxV).view.loc (thr d c s) ↦{qI c s} idxc m d)
      ∗ HalfHeld m d c s (halfOf 17) True 17 ∗ HalfHeld m d c s (halfOf 18) False 0) := by
  unfold IdxSt; rw [if_neg h]

theorem slot0_pos (k : ℕ) (h : ¬ k = 0) :
    Slot0 m d c s k = iprop(∃ fR : Buf (Elt F) ((rwS).view.loc (thr d c s)), Transfers.Flight (countersEmb (U := UU)) (thr d c s) (SemLoc.dma cc1_scratch11.sem) (none : HIx 1) 524288
      iprop((outLoc d ↦[chunkSet (chunkIx c s (k - 1) 0)]{fullShare} outG m d) ∗ (slotM0).view.loc (thr d c s) ↦[(slotM0).view.set]{fullShare} fR)) := by
  unfold Slot0; rw [if_neg h]
theorem slot0_zero :
    Slot0 m d c s 0 = iprop(semVal (thr d c s, SemLoc.dma cc1_scratch11.sem) 0 ∗ ∃ f : Buf (Elt F) ((rwS).view.loc (thr d c s)), (slotM0).view.loc (thr d c s) ↦[(slotM0).view.set]{fullShare} f) := by
  unfold Slot0; rw [if_pos rfl]
theorem slot1_pos (k : ℕ) (h : ¬ k = 0) :
    Slot1 m d c s k = iprop(∃ fR : Buf (Elt F) ((rwS).view.loc (thr d c s)), Transfers.Flight (countersEmb (U := UU)) (thr d c s) (SemLoc.dma cc1_scratch12.sem) (none : HIx 1) 524288
      iprop((outLoc d ↦[chunkSet (chunkIx c s (k - 1) 1)]{fullShare} outG m d) ∗ (slotM1).view.loc (thr d c s) ↦[(slotM1).view.set]{fullShare} fR)) := by
  unfold Slot1; rw [if_neg h]
theorem slot1_zero :
    Slot1 m d c s 0 = iprop(semVal (thr d c s, SemLoc.dma cc1_scratch12.sem) 0 ∗ ∃ f : Buf (Elt F) ((rwS).view.loc (thr d c s)), (slotM1).view.loc (thr d c s) ↦[(slotM1).view.set]{fullShare} f) := by
  unfold Slot1; rw [if_pos rfl]
theorem slot2_pos (k : ℕ) (h : ¬ k = 0) :
    Slot2 m d c s k = iprop(∃ fR : Buf (Elt F) ((rwS).view.loc (thr d c s)), Transfers.Flight (countersEmb (U := UU)) (thr d c s) (SemLoc.dma cc1_scratch13.sem) (none : HIx 1) 524288
      iprop((outLoc d ↦[chunkSet (chunkIx c s (k - 1) 2)]{fullShare} outG m d) ∗ (slotM2).view.loc (thr d c s) ↦[(slotM2).view.set]{fullShare} fR)) := by
  unfold Slot2; rw [if_neg h]
theorem slot2_zero :
    Slot2 m d c s 0 = iprop(semVal (thr d c s, SemLoc.dma cc1_scratch13.sem) 0 ∗ ∃ f : Buf (Elt F) ((rwS).view.loc (thr d c s)), (slotM2).view.loc (thr d c s) ↦[(slotM2).view.set]{fullShare} f) := by
  unfold Slot2; rw [if_pos rfl]
theorem slot3_pos (k : ℕ) (h : ¬ k = 0) :
    Slot3 m d c s k = iprop(∃ fR : Buf (Elt F) ((rwS).view.loc (thr d c s)), Transfers.Flight (countersEmb (U := UU)) (thr d c s) (SemLoc.dma cc1_scratch14.sem) (none : HIx 1) 524288
      iprop((outLoc d ↦[chunkSet (chunkIx c s (k - 1) 3)]{fullShare} outG m d) ∗ (slotM3).view.loc (thr d c s) ↦[(slotM3).view.set]{fullShare} fR)) := by
  unfold Slot3; rw [if_neg h]
theorem slot3_zero :
    Slot3 m d c s 0 = iprop(semVal (thr d c s, SemLoc.dma cc1_scratch14.sem) 0 ∗ ∃ f : Buf (Elt F) ((rwS).view.loc (thr d c s)), (slotM3).view.loc (thr d c s) ↦[(slotM3).view.set]{fullShare} f) := by
  unfold Slot3; rw [if_pos rfl]
theorem slot4_pos (k : ℕ) (h : ¬ k = 0) :
    Slot4 m d c s k = iprop(∃ fR : Buf (Elt F) ((rwS).view.loc (thr d c s)), Transfers.Flight (countersEmb (U := UU)) (thr d c s) (SemLoc.dma cc1_scratch15.sem) (none : HIx 1) 524288
      iprop((outLoc d ↦[chunkSet (chunkIx c s (k - 1) 4)]{fullShare} outG m d) ∗ (slotM4).view.loc (thr d c s) ↦[(slotM4).view.set]{fullShare} fR)) := by
  unfold Slot4; rw [if_neg h]
theorem slot4_zero :
    Slot4 m d c s 0 = iprop(semVal (thr d c s, SemLoc.dma cc1_scratch15.sem) 0 ∗ ∃ f : Buf (Elt F) ((rwS).view.loc (thr d c s)), (slotM4).view.loc (thr d c s) ↦[(slotM4).view.set]{fullShare} f) := by
  unfold Slot4; rw [if_pos rfl]
theorem slot5_pos (k : ℕ) (h : ¬ k = 0) :
    Slot5 m d c s k = iprop(∃ fR : Buf (Elt F) ((rwS).view.loc (thr d c s)), Transfers.Flight (countersEmb (U := UU)) (thr d c s) (SemLoc.dma cc1_scratch16.sem) (none : HIx 1) 524288
      iprop((outLoc d ↦[chunkSet (chunkIx c s (k - 1) 5)]{fullShare} outG m d) ∗ (slotM5).view.loc (thr d c s) ↦[(slotM5).view.set]{fullShare} fR)) := by
  unfold Slot5; rw [if_neg h]
theorem slot5_zero :
    Slot5 m d c s 0 = iprop(semVal (thr d c s, SemLoc.dma cc1_scratch16.sem) 0 ∗ ∃ f : Buf (Elt F) ((rwS).view.loc (thr d c s)), (slotM5).view.loc (thr d c s) ↦[(slotM5).view.set]{fullShare} f) := by
  unfold Slot5; rw [if_pos rfl]
theorem slot6_pos (k : ℕ) (h : ¬ k = 0) :
    Slot6 m d c s k = iprop(∃ fR : Buf (Elt F) ((rwS).view.loc (thr d c s)), Transfers.Flight (countersEmb (U := UU)) (thr d c s) (SemLoc.dma cc1_scratch17.sem) (none : HIx 1) 524288
      iprop((outLoc d ↦[chunkSet (chunkIx c s (k - 1) 6)]{fullShare} outG m d) ∗ (slotM6).view.loc (thr d c s) ↦[(slotM6).view.set]{fullShare} fR)) := by
  unfold Slot6; rw [if_neg h]
theorem slot6_zero :
    Slot6 m d c s 0 = iprop(semVal (thr d c s, SemLoc.dma cc1_scratch17.sem) 0 ∗ ∃ f : Buf (Elt F) ((rwS).view.loc (thr d c s)), (slotM6).view.loc (thr d c s) ↦[(slotM6).view.set]{fullShare} f) := by
  unfold Slot6; rw [if_pos rfl]

/-! ## Lists and their half -/

/-- every word of a list lies in its half: a bound on the half's words bounds the list's -/
theorem list_read_lt (k : Fin k1_t1_loop.trips) (b : Fin 7)
    (off : Fin 1 → Nat) (inb : ∀ a, off a + S128.size a ≤ S7168.size a)
    (e : off = ![3584 * ((k.val / 4) % 2) + 896 * (k.val % 4) + 128 * b.val])
    (f : Buf (Elt F) ((ixS).view.loc (thr d c s))) (hf : ∀ i ∈ halfSet (halfOf (k.val / 4)), BitVec.toNat (f i) < 128) :
    ∀ x, BitVec.toNat ((((ixS).slice (Rect.unit (s := S7168) off S128.size inb) (fun _ => rfl))).view.read (Elt F) f x) < 128 := by
  intro x
  rw [View.read_apply]
  refine hf _ (pcSet_subset_half (p := listOf k b) (h := halfOf (k.val / 4)) ?_ ?_)
  · have := b.isLt
    show (28 * ((k.val / 4) % 2) + 7 * (k.val % 4) + b.val) / 28 = (k.val / 4) % 2
    omega
  · have hm := View.emb_mem_set (((ixS).slice (Rect.unit (s := S7168) off S128.size inb) (fun _ => rfl))).view x
    have hs : (((ixS).slice (Rect.unit (s := S7168) off S128.size inb) (fun _ => rfl))).view.set = pcSet (listOf k b) := by
      show ((ixS).view.slice (Rect.unit (s := S7168) off S128.size inb)).set = _
      rw [list_unit k b off inb e]
    rw [hs] at hm
    exact hm

/-- a half holding a stage of the padded indices holds words that name rows of the table -/
theorem half_lt (hpre : PreOK m) (h : Fin 2) (j : ℕ) (f : Buf (Elt F) ((ixS).view.loc (thr d c s))) (hst : StageAt m d c s h j f) :
    ∀ i ∈ halfSet h, BitVec.toNat (f i) < 128 := by
  intro i hi
  obtain ⟨y, -, rfl⟩ := Finset.mem_map.mp hi
  have h1 := congrFun hst y
  rw [View.read_apply, View.read_apply] at h1
  have h2 : f ((halfM h).view.emb y) = idxc m d ((KB.stM (wOf c s) (stJ j)).view.emb y) := h1
  rw [h2]; exact idxOf_lt _ (hpre d) _

theorem bigSep_fin7' (Φ : Fin 7 → sProp 𝕄) :
    bigSep Finset.univ Φ = iprop(Φ ⟨0, of_decide_eq_true rfl⟩ ∗ Φ ⟨1, of_decide_eq_true rfl⟩ ∗ Φ ⟨2, of_decide_eq_true rfl⟩ ∗ Φ ⟨3, of_decide_eq_true rfl⟩ ∗ Φ ⟨4, of_decide_eq_true rfl⟩ ∗ Φ ⟨5, of_decide_eq_true rfl⟩ ∗ Φ ⟨6, of_decide_eq_true rfl⟩) := bigSep_fin7 Φ

/-! ## The waits a trip records -/

theorem waits_ok_insert {W W' : Waits sig (HIx 1)} (sm : SemLoc sig)
    (h : ∀ p ∈ W', p ∈ W ∨ p.2 = none ∨ p.2 = some 0) : ∀ p ∈ insert (sm, (none : HIx 1)) W', p ∈ W ∨ p.2 = none ∨ p.2 = some 0 := by
  intro p hp
  rcases Finset.mem_insert.mp hp with rfl | hp
  · exact Or.inr (Or.inl rfl)
  · exact h p hp

theorem chunk_lt (hw : 2 * s.val + c.val ≤ 30) (k : Fin k1_t1_loop.trips) (b : Fin 7) : 504 * (wOf c s).val + 7 * k.val + b.val < 15625 := by
  have := k.isLt; have := b.isLt
  show 504 * (2 * s.val + c.val) + 7 * k.val + b.val < 15625
  have : k.val < 72 := k.isLt
  omega

/-! ## A slot's new copy-out is the next trip's slot -/

/-- slot 0: the flight of the copy-out of chunk 7 k + 0, its delivery restated at the result's values -/
theorem slot0_close (hw : 2 * s.val + c.val ≤ 30) (k : Fin k1_t1_loop.trips) (sm : SemLoc sig) (hsm : sm = SemLoc.dma cc1_scratch11.sem) (ι : HIx 1) (hι : ι = none)
    (fo : Buf (Elt F) (outLoc d)) (fR : Buf (Elt F) ((rwS).view.loc (thr d c s)))
    (wc : (Rect.whole (Rect.unit (s := S2000000x128) (k1_off12 (coordsV c s) k) S128x128.size (k1_off12_inb (coordsV c s) k (hO0 c s k hw))).shape).shape.Idx → Elt F .f32)
    (ws : (Rect.whole S128x128).shape.Idx → Elt F .f32)
    (hval : ∀ i ∈ chunkSet (chunkIx c s k.val 0), (((outW).slice (Rect.unit (s := S2000000x128) (k1_off12 (coordsV c s) k) S128x128.size (k1_off12_inb (coordsV c s) k (hO0 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off12 (coordsV c s) k) S128x128.size (k1_off12_inb (coordsV c s) k (hO0 c s k hw))) (fun _ => rfl))).view.loc (thr d c s) ↦[(((outW).slice (Rect.unit (s := S2000000x128) (k1_off12 (coordsV c s) k) S128x128.size (k1_off12_inb (coordsV c s) k (hO0 c s k hw))) (fun _ => rfl))).view.set]{fullShare} (((outW).slice (Rect.unit (s := S2000000x128) (k1_off12 (coordsV c s) k) S128x128.size (k1_off12_inb (coordsV c s) k (hO0 c s k hw))) (fun _ => rfl))).view.writes (Elt F) fo [⟨Rect.whole _, wc⟩])
          ∗ (slotM0).view.loc (thr d c s) ↦[(slotM0).view.set]{fullShare} (slotM0).view.writes (Elt F) fR [⟨Rect.whole S128x128, ws⟩])
      ⊢ (Slot0 m d c s (k.val + 1) : sProp 𝕄) := by
  subst hsm; subst hι
  rw [slot0_pos m d c s (k.val + 1) (Nat.succ_ne_zero _), Nat.add_sub_cancel]
  have hD : ((((outW).slice (Rect.unit (s := S2000000x128) (k1_off12 (coordsV c s) k) S128x128.size (k1_off12_inb (coordsV c s) k (hO0 c s k hw))) (fun _ => rfl))).view.loc (thr d c s) ↦[(((outW).slice (Rect.unit (s := S2000000x128) (k1_off12 (coordsV c s) k) S128x128.size (k1_off12_inb (coordsV c s) k (hO0 c s k hw))) (fun _ => rfl))).view.set]{fullShare} (((outW).slice (Rect.unit (s := S2000000x128) (k1_off12 (coordsV c s) k) S128x128.size (k1_off12_inb (coordsV c s) k (hO0 c s k hw))) (fun _ => rfl))).view.writes (Elt F) fo [⟨Rect.whole _, wc⟩] : sProp 𝕄)
      = (outLoc d ↦[chunkSet (chunkIx c s k.val 0)]{fullShare} outG m d) :=
    (pts_chunk0 d c s k (hO0 c s k hw) (chunk_lt c s hw k ⟨0, of_decide_eq_true rfl⟩) fullShare _).trans
      ((congrArg (fun g => (outLoc d ↦[chunkSet g]{fullShare} (((outW).slice (Rect.unit (s := S2000000x128) (k1_off12 (coordsV c s) k) S128x128.size (k1_off12_inb (coordsV c s) k (hO0 c s k hw))) (fun _ => rfl))).view.writes (Elt F) fo [⟨Rect.whole _, wc⟩] : sProp 𝕄))
        (chunkIx_eq_chunkOf c s hw k ⟨0, of_decide_eq_true rfl⟩ (chunk_lt c s hw k ⟨0, of_decide_eq_true rfl⟩)).symm).trans (pointsTo_congr hval))
  iintro H
  iexists ((slotM0).view.writes (Elt F) fR [⟨Rect.whole S128x128, ws⟩])
  iapply (Transfers.Flight_mono (countersEmb (U := UU)) (thr d c s) (BI.sep_mono (Entails.of_eq hD) (BI.Entails.refl _))) $$ H

/-- slot 1: the flight of the copy-out of chunk 7 k + 1, its delivery restated at the result's values -/
theorem slot1_close (hw : 2 * s.val + c.val ≤ 30) (k : Fin k1_t1_loop.trips) (sm : SemLoc sig) (hsm : sm = SemLoc.dma cc1_scratch12.sem) (ι : HIx 1) (hι : ι = none)
    (fo : Buf (Elt F) (outLoc d)) (fR : Buf (Elt F) ((rwS).view.loc (thr d c s)))
    (wc : (Rect.whole (Rect.unit (s := S2000000x128) (k1_off14 (coordsV c s) k) S128x128.size (k1_off14_inb (coordsV c s) k (hO1 c s k hw))).shape).shape.Idx → Elt F .f32)
    (ws : (Rect.whole S128x128).shape.Idx → Elt F .f32)
    (hval : ∀ i ∈ chunkSet (chunkIx c s k.val 1), (((outW).slice (Rect.unit (s := S2000000x128) (k1_off14 (coordsV c s) k) S128x128.size (k1_off14_inb (coordsV c s) k (hO1 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off14 (coordsV c s) k) S128x128.size (k1_off14_inb (coordsV c s) k (hO1 c s k hw))) (fun _ => rfl))).view.loc (thr d c s) ↦[(((outW).slice (Rect.unit (s := S2000000x128) (k1_off14 (coordsV c s) k) S128x128.size (k1_off14_inb (coordsV c s) k (hO1 c s k hw))) (fun _ => rfl))).view.set]{fullShare} (((outW).slice (Rect.unit (s := S2000000x128) (k1_off14 (coordsV c s) k) S128x128.size (k1_off14_inb (coordsV c s) k (hO1 c s k hw))) (fun _ => rfl))).view.writes (Elt F) fo [⟨Rect.whole _, wc⟩])
          ∗ (slotM1).view.loc (thr d c s) ↦[(slotM1).view.set]{fullShare} (slotM1).view.writes (Elt F) fR [⟨Rect.whole S128x128, ws⟩])
      ⊢ (Slot1 m d c s (k.val + 1) : sProp 𝕄) := by
  subst hsm; subst hι
  rw [slot1_pos m d c s (k.val + 1) (Nat.succ_ne_zero _), Nat.add_sub_cancel]
  have hD : ((((outW).slice (Rect.unit (s := S2000000x128) (k1_off14 (coordsV c s) k) S128x128.size (k1_off14_inb (coordsV c s) k (hO1 c s k hw))) (fun _ => rfl))).view.loc (thr d c s) ↦[(((outW).slice (Rect.unit (s := S2000000x128) (k1_off14 (coordsV c s) k) S128x128.size (k1_off14_inb (coordsV c s) k (hO1 c s k hw))) (fun _ => rfl))).view.set]{fullShare} (((outW).slice (Rect.unit (s := S2000000x128) (k1_off14 (coordsV c s) k) S128x128.size (k1_off14_inb (coordsV c s) k (hO1 c s k hw))) (fun _ => rfl))).view.writes (Elt F) fo [⟨Rect.whole _, wc⟩] : sProp 𝕄)
      = (outLoc d ↦[chunkSet (chunkIx c s k.val 1)]{fullShare} outG m d) :=
    (pts_chunk1 d c s k (hO1 c s k hw) (chunk_lt c s hw k ⟨1, of_decide_eq_true rfl⟩) fullShare _).trans
      ((congrArg (fun g => (outLoc d ↦[chunkSet g]{fullShare} (((outW).slice (Rect.unit (s := S2000000x128) (k1_off14 (coordsV c s) k) S128x128.size (k1_off14_inb (coordsV c s) k (hO1 c s k hw))) (fun _ => rfl))).view.writes (Elt F) fo [⟨Rect.whole _, wc⟩] : sProp 𝕄))
        (chunkIx_eq_chunkOf c s hw k ⟨1, of_decide_eq_true rfl⟩ (chunk_lt c s hw k ⟨1, of_decide_eq_true rfl⟩)).symm).trans (pointsTo_congr hval))
  iintro H
  iexists ((slotM1).view.writes (Elt F) fR [⟨Rect.whole S128x128, ws⟩])
  iapply (Transfers.Flight_mono (countersEmb (U := UU)) (thr d c s) (BI.sep_mono (Entails.of_eq hD) (BI.Entails.refl _))) $$ H

/-- slot 2: the flight of the copy-out of chunk 7 k + 2, its delivery restated at the result's values -/
theorem slot2_close (hw : 2 * s.val + c.val ≤ 30) (k : Fin k1_t1_loop.trips) (sm : SemLoc sig) (hsm : sm = SemLoc.dma cc1_scratch13.sem) (ι : HIx 1) (hι : ι = none)
    (fo : Buf (Elt F) (outLoc d)) (fR : Buf (Elt F) ((rwS).view.loc (thr d c s)))
    (wc : (Rect.whole (Rect.unit (s := S2000000x128) (k1_off16 (coordsV c s) k) S128x128.size (k1_off16_inb (coordsV c s) k (hO2 c s k hw))).shape).shape.Idx → Elt F .f32)
    (ws : (Rect.whole S128x128).shape.Idx → Elt F .f32)
    (hval : ∀ i ∈ chunkSet (chunkIx c s k.val 2), (((outW).slice (Rect.unit (s := S2000000x128) (k1_off16 (coordsV c s) k) S128x128.size (k1_off16_inb (coordsV c s) k (hO2 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off16 (coordsV c s) k) S128x128.size (k1_off16_inb (coordsV c s) k (hO2 c s k hw))) (fun _ => rfl))).view.loc (thr d c s) ↦[(((outW).slice (Rect.unit (s := S2000000x128) (k1_off16 (coordsV c s) k) S128x128.size (k1_off16_inb (coordsV c s) k (hO2 c s k hw))) (fun _ => rfl))).view.set]{fullShare} (((outW).slice (Rect.unit (s := S2000000x128) (k1_off16 (coordsV c s) k) S128x128.size (k1_off16_inb (coordsV c s) k (hO2 c s k hw))) (fun _ => rfl))).view.writes (Elt F) fo [⟨Rect.whole _, wc⟩])
          ∗ (slotM2).view.loc (thr d c s) ↦[(slotM2).view.set]{fullShare} (slotM2).view.writes (Elt F) fR [⟨Rect.whole S128x128, ws⟩])
      ⊢ (Slot2 m d c s (k.val + 1) : sProp 𝕄) := by
  subst hsm; subst hι
  rw [slot2_pos m d c s (k.val + 1) (Nat.succ_ne_zero _), Nat.add_sub_cancel]
  have hD : ((((outW).slice (Rect.unit (s := S2000000x128) (k1_off16 (coordsV c s) k) S128x128.size (k1_off16_inb (coordsV c s) k (hO2 c s k hw))) (fun _ => rfl))).view.loc (thr d c s) ↦[(((outW).slice (Rect.unit (s := S2000000x128) (k1_off16 (coordsV c s) k) S128x128.size (k1_off16_inb (coordsV c s) k (hO2 c s k hw))) (fun _ => rfl))).view.set]{fullShare} (((outW).slice (Rect.unit (s := S2000000x128) (k1_off16 (coordsV c s) k) S128x128.size (k1_off16_inb (coordsV c s) k (hO2 c s k hw))) (fun _ => rfl))).view.writes (Elt F) fo [⟨Rect.whole _, wc⟩] : sProp 𝕄)
      = (outLoc d ↦[chunkSet (chunkIx c s k.val 2)]{fullShare} outG m d) :=
    (pts_chunk2 d c s k (hO2 c s k hw) (chunk_lt c s hw k ⟨2, of_decide_eq_true rfl⟩) fullShare _).trans
      ((congrArg (fun g => (outLoc d ↦[chunkSet g]{fullShare} (((outW).slice (Rect.unit (s := S2000000x128) (k1_off16 (coordsV c s) k) S128x128.size (k1_off16_inb (coordsV c s) k (hO2 c s k hw))) (fun _ => rfl))).view.writes (Elt F) fo [⟨Rect.whole _, wc⟩] : sProp 𝕄))
        (chunkIx_eq_chunkOf c s hw k ⟨2, of_decide_eq_true rfl⟩ (chunk_lt c s hw k ⟨2, of_decide_eq_true rfl⟩)).symm).trans (pointsTo_congr hval))
  iintro H
  iexists ((slotM2).view.writes (Elt F) fR [⟨Rect.whole S128x128, ws⟩])
  iapply (Transfers.Flight_mono (countersEmb (U := UU)) (thr d c s) (BI.sep_mono (Entails.of_eq hD) (BI.Entails.refl _))) $$ H

/-- slot 3: the flight of the copy-out of chunk 7 k + 3, its delivery restated at the result's values -/
theorem slot3_close (hw : 2 * s.val + c.val ≤ 30) (k : Fin k1_t1_loop.trips) (sm : SemLoc sig) (hsm : sm = SemLoc.dma cc1_scratch14.sem) (ι : HIx 1) (hι : ι = none)
    (fo : Buf (Elt F) (outLoc d)) (fR : Buf (Elt F) ((rwS).view.loc (thr d c s)))
    (wc : (Rect.whole (Rect.unit (s := S2000000x128) (k1_off18 (coordsV c s) k) S128x128.size (k1_off18_inb (coordsV c s) k (hO3 c s k hw))).shape).shape.Idx → Elt F .f32)
    (ws : (Rect.whole S128x128).shape.Idx → Elt F .f32)
    (hval : ∀ i ∈ chunkSet (chunkIx c s k.val 3), (((outW).slice (Rect.unit (s := S2000000x128) (k1_off18 (coordsV c s) k) S128x128.size (k1_off18_inb (coordsV c s) k (hO3 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off18 (coordsV c s) k) S128x128.size (k1_off18_inb (coordsV c s) k (hO3 c s k hw))) (fun _ => rfl))).view.loc (thr d c s) ↦[(((outW).slice (Rect.unit (s := S2000000x128) (k1_off18 (coordsV c s) k) S128x128.size (k1_off18_inb (coordsV c s) k (hO3 c s k hw))) (fun _ => rfl))).view.set]{fullShare} (((outW).slice (Rect.unit (s := S2000000x128) (k1_off18 (coordsV c s) k) S128x128.size (k1_off18_inb (coordsV c s) k (hO3 c s k hw))) (fun _ => rfl))).view.writes (Elt F) fo [⟨Rect.whole _, wc⟩])
          ∗ (slotM3).view.loc (thr d c s) ↦[(slotM3).view.set]{fullShare} (slotM3).view.writes (Elt F) fR [⟨Rect.whole S128x128, ws⟩])
      ⊢ (Slot3 m d c s (k.val + 1) : sProp 𝕄) := by
  subst hsm; subst hι
  rw [slot3_pos m d c s (k.val + 1) (Nat.succ_ne_zero _), Nat.add_sub_cancel]
  have hD : ((((outW).slice (Rect.unit (s := S2000000x128) (k1_off18 (coordsV c s) k) S128x128.size (k1_off18_inb (coordsV c s) k (hO3 c s k hw))) (fun _ => rfl))).view.loc (thr d c s) ↦[(((outW).slice (Rect.unit (s := S2000000x128) (k1_off18 (coordsV c s) k) S128x128.size (k1_off18_inb (coordsV c s) k (hO3 c s k hw))) (fun _ => rfl))).view.set]{fullShare} (((outW).slice (Rect.unit (s := S2000000x128) (k1_off18 (coordsV c s) k) S128x128.size (k1_off18_inb (coordsV c s) k (hO3 c s k hw))) (fun _ => rfl))).view.writes (Elt F) fo [⟨Rect.whole _, wc⟩] : sProp 𝕄)
      = (outLoc d ↦[chunkSet (chunkIx c s k.val 3)]{fullShare} outG m d) :=
    (pts_chunk3 d c s k (hO3 c s k hw) (chunk_lt c s hw k ⟨3, of_decide_eq_true rfl⟩) fullShare _).trans
      ((congrArg (fun g => (outLoc d ↦[chunkSet g]{fullShare} (((outW).slice (Rect.unit (s := S2000000x128) (k1_off18 (coordsV c s) k) S128x128.size (k1_off18_inb (coordsV c s) k (hO3 c s k hw))) (fun _ => rfl))).view.writes (Elt F) fo [⟨Rect.whole _, wc⟩] : sProp 𝕄))
        (chunkIx_eq_chunkOf c s hw k ⟨3, of_decide_eq_true rfl⟩ (chunk_lt c s hw k ⟨3, of_decide_eq_true rfl⟩)).symm).trans (pointsTo_congr hval))
  iintro H
  iexists ((slotM3).view.writes (Elt F) fR [⟨Rect.whole S128x128, ws⟩])
  iapply (Transfers.Flight_mono (countersEmb (U := UU)) (thr d c s) (BI.sep_mono (Entails.of_eq hD) (BI.Entails.refl _))) $$ H

/-- slot 4: the flight of the copy-out of chunk 7 k + 4, its delivery restated at the result's values -/
theorem slot4_close (hw : 2 * s.val + c.val ≤ 30) (k : Fin k1_t1_loop.trips) (sm : SemLoc sig) (hsm : sm = SemLoc.dma cc1_scratch15.sem) (ι : HIx 1) (hι : ι = none)
    (fo : Buf (Elt F) (outLoc d)) (fR : Buf (Elt F) ((rwS).view.loc (thr d c s)))
    (wc : (Rect.whole (Rect.unit (s := S2000000x128) (k1_off20 (coordsV c s) k) S128x128.size (k1_off20_inb (coordsV c s) k (hO4 c s k hw))).shape).shape.Idx → Elt F .f32)
    (ws : (Rect.whole S128x128).shape.Idx → Elt F .f32)
    (hval : ∀ i ∈ chunkSet (chunkIx c s k.val 4), (((outW).slice (Rect.unit (s := S2000000x128) (k1_off20 (coordsV c s) k) S128x128.size (k1_off20_inb (coordsV c s) k (hO4 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off20 (coordsV c s) k) S128x128.size (k1_off20_inb (coordsV c s) k (hO4 c s k hw))) (fun _ => rfl))).view.loc (thr d c s) ↦[(((outW).slice (Rect.unit (s := S2000000x128) (k1_off20 (coordsV c s) k) S128x128.size (k1_off20_inb (coordsV c s) k (hO4 c s k hw))) (fun _ => rfl))).view.set]{fullShare} (((outW).slice (Rect.unit (s := S2000000x128) (k1_off20 (coordsV c s) k) S128x128.size (k1_off20_inb (coordsV c s) k (hO4 c s k hw))) (fun _ => rfl))).view.writes (Elt F) fo [⟨Rect.whole _, wc⟩])
          ∗ (slotM4).view.loc (thr d c s) ↦[(slotM4).view.set]{fullShare} (slotM4).view.writes (Elt F) fR [⟨Rect.whole S128x128, ws⟩])
      ⊢ (Slot4 m d c s (k.val + 1) : sProp 𝕄) := by
  subst hsm; subst hι
  rw [slot4_pos m d c s (k.val + 1) (Nat.succ_ne_zero _), Nat.add_sub_cancel]
  have hD : ((((outW).slice (Rect.unit (s := S2000000x128) (k1_off20 (coordsV c s) k) S128x128.size (k1_off20_inb (coordsV c s) k (hO4 c s k hw))) (fun _ => rfl))).view.loc (thr d c s) ↦[(((outW).slice (Rect.unit (s := S2000000x128) (k1_off20 (coordsV c s) k) S128x128.size (k1_off20_inb (coordsV c s) k (hO4 c s k hw))) (fun _ => rfl))).view.set]{fullShare} (((outW).slice (Rect.unit (s := S2000000x128) (k1_off20 (coordsV c s) k) S128x128.size (k1_off20_inb (coordsV c s) k (hO4 c s k hw))) (fun _ => rfl))).view.writes (Elt F) fo [⟨Rect.whole _, wc⟩] : sProp 𝕄)
      = (outLoc d ↦[chunkSet (chunkIx c s k.val 4)]{fullShare} outG m d) :=
    (pts_chunk4 d c s k (hO4 c s k hw) (chunk_lt c s hw k ⟨4, of_decide_eq_true rfl⟩) fullShare _).trans
      ((congrArg (fun g => (outLoc d ↦[chunkSet g]{fullShare} (((outW).slice (Rect.unit (s := S2000000x128) (k1_off20 (coordsV c s) k) S128x128.size (k1_off20_inb (coordsV c s) k (hO4 c s k hw))) (fun _ => rfl))).view.writes (Elt F) fo [⟨Rect.whole _, wc⟩] : sProp 𝕄))
        (chunkIx_eq_chunkOf c s hw k ⟨4, of_decide_eq_true rfl⟩ (chunk_lt c s hw k ⟨4, of_decide_eq_true rfl⟩)).symm).trans (pointsTo_congr hval))
  iintro H
  iexists ((slotM4).view.writes (Elt F) fR [⟨Rect.whole S128x128, ws⟩])
  iapply (Transfers.Flight_mono (countersEmb (U := UU)) (thr d c s) (BI.sep_mono (Entails.of_eq hD) (BI.Entails.refl _))) $$ H

/-- slot 5: the flight of the copy-out of chunk 7 k + 5, its delivery restated at the result's values -/
theorem slot5_close (hw : 2 * s.val + c.val ≤ 30) (k : Fin k1_t1_loop.trips) (sm : SemLoc sig) (hsm : sm = SemLoc.dma cc1_scratch16.sem) (ι : HIx 1) (hι : ι = none)
    (fo : Buf (Elt F) (outLoc d)) (fR : Buf (Elt F) ((rwS).view.loc (thr d c s)))
    (wc : (Rect.whole (Rect.unit (s := S2000000x128) (k1_off22 (coordsV c s) k) S128x128.size (k1_off22_inb (coordsV c s) k (hO5 c s k hw))).shape).shape.Idx → Elt F .f32)
    (ws : (Rect.whole S128x128).shape.Idx → Elt F .f32)
    (hval : ∀ i ∈ chunkSet (chunkIx c s k.val 5), (((outW).slice (Rect.unit (s := S2000000x128) (k1_off22 (coordsV c s) k) S128x128.size (k1_off22_inb (coordsV c s) k (hO5 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off22 (coordsV c s) k) S128x128.size (k1_off22_inb (coordsV c s) k (hO5 c s k hw))) (fun _ => rfl))).view.loc (thr d c s) ↦[(((outW).slice (Rect.unit (s := S2000000x128) (k1_off22 (coordsV c s) k) S128x128.size (k1_off22_inb (coordsV c s) k (hO5 c s k hw))) (fun _ => rfl))).view.set]{fullShare} (((outW).slice (Rect.unit (s := S2000000x128) (k1_off22 (coordsV c s) k) S128x128.size (k1_off22_inb (coordsV c s) k (hO5 c s k hw))) (fun _ => rfl))).view.writes (Elt F) fo [⟨Rect.whole _, wc⟩])
          ∗ (slotM5).view.loc (thr d c s) ↦[(slotM5).view.set]{fullShare} (slotM5).view.writes (Elt F) fR [⟨Rect.whole S128x128, ws⟩])
      ⊢ (Slot5 m d c s (k.val + 1) : sProp 𝕄) := by
  subst hsm; subst hι
  rw [slot5_pos m d c s (k.val + 1) (Nat.succ_ne_zero _), Nat.add_sub_cancel]
  have hD : ((((outW).slice (Rect.unit (s := S2000000x128) (k1_off22 (coordsV c s) k) S128x128.size (k1_off22_inb (coordsV c s) k (hO5 c s k hw))) (fun _ => rfl))).view.loc (thr d c s) ↦[(((outW).slice (Rect.unit (s := S2000000x128) (k1_off22 (coordsV c s) k) S128x128.size (k1_off22_inb (coordsV c s) k (hO5 c s k hw))) (fun _ => rfl))).view.set]{fullShare} (((outW).slice (Rect.unit (s := S2000000x128) (k1_off22 (coordsV c s) k) S128x128.size (k1_off22_inb (coordsV c s) k (hO5 c s k hw))) (fun _ => rfl))).view.writes (Elt F) fo [⟨Rect.whole _, wc⟩] : sProp 𝕄)
      = (outLoc d ↦[chunkSet (chunkIx c s k.val 5)]{fullShare} outG m d) :=
    (pts_chunk5 d c s k (hO5 c s k hw) (chunk_lt c s hw k ⟨5, of_decide_eq_true rfl⟩) fullShare _).trans
      ((congrArg (fun g => (outLoc d ↦[chunkSet g]{fullShare} (((outW).slice (Rect.unit (s := S2000000x128) (k1_off22 (coordsV c s) k) S128x128.size (k1_off22_inb (coordsV c s) k (hO5 c s k hw))) (fun _ => rfl))).view.writes (Elt F) fo [⟨Rect.whole _, wc⟩] : sProp 𝕄))
        (chunkIx_eq_chunkOf c s hw k ⟨5, of_decide_eq_true rfl⟩ (chunk_lt c s hw k ⟨5, of_decide_eq_true rfl⟩)).symm).trans (pointsTo_congr hval))
  iintro H
  iexists ((slotM5).view.writes (Elt F) fR [⟨Rect.whole S128x128, ws⟩])
  iapply (Transfers.Flight_mono (countersEmb (U := UU)) (thr d c s) (BI.sep_mono (Entails.of_eq hD) (BI.Entails.refl _))) $$ H

/-- slot 6: the flight of the copy-out of chunk 7 k + 6, its delivery restated at the result's values -/
theorem slot6_close (hw : 2 * s.val + c.val ≤ 30) (k : Fin k1_t1_loop.trips) (sm : SemLoc sig) (hsm : sm = SemLoc.dma cc1_scratch17.sem) (ι : HIx 1) (hι : ι = none)
    (fo : Buf (Elt F) (outLoc d)) (fR : Buf (Elt F) ((rwS).view.loc (thr d c s)))
    (wc : (Rect.whole (Rect.unit (s := S2000000x128) (k1_off24 (coordsV c s) k) S128x128.size (k1_off24_inb (coordsV c s) k (hO6 c s k hw))).shape).shape.Idx → Elt F .f32)
    (ws : (Rect.whole S128x128).shape.Idx → Elt F .f32)
    (hval : ∀ i ∈ chunkSet (chunkIx c s k.val 6), (((outW).slice (Rect.unit (s := S2000000x128) (k1_off24 (coordsV c s) k) S128x128.size (k1_off24_inb (coordsV c s) k (hO6 c s k hw))) (fun _ => rfl))).view.writes (Elt F) fo [⟨Rect.whole _, wc⟩] i = outG m d i) :
    Transfers.Flight (countersEmb (U := UU)) (thr d c s) sm ι 524288
        iprop(((((outW).slice (Rect.unit (s := S2000000x128) (k1_off24 (coordsV c s) k) S128x128.size (k1_off24_inb (coordsV c s) k (hO6 c s k hw))) (fun _ => rfl))).view.loc (thr d c s) ↦[(((outW).slice (Rect.unit (s := S2000000x128) (k1_off24 (coordsV c s) k) S128x128.size (k1_off24_inb (coordsV c s) k (hO6 c s k hw))) (fun _ => rfl))).view.set]{fullShare} (((outW).slice (Rect.unit (s := S2000000x128) (k1_off24 (coordsV c s) k) S128x128.size (k1_off24_inb (coordsV c s) k (hO6 c s k hw))) (fun _ => rfl))).view.writes (Elt F) fo [⟨Rect.whole _, wc⟩])
          ∗ (slotM6).view.loc (thr d c s) ↦[(slotM6).view.set]{fullShare} (slotM6).view.writes (Elt F) fR [⟨Rect.whole S128x128, ws⟩])
      ⊢ (Slot6 m d c s (k.val + 1) : sProp 𝕄) := by
  subst hsm; subst hι
  rw [slot6_pos m d c s (k.val + 1) (Nat.succ_ne_zero _), Nat.add_sub_cancel]
  have hD : ((((outW).slice (Rect.unit (s := S2000000x128) (k1_off24 (coordsV c s) k) S128x128.size (k1_off24_inb (coordsV c s) k (hO6 c s k hw))) (fun _ => rfl))).view.loc (thr d c s) ↦[(((outW).slice (Rect.unit (s := S2000000x128) (k1_off24 (coordsV c s) k) S128x128.size (k1_off24_inb (coordsV c s) k (hO6 c s k hw))) (fun _ => rfl))).view.set]{fullShare} (((outW).slice (Rect.unit (s := S2000000x128) (k1_off24 (coordsV c s) k) S128x128.size (k1_off24_inb (coordsV c s) k (hO6 c s k hw))) (fun _ => rfl))).view.writes (Elt F) fo [⟨Rect.whole _, wc⟩] : sProp 𝕄)
      = (outLoc d ↦[chunkSet (chunkIx c s k.val 6)]{fullShare} outG m d) :=
    (pts_chunk6 d c s k (hO6 c s k hw) (chunk_lt c s hw k ⟨6, of_decide_eq_true rfl⟩) fullShare _).trans
      ((congrArg (fun g => (outLoc d ↦[chunkSet g]{fullShare} (((outW).slice (Rect.unit (s := S2000000x128) (k1_off24 (coordsV c s) k) S128x128.size (k1_off24_inb (coordsV c s) k (hO6 c s k hw))) (fun _ => rfl))).view.writes (Elt F) fo [⟨Rect.whole _, wc⟩] : sProp 𝕄))
        (chunkIx_eq_chunkOf c s hw k ⟨6, of_decide_eq_true rfl⟩ (chunk_lt c s hw k ⟨6, of_decide_eq_true rfl⟩)).symm).trans (pointsTo_congr hval))
  iintro H
  iexists ((slotM6).view.writes (Elt F) fR [⟨Rect.whole S128x128, ws⟩])
  iapply (Transfers.Flight_mono (countersEmb (U := UU)) (thr d c s) (BI.sep_mono (Entails.of_eq hD) (BI.Entails.refl _))) $$ H

/-! ## The chunks, the gather semaphores, the waits -/

/-- the seven chunks the previous trip's copy-outs hand back join the chunks done -/
theorem done_close (k : ℕ) (hk : 0 < k) :
    iprop(Done m d c s k ∗ (outLoc d ↦[chunkSet (chunkIx c s (k - 1) 0)]{fullShare} outG m d) ∗ (outLoc d ↦[chunkSet (chunkIx c s (k - 1) 1)]{fullShare} outG m d) ∗ (outLoc d ↦[chunkSet (chunkIx c s (k - 1) 2)]{fullShare} outG m d) ∗ (outLoc d ↦[chunkSet (chunkIx c s (k - 1) 3)]{fullShare} outG m d) ∗ (outLoc d ↦[chunkSet (chunkIx c s (k - 1) 4)]{fullShare} outG m d) ∗ (outLoc d ↦[chunkSet (chunkIx c s (k - 1) 5)]{fullShare} outG m d) ∗ (outLoc d ↦[chunkSet (chunkIx c s (k - 1) 6)]{fullShare} outG m d))
      ⊢ (Done m d c s (k + 1) : sProp 𝕄) := by
  rw [done_step m d c s k hk]

theorem gsems_close (g0 g1 g2 g3 g4 g5 g6 : SemLoc sig) (h0 : g0 = SemLoc.dma cc1_scratch4.sem) (h1 : g1 = SemLoc.dma cc1_scratch5.sem) (h2 : g2 = SemLoc.dma cc1_scratch6.sem) (h3 : g3 = SemLoc.dma cc1_scratch7.sem) (h4 : g4 = SemLoc.dma cc1_scratch8.sem) (h5 : g5 = SemLoc.dma cc1_scratch9.sem) (h6 : g6 = SemLoc.dma cc1_scratch10.sem) :
    iprop(semVal (thr d c s, g0) 0 ∗ semVal (thr d c s, g1) 0 ∗ semVal (thr d c s, g2) 0 ∗ semVal (thr d c s, g3) 0 ∗ semVal (thr d c s, g4) 0 ∗ semVal (thr d c s, g5) 0 ∗ semVal (thr d c s, g6) 0) ⊢ (GSems d c s : sProp 𝕄) := by
  subst h0 h1 h2 h3 h4 h5 h6
  unfold GSems; exact BI.Entails.refl _

theorem owes_close (O : CellTallies nD τ sig (HIx 1)) (W W' : Waits sig (HIx 1)) (h : ∀ p ∈ W', p ∈ W ∨ p.2 = none ∨ p.2 = some 0) :
    owes (thr d c s) O W' ⊢ (KB.Owes d c s O W : sProp 𝕄) := by
  unfold KB.Owes
  iintro H
  iexists W'
  isplitr
  · ipureintro; exact h
  · iexact H

/-! ## The index scratch after a prefetching trip -/

/-- the trip's seven lists and the rest of their half are the half again -/
theorem half_join (hw : 2 * s.val + c.val ≤ 30) (k : Fin k1_t1_loop.trips) (f : Buf (Elt F) ((ixS).view.loc (thr d c s))) :
    iprop((((ixS).slice (Rect.unit (s := S7168) (k1_off4 k) S128.size (k1_off4_inb (coordsV c s) k (hG0 c s k hw))) (fun _ => rfl)).view.loc (thr d c s) ↦[((ixS).slice (Rect.unit (s := S7168) (k1_off4 k) S128.size (k1_off4_inb (coordsV c s) k (hG0 c s k hw))) (fun _ => rfl)).view.set]{fullShare} f)
        ∗ (((ixS).slice (Rect.unit (s := S7168) (k1_off5 k) S128.size (k1_off5_inb (coordsV c s) k (hG1 c s k hw))) (fun _ => rfl)).view.loc (thr d c s) ↦[((ixS).slice (Rect.unit (s := S7168) (k1_off5 k) S128.size (k1_off5_inb (coordsV c s) k (hG1 c s k hw))) (fun _ => rfl)).view.set]{fullShare} f)
        ∗ (((ixS).slice (Rect.unit (s := S7168) (k1_off6 k) S128.size (k1_off6_inb (coordsV c s) k (hG2 c s k hw))) (fun _ => rfl)).view.loc (thr d c s) ↦[((ixS).slice (Rect.unit (s := S7168) (k1_off6 k) S128.size (k1_off6_inb (coordsV c s) k (hG2 c s k hw))) (fun _ => rfl)).view.set]{fullShare} f)
        ∗ (((ixS).slice (Rect.unit (s := S7168) (k1_off7 k) S128.size (k1_off7_inb (coordsV c s) k (hG3 c s k hw))) (fun _ => rfl)).view.loc (thr d c s) ↦[((ixS).slice (Rect.unit (s := S7168) (k1_off7 k) S128.size (k1_off7_inb (coordsV c s) k (hG3 c s k hw))) (fun _ => rfl)).view.set]{fullShare} f)
        ∗ (((ixS).slice (Rect.unit (s := S7168) (k1_off8 k) S128.size (k1_off8_inb (coordsV c s) k (hG4 c s k hw))) (fun _ => rfl)).view.loc (thr d c s) ↦[((ixS).slice (Rect.unit (s := S7168) (k1_off8 k) S128.size (k1_off8_inb (coordsV c s) k (hG4 c s k hw))) (fun _ => rfl)).view.set]{fullShare} f)
        ∗ (((ixS).slice (Rect.unit (s := S7168) (k1_off9 k) S128.size (k1_off9_inb (coordsV c s) k (hG5 c s k hw))) (fun _ => rfl)).view.loc (thr d c s) ↦[((ixS).slice (Rect.unit (s := S7168) (k1_off9 k) S128.size (k1_off9_inb (coordsV c s) k (hG5 c s k hw))) (fun _ => rfl)).view.set]{fullShare} f)
        ∗ (((ixS).slice (Rect.unit (s := S7168) (k1_off10 k) S128.size (k1_off10_inb (coordsV c s) k (hG6 c s k hw))) (fun _ => rfl)).view.loc (thr d c s) ↦[((ixS).slice (Rect.unit (s := S7168) (k1_off10 k) S128.size (k1_off10_inb (coordsV c s) k (hG6 c s k hw))) (fun _ => rfl)).view.set]{fullShare} f)
        ∗ (ixS).view.loc (thr d c s) ↦[halfSet (halfOf (k.val / 4)) \ (Finset.univ.biUnion fun b : Fin 7 => pcSet (listOf k b))]{fullShare} f)
      ⊢ ((halfM (halfOf (k.val / 4))).view.loc (thr d c s) ↦[halfSet (halfOf (k.val / 4))]{fullShare} f : sProp 𝕄) := by
  rw [half_split d c s (halfOf (k.val / 4)) k rfl fullShare f,
    bigSep_fin7' (F := F) (fun b : Fin 7 => (pcM (listOf k b)).view.loc (thr d c s) ↦[pcSet (listOf k b)]{fullShare} f),
    ← pts_list0 d c s k (hG0 c s k hw) fullShare f, ← pts_list1 d c s k (hG1 c s k hw) fullShare f, ← pts_list2 d c s k (hG2 c s k hw) fullShare f, ← pts_list3 d c s k (hG3 c s k hw) fullShare f, ← pts_list4 d c s k (hG4 c s k hw) fullShare f, ← pts_list5 d c s k (hG5 c s k hw) fullShare f, ← pts_list6 d c s k (hG6 c s k hw) fullShare f]
  iintro ⟨H0, H1, H2, H3, H4, H5, H6, Hr⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  · iexact Hr

theorem stJ_of_le (j : ℕ) (h : j < 18) : stJ j = ⟨j, h⟩ := Fin.ext (by show min j 17 = j; omega)

/-- After a trip that waited for stage k / 4 and issued stage k / 4 + 1: the new flight is the next trip's prefetch in
    flight, the half just landed the next trip's held half. -/
theorem idx_close_issue (k : Fin k1_t1_loop.trips) (h2 : k1_cond2 k = 1#1) (h3 : k1_cond3 k = 1#1)
    (sm : SemLoc sig) (hsm : sm = SemLoc.dma cc1_scratch3.sem) (ι : HIx 1) (hι : ι = none)
    (fA fB : Buf (Elt F) ((ixS).view.loc (thr d c s))) (hA : StageAt m d c s (halfOf (k.val / 4)) (k.val / 4) fA)
    (w : (Rect.whole (Rect.unit (s := S7168) (k1_off2 k) S3584.size (k1_off2_inb k h2 h3)).shape).shape.Idx → Elt F .i32)
    (hB : StageAt m d c s (halfOf (k.val / 4 + 1)) (k.val / 4 + 1) (((ixS).slice (Rect.unit (s := S7168) (k1_off2 k) S3584.size (k1_off2_inb k h2 h3)) (fun _ => rfl)).view.writes (Elt F) fB [⟨Rect.whole _, w⟩])) :
    iprop(Transfers.Flight (countersEmb (U := UU)) (thr d c s) sm ι 114688
          iprop((((ixS).slice (Rect.unit (s := S7168) (k1_off2 k) S3584.size (k1_off2_inb k h2 h3)) (fun _ => rfl)).view.loc (thr d c s) ↦[((ixS).slice (Rect.unit (s := S7168) (k1_off2 k) S3584.size (k1_off2_inb k h2 h3)) (fun _ => rfl)).view.set]{fullShare} ((ixS).slice (Rect.unit (s := S7168) (k1_off2 k) S3584.size (k1_off2_inb k h2 h3)) (fun _ => rfl)).view.writes (Elt F) fB [⟨Rect.whole _, w⟩])
            ∗ (idxV).view.loc (thr d c s) ↦[((idxV).slice (Rect.unit (s := S2064384) (k1_off3 (coordsV c s) k) S3584.size (k1_off3_inb (coordsV c s) k h2 h3)) (fun _ => rfl)).view.set]{qI c s} idxc m d)
        ∗ ((idxV).view.loc (thr d c s) ↦[Finset.univ \ ((idxV).slice (Rect.unit (s := S2064384) (k1_off3 (coordsV c s) k) S3584.size (k1_off3_inb (coordsV c s) k h2 h3)) (fun _ => rfl)).view.set]{qI c s} idxc m d)
        ∗ (halfM (halfOf (k.val / 4))).view.loc (thr d c s) ↦[halfSet (halfOf (k.val / 4))]{fullShare} fA)
      ⊢ (IdxSt m d c s (k.val + 1) : sProp 𝕄) := by
  subst hsm; subst hι
  have hm := cond2_mod k h2
  have hlt := cond3_lt k h3
  have hset : ((idxV).slice (Rect.unit (s := S2064384) (k1_off3 (coordsV c s) k) S3584.size (k1_off3_inb (coordsV c s) k h2 h3)) (fun _ => rfl)).view.set = stSet (wOf c s) (stJ (k.val / 4 + 1)) := by
    rw [set_st c s k h2 h3, stJ_of_le (k.val / 4 + 1) hlt]
  have hk68 : k.val + 1 ≤ 68 := by omega
  rw [idxSt_le m d c s (k.val + 1) hk68, show (k.val + 1 + 3) / 4 = k.val / 4 + 1 by omega, show (k.val + 1) / 4 = k.val / 4 by omega,
    show halfOf (k.val / 4 + 1 + 1) = halfOf (k.val / 4) from Fin.ext (by show (k.val / 4 + 1 + 1) % 2 = (k.val / 4) % 2; omega)]
  unfold PrefFlight HalfHeld
  rw [hset]
  iintro ⟨Hfl, Hrest, Hhalf⟩
  isplitl [Hfl Hrest]
  · isplitl [Hfl]
    · iapply (Transfers.Flight_mono (countersEmb (U := UU)) (thr d c s) ?_) $$ Hfl
      iintro ⟨H1, H2⟩
      isplitl [H1]
      · iexists (((ixS).slice (Rect.unit (s := S7168) (k1_off2 k) S3584.size (k1_off2_inb k h2 h3)) (fun _ => rfl)).view.writes (Elt F) fB [⟨Rect.whole _, w⟩])
        isplitr
        · ipureintro; exact fun _ => hB
        · iapply (Entails.of_eq (pts_pref d c s k h2 h3 fullShare _)) $$ H1
      · iexact H2
    · iexact Hrest
  · iexists fA
    isplitr
    · ipureintro; exact fun _ => hA
    · iexact Hhalf

/-! ## The first trip and the last prefetching trip -/

theorem slot0_of_zero (k : ℕ) (h : k = 0) :
    Slot0 m d c s k = iprop(semVal (thr d c s, SemLoc.dma cc1_scratch11.sem) 0 ∗ ∃ f : Buf (Elt F) ((rwS).view.loc (thr d c s)), (slotM0).view.loc (thr d c s) ↦[(slotM0).view.set]{fullShare} f) := by
  subst h; exact slot0_zero m d c s
theorem slot1_of_zero (k : ℕ) (h : k = 0) :
    Slot1 m d c s k = iprop(semVal (thr d c s, SemLoc.dma cc1_scratch12.sem) 0 ∗ ∃ f : Buf (Elt F) ((rwS).view.loc (thr d c s)), (slotM1).view.loc (thr d c s) ↦[(slotM1).view.set]{fullShare} f) := by
  subst h; exact slot1_zero m d c s
theorem slot2_of_zero (k : ℕ) (h : k = 0) :
    Slot2 m d c s k = iprop(semVal (thr d c s, SemLoc.dma cc1_scratch13.sem) 0 ∗ ∃ f : Buf (Elt F) ((rwS).view.loc (thr d c s)), (slotM2).view.loc (thr d c s) ↦[(slotM2).view.set]{fullShare} f) := by
  subst h; exact slot2_zero m d c s
theorem slot3_of_zero (k : ℕ) (h : k = 0) :
    Slot3 m d c s k = iprop(semVal (thr d c s, SemLoc.dma cc1_scratch14.sem) 0 ∗ ∃ f : Buf (Elt F) ((rwS).view.loc (thr d c s)), (slotM3).view.loc (thr d c s) ↦[(slotM3).view.set]{fullShare} f) := by
  subst h; exact slot3_zero m d c s
theorem slot4_of_zero (k : ℕ) (h : k = 0) :
    Slot4 m d c s k = iprop(semVal (thr d c s, SemLoc.dma cc1_scratch15.sem) 0 ∗ ∃ f : Buf (Elt F) ((rwS).view.loc (thr d c s)), (slotM4).view.loc (thr d c s) ↦[(slotM4).view.set]{fullShare} f) := by
  subst h; exact slot4_zero m d c s
theorem slot5_of_zero (k : ℕ) (h : k = 0) :
    Slot5 m d c s k = iprop(semVal (thr d c s, SemLoc.dma cc1_scratch16.sem) 0 ∗ ∃ f : Buf (Elt F) ((rwS).view.loc (thr d c s)), (slotM5).view.loc (thr d c s) ↦[(slotM5).view.set]{fullShare} f) := by
  subst h; exact slot5_zero m d c s
theorem slot6_of_zero (k : ℕ) (h : k = 0) :
    Slot6 m d c s k = iprop(semVal (thr d c s, SemLoc.dma cc1_scratch17.sem) 0 ∗ ∃ f : Buf (Elt F) ((rwS).view.loc (thr d c s)), (slotM6).view.loc (thr d c s) ↦[(slotM6).view.set]{fullShare} f) := by
  subst h; exact slot6_zero m d c s

/-- before the second trip no chunk is done yet -/
theorem done_of_zero (k : ℕ) (h : k = 0) : (Done m d c s k : sProp 𝕄) = Done m d c s (k + 1) := by subst h; rfl

/-- After the trip that waited for the last stage and issued nothing: the prefetch's semaphore at zero, the padded
    indices whole, the half just landed holding stage 17, the other half held. -/
theorem idx_close_last (k : Fin k1_t1_loop.trips) (hk : k.val = 68)
    (sm : SemLoc sig) (hsm : sm = SemLoc.dma cc1_scratch3.sem)
    (fA fB : Buf (Elt F) ((ixS).view.loc (thr d c s))) (hA : StageAt m d c s (halfOf (k.val / 4)) (k.val / 4) fA) :
    iprop(semVal (thr d c s, sm) 0 ∗ ((idxV).view.loc (thr d c s) ↦{qI c s} idxc m d)
        ∗ ((halfM (halfOf (k.val / 4))).view.loc (thr d c s) ↦[halfSet (halfOf (k.val / 4))]{fullShare} fA)
        ∗ (halfM (halfOf (k.val / 4 + 1))).view.loc (thr d c s) ↦[halfSet (halfOf (k.val / 4 + 1))]{fullShare} fB)
      ⊢ (IdxSt m d c s (k.val + 1) : sProp 𝕄) := by
  subst hsm
  have e : k.val / 4 = 17 := by omega
  rw [e] at hA
  rw [idxSt_gt m d c s (k.val + 1) (by omega), e, show halfOf (17 + 1) = halfOf 18 from rfl]
  unfold HalfHeld
  iintro ⟨Hs, Hi, HA, HB⟩
  isplitl [Hs]; · iexact Hs
  isplitl [Hi]; · iexact Hi
  isplitl [HA]
  · iexists fA
    isplitr
    · ipureintro; exact fun _ => hA
    · iexact HA
  · iexists fB
    isplitr
    · ipureintro; exact fun h => absurd h id
    · iexact HB

end Close

end Cert.Proof.KB

end
-- ==== Proof.KBTileValue.lean ====
/-
  What a trip's copy-out writes into a chunk of the result is the result. Row r of chunk g = 504 w + 7 k + b is
  the slot's row r read back, which the gather filled with the shared table's row named by word r of the trip's
  list b; that word is word 128 g + r of the padded indices (the half of the index scratch the list lies in holds
  the stage of trip k), an index of the lookup, at most 118 under the precondition; and the shared table's rows
  below 119 are the projected rows.
-/
import proofs.«203041_g70987219468541_cont_9to1_m_1244_31_alg».proof.Proof.KBTileInv
import proofs.«203041_g70987219468541_cont_9to1_m_1244_31_alg».proof.Proof.KBTileSetLemmas
import proofs.«203041_g70987219468541_cont_9to1_m_1244_31_alg».proof.Proof.KBTileSetLemmas3

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (c : Fin (grid1.bound 0)) (s : Fin (grid1.bound 1))

/-- the shared table as the gather reads it: its whole rectangle -/
abbrev shSl : Memref sig .scVector .shared S128x128 .f32 :=
  (shS).slice (Rect.unit (s := S128x128) ![0, 0] S128x128.size inb_S128x128_S128x128_0_0) (fun _ => rfl)

/-- a whole write read back whole is the payload -/
theorem read_writes_whole {sg : RefSig} {κ : Kind} {sp : Space} {sh : Shape} {e : EltTy} (v : View sg κ sp sh e) (f : v.ty.Contents (Elt F))
    (G : sh.Idx → Elt F e) : v.read (Elt F) (v.writes (Elt F) f [⟨Rect.whole sh, G⟩]) = G := by
  funext x
  have h := View.read_writes_cons_emb v f (Rect.whole sh) G [] x
  rwa [Rect.emb_whole_apply] at h

/-- a rank-1 index read off its row-major position -/
theorem rowMajor_symm_one {n : Nat} (p : Fin (⟨1, ![n]⟩ : Shape).numel) :
    ((⟨1, ![n]⟩ : Shape).rowMajor.symm p 0).val = p.val := by
  have h := Shape.rowMajor_val_one ((⟨1, ![n]⟩ : Shape).rowMajor.symm p)
  rw [Equiv.apply_symm_apply] at h
  exact h.symm

/-- Word x of list b of trip k is word 128 (504 w + 7 k + b) + x of the padded indices, the half the list lies in
    holding the trip's stage. -/
theorem list_word (k : Fin k1_t1_loop.trips) (b : Fin 7)
    (loff : Fin 1 → Nat) (linb : ∀ a, loff a + S128.size a ≤ S7168.size a)
    (el : loff = ![3584 * ((k.val / 4) % 2) + 896 * (k.val % 4) + 128 * b.val])
    (fI : Buf (Elt F) ((ixS).view.loc (thr d c s))) (hst : StageAt m d c s (halfOf (k.val / 4)) (k.val / 4) fI)
    (x : S128.Idx) (hx : 64512 * (wOf c s).val + 896 * k.val + 128 * b.val + (x 0).val < 2064384) :
    ((ixS).slice (Rect.unit (s := S7168) loff S128.size linb) (fun _ => rfl)).view.read (Elt F) fI x
      = idxc m d (ix1 ⟨64512 * (wOf c s).val + 896 * k.val + 128 * b.val + (x 0).val, hx⟩) := by
  subst el
  have hk' : k.val < 72 := k.isLt
  have hb := b.isLt
  have hx0 : (x 0).val < 128 := (x 0).isLt
  let x' : S3584.Idx := ix1 ⟨896 * (k.val % 4) + 128 * b.val + (x 0).val, by omega⟩
  have h := congrFun hst x'
  calc ((ixS).slice (Rect.unit (s := S7168) ![3584 * ((k.val / 4) % 2) + 896 * (k.val % 4) + 128 * b.val] S128.size linb) (fun _ => rfl)).view.read (Elt F) fI x
      = fI ((Rect.unit (s := S7168) ![3584 * ((k.val / 4) % 2) + 896 * (k.val % 4) + 128 * b.val] S128.size linb).idx x) := rfl
    _ = fI ((Rect.unit (s := S7168) ![3584 * (halfOf (k.val / 4)).val] S3584.size (half_inb (halfOf (k.val / 4)))).idx x') := by
        refine congrArg fI (funext fun a => Fin.ext ?_)
        match a with
        | ⟨0, _⟩ =>
          show 3584 * ((k.val / 4) % 2) + 896 * (k.val % 4) + 128 * b.val + 1 * (x 0).val
            = 3584 * ((k.val / 4) % 2) + 1 * (896 * (k.val % 4) + 128 * b.val + (x 0).val)
          omega
    _ = (halfM (halfOf (k.val / 4))).view.read (Elt F) fI x' := rfl
    _ = (stM (wOf c s) (stJ (k.val / 4))).view.read (Elt F) (idxc m d) x' := h
    _ = idxc m d ((Rect.unit (s := S2064384) ![64512 * (wOf c s).val + 3584 * (stJ (k.val / 4)).val] S3584.size (st_inb (wOf c s) (stJ (k.val / 4)))).idx x') := rfl
    _ = idxc m d (ix1 ⟨64512 * (wOf c s).val + 896 * k.val + 128 * b.val + (x 0).val, hx⟩) := by
        refine congrArg (idxc m d) (funext fun a => Fin.ext ?_)
        match a with
        | ⟨0, _⟩ =>
          show 64512 * (wOf c s).val + 3584 * (min (k.val / 4) 17) + 1 * (896 * (k.val % 4) + 128 * b.val + (x 0).val)
            = 64512 * (wOf c s).val + 896 * k.val + 128 * b.val + (x 0).val
          omega

theorem copy_value_gen (hpre : PreOK m) (k : Fin k1_t1_loop.trips) (b : Fin 7) (hg : 504 * (wOf c s).val + 7 * k.val + b.val < 15625)
    (off : Fin 2 → Nat) (inb : ∀ a, off a + S128x128.size a ≤ S2000000x128.size a)
    (e : off = ![129024 * s.val + 64512 * c.val + 896 * k.val + 128 * b.val, 0])
    (loff : Fin 1 → Nat) (linb : ∀ a, loff a + S128.size a ≤ S7168.size a)
    (el : loff = ![3584 * ((k.val / 4) % 2) + 896 * (k.val % 4) + 128 * b.val])
    (tblS : Buf (Elt F) ((shS).view.loc (thr d c s))) (htbl : TableOK m d tblS)
    (fI : Buf (Elt F) ((ixS).view.loc (thr d c s))) (hst : StageAt m d c s (halfOf (k.val / 4)) (k.val / 4) fI)
    (SM : Memref sig .scVector .vmem S128x128 .f32) (fR : Buf (Elt F) (SM.view.loc (thr d c s)))
    (fo : Buf (Elt F) (outLoc d))
    (hn : S128.numel = S128x128.size (gathers_S128x128_S128x128).axis')
    (hin : ∀ x, BitVec.toNat (((ixS).slice (Rect.unit (s := S7168) loff S128.size linb) (fun _ => rfl)).view.read (Elt F) fI x) < 128) :
    ∀ i ∈ chunkSet (chunkIx c s k.val b.val),
      ((outW).slice (Rect.unit (s := S2000000x128) off S128x128.size inb) (fun _ => rfl)).view.writes (Elt F) fo
        [⟨Rect.whole _, (ReadAs.same (Val := Elt F)).apply (View.read (Elt F) SM.view (SM.view.writes (Elt F) fR
          [⟨Rect.whole S128x128, SparseCore.gatherPayload gathers_S128x128_S128x128 (View.read (Elt F) (shSl).view tblS)
            (SparseCore.rows (View.read (Elt F) ((ixS).slice (Rect.unit (s := S7168) loff S128.size linb) (fun _ => rfl)).view fI) hn hin)⟩]))⟩] i
        = outG m d i := by
  intro i hi
  subst e
  have hk' : k.val < 72 := k.isLt
  have hb := b.isLt
  have hwv : (wOf c s).val = 2 * s.val + c.val := rfl
  have hch : chunkIx c s k.val b.val = chunkOf (wOf c s) k b hg := Fin.ext (by
    show min (504 * (wOf c s).val + (7 * k.val + b.val)) 15624 = 504 * (wOf c s).val + 7 * k.val + b.val
    omega)
  have hR := chunk_unit c s k b hg _ inb rfl
  have hi' : i ∈ (Rect.unit (s := S2000000x128) ![129024 * s.val + 64512 * c.val + 896 * k.val + 128 * b.val, 0] S128x128.size inb).set := by
    rw [hR, ← hch, ← View.set_slice_whole main_v3_scv]
    exact hi
  obtain ⟨y, rfl⟩ := (Rect.unit (s := S2000000x128) ![129024 * s.val + 64512 * c.val + 896 * k.val + 128 * b.val, 0] S128x128.size inb).exists_idx_of_mem hi'
  -- the copy-out's payload is the gather's: a whole write read back whole
  rw [show (ReadAs.same (Val := Elt F)).apply (View.read (Elt F) SM.view (SM.view.writes (Elt F) fR
          [⟨Rect.whole S128x128, SparseCore.gatherPayload gathers_S128x128_S128x128 (View.read (Elt F) (shSl).view tblS)
            (SparseCore.rows (View.read (Elt F) ((ixS).slice (Rect.unit (s := S7168) loff S128.size linb) (fun _ => rfl)).view fI) hn hin)⟩]))
        = SparseCore.gatherPayload gathers_S128x128_S128x128 (View.read (Elt F) (shSl).view tblS)
            (SparseCore.rows (View.read (Elt F) ((ixS).slice (Rect.unit (s := S7168) loff S128.size linb) (fun _ => rfl)).view fI) hn hin)
      from read_writes_whole SM.view fR _]
  generalize hr : SparseCore.rows (z := S128x128.size (gathers_S128x128_S128x128).axis) (View.read (Elt F) ((ixS).slice (Rect.unit (s := S7168) loff S128.size linb) (fun _ => rfl)).view fI) hn hin = rws
  generalize hGt : SparseCore.gatherPayload gathers_S128x128_S128x128 (View.read (Elt F) (shSl).view tblS) rws = Gt
  -- what the whole write leaves at the chunk's element y is the payload at y
  have h1 := View.read_writes_cons_emb ((outW).slice (Rect.unit (s := S2000000x128) ![129024 * s.val + 64512 * c.val + 896 * k.val + 128 * b.val, 0] S128x128.size inb) (fun _ => rfl)).view fo (Rect.whole _) Gt [] y
  rw [Rect.emb_whole_apply] at h1
  generalize ((outW).slice (Rect.unit (s := S2000000x128) ![129024 * s.val + 64512 * c.val + 896 * k.val + 128 * b.val, 0] S128x128.size inb) (fun _ => rfl)).view.writes (Elt F) fo [⟨Rect.whole _, Gt⟩] = X at h1 ⊢
  refine Eq.trans (show X ((Rect.unit (s := S2000000x128) ![129024 * s.val + 64512 * c.val + 896 * k.val + 128 * b.val, 0] S128x128.size inb).idx y)
      = ((outW).slice (Rect.unit (s := S2000000x128) ![129024 * s.val + 64512 * c.val + 896 * k.val + 128 * b.val, 0] S128x128.size inb) (fun _ => rfl)).view.read (Elt F) X y from rfl) (h1.trans ?_)
  subst hGt
  -- the gather's payload at y: the shared table at the row the list names, which is a projected row
  show tblS ((Rect.unit (s := S128x128) ![0, 0] S128x128.size inb_S128x128_S128x128_0_0).idx (gathers_S128x128_S128x128.idx rws y))
    = projAt m d (Cert.Proof.Spec.rowOf (m (srcLoc d) (ix1 (((Rect.unit (s := S2000000x128) ![129024 * s.val + 64512 * c.val + 896 * k.val + 128 * b.val, 0] S128x128.size inb).idx y) 0))))
        (((Rect.unit (s := S2000000x128) ![129024 * s.val + 64512 * c.val + 896 * k.val + 128 * b.val, 0] S128x128.size inb).idx y) 1)
  refine Eq.trans ?_ (htbl _ _)
  refine congrArg tblS (funext fun a => Fin.ext ?_)
  match a with
  | ⟨0, _⟩ =>
    have e0 : gathers_S128x128_S128x128.idx rws y ⟨0, Nat.zero_lt_two⟩ = rws (y ⟨0, Nat.zero_lt_two⟩) :=
      Shape.Gathers.idx_axis gathers_S128x128_S128x128 rws y
    have hrw : (rws (y ⟨0, Nat.zero_lt_two⟩)).val
        = (((ixS).slice (Rect.unit (s := S7168) loff S128.size linb) (fun _ => rfl)).view.read (Elt F) fI (S128.rowMajor.symm ((y ⟨0, Nat.zero_lt_two⟩).cast hn.symm))).toNat := by
      rw [← hr]; rfl
    have hx0 : ((S128.rowMajor.symm ((y ⟨0, Nat.zero_lt_two⟩).cast hn.symm)) 0).val = (y ⟨0, Nat.zero_lt_two⟩).val :=
      rowMajor_symm_one _
    have hy0 : (y ⟨0, Nat.zero_lt_two⟩).val < 128 := (y ⟨0, Nat.zero_lt_two⟩).isLt
    have hlw := list_word m d c s k b loff linb el fI hst (S128.rowMajor.symm ((y ⟨0, Nat.zero_lt_two⟩).cast hn.symm))
      (by rw [hx0]; omega)
    have hsrc := hpre d
    show 0 + 1 * (gathers_S128x128_S128x128.idx rws y ⟨0, Nat.zero_lt_two⟩).val
      = (Cert.Proof.Spec.rowOf (m (srcLoc d) (ix1 ((Rect.unit (s := S2000000x128) ![129024 * s.val + 64512 * c.val + 896 * k.val + 128 * b.val, 0] S128x128.size inb).idx y 0)))).val
    generalize ht : ((Rect.unit (s := S2000000x128) ![129024 * s.val + 64512 * c.val + 896 * k.val + 128 * b.val, 0] S128x128.size inb).idx y 0 : Fin 2000000) = t
    have htv : t.val = 129024 * s.val + 64512 * c.val + 896 * k.val + 128 * b.val + 1 * (y ⟨0, Nat.zero_lt_two⟩).val := by
      rw [← ht]; rfl
    rw [e0, hrw, hlw, Cert.Proof.Spec.rowOf_val (hsrc t)]
    show 0 + 1 * (idxOf (m (srcLoc d)) (ix1 _)).toNat = _
    rw [idxOf_apply, dif_pos (show 64512 * (wOf c s).val + 896 * k.val + 128 * b.val
      + ((S128.rowMajor.symm ((y ⟨0, Nat.zero_lt_two⟩).cast hn.symm)) 0).val < 2000000 by rw [hx0]; omega)]
    rw [Nat.zero_add, Nat.one_mul]
    refine congrArg (fun t : Fin 2000000 => (m (srcLoc d) (ix1 t)).toNat) (Fin.ext ?_)
    show 64512 * (wOf c s).val + 896 * k.val + 128 * b.val + ((S128.rowMajor.symm ((y ⟨0, Nat.zero_lt_two⟩).cast hn.symm)) 0).val
      = t.val
    rw [hx0, htv]; omega
  | ⟨1, _⟩ =>
    have e1 := Shape.Gathers.idx_of_ne gathers_S128x128_S128x128 rws y ⟨1, Nat.one_lt_two⟩ Nat.one_ne_zero
    show 0 + 1 * (gathers_S128x128_S128x128.idx rws y ⟨1, Nat.one_lt_two⟩).val = 0 + 1 * (y ⟨1, Nat.one_lt_two⟩).val
    rw [e1]
    rfl

/-- Every word of list b of trip k names one of the table's 128 rows (the run asks it of the list it reads). -/
theorem hin_gen (hpre : PreOK m) (k : Fin k1_t1_loop.trips) (b : Fin 7)
    (loff : Fin 1 → Nat) (linb : ∀ a, loff a + S128.size a ≤ S7168.size a)
    (el : loff = ![3584 * ((k.val / 4) % 2) + 896 * (k.val % 4) + 128 * b.val])
    (fI : Buf (Elt F) ((ixS).view.loc (thr d c s))) (hst : StageAt m d c s (halfOf (k.val / 4)) (k.val / 4) fI) :
    ∀ x, BitVec.toNat (((ixS).slice (Rect.unit (s := S7168) loff S128.size linb) (fun _ => rfl)).view.read (Elt F) fI x) < 128 := by
  intro x
  have hk' : k.val < 72 := k.isLt
  have hb := b.isLt
  have hw32 : (wOf c s).val < 32 := (wOf c s).isLt
  have hx0 : ((x : S128.Idx) 0).val < 128 := ((x : S128.Idx) 0).isLt
  rw [list_word m d c s k b loff linb el fI hst (x : S128.Idx) (by omega)]
  exact idxOf_lt (m (srcLoc d)) (hpre d) _

/-! ## The seven slots, in the program's spelling -/

theorem hin0 (hpre : PreOK m) (k : Fin k1_t1_loop.trips) (hc' : k1_cond5 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off4 k) S128.size (k1_off4_inb (coordsV c s) k hc')) (fun _ => rfl)).view.read (Elt F) fI x) < 128 :=
  hin_gen m d c s hpre k ⟨0, of_decide_eq_true rfl⟩ _ _ (k1_off4_eq _) fI hst

theorem copy_value0 (hpre : PreOK m) (k : Fin k1_t1_loop.trips) (hg : 504 * (wOf c s).val + 7 * k.val + 0 < 15625)
    (hc : k1_cond18 (coordsV c s) k = 1#1) (hc' : k1_cond5 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off4 k) S128.size (k1_off4_inb (coordsV c s) k hc')) (fun _ => rfl)).view.read (Elt F) fI x) < 128) :
    ∀ i ∈ chunkSet (chunkIx c s k.val 0),
      ((outW).slice (Rect.unit (s := S2000000x128) (k1_off12 (coordsV c s) k) S128x128.size (k1_off12_inb (coordsV c s) k hc)) (fun _ => rfl)).view.writes (Elt F) fo
        [⟨Rect.whole _, (ReadAs.same (Val := Elt F)).apply (View.read (Elt F) (slotM0).view ((slotM0).view.writes (Elt F) fR
          [⟨Rect.whole S128x128, SparseCore.gatherPayload gathers_S128x128_S128x128 (View.read (Elt F) (shSl).view tblS)
            (SparseCore.rows (View.read (Elt F) ((ixS).slice (Rect.unit (s := S7168) (k1_off4 k) S128.size (k1_off4_inb (coordsV c s) k hc')) (fun _ => rfl)).view fI) hn hin)⟩]))⟩] i
        = outG m d i :=
  copy_value_gen m d c s hpre k ⟨0, of_decide_eq_true rfl⟩ hg _ _ (k1_off12_eq _ _) _ _ (k1_off4_eq _) tblS htbl fI hst (slotM0) fR fo hn hin

theorem hin1 (hpre : PreOK m) (k : Fin k1_t1_loop.trips) (hc' : k1_cond7 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off5 k) S128.size (k1_off5_inb (coordsV c s) k hc')) (fun _ => rfl)).view.read (Elt F) fI x) < 128 :=
  hin_gen m d c s hpre k ⟨1, of_decide_eq_true rfl⟩ _ _ (k1_off5_eq _) fI hst

theorem copy_value1 (hpre : PreOK m) (k : Fin k1_t1_loop.trips) (hg : 504 * (wOf c s).val + 7 * k.val + 1 < 15625)
    (hc : k1_cond19 (coordsV c s) k = 1#1) (hc' : k1_cond7 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off5 k) S128.size (k1_off5_inb (coordsV c s) k hc')) (fun _ => rfl)).view.read (Elt F) fI x) < 128) :
    ∀ i ∈ chunkSet (chunkIx c s k.val 1),
      ((outW).slice (Rect.unit (s := S2000000x128) (k1_off14 (coordsV c s) k) S128x128.size (k1_off14_inb (coordsV c s) k hc)) (fun _ => rfl)).view.writes (Elt F) fo
        [⟨Rect.whole _, (ReadAs.same (Val := Elt F)).apply (View.read (Elt F) (slotM1).view ((slotM1).view.writes (Elt F) fR
          [⟨Rect.whole S128x128, SparseCore.gatherPayload gathers_S128x128_S128x128 (View.read (Elt F) (shSl).view tblS)
            (SparseCore.rows (View.read (Elt F) ((ixS).slice (Rect.unit (s := S7168) (k1_off5 k) S128.size (k1_off5_inb (coordsV c s) k hc')) (fun _ => rfl)).view fI) hn hin)⟩]))⟩] i
        = outG m d i :=
  copy_value_gen m d c s hpre k ⟨1, of_decide_eq_true rfl⟩ hg _ _ (k1_off14_eq _ _) _ _ (k1_off5_eq _) tblS htbl fI hst (slotM1) fR fo hn hin

theorem hin2 (hpre : PreOK m) (k : Fin k1_t1_loop.trips) (hc' : k1_cond9 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off6 k) S128.size (k1_off6_inb (coordsV c s) k hc')) (fun _ => rfl)).view.read (Elt F) fI x) < 128 :=
  hin_gen m d c s hpre k ⟨2, of_decide_eq_true rfl⟩ _ _ (k1_off6_eq _) fI hst

theorem copy_value2 (hpre : PreOK m) (k : Fin k1_t1_loop.trips) (hg : 504 * (wOf c s).val + 7 * k.val + 2 < 15625)
    (hc : k1_cond20 (coordsV c s) k = 1#1) (hc' : k1_cond9 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off6 k) S128.size (k1_off6_inb (coordsV c s) k hc')) (fun _ => rfl)).view.read (Elt F) fI x) < 128) :
    ∀ i ∈ chunkSet (chunkIx c s k.val 2),
      ((outW).slice (Rect.unit (s := S2000000x128) (k1_off16 (coordsV c s) k) S128x128.size (k1_off16_inb (coordsV c s) k hc)) (fun _ => rfl)).view.writes (Elt F) fo
        [⟨Rect.whole _, (ReadAs.same (Val := Elt F)).apply (View.read (Elt F) (slotM2).view ((slotM2).view.writes (Elt F) fR
          [⟨Rect.whole S128x128, SparseCore.gatherPayload gathers_S128x128_S128x128 (View.read (Elt F) (shSl).view tblS)
            (SparseCore.rows (View.read (Elt F) ((ixS).slice (Rect.unit (s := S7168) (k1_off6 k) S128.size (k1_off6_inb (coordsV c s) k hc')) (fun _ => rfl)).view fI) hn hin)⟩]))⟩] i
        = outG m d i :=
  copy_value_gen m d c s hpre k ⟨2, of_decide_eq_true rfl⟩ hg _ _ (k1_off16_eq _ _) _ _ (k1_off6_eq _) tblS htbl fI hst (slotM2) fR fo hn hin

theorem hin3 (hpre : PreOK m) (k : Fin k1_t1_loop.trips) (hc' : k1_cond11 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off7 k) S128.size (k1_off7_inb (coordsV c s) k hc')) (fun _ => rfl)).view.read (Elt F) fI x) < 128 :=
  hin_gen m d c s hpre k ⟨3, of_decide_eq_true rfl⟩ _ _ (k1_off7_eq _) fI hst

theorem copy_value3 (hpre : PreOK m) (k : Fin k1_t1_loop.trips) (hg : 504 * (wOf c s).val + 7 * k.val + 3 < 15625)
    (hc : k1_cond21 (coordsV c s) k = 1#1) (hc' : k1_cond11 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off7 k) S128.size (k1_off7_inb (coordsV c s) k hc')) (fun _ => rfl)).view.read (Elt F) fI x) < 128) :
    ∀ i ∈ chunkSet (chunkIx c s k.val 3),
      ((outW).slice (Rect.unit (s := S2000000x128) (k1_off18 (coordsV c s) k) S128x128.size (k1_off18_inb (coordsV c s) k hc)) (fun _ => rfl)).view.writes (Elt F) fo
        [⟨Rect.whole _, (ReadAs.same (Val := Elt F)).apply (View.read (Elt F) (slotM3).view ((slotM3).view.writes (Elt F) fR
          [⟨Rect.whole S128x128, SparseCore.gatherPayload gathers_S128x128_S128x128 (View.read (Elt F) (shSl).view tblS)
            (SparseCore.rows (View.read (Elt F) ((ixS).slice (Rect.unit (s := S7168) (k1_off7 k) S128.size (k1_off7_inb (coordsV c s) k hc')) (fun _ => rfl)).view fI) hn hin)⟩]))⟩] i
        = outG m d i :=
  copy_value_gen m d c s hpre k ⟨3, of_decide_eq_true rfl⟩ hg _ _ (k1_off18_eq _ _) _ _ (k1_off7_eq _) tblS htbl fI hst (slotM3) fR fo hn hin

theorem hin4 (hpre : PreOK m) (k : Fin k1_t1_loop.trips) (hc' : k1_cond13 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off8 k) S128.size (k1_off8_inb (coordsV c s) k hc')) (fun _ => rfl)).view.read (Elt F) fI x) < 128 :=
  hin_gen m d c s hpre k ⟨4, of_decide_eq_true rfl⟩ _ _ (k1_off8_eq _) fI hst

theorem copy_value4 (hpre : PreOK m) (k : Fin k1_t1_loop.trips) (hg : 504 * (wOf c s).val + 7 * k.val + 4 < 15625)
    (hc : k1_cond22 (coordsV c s) k = 1#1) (hc' : k1_cond13 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off8 k) S128.size (k1_off8_inb (coordsV c s) k hc')) (fun _ => rfl)).view.read (Elt F) fI x) < 128) :
    ∀ i ∈ chunkSet (chunkIx c s k.val 4),
      ((outW).slice (Rect.unit (s := S2000000x128) (k1_off20 (coordsV c s) k) S128x128.size (k1_off20_inb (coordsV c s) k hc)) (fun _ => rfl)).view.writes (Elt F) fo
        [⟨Rect.whole _, (ReadAs.same (Val := Elt F)).apply (View.read (Elt F) (slotM4).view ((slotM4).view.writes (Elt F) fR
          [⟨Rect.whole S128x128, SparseCore.gatherPayload gathers_S128x128_S128x128 (View.read (Elt F) (shSl).view tblS)
            (SparseCore.rows (View.read (Elt F) ((ixS).slice (Rect.unit (s := S7168) (k1_off8 k) S128.size (k1_off8_inb (coordsV c s) k hc')) (fun _ => rfl)).view fI) hn hin)⟩]))⟩] i
        = outG m d i :=
  copy_value_gen m d c s hpre k ⟨4, of_decide_eq_true rfl⟩ hg _ _ (k1_off20_eq _ _) _ _ (k1_off8_eq _) tblS htbl fI hst (slotM4) fR fo hn hin

theorem hin5 (hpre : PreOK m) (k : Fin k1_t1_loop.trips) (hc' : k1_cond15 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off9 k) S128.size (k1_off9_inb (coordsV c s) k hc')) (fun _ => rfl)).view.read (Elt F) fI x) < 128 :=
  hin_gen m d c s hpre k ⟨5, of_decide_eq_true rfl⟩ _ _ (k1_off9_eq _) fI hst

theorem copy_value5 (hpre : PreOK m) (k : Fin k1_t1_loop.trips) (hg : 504 * (wOf c s).val + 7 * k.val + 5 < 15625)
    (hc : k1_cond23 (coordsV c s) k = 1#1) (hc' : k1_cond15 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off9 k) S128.size (k1_off9_inb (coordsV c s) k hc')) (fun _ => rfl)).view.read (Elt F) fI x) < 128) :
    ∀ i ∈ chunkSet (chunkIx c s k.val 5),
      ((outW).slice (Rect.unit (s := S2000000x128) (k1_off22 (coordsV c s) k) S128x128.size (k1_off22_inb (coordsV c s) k hc)) (fun _ => rfl)).view.writes (Elt F) fo
        [⟨Rect.whole _, (ReadAs.same (Val := Elt F)).apply (View.read (Elt F) (slotM5).view ((slotM5).view.writes (Elt F) fR
          [⟨Rect.whole S128x128, SparseCore.gatherPayload gathers_S128x128_S128x128 (View.read (Elt F) (shSl).view tblS)
            (SparseCore.rows (View.read (Elt F) ((ixS).slice (Rect.unit (s := S7168) (k1_off9 k) S128.size (k1_off9_inb (coordsV c s) k hc')) (fun _ => rfl)).view fI) hn hin)⟩]))⟩] i
        = outG m d i :=
  copy_value_gen m d c s hpre k ⟨5, of_decide_eq_true rfl⟩ hg _ _ (k1_off22_eq _ _) _ _ (k1_off9_eq _) tblS htbl fI hst (slotM5) fR fo hn hin

theorem hin6 (hpre : PreOK m) (k : Fin k1_t1_loop.trips) (hc' : k1_cond17 (coordsV c s) k = 1#1)
    (fI : Buf (Elt F) ((ixS).view.loc (thr d c s))) (hst : StageAt m d c s (halfOf (k.val / 4)) (k.val / 4) fI) :
    ∀ x, BitVec.toNat (((ixS).slice (Rect.unit (s := S7168) (k1_off10 k) S128.size (k1_off10_inb (coordsV c s) k hc')) (fun _ => rfl)).view.read (Elt F) fI x) < 128 :=
  hin_gen m d c s hpre k ⟨6, of_decide_eq_true rfl⟩ _ _ (k1_off10_eq _) fI hst

theorem copy_value6 (hpre : PreOK m) (k : Fin k1_t1_loop.trips) (hg : 504 * (wOf c s).val + 7 * k.val + 6 < 15625)
    (hc : k1_cond24 (coordsV c s) k = 1#1) (hc' : k1_cond17 (coordsV c s) k = 1#1)
    (tblS : Buf (Elt F) ((shS).view.loc (thr d c s))) (htbl : TableOK m d tblS)
    (fI : Buf (Elt F) ((ixS).view.loc (thr d c s))) (hst : StageAt m d c s (halfOf (k.val / 4)) (k.val / 4) fI)
    (fR : Buf (Elt F) ((rwS).view.loc (thr d c s))) (fo : Buf (Elt F) (outLoc d))
    (hn : S128.numel = S128x128.size (gathers_S128x128_S128x128).axis')
    (hin : ∀ x, BitVec.toNat (((ixS).slice (Rect.unit (s := S7168) (k1_off10 k) S128.size (k1_off10_inb (coordsV c s) k hc')) (fun _ => rfl)).view.read (Elt F) fI x) < 128) :
    ∀ i ∈ chunkSet (chunkIx c s k.val 6),
      ((outW).slice (Rect.unit (s := S2000000x128) (k1_off24 (coordsV c s) k) S128x128.size (k1_off24_inb (coordsV c s) k hc)) (fun _ => rfl)).view.writes (Elt F) fo
        [⟨Rect.whole _, (ReadAs.same (Val := Elt F)).apply (View.read (Elt F) (slotM6).view ((slotM6).view.writes (Elt F) fR
          [⟨Rect.whole S128x128, SparseCore.gatherPayload gathers_S128x128_S128x128 (View.read (Elt F) (shSl).view tblS)
            (SparseCore.rows (View.read (Elt F) ((ixS).slice (Rect.unit (s := S7168) (k1_off10 k) S128.size (k1_off10_inb (coordsV c s) k hc')) (fun _ => rfl)).view fI) hn hin)⟩]))⟩] i
        = outG m d i :=
  copy_value_gen m d c s hpre k ⟨6, of_decide_eq_true rfl⟩ hg _ _ (k1_off24_eq _ _) _ _ (k1_off10_eq _) tblS htbl fI hst (slotM6) fR fo hn hin

end Tile

end Cert.Proof.KB

end
-- ==== Proof.KBTripA.lean ====
/-
  The first trip of a tile's loop, for a worker whose chunks all exist. The prefetch of stage 0 is in flight: the trip
  waits for it (half 0 of the index scratch now holds the lists this and the next three trips' gathers read) and issues
  the prefetch of stage 1 from the padded indices into the other half. The seven row slots are idle — no copy-out was
  issued before, their semaphores are at zero — so nothing is waited for on them; for each slot the trip gathers the
  chunk's rows of the shared table by the slot's list and copies the slot out to the result's chunk 7 · 0 + b of the
  worker. No chunk is done before the trip, and none is handed back by it.
-/
import proofs.«203041_g70987219468541_cont_9to1_m_1244_31_alg».proof.Proof.KBTripClose
import proofs.«203041_g70987219468541_cont_9to1_m_1244_31_alg».proof.Proof.KBTileValue
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

set_option maxHeartbeats 1600000 in
theorem trip_A (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips)
    (h0 : k.val = 0) :
    KB.Inv m d c s tblS O W k.val ⟨⟩ ⊢ wp frame (wpE (defs₀ (F := F)) 𝒱₀ (thr d c s) none) Set.univ
      (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => KB.Inv m d c s tblS O W (k.val + 1) ⟨⟩) := by
  have hk4 : k.val % 4 = 0 := by omega
  have e1 : (k.val + 3) / 4 = k.val / 4 := by omega
  rw [inv_def m d c s tblS O W k.val, idxSt_le m d c s k.val (by omega), e1]
  unfold PrefFlight Slots Toks GSems KB.Owes ChunksSt
  rw [slot0_of_zero m d c s k.val h0, slot1_of_zero m d c s k.val h0, slot2_of_zero m d c s k.val h0, slot3_of_zero m d c s k.val h0, slot4_of_zero m d c s k.val h0, slot5_of_zero m d c s k.val h0, slot6_of_zero m d c s k.val h0]
  unfold k1_t1_body
  rw [k1_part1_eq_skeleton, k1_part2_eq_skeleton, k1_part3_eq_skeleton, k1_part4_eq_skeleton]
  unfold k1_part1_skel k1_part2_skel k1_part3_skel k1_part4_skel
  iintro ⟨#Hmw, ⟨⟨Hpf, Hrest⟩, Hoth⟩, ⟨⟨Ho0, %fR0, Hs0⟩, ⟨Ho1, %fR1, Hs1⟩, ⟨Ho2, %fR2, Hs2⟩, ⟨Ho3, %fR3, Hs3⟩, ⟨Ho4, %fR4, Hs4⟩, ⟨Ho5, %fR5, Hs5⟩, ⟨Ho6, %fR6, Hs6⟩⟩, ⟨Hdone, Htodo⟩, ⟨Hsh0, Hsh1, Hsh2, Hsh3, Hsh4, Hsh5, Hsh6⟩, ⟨Hg0, Hg1, Hg2, Hg3, Hg4, Hg5, Hg6⟩, ⟨%W0, %hW0, HO⟩⟩
  sl_exec (disch := first | sl_exact (h2T k hk4) | sl_exact (h3T k (by omega)))
  -- the landed half, the other half, the padded indices whole again
  unfold HalfHeld
  icases Hpf_dst with ⟨%fA, %hA, HhalfA⟩
  icases Hoth with ⟨%fB, -, HhalfB⟩
  ihave HhalfB' := (Entails.of_eq (pts_pref d c s k (h2T k hk4) (h3T k (by omega)) fullShare fB).symm) $$ HhalfB
  ihave Hidx := (Entails.of_eq (show ((KB.stM (wOf c s) (stJ (k.val / 4))).view.loc (thr d c s) ↦{qI c s} idxc m d : sProp 𝕄)
      = ((idxV).view.loc (thr d c s) ↦{qI c s} idxc m d) from rfl)) $$ Hrest
  have hfA := half_lt m d c s hpre (halfOf (k.val / 4)) (k.val / 4) fA (hA trivial)
  have hin0 := list_read_lt d c s k ⟨0, of_decide_eq_true rfl⟩ _ (k1_off4_inb (coordsV c s) k (hG0 c s k hw)) (k1_off4_eq k) fA hfA
  have hin1 := list_read_lt d c s k ⟨1, of_decide_eq_true rfl⟩ _ (k1_off5_inb (coordsV c s) k (hG1 c s k hw)) (k1_off5_eq k) fA hfA
  have hin2 := list_read_lt d c s k ⟨2, of_decide_eq_true rfl⟩ _ (k1_off6_inb (coordsV c s) k (hG2 c s k hw)) (k1_off6_eq k) fA hfA
  have hin3 := list_read_lt d c s k ⟨3, of_decide_eq_true rfl⟩ _ (k1_off7_inb (coordsV c s) k (hG3 c s k hw)) (k1_off7_eq k) fA hfA
  have hin4 := list_read_lt d c s k ⟨4, of_decide_eq_true rfl⟩ _ (k1_off8_inb (coordsV c s) k (hG4 c s k hw)) (k1_off8_eq k) fA hfA
  have hin5 := list_read_lt d c s k ⟨5, of_decide_eq_true rfl⟩ _ (k1_off9_inb (coordsV c s) k (hG5 c s k hw)) (k1_off9_eq k) fA hfA
  have hin6 := list_read_lt d c s k ⟨6, of_decide_eq_true rfl⟩ _ (k1_off10_inb (coordsV c s) k (hG6 c s k hw)) (k1_off10_eq k) fA hfA
  -- the landed half cut into the trip's lists
  ihave Hsp := (Entails.of_eq (half_split d c s (halfOf (k.val / 4)) k rfl fullShare fA)) $$ HhalfA
  icases Hsp with ⟨Hlists, HrestA⟩
  ihave Hl := (Entails.of_eq (bigSep_fin7' (F := F) (fun b : Fin 7 => (pcM (listOf k b)).view.loc (thr d c s) ↦[pcSet (listOf k b)]{fullShare} fA))) $$ Hlists
  icases Hl with ⟨Hix0, Hix1, Hix2, Hix3, Hix4, Hix5, Hix6⟩
  ihave Hix0' := (Entails.of_eq (pts_list0 d c s k (hG0 c s k hw) fullShare fA).symm) $$ Hix0
  ihave Hix1' := (Entails.of_eq (pts_list1 d c s k (hG1 c s k hw) fullShare fA).symm) $$ Hix1
  ihave Hix2' := (Entails.of_eq (pts_list2 d c s k (hG2 c s k hw) fullShare fA).symm) $$ Hix2
  ihave Hix3' := (Entails.of_eq (pts_list3 d c s k (hG3 c s k hw) fullShare fA).symm) $$ Hix3
  ihave Hix4' := (Entails.of_eq (pts_list4 d c s k (hG4 c s k hw) fullShare fA).symm) $$ Hix4
  ihave Hix5' := (Entails.of_eq (pts_list5 d c s k (hG5 c s k hw) fullShare fA).symm) $$ Hix5
  ihave Hix6' := (Entails.of_eq (pts_list6 d c s k (hG6 c s k hw) fullShare fA).symm) $$ Hix6
  -- the trip's chunks off the chunks to do
  ihave Htd := (Entails.of_eq (todo_step m d c s k.val k.isLt)) $$ Htodo
  icases Htd with ⟨Hout0, Hout1, Hout2, Hout3, Hout4, Hout5, Hout6, Htodo'⟩
  ihave Hout0' := (Entails.of_eq ((congrArg (fun g => (outLoc d ↦[chunkSet g]{fullShare} m (outLoc d) : sProp 𝕄)) (chunkIx_eq_chunkOf c s hw k ⟨0, of_decide_eq_true rfl⟩ (chunk_lt c s hw k ⟨0, of_decide_eq_true rfl⟩))).trans
      (pts_chunk0 d c s k (hO0 c s k hw) (chunk_lt c s hw k ⟨0, of_decide_eq_true rfl⟩) fullShare (m (outLoc d))).symm)) $$ Hout0
  ihave Hout1' := (Entails.of_eq ((congrArg (fun g => (outLoc d ↦[chunkSet g]{fullShare} m (outLoc d) : sProp 𝕄)) (chunkIx_eq_chunkOf c s hw k ⟨1, of_decide_eq_true rfl⟩ (chunk_lt c s hw k ⟨1, of_decide_eq_true rfl⟩))).trans
      (pts_chunk1 d c s k (hO1 c s k hw) (chunk_lt c s hw k ⟨1, of_decide_eq_true rfl⟩) fullShare (m (outLoc d))).symm)) $$ Hout1
  ihave Hout2' := (Entails.of_eq ((congrArg (fun g => (outLoc d ↦[chunkSet g]{fullShare} m (outLoc d) : sProp 𝕄)) (chunkIx_eq_chunkOf c s hw k ⟨2, of_decide_eq_true rfl⟩ (chunk_lt c s hw k ⟨2, of_decide_eq_true rfl⟩))).trans
      (pts_chunk2 d c s k (hO2 c s k hw) (chunk_lt c s hw k ⟨2, of_decide_eq_true rfl⟩) fullShare (m (outLoc d))).symm)) $$ Hout2
  ihave Hout3' := (Entails.of_eq ((congrArg (fun g => (outLoc d ↦[chunkSet g]{fullShare} m (outLoc d) : sProp 𝕄)) (chunkIx_eq_chunkOf c s hw k ⟨3, of_decide_eq_true rfl⟩ (chunk_lt c s hw k ⟨3, of_decide_eq_true rfl⟩))).trans
      (pts_chunk3 d c s k (hO3 c s k hw) (chunk_lt c s hw k ⟨3, of_decide_eq_true rfl⟩) fullShare (m (outLoc d))).symm)) $$ Hout3
  ihave Hout4' := (Entails.of_eq ((congrArg (fun g => (outLoc d ↦[chunkSet g]{fullShare} m (outLoc d) : sProp 𝕄)) (chunkIx_eq_chunkOf c s hw k ⟨4, of_decide_eq_true rfl⟩ (chunk_lt c s hw k ⟨4, of_decide_eq_true rfl⟩))).trans
      (pts_chunk4 d c s k (hO4 c s k hw) (chunk_lt c s hw k ⟨4, of_decide_eq_true rfl⟩) fullShare (m (outLoc d))).symm)) $$ Hout4
  ihave Hout5' := (Entails.of_eq ((congrArg (fun g => (outLoc d ↦[chunkSet g]{fullShare} m (outLoc d) : sProp 𝕄)) (chunkIx_eq_chunkOf c s hw k ⟨5, of_decide_eq_true rfl⟩ (chunk_lt c s hw k ⟨5, of_decide_eq_true rfl⟩))).trans
      (pts_chunk5 d c s k (hO5 c s k hw) (chunk_lt c s hw k ⟨5, of_decide_eq_true rfl⟩) fullShare (m (outLoc d))).symm)) $$ Hout5
  ihave Hout6' := (Entails.of_eq ((congrArg (fun g => (outLoc d ↦[chunkSet g]{fullShare} m (outLoc d) : sProp 𝕄)) (chunkIx_eq_chunkOf c s hw k ⟨6, of_decide_eq_true rfl⟩ (chunk_lt c s hw k ⟨6, of_decide_eq_true rfl⟩))).trans
      (pts_chunk6 d c s k (hO6 c s k hw) (chunk_lt c s hw k ⟨6, of_decide_eq_true rfl⟩) fullShare (m (outLoc d))).symm)) $$ Hout6
  set_option sl_exec.dischHeartbeats 400000 in
  sl_exec (disch := first | sl_exact (h2T k hk4) | sl_exact (h3T k (by omega)) | sl_exact (hG0 c s k hw) | sl_exact (hO0 c s k hw) | sl_exact (hG1 c s k hw) | sl_exact (hO1 c s k hw) | sl_exact (hG2 c s k hw) | sl_exact (hO2 c s k hw) | sl_exact (hG3 c s k hw) | sl_exact (hO3 c s k hw) | sl_exact (hG4 c s k hw) | sl_exact (hO4 c s k hw) | sl_exact (hG5 c s k hw) | sl_exact (hO5 c s k hw) | sl_exact (hG6 c s k hw) | sl_exact (hO6 c s k hw) | (clear * - h0 hw; revert h0 hw; revert k s c; decide +kernel))
  sl_step
  rw [inv_def m d c s tblS O W (k.val + 1)]
  isplitr; · iexact Hmw
  isplitl [Hpf Hidx Hix0' Hix1' Hix2' Hix3' Hix4' Hix5' Hix6' HrestA]
  · ihave Hh := (half_join d c s hw k fA) $$ [Hix0' Hix1' Hix2' Hix3' Hix4' Hix5' Hix6' HrestA]
    · isplitl [Hix0']; · iexact Hix0'
      isplitl [Hix1']; · iexact Hix1'
      isplitl [Hix2']; · iexact Hix2'
      isplitl [Hix3']; · iexact Hix3'
      isplitl [Hix4']; · iexact Hix4'
      isplitl [Hix5']; · iexact Hix5'
      isplitl [Hix6']; · iexact Hix6'
      iexact HrestA
    iapply (idx_close_issue m d c s k (h2T k hk4) (h3T k (by omega)) (SemLoc.dma ⟨4, of_decide_eq_true rfl⟩ : SemLoc sig) rfl default rfl fA fB (hA trivial) _
      (stageAt_landedK m d c s k (h2T k hk4) (h3T k (by omega)) fB))
    isplitl [Hpf]; · iexact Hpf
    isplitl [Hidx]; · iexact Hidx
    iexact Hh
  isplitl [Ho0 Ho1 Ho2 Ho3 Ho4 Ho5 Ho6]
  · unfold Slots
    isplitl [Ho0]
    · iapply (slot0_close m d c s hw k (SemLoc.dma ⟨12, of_decide_eq_true rfl⟩ : SemLoc sig) rfl default rfl (m (outLoc d)) fR0 _ _ ?_) $$ Ho0
      exact copy_value0 m d c s hpre k (chunk_lt c s hw k ⟨0, of_decide_eq_true rfl⟩) (hO0 c s k hw) (hG0 c s k hw) tblS htbl fA (hA trivial) fR0 (m (outLoc d)) rfl hin0
    isplitl [Ho1]
    · iapply (slot1_close m d c s hw k (SemLoc.dma ⟨13, of_decide_eq_true rfl⟩ : SemLoc sig) rfl default rfl (m (outLoc d)) fR1 _ _ ?_) $$ Ho1
      exact copy_value1 m d c s hpre k (chunk_lt c s hw k ⟨1, of_decide_eq_true rfl⟩) (hO1 c s k hw) (hG1 c s k hw) tblS htbl fA (hA trivial) fR1 (m (outLoc d)) rfl hin1
    isplitl [Ho2]
    · iapply (slot2_close m d c s hw k (SemLoc.dma ⟨14, of_decide_eq_true rfl⟩ : SemLoc sig) rfl default rfl (m (outLoc d)) fR2 _ _ ?_) $$ Ho2
      exact copy_value2 m d c s hpre k (chunk_lt c s hw k ⟨2, of_decide_eq_true rfl⟩) (hO2 c s k hw) (hG2 c s k hw) tblS htbl fA (hA trivial) fR2 (m (outLoc d)) rfl hin2
    isplitl [Ho3]
    · iapply (slot3_close m d c s hw k (SemLoc.dma ⟨15, of_decide_eq_true rfl⟩ : SemLoc sig) rfl default rfl (m (outLoc d)) fR3 _ _ ?_) $$ Ho3
      exact copy_value3 m d c s hpre k (chunk_lt c s hw k ⟨3, of_decide_eq_true rfl⟩) (hO3 c s k hw) (hG3 c s k hw) tblS htbl fA (hA trivial) fR3 (m (outLoc d)) rfl hin3
    isplitl [Ho4]
    · iapply (slot4_close m d c s hw k (SemLoc.dma ⟨16, of_decide_eq_true rfl⟩ : SemLoc sig) rfl default rfl (m (outLoc d)) fR4 _ _ ?_) $$ Ho4
      exact copy_value4 m d c s hpre k (chunk_lt c s hw k ⟨4, of_decide_eq_true rfl⟩) (hO4 c s k hw) (hG4 c s k hw) tblS htbl fA (hA trivial) fR4 (m (outLoc d)) rfl hin4
    isplitl [Ho5]
    · iapply (slot5_close m d c s hw k (SemLoc.dma ⟨17, of_decide_eq_true rfl⟩ : SemLoc sig) rfl default rfl (m (outLoc d)) fR5 _ _ ?_) $$ Ho5
      exact copy_value5 m d c s hpre k (chunk_lt c s hw k ⟨5, of_decide_eq_true rfl⟩) (hO5 c s k hw) (hG5 c s k hw) tblS htbl fA (hA trivial) fR5 (m (outLoc d)) rfl hin5
    iapply (slot6_close m d c s hw k (SemLoc.dma ⟨18, of_decide_eq_true rfl⟩ : SemLoc sig) rfl default rfl (m (outLoc d)) fR6 _ _ ?_) $$ Ho6
    exact copy_value6 m d c s hpre k (chunk_lt c s hw k ⟨6, of_decide_eq_true rfl⟩) (hO6 c s k hw) (hG6 c s k hw) tblS htbl fA (hA trivial) fR6 (m (outLoc d)) rfl hin6
  isplitl [Hdone Htodo']
  · unfold ChunksSt
    isplitl [Hdone]
    · iapply (Entails.of_eq (done_of_zero m d c s k.val h0)) $$ Hdone
    · iexact Htodo'
  isplitl [Hsh0 Hsh1 Hsh2 Hsh3 Hsh4 Hsh5 Hsh6]
  · unfold Toks
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  isplitl [Hg0 Hg1 Hg2 Hg3 Hg4 Hg5 Hg6]
  · iapply (gsems_close d c s (SemLoc.dma ⟨5, of_decide_eq_true rfl⟩ : SemLoc sig) (SemLoc.dma ⟨6, of_decide_eq_true rfl⟩ : SemLoc sig) (SemLoc.dma ⟨7, of_decide_eq_true rfl⟩ : SemLoc sig) (SemLoc.dma ⟨8, of_decide_eq_true rfl⟩ : SemLoc sig) (SemLoc.dma ⟨9, of_decide_eq_true rfl⟩ : SemLoc sig) (SemLoc.dma ⟨10, of_decide_eq_true rfl⟩ : SemLoc sig) (SemLoc.dma ⟨11, of_decide_eq_true rfl⟩ : SemLoc sig) rfl rfl rfl rfl rfl rfl rfl)
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    iexact Hg6
  iapply (owes_close d c s O W _ (waits_ok_insert _ (waits_ok_insert _ (waits_ok_insert _ (waits_ok_insert _ (waits_ok_insert _ (waits_ok_insert _ (waits_ok_insert _
      (waits_ok_insert _ hW0))))))))) $$ HO

end Cert.Proof.KB

end
-- ==== Proof.KBTripB.lean ====
/-
  A trip of the tile's loop that waits for the index prefetch in flight and issues the next one: trips 4, 8, …, 64.
  The trip first waits for the prefetch of stage k / 4 (the landed half now holds the lists this and the next three trips'
  gathers read), issues the prefetch of stage k / 4 + 1 from the padded indices into the other half, then for each of the
  seven slots waits for the previous trip's copy-out, gathers the chunk's rows of the shared table by the slot's list,
  and copies the slot out to the result's chunk.
-/
import proofs.«203041_g70987219468541_cont_9to1_m_1244_31_alg».proof.Proof.KBTripClose
import proofs.«203041_g70987219468541_cont_9to1_m_1244_31_alg».proof.Proof.KBTileValue
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

set_option maxHeartbeats 1600000 in
theorem trip_B (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips)
    (hk4 : k.val % 4 = 0) (hk0 : 0 < k.val) (hk : k.val ≤ 64) :
    KB.Inv m d c s tblS O W k.val ⟨⟩ ⊢ wp frame (wpE (defs₀ (F := F)) 𝒱₀ (thr d c s) none) Set.univ
      (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => KB.Inv m d c s tblS O W (k.val + 1) ⟨⟩) := by
  have e1 : (k.val + 3) / 4 = k.val / 4 := by omega
  have hne : ¬ k.val = 0 := by omega
  rw [inv_def m d c s tblS O W k.val, idxSt_le m d c s k.val (by omega), e1]
  unfold PrefFlight Slots Toks GSems KB.Owes ChunksSt
  rw [slot0_pos m d c s k.val hne, slot1_pos m d c s k.val hne, slot2_pos m d c s k.val hne, slot3_pos m d c s k.val hne, slot4_pos m d c s k.val hne, slot5_pos m d c s k.val hne, slot6_pos m d c s k.val hne]
  unfold k1_t1_body
  rw [k1_part1_eq_skeleton, k1_part2_eq_skeleton, k1_part3_eq_skeleton, k1_part4_eq_skeleton]
  unfold k1_part1_skel k1_part2_skel k1_part3_skel k1_part4_skel
  iintro ⟨#Hmw, ⟨⟨Hpf, Hrest⟩, Hoth⟩, ⟨⟨%fR0, Ho0⟩, ⟨%fR1, Ho1⟩, ⟨%fR2, Ho2⟩, ⟨%fR3, Ho3⟩, ⟨%fR4, Ho4⟩, ⟨%fR5, Ho5⟩, ⟨%fR6, Ho6⟩⟩, ⟨Hdone, Htodo⟩, ⟨Hsh0, Hsh1, Hsh2, Hsh3, Hsh4, Hsh5, Hsh6⟩, ⟨Hg0, Hg1, Hg2, Hg3, Hg4, Hg5, Hg6⟩, ⟨%W0, %hW0, HO⟩⟩
  sl_exec (disch := first | sl_exact (h2T k hk4) | sl_exact (h3T k (by omega)))
  -- the landed half, the other half, the padded indices whole again
  unfold HalfHeld
  icases Hpf_dst with ⟨%fA, %hA, HhalfA⟩
  icases Hoth with ⟨%fB, -, HhalfB⟩
  ihave HhalfB' := (Entails.of_eq (pts_pref d c s k (h2T k hk4) (h3T k (by omega)) fullShare fB).symm) $$ HhalfB
  ihave Hidx := (Entails.of_eq (show ((KB.stM (wOf c s) (stJ (k.val / 4))).view.loc (thr d c s) ↦{qI c s} idxc m d : sProp 𝕄)
      = ((idxV).view.loc (thr d c s) ↦{qI c s} idxc m d) from rfl)) $$ Hrest
  have hfA := half_lt m d c s hpre (halfOf (k.val / 4)) (k.val / 4) fA (hA trivial)
  have hin0 := list_read_lt d c s k ⟨0, of_decide_eq_true rfl⟩ _ (k1_off4_inb (coordsV c s) k (hG0 c s k hw)) (k1_off4_eq k) fA hfA
  have hin1 := list_read_lt d c s k ⟨1, of_decide_eq_true rfl⟩ _ (k1_off5_inb (coordsV c s) k (hG1 c s k hw)) (k1_off5_eq k) fA hfA
  have hin2 := list_read_lt d c s k ⟨2, of_decide_eq_true rfl⟩ _ (k1_off6_inb (coordsV c s) k (hG2 c s k hw)) (k1_off6_eq k) fA hfA
  have hin3 := list_read_lt d c s k ⟨3, of_decide_eq_true rfl⟩ _ (k1_off7_inb (coordsV c s) k (hG3 c s k hw)) (k1_off7_eq k) fA hfA
  have hin4 := list_read_lt d c s k ⟨4, of_decide_eq_true rfl⟩ _ (k1_off8_inb (coordsV c s) k (hG4 c s k hw)) (k1_off8_eq k) fA hfA
  have hin5 := list_read_lt d c s k ⟨5, of_decide_eq_true rfl⟩ _ (k1_off9_inb (coordsV c s) k (hG5 c s k hw)) (k1_off9_eq k) fA hfA
  have hin6 := list_read_lt d c s k ⟨6, of_decide_eq_true rfl⟩ _ (k1_off10_inb (coordsV c s) k (hG6 c s k hw)) (k1_off10_eq k) fA hfA
  -- the landed half cut into the trip's lists
  ihave Hsp := (Entails.of_eq (half_split d c s (halfOf (k.val / 4)) k rfl fullShare fA)) $$ HhalfA
  icases Hsp with ⟨Hlists, HrestA⟩
  ihave Hl := (Entails.of_eq (bigSep_fin7' (F := F) (fun b : Fin 7 => (pcM (listOf k b)).view.loc (thr d c s) ↦[pcSet (listOf k b)]{fullShare} fA))) $$ Hlists
  icases Hl with ⟨Hix0, Hix1, Hix2, Hix3, Hix4, Hix5, Hix6⟩
  ihave Hix0' := (Entails.of_eq (pts_list0 d c s k (hG0 c s k hw) fullShare fA).symm) $$ Hix0
  ihave Hix1' := (Entails.of_eq (pts_list1 d c s k (hG1 c s k hw) fullShare fA).symm) $$ Hix1
  ihave Hix2' := (Entails.of_eq (pts_list2 d c s k (hG2 c s k hw) fullShare fA).symm) $$ Hix2
  ihave Hix3' := (Entails.of_eq (pts_list3 d c s k (hG3 c s k hw) fullShare fA).symm) $$ Hix3
  ihave Hix4' := (Entails.of_eq (pts_list4 d c s k (hG4 c s k hw) fullShare fA).symm) $$ Hix4
  ihave Hix5' := (Entails.of_eq (pts_list5 d c s k (hG5 c s k hw) fullShare fA).symm) $$ Hix5
  ihave Hix6' := (Entails.of_eq (pts_list6 d c s k (hG6 c s k hw) fullShare fA).symm) $$ Hix6
  -- the trip's chunks off the chunks to do
  ihave Htd := (Entails.of_eq (todo_step m d c s k.val k.isLt)) $$ Htodo
  icases Htd with ⟨Hout0, Hout1, Hout2, Hout3, Hout4, Hout5, Hout6, Htodo'⟩
  ihave Hout0' := (Entails.of_eq ((congrArg (fun g => (outLoc d ↦[chunkSet g]{fullShare} m (outLoc d) : sProp 𝕄)) (chunkIx_eq_chunkOf c s hw k ⟨0, of_decide_eq_true rfl⟩ (chunk_lt c s hw k ⟨0, of_decide_eq_true rfl⟩))).trans
      (pts_chunk0 d c s k (hO0 c s k hw) (chunk_lt c s hw k ⟨0, of_decide_eq_true rfl⟩) fullShare (m (outLoc d))).symm)) $$ Hout0
  ihave Hout1' := (Entails.of_eq ((congrArg (fun g => (outLoc d ↦[chunkSet g]{fullShare} m (outLoc d) : sProp 𝕄)) (chunkIx_eq_chunkOf c s hw k ⟨1, of_decide_eq_true rfl⟩ (chunk_lt c s hw k ⟨1, of_decide_eq_true rfl⟩))).trans
      (pts_chunk1 d c s k (hO1 c s k hw) (chunk_lt c s hw k ⟨1, of_decide_eq_true rfl⟩) fullShare (m (outLoc d))).symm)) $$ Hout1
  ihave Hout2' := (Entails.of_eq ((congrArg (fun g => (outLoc d ↦[chunkSet g]{fullShare} m (outLoc d) : sProp 𝕄)) (chunkIx_eq_chunkOf c s hw k ⟨2, of_decide_eq_true rfl⟩ (chunk_lt c s hw k ⟨2, of_decide_eq_true rfl⟩))).trans
      (pts_chunk2 d c s k (hO2 c s k hw) (chunk_lt c s hw k ⟨2, of_decide_eq_true rfl⟩) fullShare (m (outLoc d))).symm)) $$ Hout2
  ihave Hout3' := (Entails.of_eq ((congrArg (fun g => (outLoc d ↦[chunkSet g]{fullShare} m (outLoc d) : sProp 𝕄)) (chunkIx_eq_chunkOf c s hw k ⟨3, of_decide_eq_true rfl⟩ (chunk_lt c s hw k ⟨3, of_decide_eq_true rfl⟩))).trans
      (pts_chunk3 d c s k (hO3 c s k hw) (chunk_lt c s hw k ⟨3, of_decide_eq_true rfl⟩) fullShare (m (outLoc d))).symm)) $$ Hout3
  ihave Hout4' := (Entails.of_eq ((congrArg (fun g => (outLoc d ↦[chunkSet g]{fullShare} m (outLoc d) : sProp 𝕄)) (chunkIx_eq_chunkOf c s hw k ⟨4, of_decide_eq_true rfl⟩ (chunk_lt c s hw k ⟨4, of_decide_eq_true rfl⟩))).trans
      (pts_chunk4 d c s k (hO4 c s k hw) (chunk_lt c s hw k ⟨4, of_decide_eq_true rfl⟩) fullShare (m (outLoc d))).symm)) $$ Hout4
  ihave Hout5' := (Entails.of_eq ((congrArg (fun g => (outLoc d ↦[chunkSet g]{fullShare} m (outLoc d) : sProp 𝕄)) (chunkIx_eq_chunkOf c s hw k ⟨5, of_decide_eq_true rfl⟩ (chunk_lt c s hw k ⟨5, of_decide_eq_true rfl⟩))).trans
      (pts_chunk5 d c s k (hO5 c s k hw) (chunk_lt c s hw k ⟨5, of_decide_eq_true rfl⟩) fullShare (m (outLoc d))).symm)) $$ Hout5
  ihave Hout6' := (Entails.of_eq ((congrArg (fun g => (outLoc d ↦[chunkSet g]{fullShare} m (outLoc d) : sProp 𝕄)) (chunkIx_eq_chunkOf c s hw k ⟨6, of_decide_eq_true rfl⟩ (chunk_lt c s hw k ⟨6, of_decide_eq_true rfl⟩))).trans
      (pts_chunk6 d c s k (hO6 c s k hw) (chunk_lt c s hw k ⟨6, of_decide_eq_true rfl⟩) fullShare (m (outLoc d))).symm)) $$ Hout6
  set_option sl_exec.dischHeartbeats 400000 in
  sl_exec (disch := first | sl_exact (h2T k hk4) | sl_exact (h3T k (by omega)) | sl_exact (hG0 c s k hw) | sl_exact (hO0 c s k hw) | sl_exact (hG1 c s k hw) | sl_exact (hO1 c s k hw) | sl_exact (hG2 c s k hw) | sl_exact (hO2 c s k hw) | sl_exact (hG3 c s k hw) | sl_exact (hO3 c s k hw) | sl_exact (hG4 c s k hw) | sl_exact (hO4 c s k hw) | sl_exact (hG5 c s k hw) | sl_exact (hO5 c s k hw) | sl_exact (hG6 c s k hw) | sl_exact (hO6 c s k hw) | (clear hin0 hin1 hin2 hin3 hin4 hin5 hin6 hfA hA fA fB fR0 fR1 fR2 fR3 fR4 fR5 fR6 hW0 W0 htbl tblS hpre e1 hne hk; revert hk0 hk4 hw; revert k s c; decide +kernel))
  sl_step
  rw [inv_def m d c s tblS O W (k.val + 1)]
  isplitr; · iexact Hmw
  isplitl [Hpf Hidx Hix0' Hix1' Hix2' Hix3' Hix4' Hix5' Hix6' HrestA]
  · ihave Hh := (half_join d c s hw k fA) $$ [Hix0' Hix1' Hix2' Hix3' Hix4' Hix5' Hix6' HrestA]
    · isplitl [Hix0']; · iexact Hix0'
      isplitl [Hix1']; · iexact Hix1'
      isplitl [Hix2']; · iexact Hix2'
      isplitl [Hix3']; · iexact Hix3'
      isplitl [Hix4']; · iexact Hix4'
      isplitl [Hix5']; · iexact Hix5'
      isplitl [Hix6']; · iexact Hix6'
      iexact HrestA
    iapply (idx_close_issue m d c s k (h2T k hk4) (h3T k (by omega)) (SemLoc.dma ⟨4, of_decide_eq_true rfl⟩ : SemLoc sig) rfl default rfl fA fB (hA trivial) _
      (stageAt_landedK m d c s k (h2T k hk4) (h3T k (by omega)) fB))
    isplitl [Hpf]; · iexact Hpf
    isplitl [Hidx]; · iexact Hidx
    iexact Hh
  isplitl [Ho0 Ho1 Ho2 Ho3 Ho4 Ho5 Ho6]
  · unfold Slots
    isplitl [Ho0]
    · iapply (slot0_close m d c s hw k (SemLoc.dma ⟨12, of_decide_eq_true rfl⟩ : SemLoc sig) rfl default rfl (m (outLoc d)) fR0 _ _ ?_) $$ Ho0
      exact copy_value0 m d c s hpre k (chunk_lt c s hw k ⟨0, of_decide_eq_true rfl⟩) (hO0 c s k hw) (hG0 c s k hw) tblS htbl fA (hA trivial) fR0 (m (outLoc d)) rfl hin0
    isplitl [Ho1]
    · iapply (slot1_close m d c s hw k (SemLoc.dma ⟨13, of_decide_eq_true rfl⟩ : SemLoc sig) rfl default rfl (m (outLoc d)) fR1 _ _ ?_) $$ Ho1
      exact copy_value1 m d c s hpre k (chunk_lt c s hw k ⟨1, of_decide_eq_true rfl⟩) (hO1 c s k hw) (hG1 c s k hw) tblS htbl fA (hA trivial) fR1 (m (outLoc d)) rfl hin1
    isplitl [Ho2]
    · iapply (slot2_close m d c s hw k (SemLoc.dma ⟨14, of_decide_eq_true rfl⟩ : SemLoc sig) rfl default rfl (m (outLoc d)) fR2 _ _ ?_) $$ Ho2
      exact copy_value2 m d c s hpre k (chunk_lt c s hw k ⟨2, of_decide_eq_true rfl⟩) (hO2 c s k hw) (hG2 c s k hw) tblS htbl fA (hA trivial) fR2 (m (outLoc d)) rfl hin2
    isplitl [Ho3]
    · iapply (slot3_close m d c s hw k (SemLoc.dma ⟨15, of_decide_eq_true rfl⟩ : SemLoc sig) rfl default rfl (m (outLoc d)) fR3 _ _ ?_) $$ Ho3
      exact copy_value3 m d c s hpre k (chunk_lt c s hw k ⟨3, of_decide_eq_true rfl⟩) (hO3 c s k hw) (hG3 c s k hw) tblS htbl fA (hA trivial) fR3 (m (outLoc d)) rfl hin3
    isplitl [Ho4]
    · iapply (slot4_close m d c s hw k (SemLoc.dma ⟨16, of_decide_eq_true rfl⟩ : SemLoc sig) rfl default rfl (m (outLoc d)) fR4 _ _ ?_) $$ Ho4
      exact copy_value4 m d c s hpre k (chunk_lt c s hw k ⟨4, of_decide_eq_true rfl⟩) (hO4 c s k hw) (hG4 c s k hw) tblS htbl fA (hA trivial) fR4 (m (outLoc d)) rfl hin4
    isplitl [Ho5]
    · iapply (slot5_close m d c s hw k (SemLoc.dma ⟨17, of_decide_eq_true rfl⟩ : SemLoc sig) rfl default rfl (m (outLoc d)) fR5 _ _ ?_) $$ Ho5
      exact copy_value5 m d c s hpre k (chunk_lt c s hw k ⟨5, of_decide_eq_true rfl⟩) (hO5 c s k hw) (hG5 c s k hw) tblS htbl fA (hA trivial) fR5 (m (outLoc d)) rfl hin5
    iapply (slot6_close m d c s hw k (SemLoc.dma ⟨18, of_decide_eq_true rfl⟩ : SemLoc sig) rfl default rfl (m (outLoc d)) fR6 _ _ ?_) $$ Ho6
    exact copy_value6 m d c s hpre k (chunk_lt c s hw k ⟨6, of_decide_eq_true rfl⟩) (hO6 c s k hw) (hG6 c s k hw) tblS htbl fA (hA trivial) fR6 (m (outLoc d)) rfl hin6
  isplitl [Hdone Ho0_dst Ho1_dst Ho2_dst Ho3_dst Ho4_dst Ho5_dst Ho6_dst Htodo']
  · unfold ChunksSt
    isplitl [Hdone Ho0_dst Ho1_dst Ho2_dst Ho3_dst Ho4_dst Ho5_dst Ho6_dst]
    · iapply (done_close m d c s k.val hk0)
      isplitl [Hdone]; · iexact Hdone
      isplitl [Ho0_dst]; · iexact Ho0_dst
      isplitl [Ho1_dst]; · iexact Ho1_dst
      isplitl [Ho2_dst]; · iexact Ho2_dst
      isplitl [Ho3_dst]; · iexact Ho3_dst
      isplitl [Ho4_dst]; · iexact Ho4_dst
      isplitl [Ho5_dst]; · iexact Ho5_dst
      iexact Ho6_dst
    · iexact Htodo'
  isplitl [Hsh0 Hsh1 Hsh2 Hsh3 Hsh4 Hsh5 Hsh6]
  · unfold Toks
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  isplitl [Hg0 Hg1 Hg2 Hg3 Hg4 Hg5 Hg6]
  · iapply (gsems_close d c s (SemLoc.dma ⟨5, of_decide_eq_true rfl⟩ : SemLoc sig) (SemLoc.dma ⟨6, of_decide_eq_true rfl⟩ : SemLoc sig) (SemLoc.dma ⟨7, of_decide_eq_true rfl⟩ : SemLoc sig) (SemLoc.dma ⟨8, of_decide_eq_true rfl⟩ : SemLoc sig) (SemLoc.dma ⟨9, of_decide_eq_true rfl⟩ : SemLoc sig) (SemLoc.dma ⟨10, of_decide_eq_true rfl⟩ : SemLoc sig) (SemLoc.dma ⟨11, of_decide_eq_true rfl⟩ : SemLoc sig) rfl rfl rfl rfl rfl rfl rfl)
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    iexact Hg6
  iapply (owes_close d c s O W _ (waits_ok_insert _ (waits_ok_insert _ (waits_ok_insert _ (waits_ok_insert _ (waits_ok_insert _ (waits_ok_insert _ (waits_ok_insert _
      (waits_ok_insert _ (waits_ok_insert _ (waits_ok_insert _ (waits_ok_insert _ (waits_ok_insert _ (waits_ok_insert _ (waits_ok_insert _
      (waits_ok_insert _ hW0)))))))))))))))) $$ HO

end Cert.Proof.KB

end
-- ==== Proof.KBTripC.lean ====
/-
  The last trip of the tile's loop that waits for the index prefetch: trip 68. The prefetch of stage 17 lands and no
  further stage is fetched; from here on the prefetch's semaphore stays at zero and the padded indices stay whole. The
  seven slots go as in every trip: the previous copy-out awaited, the chunk's rows gathered by the slot's list, the
  slot copied out.
-/
import proofs.«203041_g70987219468541_cont_9to1_m_1244_31_alg».proof.Proof.KBTripClose
import proofs.«203041_g70987219468541_cont_9to1_m_1244_31_alg».proof.Proof.KBTileValue
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

set_option maxHeartbeats 1600000 in
theorem trip_C (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips) (h68 : k.val = 68) :
    KB.Inv m d c s tblS O W k.val ⟨⟩ ⊢ wp frame (wpE (defs₀ (F := F)) 𝒱₀ (thr d c s) none) Set.univ
      (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => KB.Inv m d c s tblS O W (k.val + 1) ⟨⟩) := by
  have hk4 : k.val % 4 = 0 := by omega
  have hk0 : 0 < k.val := by omega
  have e1 : (k.val + 3) / 4 = k.val / 4 := by omega
  have hne : ¬ k.val = 0 := by omega
  rw [inv_def m d c s tblS O W k.val, idxSt_le m d c s k.val (by omega), e1]
  unfold PrefFlight Slots Toks GSems KB.Owes ChunksSt
  rw [slot0_pos m d c s k.val hne, slot1_pos m d c s k.val hne, slot2_pos m d c s k.val hne, slot3_pos m d c s k.val hne, slot4_pos m d c s k.val hne, slot5_pos m d c s k.val hne, slot6_pos m d c s k.val hne]
  unfold k1_t1_body
  rw [k1_part1_eq_skeleton, k1_part2_eq_skeleton, k1_part3_eq_skeleton, k1_part4_eq_skeleton]
  unfold k1_part1_skel k1_part2_skel k1_part3_skel k1_part4_skel
  iintro ⟨#Hmw, ⟨⟨Hpf, Hrest⟩, Hoth⟩, ⟨⟨%fR0, Ho0⟩, ⟨%fR1, Ho1⟩, ⟨%fR2, Ho2⟩, ⟨%fR3, Ho3⟩, ⟨%fR4, Ho4⟩, ⟨%fR5, Ho5⟩, ⟨%fR6, Ho6⟩⟩, ⟨Hdone, Htodo⟩, ⟨Hsh0, Hsh1, Hsh2, Hsh3, Hsh4, Hsh5, Hsh6⟩, ⟨Hg0, Hg1, Hg2, Hg3, Hg4, Hg5, Hg6⟩, ⟨%W0, %hW0, HO⟩⟩
  sl_exec (disch := first | sl_exact (h2T k hk4) | sl_exact (h3F k (by omega)) | sl_exact (hG0 c s k hw) | (clear * - h68 hw; revert h68 hw; revert k s c; decide +kernel))
  -- the landed half, the other half, the padded indices whole again
  unfold HalfHeld
  icases Hpf_dst with ⟨%fA, %hA, HhalfA⟩
  icases Hoth with ⟨%fB, -, HhalfB⟩
  ihave Hidx := (Entails.of_eq (show ((KB.stM (wOf c s) (stJ (k.val / 4))).view.loc (thr d c s) ↦{qI c s} idxc m d : sProp 𝕄)
      = ((idxV).view.loc (thr d c s) ↦{qI c s} idxc m d) from rfl)) $$ Hrest
  have hfA := half_lt m d c s hpre (halfOf (k.val / 4)) (k.val / 4) fA (hA trivial)
  have hin0 := list_read_lt d c s k ⟨0, of_decide_eq_true rfl⟩ _ (k1_off4_inb (coordsV c s) k (hG0 c s k hw)) (k1_off4_eq k) fA hfA
  have hin1 := list_read_lt d c s k ⟨1, of_decide_eq_true rfl⟩ _ (k1_off5_inb (coordsV c s) k (hG1 c s k hw)) (k1_off5_eq k) fA hfA
  have hin2 := list_read_lt d c s k ⟨2, of_decide_eq_true rfl⟩ _ (k1_off6_inb (coordsV c s) k (hG2 c s k hw)) (k1_off6_eq k) fA hfA
  have hin3 := list_read_lt d c s k ⟨3, of_decide_eq_true rfl⟩ _ (k1_off7_inb (coordsV c s) k (hG3 c s k hw)) (k1_off7_eq k) fA hfA
  have hin4 := list_read_lt d c s k ⟨4, of_decide_eq_true rfl⟩ _ (k1_off8_inb (coordsV c s) k (hG4 c s k hw)) (k1_off8_eq k) fA hfA
  have hin5 := list_read_lt d c s k ⟨5, of_decide_eq_true rfl⟩ _ (k1_off9_inb (coordsV c s) k (hG5 c s k hw)) (k1_off9_eq k) fA hfA
  have hin6 := list_read_lt d c s k ⟨6, of_decide_eq_true rfl⟩ _ (k1_off10_inb (coordsV c s) k (hG6 c s k hw)) (k1_off10_eq k) fA hfA
  -- the landed half cut into the trip's lists
  ihave Hsp := (Entails.of_eq (half_split d c s (halfOf (k.val / 4)) k rfl fullShare fA)) $$ HhalfA
  icases Hsp with ⟨Hlists, HrestA⟩
  ihave Hl := (Entails.of_eq (bigSep_fin7' (F := F) (fun b : Fin 7 => (pcM (listOf k b)).view.loc (thr d c s) ↦[pcSet (listOf k b)]{fullShare} fA))) $$ Hlists
  icases Hl with ⟨Hix0, Hix1, Hix2, Hix3, Hix4, Hix5, Hix6⟩
  ihave Hix0' := (Entails.of_eq (pts_list0 d c s k (hG0 c s k hw) fullShare fA).symm) $$ Hix0
  ihave Hix1' := (Entails.of_eq (pts_list1 d c s k (hG1 c s k hw) fullShare fA).symm) $$ Hix1
  ihave Hix2' := (Entails.of_eq (pts_list2 d c s k (hG2 c s k hw) fullShare fA).symm) $$ Hix2
  ihave Hix3' := (Entails.of_eq (pts_list3 d c s k (hG3 c s k hw) fullShare fA).symm) $$ Hix3
  ihave Hix4' := (Entails.of_eq (pts_list4 d c s k (hG4 c s k hw) fullShare fA).symm) $$ Hix4
  ihave Hix5' := (Entails.of_eq (pts_list5 d c s k (hG5 c s k hw) fullShare fA).symm) $$ Hix5
  ihave Hix6' := (Entails.of_eq (pts_list6 d c s k (hG6 c s k hw) fullShare fA).symm) $$ Hix6
  -- the trip's chunks off the chunks to do
  ihave Htd := (Entails.of_eq (todo_step m d c s k.val k.isLt)) $$ Htodo
  icases Htd with ⟨Hout0, Hout1, Hout2, Hout3, Hout4, Hout5, Hout6, Htodo'⟩
  ihave Hout0' := (Entails.of_eq ((congrArg (fun g => (outLoc d ↦[chunkSet g]{fullShare} m (outLoc d) : sProp 𝕄)) (chunkIx_eq_chunkOf c s hw k ⟨0, of_decide_eq_true rfl⟩ (chunk_lt c s hw k ⟨0, of_decide_eq_true rfl⟩))).trans
      (pts_chunk0 d c s k (hO0 c s k hw) (chunk_lt c s hw k ⟨0, of_decide_eq_true rfl⟩) fullShare (m (outLoc d))).symm)) $$ Hout0
  ihave Hout1' := (Entails.of_eq ((congrArg (fun g => (outLoc d ↦[chunkSet g]{fullShare} m (outLoc d) : sProp 𝕄)) (chunkIx_eq_chunkOf c s hw k ⟨1, of_decide_eq_true rfl⟩ (chunk_lt c s hw k ⟨1, of_decide_eq_true rfl⟩))).trans
      (pts_chunk1 d c s k (hO1 c s k hw) (chunk_lt c s hw k ⟨1, of_decide_eq_true rfl⟩) fullShare (m (outLoc d))).symm)) $$ Hout1
  ihave Hout2' := (Entails.of_eq ((congrArg (fun g => (outLoc d ↦[chunkSet g]{fullShare} m (outLoc d) : sProp 𝕄)) (chunkIx_eq_chunkOf c s hw k ⟨2, of_decide_eq_true rfl⟩ (chunk_lt c s hw k ⟨2, of_decide_eq_true rfl⟩))).trans
      (pts_chunk2 d c s k (hO2 c s k hw) (chunk_lt c s hw k ⟨2, of_decide_eq_true rfl⟩) fullShare (m (outLoc d))).symm)) $$ Hout2
  ihave Hout3' := (Entails.of_eq ((congrArg (fun g => (outLoc d ↦[chunkSet g]{fullShare} m (outLoc d) : sProp 𝕄)) (chunkIx_eq_chunkOf c s hw k ⟨3, of_decide_eq_true rfl⟩ (chunk_lt c s hw k ⟨3, of_decide_eq_true rfl⟩))).trans
      (pts_chunk3 d c s k (hO3 c s k hw) (chunk_lt c s hw k ⟨3, of_decide_eq_true rfl⟩) fullShare (m (outLoc d))).symm)) $$ Hout3
  ihave Hout4' := (Entails.of_eq ((congrArg (fun g => (outLoc d ↦[chunkSet g]{fullShare} m (outLoc d) : sProp 𝕄)) (chunkIx_eq_chunkOf c s hw k ⟨4, of_decide_eq_true rfl⟩ (chunk_lt c s hw k ⟨4, of_decide_eq_true rfl⟩))).trans
      (pts_chunk4 d c s k (hO4 c s k hw) (chunk_lt c s hw k ⟨4, of_decide_eq_true rfl⟩) fullShare (m (outLoc d))).symm)) $$ Hout4
  ihave Hout5' := (Entails.of_eq ((congrArg (fun g => (outLoc d ↦[chunkSet g]{fullShare} m (outLoc d) : sProp 𝕄)) (chunkIx_eq_chunkOf c s hw k ⟨5, of_decide_eq_true rfl⟩ (chunk_lt c s hw k ⟨5, of_decide_eq_true rfl⟩))).trans
      (pts_chunk5 d c s k (hO5 c s k hw) (chunk_lt c s hw k ⟨5, of_decide_eq_true rfl⟩) fullShare (m (outLoc d))).symm)) $$ Hout5
  ihave Hout6' := (Entails.of_eq ((congrArg (fun g => (outLoc d ↦[chunkSet g]{fullShare} m (outLoc d) : sProp 𝕄)) (chunkIx_eq_chunkOf c s hw k ⟨6, of_decide_eq_true rfl⟩ (chunk_lt c s hw k ⟨6, of_decide_eq_true rfl⟩))).trans
      (pts_chunk6 d c s k (hO6 c s k hw) (chunk_lt c s hw k ⟨6, of_decide_eq_true rfl⟩) fullShare (m (outLoc d))).symm)) $$ Hout6
  set_option sl_exec.dischHeartbeats 400000 in
  sl_exec (disch := first | sl_exact (h2T k hk4) | sl_exact (h3F k (by omega)) | sl_exact (hG0 c s k hw) | sl_exact (hO0 c s k hw) | sl_exact (hG1 c s k hw) | sl_exact (hO1 c s k hw) | sl_exact (hG2 c s k hw) | sl_exact (hO2 c s k hw) | sl_exact (hG3 c s k hw) | sl_exact (hO3 c s k hw) | sl_exact (hG4 c s k hw) | sl_exact (hO4 c s k hw) | sl_exact (hG5 c s k hw) | sl_exact (hO5 c s k hw) | sl_exact (hG6 c s k hw) | sl_exact (hO6 c s k hw) | (clear * - h68 hw; revert h68 hw; revert k s c; decide +kernel))
  sl_step
  rw [inv_def m d c s tblS O W (k.val + 1)]
  isplitr; · iexact Hmw
  isplitl [Hpf Hidx Hix0' Hix1' Hix2' Hix3' Hix4' Hix5' Hix6' HrestA HhalfB]
  · ihave Hh := (half_join d c s hw k fA) $$ [Hix0' Hix1' Hix2' Hix3' Hix4' Hix5' Hix6' HrestA]
    · isplitl [Hix0']; · iexact Hix0'
      isplitl [Hix1']; · iexact Hix1'
      isplitl [Hix2']; · iexact Hix2'
      isplitl [Hix3']; · iexact Hix3'
      isplitl [Hix4']; · iexact Hix4'
      isplitl [Hix5']; · iexact Hix5'
      isplitl [Hix6']; · iexact Hix6'
      iexact HrestA
    iapply (idx_close_last m d c s k h68 (SemLoc.dma ⟨4, of_decide_eq_true rfl⟩ : SemLoc sig) rfl fA fB (hA trivial))
    isplitl [Hpf]; · iexact Hpf
    isplitl [Hidx]; · iexact Hidx
    isplitl [Hh]; · iexact Hh
    iexact HhalfB
  isplitl [Ho0 Ho1 Ho2 Ho3 Ho4 Ho5 Ho6]
  · unfold Slots
    isplitl [Ho0]
    · iapply (slot0_close m d c s hw k (SemLoc.dma ⟨12, of_decide_eq_true rfl⟩ : SemLoc sig) rfl default rfl (m (outLoc d)) fR0 _ _ ?_) $$ Ho0
      exact copy_value0 m d c s hpre k (chunk_lt c s hw k ⟨0, of_decide_eq_true rfl⟩) (hO0 c s k hw) (hG0 c s k hw) tblS htbl fA (hA trivial) fR0 (m (outLoc d)) rfl hin0
    isplitl [Ho1]
    · iapply (slot1_close m d c s hw k (SemLoc.dma ⟨13, of_decide_eq_true rfl⟩ : SemLoc sig) rfl default rfl (m (outLoc d)) fR1 _ _ ?_) $$ Ho1
      exact copy_value1 m d c s hpre k (chunk_lt c s hw k ⟨1, of_decide_eq_true rfl⟩) (hO1 c s k hw) (hG1 c s k hw) tblS htbl fA (hA trivial) fR1 (m (outLoc d)) rfl hin1
    isplitl [Ho2]
    · iapply (slot2_close m d c s hw k (SemLoc.dma ⟨14, of_decide_eq_true rfl⟩ : SemLoc sig) rfl default rfl (m (outLoc d)) fR2 _ _ ?_) $$ Ho2
      exact copy_value2 m d c s hpre k (chunk_lt c s hw k ⟨2, of_decide_eq_true rfl⟩) (hO2 c s k hw) (hG2 c s k hw) tblS htbl fA (hA trivial) fR2 (m (outLoc d)) rfl hin2
    isplitl [Ho3]
    · iapply (slot3_close m d c s hw k (SemLoc.dma ⟨15, of_decide_eq_true rfl⟩ : SemLoc sig) rfl default rfl (m (outLoc d)) fR3 _ _ ?_) $$ Ho3
      exact copy_value3 m d c s hpre k (chunk_lt c s hw k ⟨3, of_decide_eq_true rfl⟩) (hO3 c s k hw) (hG3 c s k hw) tblS htbl fA (hA trivial) fR3 (m (outLoc d)) rfl hin3
    isplitl [Ho4]
    · iapply (slot4_close m d c s hw k (SemLoc.dma ⟨16, of_decide_eq_true rfl⟩ : SemLoc sig) rfl default rfl (m (outLoc d)) fR4 _ _ ?_) $$ Ho4
      exact copy_value4 m d c s hpre k (chunk_lt c s hw k ⟨4, of_decide_eq_true rfl⟩) (hO4 c s k hw) (hG4 c s k hw) tblS htbl fA (hA trivial) fR4 (m (outLoc d)) rfl hin4
    isplitl [Ho5]
    · iapply (slot5_close m d c s hw k (SemLoc.dma ⟨17, of_decide_eq_true rfl⟩ : SemLoc sig) rfl default rfl (m (outLoc d)) fR5 _ _ ?_) $$ Ho5
      exact copy_value5 m d c s hpre k (chunk_lt c s hw k ⟨5, of_decide_eq_true rfl⟩) (hO5 c s k hw) (hG5 c s k hw) tblS htbl fA (hA trivial) fR5 (m (outLoc d)) rfl hin5
    iapply (slot6_close m d c s hw k (SemLoc.dma ⟨18, of_decide_eq_true rfl⟩ : SemLoc sig) rfl default rfl (m (outLoc d)) fR6 _ _ ?_) $$ Ho6
    exact copy_value6 m d c s hpre k (chunk_lt c s hw k ⟨6, of_decide_eq_true rfl⟩) (hO6 c s k hw) (hG6 c s k hw) tblS htbl fA (hA trivial) fR6 (m (outLoc d)) rfl hin6
  isplitl [Hdone Ho0_dst Ho1_dst Ho2_dst Ho3_dst Ho4_dst Ho5_dst Ho6_dst Htodo']
  · unfold ChunksSt
    isplitl [Hdone Ho0_dst Ho1_dst Ho2_dst Ho3_dst Ho4_dst Ho5_dst Ho6_dst]
    · iapply (done_close m d c s k.val hk0)
      isplitl [Hdone]; · iexact Hdone
      isplitl [Ho0_dst]; · iexact Ho0_dst
      isplitl [Ho1_dst]; · iexact Ho1_dst
      isplitl [Ho2_dst]; · iexact Ho2_dst
      isplitl [Ho3_dst]; · iexact Ho3_dst
      isplitl [Ho4_dst]; · iexact Ho4_dst
      isplitl [Ho5_dst]; · iexact Ho5_dst
      iexact Ho6_dst
    · iexact Htodo'
  isplitl [Hsh0 Hsh1 Hsh2 Hsh3 Hsh4 Hsh5 Hsh6]
  · unfold Toks
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  isplitl [Hg0 Hg1 Hg2 Hg3 Hg4 Hg5 Hg6]
  · iapply (gsems_close d c s (SemLoc.dma ⟨5, of_decide_eq_true rfl⟩ : SemLoc sig) (SemLoc.dma ⟨6, of_decide_eq_true rfl⟩ : SemLoc sig) (SemLoc.dma ⟨7, of_decide_eq_true rfl⟩ : SemLoc sig) (SemLoc.dma ⟨8, of_decide_eq_true rfl⟩ : SemLoc sig) (SemLoc.dma ⟨9, of_decide_eq_true rfl⟩ : SemLoc sig) (SemLoc.dma ⟨10, of_decide_eq_true rfl⟩ : SemLoc sig) (SemLoc.dma ⟨11, of_decide_eq_true rfl⟩ : SemLoc sig) rfl rfl rfl rfl rfl rfl rfl)
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    iexact Hg6
  iapply (owes_close d c s O W _ (waits_ok_insert _ (waits_ok_insert _ (waits_ok_insert _ (waits_ok_insert _ (waits_ok_insert _ (waits_ok_insert _ (waits_ok_insert _
      (waits_ok_insert _ (waits_ok_insert _ (waits_ok_insert _ (waits_ok_insert _ (waits_ok_insert _ (waits_ok_insert _ (waits_ok_insert _
      (waits_ok_insert _ hW0)))))))))))))))) $$ HO

end Cert.Proof.KB

end
-- ==== Proof.KBTripD.lean ====
/-
  One trip of a tile's loop away from the index prefetch: trip k with k not a multiple of 4 and k ≤ 67, for a worker
  whose chunks all exist. The prefetch in flight is not touched. The trip waits for the seven copy-outs of trip k - 1
  (each hands back its chunk at the result's values and its row slot), gathers the table's rows named by the seven lists
  of this trip (the lists lie in the half of the index scratch that holds stage k / 4) into the slots, and copies the
  slots out to the chunks 7 k .. 7 k + 6 of the worker: what is written there is the result, because a list's word is
  the padded index of its row and the table's row of an index below 119 is the projected feature row.
-/
import proofs.«203041_g70987219468541_cont_9to1_m_1244_31_alg».proof.Proof.KBTripFacts
import proofs.«203041_g70987219468541_cont_9to1_m_1244_31_alg».proof.Proof.KBTileSetLemmas2
import proofs.«203041_g70987219468541_cont_9to1_m_1244_31_alg».proof.Proof.KBTileChunkSteps
import proofs.«203041_g70987219468541_cont_9to1_m_1244_31_alg».proof.Proof.KBTileValue
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- every chunk of a worker below 31 exists -/
theorem chunk_ltD (c : Fin (grid1.bound 0)) (s : Fin (grid1.bound 1)) (hw : 2 * s.val + c.val ≤ 30) (k : Fin k1_t1_loop.trips) (b : ℕ) (hb : b < 7) : 504 * (wOf c s).val + 7 * k.val + b < 15625 := by
  have := k.isLt; have : (wOf c s).val = 2 * s.val + c.val := rfl
  have : k1_t1_loop.trips ≤ 72 := Cert.Kernel.Gen.k1_t1_abs.2.1
  omega

set_option maxHeartbeats 4000000 in
theorem trip_D (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips) (hk4 : k.val % 4 ≠ 0) (hk : k.val ≤ 67) :
    Inv m d c s tblS O W k.val ⟨⟩ ⊢ wp frame (wpE (defs₀ (F := F)) 𝒱₀ (thr d c s) none) Set.univ
          (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => Inv m d c s tblS O W (k.val + 1) ⟨⟩) := by
  have hk0 : 0 < k.val := by omega
  have hk0' : ¬ k.val = 0 := by omega
  have hk1' : ¬ k.val + 1 = 0 := by omega
  have e1 : halfOf ((k.val + 3) / 4 + 1) = halfOf (k.val / 4) := by
    unfold halfOf; apply Fin.ext; show ((k.val + 3) / 4 + 1) % 2 = (k.val / 4) % 2; omega
  have e2 : (k.val + 1 + 3) / 4 = (k.val + 3) / 4 := by omega
  unfold Inv ChunksSt Slots Slot0 Slot1 Slot2 Slot3 Slot4 Slot5 Slot6
  rw [show IdxSt m d c s k.val = iprop(PrefFlight m d c s ((k.val + 3) / 4) ∗ HalfHeld m d c s (halfOf (k.val / 4)) (k.val % 4 ≠ 0) (k.val / 4)) from by
      unfold IdxSt; rw [if_pos (by omega), e1],
    show IdxSt m d c s (k.val + 1) = iprop(PrefFlight m d c s ((k.val + 3) / 4) ∗ HalfHeld m d c s (halfOf (k.val / 4)) ((k.val + 1) % 4 ≠ 0) ((k.val + 1) / 4)) from by
      unfold IdxSt; rw [if_pos (by omega), e2, e1]]
  rw [if_neg hk0', if_neg hk0', if_neg hk0', if_neg hk0', if_neg hk0', if_neg hk0', if_neg hk0', if_neg hk1', if_neg hk1', if_neg hk1', if_neg hk1', if_neg hk1', if_neg hk1', if_neg hk1', Nat.add_sub_cancel]
  rw [todo_step m d c s k.val (by have := k.isLt; have : k1_t1_loop.trips ≤ 72 := Cert.Kernel.Gen.k1_t1_abs.2.1; omega), done_step m d c s k.val hk0]
  have ec0 : chunkIxN c s (7 * k.val + 0) = chunkOf (wOf c s) k ⟨0, of_decide_eq_true rfl⟩ (chunk_ltD c s hw k 0 (by decide)) := chunkIx_eq_chunkOf c s hw k ⟨0, of_decide_eq_true rfl⟩ _
  have ec1 : chunkIxN c s (7 * k.val + 1) = chunkOf (wOf c s) k ⟨1, of_decide_eq_true rfl⟩ (chunk_ltD c s hw k 1 (by decide)) := chunkIx_eq_chunkOf c s hw k ⟨1, of_decide_eq_true rfl⟩ _
  have ec2 : chunkIxN c s (7 * k.val + 2) = chunkOf (wOf c s) k ⟨2, of_decide_eq_true rfl⟩ (chunk_ltD c s hw k 2 (by decide)) := chunkIx_eq_chunkOf c s hw k ⟨2, of_decide_eq_true rfl⟩ _
  have ec3 : chunkIxN c s (7 * k.val + 3) = chunkOf (wOf c s) k ⟨3, of_decide_eq_true rfl⟩ (chunk_ltD c s hw k 3 (by decide)) := chunkIx_eq_chunkOf c s hw k ⟨3, of_decide_eq_true rfl⟩ _
  have ec4 : chunkIxN c s (7 * k.val + 4) = chunkOf (wOf c s) k ⟨4, of_decide_eq_true rfl⟩ (chunk_ltD c s hw k 4 (by decide)) := chunkIx_eq_chunkOf c s hw k ⟨4, of_decide_eq_true rfl⟩ _
  have ec5 : chunkIxN c s (7 * k.val + 5) = chunkOf (wOf c s) k ⟨5, of_decide_eq_true rfl⟩ (chunk_ltD c s hw k 5 (by decide)) := chunkIx_eq_chunkOf c s hw k ⟨5, of_decide_eq_true rfl⟩ _
  have ec6 : chunkIxN c s (7 * k.val + 6) = chunkOf (wOf c s) k ⟨6, of_decide_eq_true rfl⟩ (chunk_ltD c s hw k 6 (by decide)) := chunkIx_eq_chunkOf c s hw k ⟨6, of_decide_eq_true rfl⟩ _
  rw [ec0, ec1, ec2, ec3, ec4, ec5, ec6]
  unfold HalfHeld Toks GSems Owes
  unfold k1_t1_body
  rw [k1_part1_eq_skeleton, k1_part2_eq_skeleton, k1_part3_eq_skeleton, k1_part4_eq_skeleton]
  unfold k1_part1_skel k1_part2_skel k1_part3_skel k1_part4_skel
  iintro ⟨#Hmw, ⟨Hpf, Hhalf⟩, ⟨Hs0, Hs1, Hs2, Hs3, Hs4, Hs5, Hs6⟩, ⟨Hdone, Hc0, Hc1, Hc2, Hc3, Hc4, Hc5, Hc6, Htodo⟩, Htoks, Hgs, HOw⟩
  icases Hhalf with ⟨%fI, %hst0, Hh⟩
  have hst := hst0 hk4
  icases Hs0 with ⟨%fR0, Ho0⟩
  icases Hs1 with ⟨%fR1, Ho1⟩
  icases Hs2 with ⟨%fR2, Ho2⟩
  icases Hs3 with ⟨%fR3, Ho3⟩
  icases Hs4 with ⟨%fR4, Ho4⟩
  icases Hs5 with ⟨%fR5, Ho5⟩
  icases Hs6 with ⟨%fR6, Ho6⟩
  icases Htoks with ⟨Hsh0, Hsh1, Hsh2, Hsh3, Hsh4, Hsh5, Hsh6⟩
  icases Hgs with ⟨Hg0, Hg1, Hg2, Hg3, Hg4, Hg5, Hg6⟩
  icases HOw with ⟨%W', %hW', HO⟩
  ihave Hh' := (Entails.of_eq (half_split d c s (halfOf (k.val / 4)) k rfl fullShare fI)) $$ Hh
  icases Hh' with ⟨Hlists, Hrest⟩
  ihave Hl := (Entails.of_eq (bigSep_fin7 _)) $$ Hlists
  icases Hl with ⟨Hl0, Hl1, Hl2, Hl3, Hl4, Hl5, Hl6⟩
  have pl0 : ((pcM (listOf k 0)).view.loc (thr d c s) ↦[pcSet (listOf k 0)]{fullShare} fI : sProp 𝕄) = ((((ixS).slice (Rect.unit (s := S7168) (k1_off4 k) S128.size (k1_off4_inb (coordsV c s) k (hG0 c s k hw))) (fun _ => rfl))).view.loc (thr d c s) ↦[(((ixS).slice (Rect.unit (s := S7168) (k1_off4 k) S128.size (k1_off4_inb (coordsV c s) k (hG0 c s k hw))) (fun _ => rfl))).view.set]{fullShare} fI) := (pts_list0 d c s k (hG0 c s k hw) fullShare fI).symm
  have pl1 : ((pcM (listOf k 1)).view.loc (thr d c s) ↦[pcSet (listOf k 1)]{fullShare} fI : sProp 𝕄) = ((((ixS).slice (Rect.unit (s := S7168) (k1_off5 k) S128.size (k1_off5_inb (coordsV c s) k (hG1 c s k hw))) (fun _ => rfl))).view.loc (thr d c s) ↦[(((ixS).slice (Rect.unit (s := S7168) (k1_off5 k) S128.size (k1_off5_inb (coordsV c s) k (hG1 c s k hw))) (fun _ => rfl))).view.set]{fullShare} fI) := (pts_list1 d c s k (hG1 c s k hw) fullShare fI).symm
  have pl2 : ((pcM (listOf k 2)).view.loc (thr d c s) ↦[pcSet (listOf k 2)]{fullShare} fI : sProp 𝕄) = ((((ixS).slice (Rect.unit (s := S7168) (k1_off6 k) S128.size (k1_off6_inb (coordsV c s) k (hG2 c s k hw))) (fun _ => rfl))).view.loc (thr d c s) ↦[(((ixS).slice (Rect.unit (s := S7168) (k1_off6 k) S128.size (k1_off6_inb (coordsV c s) k (hG2 c s k hw))) (fun _ => rfl))).view.set]{fullShare} fI) := (pts_list2 d c s k (hG2 c s k hw) fullShare fI).symm
  have pl3 : ((pcM (listOf k 3)).view.loc (thr d c s) ↦[pcSet (listOf k 3)]{fullShare} fI : sProp 𝕄) = ((((ixS).slice (Rect.unit (s := S7168) (k1_off7 k) S128.size (k1_off7_inb (coordsV c s) k (hG3 c s k hw))) (fun _ => rfl))).view.loc (thr d c s) ↦[(((ixS).slice (Rect.unit (s := S7168) (k1_off7 k) S128.size (k1_off7_inb (coordsV c s) k (hG3 c s k hw))) (fun _ => rfl))).view.set]{fullShare} fI) := (pts_list3 d c s k (hG3 c s k hw) fullShare fI).symm
  have pl4 : ((pcM (listOf k 4)).view.loc (thr d c s) ↦[pcSet (listOf k 4)]{fullShare} fI : sProp 𝕄) = ((((ixS).slice (Rect.unit (s := S7168) (k1_off8 k) S128.size (k1_off8_inb (coordsV c s) k (hG4 c s k hw))) (fun _ => rfl))).view.loc (thr d c s) ↦[(((ixS).slice (Rect.unit (s := S7168) (k1_off8 k) S128.size (k1_off8_inb (coordsV c s) k (hG4 c s k hw))) (fun _ => rfl))).view.set]{fullShare} fI) := (pts_list4 d c s k (hG4 c s k hw) fullShare fI).symm
  have pl5 : ((pcM (listOf k 5)).view.loc (thr d c s) ↦[pcSet (listOf k 5)]{fullShare} fI : sProp 𝕄) = ((((ixS).slice (Rect.unit (s := S7168) (k1_off9 k) S128.size (k1_off9_inb (coordsV c s) k (hG5 c s k hw))) (fun _ => rfl))).view.loc (thr d c s) ↦[(((ixS).slice (Rect.unit (s := S7168) (k1_off9 k) S128.size (k1_off9_inb (coordsV c s) k (hG5 c s k hw))) (fun _ => rfl))).view.set]{fullShare} fI) := (pts_list5 d c s k (hG5 c s k hw) fullShare fI).symm
  have pl6 : ((pcM (listOf k 6)).view.loc (thr d c s) ↦[pcSet (listOf k 6)]{fullShare} fI : sProp 𝕄) = ((((ixS).slice (Rect.unit (s := S7168) (k1_off10 k) S128.size (k1_off10_inb (coordsV c s) k (hG6 c s k hw))) (fun _ => rfl))).view.loc (thr d c s) ↦[(((ixS).slice (Rect.unit (s := S7168) (k1_off10 k) S128.size (k1_off10_inb (coordsV c s) k (hG6 c s k hw))) (fun _ => rfl))).view.set]{fullShare} fI) := (pts_list6 d c s k (hG6 c s k hw) fullShare fI).symm
  ihave Hix0 := (Entails.of_eq pl0) $$ Hl0
  ihave Hix1 := (Entails.of_eq pl1) $$ Hl1
  ihave Hix2 := (Entails.of_eq pl2) $$ Hl2
  ihave Hix3 := (Entails.of_eq pl3) $$ Hl3
  ihave Hix4 := (Entails.of_eq pl4) $$ Hl4
  ihave Hix5 := (Entails.of_eq pl5) $$ Hl5
  ihave Hix6 := (Entails.of_eq pl6) $$ Hl6
  ihave Hout0 := (Entails.of_eq (pts_chunk0 d c s k (hO0 c s k hw) (chunk_ltD c s hw k 0 (by decide)) fullShare (m (outLoc d))).symm) $$ Hc0
  ihave Hout1 := (Entails.of_eq (pts_chunk1 d c s k (hO1 c s k hw) (chunk_ltD c s hw k 1 (by decide)) fullShare (m (outLoc d))).symm) $$ Hc1
  ihave Hout2 := (Entails.of_eq (pts_chunk2 d c s k (hO2 c s k hw) (chunk_ltD c s hw k 2 (by decide)) fullShare (m (outLoc d))).symm) $$ Hc2
  ihave Hout3 := (Entails.of_eq (pts_chunk3 d c s k (hO3 c s k hw) (chunk_ltD c s hw k 3 (by decide)) fullShare (m (outLoc d))).symm) $$ Hc3
  ihave Hout4 := (Entails.of_eq (pts_chunk4 d c s k (hO4 c s k hw) (chunk_ltD c s hw k 4 (by decide)) fullShare (m (outLoc d))).symm) $$ Hc4
  ihave Hout5 := (Entails.of_eq (pts_chunk5 d c s k (hO5 c s k hw) (chunk_ltD c s hw k 5 (by decide)) fullShare (m (outLoc d))).symm) $$ Hc5
  ihave Hout6 := (Entails.of_eq (pts_chunk6 d c s k (hO6 c s k hw) (chunk_ltD c s hw k 6 (by decide)) fullShare (m (outLoc d))).symm) $$ Hc6
  have hin0 := hin0 m d c s hpre k (hG0 c s k hw) fI hst
  have hin1 := hin1 m d c s hpre k (hG1 c s k hw) fI hst
  have hin2 := hin2 m d c s hpre k (hG2 c s k hw) fI hst
  have hin3 := hin3 m d c s hpre k (hG3 c s k hw) fI hst
  have hin4 := hin4 m d c s hpre k (hG4 c s k hw) fI hst
  have hin5 := hin5 m d c s hpre k (hG5 c s k hw) fI hst
  have hin6 := hin6 m d c s hpre k (hG6 c s k hw) fI hst
  set_option sl_exec.dischHeartbeats 400000 in
  sl_exec (disch := first | sl_exact (h2F k hk4) | sl_exact (hG0 c s k hw) | sl_exact (hO0 c s k hw) | sl_exact (hG1 c s k hw) | sl_exact (hO1 c s k hw) | sl_exact (hG2 c s k hw) | sl_exact (hO2 c s k hw) | sl_exact (hG3 c s k hw) | sl_exact (hO3 c s k hw) | sl_exact (hG4 c s k hw) | sl_exact (hO4 c s k hw) | sl_exact (hG5 c s k hw) | sl_exact (hO5 c s k hw) | sl_exact (hG6 c s k hw) | sl_exact (hO6 c s k hw) | (clear * - hk0 hk4 hk hw; revert hk0 hk4 hk hw; revert k s c; decide +kernel))
  sl_step
  isplitr
  · iexact Hmw
  isplitl [Hpf Hix0 Hix1 Hix2 Hix3 Hix4 Hix5 Hix6 Hrest]
  · isplitl [Hpf]
    · iexact Hpf
    iexists fI
    isplitr
    · ipureintro; intro _; rw [show (k.val + 1) / 4 = k.val / 4 from by omega]; exact hst
    · iapply (Entails.of_eq (half_split d c s (halfOf (k.val / 4)) k rfl fullShare fI).symm)
      isplitl [Hix0 Hix1 Hix2 Hix3 Hix4 Hix5 Hix6]
      · iapply (Entails.of_eq (bigSep_fin7 _).symm)
        isplitl [Hix0]
        · iapply (Entails.of_eq pl0.symm); iexact Hix0
        isplitl [Hix1]
        · iapply (Entails.of_eq pl1.symm); iexact Hix1
        isplitl [Hix2]
        · iapply (Entails.of_eq pl2.symm); iexact Hix2
        isplitl [Hix3]
        · iapply (Entails.of_eq pl3.symm); iexact Hix3
        isplitl [Hix4]
        · iapply (Entails.of_eq pl4.symm); iexact Hix4
        isplitl [Hix5]
        · iapply (Entails.of_eq pl5.symm); iexact Hix5
        iapply (Entails.of_eq pl6.symm); iexact Hix6
      · iexact Hrest
  isplitl [Ho0 Ho1 Ho2 Ho3 Ho4 Ho5 Ho6]
  · isplitl [Ho0]
    · iexists _
      iapply (Transfers.Flight_mono (countersEmb (U := UU)) (thr d c s) ?hm0) $$ Ho0
      case hm0 =>
        iintro ⟨Hd, Hs⟩
        isplitl [Hd]
        · ihave Hd' := (Entails.of_eq (pts_chunk0 d c s k (hO0 c s k hw) (chunk_ltD c s hw k 0 (by decide)) fullShare _)) $$ Hd
          rw [← ec0]
          iapply (Entails.of_eq (pointsTo_congr (copy_value0 m d c s hpre k (chunk_ltD c s hw k 0 (by decide)) (hO0 c s k hw) (hG0 c s k hw) tblS htbl fI hst _ _ _ _)))
          iexact Hd'
        · iexact Hs
    isplitl [Ho1]
    · iexists _
      iapply (Transfers.Flight_mono (countersEmb (U := UU)) (thr d c s) ?hm1) $$ Ho1
      case hm1 =>
        iintro ⟨Hd, Hs⟩
        isplitl [Hd]
        · ihave Hd' := (Entails.of_eq (pts_chunk1 d c s k (hO1 c s k hw) (chunk_ltD c s hw k 1 (by decide)) fullShare _)) $$ Hd
          rw [← ec1]
          iapply (Entails.of_eq (pointsTo_congr (copy_value1 m d c s hpre k (chunk_ltD c s hw k 1 (by decide)) (hO1 c s k hw) (hG1 c s k hw) tblS htbl fI hst _ _ _ _)))
          iexact Hd'
        · iexact Hs
    isplitl [Ho2]
    · iexists _
      iapply (Transfers.Flight_mono (countersEmb (U := UU)) (thr d c s) ?hm2) $$ Ho2
      case hm2 =>
        iintro ⟨Hd, Hs⟩
        isplitl [Hd]
        · ihave Hd' := (Entails.of_eq (pts_chunk2 d c s k (hO2 c s k hw) (chunk_ltD c s hw k 2 (by decide)) fullShare _)) $$ Hd
          rw [← ec2]
          iapply (Entails.of_eq (pointsTo_congr (copy_value2 m d c s hpre k (chunk_ltD c s hw k 2 (by decide)) (hO2 c s k hw) (hG2 c s k hw) tblS htbl fI hst _ _ _ _)))
          iexact Hd'
        · iexact Hs
    isplitl [Ho3]
    · iexists _
      iapply (Transfers.Flight_mono (countersEmb (U := UU)) (thr d c s) ?hm3) $$ Ho3
      case hm3 =>
        iintro ⟨Hd, Hs⟩
        isplitl [Hd]
        · ihave Hd' := (Entails.of_eq (pts_chunk3 d c s k (hO3 c s k hw) (chunk_ltD c s hw k 3 (by decide)) fullShare _)) $$ Hd
          rw [← ec3]
          iapply (Entails.of_eq (pointsTo_congr (copy_value3 m d c s hpre k (chunk_ltD c s hw k 3 (by decide)) (hO3 c s k hw) (hG3 c s k hw) tblS htbl fI hst _ _ _ _)))
          iexact Hd'
        · iexact Hs
    isplitl [Ho4]
    · iexists _
      iapply (Transfers.Flight_mono (countersEmb (U := UU)) (thr d c s) ?hm4) $$ Ho4
      case hm4 =>
        iintro ⟨Hd, Hs⟩
        isplitl [Hd]
        · ihave Hd' := (Entails.of_eq (pts_chunk4 d c s k (hO4 c s k hw) (chunk_ltD c s hw k 4 (by decide)) fullShare _)) $$ Hd
          rw [← ec4]
          iapply (Entails.of_eq (pointsTo_congr (copy_value4 m d c s hpre k (chunk_ltD c s hw k 4 (by decide)) (hO4 c s k hw) (hG4 c s k hw) tblS htbl fI hst _ _ _ _)))
          iexact Hd'
        · iexact Hs
    isplitl [Ho5]
    · iexists _
      iapply (Transfers.Flight_mono (countersEmb (U := UU)) (thr d c s) ?hm5) $$ Ho5
      case hm5 =>
        iintro ⟨Hd, Hs⟩
        isplitl [Hd]
        · ihave Hd' := (Entails.of_eq (pts_chunk5 d c s k (hO5 c s k hw) (chunk_ltD c s hw k 5 (by decide)) fullShare _)) $$ Hd
          rw [← ec5]
          iapply (Entails.of_eq (pointsTo_congr (copy_value5 m d c s hpre k (chunk_ltD c s hw k 5 (by decide)) (hO5 c s k hw) (hG5 c s k hw) tblS htbl fI hst _ _ _ _)))
          iexact Hd'
        · iexact Hs
    iexists _
    iapply (Transfers.Flight_mono (countersEmb (U := UU)) (thr d c s) ?hm6) $$ Ho6
    case hm6 =>
      iintro ⟨Hd, Hs⟩
      isplitl [Hd]
      · ihave Hd' := (Entails.of_eq (pts_chunk6 d c s k (hO6 c s k hw) (chunk_ltD c s hw k 6 (by decide)) fullShare _)) $$ Hd
        rw [← ec6]
        iapply (Entails.of_eq (pointsTo_congr (copy_value6 m d c s hpre k (chunk_ltD c s hw k 6 (by decide)) (hO6 c s k hw) (hG6 c s k hw) tblS htbl fI hst _ _ _ _)))
        iexact Hd'
      · iexact Hs
  isplitl [Hdone Ho0_dst Ho1_dst Ho2_dst Ho3_dst Ho4_dst Ho5_dst Ho6_dst Htodo]
  · isplitl [Hdone Ho0_dst Ho1_dst Ho2_dst Ho3_dst Ho4_dst Ho5_dst Ho6_dst]
    · isplitl [Hdone]
      · iexact Hdone
      isplitl [Ho0_dst]
      · iexact Ho0_dst
      isplitl [Ho1_dst]
      · iexact Ho1_dst
      isplitl [Ho2_dst]
      · iexact Ho2_dst
      isplitl [Ho3_dst]
      · iexact Ho3_dst
      isplitl [Ho4_dst]
      · iexact Ho4_dst
      isplitl [Ho5_dst]
      · iexact Ho5_dst
      iexact Ho6_dst
    iexact Htodo
  isplitl [Hsh0 Hsh1 Hsh2 Hsh3 Hsh4 Hsh5 Hsh6]
  · isplitl [Hsh0]
    · iexact Hsh0
    isplitl [Hsh1]
    · iexact Hsh1
    isplitl [Hsh2]
    · iexact Hsh2
    isplitl [Hsh3]
    · iexact Hsh3
    isplitl [Hsh4]
    · iexact Hsh4
    isplitl [Hsh5]
    · iexact Hsh5
    iexact Hsh6
  isplitl [Hg0 Hg1 Hg2 Hg3 Hg4 Hg5 Hg6]
  · isplitl [Hg0]
    · iexact Hg0
    isplitl [Hg1]
    · iexact Hg1
    isplitl [Hg2]
    · iexact Hg2
    isplitl [Hg3]
    · iexact Hg3
    isplitl [Hg4]
    · iexact Hg4
    isplitl [Hg5]
    · iexact Hg5
    iexact Hg6
  iexists _; isplitr
  rotate_left
  · iexact HO
  · ipureintro
    intro p hp
    repeat (rcases Finset.mem_insert.mp hp with rfl | hp; · exact Or.inr (Or.inl rfl))
    exact hW' p hp

end Cert.Proof.KB

end
-- ==== Proof.KBTripE.lean ====
/-
  The last trips of a tile's loop, 69 to 71, for a worker whose chunks all exist: the index prefetch is over
  (nothing is in flight on its semaphore, half 1 of the index scratch holds stage 17, the last) and no trip here is a
  multiple of 4, so none waits for or issues a prefetch. The trip waits for the seven copy-outs of trip k - 1 (each
  hands back its chunk at the result's values and its row slot), gathers the table's rows named by the seven lists of
  this trip — they lie in half 1, which holds stage 17 = k / 4 — into the slots, and copies the slots out to the chunks
  7 k .. 7 k + 6 of the worker: what is written there is the result.
-/
import proofs.«203041_g70987219468541_cont_9to1_m_1244_31_alg».proof.Proof.KBTripFacts
import proofs.«203041_g70987219468541_cont_9to1_m_1244_31_alg».proof.Proof.KBTileSetLemmas2
import proofs.«203041_g70987219468541_cont_9to1_m_1244_31_alg».proof.Proof.KBTileChunkSteps
import proofs.«203041_g70987219468541_cont_9to1_m_1244_31_alg».proof.Proof.KBTileValue
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- every chunk of a worker below 31 exists -/
theorem chunk_ltE (c : Fin (grid1.bound 0)) (s : Fin (grid1.bound 1)) (hw : 2 * s.val + c.val ≤ 30) (k : Fin k1_t1_loop.trips) (b : ℕ) (hb : b < 7) : 504 * (wOf c s).val + 7 * k.val + b < 15625 := by
  have := k.isLt; have : (wOf c s).val = 2 * s.val + c.val := rfl
  have : k1_t1_loop.trips ≤ 72 := Cert.Kernel.Gen.k1_t1_abs.2.1
  omega

set_option maxHeartbeats 4000000 in
theorem trip_E (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips) (hk : 69 ≤ k.val) :
    Inv m d c s tblS O W k.val ⟨⟩ ⊢ wp frame (wpE (defs₀ (F := F)) 𝒱₀ (thr d c s) none) Set.univ
          (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => Inv m d c s tblS O W (k.val + 1) ⟨⟩) := by
  have hk72 : k.val < 72 := by
    have := k.isLt; have : k1_t1_loop.trips ≤ 72 := Cert.Kernel.Gen.k1_t1_abs.2.1; omega
  have hk4 : k.val % 4 ≠ 0 := by omega
  have hk0 : 0 < k.val := by omega
  have hk0' : ¬ k.val = 0 := by omega
  have hk1' : ¬ k.val + 1 = 0 := by omega
  have hkd : k.val / 4 = 17 := by omega
  have hh17 : (k.val / 4) % 2 = (halfOf 17).val := by show (k.val / 4) % 2 = 17 % 2; omega
  unfold Inv ChunksSt Slots Slot0 Slot1 Slot2 Slot3 Slot4 Slot5 Slot6
  rw [show IdxSt m d c s k.val = iprop(semVal (thr d c s, SemLoc.dma cc1_scratch3.sem) 0 ∗ ((idxV).view.loc (thr d c s) ↦{qI c s} idxc m d)
        ∗ HalfHeld m d c s (halfOf 17) True 17 ∗ HalfHeld m d c s (halfOf 18) False 0) from by
      unfold IdxSt; rw [if_neg (by omega)],
    show IdxSt m d c s (k.val + 1) = iprop(semVal (thr d c s, SemLoc.dma cc1_scratch3.sem) 0 ∗ ((idxV).view.loc (thr d c s) ↦{qI c s} idxc m d)
        ∗ HalfHeld m d c s (halfOf 17) True 17 ∗ HalfHeld m d c s (halfOf 18) False 0) from by
      unfold IdxSt; rw [if_neg (by omega)]]
  rw [if_neg hk0', if_neg hk0', if_neg hk0', if_neg hk0', if_neg hk0', if_neg hk0', if_neg hk0', if_neg hk1', if_neg hk1', if_neg hk1', if_neg hk1', if_neg hk1', if_neg hk1', if_neg hk1', Nat.add_sub_cancel]
  rw [todo_step m d c s k.val (by have := k.isLt; have : k1_t1_loop.trips ≤ 72 := Cert.Kernel.Gen.k1_t1_abs.2.1; omega), done_step m d c s k.val hk0]
  have ec0 : chunkIxN c s (7 * k.val + 0) = chunkOf (wOf c s) k ⟨0, of_decide_eq_true rfl⟩ (chunk_ltE c s hw k 0 (by decide)) := chunkIx_eq_chunkOf c s hw k ⟨0, of_decide_eq_true rfl⟩ _
  have ec1 : chunkIxN c s (7 * k.val + 1) = chunkOf (wOf c s) k ⟨1, of_decide_eq_true rfl⟩ (chunk_ltE c s hw k 1 (by decide)) := chunkIx_eq_chunkOf c s hw k ⟨1, of_decide_eq_true rfl⟩ _
  have ec2 : chunkIxN c s (7 * k.val + 2) = chunkOf (wOf c s) k ⟨2, of_decide_eq_true rfl⟩ (chunk_ltE c s hw k 2 (by decide)) := chunkIx_eq_chunkOf c s hw k ⟨2, of_decide_eq_true rfl⟩ _
  have ec3 : chunkIxN c s (7 * k.val + 3) = chunkOf (wOf c s) k ⟨3, of_decide_eq_true rfl⟩ (chunk_ltE c s hw k 3 (by decide)) := chunkIx_eq_chunkOf c s hw k ⟨3, of_decide_eq_true rfl⟩ _
  have ec4 : chunkIxN c s (7 * k.val + 4) = chunkOf (wOf c s) k ⟨4, of_decide_eq_true rfl⟩ (chunk_ltE c s hw k 4 (by decide)) := chunkIx_eq_chunkOf c s hw k ⟨4, of_decide_eq_true rfl⟩ _
  have ec5 : chunkIxN c s (7 * k.val + 5) = chunkOf (wOf c s) k ⟨5, of_decide_eq_true rfl⟩ (chunk_ltE c s hw k 5 (by decide)) := chunkIx_eq_chunkOf c s hw k ⟨5, of_decide_eq_true rfl⟩ _
  have ec6 : chunkIxN c s (7 * k.val + 6) = chunkOf (wOf c s) k ⟨6, of_decide_eq_true rfl⟩ (chunk_ltE c s hw k 6 (by decide)) := chunkIx_eq_chunkOf c s hw k ⟨6, of_decide_eq_true rfl⟩ _
  rw [ec0, ec1, ec2, ec3, ec4, ec5, ec6]
  unfold HalfHeld Toks GSems Owes
  unfold k1_t1_body
  rw [k1_part1_eq_skeleton, k1_part2_eq_skeleton, k1_part3_eq_skeleton, k1_part4_eq_skeleton]
  unfold k1_part1_skel k1_part2_skel k1_part3_skel k1_part4_skel
  iintro ⟨#Hmw, ⟨Hsem3, Hidx, Hhalf, Hhalf2⟩, ⟨Hs0, Hs1, Hs2, Hs3, Hs4, Hs5, Hs6⟩, ⟨Hdone, Hc0, Hc1, Hc2, Hc3, Hc4, Hc5, Hc6, Htodo⟩, Htoks, Hgs, HOw⟩
  icases Hhalf with ⟨%fI, %hst0, Hh⟩
  have hst : StageAt m d c s (halfOf (k.val / 4)) (k.val / 4) fI := by rw [hkd]; exact hst0 trivial
  icases Hs0 with ⟨%fR0, Ho0⟩
  icases Hs1 with ⟨%fR1, Ho1⟩
  icases Hs2 with ⟨%fR2, Ho2⟩
  icases Hs3 with ⟨%fR3, Ho3⟩
  icases Hs4 with ⟨%fR4, Ho4⟩
  icases Hs5 with ⟨%fR5, Ho5⟩
  icases Hs6 with ⟨%fR6, Ho6⟩
  icases Htoks with ⟨Hsh0, Hsh1, Hsh2, Hsh3, Hsh4, Hsh5, Hsh6⟩
  icases Hgs with ⟨Hg0, Hg1, Hg2, Hg3, Hg4, Hg5, Hg6⟩
  icases HOw with ⟨%W', %hW', HO⟩
  ihave Hh' := (Entails.of_eq (half_split d c s (halfOf 17) k hh17 fullShare fI)) $$ Hh
  icases Hh' with ⟨Hlists, Hrest⟩
  ihave Hl := (Entails.of_eq (bigSep_fin7 _)) $$ Hlists
  icases Hl with ⟨Hl0, Hl1, Hl2, Hl3, Hl4, Hl5, Hl6⟩
  have pl0 : ((pcM (listOf k 0)).view.loc (thr d c s) ↦[pcSet (listOf k 0)]{fullShare} fI : sProp 𝕄) = ((((ixS).slice (Rect.unit (s := S7168) (k1_off4 k) S128.size (k1_off4_inb (coordsV c s) k (hG0 c s k hw))) (fun _ => rfl))).view.loc (thr d c s) ↦[(((ixS).slice (Rect.unit (s := S7168) (k1_off4 k) S128.size (k1_off4_inb (coordsV c s) k (hG0 c s k hw))) (fun _ => rfl))).view.set]{fullShare} fI) := (pts_list0 d c s k (hG0 c s k hw) fullShare fI).symm
  have pl1 : ((pcM (listOf k 1)).view.loc (thr d c s) ↦[pcSet (listOf k 1)]{fullShare} fI : sProp 𝕄) = ((((ixS).slice (Rect.unit (s := S7168) (k1_off5 k) S128.size (k1_off5_inb (coordsV c s) k (hG1 c s k hw))) (fun _ => rfl))).view.loc (thr d c s) ↦[(((ixS).slice (Rect.unit (s := S7168) (k1_off5 k) S128.size (k1_off5_inb (coordsV c s) k (hG1 c s k hw))) (fun _ => rfl))).view.set]{fullShare} fI) := (pts_list1 d c s k (hG1 c s k hw) fullShare fI).symm
  have pl2 : ((pcM (listOf k 2)).view.loc (thr d c s) ↦[pcSet (listOf k 2)]{fullShare} fI : sProp 𝕄) = ((((ixS).slice (Rect.unit (s := S7168) (k1_off6 k) S128.size (k1_off6_inb (coordsV c s) k (hG2 c s k hw))) (fun _ => rfl))).view.loc (thr d c s) ↦[(((ixS).slice (Rect.unit (s := S7168) (k1_off6 k) S128.size (k1_off6_inb (coordsV c s) k (hG2 c s k hw))) (fun _ => rfl))).view.set]{fullShare} fI) := (pts_list2 d c s k (hG2 c s k hw) fullShare fI).symm
  have pl3 : ((pcM (listOf k 3)).view.loc (thr d c s) ↦[pcSet (listOf k 3)]{fullShare} fI : sProp 𝕄) = ((((ixS).slice (Rect.unit (s := S7168) (k1_off7 k) S128.size (k1_off7_inb (coordsV c s) k (hG3 c s k hw))) (fun _ => rfl))).view.loc (thr d c s) ↦[(((ixS).slice (Rect.unit (s := S7168) (k1_off7 k) S128.size (k1_off7_inb (coordsV c s) k (hG3 c s k hw))) (fun _ => rfl))).view.set]{fullShare} fI) := (pts_list3 d c s k (hG3 c s k hw) fullShare fI).symm
  have pl4 : ((pcM (listOf k 4)).view.loc (thr d c s) ↦[pcSet (listOf k 4)]{fullShare} fI : sProp 𝕄) = ((((ixS).slice (Rect.unit (s := S7168) (k1_off8 k) S128.size (k1_off8_inb (coordsV c s) k (hG4 c s k hw))) (fun _ => rfl))).view.loc (thr d c s) ↦[(((ixS).slice (Rect.unit (s := S7168) (k1_off8 k) S128.size (k1_off8_inb (coordsV c s) k (hG4 c s k hw))) (fun _ => rfl))).view.set]{fullShare} fI) := (pts_list4 d c s k (hG4 c s k hw) fullShare fI).symm
  have pl5 : ((pcM (listOf k 5)).view.loc (thr d c s) ↦[pcSet (listOf k 5)]{fullShare} fI : sProp 𝕄) = ((((ixS).slice (Rect.unit (s := S7168) (k1_off9 k) S128.size (k1_off9_inb (coordsV c s) k (hG5 c s k hw))) (fun _ => rfl))).view.loc (thr d c s) ↦[(((ixS).slice (Rect.unit (s := S7168) (k1_off9 k) S128.size (k1_off9_inb (coordsV c s) k (hG5 c s k hw))) (fun _ => rfl))).view.set]{fullShare} fI) := (pts_list5 d c s k (hG5 c s k hw) fullShare fI).symm
  have pl6 : ((pcM (listOf k 6)).view.loc (thr d c s) ↦[pcSet (listOf k 6)]{fullShare} fI : sProp 𝕄) = ((((ixS).slice (Rect.unit (s := S7168) (k1_off10 k) S128.size (k1_off10_inb (coordsV c s) k (hG6 c s k hw))) (fun _ => rfl))).view.loc (thr d c s) ↦[(((ixS).slice (Rect.unit (s := S7168) (k1_off10 k) S128.size (k1_off10_inb (coordsV c s) k (hG6 c s k hw))) (fun _ => rfl))).view.set]{fullShare} fI) := (pts_list6 d c s k (hG6 c s k hw) fullShare fI).symm
  ihave Hix0 := (Entails.of_eq pl0) $$ Hl0
  ihave Hix1 := (Entails.of_eq pl1) $$ Hl1
  ihave Hix2 := (Entails.of_eq pl2) $$ Hl2
  ihave Hix3 := (Entails.of_eq pl3) $$ Hl3
  ihave Hix4 := (Entails.of_eq pl4) $$ Hl4
  ihave Hix5 := (Entails.of_eq pl5) $$ Hl5
  ihave Hix6 := (Entails.of_eq pl6) $$ Hl6
  ihave Hout0 := (Entails.of_eq (pts_chunk0 d c s k (hO0 c s k hw) (chunk_ltE c s hw k 0 (by decide)) fullShare (m (outLoc d))).symm) $$ Hc0
  ihave Hout1 := (Entails.of_eq (pts_chunk1 d c s k (hO1 c s k hw) (chunk_ltE c s hw k 1 (by decide)) fullShare (m (outLoc d))).symm) $$ Hc1
  ihave Hout2 := (Entails.of_eq (pts_chunk2 d c s k (hO2 c s k hw) (chunk_ltE c s hw k 2 (by decide)) fullShare (m (outLoc d))).symm) $$ Hc2
  ihave Hout3 := (Entails.of_eq (pts_chunk3 d c s k (hO3 c s k hw) (chunk_ltE c s hw k 3 (by decide)) fullShare (m (outLoc d))).symm) $$ Hc3
  ihave Hout4 := (Entails.of_eq (pts_chunk4 d c s k (hO4 c s k hw) (chunk_ltE c s hw k 4 (by decide)) fullShare (m (outLoc d))).symm) $$ Hc4
  ihave Hout5 := (Entails.of_eq (pts_chunk5 d c s k (hO5 c s k hw) (chunk_ltE c s hw k 5 (by decide)) fullShare (m (outLoc d))).symm) $$ Hc5
  ihave Hout6 := (Entails.of_eq (pts_chunk6 d c s k (hO6 c s k hw) (chunk_ltE c s hw k 6 (by decide)) fullShare (m (outLoc d))).symm) $$ Hc6
  have hin0 := hin0 m d c s hpre k (hG0 c s k hw) fI hst
  have hin1 := hin1 m d c s hpre k (hG1 c s k hw) fI hst
  have hin2 := hin2 m d c s hpre k (hG2 c s k hw) fI hst
  have hin3 := hin3 m d c s hpre k (hG3 c s k hw) fI hst
  have hin4 := hin4 m d c s hpre k (hG4 c s k hw) fI hst
  have hin5 := hin5 m d c s hpre k (hG5 c s k hw) fI hst
  have hin6 := hin6 m d c s hpre k (hG6 c s k hw) fI hst
  set_option sl_exec.dischHeartbeats 400000 in
  sl_exec (disch := first | sl_exact (h2F k hk4) | sl_exact (hG0 c s k hw) | sl_exact (hO0 c s k hw) | sl_exact (hG1 c s k hw) | sl_exact (hO1 c s k hw) | sl_exact (hG2 c s k hw) | sl_exact (hO2 c s k hw) | sl_exact (hG3 c s k hw) | sl_exact (hO3 c s k hw) | sl_exact (hG4 c s k hw) | sl_exact (hO4 c s k hw) | sl_exact (hG5 c s k hw) | sl_exact (hO5 c s k hw) | sl_exact (hG6 c s k hw) | sl_exact (hO6 c s k hw) | (clear * - hk0 hk4 hk hw; revert hk0 hk4 hk hw; revert k s c; decide +kernel))
  sl_step
  isplitr
  · iexact Hmw
  isplitl [Hsem3 Hidx Hhalf2 Hix0 Hix1 Hix2 Hix3 Hix4 Hix5 Hix6 Hrest]
  · isplitl [Hsem3]
    · iexact Hsem3
    isplitl [Hidx]
    · iexact Hidx
    isplitr [Hhalf2]
    rotate_left
    · iexact Hhalf2
    iexists fI
    isplitr
    · ipureintro; exact hst0
    · iapply (Entails.of_eq (half_split d c s (halfOf 17) k hh17 fullShare fI).symm)
      isplitl [Hix0 Hix1 Hix2 Hix3 Hix4 Hix5 Hix6]
      · iapply (Entails.of_eq (bigSep_fin7 _).symm)
        isplitl [Hix0]
        · iapply (Entails.of_eq pl0.symm); iexact Hix0
        isplitl [Hix1]
        · iapply (Entails.of_eq pl1.symm); iexact Hix1
        isplitl [Hix2]
        · iapply (Entails.of_eq pl2.symm); iexact Hix2
        isplitl [Hix3]
        · iapply (Entails.of_eq pl3.symm); iexact Hix3
        isplitl [Hix4]
        · iapply (Entails.of_eq pl4.symm); iexact Hix4
        isplitl [Hix5]
        · iapply (Entails.of_eq pl5.symm); iexact Hix5
        iapply (Entails.of_eq pl6.symm); iexact Hix6
      · iexact Hrest
  isplitl [Ho0 Ho1 Ho2 Ho3 Ho4 Ho5 Ho6]
  · isplitl [Ho0]
    · iexists _
      iapply (Transfers.Flight_mono (countersEmb (U := UU)) (thr d c s) ?hm0) $$ Ho0
      case hm0 =>
        iintro ⟨Hd, Hs⟩
        isplitl [Hd]
        · ihave Hd' := (Entails.of_eq (pts_chunk0 d c s k (hO0 c s k hw) (chunk_ltE c s hw k 0 (by decide)) fullShare _)) $$ Hd
          rw [← ec0]
          iapply (Entails.of_eq (pointsTo_congr (copy_value0 m d c s hpre k (chunk_ltE c s hw k 0 (by decide)) (hO0 c s k hw) (hG0 c s k hw) tblS htbl fI hst _ _ _ _)))
          iexact Hd'
        · iexact Hs
    isplitl [Ho1]
    · iexists _
      iapply (Transfers.Flight_mono (countersEmb (U := UU)) (thr d c s) ?hm1) $$ Ho1
      case hm1 =>
        iintro ⟨Hd, Hs⟩
        isplitl [Hd]
        · ihave Hd' := (Entails.of_eq (pts_chunk1 d c s k (hO1 c s k hw) (chunk_ltE c s hw k 1 (by decide)) fullShare _)) $$ Hd
          rw [← ec1]
          iapply (Entails.of_eq (pointsTo_congr (copy_value1 m d c s hpre k (chunk_ltE c s hw k 1 (by decide)) (hO1 c s k hw) (hG1 c s k hw) tblS htbl fI hst _ _ _ _)))
          iexact Hd'
        · iexact Hs
    isplitl [Ho2]
    · iexists _
      iapply (Transfers.Flight_mono (countersEmb (U := UU)) (thr d c s) ?hm2) $$ Ho2
      case hm2 =>
        iintro ⟨Hd, Hs⟩
        isplitl [Hd]
        · ihave Hd' := (Entails.of_eq (pts_chunk2 d c s k (hO2 c s k hw) (chunk_ltE c s hw k 2 (by decide)) fullShare _)) $$ Hd
          rw [← ec2]
          iapply (Entails.of_eq (pointsTo_congr (copy_value2 m d c s hpre k (chunk_ltE c s hw k 2 (by decide)) (hO2 c s k hw) (hG2 c s k hw) tblS htbl fI hst _ _ _ _)))
          iexact Hd'
        · iexact Hs
    isplitl [Ho3]
    · iexists _
      iapply (Transfers.Flight_mono (countersEmb (U := UU)) (thr d c s) ?hm3) $$ Ho3
      case hm3 =>
        iintro ⟨Hd, Hs⟩
        isplitl [Hd]
        · ihave Hd' := (Entails.of_eq (pts_chunk3 d c s k (hO3 c s k hw) (chunk_ltE c s hw k 3 (by decide)) fullShare _)) $$ Hd
          rw [← ec3]
          iapply (Entails.of_eq (pointsTo_congr (copy_value3 m d c s hpre k (chunk_ltE c s hw k 3 (by decide)) (hO3 c s k hw) (hG3 c s k hw) tblS htbl fI hst _ _ _ _)))
          iexact Hd'
        · iexact Hs
    isplitl [Ho4]
    · iexists _
      iapply (Transfers.Flight_mono (countersEmb (U := UU)) (thr d c s) ?hm4) $$ Ho4
      case hm4 =>
        iintro ⟨Hd, Hs⟩
        isplitl [Hd]
        · ihave Hd' := (Entails.of_eq (pts_chunk4 d c s k (hO4 c s k hw) (chunk_ltE c s hw k 4 (by decide)) fullShare _)) $$ Hd
          rw [← ec4]
          iapply (Entails.of_eq (pointsTo_congr (copy_value4 m d c s hpre k (chunk_ltE c s hw k 4 (by decide)) (hO4 c s k hw) (hG4 c s k hw) tblS htbl fI hst _ _ _ _)))
          iexact Hd'
        · iexact Hs
    isplitl [Ho5]
    · iexists _
      iapply (Transfers.Flight_mono (countersEmb (U := UU)) (thr d c s) ?hm5) $$ Ho5
      case hm5 =>
        iintro ⟨Hd, Hs⟩
        isplitl [Hd]
        · ihave Hd' := (Entails.of_eq (pts_chunk5 d c s k (hO5 c s k hw) (chunk_ltE c s hw k 5 (by decide)) fullShare _)) $$ Hd
          rw [← ec5]
          iapply (Entails.of_eq (pointsTo_congr (copy_value5 m d c s hpre k (chunk_ltE c s hw k 5 (by decide)) (hO5 c s k hw) (hG5 c s k hw) tblS htbl fI hst _ _ _ _)))
          iexact Hd'
        · iexact Hs
    iexists _
    iapply (Transfers.Flight_mono (countersEmb (U := UU)) (thr d c s) ?hm6) $$ Ho6
    case hm6 =>
      iintro ⟨Hd, Hs⟩
      isplitl [Hd]
      · ihave Hd' := (Entails.of_eq (pts_chunk6 d c s k (hO6 c s k hw) (chunk_ltE c s hw k 6 (by decide)) fullShare _)) $$ Hd
        rw [← ec6]
        iapply (Entails.of_eq (pointsTo_congr (copy_value6 m d c s hpre k (chunk_ltE c s hw k 6 (by decide)) (hO6 c s k hw) (hG6 c s k hw) tblS htbl fI hst _ _ _ _)))
        iexact Hd'
      · iexact Hs
  isplitl [Hdone Ho0_dst Ho1_dst Ho2_dst Ho3_dst Ho4_dst Ho5_dst Ho6_dst Htodo]
  · isplitl [Hdone Ho0_dst Ho1_dst Ho2_dst Ho3_dst Ho4_dst Ho5_dst Ho6_dst]
    · isplitl [Hdone]
      · iexact Hdone
      isplitl [Ho0_dst]
      · iexact Ho0_dst
      isplitl [Ho1_dst]
      · iexact Ho1_dst
      isplitl [Ho2_dst]
      · iexact Ho2_dst
      isplitl [Ho3_dst]
      · iexact Ho3_dst
      isplitl [Ho4_dst]
      · iexact Ho4_dst
      isplitl [Ho5_dst]
      · iexact Ho5_dst
      iexact Ho6_dst
    iexact Htodo
  isplitl [Hsh0 Hsh1 Hsh2 Hsh3 Hsh4 Hsh5 Hsh6]
  · isplitl [Hsh0]
    · iexact Hsh0
    isplitl [Hsh1]
    · iexact Hsh1
    isplitl [Hsh2]
    · iexact Hsh2
    isplitl [Hsh3]
    · iexact Hsh3
    isplitl [Hsh4]
    · iexact Hsh4
    isplitl [Hsh5]
    · iexact Hsh5
    iexact Hsh6
  isplitl [Hg0 Hg1 Hg2 Hg3 Hg4 Hg5 Hg6]
  · isplitl [Hg0]
    · iexact Hg0
    isplitl [Hg1]
    · iexact Hg1
    isplitl [Hg2]
    · iexact Hg2
    isplitl [Hg3]
    · iexact Hg3
    isplitl [Hg4]
    · iexact Hg4
    isplitl [Hg5]
    · iexact Hg5
    iexact Hg6
  iexists _; isplitr
  rotate_left
  · iexact HO
  · ipureintro
    intro p hp
    repeat (rcases Finset.mem_insert.mp hp with rfl | hp; · exact Or.inr (Or.inl rfl))
    exact hW' p hp

end Cert.Proof.KB

end
-- ==== Proof.KBTrip.lean ====
/-
  A trip of the loop, whatever its number: the five kinds of trip (the first; a later multiple of 4 up to 64, which waits
  for a stage of indices and asks for the next; trip 68, which waits for the last stage; a trip that leaves the prefetch
  alone, up to 67; the last three) each carry the invariant from k to k + 1.
-/
import proofs.«203041_g70987219468541_cont_9to1_m_1244_31_alg».proof.Proof.KBTripA
import proofs.«203041_g70987219468541_cont_9to1_m_1244_31_alg».proof.Proof.KBTripB
import proofs.«203041_g70987219468541_cont_9to1_m_1244_31_alg».proof.Proof.KBTripC
import proofs.«203041_g70987219468541_cont_9to1_m_1244_31_alg».proof.Proof.KBTripD
import proofs.«203041_g70987219468541_cont_9to1_m_1244_31_alg».proof.Proof.KBTripE
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

set_option maxHeartbeats 4000000 in
theorem trip (hpre : PreOK m) (d : Dev nD) (c : Fin (grid1.bound 0)) (s : Fin (grid1.bound 1)) (hw : 2 * s.val + c.val ≤ 30)
    (tblS : Buf (Elt F) ((shS).view.loc (thr d c s))) (htbl : TableOK m d tblS)
    (O : CellTallies nD τ sig (HIx 1)) (W : Waits sig (HIx 1)) (k : Fin k1_t1_loop.trips) :
    Inv m d c s tblS O W k.val ⟨⟩ ⊢ wp frame (wpE (defs₀ (F := F)) 𝒱₀ (thr d c s) none) Set.univ
          (k1_t1_body (F := F) (coordsV c s) tblV (Memref.isWhole_whole _) idxV (Memref.isWhole_whole _) outW (Memref.isWhole_whole _)
            ixS (Memref.isWhole_whole _) rwS (Memref.isWhole_whole _) shS (Memref.isWhole_whole _)
            cc1_scratch3 cc1_scratch4 cc1_scratch5 cc1_scratch6 cc1_scratch7 cc1_scratch8 cc1_scratch9 cc1_scratch10 cc1_scratch11
            cc1_scratch12 cc1_scratch13 cc1_scratch14 cc1_scratch15 cc1_scratch16 cc1_scratch17 cc1_scoped0 (v2of c s) k ()) (fun _ => Inv m d c s tblS O W (k.val + 1) ⟨⟩) := by
  have hk72 : k.val < 72 := lt_of_lt_of_le k.isLt Cert.Kernel.Gen.k1_t1_abs.2.1
  by_cases h0 : k.val = 0
  · exact trip_A m hpre d c s hw tblS htbl O W k h0
  by_cases h4 : k.val % 4 = 0
  · by_cases h64 : k.val ≤ 64
    · exact trip_B m hpre d c s hw tblS htbl O W k h4 (by omega) h64
    · exact trip_C m hpre d c s hw tblS htbl O W k (by omega)
  · by_cases h67 : k.val ≤ 67
    · exact trip_D m hpre d c s hw tblS htbl O W k h4 h67
    · exact trip_E m hpre d c s hw tblS htbl O W k (by omega)

end Cert.Proof.KB

end
-- ==== Proof.KBTileBarrier.lean ====
/-
  The subcore barrier, as one step of a tile's run.

  Arriving, tile s pays its unit duty of every tile's round 0 (sixteen signals), each with the duty's payload: tile 0's
  arrival at tile j's cell carries tile j's read share of the shared table (tile 0 cuts its full share into the sixteen
  shares and keeps the remainder); the other tiles' arrivals carry nothing. Leaving, the tile waits for the sixteen units
  of its own round and reads the payloads: its own read share of the shared table, at contents that hold the projected
  rows. The barrier's wait sits at level 3 of the call; everything the tile still owes sits at level 6 or above.
-/
import proofs.«203041_g70987219468541_cont_9to1_m_1244_31_alg».proof.Proof.KBTileDefs

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-- A family over the tiles of the grid is one over the tiles of the SparseCore. -/
theorem bigSep_grid (Φ : Fin τ.nSub → sProp 𝕄) :
    (bigSep Finset.univ fun j : Fin (grid1.bound 1) => Φ (j.castLE hsub1)) = bigSep Finset.univ Φ :=
  bigSep_congr fun _ _ => congrArg Φ (Fin.ext rfl)

/-- Tokens with that their rounds are reached, and payloads: the arrivals' premises. -/
theorem toks_pays {J : Type} [DecidableEq J] (s : Finset J) (A B C : J → sProp 𝕄) :
    iprop((bigSep s fun j => iprop(A j ∗ C j)) ∗ bigSep s B) ⊢ bigSep s fun j => iprop(A j ∗ B j ∗ C j) := by
  rw [bigSep_sep', bigSep_sep', bigSep_sep']
  iintro ⟨⟨HA, HC⟩, HB⟩
  isplitl [HA]; · iexact HA
  isplitl [HB]; · iexact HB
  iexact HC

/-- What tile i hands the sixteen cells at its arrivals: tile 0 cuts its full share of the shared table into the
    tiles' read shares and keeps the remainder; the others hand nothing. -/
theorem pays_intro (d : Dev nD) (cc : Fin τ.nSC) (i : Fin τ.nSub) :
    (if i.val = 0 then iprop(∃ f : Buf (Elt F) (shLoc d cc i), ⌜TableOK m d f⌝ ∗ shLoc d cc i ↦{fullShare} f) else iprop(emp))
      ⊢ (iprop((bigSep Finset.univ fun j : Fin (grid1.bound 1) => (bRd (F := F) m).payload (bcell d cc (j.castLE hsub1)) 0 i.val)
          ∗ (if i.val = 0 then iprop(∃ f : Buf (Elt F) (shLoc d cc i), shLoc d cc i ↦{shareDrop fullShare τ.nSub} f) else iprop(emp))) : sProp 𝕄) := by
  by_cases h : i.val = 0
  · rw [if_pos h, if_pos h, h]
    simp only [bRd_payload_zero]
    rw [bigSep_grid (F := F) (fun j => iprop(∃ f : Buf (Elt F) (shLoc d cc j), ⌜TableOK m d f⌝ ∗ shLoc d cc j ↦{shShare j} f))]
    iintro ⟨%f, %hf, H⟩
    have hj : ∀ j : Fin τ.nSub, (shLoc d cc i ↦{shareTok fullShare τ.nSub j} f : sProp 𝕄)
        ⊢ iprop(∃ f : Buf (Elt F) (shLoc d cc j), ⌜TableOK m d f⌝ ∗ shLoc d cc j ↦{shShare j} f) := by
      intro j
      iintro H
      iexists f
      isplitr
      · ipureintro; exact hf
      · iexact H
    ihave H' := (Transfers.pointsTo_toks_split fullShare τ.nSub) $$ H
    icases H' with ⟨Hdrop, Htoks⟩
    isplitl [Htoks]
    · iapply (SparseCore.ent (bigSep_mono (Φ := fun j : Fin τ.nSub => (shLoc d cc i ↦{shareTok fullShare τ.nSub j} f : sProp 𝕄))
        (Ψ := fun j : Fin τ.nSub => iprop(∃ f : Buf (Elt F) (shLoc d cc j), ⌜TableOK m d f⌝ ∗ shLoc d cc j ↦{shShare j} f)) fun j _ => hj j))
      iexact Htoks
    · iexists f; iexact Hdrop
  · obtain ⟨n, hn⟩ := Nat.exists_eq_succ_of_ne_zero h
    rw [if_neg h, if_neg h, hn]
    simp only [bRd_payload_succ]
    rw [show (bigSep Finset.univ fun _ : Fin (grid1.bound 1) => iprop(emp)) = (iprop(emp) : sProp 𝕄) from bigSep_emp_const _]
    iintro -
    isplitl <;> iempintro

/-- What a tile reads off its own round at its departure: its read share of the shared table, at the projected rows. -/
theorem pays_elim (d : Dev nD) (cc : Fin τ.nSC) (i : Fin τ.nSub) :
    (bigSep ((bRd (F := F) m).duties (bcell d cc i) 0 \ ∅) fun n => (bRd (F := F) m).payload (bcell d cc i) 0 n)
      ⊢ (iprop(∃ f : Buf (Elt F) (shLoc d cc i), ⌜TableOK m d f⌝ ∗ shLoc d cc i ↦{shShare i} f) : sProp 𝕄) := by
  have h0 : 0 ∈ (bRd (F := F) m).duties (bcell d cc i) 0 \ ∅ := by
    rw [Finset.sdiff_empty, bRd_duties₀]
    exact Finset.mem_image.mpr ⟨⟨0, by decide⟩, Finset.mem_univ _, rfl⟩
  refine (bigSep_elim h0).trans ?_
  rw [bRd_payload_zero]
  exact Entails.refl _

/-- The barrier's own wait sits below everything the tile still owes. -/
theorem barrier_mayWait (d : Dev nD) (cc : Fin τ.nSC) (i : Fin τ.nSub) (O : CellTallies nD τ sig (HIx 1))
    (hlev : ∀ g ι, 0 < O g ι → 8 * (0 : Fin 1).val + 6 ≤ (K (F := F)).lev g ι) :
    (levAts (K (F := F)).L (K (F := F)).lev : sProp 𝕄) ⊢ MayWait (V d cc i) (.reg sc_bar0) (some 0) O :=
  (K (F := F)).mayOwe_of_bound (8 * (0 : Fin 1).val + 3)
    (fun p hp => by
      rw [Finset.mem_singleton] at hp; subst hp
      rw [(K (F := F)).lev_V_reg d cc i (show (sc_bar0 : Sem sig) ≠ (K (F := F)).go from sc_bar0_ne_go)])
    (fun g ι h => lt_of_lt_of_le (by omega) (hlev g ι h))

/-- The barrier at the head of tile (c, s)'s run. -/
theorem tile_barrier (d : Dev nD) (c : Fin (grid1.bound 0)) (s : Fin (grid1.bound 1)) (O : CellTallies nD τ sig (HIx 1)) (W : Waits sig (HIx 1))
    (hlev : ∀ g ι, 0 < O g ι → 8 * (0 : Fin 1).val + 6 ≤ (K (F := F)).lev g ι) {α : Type}
    (k : PUnit → Prog (TpuEff nD τ sig (Elt F) Λ₀ (thr d c s).2) α) (Q : α → sProp 𝕄) :
    iprop(levAts (K (F := F)).L (K (F := F)).lev ∗ bkit m d (cT c) (sT s) ∗ owes (thr d c s) (O + oxV d (cT c)) W
        ∗ (if s.val = 0 then iprop(∃ f : Buf (Elt F) (shLoc d (cT c) (sT s)), ⌜TableOK m d f⌝ ∗ shLoc d (cT c) (sT s) ↦{fullShare} f) else iprop(emp))
        ∗ (iprop(owes (thr d c s) O (insert (SemLoc.reg sc_bar0, some 0) W)
              ∗ (∃ f : Buf (Elt F) (shLoc d (cT c) (sT s)), ⌜TableOK m d f⌝ ∗ shLoc d (cT c) (sT s) ↦{shShare (sT s)} f)
              ∗ (if s.val = 0 then iprop(∃ f : Buf (Elt F) (shLoc d (cT c) (sT s)), shLoc d (cT c) (sT s) ↦{shareDrop fullShare τ.nSub} f) else iprop(emp)))
            -∗ wp frame (wpE (defs₀ (F := F)) 𝒱₀ (thr d c s) none) Set.univ (k ⟨⟩) Q))
      ⊢ wp frame (wpE (defs₀ (F := F)) 𝒱₀ (thr d c s) none) Set.univ (SparseCore.subcoreBarrier sc_bar0 (grid1.bound 1) hsub1 >>= k) Q := by
  rw [show s.val = (sT s).val from rfl]
  unfold bkit oxV
  iintro ⟨Hlev, ⟨⟨%κ, #Hinv⟩, Htok, Hat, Hcred⟩, HO, Hsh, Hk⟩
  ihave Hmw := (barrier_mayWait (F := F) d (cT c) (sT s) O hlev) $$ Hlev
  ihave Hp := (pays_intro m d (cT c) (sT s)) $$ Hsh
  icases Hp with ⟨Hpays, Hdrop⟩
  ihave Htp := (toks_pays (F := F) Finset.univ
    (fun j : Fin (grid1.bound 1) => dutyTok EB (bcell d (cT c) (j.castLE hsub1)) 0 (sT s).val)
    (fun j : Fin (grid1.bound 1) => (bRd (F := F) m).payload (bcell d (cT c) (j.castLE hsub1)) 0 (sT s).val)
    (fun j : Fin (grid1.bound 1) => reached EB (bcell d (cT c) (j.castLE hsub1)) 0)) $$ [Htok Hpays]
  · isplitl [Htok] <;> iassumption
  iapply (SparseCore.wp_subcoreBarrier (defs := defs₀ (F := F)) 𝒱₀ none EB (bRd (F := F) m) d (sc := cT c) (i := sT s) sc_bar0 (grid1.bound 1) hsub1 s rfl
      κ (fun _ => 0) (sT s).val (fun j => bRd_mem₀ m d (cT c) (j.castLE hsub1) (sT s)) (fun _ => rfl) (bRd_expect m d (cT c) (sT s))
      (some 0) O W (k := k) (Q := Q)) $$ [HO Htp Hcred Hat Hmw]
  · isplitr; · iexact Hinv
    isplitl [HO]; · iexact HO
    isplitl [Htp]; · iexact Htp
    isplitl [Hcred]; · iexact Hcred
    isplitl [Hat]; · iexact Hat
    iexact Hmw
  iintro ⟨HO, -, -, Hpay⟩
  iapply Hk
  isplitl [HO]; · iexact HO
  isplitl [Hpay]
  · iapply (pays_elim m d (cT c) (sT s)); iexact Hpay
  iexact Hdrop

end Cert.Proof.KB

end
-- ==== Proof.KBTileStore.lean ====
/-
  A tile's scoped storage, opened: its two vector-memory scratch arrays (the staged indices and the seven slots of
  gathered rows), each whole at some contents, and its sixteen transfer semaphores at zero, each named; what is left of
  either kind stays closed.
-/
import proofs.«203041_g70987219468541_cont_9to1_m_1244_31_alg».proof.Proof.KBTileDefs

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## A listed part of a `bigSep`, as a chain -/

/-- `Φ a ∗ Φ b ∗ … ∗ Φ z ∗ R` -/
def chainL {I : Type} (Φ : I → sProp 𝕄) (R : sProp 𝕄) : List I → sProp 𝕄
  | [] => R
  | a :: l => iprop(Φ a ∗ chainL Φ R l)

/-- A `bigSep` over a set is the chain of the listed members (listed once each) and the `bigSep` over the others. -/
theorem bigSep_chainL {I : Type} [DecidableEq I] (Φ : I → sProp 𝕄) (l : List I) :
    ∀ (S : Finset I), l.Nodup → (∀ a ∈ l, a ∈ S) → bigSep S Φ = chainL (F := F) Φ (bigSep (S \ l.toFinset) Φ) l := by
  induction l with
  | nil => intro S _ _; rw [List.toFinset_nil, Finset.sdiff_empty]; rfl
  | cons a l ih =>
    intro S hl hS
    obtain ⟨ha, hl'⟩ := List.nodup_cons.mp hl
    have hmem : ∀ b ∈ l, b ∈ S.erase a := fun b hb =>
      Finset.mem_erase.mpr ⟨fun e => ha (e ▸ hb), hS b (List.mem_cons_of_mem _ hb)⟩
    rw [SparseCore.bigSep_erase' (hS a (List.mem_cons_self ..)), ih (S.erase a) hl' hmem, List.toFinset_cons, Finset.sdiff_insert,
      Finset.erase_sdiff_comm]
    rfl

/-! ## The tile's scratch arrays -/

/-- The two scratch arrays are among the subcore's own buffers: they are them, at some contents, and the rest. -/
theorem scopedBufs_open (d : Dev nD) (c : Fin (grid1.bound 0)) (s : Fin (grid1.bound 1)) :
    (scopedBufs (thr d c s) : sProp 𝕄)
      = iprop((∃ f, (ixS).view.loc (thr d c s) ↦{fullShare} f) ∗ (∃ f, (rwS).view.loc (thr d c s) ↦{fullShare} f)
          ∗ bigSep (((ownRefs (τ := τ) (.scVector (cT c) (sT s))).erase ((Proc.scVector (cT c) (sT s)).devRef cc1_scratch0)).erase
              ((Proc.scVector (cT c) (sT s)).devRef cc1_scratch1))
              fun b => iprop(∃ f, ((d, b) : Loc nD τ sig) ↦{fullShare} f)) := by
  rw [(K (F := F)).scopedBufs_V facts d (cT c) (sT s)]
  unfold SparseCore.Cfg.ownBufs
  refine (SparseCore.bigSep_erase' (SparseCore.Cfg.mem_ownRefs_of_owner (p := Proc.scVector (cT c) (sT s))
    (b := (Proc.scVector (cT c) (sT s)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cT c) (sT s)) (b := (Proc.scVector (cT c) (sT s)).devRef cc1_scratch1) rfl⟩)]

/-! ## The tile's transfer semaphores -/

/-- a vector subcore's scoped semaphores -/
abbrev scopedV : Finset (SemLoc sig) := Finset.univ.filter fun sm : SemLoc sig => sm.isScoped .scVector

/-- the kernel's sixteen transfer semaphores, in the order of its arguments -/
abbrev semsL : List (SemLoc sig) := [.dma cc1_scratch3.sem, .dma cc1_scratch4.sem, .dma cc1_scratch5.sem, .dma cc1_scratch6.sem, .dma cc1_scratch7.sem, .dma cc1_scratch8.sem, .dma cc1_scratch9.sem, .dma cc1_scratch10.sem, .dma cc1_scratch11.sem, .dma cc1_scratch12.sem, .dma cc1_scratch13.sem, .dma cc1_scratch14.sem, .dma cc1_scratch15.sem, .dma cc1_scratch16.sem, .dma cc1_scratch17.sem, .dma cc1_scoped0.sem]

theorem semsL_nodup : (semsL).Nodup := by decide
theorem semsL_scoped : ∀ a ∈ semsL, a ∈ scopedV := fun a ha =>
  Finset.mem_filter.mpr ⟨Finset.mem_univ _, (show ∀ a ∈ semsL, (a : SemLoc sig).isScoped .scVector = true by decide) a ha⟩

/-- The sixteen transfer semaphores are among the subcore's scoped ones: they are them, at zero, and the rest. -/
theorem scopedSems0_open (d : Dev nD) (c : Fin (grid1.bound 0)) (s : Fin (grid1.bound 1)) :
    (scopedSems0 (thr d c s) : sProp 𝕄)
      = iprop(semVal (thr d c s, SemLoc.dma cc1_scratch3.sem) 0
        ∗ semVal (thr d c s, SemLoc.dma cc1_scratch4.sem) 0
        ∗ semVal (thr d c s, SemLoc.dma cc1_scratch5.sem) 0
        ∗ semVal (thr d c s, SemLoc.dma cc1_scratch6.sem) 0
        ∗ semVal (thr d c s, SemLoc.dma cc1_scratch7.sem) 0
        ∗ semVal (thr d c s, SemLoc.dma cc1_scratch8.sem) 0
        ∗ semVal (thr d c s, SemLoc.dma cc1_scratch9.sem) 0
        ∗ semVal (thr d c s, SemLoc.dma cc1_scratch10.sem) 0
        ∗ semVal (thr d c s, SemLoc.dma cc1_scratch11.sem) 0
        ∗ semVal (thr d c s, SemLoc.dma cc1_scratch12.sem) 0
        ∗ semVal (thr d c s, SemLoc.dma cc1_scratch13.sem) 0
        ∗ semVal (thr d c s, SemLoc.dma cc1_scratch14.sem) 0
        ∗ semVal (thr d c s, SemLoc.dma cc1_scratch15.sem) 0
        ∗ semVal (thr d c s, SemLoc.dma cc1_scratch16.sem) 0
        ∗ semVal (thr d c s, SemLoc.dma cc1_scratch17.sem) 0
        ∗ semVal (thr d c s, SemLoc.dma cc1_scoped0.sem) 0
        ∗ bigSep (scopedV \ (semsL).toFinset) fun sm => semVal (thr d c s, sm) 0) := by
  rw [SparseCore.Cfg.scopedSems0_V (Val := Elt F) d (cT c) (sT s), SparseCore.Cfg.ownSems0_eq]
  exact bigSep_chainL (F := F) (fun sm : SemLoc sig => semVal (thr d c s, sm) 0) semsL scopedV semsL_nodup semsL_scoped

end Cert.Proof.KB

end
-- ==== Proof.KBTileMain.lean ====
/-
  A tile's run around its loop of 72 trips, for a worker whose 504 chunks all exist (workers 0 .. 30), with the trip
  as a hypothesis. Before the loop: tile 0 copies the table into its SparseCore's shared memory; every tile arrives at
  the subcore barrier and leaves it with its read share of the shared table, at contents whose first 119 rows are the
  projected rows; the share is cut into the seven tokens its gathers hold (the rest is kept aside); the index scratch is
  held as its two halves, the row scratch as its seven slots; the first index prefetch is issued: the loop's invariant
  before trip 0. After the loop: the seven trailing waits hand back the last trip's chunks at the result's values and the
  slots; the chunks, the shares, the halves, the slots and the sixteen semaphores (all at zero) are what the tile hands back.
-/
import proofs.«203041_g70987219468541_cont_9to1_m_1244_31_alg».proof.Proof.KBTileInv
import proofs.«203041_g70987219468541_cont_9to1_m_1244_31_alg».proof.Proof.KBTileBarrier
import proofs.«203041_g70987219468541_cont_9to1_m_1244_31_alg».proof.Proof.KBTileStore
import proofs.«203041_g70987219468541_cont_9to1_m_1244_31_alg».proof.Proof.KBTripFacts
import proofs.«203041_g70987219468541_cont_9to1_m_1244_31_alg».proof.Proof.KBTileSetLemmas2
import proofs.«203041_g70987219468541_cont_9to1_m_1244_31_alg».proof.Proof.KBTileSetLemmas3
import proofs.«203041_g70987219468541_cont_9to1_m_1244_31_alg».proof.Proof.KBTileChunkSteps
import proofs.«203041_g70987219468541_cont_9to1_m_1244_31_alg».proof.Proof.KBTileStage
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Shares
variable (d : Dev nD) (c : Fin (grid1.bound 0)) (s : Fin (grid1.bound 1))

/-- the shares of the shared table a tile keeps aside while its gathers hold the seven tokens -/
def KeepT (tblS : Buf (Elt F) ((shS).view.loc (thr d c s))) : sProp 𝕄 :=
  iprop(((shS).view.loc (thr d c s) ↦{Transfers.shareDrop (shShare (sT s)) 12} tblS)
    ∗ bigSep (Finset.range 5) fun i => (shS).view.loc (thr d c s) ↦{Transfers.shareTokN (shShare (sT s)) i} tblS)

theorem toks_open (tblS : Buf (Elt F) ((shS).view.loc (thr d c s))) :
    ((shS).view.loc (thr d c s) ↦{shShare (sT s)} tblS : sProp 𝕄) ⊣⊢ iprop(KeepT d c s tblS ∗ Toks d c s tblS) := by
  have h : ((shS).view.loc (thr d c s) ↦[Finset.univ]{shShare (sT s)} tblS : sProp 𝕄) ⊣⊢ _ := Transfers.pointsTo_toks_range (shShare (sT s)) 12
  rw [show (12 : ℕ) = 5 + 7 from rfl, bigSep_range_seven] at h
  unfold KeepT Toks
  constructor
  · refine h.1.trans ?_
    iintro ⟨Hd, Hr, H5, H6, H7, H8, H9, H10, H11⟩
    isplitl [Hd Hr]; · isplitl [Hd]; · iexact Hd
                       iexact Hr
    isplitl [H5]; · iexact H5
    isplitl [H6]; · iexact H6
    isplitl [H7]; · iexact H7
    isplitl [H8]; · iexact H8
    isplitl [H9]; · iexact H9
    isplitl [H10]; · iexact H10
    iexact H11
  · iintro ⟨⟨Hd, Hr⟩, H5, H6, H7, H8, H9, H10, H11⟩
    iapply h.2
    isplitl [Hd]; · iexact Hd
    isplitl [Hr]; · iexact Hr
    isplitl [H5]; · iexact H5
    isplitl [H6]; · iexact H6
    isplitl [H7]; · iexact H7
    isplitl [H8]; · iexact H8
    isplitl [H9]; · iexact H9
    isplitl [H10]; · iexact H10
    iexact H11

end Shares

section Pref
variable (d : Dev nD) (c : Fin (grid1.bound 0)) (s : Fin (grid1.bound 1))

theorem stJ_zero : stJ 0 = (⟨0, of_decide_eq_true rfl⟩ : Fin 18) := Fin.ext rfl

/-- The first prefetch in flight, in the invariant's words. -/
theorem pref0_intro (fI : Buf (Elt F) ((ixS).view.loc (thr d c s))) :
    iprop(Transfers.Flight (countersEmb (U := UU)) (thr d c s) (SemLoc.dma cc1_scratch3.sem) (none : HIx 1) 114688
        iprop((((ixS).slice (Rect.unit (s := S7168) ![0] S3584.size inb_S7168_S3584_0) (fun _ => rfl)).view.loc (thr d c s)
              ↦[((ixS).slice (Rect.unit (s := S7168) ![0] S3584.size inb_S7168_S3584_0) (fun _ => rfl)).view.set]{fullShare}
              ((ixS).slice (Rect.unit (s := S7168) ![0] S3584.size inb_S7168_S3584_0) (fun _ => rfl)).view.writes (Elt F) fI
                [⟨Rect.whole S3584, ReadAs.same.apply (((idxV).slice (Rect.unit (s := S2064384) (k1_off1 (coordsV c s)) S3584.size (k1_off1_inb (coordsV c s))) (fun _ => rfl)).view.read (Elt F) (idxc m d))⟩])
          ∗ (idxV).view.loc (thr d c s) ↦[((idxV).slice (Rect.unit (s := S2064384) (k1_off1 (coordsV c s)) S3584.size (k1_off1_inb (coordsV c s))) (fun _ => rfl)).view.set]{qI c s} idxc m d)
      ∗ ((idxV).view.loc (thr d c s) ↦[Finset.univ \ ((idxV).slice (Rect.unit (s := S2064384) (k1_off1 (coordsV c s)) S3584.size (k1_off1_inb (coordsV c s))) (fun _ => rfl)).view.set]{qI c s} idxc m d))
      ⊢ PrefFlight m d c s 0 := by
  unfold PrefFlight
  rw [set_st0, stJ_zero]
  iintro ⟨Hf, Hrest⟩
  isplitr [Hrest]
  swap; · iexact Hrest
  iapply (Transfers.Flight_mono ?_) $$ Hf
  iintro ⟨Hd, Hs⟩
  isplitl [Hd]
  · unfold HalfHeld
    iexists _
    isplitr
    · ipureintro; intro _; exact stageAt_landed0 m d c s fI
    · iapply (Entails.of_eq (pts_half0 (d := d) (c := c) (s := s) fullShare _)); iexact Hd
  · iexact Hs

end Pref

section Inv0
variable (d : Dev nD) (c : Fin (grid1.bound 0)) (s : Fin (grid1.bound 1))

/-- The invariant before the first trip. -/
theorem inv0_intro (tblS : Buf (Elt F) ((shS).view.loc (thr d c s))) (O : CellTallies nD τ sig (HIx 1)) (W W₁ : Waits sig (HIx 1))
    (hW₁ : ∀ p ∈ W₁, p ∈ W ∨ p.2 = none ∨ p.2 = some 0)
    (fI : Buf (Elt F) ((ixS).view.loc (thr d c s))) (fR : Buf (Elt F) ((rwS).view.loc (thr d c s))) :
    iprop(Transfers.MayWaits (thr d c s) (none : HIx 1) O ∗ PrefFlight m d c s 0
        ∗ ((halfM 1).view.loc (thr d c s) ↦[halfSet 1]{fullShare} fI) ∗ ((rwS).view.loc (thr d c s) ↦{fullShare} fR)
        ∗ semVal (thr d c s, SemLoc.dma cc1_scratch11.sem) 0 ∗ semVal (thr d c s, SemLoc.dma cc1_scratch12.sem) 0
        ∗ semVal (thr d c s, SemLoc.dma cc1_scratch13.sem) 0 ∗ semVal (thr d c s, SemLoc.dma cc1_scratch14.sem) 0
        ∗ semVal (thr d c s, SemLoc.dma cc1_scratch15.sem) 0 ∗ semVal (thr d c s, SemLoc.dma cc1_scratch16.sem) 0
        ∗ semVal (thr d c s, SemLoc.dma cc1_scratch17.sem) 0
        ∗ Todo m d c s 0 ∗ Toks d c s tblS ∗ GSems d c s ∗ owes (thr d c s) O W₁)
      ⊢ Inv m d c s tblS O W 0 ⟨⟩ := by
  unfold Inv IdxSt Slots Slot0 Slot1 Slot2 Slot3 Slot4 Slot5 Slot6 ChunksSt Owes
  rw [if_pos (by decide : (0 : ℕ) ≤ 68), if_pos rfl, if_pos rfl, if_pos rfl, if_pos rfl, if_pos rfl, if_pos rfl, if_pos rfl, done_zero, rw_split]
  iintro ⟨Hmw, Hpf, Hh1, ⟨Hr0, Hr1, Hr2, Hr3, Hr4, Hr5, Hr6⟩, Hs11, Hs12, Hs13, Hs14, Hs15, Hs16, Hs17, Htodo, Htoks, Hg, HO⟩
  isplitl [Hmw]; · iexact Hmw
  isplitl [Hpf Hh1]
  · isplitl [Hpf]; · iexact Hpf
    unfold HalfHeld
    iexists fI; isplitr
    · ipureintro; intro h; exact absurd rfl h
    · iexact Hh1
  isplitl [Hr0 Hr1 Hr2 Hr3 Hr4 Hr5 Hr6 Hs11 Hs12 Hs13 Hs14 Hs15 Hs16 Hs17]
  · isplitl [Hs11 Hr0]; · isplitl [Hs11]; · iexact Hs11
                          iexists fR; iexact Hr0
    isplitl [Hs12 Hr1]; · isplitl [Hs12]; · iexact Hs12
                          iexists fR; iexact Hr1
    isplitl [Hs13 Hr2]; · isplitl [Hs13]; · iexact Hs13
                          iexists fR; iexact Hr2
    isplitl [Hs14 Hr3]; · isplitl [Hs14]; · iexact Hs14
                          iexists fR; iexact Hr3
    isplitl [Hs15 Hr4]; · isplitl [Hs15]; · iexact Hs15
                          iexists fR; iexact Hr4
    isplitl [Hs16 Hr5]; · isplitl [Hs16]; · iexact Hs16
                          iexists fR; iexact Hr5
    isplitl [Hs17]; · iexact Hs17
    iexists fR; iexact Hr6
  isplitl [Htodo]
  · isplitr; · iempintro
    iexact Htodo
  isplitl [Htoks]; · iexact Htoks
  isplitl [Hg]; · iexact Hg
  iexists W₁; isplitr
  · ipureintro; exact hW₁
  · iexact HO

end Inv0

section Inv72
variable (d : Dev nD) (c : Fin (grid1.bound 0)) (s : Fin (grid1.bound 1))

theorem trips72 : Scf.trips k1_t1_loop.lb k1_t1_loop.ub k1_t1_loop.st = 72 := by decide

/-- The invariant after the last trip, opened. -/
theorem inv72_elim (tblS : Buf (Elt F) ((shS).view.loc (thr d c s))) (O : CellTallies nD τ sig (HIx 1)) (W : Waits sig (HIx 1)) :
    Inv m d c s tblS O W 72 ⟨⟩
      ⊢ iprop((semVal (thr d c s, SemLoc.dma cc1_scratch3.sem) 0 ∗ ((idxV).view.loc (thr d c s) ↦{qI c s} idxc m d)
          ∗ HalfHeld m d c s (halfOf 17) True 17 ∗ HalfHeld m d c s (halfOf 18) False 0)
        ∗ (Slot0 m d c s 72 ∗ Slot1 m d c s 72 ∗ Slot2 m d c s 72 ∗ Slot3 m d c s 72 ∗ Slot4 m d c s 72 ∗ Slot5 m d c s 72 ∗ Slot6 m d c s 72)
        ∗ Done m d c s 72 ∗ Toks d c s tblS ∗ GSems d c s ∗ Owes d c s O W) := by
  unfold Inv IdxSt Slots ChunksSt
  rw [if_neg (by decide : ¬ (72 : ℕ) ≤ 68), todo_end]
  iintro ⟨-, Hi, Hsl, ⟨Hd, -⟩, Ht, Hg, HO⟩
  isplitl [Hi]; · iexact Hi
  isplitl [Hsl]; · iexact Hsl
  isplitl [Hd]; · iexact Hd
  isplitl [Ht]; · iexact Ht
  isplitl [Hg]; · iexact Hg
  iexact HO

theorem tail_T0 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 0#32) 15625#32)) 0#32 = 1#1 := by decide +kernel
theorem tail_T1 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 1#32) 15625#32)) 0#32 = 1#1 := by decide +kernel
theorem tail_T2 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 2#32) 15625#32)) 0#32 = 1#1 := by decide +kernel
theorem tail_T3 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 3#32) 15625#32)) 0#32 = 1#1 := by decide +kernel
theorem tail_T4 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 4#32) 15625#32)) 0#32 = 1#1 := by decide +kernel
theorem tail_T5 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 5#32) 15625#32)) 0#32 = 1#1 := by decide +kernel
theorem tail_T6 : ∀ (c : Fin (grid1.bound 0)) (s : Fin (grid1.bound 1)), 2 * s.val + c.val ≤ 30 →
    Scalar.cmpi CmpIPredicate.ne (Scalar.extui (Scalar.cmpi CmpIPredicate.slt (Scalar.addi (Scalar.addi (v2of c s) 497#32) 6#32) 15625#32)) 0#32 = 1#1 := by decide +kernel

end Inv72

section Close
variable (d : Dev nD) (c : Fin (grid1.bound 0)) (s : Fin (grid1.bound 1))

/-- the two halves of the index scratch, whatever each holds, are the scratch at some contents -/
theorem halves_join (p₁ p₀ : Prop) (j₁ j₀ : ℕ) :
    iprop(HalfHeld m d c s (halfOf 17) p₁ j₁ ∗ HalfHeld m d c s (halfOf 18) p₀ j₀) ⊢ (iprop(∃ f, (ixS).view.loc (thr d c s) ↦{fullShare} f) : sProp 𝕄) := by
  unfold HalfHeld
  iintro ⟨⟨%f1, -, H1⟩, ⟨%f0, -, H0⟩⟩
  ihave H := (pointsTo_join (ℓ := (ixS).view.loc (thr d c s)) (q := fullShare) (f := f0) (g := f1) half_disjoint) $$ [H0 H1]
  · isplitl [H0]; · iexact H0
    iexact H1
  rw [half_union]
  iexists _; iexact H

/-- the seven slots of the row scratch, whatever each holds, are the scratch at some contents -/
theorem slots_join (f0 f1 f2 f3 f4 f5 f6 : Buf (Elt F) ((rwS).view.loc (thr d c s))) :
    iprop(((slotM0).view.loc (thr d c s) ↦[(slotM0).view.set]{fullShare} f0)
          ∗ ((slotM1).view.loc (thr d c s) ↦[(slotM1).view.set]{fullShare} f1)
          ∗ ((slotM2).view.loc (thr d c s) ↦[(slotM2).view.set]{fullShare} f2)
          ∗ ((slotM3).view.loc (thr d c s) ↦[(slotM3).view.set]{fullShare} f3)
          ∗ ((slotM4).view.loc (thr d c s) ↦[(slotM4).view.set]{fullShare} f4)
          ∗ ((slotM5).view.loc (thr d c s) ↦[(slotM5).view.set]{fullShare} f5)
          ∗ (slotM6).view.loc (thr d c s) ↦[(slotM6).view.set]{fullShare} f6)
      ⊢ (iprop(∃ f, (rwS).view.loc (thr d c s) ↦{fullShare} f) : sProp 𝕄) := by
  rw [set_slot0, set_slot1, set_slot2, set_slot3, set_slot4, set_slot5, set_slot6]
  have h := pointsTo_biUnion_join (Ix := HIx 1) (Name := ℕ) (U := UU) (Lvl := ℕ) (Val := Elt F) (ℓ := (rwS).view.loc (thr d c s)) (q := fullShare)
    (Finset.univ : Finset (Fin 7)) (fun b : Fin 7 => slotSet b) ![f0, f1, f2, f3, f4, f5, f6] f0 (fun b _ b' _ hb => Rect.part_disjoint hdiv7 hb)
  rw [Rect.biUnion_part hdiv7, bigSep_fin7] at h
  refine h.trans ?_
  iintro ⟨%g, -, Hg⟩
  iexists g; iexact Hg

/-- the worker's chunks, all at the result's values -/
theorem chunks_close (hw : 2 * s.val + c.val ≤ 30) :
    iprop(Done m d c s 72 ∗ (outLoc d ↦[chunkSet (chunkIx c s (72 - 1) 0)]{fullShare} outG m d) ∗ (outLoc d ↦[chunkSet (chunkIx c s (72 - 1) 1)]{fullShare} outG m d)
        ∗ (outLoc d ↦[chunkSet (chunkIx c s (72 - 1) 2)]{fullShare} outG m d) ∗ (outLoc d ↦[chunkSet (chunkIx c s (72 - 1) 3)]{fullShare} outG m d)
        ∗ (outLoc d ↦[chunkSet (chunkIx c s (72 - 1) 4)]{fullShare} outG m d) ∗ (outLoc d ↦[chunkSet (chunkIx c s (72 - 1) 5)]{fullShare} outG m d)
        ∗ (outLoc d ↦[chunkSet (chunkIx c s (72 - 1) 6)]{fullShare} outG m d))
      ⊢ (bigSep (tileChunks (cT c) (sT s)) fun g => outChunk d g (outG m d) : sProp 𝕄) := by
  have e : (bigSep (Finset.range 504) fun n => outChunk d (chunkIxN c s n) (outG m d) : sProp 𝕄) = Done m d c s (72 + 1) := rfl
  rw [← done_end d c s hw, e, done_step m d c s 72 (by decide)]

theorem ins_ok {W W' : Waits sig (HIx 1)} {q : SemLoc sig × HIx 1} (h : ∀ p ∈ W', p ∈ W ∨ p.2 = none ∨ p.2 = some 0) (hq : q.2 = none ∨ q.2 = some 0) :
    ∀ p ∈ insert q W', p ∈ W ∨ p.2 = none ∨ p.2 = some 0 := fun p hp => by
  rcases Finset.mem_insert.mp hp with rfl | hp
  · exact .inr hq
  · exact h p hp

/-- the shared table, written whole with the table read from HBM, holds the projected rows -/
theorem tbl_ok (tbl : Buf (Elt F) (tblLoc d)) (htbl : TableOK m d tbl) (f0 w : Buf (Elt F) ((shS).view.loc (thr d c s))) (hw : w = tbl) :
    TableOK m d (View.write (Elt F) (shS).view f0 w Finset.univ) := by
  subst hw
  have e : View.write (Elt F) (shS).view f0 w Finset.univ = w := View.write_whole_univ cc1_scratch2 f0 w
  rw [e]; exact htbl

end Close

theorem head_F : ∀ (s : Fin (grid1.bound 1)), s.val ≠ 0 →
    ¬ Scalar.cmpi CmpIPredicate.ne (Scalar.extui (Scalar.cmpi CmpIPredicate.eq (BitVec.ofNat 32 s.val) 0#32)) 0#32 = 1#1 := by decide +kernel

set_option maxHeartbeats 8000000 in
theorem tile_mainN (hpre : PreOK m) (d : Dev nD) (c : Fin (grid1.bound 0)) (s : Fin (grid1.bound 1)) (hw : 2 * s.val + c.val ≤ 30) (hs : s.val ≠ 0)
    (O : CellTallies nD τ sig (HIx 1)) (W : Waits sig (HIx 1)) (hO : ∀ g, O g none = 0)
    (hlev : ∀ g ι, 0 < O g ι → 8 * (0 : Fin 1).val + 6 ≤ (K (F := F)).lev g ι)
    (htrip : ∀ (tblS : Buf (Elt F) ((shS).view.loc (thr d c s))), TableOK m d tblS → ∀ (W₀ : Waits sig (HIx 1)) (k : Fin k1_t1_loop.trips), Inv m d c s tblS O W₀ k.val ⟨⟩ ⊢ wp frame (wpE (defs₀ (F := F)) 𝒱₀ (thr d c s) none) Set.univ (k1_t1_body (F := F) (coordsV c s) tblV (Memref.isWhole_whole _) idxV (Memref.isWhole_whole _) outW (Memref.isWhole_whole _) ixS (Memref.isWhole_whole _) rwS (Memref.isWhole_whole _) shS (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scoped0 (v2of c s) k ()) (fun _ => Inv m d c s tblS O W₀ (k.val + 1) ⟨⟩)) : TileSpec m d c s O W := by
  unfold TileSpec body
  rw [cc1_gather_eq_skeleton]; unfold cc1_gather_skel
  rw [k1_part5_eq_skeleton]; unfold k1_part5_skel
  have hO' : ∀ g, (O + oxV d (cT c)) g none = 0 := fun g => by
    rw [Pi.add_apply, Finsupp.add_apply, hO g, oxV_none]
  unfold goC
  rw [if_neg (show ¬ (sT s).val = 0 from hs), scopedBufs_open, scopedSems0_open, todo_zero (m := m) d c s hw]
  iintro ⟨#Hlv, Hbk, ⟨-, Hidx, Htodo⟩, ⟨⟨%fI, HixS⟩, ⟨%fR, HrwS⟩, Hbrest⟩, ⟨Hs3, Hs4, Hs5, Hs6, Hs7, Hs8, Hs9, Hs10, Hs11, Hs12, Hs13, Hs14, Hs15, Hs16, Hs17, Hs19, Hsrest⟩, HO⟩
  ihave Hmw0 := ((K (F := F)).mayWaits_none (thr := thr d c s) hO') $$ Hlv
  sl_exec (disch := first | sl_exact (head_F s hs) | decide)
  iapply (Entails.of_eq (wp_bind _ _ _ _ _ _).symm)
  iapply (tile_barrier m d c s O W hlev _ _)
  isplitr; · iexact Hlv
  isplitl [Hbk]; · iexact Hbk
  isplitl [HO]; · iexact HO
  isplitr; · rw [if_neg hs]; iempintro
  iintro ⟨HO, ⟨%tblS, %htblS, Hsh⟩, -⟩
  ihave Hmw := ((K (F := F)).mayWaits_none (thr := thr d c s) hO) $$ Hlv
  ihave Hidx' := (Entails.of_eq (show (idxLoc d ↦{tileShare (cT c) (sT s)} idxOf (m (srcLoc d)) : sProp 𝕄) = ((idxV).view.loc (thr d c s) ↦{qI c s} idxc m d) from rfl)) $$ Hidx
  ihave Hix2 := (Entails.of_eq (ix_split (d := d) (c := c) (s := s) fI)) $$ HixS
  icases Hix2 with ⟨Hh0, Hh1⟩
  ihave Hh0' := (Entails.of_eq (pts_half0 (d := d) (c := c) (s := s) fullShare fI).symm) $$ Hh0
  sl_exec (disch := decide)
  ihave Hpf := (pref0_intro m d c s fI) $$ [Hs3 Hidx']
  · isplitl [Hs3]; · iexact Hs3
    iexact Hidx'
  ihave Hsh' := (toks_open d c s tblS).1 $$ Hsh
  icases Hsh' with ⟨Hkeep, Htoks⟩
  ihave Hinv := (inv0_intro m d c s tblS O W (insert (SemLoc.reg sc_bar0, some 0) W)
      (ins_ok (fun p hp => .inl hp) (.inr rfl)) fI fR) $$ [Hmw Hpf Hh1 HrwS Hs11 Hs12 Hs13 Hs14 Hs15 Hs16 Hs17 Htodo Htoks Hs4 Hs5 Hs6 Hs7 Hs8 Hs9 Hs10 HO]
  · isplitr; · iexact Hmw
    isplitl [Hpf]; · iexact Hpf
    isplitl [Hh1]; · iexact Hh1
    isplitl [HrwS]; · iexact HrwS
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Htodo]; · iexact Htodo
    isplitl [Htoks]; · iexact Htoks
    isplitl [Hs4 Hs5 Hs6 Hs7 Hs8 Hs9 Hs10]
    · unfold GSems
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      iexact Hs10
    iexact HO
  sl_for (Inv m d c s tblS O W) $$ [Hinv]
  case region =>
    intro k _
    exact htrip tblS htblS W k
  · iexact Hinv
  iintro %_ HI
  rw [trips72]
  ihave HI' := (inv72_elim m d c s tblS O W) $$ HI
  unfold Slot0 Slot1 Slot2 Slot3 Slot4 Slot5 Slot6 Owes
  rw [if_neg (by decide : ¬ (72 : ℕ) = 0), if_neg (by decide : ¬ (72 : ℕ) = 0), if_neg (by decide : ¬ (72 : ℕ) = 0), if_neg (by decide : ¬ (72 : ℕ) = 0),
    if_neg (by decide : ¬ (72 : ℕ) = 0), if_neg (by decide : ¬ (72 : ℕ) = 0), if_neg (by decide : ¬ (72 : ℕ) = 0)]
  icases HI' with ⟨⟨Hs3, Hidx, Hh17, Hh18⟩, ⟨⟨%fR0, Hf0⟩, ⟨%fR1, Hf1⟩, ⟨%fR2, Hf2⟩, ⟨%fR3, Hf3⟩, ⟨%fR4, Hf4⟩, ⟨%fR5, Hf5⟩, ⟨%fR6, Hf6⟩⟩, Hdone, Htoks, Hg, ⟨%W', %hW', HO⟩⟩
  sl_exec (disch := first | sl_exact (tail_T0 c s hw) | sl_exact (tail_T1 c s hw) | sl_exact (tail_T2 c s hw) | sl_exact (tail_T3 c s hw) | sl_exact (tail_T4 c s hw) | sl_exact (tail_T5 c s hw) | sl_exact (tail_T6 c s hw) | decide)
  sl_step
  -- what the tile hands back
  isplitl [Hkeep Htoks Hidx Hdone Hf0_dst Hf1_dst Hf2_dst Hf3_dst Hf4_dst Hf5_dst Hf6_dst]
  · unfold tdC
    rw [if_neg (show ¬ (sT s).val = 0 from hs)]
    isplitr; · iempintro
    isplitl [Hkeep Htoks]
    · iexists tblS
      iapply (toks_open d c s tblS).2
      isplitl [Hkeep]; · iexact Hkeep
      iexact Htoks
    isplitl [Hidx]; · iexact Hidx
    iapply (chunks_close m d c s hw)
    isplitl [Hdone]; · iexact Hdone
    isplitl [Hf0_dst]; · iexact Hf0_dst
    isplitl [Hf1_dst]; · iexact Hf1_dst
    isplitl [Hf2_dst]; · iexact Hf2_dst
    isplitl [Hf3_dst]; · iexact Hf3_dst
    isplitl [Hf4_dst]; · iexact Hf4_dst
    isplitl [Hf5_dst]; · iexact Hf5_dst
    iexact Hf6_dst
  -- its scratch arrays
  isplitl [Hh17 Hh18 Hf0_src Hf1_src Hf2_src Hf3_src Hf4_src Hf5_src Hf6_src Hbrest]
  · isplitl [Hh17 Hh18]
    · iapply (halves_join m d c s True False 17 0)
      isplitl [Hh17]; · iexact Hh17
      iexact Hh18
    isplitl [Hf0_src Hf1_src Hf2_src Hf3_src Hf4_src Hf5_src Hf6_src]
    · iapply (slots_join d c s fR0 fR1 fR2 fR3 fR4 fR5 fR6)
      isplitl [Hf0_src]; · iexact Hf0_src
      isplitl [Hf1_src]; · iexact Hf1_src
      isplitl [Hf2_src]; · iexact Hf2_src
      isplitl [Hf3_src]; · iexact Hf3_src
      isplitl [Hf4_src]; · iexact Hf4_src
      isplitl [Hf5_src]; · iexact Hf5_src
      iexact Hf6_src
    iexact Hbrest
  -- its semaphores, all at zero
  isplitl [Hs3 Hg Hf0 Hf1 Hf2 Hf3 Hf4 Hf5 Hf6 Hs19 Hsrest]
  · unfold GSems
    icases Hg with ⟨Hs4, Hs5, Hs6, Hs7, Hs8, Hs9, Hs10⟩
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hs19]; · iexact Hs19
    iexact Hsrest
  iexists _; isplitr
  swap; · iexact HO
  ipureintro
  exact ins_ok (ins_ok (ins_ok (ins_ok (ins_ok (ins_ok (ins_ok hW' (.inl rfl)) (.inl rfl)) (.inl rfl)) (.inl rfl)) (.inl rfl)) (.inl rfl)) (.inl rfl)

/-- subcore 0 of a SparseCore -/
abbrev s0' : Fin (grid1.bound 1) := ⟨0, by decide⟩

set_option maxHeartbeats 8000000 in
theorem tile_main0 (hpre : PreOK m) (d : Dev nD) (c : Fin (grid1.bound 0)) (hw : 2 * s0'.val + c.val ≤ 30)
    (O : CellTallies nD τ sig (HIx 1)) (W : Waits sig (HIx 1)) (hO : ∀ g, O g none = 0)
    (hlev : ∀ g ι, 0 < O g ι → 8 * (0 : Fin 1).val + 6 ≤ (K (F := F)).lev g ι)
    (htrip : ∀ (tblS : Buf (Elt F) ((shS).view.loc (thr d c s0'))), TableOK m d tblS → ∀ (W₀ : Waits sig (HIx 1)) (k : Fin k1_t1_loop.trips), Inv m d c s0' tblS O W₀ k.val ⟨⟩ ⊢ wp frame (wpE (defs₀ (F := F)) 𝒱₀ (thr d c s0') none) Set.univ (k1_t1_body (F := F) (coordsV c s0') tblV (Memref.isWhole_whole _) idxV (Memref.isWhole_whole _) outW (Memref.isWhole_whole _) ixS (Memref.isWhole_whole _) rwS (Memref.isWhole_whole _) shS (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scoped0 (v2of c s0') k ()) (fun _ => Inv m d c s0' tblS O W₀ (k.val + 1) ⟨⟩)) : TileSpec m d c s0' O W := by
  unfold TileSpec body
  rw [cc1_gather_eq_skeleton]; unfold cc1_gather_skel
  rw [k1_part5_eq_skeleton]; unfold k1_part5_skel
  have hO' : ∀ g, (O + oxV d (cT c)) g none = 0 := fun g => by
    rw [Pi.add_apply, Finsupp.add_apply, hO g, oxV_none]
  unfold goC
  rw [if_pos (show (sT s0').val = 0 from rfl), scopedBufs_open, scopedSems0_open, todo_zero (m := m) d c s0' hw]
  iintro ⟨#Hlv, Hbk, ⟨⟨⟨%tbl, %htbl, Htbl⟩, ⟨%f0, Hsh0⟩⟩, Hidx, Htodo⟩, ⟨⟨%fI, HixS⟩, ⟨%fR, HrwS⟩, Hbrest⟩, ⟨Hs3, Hs4, Hs5, Hs6, Hs7, Hs8, Hs9, Hs10, Hs11, Hs12, Hs13, Hs14, Hs15, Hs16, Hs17, Hs19, Hsrest⟩, HO⟩
  ihave Hmw0 := ((K (F := F)).mayWaits_none (thr := thr d c s0') hO') $$ Hlv
  ihave Htbl' := (Entails.of_eq (show (tblLoc d ↦{scShare (cT c)} tbl : sProp 𝕄) = ((tblV).view.loc (thr d c s0') ↦{scShare (cT c)} tbl) from rfl)) $$ Htbl
  ihave Hsh0' := (Entails.of_eq (show (shLoc d (cT c) (sT s0') ↦{fullShare} f0 : sProp 𝕄) = ((shS).view.loc (thr d c s0') ↦{fullShare} f0) from rfl)) $$ Hsh0
  sl_exec (disch := decide)
  iapply (Entails.of_eq (wp_bind _ _ _ _ _ _).symm)
  iapply (tile_barrier m d c s0' O _ hlev _ _)
  isplitr; · iexact Hlv
  isplitl [Hbk]; · iexact Hbk
  isplitl [HO]; · iexact HO
  isplitl [Hsh0']
  · rw [if_pos (show s0'.val = 0 from rfl)]
    iexists _; isplitr
    · ipureintro; exact tbl_ok m d c s0' tbl htbl f0 _ rfl
    · iexact Hsh0'
  iintro ⟨HO, ⟨%tblS, %htblS, Hsh⟩, Hdrop⟩
  ihave Hdrop' := (Entails.of_eq (if_pos (show s0'.val = 0 from rfl))) $$ Hdrop
  ihave Hmw := ((K (F := F)).mayWaits_none (thr := thr d c s0') hO) $$ Hlv
  ihave Hidx' := (Entails.of_eq (show (idxLoc d ↦{tileShare (cT c) (sT s0')} idxOf (m (srcLoc d)) : sProp 𝕄) = ((idxV).view.loc (thr d c s0') ↦{qI c s0'} idxc m d) from rfl)) $$ Hidx
  ihave Hix2 := (Entails.of_eq (ix_split (d := d) (c := c) (s := s0') fI)) $$ HixS
  icases Hix2 with ⟨Hh0, Hh1⟩
  ihave Hh0' := (Entails.of_eq (pts_half0 (d := d) (c := c) (s := s0') fullShare fI).symm) $$ Hh0
  sl_exec (disch := decide)
  ihave Hpf := (pref0_intro m d c s0' fI) $$ [Hs3 Hidx']
  · isplitl [Hs3]; · iexact Hs3
    iexact Hidx'
  ihave Hsh' := (toks_open d c s0' tblS).1 $$ Hsh
  icases Hsh' with ⟨Hkeep, Htoks⟩
  ihave Hinv := (inv0_intro m d c s0' tblS O W (insert (SemLoc.reg sc_bar0, some 0) (insert (SemLoc.dma cc1_scoped0.sem, (default : HIx 1)) W))
      (ins_ok (ins_ok (fun p hp => .inl hp) (.inl rfl)) (.inr rfl)) fI fR) $$ [Hmw Hpf Hh1 HrwS Hs11 Hs12 Hs13 Hs14 Hs15 Hs16 Hs17 Htodo Htoks Hs4 Hs5 Hs6 Hs7 Hs8 Hs9 Hs10 HO]
  · isplitr; · iexact Hmw
    isplitl [Hpf]; · iexact Hpf
    isplitl [Hh1]; · iexact Hh1
    isplitl [HrwS]; · iexact HrwS
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Htodo]; · iexact Htodo
    isplitl [Htoks]; · iexact Htoks
    isplitl [Hs4 Hs5 Hs6 Hs7 Hs8 Hs9 Hs10]
    · unfold GSems
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      iexact Hs10
    iexact HO
  sl_for (Inv m d c s0' tblS O W) $$ [Hinv]
  case region =>
    intro k _
    exact htrip tblS htblS W k
  · iexact Hinv
  iintro %_ HI
  rw [trips72]
  ihave HI' := (inv72_elim m d c s0' tblS O W) $$ HI
  unfold Slot0 Slot1 Slot2 Slot3 Slot4 Slot5 Slot6 Owes
  rw [if_neg (by decide : ¬ (72 : ℕ) = 0), if_neg (by decide : ¬ (72 : ℕ) = 0), if_neg (by decide : ¬ (72 : ℕ) = 0), if_neg (by decide : ¬ (72 : ℕ) = 0),
    if_neg (by decide : ¬ (72 : ℕ) = 0), if_neg (by decide : ¬ (72 : ℕ) = 0), if_neg (by decide : ¬ (72 : ℕ) = 0)]
  icases HI' with ⟨⟨Hs3, Hidx, Hh17, Hh18⟩, ⟨⟨%fR0, Hf0⟩, ⟨%fR1, Hf1⟩, ⟨%fR2, Hf2⟩, ⟨%fR3, Hf3⟩, ⟨%fR4, Hf4⟩, ⟨%fR5, Hf5⟩, ⟨%fR6, Hf6⟩⟩, Hdone, Htoks, Hg, ⟨%W', %hW', HO⟩⟩
  sl_exec (disch := first | sl_exact (tail_T0 c s0' hw) | sl_exact (tail_T1 c s0' hw) | sl_exact (tail_T2 c s0' hw) | sl_exact (tail_T3 c s0' hw) | sl_exact (tail_T4 c s0' hw) | sl_exact (tail_T5 c s0' hw) | sl_exact (tail_T6 c s0' hw) | decide)
  sl_step
  -- what the tile hands back
  isplitl [Htbl' Hdrop' Hkeep Htoks Hidx Hdone Hf0_dst Hf1_dst Hf2_dst Hf3_dst Hf4_dst Hf5_dst Hf6_dst]
  · unfold tdC
    rw [if_pos (show (sT s0').val = 0 from rfl)]
    isplitl [Htbl' Hdrop']
    · isplitl [Htbl']
      · iexists tbl; iexact Htbl'
      · iexact Hdrop'
    isplitl [Hkeep Htoks]
    · iexists tblS
      iapply (toks_open d c s0' tblS).2
      isplitl [Hkeep]; · iexact Hkeep
      iexact Htoks
    isplitl [Hidx]; · iexact Hidx
    iapply (chunks_close m d c s0' hw)
    isplitl [Hdone]; · iexact Hdone
    isplitl [Hf0_dst]; · iexact Hf0_dst
    isplitl [Hf1_dst]; · iexact Hf1_dst
    isplitl [Hf2_dst]; · iexact Hf2_dst
    isplitl [Hf3_dst]; · iexact Hf3_dst
    isplitl [Hf4_dst]; · iexact Hf4_dst
    isplitl [Hf5_dst]; · iexact Hf5_dst
    iexact Hf6_dst
  -- its scratch arrays
  isplitl [Hh17 Hh18 Hf0_src Hf1_src Hf2_src Hf3_src Hf4_src Hf5_src Hf6_src Hbrest]
  · isplitl [Hh17 Hh18]
    · iapply (halves_join m d c s0' True False 17 0)
      isplitl [Hh17]; · iexact Hh17
      iexact Hh18
    isplitl [Hf0_src Hf1_src Hf2_src Hf3_src Hf4_src Hf5_src Hf6_src]
    · iapply (slots_join d c s0' fR0 fR1 fR2 fR3 fR4 fR5 fR6)
      isplitl [Hf0_src]; · iexact Hf0_src
      isplitl [Hf1_src]; · iexact Hf1_src
      isplitl [Hf2_src]; · iexact Hf2_src
      isplitl [Hf3_src]; · iexact Hf3_src
      isplitl [Hf4_src]; · iexact Hf4_src
      isplitl [Hf5_src]; · iexact Hf5_src
      iexact Hf6_src
    iexact Hbrest
  -- its semaphores, all at zero
  isplitl [Hs3 Hg Hf0 Hf1 Hf2 Hf3 Hf4 Hf5 Hf6 Hs19 Hsrest]
  · unfold GSems
    icases Hg with ⟨Hs4, Hs5, Hs6, Hs7, Hs8, Hs9, Hs10⟩
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hs19]; · iexact Hs19
    iexact Hsrest
  iexists _; isplitr
  swap; · iexact HO
  ipureintro
  exact ins_ok (ins_ok (ins_ok (ins_ok (ins_ok (ins_ok (ins_ok hW' (.inl rfl)) (.inl rfl)) (.inl rfl)) (.inl rfl)) (.inl rfl)) (.inl rfl)) (.inl rfl)

/-- The tile's obligation from the trip's: the head, the barrier, the first prefetch, the loop by its invariant, the
    trailing waits, and what is handed back. -/
theorem tile_main (hpre : PreOK m) (d : Dev nD) (c : Fin (grid1.bound 0)) (s : Fin (grid1.bound 1)) (hw : 2 * s.val + c.val ≤ 30)
    (O : CellTallies nD τ sig (HIx 1)) (W : Waits sig (HIx 1)) (hO : ∀ g, O g none = 0)
    (hlev : ∀ g ι, 0 < O g ι → 8 * (0 : Fin 1).val + 6 ≤ (K (F := F)).lev g ι)
    (htrip : ∀ (tblS : Buf (Elt F) ((shS).view.loc (thr d c s))), TableOK m d tblS → ∀ (W₀ : Waits sig (HIx 1)) (k : Fin k1_t1_loop.trips), Inv m d c s tblS O W₀ k.val ⟨⟩ ⊢ wp frame (wpE (defs₀ (F := F)) 𝒱₀ (thr d c s) none) Set.univ (k1_t1_body (F := F) (coordsV c s) tblV (Memref.isWhole_whole _) idxV (Memref.isWhole_whole _) outW (Memref.isWhole_whole _) ixS (Memref.isWhole_whole _) rwS (Memref.isWhole_whole _) shS (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scoped0 (v2of c s) k ()) (fun _ => Inv m d c s tblS O W₀ (k.val + 1) ⟨⟩)) :
    TileSpec m d c s O W := by
  by_cases hs : s.val = 0
  · obtain rfl : s = s0' := Fin.ext hs
    exact tile_main0 m hpre d c hw O W hO hlev htrip
  · exact tile_mainN m hpre d c s hw hs O W hO hlev htrip

end Cert.Proof.KB

end
-- ==== Proof.KBTileLastInv.lean ====
/-
  The last worker's tile (SparseCore 1, subcore 15: worker 31). Of its 504 chunk numbers only the first exists
  (504 * 31 = 15624 < 15625): trip 0 gathers and copies out chunk 15624 through slot 0, trip 1 awaits that copy-out, and no
  other trip touches a row slot; the index prefetch runs as on every tile.
-/
import proofs.«203041_g70987219468541_cont_9to1_m_1244_31_alg».proof.Proof.KBTileInv
import proofs.«203041_g70987219468541_cont_9to1_m_1244_31_alg».proof.Proof.KBTripFacts
import proofs.«203041_g70987219468541_cont_9to1_m_1244_31_alg».proof.Proof.KBChunks

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## The last worker's tile: SparseCore 1, subcore 15, worker 31 -/

abbrev c31 : Fin (grid1.bound 0) := ⟨1, of_decide_eq_true rfl⟩
abbrev s31 : Fin (grid1.bound 1) := ⟨15, of_decide_eq_true rfl⟩

/-- the one chunk of worker 31 that exists: 504 * 31 = 15624 -/
abbrev gLast : Fin 15625 := ⟨15624, of_decide_eq_true rfl⟩

theorem tileChunks31 : tileChunks (cT c31) (sT s31) = {gLast} := by
  ext g
  simp only [tileChunks, Finset.mem_filter, Finset.mem_univ, true_and, Finset.mem_singleton]
  have hg := g.isLt
  constructor
  · intro h
    have h' : g.val / 504 = 2 * 15 + 1 := h
    exact Fin.ext (show g.val = 15624 by omega)
  · rintro rfl
    rfl

/-! ## The printed conditions at worker 31, decided over the trips -/

theorem l_g0T : ∀ k : Fin k1_t1_loop.trips, k.val = 0 → k1_cond5 (coordsV c31 s31) k = 1#1 := by decide +kernel
theorem l_g0F : ∀ k : Fin k1_t1_loop.trips, k.val ≠ 0 → ¬ k1_cond5 (coordsV c31 s31) k = 1#1 := by decide +kernel
theorem l_o0T : ∀ k : Fin k1_t1_loop.trips, k.val = 0 → k1_cond18 (coordsV c31 s31) k = 1#1 := by decide +kernel
theorem l_o0F : ∀ k : Fin k1_t1_loop.trips, k.val ≠ 0 → ¬ k1_cond18 (coordsV c31 s31) k = 1#1 := by decide +kernel
theorem l_g1F : ∀ k : Fin k1_t1_loop.trips, ¬ k1_cond7 (coordsV c31 s31) k = 1#1 := by decide +kernel
theorem l_g2F : ∀ k : Fin k1_t1_loop.trips, ¬ k1_cond9 (coordsV c31 s31) k = 1#1 := by decide +kernel
theorem l_g3F : ∀ k : Fin k1_t1_loop.trips, ¬ k1_cond11 (coordsV c31 s31) k = 1#1 := by decide +kernel
theorem l_g4F : ∀ k : Fin k1_t1_loop.trips, ¬ k1_cond13 (coordsV c31 s31) k = 1#1 := by decide +kernel
theorem l_g5F : ∀ k : Fin k1_t1_loop.trips, ¬ k1_cond15 (coordsV c31 s31) k = 1#1 := by decide +kernel
theorem l_g6F : ∀ k : Fin k1_t1_loop.trips, ¬ k1_cond17 (coordsV c31 s31) k = 1#1 := by decide +kernel
theorem l_o1F : ∀ k : Fin k1_t1_loop.trips, ¬ k1_cond19 (coordsV c31 s31) k = 1#1 := by decide +kernel
theorem l_o2F : ∀ k : Fin k1_t1_loop.trips, ¬ k1_cond20 (coordsV c31 s31) k = 1#1 := by decide +kernel
theorem l_o3F : ∀ k : Fin k1_t1_loop.trips, ¬ k1_cond21 (coordsV c31 s31) k = 1#1 := by decide +kernel
theorem l_o4F : ∀ k : Fin k1_t1_loop.trips, ¬ k1_cond22 (coordsV c31 s31) k = 1#1 := by decide +kernel
theorem l_o5F : ∀ k : Fin k1_t1_loop.trips, ¬ k1_cond23 (coordsV c31 s31) k = 1#1 := by decide +kernel
theorem l_o6F : ∀ k : Fin k1_t1_loop.trips, ¬ k1_cond24 (coordsV c31 s31) k = 1#1 := by decide +kernel

/-! ## The invariant of the last worker's loop -/

/-- slot 0 before trip k: its copy-out of chunk 15624 in flight before trip 1, idle otherwise -/
def LSlot0 (d : Dev nD) (k : ℕ) : sProp 𝕄 :=
  if k = 1 then iprop(∃ fR : Buf (Elt F) ((rwS).view.loc (thr d c31 s31)), Transfers.Flight (countersEmb (U := UU)) (thr d c31 s31) (SemLoc.dma cc1_scratch11.sem) (none : HIx 1) 524288
    iprop((outLoc d ↦[chunkSet gLast]{fullShare} outG m d) ∗ (slotM0).view.loc (thr d c31 s31) ↦[(slotM0).view.set]{fullShare} fR))
  else iprop(semVal (thr d c31 s31, SemLoc.dma cc1_scratch11.sem) 0 ∗ ∃ f : Buf (Elt F) ((rwS).view.loc (thr d c31 s31)), (slotM0).view.loc (thr d c31 s31) ↦[(slotM0).view.set]{fullShare} f)

/-- the chunk before trip k: untouched before trip 0, in flight before trip 1, written afterwards -/
def LChunk (d : Dev nD) (k : ℕ) : sProp 𝕄 :=
  if k = 0 then outChunk d gLast (m (outLoc d)) else if k = 1 then iprop(emp) else outChunk d gLast (outG m d)

/-- the copy-out semaphores of slots 1 .. 6 at zero, and those slots -/
def LIdle (d : Dev nD) : sProp 𝕄 :=
  iprop(semVal (thr d c31 s31, SemLoc.dma cc1_scratch12.sem) 0 ∗ semVal (thr d c31 s31, SemLoc.dma cc1_scratch13.sem) 0 ∗ semVal (thr d c31 s31, SemLoc.dma cc1_scratch14.sem) 0
    ∗ semVal (thr d c31 s31, SemLoc.dma cc1_scratch15.sem) 0 ∗ semVal (thr d c31 s31, SemLoc.dma cc1_scratch16.sem) 0 ∗ semVal (thr d c31 s31, SemLoc.dma cc1_scratch17.sem) 0
    ∗ ∃ f : Buf (Elt F) ((rwS).view.loc (thr d c31 s31)), (rwS).view.loc (thr d c31 s31) ↦[Finset.univ \ (slotM0).view.set]{fullShare} f)

/-- The loop's invariant before trip k. -/
def Inv31 (d : Dev nD) (tblS : Buf (Elt F) ((shS).view.loc (thr d c31 s31))) (O : CellTallies nD τ sig (HIx 1)) (W : Waits sig (HIx 1)) (k : ℕ) (_ : PUnit) : sProp 𝕄 :=
  iprop(Transfers.MayWaits (thr d c31 s31) (none : HIx 1) O ∗ IdxSt m d c31 s31 k ∗ LSlot0 m d k ∗ LIdle d ∗ LChunk m d k
    ∗ Toks d c31 s31 tblS ∗ GSems d c31 s31 ∗ Owes d c31 s31 O W)

end Cert.Proof.KB

end
-- ==== Proof.KBTileLastTrips.lean ====
/-
  The last worker's trips after trip 0. Trip 1 awaits slot 0's copy-out of chunk 15624 and has it written; a trip that is
  a multiple of four awaits the index prefetch and, but for the last stage, issues the next; any other trip does nothing at
  all (every printed condition is false at worker 31).
-/
import proofs.«203041_g70987219468541_cont_9to1_m_1244_31_alg».proof.Proof.KBTileLastInv
import proofs.«203041_g70987219468541_cont_9to1_m_1244_31_alg».proof.Proof.KBTileSetLemmas2
import proofs.«203041_g70987219468541_cont_9to1_m_1244_31_alg».proof.Proof.KBTileSetLemmas3
import proofs.«203041_g70987219468541_cont_9to1_m_1244_31_alg».proof.Proof.KBTileStage

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## The invariant's pieces from one trip to the next -/

/-- A held half keeps what it is known to hold under a weaker condition. -/
theorem halfHeld_mono (d : Dev nD) (c : Fin (grid1.bound 0)) (s : Fin (grid1.bound 1)) (h : Fin 2) {p p' : Prop} {j j' : ℕ}
    (hp : p' → p ∧ j = j') : HalfHeld m d c s h p j ⊢ HalfHeld m d c s h p' j' := by
  unfold HalfHeld
  iintro ⟨%f, %hf, H⟩
  iexists f
  isplitr
  · ipureintro
    intro hp'
    obtain ⟨h1, rfl⟩ := hp hp'
    exact hf h1
  · iexact H

/-- On a trip that is not a multiple of four the index prefetch's state is unchanged. -/
theorem idxSt_idle (d : Dev nD) (c : Fin (grid1.bound 0)) (s : Fin (grid1.bound 1)) (k : ℕ) (hk4 : k % 4 ≠ 0) :
    IdxSt m d c s k ⊢ IdxSt m d c s (k + 1) := by
  unfold IdxSt
  by_cases h68 : k ≤ 68
  · have h68' : k + 1 ≤ 68 := by omega
    rw [if_pos h68, if_pos h68', show (k + 1 + 3) / 4 = (k + 3) / 4 by omega]
    iintro ⟨Hp, Hh⟩
    isplitl [Hp]
    · iexact Hp
    · iapply (halfHeld_mono m d c s _ (p := k % 4 ≠ 0) (j := k / 4) (by omega))
      iexact Hh
  · rw [if_neg h68, if_neg (by omega)]

theorem lSlot0_idle (d : Dev nD) (k : ℕ) (hk : 2 ≤ k) : LSlot0 m d k = LSlot0 m d (k + 1) := by
  unfold LSlot0
  rw [if_neg (by omega), if_neg (by omega)]

theorem lChunk_idle (d : Dev nD) (k : ℕ) (hk : 2 ≤ k) : LChunk m d k = LChunk m d (k + 1) := by
  unfold LChunk
  rw [if_neg (by omega), if_neg (by omega), if_neg (by omega), if_neg (by omega)]

/-- The index prefetch's state while a copy is in flight, opened. -/
theorem idxSt_open (d : Dev nD) (c : Fin (grid1.bound 0)) (s : Fin (grid1.bound 1)) (k : ℕ) (h68 : k ≤ 68) :
    IdxSt m d c s k
      = iprop((Transfers.Flight (countersEmb (U := UU)) (thr d c s) (SemLoc.dma cc1_scratch3.sem) (none : HIx 1) 114688
            iprop(HalfHeld m d c s (halfOf ((k + 3) / 4)) True ((k + 3) / 4)
              ∗ (stM (wOf c s) (stJ ((k + 3) / 4))).view.loc (thr d c s) ↦[stSet (wOf c s) (stJ ((k + 3) / 4))]{qI c s} idxc m d)
          ∗ (idxV).view.loc (thr d c s) ↦[Finset.univ \ stSet (wOf c s) (stJ ((k + 3) / 4))]{qI c s} idxc m d)
        ∗ HalfHeld m d c s (halfOf ((k + 3) / 4 + 1)) (k % 4 ≠ 0) (k / 4)) := by
  unfold IdxSt PrefFlight
  rw [if_pos h68]

theorem stJ_eq (j : ℕ) (h : j < 18) : stJ j = ⟨j, h⟩ := Fin.ext (by show min j 17 = j; omega)

/-- The copy a prefetching trip issues is the prefetch of stage k / 4 + 1 in flight. -/
theorem prefFlight_intro (d : Dev nD) (c : Fin (grid1.bound 0)) (s : Fin (grid1.bound 1)) (k : Fin k1_t1_loop.trips)
    (h2 : k1_cond2 k = 1#1) (h3 : k1_cond3 k = 1#1) (fB : Buf (Elt F) ((ixS).view.loc (thr d c s))) :
    iprop(Transfers.Flight (countersEmb (U := UU)) (thr d c s) (SemLoc.dma cc1_scratch3.sem) (none : HIx 1) 114688
        iprop((((ixS).slice (Rect.unit (s := S7168) (k1_off2 k) S3584.size (k1_off2_inb k h2 h3)) (fun _ => rfl)).view.loc (thr d c s) ↦[((ixS).slice (Rect.unit (s := S7168) (k1_off2 k) S3584.size (k1_off2_inb k h2 h3)) (fun _ => rfl)).view.set]{fullShare}
              ((ixS).slice (Rect.unit (s := S7168) (k1_off2 k) S3584.size (k1_off2_inb k h2 h3)) (fun _ => rfl)).view.writes (Elt F) fB [⟨Rect.whole S3584, ReadAs.same.apply (((idxV).slice (Rect.unit (s := S2064384) (k1_off3 (coordsV c s) k) S3584.size (k1_off3_inb (coordsV c s) k h2 h3)) (fun _ => rfl)).view.read (Elt F) (idxc m d))⟩])
          ∗ (idxV).view.loc (thr d c s) ↦[((idxV).slice (Rect.unit (s := S2064384) (k1_off3 (coordsV c s) k) S3584.size (k1_off3_inb (coordsV c s) k h2 h3)) (fun _ => rfl)).view.set]{qI c s} idxc m d)
      ∗ (idxV).view.loc (thr d c s) ↦[Finset.univ \ ((idxV).slice (Rect.unit (s := S2064384) (k1_off3 (coordsV c s) k) S3584.size (k1_off3_inb (coordsV c s) k h2 h3)) (fun _ => rfl)).view.set]{qI c s} idxc m d)
    ⊢ PrefFlight m d c s (k.val / 4 + 1) := by
  have hD : iprop((((ixS).slice (Rect.unit (s := S7168) (k1_off2 k) S3584.size (k1_off2_inb k h2 h3)) (fun _ => rfl)).view.loc (thr d c s) ↦[((ixS).slice (Rect.unit (s := S7168) (k1_off2 k) S3584.size (k1_off2_inb k h2 h3)) (fun _ => rfl)).view.set]{fullShare}
              ((ixS).slice (Rect.unit (s := S7168) (k1_off2 k) S3584.size (k1_off2_inb k h2 h3)) (fun _ => rfl)).view.writes (Elt F) fB [⟨Rect.whole S3584, ReadAs.same.apply (((idxV).slice (Rect.unit (s := S2064384) (k1_off3 (coordsV c s) k) S3584.size (k1_off3_inb (coordsV c s) k h2 h3)) (fun _ => rfl)).view.read (Elt F) (idxc m d))⟩])
          ∗ (idxV).view.loc (thr d c s) ↦[((idxV).slice (Rect.unit (s := S2064384) (k1_off3 (coordsV c s) k) S3584.size (k1_off3_inb (coordsV c s) k h2 h3)) (fun _ => rfl)).view.set]{qI c s} idxc m d)
      ⊢ iprop(HalfHeld m d c s (halfOf (k.val / 4 + 1)) True (k.val / 4 + 1)
          ∗ (stM (wOf c s) ⟨k.val / 4 + 1, cond3_lt k h3⟩).view.loc (thr d c s) ↦[((idxV).slice (Rect.unit (s := S2064384) (k1_off3 (coordsV c s) k) S3584.size (k1_off3_inb (coordsV c s) k h2 h3)) (fun _ => rfl)).view.set]{qI c s} idxc m d) := by
    iintro ⟨Hd, Hs⟩
    isplitl [Hd]
    · unfold HalfHeld
      iexists (((ixS).slice (Rect.unit (s := S7168) (k1_off2 k) S3584.size (k1_off2_inb k h2 h3)) (fun _ => rfl)).view.writes (Elt F) fB [⟨Rect.whole S3584, ReadAs.same.apply (((idxV).slice (Rect.unit (s := S2064384) (k1_off3 (coordsV c s) k) S3584.size (k1_off3_inb (coordsV c s) k h2 h3)) (fun _ => rfl)).view.read (Elt F) (idxc m d))⟩])
      isplitr
      · ipureintro; intro _; exact stageAt_landedK m d c s k h2 h3 fB
      · iapply (Entails.of_eq (pts_pref d c s k h2 h3 fullShare _)); iexact Hd
    · iexact Hs
  unfold PrefFlight
  rw [stJ_eq (k.val / 4 + 1) (cond3_lt k h3), ← set_st c s k h2 h3]
  iintro ⟨Hf, Hr⟩
  isplitl [Hf]
  · iapply (Transfers.Flight_mono (countersEmb (U := UU)) (thr d c s) hD); iexact Hf
  · iexact Hr

/-- After a prefetching trip: the next stage in flight, the landed half held. -/
theorem idxSt_close (d : Dev nD) (c : Fin (grid1.bound 0)) (s : Fin (grid1.bound 1)) (k : ℕ) (hk4 : k % 4 = 0) (hk : k ≤ 64) :
    iprop(PrefFlight m d c s (k / 4 + 1) ∗ HalfHeld m d c s (halfOf (k / 4)) True (k / 4)) ⊢ IdxSt m d c s (k + 1) := by
  unfold IdxSt
  rw [if_pos (show k + 1 ≤ 68 by omega), show (k + 1 + 3) / 4 = k / 4 + 1 by omega,
    show halfOf (k / 4 + 1 + 1) = halfOf (k / 4) from Fin.ext (by show (k / 4 + 1 + 1) % 2 = (k / 4) % 2; omega)]
  iintro ⟨Hp, Hh⟩
  isplitl [Hp]
  · iexact Hp
  · iapply (halfHeld_mono m d c s _ (p := True) (j := k / 4) (fun _ => ⟨trivial, by omega⟩)); iexact Hh

/-- After the last stage has landed: nothing in flight, half 1 holds stage 17. -/
theorem idxSt_close68 (d : Dev nD) (c : Fin (grid1.bound 0)) (s : Fin (grid1.bound 1)) :
    iprop(semVal (thr d c s, SemLoc.dma cc1_scratch3.sem) 0 ∗ ((idxV).view.loc (thr d c s) ↦{qI c s} idxc m d)
        ∗ HalfHeld m d c s (halfOf 17) True 17 ∗ HalfHeld m d c s (halfOf (17 + 1)) False 0) ⊢ IdxSt m d c s (68 + 1) := by
  unfold IdxSt
  rw [if_neg (by decide)]

theorem trip31_idle (d : Dev nD) (tblS : Buf (Elt F) ((shS).view.loc (thr d c31 s31))) (O : CellTallies nD τ sig (HIx 1)) (W : Waits sig (HIx 1))
    (k : Fin k1_t1_loop.trips) (hk2 : 2 ≤ k.val) (hk4 : k.val % 4 ≠ 0) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  unfold k1_t1_body
  rw [k1_part1_eq_skeleton, k1_part2_eq_skeleton, k1_part3_eq_skeleton, k1_part4_eq_skeleton]
  unfold k1_part1_skel k1_part2_skel k1_part3_skel k1_part4_skel
  unfold Inv31
  iintro ⟨#Hmw, Hidx, Hs0, Hidle, Hch, Htok, Hgs, HO⟩
  set_option sl_exec.dischHeartbeats 400000 in
  sl_exec (disch := first | sl_exact (h2F k hk4) | sl_exact (l_g0F k (by omega)) | sl_exact (l_o0F k (by omega)) | sl_exact (l_g1F k) | sl_exact (l_g2F k) | sl_exact (l_g3F k) | sl_exact (l_g4F k) | sl_exact (l_g5F k) | sl_exact (l_g6F k) | sl_exact (l_o1F k) | sl_exact (l_o2F k) | sl_exact (l_o3F k) | sl_exact (l_o4F k) | sl_exact (l_o5F k) | sl_exact (l_o6F k) | (revert hk2 hk4; revert k; decide +kernel))
  rw [wp_ret]; imodintro
  isplitr
  · iexact Hmw
  isplitl [Hidx]
  · iapply (idxSt_idle m d c31 s31 k.val hk4); iexact Hidx
  isplitl [Hs0]
  · rw [← lSlot0_idle m d k.val hk2]; iexact Hs0
  isplitl [Hidle]
  · iexact Hidle
  isplitl [Hch]
  · rw [← lChunk_idle m d k.val hk2]; iexact Hch
  isplitl [Htok]
  · iexact Htok
  isplitl [Hgs]
  · iexact Hgs
  iexact HO

theorem trip31_one (d : Dev nD) (tblS : Buf (Elt F) ((shS).view.loc (thr d c31 s31))) (O : CellTallies nD τ sig (HIx 1)) (W : Waits sig (HIx 1))
    (k : Fin k1_t1_loop.trips) (hk1 : k.val = 1) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  unfold k1_t1_body
  rw [k1_part1_eq_skeleton, k1_part2_eq_skeleton, k1_part3_eq_skeleton, k1_part4_eq_skeleton]
  unfold k1_part1_skel k1_part2_skel k1_part3_skel k1_part4_skel
  unfold Inv31
  have hk4 : k.val % 4 ≠ 0 := by omega
  rw [hk1]
  unfold LSlot0 LChunk Owes
  rw [if_pos rfl, if_neg (by decide), if_pos rfl]
  iintro ⟨#Hmw, Hidx, ⟨%fR, Hfl⟩, Hidle, -, Htok, Hgs, ⟨%W', %hW', HO⟩⟩
  set_option sl_exec.dischHeartbeats 400000 in
  sl_exec (disch := first | sl_exact (h2F k hk4) | sl_exact (l_g0F k (by omega)) | sl_exact (l_o0F k (by omega)) | sl_exact (l_g1F k) | sl_exact (l_g2F k) | sl_exact (l_g3F k) | sl_exact (l_g4F k) | sl_exact (l_g5F k) | sl_exact (l_g6F k) | sl_exact (l_o1F k) | sl_exact (l_o2F k) | sl_exact (l_o3F k) | sl_exact (l_o4F k) | sl_exact (l_o5F k) | sl_exact (l_o6F k) | (clear hW' W' fR; revert hk1 hk4; revert k; decide +kernel))
  rw [wp_ret]; imodintro
  rw [if_neg (by decide), if_neg (by decide), if_neg (by decide)]
  isplitr
  · iexact Hmw
  isplitl [Hidx]
  · iapply (idxSt_idle m d c31 s31 1 (by decide)); iexact Hidx
  isplitl [Hfl Hfl_src]
  · isplitl [Hfl]
    · iexact Hfl
    · iexists fR; iexact Hfl_src
  isplitl [Hidle]
  · iexact Hidle
  isplitl [Hfl_dst]
  · iexact Hfl_dst
  isplitl [Htok]
  · iexact Htok
  isplitl [Hgs]
  · iexact Hgs
  iexists (insert (SemLoc.dma cc1_scratch11.sem, (none : HIx 1)) W')
  isplitr
  · ipureintro
    intro p hp
    rcases Finset.mem_insert.mp hp with rfl | hp
    · exact Or.inr (Or.inl rfl)
    · exact hW' p hp
  · iexact HO

theorem trip31_pref (d : Dev nD) (tblS : Buf (Elt F) ((shS).view.loc (thr d c31 s31))) (O : CellTallies nD τ sig (HIx 1)) (W : Waits sig (HIx 1))
    (k : Fin k1_t1_loop.trips) (hk4 : k.val % 4 = 0) (hk0 : 4 ≤ k.val) (hk : k.val ≤ 64) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  have e1 : (k.val + 3) / 4 = k.val / 4 := by omega
  unfold k1_t1_body
  rw [k1_part1_eq_skeleton, k1_part2_eq_skeleton, k1_part3_eq_skeleton, k1_part4_eq_skeleton]
  unfold k1_part1_skel k1_part2_skel k1_part3_skel k1_part4_skel
  unfold Inv31 Owes
  iintro ⟨#Hmw, Hidx, Hs0, Hidle, Hch, Htok, Hgs, ⟨%W', %hW', HO⟩⟩
  ihave Hi := (Entails.of_eq (idxSt_open m d c31 s31 k.val (by omega))) $$ Hidx
  rw [e1]
  icases Hi with ⟨⟨Hpf, Hrest⟩, Hoth⟩
  sl_exec (disch := first | sl_exact (h2T k hk4) | sl_exact (h3T k (by omega)))
  unfold HalfHeld
  icases Hpf_dst with ⟨%fA, %hA, HhalfA⟩
  icases Hoth with ⟨%fB, -, HhalfB⟩
  ihave HhalfB' := (Entails.of_eq (pts_pref d c31 s31 k (h2T k hk4) (h3T k (by omega)) fullShare fB).symm) $$ HhalfB
  ihave Hidx := (Entails.of_eq (show ((stM (wOf c31 s31) (stJ (k.val / 4))).view.loc (thr d c31 s31) ↦{qI c31 s31} idxc m d : sProp 𝕄)
      = ((idxV).view.loc (thr d c31 s31) ↦{qI c31 s31} idxc m d) from rfl)) $$ Hrest
  set_option sl_exec.dischHeartbeats 400000 in
  sl_exec (disch := first | sl_exact (h2T k hk4) | sl_exact (h3T k (by omega)) | sl_exact (l_g0F k (by omega)) | sl_exact (l_o0F k (by omega)) | sl_exact (l_g1F k) | sl_exact (l_g2F k) | sl_exact (l_g3F k) | sl_exact (l_g4F k) | sl_exact (l_g5F k) | sl_exact (l_g6F k) | sl_exact (l_o1F k) | sl_exact (l_o2F k) | sl_exact (l_o3F k) | sl_exact (l_o4F k) | sl_exact (l_o5F k) | sl_exact (l_o6F k) | (clear hA fA fB hW' W'; revert hk4 hk0 hk; revert k; decide +kernel))
  rw [wp_ret]; imodintro
  ihave Hpf' := (prefFlight_intro m d c31 s31 k (h2T k hk4) (h3T k (by omega)) fB) $$ [Hpf Hidx]
  · isplitl [Hpf]
    · iexact Hpf
    · iexact Hidx
  isplitr
  · iexact Hmw
  isplitl [Hpf' HhalfA]
  · iapply (idxSt_close m d c31 s31 k.val hk4 hk)
    isplitl [Hpf']
    · iexact Hpf'
    · unfold HalfHeld
      iexists fA
      isplitr
      · ipureintro; exact hA
      · iexact HhalfA
  isplitl [Hs0]
  · rw [← lSlot0_idle m d k.val (by omega)]; iexact Hs0
  isplitl [Hidle]
  · iexact Hidle
  isplitl [Hch]
  · rw [← lChunk_idle m d k.val (by omega)]; iexact Hch
  isplitl [Htok]
  · iexact Htok
  isplitl [Hgs]
  · iexact Hgs
  iexists (insert (SemLoc.dma cc1_scratch3.sem, (none : HIx 1)) W')
  isplitr
  · ipureintro
    intro p hp
    rcases Finset.mem_insert.mp hp with rfl | hp
    · exact Or.inr (Or.inl rfl)
    · exact hW' p hp
  · iexact HO

theorem trip31_w68 (d : Dev nD) (tblS : Buf (Elt F) ((shS).view.loc (thr d c31 s31))) (O : CellTallies nD τ sig (HIx 1)) (W : Waits sig (HIx 1))
    (k : Fin k1_t1_loop.trips) (hk68 : k.val = 68) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  unfold k1_t1_body
  rw [k1_part1_eq_skeleton, k1_part2_eq_skeleton, k1_part3_eq_skeleton, k1_part4_eq_skeleton]
  unfold k1_part1_skel k1_part2_skel k1_part3_skel k1_part4_skel
  unfold Inv31 Owes
  rw [hk68]
  iintro ⟨#Hmw, Hidx, Hs0, Hidle, Hch, Htok, Hgs, ⟨%W', %hW', HO⟩⟩
  ihave Hi := (Entails.of_eq (idxSt_open m d c31 s31 68 (by decide))) $$ Hidx
  rw [show (68 + 3) / 4 = 17 from rfl]
  icases Hi with ⟨⟨Hpf, Hrest⟩, Hoth⟩
  set_option sl_exec.dischHeartbeats 400000 in
  sl_exec (disch := first | sl_exact (h2T k (by omega)) | sl_exact (h3F k (by omega)) | sl_exact (l_g0F k (by omega)) | sl_exact (l_o0F k (by omega)) | sl_exact (l_g1F k) | sl_exact (l_g2F k) | sl_exact (l_g3F k) | sl_exact (l_g4F k) | sl_exact (l_g5F k) | sl_exact (l_g6F k) | sl_exact (l_o1F k) | sl_exact (l_o2F k) | sl_exact (l_o3F k) | sl_exact (l_o4F k) | sl_exact (l_o5F k) | sl_exact (l_o6F k) | (clear hW' W'; revert hk68; revert k; decide +kernel))
  rw [wp_ret]; imodintro
  isplitr
  · iexact Hmw
  isplitl [Hpf Hrest Hpf_dst Hoth]
  · iapply (idxSt_close68 m d c31 s31)
    isplitl [Hpf]
    · iexact Hpf
    isplitl [Hrest]
    · iexact Hrest
    isplitl [Hpf_dst]
    · iexact Hpf_dst
    · iapply (halfHeld_mono m d c31 s31 _ (p := 68 % 4 ≠ 0) (j := 68 / 4) (fun h => h.elim)); iexact Hoth
  isplitl [Hs0]
  · rw [← lSlot0_idle m d 68 (by decide)]; iexact Hs0
  isplitl [Hidle]
  · iexact Hidle
  isplitl [Hch]
  · rw [← lChunk_idle m d 68 (by decide)]; iexact Hch
  isplitl [Htok]
  · iexact Htok
  isplitl [Hgs]
  · iexact Hgs
  iexists (insert (SemLoc.dma cc1_scratch3.sem, (none : HIx 1)) W')
  isplitr
  · ipureintro
    intro p hp
    rcases Finset.mem_insert.mp hp with rfl | hp
    · exact Or.inr (Or.inl rfl)
    · exact hW' p hp
  · iexact HO

end Cert.Proof.KB

end
-- ==== Proof.KBTileLastZero.lean ====
/-
  The last worker's trip 0: it awaits stage 0 of the index prefetch and issues stage 1, gathers through slot 0 the rows
  the 128 indices of its list 0 name and copies them out to chunk 15624. What the copy-out writes is the result's values:
  taken here as a hypothesis on the gathered payload.
-/
import proofs.«203041_g70987219468541_cont_9to1_m_1244_31_alg».proof.Proof.KBTileLastTrips

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-- The words of trip k's list 0 name rows of the 128-row table once the half holds the trip's stage. -/
theorem list0_read_lt (hpre : PreOK m) (d : Dev nD) (c : Fin (grid1.bound 0)) (s : Fin (grid1.bound 1)) (k : Fin k1_t1_loop.trips)
    (hc : k1_cond5 (coordsV c s) k = 1#1) (fA : Buf (Elt F) ((ixS).view.loc (thr d c s)))
    (hst : StageAt m d c s (halfOf (k.val / 4)) (k.val / 4) fA) :
    ∀ x, BitVec.toNat (((ixS).slice (Rect.unit (s := S7168) (k1_off4 k) S128.size (k1_off4_inb (coordsV c s) k hc)) (fun _ => rfl)).view.read (Elt F) fA x) < 128 := by
  intro x
  rw [View.read_apply]
  have h4 : k1_off4 k 0 = 3584 * ((k.val / 4) % 2) + 896 * (k.val % 4) := congrFun (k1_off4_eq k) 0
  have e : ((ixS).slice (Rect.unit (s := S7168) (k1_off4 k) S128.size (k1_off4_inb (coordsV c s) k hc)) (fun _ => rfl)).view.emb x = (pcM (listOf k ⟨0, of_decide_eq_true rfl⟩)).view.emb x := by
    funext a
    fin_cases a
    refine Fin.ext ?_
    show k1_off4 k 0 + 1 * (x 0).val = 128 * (28 * ((k.val / 4) % 2) + 7 * (k.val % 4) + 0) + 1 * (x 0).val
    rw [h4]
    omega
  rw [e, stageAt_list m d c s (halfOf (k.val / 4)) (k.val / 4) fA hst k rfl rfl ⟨0, of_decide_eq_true rfl⟩ x]
  exact idxOf_lt _ (hpre d) _

theorem bigSep_fin7L (Φ : Fin 7 → sProp 𝕄) :
    bigSep Finset.univ Φ = iprop(Φ ⟨0, of_decide_eq_true rfl⟩ ∗ Φ ⟨1, of_decide_eq_true rfl⟩ ∗ Φ ⟨2, of_decide_eq_true rfl⟩ ∗ Φ ⟨3, of_decide_eq_true rfl⟩ ∗ Φ ⟨4, of_decide_eq_true rfl⟩ ∗ Φ ⟨5, of_decide_eq_true rfl⟩ ∗ Φ ⟨6, of_decide_eq_true rfl⟩) := bigSep_fin7 Φ

theorem chunkOf31 (k : Fin k1_t1_loop.trips) (hk0 : k.val = 0) (h : 504 * (wOf c31 s31).val + 7 * k.val + 0 < 15625) :
    chunkOf (wOf c31 s31) k ⟨0, of_decide_eq_true rfl⟩ h = gLast :=
  Fin.ext (by show 504 * (2 * 15 + 1) + 7 * k.val + 0 = 15624; omega)

/-- Slot 0's copy-out of chunk 15624 in flight, once what it writes is known to be the result's values. -/
theorem lslot0_intro (d : Dev nD) (k : Fin k1_t1_loop.trips) (hk0 : k.val = 0) (hc18 : k1_cond18 (coordsV c31 s31) k = 1#1)
    (h504 : 504 * (wOf c31 s31).val + 7 * k.val + 0 < 15625)
    (fR' : Buf (Elt F) ((rwS).view.loc (thr d c31 s31))) (Wc : Buf (Elt F) (outLoc d)) (hW : ∀ i ∈ chunkSet gLast, Wc i = outG m d i) :
    (Transfers.Flight (countersEmb (U := UU)) (thr d c31 s31) (SemLoc.dma cc1_scratch11.sem) (none : HIx 1) 524288
        iprop((((outW).slice (Rect.unit (s := S2000000x128) (k1_off12 (coordsV c31 s31) k) S128x128.size (k1_off12_inb (coordsV c31 s31) k hc18)) (fun _ => rfl)).view.loc (thr d c31 s31) ↦[((outW).slice (Rect.unit (s := S2000000x128) (k1_off12 (coordsV c31 s31) k) S128x128.size (k1_off12_inb (coordsV c31 s31) k hc18)) (fun _ => rfl)).view.set]{fullShare} Wc)
          ∗ (slotM0).view.loc (thr d c31 s31) ↦[(slotM0).view.set]{fullShare} fR') : sProp 𝕄)
      ⊢ iprop(∃ fR : Buf (Elt F) ((rwS).view.loc (thr d c31 s31)), Transfers.Flight (countersEmb (U := UU)) (thr d c31 s31) (SemLoc.dma cc1_scratch11.sem) (none : HIx 1) 524288
          iprop((outLoc d ↦[chunkSet gLast]{fullShare} outG m d) ∗ (slotM0).view.loc (thr d c31 s31) ↦[(slotM0).view.set]{fullShare} fR)) := by
  have hD : iprop((((outW).slice (Rect.unit (s := S2000000x128) (k1_off12 (coordsV c31 s31) k) S128x128.size (k1_off12_inb (coordsV c31 s31) k hc18)) (fun _ => rfl)).view.loc (thr d c31 s31) ↦[((outW).slice (Rect.unit (s := S2000000x128) (k1_off12 (coordsV c31 s31) k) S128x128.size (k1_off12_inb (coordsV c31 s31) k hc18)) (fun _ => rfl)).view.set]{fullShare} Wc)
          ∗ (slotM0).view.loc (thr d c31 s31) ↦[(slotM0).view.set]{fullShare} fR')
      ⊢ (iprop((outLoc d ↦[chunkSet gLast]{fullShare} outG m d) ∗ (slotM0).view.loc (thr d c31 s31) ↦[(slotM0).view.set]{fullShare} fR') : sProp 𝕄) := by
    iintro ⟨Hd, Hs⟩
    isplitl [Hd]
    · iapply (Entails.of_eq (pointsTo_congr (ℓ := outLoc d) (q := fullShare) hW))
      iapply (Entails.of_eq ((pts_chunk0 d c31 s31 k hc18 h504 fullShare Wc).trans (by rw [chunkOf31 k hk0 h504])))
      iexact Hd
    · iexact Hs
  iintro Hf
  iexists fR'
  iapply (Transfers.Flight_mono (countersEmb (U := UU)) (thr d c31 s31) hD)
  iexact Hf

/-- What trip 0 asks of the values: whatever slot 0 and the index scratch held, once half 0 holds stage 0 the copy-out of
    the rows gathered at list 0's indices writes the result's values into chunk 15624. -/
def LastValue (d : Dev nD) (tblS : Buf (Elt F) ((shS).view.loc (thr d c31 s31))) (k : Fin k1_t1_loop.trips) : Prop :=
  ∀ (fR0 : Buf (Elt F) ((rwS).view.loc (thr d c31 s31))) (fA : Buf (Elt F) ((ixS).view.loc (thr d c31 s31))) (hc5 : k1_cond5 (coordsV c31 s31) k = 1#1) (hc18 : k1_cond18 (coordsV c31 s31) k = 1#1)
      (_hst : StageAt m d c31 s31 (halfOf (k.val / 4)) (k.val / 4) fA) (hin0 : ∀ x, BitVec.toNat (((ixS).slice (Rect.unit (s := S7168) (k1_off4 k) S128.size (k1_off4_inb (coordsV c31 s31) k hc5)) (fun _ => rfl)).view.read (Elt F) fA x) < 128),
      ∀ i ∈ chunkSet gLast, (((outW).slice (Rect.unit (s := S2000000x128) (k1_off12 (coordsV c31 s31) k) S128x128.size (k1_off12_inb (coordsV c31 s31) k hc18)) (fun _ => rfl)).view.writes (Elt F) (m (outLoc d)) [⟨Rect.whole S128x128, ReadAs.same.apply ((slotM0).view.read (Elt F) ((slotM0).view.writes (Elt F) fR0 [⟨Rect.whole S128x128, (SparseCore.gatherPayload gathers_S128x128_S128x128 (((shS).slice (Rect.unit (s := S128x128) ![0, 0] S128x128.size inb_S128x128_S128x128_0_0) (fun _ => rfl)).view.read (Elt F) tblS) (SparseCore.rows (((ixS).slice (Rect.unit (s := S7168) (k1_off4 k) S128.size (k1_off4_inb (coordsV c31 s31) k hc5)) (fun _ => rfl)).view.read (Elt F) fA) rfl hin0))⟩]))⟩]) i = outG m d i

theorem trip31_zero (d : Dev nD) (tblS : Buf (Elt F) ((shS).view.loc (thr d c31 s31))) (O : CellTallies nD τ sig (HIx 1)) (W : Waits sig (HIx 1))
    (k : Fin k1_t1_loop.trips) (hk0 : k.val = 0) (hpre : PreOK m)
    (hval : LastValue m d tblS k) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  have hk4 : k.val % 4 = 0 := by omega
  unfold LastValue at hval
  have h504 : 504 * (wOf c31 s31).val + 7 * k.val + 0 < 15625 := by show 504 * (2 * 15 + 1) + 7 * k.val + 0 < 15625; omega
  unfold k1_t1_body
  rw [k1_part1_eq_skeleton, k1_part2_eq_skeleton, k1_part3_eq_skeleton, k1_part4_eq_skeleton]
  unfold k1_part1_skel k1_part2_skel k1_part3_skel k1_part4_skel
  unfold Inv31 Owes LSlot0 LChunk Toks GSems
  rw [hk0, if_neg (show ¬ (0 = 1) by decide), if_pos (show 0 = 0 from rfl), if_pos (show 0 + 1 = 1 from rfl), if_neg (show ¬ (0 + 1 = 0) by decide), if_pos (show 0 + 1 = 1 from rfl)]
  iintro ⟨#Hmw, Hidx, ⟨Hsem12, ⟨%fR0, Hslot0⟩⟩, Hidle, Hchunk, ⟨Hsh0, Hsh1, Hsh2, Hsh3, Hsh4, Hsh5, Hsh6⟩, ⟨Hg0, Hg1, Hg2, Hg3, Hg4, Hg5, Hg6⟩, ⟨%W', %hW', HO⟩⟩
  ihave Hi := (Entails.of_eq (idxSt_open m d c31 s31 0 (by decide))) $$ Hidx
  rw [show (0 + 3) / 4 = 0 from rfl]
  icases Hi with ⟨⟨Hpf, Hrest⟩, Hoth⟩
  sl_exec (disch := first | sl_exact (h2T k hk4) | sl_exact (h3T k (by omega)))
  unfold HalfHeld
  icases Hpf_dst with ⟨%fA, %hA, HhalfA⟩
  icases Hoth with ⟨%fB, -, HhalfB⟩
  have e01 : halfOf (0 + 1) = halfOf (k.val / 4 + 1) := by rw [hk0]
  have e00 : halfOf 0 = halfOf (k.val / 4) := by rw [hk0]
  rw [e01, e00]
  ihave HhalfB' := (Entails.of_eq (pts_pref d c31 s31 k (h2T k hk4) (h3T k (by omega)) fullShare fB).symm) $$ HhalfB
  ihave Hidx := (Entails.of_eq (show ((stM (wOf c31 s31) (stJ 0)).view.loc (thr d c31 s31) ↦{qI c31 s31} idxc m d : sProp 𝕄)
      = ((idxV).view.loc (thr d c31 s31) ↦{qI c31 s31} idxc m d) from rfl)) $$ Hrest
  have hst : StageAt m d c31 s31 (halfOf (k.val / 4)) (k.val / 4) fA := by
    rw [show k.val / 4 = 0 by omega]
    exact hA trivial
  have hin0 := list0_read_lt m hpre d c31 s31 k (l_g0T k hk0) fA hst
  ihave Hsp := (Entails.of_eq (half_split d c31 s31 (halfOf (k.val / 4)) k rfl fullShare fA)) $$ HhalfA
  icases Hsp with ⟨Hlists, HrestA⟩
  ihave Hl := (Entails.of_eq (bigSep_fin7L (F := F) (fun b : Fin 7 => (pcM (listOf k b)).view.loc (thr d c31 s31) ↦[pcSet (listOf k b)]{fullShare} fA))) $$ Hlists
  icases Hl with ⟨Hix0, Hix1, Hix2, Hix3, Hix4, Hix5, Hix6⟩
  ihave Hix0' := (Entails.of_eq (pts_list0 d c31 s31 k (l_g0T k hk0) fullShare fA).symm) $$ Hix0
  ihave Hchunk' := (Entails.of_eq ((pts_chunk0 d c31 s31 k (l_o0T k hk0) h504 fullShare (m (outLoc d))).trans (by rw [chunkOf31 k hk0 h504])).symm) $$ Hchunk
  set_option sl_exec.dischHeartbeats 400000 in
  sl_exec (disch := first | sl_exact (h2T k hk4) | sl_exact (h3T k (by omega)) | sl_exact (l_g0T k hk0) | sl_exact (l_o0T k hk0) | sl_exact (l_g1F k) | sl_exact (l_g2F k) | sl_exact (l_g3F k) | sl_exact (l_g4F k) | sl_exact (l_g5F k) | sl_exact (l_g6F k) | sl_exact (l_o1F k) | sl_exact (l_o2F k) | sl_exact (l_o3F k) | sl_exact (l_o4F k) | sl_exact (l_o5F k) | sl_exact (l_o6F k) | (clear hval hin0 hst hA fA fB fR0 hW' W' e01 e00; revert hk4 hk0 h504; revert k; decide +kernel))
  rw [wp_ret]; imodintro
  -- the next stage's prefetch in flight
  ihave Hpf' := (prefFlight_intro m d c31 s31 k (h2T k hk4) (h3T k (by omega)) fB) $$ [Hpf Hidx]
  · isplitl [Hpf]
    · iexact Hpf
    · iexact Hidx
  ihave Hpf'' := (Entails.of_eq (show PrefFlight m d c31 s31 (k.val / 4 + 1) = PrefFlight m d c31 s31 (0 / 4 + 1) by rw [hk0])) $$ Hpf'
  -- the lists back into the half
  ihave Hix0 := (Entails.of_eq (pts_list0 d c31 s31 k (l_g0T k hk0) fullShare fA)) $$ Hix0'
  ihave Hlists := (Entails.of_eq (bigSep_fin7L (F := F) (fun b : Fin 7 => (pcM (listOf k b)).view.loc (thr d c31 s31) ↦[pcSet (listOf k b)]{fullShare} fA)).symm) $$ [Hix0 Hix1 Hix2 Hix3 Hix4 Hix5 Hix6]
  ·
    isplitl [Hix0]
    · iexact Hix0
    isplitl [Hix1]
    · iexact Hix1
    isplitl [Hix2]
    · iexact Hix2
    isplitl [Hix3]
    · iexact Hix3
    isplitl [Hix4]
    · iexact Hix4
    isplitl [Hix5]
    · iexact Hix5
    iexact Hix6
  ihave HhalfA := (Entails.of_eq (half_split d c31 s31 (halfOf (k.val / 4)) k rfl fullShare fA).symm) $$ [Hlists HrestA]
  · isplitl [Hlists]
    · iexact Hlists
    · iexact HrestA
  ihave HhalfA' := (Entails.of_eq (show ((halfM (halfOf (k.val / 4))).view.loc (thr d c31 s31) ↦[halfSet (halfOf (k.val / 4))]{fullShare} fA : sProp 𝕄)
      = ((halfM (halfOf (0 / 4))).view.loc (thr d c31 s31) ↦[halfSet (halfOf (0 / 4))]{fullShare} fA) by rw [hk0])) $$ HhalfA
  isplitr
  · iexact Hmw
  isplitl [Hpf'' HhalfA']
  · iapply (idxSt_close m d c31 s31 0 rfl (by decide))
    isplitl [Hpf'']
    · iexact Hpf''
    · unfold HalfHeld
      iexists fA
      isplitr
      · ipureintro; exact hA
      · iexact HhalfA'
  isplitl [Hsem12]
  · iapply (lslot0_intro m d k hk0 (l_o0T k hk0) h504
      ((slotM0).view.writes (Elt F) fR0 [⟨Rect.whole S128x128, SparseCore.gatherPayload gathers_S128x128_S128x128 (((shS).slice (Rect.unit (s := S128x128) ![0, 0] S128x128.size inb_S128x128_S128x128_0_0) (fun _ => rfl)).view.read (Elt F) tblS) (SparseCore.rows (((ixS).slice (Rect.unit (s := S7168) (k1_off4 k) S128.size (k1_off4_inb (coordsV c31 s31) k (l_g0T k hk0))) (fun _ => rfl)).view.read (Elt F) fA) rfl hin0)⟩])
      _ (hval fR0 fA (l_g0T k hk0) (l_o0T k hk0) hst hin0))
    iexact Hsem12
  isplitl [Hidle]
  · iexact Hidle
  isplitr
  · iempintro
  isplitl [Hsh0 Hsh1 Hsh2 Hsh3 Hsh4 Hsh5 Hsh6]
  ·
    isplitl [Hsh0]
    · iexact Hsh0
    isplitl [Hsh1]
    · iexact Hsh1
    isplitl [Hsh2]
    · iexact Hsh2
    isplitl [Hsh3]
    · iexact Hsh3
    isplitl [Hsh4]
    · iexact Hsh4
    isplitl [Hsh5]
    · iexact Hsh5
    iexact Hsh6
  isplitl [Hg0 Hg1 Hg2 Hg3 Hg4 Hg5 Hg6]
  ·
    isplitl [Hg0]
    · iexact Hg0
    isplitl [Hg1]
    · iexact Hg1
    isplitl [Hg2]
    · iexact Hg2
    isplitl [Hg3]
    · iexact Hg3
    isplitl [Hg4]
    · iexact Hg4
    isplitl [Hg5]
    · iexact Hg5
    iexact Hg6
  iexists (insert (SemLoc.dma cc1_scratch4.sem, (none : HIx 1)) (insert (SemLoc.dma cc1_scratch3.sem, (none : HIx 1)) W'))
  isplitr
  · ipureintro
    intro p hp
    rcases Finset.mem_insert.mp hp with rfl | hp
    · exact Or.inr (Or.inl rfl)
    rcases Finset.mem_insert.mp hp with rfl | hp
    · exact Or.inr (Or.inl rfl)
    · exact hW' p hp
  · iexact HO

end Cert.Proof.KB

end
-- ==== Proof.KBTileLastAll.lean ====
/-
  Every trip of the last worker's loop keeps its invariant: the five cases (trip 0, trip 1, a prefetching trip, the last
  stage's wait, a trip that does nothing), with trip 0's value fact supplied by the copy-out's value lemma at chunk 15624.
-/
import proofs.«203041_g70987219468541_cont_9to1_m_1244_31_alg».proof.Proof.KBTileLastZero
import proofs.«203041_g70987219468541_cont_9to1_m_1244_31_alg».proof.Proof.KBTileValue

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-- Trip 0's copy-out writes the result's values into chunk 15624. -/
theorem lastValue_holds (hpre : PreOK m) (d : Dev nD) (tblS : Buf (Elt F) ((shS).view.loc (thr d c31 s31))) (htbl : TableOK m d tblS)
    (k : Fin k1_t1_loop.trips) (hk0 : k.val = 0) : LastValue m d tblS k := by
  unfold LastValue
  intro fR0 fA hc5 hc18 hst hin0 i hi
  have hg : 504 * (wOf c31 s31).val + 7 * k.val + 0 < 15625 := by
    show 504 * (2 * 15 + 1) + 7 * k.val + 0 < 15625
    omega
  have e : chunkIx c31 s31 k.val 0 = gLast := Fin.ext (by
    show min (504 * (2 * 15 + 1) + (7 * k.val + 0)) 15624 = 15624
    omega)
  have hi' : i ∈ chunkSet (chunkIx c31 s31 k.val 0) := by rw [e]; exact hi
  exact copy_value0 m d c31 s31 hpre k hg hc18 hc5 tblS htbl fA hst fR0 (m (outLoc d)) rfl hin0 i hi'

set_option maxHeartbeats 2000000 in
/-- Every trip of the last worker's loop keeps the invariant. -/
theorem trip31 (hpre : PreOK m) (d : Dev nD) (tblS : Buf (Elt F) ((shS).view.loc (thr d c31 s31))) (htbl : TableOK m d tblS)
    (O : CellTallies nD τ sig (HIx 1)) (W : Waits sig (HIx 1)) (k : Fin k1_t1_loop.trips) :
    Inv31 m d tblS O W k.val ⟨⟩ ⊢ wp frame (wpE (defs₀ (F := F)) 𝒱₀ (thr d c31 s31) none) Set.univ
      (k1_t1_body (F := F) (coordsV c31 s31) tblV (Memref.isWhole_whole _) idxV (Memref.isWhole_whole _) outW (Memref.isWhole_whole _)
        ixS (Memref.isWhole_whole _) rwS (Memref.isWhole_whole _) shS (Memref.isWhole_whole _)
        cc1_scratch3 cc1_scratch4 cc1_scratch5 cc1_scratch6 cc1_scratch7 cc1_scratch8 cc1_scratch9 cc1_scratch10 cc1_scratch11
        cc1_scratch12 cc1_scratch13 cc1_scratch14 cc1_scratch15 cc1_scratch16 cc1_scratch17 cc1_scoped0 (v2of c31 s31) k ())
      (fun _ => Inv31 m d tblS O W (k.val + 1) ⟨⟩) := by
  have hk := trips_le k
  by_cases h0 : k.val = 0
  · exact trip31_zero m d tblS O W k h0 hpre (lastValue_holds m hpre d tblS htbl k h0)
  by_cases h1 : k.val = 1
  · exact trip31_one m d tblS O W k h1
  by_cases h4 : k.val % 4 = 0
  · by_cases h68 : k.val = 68
    · exact trip31_w68 m d tblS O W k h68
    · exact trip31_pref m d tblS O W k h4 (by omega) (by omega)
  · exact trip31_idle m d tblS O W k (by omega) h4

end Cert.Proof.KB

end
-- ==== Proof.KBTileLast.lean ====
/-
  The last worker's tile (SparseCore 1, subcore 15: worker 31) around its loop of 72 trips: the head (no table copy:
  the subcore is not 0), the barrier, the seven tokens of the shared table's read share, the first index prefetch, the
  loop by its invariant and its trips, no trailing wait (none of the last trip's chunks exists), and what is handed back:
  its one chunk at the result's values, the shares, the scratch arrays, the sixteen semaphores at zero.
-/
import proofs.«203041_g70987219468541_cont_9to1_m_1244_31_alg».proof.Proof.KBTileInv
import proofs.«203041_g70987219468541_cont_9to1_m_1244_31_alg».proof.Proof.KBTileBarrier
import proofs.«203041_g70987219468541_cont_9to1_m_1244_31_alg».proof.Proof.KBTileStore
import proofs.«203041_g70987219468541_cont_9to1_m_1244_31_alg».proof.Proof.KBTripFacts
import proofs.«203041_g70987219468541_cont_9to1_m_1244_31_alg».proof.Proof.KBTileSetLemmas2
import proofs.«203041_g70987219468541_cont_9to1_m_1244_31_alg».proof.Proof.KBTileSetLemmas3
import proofs.«203041_g70987219468541_cont_9to1_m_1244_31_alg».proof.Proof.KBTileChunkSteps
import proofs.«203041_g70987219468541_cont_9to1_m_1244_31_alg».proof.Proof.KBTileStage
import proofs.«203041_g70987219468541_cont_9to1_m_1244_31_alg».proof.Proof.KBTileLastInv
import proofs.«203041_g70987219468541_cont_9to1_m_1244_31_alg».proof.Proof.KBTileLastAll
import proofs.«203041_g70987219468541_cont_9to1_m_1244_31_alg».proof.Proof.KBTileMain
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Last
variable (d : Dev nD)

/-- The last worker's invariant before the first trip. -/
theorem inv31_0_intro (tblS : Buf (Elt F) ((shS).view.loc (thr d c31 s31))) (O : CellTallies nD τ sig (HIx 1)) (W W₁ : Waits sig (HIx 1))
    (hW₁ : ∀ p ∈ W₁, p ∈ W ∨ p.2 = none ∨ p.2 = some 0)
    (fI : Buf (Elt F) ((ixS).view.loc (thr d c31 s31))) (fR : Buf (Elt F) ((rwS).view.loc (thr d c31 s31))) :
    iprop(Transfers.MayWaits (thr d c31 s31) (none : HIx 1) O ∗ PrefFlight m d c31 s31 0
        ∗ ((halfM 1).view.loc (thr d c31 s31) ↦[halfSet 1]{fullShare} fI) ∗ ((rwS).view.loc (thr d c31 s31) ↦{fullShare} fR)
        ∗ semVal (thr d c31 s31, SemLoc.dma cc1_scratch11.sem) 0 ∗ semVal (thr d c31 s31, SemLoc.dma cc1_scratch12.sem) 0
        ∗ semVal (thr d c31 s31, SemLoc.dma cc1_scratch13.sem) 0 ∗ semVal (thr d c31 s31, SemLoc.dma cc1_scratch14.sem) 0
        ∗ semVal (thr d c31 s31, SemLoc.dma cc1_scratch15.sem) 0 ∗ semVal (thr d c31 s31, SemLoc.dma cc1_scratch16.sem) 0
        ∗ semVal (thr d c31 s31, SemLoc.dma cc1_scratch17.sem) 0
        ∗ outChunk d gLast (m (outLoc d)) ∗ Toks d c31 s31 tblS ∗ GSems d c31 s31 ∗ owes (thr d c31 s31) O W₁)
      ⊢ Inv31 m d tblS O W 0 ⟨⟩ := by
  unfold Inv31 IdxSt LSlot0 LIdle LChunk Owes
  rw [if_pos (by decide : (0 : ℕ) ≤ 68), if_neg (by decide : ¬ (0 : ℕ) = 1), if_pos rfl]
  iintro ⟨Hmw, Hpf, Hh1, Hrw, Hs11, Hs12, Hs13, Hs14, Hs15, Hs16, Hs17, Hch, Htoks, Hg, HO⟩
  ihave Hrw' := (pointsTo_split_subset (ℓ := (rwS).view.loc (thr d c31 s31)) (q := fullShare) (f := fR) (Finset.subset_univ (slotM0).view.set)).1 $$ Hrw
  icases Hrw' with ⟨Hr0, Hrest⟩
  isplitl [Hmw]; · iexact Hmw
  isplitl [Hpf Hh1]
  · isplitl [Hpf]; · iexact Hpf
    unfold HalfHeld
    iexists fI; isplitr
    · ipureintro; intro h; exact absurd rfl h
    · iexact Hh1
  isplitl [Hs11 Hr0]
  · isplitl [Hs11]; · iexact Hs11
    iexists fR; iexact Hr0
  isplitl [Hs12 Hs13 Hs14 Hs15 Hs16 Hs17 Hrest]
  · isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    iexists fR; iexact Hrest
  isplitl [Hch]; · iexact Hch
  isplitl [Htoks]; · iexact Htoks
  isplitl [Hg]; · iexact Hg
  iexists W₁; isplitr
  · ipureintro; exact hW₁
  · iexact HO

/-- The last worker's invariant after the last trip, opened. -/
theorem inv31_72_elim (tblS : Buf (Elt F) ((shS).view.loc (thr d c31 s31))) (O : CellTallies nD τ sig (HIx 1)) (W : Waits sig (HIx 1)) :
    Inv31 m d tblS O W 72 ⟨⟩
      ⊢ iprop((semVal (thr d c31 s31, SemLoc.dma cc1_scratch3.sem) 0 ∗ ((idxV).view.loc (thr d c31 s31) ↦{qI c31 s31} idxc m d)
          ∗ HalfHeld m d c31 s31 (halfOf 17) True 17 ∗ HalfHeld m d c31 s31 (halfOf 18) False 0)
        ∗ (semVal (thr d c31 s31, SemLoc.dma cc1_scratch11.sem) 0 ∗ ∃ f : Buf (Elt F) ((rwS).view.loc (thr d c31 s31)), (slotM0).view.loc (thr d c31 s31) ↦[(slotM0).view.set]{fullShare} f)
        ∗ LIdle d ∗ outChunk d gLast (outG m d) ∗ Toks d c31 s31 tblS ∗ GSems d c31 s31 ∗ Owes d c31 s31 O W) := by
  unfold Inv31 IdxSt LSlot0 LChunk
  rw [if_neg (by decide : ¬ (72 : ℕ) ≤ 68), if_neg (by decide : ¬ (72 : ℕ) = 1), if_neg (by decide : ¬ (72 : ℕ) = 0), if_neg (by decide : ¬ (72 : ℕ) = 1)]
  iintro ⟨-, Hi, Hsl, Hid, Hch, Ht, Hg, HO⟩
  isplitl [Hi]; · iexact Hi
  isplitl [Hsl]; · iexact Hsl
  isplitl [Hid]; · iexact Hid
  isplitl [Hch]; · iexact Hch
  isplitl [Ht]; · iexact Ht
  isplitl [Hg]; · iexact Hg
  iexact HO

/-- slot 0 and the rest of the row scratch, whatever each holds, are the scratch at some contents -/
theorem slot0_join (f g : Buf (Elt F) ((rwS).view.loc (thr d c31 s31))) :
    iprop(((slotM0).view.loc (thr d c31 s31) ↦[(slotM0).view.set]{fullShare} g) ∗ ((rwS).view.loc (thr d c31 s31) ↦[Finset.univ \ (slotM0).view.set]{fullShare} f))
      ⊢ (iprop(∃ f, (rwS).view.loc (thr d c31 s31) ↦{fullShare} f) : sProp 𝕄) := by
  iintro H
  ihave H' := (pointsTo_join_subset (ℓ := (rwS).view.loc (thr d c31 s31)) (q := fullShare) (f := f) (g := g) (Finset.subset_univ (slotM0).view.set)) $$ H
  iexists _; iexact H'

end Last

set_option maxHeartbeats 8000000 in
/-- The last worker's tile, from its trips: as every tile's run, with its one chunk, slot 0 alone off the row scratch,
    and no trailing wait (none of its last trip's chunks exists). -/
theorem tile_last_of (hpre : PreOK m) (d : Dev nD) (O : CellTallies nD τ sig (HIx 1)) (W : Waits sig (HIx 1)) (hO : ∀ g, O g none = 0)
    (hlev : ∀ g ι, 0 < O g ι → 8 * (0 : Fin 1).val + 6 ≤ (K (F := F)).lev g ι)
    (htrip31 : ∀ (tblS : Buf (Elt F) ((shS).view.loc (thr d c31 s31))), TableOK m d tblS → ∀ (W₀ : Waits sig (HIx 1)) (k : Fin k1_t1_loop.trips), Inv31 m d tblS O W₀ k.val ⟨⟩ ⊢ wp frame (wpE (defs₀ (F := F)) 𝒱₀ (thr d c31 s31) none) Set.univ (k1_t1_body (F := F) (coordsV c31 s31) tblV (Memref.isWhole_whole _) idxV (Memref.isWhole_whole _) outW (Memref.isWhole_whole _) ixS (Memref.isWhole_whole _) rwS (Memref.isWhole_whole _) shS (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scoped0 (v2of c31 s31) k ()) (fun _ => Inv31 m d tblS O W₀ (k.val + 1) ⟨⟩)) :
    TileSpec m d c31 s31 O W := by
  unfold TileSpec body
  rw [cc1_gather_eq_skeleton]; unfold cc1_gather_skel
  rw [k1_part5_eq_skeleton]; unfold k1_part5_skel
  have hO' : ∀ g, (O + oxV d (cT c31)) g none = 0 := fun g => by
    rw [Pi.add_apply, Finsupp.add_apply, hO g, oxV_none]
  have hs31 : ¬ (sT s31).val = 0 := by decide
  unfold goC tdC
  rw [if_neg hs31, if_neg hs31, scopedBufs_open, scopedSems0_open, tileChunks31, bigSep_singleton, bigSep_singleton]
  iintro ⟨#Hlv, Hbk, ⟨-, Hidx, Hchunk⟩, ⟨⟨%fI, HixS⟩, ⟨%fR, HrwS⟩, Hbrest⟩, ⟨Hs3, Hs4, Hs5, Hs6, Hs7, Hs8, Hs9, Hs10, Hs11, Hs12, Hs13, Hs14, Hs15, Hs16, Hs17, Hs19, Hsrest⟩, HO⟩
  ihave Hmw0 := ((K (F := F)).mayWaits_none (thr := thr d c31 s31) hO') $$ Hlv
  sl_exec (disch := decide)
  iapply (Entails.of_eq (wp_bind _ _ _ _ _ _).symm)
  iapply (tile_barrier m d c31 s31 O W hlev _ _)
  isplitr; · iexact Hlv
  isplitl [Hbk]; · iexact Hbk
  isplitl [HO]; · iexact HO
  isplitr; · rw [if_neg (show ¬ s31.val = 0 by decide)]; iempintro
  iintro ⟨HO, ⟨%tblS, %htblS, Hsh⟩, -⟩
  ihave Hmw := ((K (F := F)).mayWaits_none (thr := thr d c31 s31) hO) $$ Hlv
  ihave Hidx' := (Entails.of_eq (show (idxLoc d ↦{tileShare (cT c31) (sT s31)} idxOf (m (srcLoc d)) : sProp 𝕄) = ((idxV).view.loc (thr d c31 s31) ↦{qI c31 s31} idxc m d) from rfl)) $$ Hidx
  ihave Hix2 := (Entails.of_eq (ix_split (d := d) (c := c31) (s := s31) fI)) $$ HixS
  icases Hix2 with ⟨Hh0, Hh1⟩
  ihave Hh0' := (Entails.of_eq (pts_half0 (d := d) (c := c31) (s := s31) fullShare fI).symm) $$ Hh0
  sl_exec (disch := decide)
  ihave Hpf := (pref0_intro m d c31 s31 fI) $$ [Hs3 Hidx']
  · isplitl [Hs3]; · iexact Hs3
    iexact Hidx'
  ihave Hsh' := (toks_open d c31 s31 tblS).1 $$ Hsh
  icases Hsh' with ⟨Hkeep, Htoks⟩
  ihave Hinv := (inv31_0_intro m d tblS O W (insert (SemLoc.reg sc_bar0, some 0) W)
      (ins_ok (fun p hp => .inl hp) (.inr rfl)) fI fR) $$ [Hmw Hpf Hh1 HrwS Hs11 Hs12 Hs13 Hs14 Hs15 Hs16 Hs17 Hchunk Htoks Hs4 Hs5 Hs6 Hs7 Hs8 Hs9 Hs10 HO]
  · isplitr; · iexact Hmw
    isplitl [Hpf]; · iexact Hpf
    isplitl [Hh1]; · iexact Hh1
    isplitl [HrwS]; · iexact HrwS
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hchunk]; · iexact Hchunk
    isplitl [Htoks]; · iexact Htoks
    isplitl [Hs4 Hs5 Hs6 Hs7 Hs8 Hs9 Hs10]
    · unfold GSems
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      iexact Hs10
    iexact HO
  sl_for (Inv31 m d tblS O W) $$ [Hinv]
  case region =>
    intro k _
    exact htrip31 tblS htblS W k
  · iexact Hinv
  iintro %_ HI
  rw [trips72]
  ihave HI' := (inv31_72_elim m d tblS O W) $$ HI
  unfold LIdle Owes
  icases HI' with ⟨⟨Hs3, Hidx, Hh17, Hh18⟩, ⟨Hs11, ⟨%fR0, Hr0⟩⟩, ⟨Hs12, Hs13, Hs14, Hs15, Hs16, Hs17, ⟨%fR1, Hrest⟩⟩, Hchunk, Htoks, Hg, ⟨%W', %hW', HO⟩⟩
  sl_exec (disch := decide)
  sl_step
  -- what the tile hands back
  isplitl [Hkeep Htoks Hidx Hchunk]
  · isplitr; · iempintro
    isplitl [Hkeep Htoks]
    · iexists tblS
      iapply (toks_open d c31 s31 tblS).2
      isplitl [Hkeep]; · iexact Hkeep
      iexact Htoks
    isplitl [Hidx]; · iexact Hidx
    iexact Hchunk
  -- its scratch arrays
  isplitl [Hh17 Hh18 Hr0 Hrest Hbrest]
  · isplitl [Hh17 Hh18]
    · iapply (halves_join m d c31 s31 True False 17 0)
      isplitl [Hh17]; · iexact Hh17
      iexact Hh18
    isplitl [Hr0 Hrest]
    · iapply (slot0_join d fR1 fR0)
      isplitl [Hr0]; · iexact Hr0
      iexact Hrest
    iexact Hbrest
  -- its semaphores, all at zero
  isplitl [Hs3 Hg Hs11 Hs12 Hs13 Hs14 Hs15 Hs16 Hs17 Hs19 Hsrest]
  · unfold GSems
    icases Hg with ⟨Hs4, Hs5, Hs6, Hs7, Hs8, Hs9, Hs10⟩
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs19]; · iexact Hs19
    iexact Hsrest
  iexists W'; isplitr
  · ipureintro; exact hW'
  · iexact HO

/-- The last worker's tile. -/
theorem tile_last (hpre : PreOK m) (d : Dev nD) (O : CellTallies nD τ sig (HIx 1)) (W : Waits sig (HIx 1)) (hO : ∀ g, O g none = 0)
    (hlev : ∀ g ι, 0 < O g ι → 8 * (0 : Fin 1).val + 6 ≤ (K (F := F)).lev g ι) : TileSpec m d c31 s31 O W :=
  tile_last_of.{1, 1} m hpre d O W hO hlev (fun tblS htbl W₀ k => trip31.{1, 1} m hpre d tblS htbl O W₀ k)

end Cert.Proof.KB

end
-- ==== Proof.KBRegion.lean ====
/-
  The TensorCore kernel region of @main: the dense layer applied to the 119 feature rows, written into rows 0..118 of the
  128-row table through a pipeline of four whole-array windows at one point. The proof data is relational: the three
  operand blocks are left as found, and of the table's block only its first 119 rows are stated (the body stores a
  [119, 128] rectangle of the [128, 128] staging buffer, so rows 119..127 come back as the staging buffer held them).
  The body by symbolic execution; the region as a segment of @main entered from the operands, the table's buffer and
  what the TensorCore owes (its start signals, owed throughout); the pipeline's staging cells funded from its own
  component of the launch element.
-/
import proofs.«203041_g70987219468541_cont_9to1_m_1244_31_alg».proof.Proof.KBPay

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The pipeline of the TensorCore region and its proof data -/

/-- no pipeline has a prefetched table -/
abbrev adm : (p : Fin 1) → (pcfgs (F := F) p).Adm := fun p => (cfgs p).toPCfg_adm

abbrev pcfg0 : Pipeline.Cfg sig Λ₀ := Pipeline.pin (pcfgs (F := F)) adm 0

theorem phinj : Function.Injective (Pipeline.cellOf (nD := nD) (τ := τ) (Pipeline.pin (pcfgs (F := F)) adm)) := Gen.cellOf_inj

section Data
variable [FloatOps F]

/-- the pairs a wait at the kernels' own index records -/
def recNone : Set (SemLoc sig × HIx 1) := {p | p.2 = none}

/-- The region's proof data on device d: the three inputs at their launch contents (the bias as a row), the table at
    whatever it held; the body leaves the inputs' blocks as it found them and the table's block with its first 119 rows
    the projected rows; the TensorCore owes its start signals throughout. -/
def rdat (d : Dev nD) : Pipeline.RDat τ (Elt F) (HIx 1) ℕ UU ℕ cfg0 d where
  A w := match w with
    | ⟨0, _⟩ => m (fmLoc d)
    | ⟨1, _⟩ => m (wLoc d)
    | ⟨2, _⟩ => brOf (m (bLoc d))
    | ⟨3, _⟩ => m (tblLoc d)
  after w t := match w with
    | ⟨0, _⟩ => fun Y X => X = Y
    | ⟨1, _⟩ => fun Y X => X = Y
    | ⟨2, _⟩ => fun Y X => X = Y
    | ⟨3, _⟩ => fun _ X => TableOK m d X
  Φ _ := iprop(emp)
  q _ := fullShare
  owed _ := (K (F := F)).Otc d 0
  recorded _ := recNone

def rdats : (p : Fin 1) → (d : Dev nD) → Pipeline.RDat τ (Elt F) (HIx 1) ℕ UU ℕ (Pipeline.pin (pcfgs (F := F)) adm p) d :=
  fun p d => match p with | ⟨0, _⟩ => rdat m d

end Data

/-! ## The region's body -/

section Body
variable [FloatOps F]
open Idealize.ShloMosaic.TcCoe Idealize.ShloMosaic.Tactic

theorem zeros2 : (![0, 0] : Fin 2 → ℕ) = fun _ => 0 := by funext a; fin_cases a <;> rfl

/-- a load of all of a block at offsets zero reads the block -/
theorem readAt_unit_zero' {Val : EltTy → Type} {κ : Kind} {sp : Space} {S : Shape} {e' : EltTy} (v : View sig κ sp S e') (f : v.ty.Contents Val)
    {off : Fin S.rank → ℕ} (h : off = fun _ => 0) (inb : ∀ a, off a + S.size a ≤ S.size a) :
    v.readAt Val (Rect.unit off S.size inb).toLoadRect f = v.read Val f := by
  subst h; funext x
  show v.read Val f ((Rect.whole S).emb x) = v.read Val f x
  rw [Rect.emb_whole_apply]

theorem emb_rows (a : Fin 119) (col : Fin 128) :
    (Rect.unit (s := S128x128) ![0, 0] S119x128.size inb_S128x128_S119x128_0_0).emb (ix2 a col) = ix2 (a.castLE (by decide)) col := by
  funext i; apply Fin.ext; rw [Rect.emb_apply]
  fin_cases i <;> simp [ix2]

/-- the first 119 rows of a [128, 128] block are the dense layer of the three operand blocks -/
def RowsOK (x0 : Vec F S119x3 .f32) (x1 : Vec F S3x128 .f32) (x2 : Vec F S1x128 .f32) (X : Vec F S128x128 .f32) : Prop :=
  ∀ (a : Fin 119) (col : Fin 128), X (ix2 (a.castLE (by decide)) col) = k0_pay1 (F := F) x0 x1 x2 (ix2 a col)

set_option maxHeartbeats 1000000 in
theorem sound_kernel (c : Dev nD) (E : Set ℕ) (arg0 : Memref sig .tc .vmem S119x3 .f32) (harg0 : arg0.IsWhole) (arg1 : Memref sig .tc .vmem S3x128 .f32) (harg1 : arg1.IsWhole)
    (arg2 : Memref sig .tc .vmem S1x128 .f32) (harg2 : arg2.IsWhole) (arg3 : Memref sig .tc .vmem S128x128 .f32) (harg3 : arg3.IsWhole)
    (x0 : Vec F S119x3 .f32) (x1 : Vec F S3x128 .f32) (x2 : Vec F S1x128 .f32) (Kk : PUnit → sProp 𝕄) :
    iprop(owns (c : Thread nD τ) arg0 fullShare x0 ∗ owns (c : Thread nD τ) arg1 fullShare x1 ∗ owns (c : Thread nD τ) arg2 fullShare x2
        ∗ (∃ y, owns (c : Thread nD τ) arg3 fullShare y)
        ∗ (iprop(owns (c : Thread nD τ) arg0 fullShare x0 ∗ owns (c : Thread nD τ) arg1 fullShare x1 ∗ owns (c : Thread nD τ) arg2 fullShare x2
            ∗ ∃ X, ⌜RowsOK x0 x1 x2 X⌝ ∗ owns (c : Thread nD τ) arg3 fullShare X) -∗ Kk ⟨⟩))
      ⊢ wp frame (wpE (defs₀ (F := F)) Variants.none c none) E (cc0__proj_body arg0 harg0 arg1 harg1 arg2 harg2 arg3 harg3) Kk := by
  simp only [cc0__proj_body_eq_skeleton]; unfold cc0__proj_body_skel
  unfold owns
  iintro ⟨⟨%f0, %hf0, H0⟩, ⟨%f1, %hf1, H1⟩, ⟨%f2, %hf2, H2⟩, ⟨%y, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap
  · iexists _; isplitr
    swap
    · iexact H3
    · ipureintro; rfl
  ipureintro
  intro a col
  rw [← emb_rows a col, View.read_writes_cons_emb, readAt_unit_zero' _ _ zeros2, readAt_unit_zero' _ _ zeros2, readAt_unit_zero' _ _ zeros2]

end Body

/-! ## What the proof data says at the one point -/

section Facts
variable [FloatOps F]
open Idealize.ShloMosaic.TcCoe

theorem rdat_A0 (d : Dev nD) : (rdat m d).A 0 = m (fmLoc d) := by dsimp only [rdat]
theorem rdat_A1 (d : Dev nD) : (rdat m d).A 1 = m (wLoc d) := by dsimp only [rdat]
theorem rdat_A2 (d : Dev nD) : (rdat m d).A 2 = brOf (m (bLoc d)) := by dsimp only [rdat]
theorem rdat_A3 (d : Dev nD) : (rdat m d).A 3 = m (tblLoc d) := by dsimp only [rdat]
theorem rdat_after0 (d : Dev nD) (t Y X) : (rdat m d).after 0 t Y X = (X = Y) := by dsimp only [rdat]
theorem rdat_after1 (d : Dev nD) (t Y X) : (rdat m d).after 1 t Y X = (X = Y) := by dsimp only [rdat]
theorem rdat_after2 (d : Dev nD) (t Y X) : (rdat m d).after 2 t Y X = (X = Y) := by dsimp only [rdat]
theorem rdat_after3 (d : Dev nD) (t Y X) : (rdat m d).after 3 t Y X = TableOK m d X := by dsimp only [rdat]

/-- A fetch of a whole, uncut block leaves the array's contents in the staging buffer. -/
theorem fetched0 (d : Dev nD) (t : Fin cfg0.N) (d0) : (rdat m d).fetched 0 t d0 = m (fmLoc d) := by
  show ((cfg0.win 0).blk t).view.read (Elt F) ((rdat m d).A 0) = _
  rw [rdat_A0]
  exact readAt_unit_zero' (Memref.whole main_arg1).view (m (fmLoc d)) (funext fun a => Nat.zero_mul _) _
theorem fetched1 (d : Dev nD) (t : Fin cfg0.N) (d0) : (rdat m d).fetched 1 t d0 = m (wLoc d) := by
  show ((cfg0.win 1).blk t).view.read (Elt F) ((rdat m d).A 1) = _
  rw [rdat_A1]
  exact readAt_unit_zero' (Memref.whole main_arg2).view (m (wLoc d)) (funext fun a => Nat.zero_mul _) _
theorem fetched2 (d : Dev nD) (t : Fin cfg0.N) (d0) : (rdat m d).fetched 2 t d0 = brOf (m (bLoc d)) := by
  show ((cfg0.win 2).blk t).view.read (Elt F) ((rdat m d).A 2) = _
  rw [rdat_A2]
  exact readAt_unit_zero' (Memref.whole main_v0).view (brOf (m (bLoc d))) (funext fun a => Nat.zero_mul _) _

end Facts

/-! ## The body obligation -/

section Obl
variable [FloatOps F]
open Idealize.ShloMosaic.TcCoe

theorem body_obl (d : Dev nD) : (rdat m d).BodyObligation (defs₀ (F := F)) Variants.none none Set.univ := fun t Y hY => by
  rw [bigSep_W0, bigSep_W0]
  obtain ⟨d0, h0⟩ := ((rdat m d).finds_of_fetch (fetch0_0 t) (Y 0)).mp (hY 0)
  obtain ⟨d1, h1⟩ := ((rdat m d).finds_of_fetch (fetch0_1 t) (Y 1)).mp (hY 1)
  obtain ⟨d2, h2⟩ := ((rdat m d).finds_of_fetch (fetch0_2 t) (Y 2)).mp (hY 2)
  rw [fetched0] at h0; rw [fetched1] at h1; rw [fetched2] at h2
  rw [show (rdat m d).Φ t.castSucc = iprop(emp) from rfl, show (rdat m d).Φ t.succ = iprop(emp) from rfl,
    show (rdat m d).owesAt none t.succ = (rdat m d).owesAt none t.castSucc from rfl]
  iintro ⟨-, HO, H0, H1, H2, H3⟩
  iapply (sound_kernel d Set.univ (win0_0.stage (cfg0.slots t 0)) (hstage0_0 0) (win0_1.stage (cfg0.slots t 1)) (hstage0_1 0)
    (win0_2.stage (cfg0.slots t 2)) (hstage0_2 0) (win0_3.stage (cfg0.slots t 3)) (hstage0_3 0) (Y 0) (Y 1) (Y 2) _)
  isplitl [H0]; · iexact H0
  isplitl [H1]; · iexact H1
  isplitl [H2]; · iexact H2
  isplitl [H3]; · iexists (Y 3); iexact H3
  iintro ⟨H0, H1, H2, ⟨%X, %hX, H3⟩⟩
  isplitr; · iempintro
  isplitl [HO]; · iexact HO
  isplitl [H0]
  · iexists (Y 0); isplitr; · ipureintro; rw [rdat_after0]
    iexact H0
  isplitl [H1]
  · iexists (Y 1); isplitr; · ipureintro; rw [rdat_after1]
    iexact H1
  isplitl [H2]
  · iexists (Y 2); isplitr; · ipureintro; rw [rdat_after2]
    iexact H2
  iexists X; isplitr
  · ipureintro; rw [rdat_after3]
    intro a col; rw [hX a col]; unfold projAt; rw [h0, h1, h2]
  iexact H3

end Obl

/-! ## The region as a segment of @main -/

section Seg
variable [FloatOps F]
open Idealize.ShloMosaic.TcCoe

theorem Otc_none (d : Dev nD) (g : GSem nD τ sig) : (K (F := F)).Otc d 0 g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun c _ => by rw [tallyAt_apply, if_neg (fun e => nomatch e.2)]
  · rfl

/-- what the TensorCore owes and has recorded before the SparseCore call -/
abbrev owesTc (d : Dev nD) : sProp 𝕄 := iprop(∃ W, ⌜(K (F := F)).WBelow (T d) W (8 * 0)⌝ ∗ owes (T d) ((K (F := F)).Otc d 0) W)

theorem arrays_eq (d : Dev nD) (Fa : (w : Fin cfg0.W) → Buf (Elt F) ((cfg0.win w).arr.view.loc (d.tc : Thread nD τ))) :
    ((rdat m d).arrays Fa : sProp 𝕄)
      = iprop((fmLoc d ↦{fullShare} Fa 0) ∗ (wLoc d ↦{fullShare} Fa 1) ∗ (brLoc d ↦{fullShare} Fa 2) ∗ (tblLoc d ↦{fullShare} Fa 3)) := by
  unfold Pipeline.RDat.arrays
  rw [bigSep_W0]
  simp only [Memref.view_whole, View.set_whole]
  rfl

end Seg

section Seg2
variable [FloatOps F]
open Idealize.ShloMosaic.TcCoe

theorem recNone_below (d : Dev nD) {W : Waits sig (HIx 1)} (h : (↑W : Set (SemLoc sig × HIx 1)) ⊆ (rdat m d).bound none 0) :
    (K (F := F)).WBelow (T d) W (8 * 0) := by
  intro p hp
  have : p.2 = none := by
    rcases h hp with h' | ⟨w, s, h'⟩
    · exact h'
    · rw [h']
  rw [this]; exact le_rfl

theorem below_recNone (d : Dev nD) {W : Waits sig (HIx 1)} (h : (K (F := F)).WBelow (T d) W (8 * 0)) :
    (↑W : Set (SemLoc sig × HIx 1)) ⊆ (rdat m d).bound none 0 := by
  intro p hp
  left
  show p.2 = none
  have h' := h p hp
  cases hq : p.2 with
  | none => rfl
  | some q => rw [hq] at h'; have := (K (F := F)).lev_some_pos (T d, p.1) q; omega

/-- What the region is entered from: the three operands and the table's buffer, and what the TensorCore owes. -/
def regPre (d : Dev nD) : sProp 𝕄 :=
  iprop((fmLoc d ↦{fullShare} m (fmLoc d)) ∗ (wLoc d ↦{fullShare} m (wLoc d)) ∗ (brLoc d ↦{fullShare} brOf (m (bLoc d)))
    ∗ (tblLoc d ↦{fullShare} m (tblLoc d)) ∗ owesTc d)
/-- What it leaves: the operands as they were, the table with its first 119 rows projected. -/
def regPost (d : Dev nD) : sProp 𝕄 :=
  iprop((fmLoc d ↦{fullShare} m (fmLoc d)) ∗ (wLoc d ↦{fullShare} m (wLoc d)) ∗ (brLoc d ↦{fullShare} brOf (m (bLoc d)))
    ∗ (∃ tbl : Buf (Elt F) (tblLoc d), ⌜TableOK m d tbl⌝ ∗ tblLoc d ↦{fullShare} tbl) ∗ owesTc d)

theorem hwaits0 (d : Dev nD) : (levAts (K (F := F)).L (K (F := F)).lev : sProp 𝕄) ⊢ Pipeline.RDat.cellsWaits (Pipeline.pin (pcfgs (F := F)) adm) (rdats m) none 0 d :=
  Pipeline.RDat.cellsWaits_intro (Pipeline.pin (pcfgs (F := F)) adm) (rdats m) none 0 d fun w s t =>
    (K (F := F)).mayWait_none _ (Otc_none d)

end Seg2

section Seg3
variable [FloatOps F]
open Idealize.ShloMosaic.TcCoe

theorem bigSep_fin0 {M : Type} [URA M] (Φ : Fin 0 → sProp M) : bigSep Finset.univ Φ = (BI.emp : sProp M) := by
  rw [Finset.univ_eq_empty, BI.bigSep_empty]

theorem prefHeld0 (d : Dev nD) (q) (pf) :
    (Pipeline.prefHeld (Ix := HIx 1) (Name := ℕ) (U := UU) (Lvl := ℕ) (Val := Elt F) (pcfgs (F := F) 0).pre d q pf : sProp 𝕄) = BI.emp :=
  bigSep_fin0 _

/-- The table after the one write-back: its first 119 rows are the projected rows. -/
theorem arrAt3 (d : Dev nD) (G : Buf (Elt F) ((cfg0.win 3).arr.view.loc (d.tc : Thread nD τ))) (h : (rdat m d).ArrAt 3 cfg0.N G) : TableOK m d G := by
  have hN : cfg0.N = 1 := N_0
  have h0 : 0 < cfg0.N := by rw [hN]; exact Nat.one_pos
  have hstep : (rdat m d).ArrStep 3 ⟨0, h0⟩ (fun F => F = (rdat m d).A 3) G := by
    have h' : (rdat m d).ArrAt 3 (0 + 1) G := by rw [hN] at h; exact h
    unfold Pipeline.RDat.ArrAt at h'
    dsimp only at h'
    rw [dif_pos h0, if_pos (flush0_3 ⟨0, h0⟩)] at h'
    exact h'
  obtain ⟨G₀, X, hG₀, ⟨Y, -, hX⟩, rfl⟩ := hstep
  rw [rdat_after3] at hX
  intro a col
  have hw : ((cfg0.win 3).blk ⟨0, h0⟩).view.write (Elt F) G₀ ((cfg0.win 3).cut (cfg0.grid.coords ⟨0, h0⟩) X) Finset.univ = X :=
    Memref.write_access_unit_zero_univ (Elt F) main_v1 (funext fun a => Nat.zero_mul _) _ G₀ X
  rw [hw]
  exact hX a col

theorem arrAt0 (d : Dev nD) (G : Buf (Elt F) ((cfg0.win 0).arr.view.loc (d.tc : Thread nD τ))) (h : (rdat m d).ArrAt 0 cfg0.N G) : G = m (fmLoc d) := by
  rw [(rdat m d).ArrAt_in 0 rfl] at h; exact h.trans (rdat_A0 m d)
theorem arrAt1 (d : Dev nD) (G : Buf (Elt F) ((cfg0.win 1).arr.view.loc (d.tc : Thread nD τ))) (h : (rdat m d).ArrAt 1 cfg0.N G) : G = m (wLoc d) := by
  rw [(rdat m d).ArrAt_in 1 rfl] at h; exact h.trans (rdat_A1 m d)
theorem arrAt2 (d : Dev nD) (G : Buf (Elt F) ((cfg0.win 2).arr.view.loc (d.tc : Thread nD τ))) (h : (rdat m d).ArrAt 2 cfg0.N G) : G = brOf (m (bLoc d)) := by
  rw [(rdat m d).ArrAt_in 2 rfl] at h; exact h.trans (rdat_A2 m d)

theorem arraysAt_eq (d : Dev nD) : ((rdat m d).arraysAt cfg0.N : sProp 𝕄)
    = iprop((∃ F0, ⌜(rdat m d).ArrAt 0 cfg0.N F0⌝ ∗ fmLoc d ↦{fullShare} F0) ∗ (∃ F1, ⌜(rdat m d).ArrAt 1 cfg0.N F1⌝ ∗ wLoc d ↦{fullShare} F1)
        ∗ (∃ F2, ⌜(rdat m d).ArrAt 2 cfg0.N F2⌝ ∗ brLoc d ↦{fullShare} F2) ∗ (∃ F3, ⌜(rdat m d).ArrAt 3 cfg0.N F3⌝ ∗ tblLoc d ↦{fullShare} F3)) := by
  unfold Pipeline.RDat.arraysAt
  rw [bigSep_W0]
  simp only [Memref.view_whole, View.set_whole]
  rfl

theorem arraysAt_elim (d : Dev nD) : ((rdat m d).arraysAt cfg0.N : sProp 𝕄)
    ⊢ iprop((fmLoc d ↦{fullShare} m (fmLoc d)) ∗ (wLoc d ↦{fullShare} m (wLoc d)) ∗ (brLoc d ↦{fullShare} brOf (m (bLoc d)))
        ∗ (∃ tbl : Buf (Elt F) (tblLoc d), ⌜TableOK m d tbl⌝ ∗ tblLoc d ↦{fullShare} tbl)) := by
  rw [arraysAt_eq]
  iintro ⟨⟨%F0, %h0, H0⟩, ⟨%F1, %h1, H1⟩, ⟨%F2, %h2, H2⟩, ⟨%F3, %h3, H3⟩⟩
  obtain rfl := arrAt0 m d F0 h0
  obtain rfl := arrAt1 m d F1 h1
  obtain rfl := arrAt2 m d F2 h2
  isplitl [H0]; · iexact H0
  isplitl [H1]; · iexact H1
  isplitl [H2]; · iexact H2
  iexists F3; isplitr; · ipureintro; exact arrAt3 m d F3 h3
  iexact H3

def reg0 : Pipeline.RDat.RegionSeg (pcfgs (F := F)) adm (rdats m) (none : HIx 1) (defs₀ (F := F)) 𝒱₀
    (SparseCore.Cfg.L (nD := nD) (K (F := F))) (SparseCore.Cfg.lev (nD := nD) (K (F := F))) 0 where
  win := Gen.winFacts0.to₀
  block_pos := Gen.block_pos0
  stage_whole := Gen.stage_whole0
  K := PEmpty
  osem k := k.elim
  ho := Pipeline.OwnSemFacts.none _
  hbody d := body_obl m d
  hwaits d := hwaits0 m d
  pre := regPre m
  post := regPost m
  X _ := iprop(emp)
  Y _ := iprop(emp)
  Z _ := iprop(emp)
  hentry d := by
    rw [Pipeline.ownSems0_none, prefHeld0]
    show iprop(regPre m d ∗ emp ∗ _) ⊢ |={Set.univ}=> iprop((rdat m d).arrays (rdat m d).A ∗ emp ∗ (rdat m d).owesAt none 0 ∗ emp ∗ emp)
    rw [arrays_eq, rdat_A0, rdat_A1, rdat_A2, rdat_A3]
    unfold regPre
    iintro ⟨⟨H0, H1, H2, H3, ⟨%W, %hW, HO⟩⟩, -, -⟩
    imodintro
    isplitl [H0 H1 H2 H3]
    · isplitl [H0]; · iexact H0
      isplitl [H1]; · iexact H1
      isplitl [H2]; · iexact H2
      iexact H3
    isplitr; · iempintro
    isplitl [HO]
    · iexists W; isplitr; · ipureintro; exact below_recNone m d hW
      iexact HO
    isplitr <;> iempintro
  hin d := by
    show _ ⊢ iprop(emp)
    iintro -; iempintro
  hout d := by
    rw [Pipeline.ownSems0_none, scopedRest0_eq]
    show iprop(emp) ⊢ _
    iintro -; isplitr; · iempintro
    isplitr <;> iempintro
  hexit d := by
    show iprop((rdat m d).arraysAt cfg0.N ∗ (rdat m d).owesAt none (Fin.last cfg0.N) ∗ emp ∗ emp) ⊢ |={Set.univ}=> regPost m d
    unfold regPost
    iintro ⟨Ha, ⟨%W, %hW, HO⟩, -, -⟩
    imodintro
    ihave Ha' := (arraysAt_elim m d) $$ Ha
    icases Ha' with ⟨H0, H1, H2, H3⟩
    isplitl [H0]; · iexact H0
    isplitl [H1]; · iexact H1
    isplitl [H2]; · iexact H2
    isplitl [H3]; · iexact H3
    iexists W; isplitr; · ipureintro; exact recNone_below m d hW
    iexact HO

end Seg3

/-! ## The pipeline's part of the launch element, and the region inside @main -/

section Region
variable [FloatOps F]
open Idealize.ShloMosaic.TcCoe

/-- the pipeline's rounds at launch: its staging cells, the duty tokens of the transfers its loop issues -/
def pInit : UP := initOf (Pipeline.cells (nD := nD) (τ := τ) (Pipeline.pin (pcfgs (F := F)) adm) phinj) (Pipeline.launchToks (nD := nD) (τ := τ) (Pipeline.pin (pcfgs (F := F)) adm) phinj)

/-- what the launch element funds device d's TensorCore with for the region: its staging cells' ghost state and duty tokens -/
def GP (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem gp_fund : (BI.own (EP (F := F) (pInit (F := F))) : sProp 𝕄) ⊢ |==> bigSep Finset.univ (GP (F := F)) := by
  have h := Pipeline.fund_ghost (Ix := HIx 1) (Val := Elt F) (Name := ℕ) (U := UU) (Lvl := ℕ) (Pipeline.pin (pcfgs (F := F)) adm) (EP (F := F)) phinj
  simp only [bigSep_univ_of_subsingleton (0 : Fin 1)] at h
  unfold pInit GP
  rw [bigSep_sep']
  simp only [bigSep_univ_of_subsingleton (0 : Fin 1)]
  exact h

theorem reg0_pre (d : Dev nD) : (reg0 m).pre d = regPre m d := rfl
theorem reg0_post (d : Dev nD) : (reg0 m).post d = regPost m d := rfl

theorem wp_region_inner (d : Dev nD) (Q' : PUnit → sProp 𝕄) :
    iprop(levAts (SparseCore.Cfg.L (nD := nD) (K (F := F))) (SparseCore.Cfg.lev (nD := nD) (K (F := F))) ∗ boundary (d.tc : Thread nD τ) ∗ regPre m d ∗ GP d
        ∗ (iprop(boundary (d.tc : Thread nD τ) ∗ regPost m d) -∗ Q' ⟨⟩))
      ⊢ wp frame (wpE (D (F := F)) 𝒱 (d.tc : Thread nD τ) none) Set.univ (.op (.customCall (Pipeline.entry 0) ()) fun _ => .ret ⟨⟩) Q' := by
  unfold GP
  iintro ⟨#Hlev, Hb, Hpre, ⟨Hg, Ht⟩, Hk⟩
  have hR := Pipeline.RDat.RegionSeg.wp (pcfgs (F := F)) adm (rdats m) none phinj (EP (F := F)) (defs₀ (F := F)) 𝒱₀ _ _ (reg0 m) d none
    (fun _ h => nomatch h) (fun _ => .ret ⟨⟩) Q'
  rw [reg0_pre, reg0_post] at hR
  iapply hR
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitr; · iexact Hlev
  isplitl [Hg]; · iexact Hg
  iexact Ht

end Region

section Region2
variable [FloatOps F]
open Idealize.ShloMosaic.TcCoe

theorem lift_e : (Prog.lift (TpuEff.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) := rfl

theorem lift1 (d : Dev nD) (Q : PUnit → sProp 𝕄) :
    wp frame (wpE (D (F := F)) 𝒱 (T d) none) Set.univ (.op (.customCall (Pipeline.entry 0) ()) fun _ => .ret ⟨⟩) Q
      ⊢ wp frame (wpE ((K (F := F)).defs (D (F := F))) 𝒱 (T d) none) Set.univ
          (SparseCore.liftProg (.op (.customCall (Pipeline.entry 0) ()) fun _ => .ret ⟨⟩)) Q :=
  (K (F := F)).wp_liftProg (D (F := F)) 𝒱 (T d) Set.univ none _ Q

set_option backward.isDefEq.respectTransparency.types false in
theorem wp_region (d : Dev nD) (Q : PUnit → sProp 𝕄) :
    iprop(levAts (SparseCore.Cfg.L (nD := nD) (K (F := F))) (SparseCore.Cfg.lev (nD := nD) (K (F := F))) ∗ boundary (T d) ∗ regPre m d ∗ GP d
        ∗ (iprop(boundary (T d) ∗ regPost m d) -∗ Q ⟨⟩))
      ⊢ wp frame (wpE ((K (F := F)).defs (D (F := F))) 𝒱 (T d) none) Set.univ
          (Prog.lift (.customCall (SparseCore.inner (Pipeline.entry 0)) ())) Q :=
  (wp_region_inner m d Q).trans (lift1 d Q)

end Region2

end Cert.Proof.KB

end
-- ==== Proof.KBRegion2.lean ====
/-
  @main on the TensorCore of a device: the bias reshaped to a row, the kernel region that projects the table, the index
  array padded with zeros, the SparseCore call, from the launch's resources to the four arguments unchanged and the
  result at the gathered rows.
-/
import proofs.«203041_g70987219468541_cont_9to1_m_1244_31_alg».proof.Proof.KBRegion
import proofs.«203041_g70987219468541_cont_9to1_m_1244_31_alg».proof.Proof.KBChunks

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## @main on the TensorCore -/

section Main
variable [FloatOps F]
open Idealize.ShloMosaic.TcCoe
open Idealize.ShloMosaic.StableHlo (held wp_hlo_within)

abbrev r0' : DevRef τ sig := Proc.devRef .tc (main_arg0 : Ref sig .tc)
abbrev r3' : DevRef τ sig := Proc.devRef .tc (main_arg3 : Ref sig .tc)
abbrev v0' : DevRef τ sig := Proc.devRef .tc (main_v0 : Ref sig .tc)
abbrev c' : DevRef τ sig := Proc.devRef .tc (main_c : Ref sig .tc)
abbrev cv' : DevRef τ sig := Proc.devRef .tc (main_call0_v0 : Ref sig .tc)
abbrev v2' : DevRef τ sig := Proc.devRef .tc (main_v2 : Ref sig .tc)

/-- the four host operations of @main -/
abbrev opR : HloOp τ sig (Elt F) := StableHlo.reshape main_arg3 main_v0 rfl shapeCasts_S128_S1x128
abbrev opC : HloOp τ sig (Elt F) := StableHlo.nullary main_c (constantI S_ 32 0#32)
abbrev opU : HloOp τ sig (Elt F) := StableHlo.TRef.unary (Tx := ⟨S_, .i32⟩) (Ty := ⟨S_, .i32⟩) (.of main_c) (.of main_call0_v0) id
abbrev opP : HloOp τ sig (Elt F) := StableHlo.TRef.binary (Ta := ⟨S2000000, .i32⟩) (Tb := ⟨S_, .i32⟩) (Ty := ⟨S2064384, .i32⟩) (.of main_arg0) (.of main_call0_v0) (.of main_v2)
  (fun x v => pad S2064384 ![0] ![64384] ![0] x v pads_S2000000_S2064384_0643840 h_S_)

/-- The TensorCore's ten arrays in HBM. -/
theorem unscopedBufs_eq (d : Dev nD) (W : (b : Ref sig .tc) → Buf (Elt F) ((d.tc : Thread nD τ).loc b)) :
    (unscopedBufs d W : sProp 𝕄) = iprop((srcLoc d ↦{fullShare} W main_arg0) ∗ (fmLoc d ↦{fullShare} W main_arg1) ∗ (wLoc d ↦{fullShare} W main_arg2)
      ∗ (bLoc d ↦{fullShare} W main_arg3) ∗ (brLoc d ↦{fullShare} W main_v0) ∗ (tblLoc d ↦{fullShare} W main_v1)
      ∗ ((SparseCore.T d).loc main_c ↦{fullShare} W main_c) ∗ ((SparseCore.T d).loc main_call0_v0 ↦{fullShare} W main_call0_v0)
      ∗ (idxLoc d ↦{fullShare} W main_v2) ∗ (outLoc d ↦{fullShare} W main_v3)) := by
  unfold unscopedBufs
  rw [bigSep_eq_bigSepL_of_eq [main_arg0, main_arg1, main_arg2, main_arg3, main_v0, main_v1, main_c, main_call0_v0, main_v2, main_v3] (by decide) (by decide)]
  rfl

/-- the launch valuation -/
def V0 (d : Dev nD) : Valuation τ sig (Elt F) := fun b => m (d, b)

theorem heldR (d : Dev nD) (W : Valuation τ sig (Elt F)) :
    (held (T d) (opR (F := F)).bufs W : sProp 𝕄) = iprop((bLoc d ↦{fullShare} W r3') ∗ (brLoc d ↦{fullShare} W v0')) := by
  unfold held
  show bigSep ({r3', v0'} : Finset (DevRef τ sig)) _ = _
  rw [SparseCore.bigSep_insert' (by decide), bigSep_singleton]
theorem heldC (d : Dev nD) (W : Valuation τ sig (Elt F)) :
    (held (T d) (opC (F := F)).bufs W : sProp 𝕄) = iprop(((SparseCore.T d).loc main_c ↦{fullShare} W c')) := by
  unfold held
  show bigSep ({c'} : Finset (DevRef τ sig)) _ = _
  rw [bigSep_singleton]
theorem heldU (d : Dev nD) (W : Valuation τ sig (Elt F)) :
    (held (T d) (opU (F := F)).bufs W : sProp 𝕄) = iprop(((SparseCore.T d).loc main_c ↦{fullShare} W c') ∗ ((SparseCore.T d).loc main_call0_v0 ↦{fullShare} W cv')) := by
  unfold held
  show bigSep ({c', cv'} : Finset (DevRef τ sig)) _ = _
  rw [SparseCore.bigSep_insert' (by decide), bigSep_singleton]
theorem heldP (d : Dev nD) (W : Valuation τ sig (Elt F)) :
    (held (T d) (opP (F := F)).bufs W : sProp 𝕄) = iprop((srcLoc d ↦{fullShare} W r0') ∗ ((SparseCore.T d).loc main_call0_v0 ↦{fullShare} W cv') ∗ (idxLoc d ↦{fullShare} W v2')) := by
  unfold held
  show bigSep ({r0', cv', v2'} : Finset (DevRef τ sig)) _ = _
  rw [SparseCore.bigSep_insert' (by decide), SparseCore.bigSep_insert' (by decide), bigSep_singleton]

end Main

section Vals
variable [FloatOps F]
open Idealize.ShloMosaic.TcCoe
open Idealize.ShloMosaic.StableHlo (held wp_hlo_within)

theorem VR_b (d : Dev nD) : (opR (F := F)).result (V0 m d) r3' = m (bLoc d) :=
  (opR (F := F)).result_of_not_mem (V0 m d) (b := r3') (show r3' ∉ ({v0'} : Finset (DevRef τ sig)) by decide)
theorem VR_br (d : Dev nD) : (opR (F := F)).result (V0 m d) v0' = brOf (m (bLoc d)) :=
  (StableHlo.reshape_result main_arg3 main_v0 rfl shapeCasts_S128_S1x128 _ _ (V0 m d)).trans rfl

/-- the valuations after the constant and after the conversion -/
def VC (d : Dev nD) : Valuation τ sig (Elt F) := (opC (F := F)).result (V0 m d)
def VU (d : Dev nD) : Valuation τ sig (Elt F) := (opU (F := F)).result (VC m d)

theorem VC_c (d : Dev nD) : VC m d c' = constantI S_ 32 0#32 := StableHlo.nullary_result main_c _ _ (V0 m d)
theorem VC_cv (d : Dev nD) : VC m d cv' = m ((SparseCore.T d).loc main_call0_v0) :=
  (opC (F := F)).result_of_not_mem (V0 m d) (b := cv') (show cv' ∉ ({c'} : Finset (DevRef τ sig)) by decide)
theorem VU_cv (d : Dev nD) : VU m d cv' = constantI S_ 32 0#32 := by
  unfold VU
  rw [show (opU (F := F)).result (VC m d) cv' = _ from StableHlo.unary_result main_c main_call0_v0 _ _ _ (VC m d), VC_c]
  rfl
theorem VU_c (d : Dev nD) : VU m d c' = constantI S_ 32 0#32 := by
  unfold VU
  rw [(opU (F := F)).result_of_not_mem (VC m d) (b := c') (show c' ∉ ({cv'} : Finset (DevRef τ sig)) by decide), VC_c]
theorem VU_src (d : Dev nD) : VU m d r0' = m (srcLoc d) := by
  unfold VU VC
  rw [(opU (F := F)).result_of_not_mem _ (b := r0') (show r0' ∉ ({cv'} : Finset (DevRef τ sig)) by decide),
    (opC (F := F)).result_of_not_mem _ (b := r0') (show r0' ∉ ({c'} : Finset (DevRef τ sig)) by decide)]
  rfl
theorem VU_idx (d : Dev nD) : VU m d v2' = m (idxLoc d) := by
  unfold VU VC
  rw [(opU (F := F)).result_of_not_mem _ (b := v2') (show v2' ∉ ({cv'} : Finset (DevRef τ sig)) by decide),
    (opC (F := F)).result_of_not_mem _ (b := v2') (show v2' ∉ ({c'} : Finset (DevRef τ sig)) by decide)]
  rfl
theorem VP_src (d : Dev nD) : (opP (F := F)).result (VU m d) r0' = m (srcLoc d) := by
  rw [(opP (F := F)).result_of_not_mem _ (b := r0') (show r0' ∉ ({v2'} : Finset (DevRef τ sig)) by decide), VU_src]
theorem VP_idx (d : Dev nD) : (opP (F := F)).result (VU m d) v2' = idxOf (m (srcLoc d)) := by
  rw [show (opP (F := F)).result (VU m d) v2' = _ from StableHlo.binary_result main_arg0 main_call0_v0 main_v2 _ _ _ _ (VU m d)]
  rw [show VU m d (Proc.devRef .tc (main_arg0 : Ref sig .tc)) = m (srcLoc d) from VU_src m d,
    show VU m d (Proc.devRef .tc (main_call0_v0 : Ref sig .tc)) = constantI S_ 32 0#32 from VU_cv m d]
  rfl

end Vals

section Call
variable [FloatOps F]
open Idealize.ShloMosaic.TcCoe
open Idealize.ShloMosaic.StableHlo (held wp_hlo_within)

theorem heldR_after (d : Dev nD) : (held (T d) (opR (F := F)).bufs ((opR (F := F)).result (V0 m d)) : sProp 𝕄)
    = iprop((bLoc d ↦{fullShare} m (bLoc d)) ∗ (brLoc d ↦{fullShare} brOf (m (bLoc d)))) := by rw [heldR, VR_b, VR_br]
theorem heldC_after (d : Dev nD) : (held (T d) (opC (F := F)).bufs ((opC (F := F)).result (V0 m d)) : sProp 𝕄)
    = iprop(((SparseCore.T d).loc main_c ↦{fullShare} VC m d c')) := heldC d _
theorem heldU_before (d : Dev nD) : (held (T d) (opU (F := F)).bufs (VC m d) : sProp 𝕄)
    = iprop(((SparseCore.T d).loc main_c ↦{fullShare} VC m d c') ∗ ((SparseCore.T d).loc main_call0_v0 ↦{fullShare} m ((SparseCore.T d).loc main_call0_v0))) := by
  rw [heldU, VC_cv]
theorem heldU_after (d : Dev nD) : (held (T d) (opU (F := F)).bufs ((opU (F := F)).result (VC m d)) : sProp 𝕄)
    = iprop(((SparseCore.T d).loc main_c ↦{fullShare} VU m d c') ∗ ((SparseCore.T d).loc main_call0_v0 ↦{fullShare} VU m d cv')) := heldU d _
theorem heldP_before (d : Dev nD) : (held (T d) (opP (F := F)).bufs (VU m d) : sProp 𝕄)
    = iprop((srcLoc d ↦{fullShare} m (srcLoc d)) ∗ ((SparseCore.T d).loc main_call0_v0 ↦{fullShare} VU m d cv') ∗ (idxLoc d ↦{fullShare} m (idxLoc d))) := by
  rw [heldP, VU_src, VU_idx]
theorem heldP_after (d : Dev nD) : (held (T d) (opP (F := F)).bufs ((opP (F := F)).result (VU m d)) : sProp 𝕄)
    = iprop((srcLoc d ↦{fullShare} m (srcLoc d)) ∗ ((SparseCore.T d).loc main_call0_v0 ↦{fullShare} (opP (F := F)).result (VU m d) cv') ∗ (idxLoc d ↦{fullShare} idxOf (m (srcLoc d)))) := by
  rw [heldP, VP_src, VP_idx]

/-- the TensorCore's handshake state before the call, but for what it owes -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt0_eq (d : Dev nD) : ((K (F := F)).tcSt EH d 0 : sProp 𝕄) = iprop(owesTc d ∗ tcRest d) := by
  unfold SparseCore.Cfg.tcSt tcRest; rfl

/-- The call's operands, and its results, SparseCore by SparseCore. -/
theorem st0_eq (d : Dev nD) : (bigSep Finset.univ fun c : Fin ((K (F := F)).nCore 0) => (P m).st 0 d c) = iprop(stC m d 0 ∗ stC m d 1) := by
  show (bigSep (Finset.univ : Finset (Fin 2)) fun c => stC m d ((K (F := F)).core 0 c)) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c) = iprop(dnC m d 0 ∗ dnC m d 1) := by
  show (bigSep (Finset.univ : Finset (Fin 2)) fun c => dnC m d ((K (F := F)).core 0 c)) = _
  rw [show (Finset.univ : Finset (Fin 2)) = {0, 1} by decide, SparseCore.bigSep_insert' (by decide), bigSep_singleton]
  rfl

theorem two_nSC (Φ : Fin τ.nSC → sProp 𝕄) : bigSep Finset.univ Φ = iprop(Φ 0 ∗ Φ 1) := by
  show bigSep (Finset.univ : Finset (Fin 2)) Φ = _
  rw [show (Finset.univ : Finset (Fin 2)) = {0, 1} by decide, SparseCore.bigSep_insert' (by decide), bigSep_singleton]

/-- The table, the indices and the result split between the two SparseCores (the shares kept aside are dropped). -/
theorem mk_st (d : Dev nD) (tbl : Buf (Elt F) (tblLoc d)) (htbl : TableOK m d tbl) :
    iprop((tblLoc d ↦{fullShare} tbl) ∗ (idxLoc d ↦{fullShare} idxOf (m (srcLoc d))) ∗ (outLoc d ↦{fullShare} m (outLoc d)))
      ⊢ (iprop(stC m d 0 ∗ stC m d 1) : sProp 𝕄) := by
  rw [out_split, two_nSC]
  iintro ⟨Ht, Hi, ⟨Ho0, Ho1⟩⟩
  ihave Ht' := (Transfers.pointsTo_toks_split (ℓ := tblLoc d) (S := Finset.univ) (f := tbl) fullShare τ.nSC) $$ Ht
  ihave Hi' := (Transfers.pointsTo_toks_split (ℓ := idxLoc d) (S := Finset.univ) (f := idxOf (m (srcLoc d))) fullShare τ.nSC) $$ Hi
  rw [two_nSC, two_nSC]
  icases Ht' with ⟨-, Ht0, Ht1⟩
  icases Hi' with ⟨-, Hi0, Hi1⟩
  unfold stC
  isplitl [Ht0 Hi0 Ho0]
  · isplitl [Ht0]
    · iexists tbl; isplitr
      · ipureintro; exact htbl
      · iexact Ht0
    isplitl [Hi0]; · iexact Hi0
    iexact Ho0
  · isplitl [Ht1]
    · iexists tbl; isplitr
      · ipureintro; exact htbl
      · iexact Ht1
    isplitl [Hi1]; · iexact Hi1
    iexact Ho1

/-- The result's chunks joined. -/
theorem of_dn (d : Dev nD) : (iprop(dnC m d 0 ∗ dnC m d 1) : sProp 𝕄) ⊢ (outLoc d ↦{fullShare} outG m d) := by
  rw [out_split, two_nSC]
  unfold dnC
  iintro ⟨⟨-, -, Ho0⟩, ⟨-, -, Ho1⟩⟩
  isplitl [Ho0]; · iexact Ho0
  iexact Ho1

end Call

section HMain
variable [FloatOps F]
open Idealize.ShloMosaic.TcCoe
open Idealize.ShloMosaic.StableHlo (held wp_hlo_within)

/-- @main on device d's TensorCore: the bias as a row; the projection of the table (the TensorCore kernel region); the
    padded indices (a constant, a conversion, a pad); the SparseCore call from the table's and the indices' read shares
    and the result's chunks; the result joined. The four arguments are never touched. -/
theorem hmain (κ : GSem nD τ sig → ℕ) (d : Dev nD) (hpre : PreOK m) :
    iprop((K (F := F)).ctx EH (P m) κ ∗ (K (F := F)).tcSt EH d 0 ∗ (K (F := F)).tcRes m ρ d ∗ GP d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, fn_pad.body, wp_bind, wp_pure]
  iintro ⟨#Hctx, Hst, ⟨Hb, ⟨Hsrc, Hfm, Hw, Hbb, Hbr, Htbl, Hc, Hcv, Hidx, Hout⟩, -, -⟩, HGP⟩
  -- the bias as a row
  iapply (wp_hlo_within 𝒱 (T d) none Set.univ (op := opR) (S := (opR (F := F)).bufs) subset_rfl (V := V0 m d)) $$ [Hb Hbb Hbr]
  · isplitl [Hb]; · iexact Hb
    rw [heldR]
    isplitl [Hbb]; · iexact Hbb
    iexact Hbr
  iintro ⟨Hb, Hheld⟩
  ihave Hh := (Entails.of_eq (heldR_after m d)) $$ Hheld
  icases Hh with ⟨Hbb, Hbr⟩
  rw [wp_ret]; imodintro
  -- the table's projection: the TensorCore kernel region
  ihave Hst' := (Entails.of_eq (tcSt0_eq d)) $$ Hst
  icases Hst' with ⟨HO, Hrest⟩
  iapply (wp_region m d _)
  isplitr
  · iapply (SparseCore.Cfg.ctx_levAts (K := K (F := F)) (EH := EH) (P := P m) κ); iexact Hctx
  isplitl [Hb]; · iexact Hb
  isplitl [Hfm Hw Hbr Htbl HO]
  · unfold regPre
    isplitl [Hfm]; · iexact Hfm
    isplitl [Hw]; · iexact Hw
    isplitl [Hbr]; · iexact Hbr
    isplitl [Htbl]; · iexact Htbl
    iexact HO
  isplitl [HGP]; · iexact HGP
  iintro ⟨Hb, Hpost⟩
  unfold regPost
  icases Hpost with ⟨Hfm, Hw, Hbr, ⟨%tbl, %htbl, Htbl⟩, HO⟩
  -- the padded indices
  iapply (wp_hlo_within 𝒱 (T d) none Set.univ (op := opC) (S := (opC (F := F)).bufs) subset_rfl (V := V0 m d)) $$ [Hb Hc]
  · isplitl [Hb]; · iexact Hb
    rw [heldC]; iexact Hc
  iintro ⟨Hb, Hheld⟩
  ihave Hh := (Entails.of_eq (heldC_after m d)) $$ Hheld
  rw [wp_ret]; imodintro
  iapply (wp_hlo_within 𝒱 (T d) none Set.univ (op := opU) (S := (opU (F := F)).bufs) subset_rfl (V := VC m d)) $$ [Hb Hh Hcv]
  · isplitl [Hb]; · iexact Hb
    rw [heldU_before]
    isplitl [Hh]; · iexact Hh
    iexact Hcv
  iintro ⟨Hb, Hheld⟩
  ihave Hh := (Entails.of_eq (heldU_after m d)) $$ Hheld
  icases Hh with ⟨Hc, Hcv⟩
  rw [wp_ret]; imodintro
  iapply (wp_hlo_within 𝒱 (T d) none Set.univ (op := opP) (S := (opP (F := F)).bufs) subset_rfl (V := VU m d)) $$ [Hb Hsrc Hcv Hidx]
  · isplitl [Hb]; · iexact Hb
    rw [heldP_before]
    isplitl [Hsrc]; · iexact Hsrc
    isplitl [Hcv]; · iexact Hcv
    iexact Hidx
  iintro ⟨Hb, Hheld⟩
  ihave Hh := (Entails.of_eq (heldP_after m d)) $$ Hheld
  icases Hh with ⟨Hsrc, Hcv, Hidx⟩
  rw [wp_ret]; imodintro; imodintro
  -- the call
  iapply ((K (F := F)).wp_run (D (F := F)) 𝒱 (EH := EH) (P := P m) κ d 0) $$ [HO Hrest Htbl Hidx Hout Hsrc Hfm Hw Hbb]
  isplitr; · iexact Hctx
  isplitl [HO Hrest]
  · rw [show ((0 : Fin 1).val) = 0 from rfl, tcSt0_eq]
    isplitl [HO]; · iexact HO
    iexact Hrest
  isplitl [Htbl Hidx Hout]
  · rw [st0_eq]
    iapply (mk_st m d tbl htbl)
    isplitl [Htbl]; · iexact Htbl
    isplitl [Hidx]; · iexact Hidx
    iexact Hout
  iintro ⟨Hst, Hdn⟩
  ihave Hdn' := (Entails.of_eq (dn0_eq m d)) $$ Hdn
  ihave Ho := (of_dn m d) $$ Hdn'
  imodintro
  isplitl [Hst]; · iexact Hst
  unfold FIN
  isplitl [Hsrc]; · iexact Hsrc
  isplitl [Hfm]; · iexact Hfm
  isplitl [Hw]; · iexact Hw
  isplitl [Hbb]; · iexact Hbb
  iexact Ho

end HMain

end Cert.Proof.KB

end
-- ==== Proof.KBTileAll.lean ====
/-
  Every tile's obligation. The 32 tiles are workers 0 .. 31 (worker 2 s + c on subcore s of SparseCore c): workers 0 .. 30
  have all their 504 chunks and run the loop under the invariant of the full trips; worker 31 = (1, 15) has one chunk.
  With the region on the TensorCore, the launch element and @main's proof this is everything the launch theorem asks.
-/
import proofs.«203041_g70987219468541_cont_9to1_m_1244_31_alg».proof.Proof.KBTrip
import proofs.«203041_g70987219468541_cont_9to1_m_1244_31_alg».proof.Proof.KBTileMain
import proofs.«203041_g70987219468541_cont_9to1_m_1244_31_alg».proof.Proof.KBTileLast
import proofs.«203041_g70987219468541_cont_9to1_m_1244_31_alg».proof.Proof.KBTileLastAll
import proofs.«203041_g70987219468541_cont_9to1_m_1244_31_alg».proof.Proof.KBRegion2
import proofs.«203041_g70987219468541_cont_9to1_m_1244_31_alg».proof.Proof.KBLaunch
import Idealize.ShloMosaic.Lib.SparseCore.Stream

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

theorem hbody (hpre : PreOK m) (d : Dev nD) (c : Fin (grid1.bound 0)) (s : Fin (grid1.bound 1))
    (O : CellTallies nD τ sig (HIx 1)) (W : Waits sig (HIx 1)) (hO : ∀ g, O g none = 0)
    (hlev : ∀ g ι, 0 < O g ι → 8 * (0 : Fin 1).val + 6 ≤ (K (F := F)).lev g ι) : TileSpec m d c s O W := by
  by_cases hw : 2 * s.val + c.val ≤ 30
  · exact tile_main.{1, 1} m hpre d c s hw O W hO hlev (fun tblS htbl W₀ k => trip.{1, 1} m hpre d c s hw tblS htbl O W₀ k)
  · have hc : c.val < 2 := c.isLt
    have hs : s.val < 16 := s.isLt
    obtain rfl : c = c31 := Fin.ext (by show c.val = 1; omega)
    obtain rfl : s = s31 := Fin.ext (by show s.val = 15; omega)
    exact tile_last m hpre d O W hO hlev

/-- the TensorCore pipeline's part of the launch element funds its cells, as an update at the full mask -/
theorem gp_fund' : (BI.own (EP (F := F) (pInit (F := F))) : sProp 𝕄) ⊢ |={Set.univ}=> bigSep Finset.univ (GP (F := F)) :=
by
  iintro H
  imod (gp_fund (F := F)) $$ H with H'
  imodintro
  iexact H'

end Cert.Proof.KB

end
-- ==== Proof.ProjValue.lean ====
/-
  The projected table is the specification's, entry by entry. The region's payload at (a, col) is the block
  product of the 119 feature rows with the weights into a zero accumulator — the sum over the three features of
  `fm a k · W k col` — plus the bias row broadcast to every one of the 119 rows, which reads `b col`. The looked-up
  result, row `r` being the table's row the r-th index names, is then the specification's function of the four
  argument arrays.
-/
import proofs.«203041_g70987219468541_cont_9to1_m_1244_31_alg».proof.Proof.Pay
import Idealize.ShloMosaic.Lib.ValueLayout
import Idealize.ShloMosaic.PureOps.Ideal.Laws

noncomputable section

open scoped BigOperators

namespace Cert.Proof.KI

open Cert.KernelIdeal Cert.KernelIdeal.Gen
open Idealize.ShloMosaic Idealize.ShloMosaic.ValueIdx

/-- The block product at `(a, col)`: the sum over the three features. -/
theorem matmul_apply_at (v0 : FVec Ideal S119x3 .f32) (v1 : FVec Ideal S3x128 .f32) (a : Fin 119) (col : Fin 128) :
    FloatOps.matmul dot_S119x3_S3x128_S119x128_1_0_0_1_n_n none v0 v1 (constant (F := Ideal) S119x128 .f32 0x00000000#32) (ix2 a col)
      = ∑ k : Fin 3, v0 (ix2 a k) * v1 (ix2 k col) := by
  rw [Ideal.matmul_constant_zero_apply,
    ← Equiv.sum_comp (contrEquiv1 dot_S119x3_S3x128_S119x128_1_0_0_1_n_n 3 rfl rfl).symm]
  refine Finset.sum_congr rfl fun k _ => ?_
  have hl : DotDims.lhsIdx dot_S119x3_S3x128_S119x128_1_0_0_1_n_n (ix2 a col)
      ((contrEquiv1 dot_S119x3_S3x128_S119x128_1_0_0_1_n_n 3 rfl rfl).symm k) = ix2 a k := by
    funext x; refine Fin.ext ?_
    match x with
    | ⟨0, _⟩ => rfl
    | ⟨1, _⟩ =>
      show (DotDims.lhsIdx dot_S119x3_S3x128_S119x128_1_0_0_1_n_n (ix2 a col)
        ((contrEquiv1 dot_S119x3_S3x128_S119x128_1_0_0_1_n_n 3 rfl rfl).symm k) 1).val = k.val
      rw [DotDims.lhsIdx_val_of_single dot_S119x3_S3x128_S119x128_1_0_0_1_n_n (cl := 1) rfl]
      exact contrEquiv1_symm_val dot_S119x3_S3x128_S119x128_1_0_0_1_n_n 3 rfl rfl k
  have hr : DotDims.rhsIdx dot_S119x3_S3x128_S119x128_1_0_0_1_n_n (ix2 a col)
      ((contrEquiv1 dot_S119x3_S3x128_S119x128_1_0_0_1_n_n 3 rfl rfl).symm k) = ix2 k col := by
    funext x; refine Fin.ext ?_
    match x with
    | ⟨0, _⟩ =>
      show (DotDims.rhsIdx dot_S119x3_S3x128_S119x128_1_0_0_1_n_n (ix2 a col)
        ((contrEquiv1 dot_S119x3_S3x128_S119x128_1_0_0_1_n_n 3 rfl rfl).symm k) 0).val = k.val
      rw [DotDims.rhsIdx_val_of_single dot_S119x3_S3x128_S119x128_1_0_0_1_n_n (cr := 0) rfl]
      exact contrEquiv1_symm_val dot_S119x3_S3x128_S119x128_1_0_0_1_n_n 3 rfl rfl k
    | ⟨1, _⟩ => rfl
  rw [hl, hr]

/-- The bias as a row, cast to its own shape and broadcast to the 119 rows, reads `b col` at `(a, col)`. -/
theorem biasBlock_apply (b : FVec Ideal S128 .f32) (h1 : S1x128.ShapeCasts S1x128) (h2 : S1x128.Broadcasts S119x128)
    (a : Fin 119) (col : Fin 128) :
    broadcastTo S119x128 (shapeCast S1x128 (brOf (F := Ideal) b) h1) h2 (ix2 a col) = b (ix1 col) := by
  rw [shapeCast_self, broadcastTo_1b_ab_apply]
  exact shapeCast_a_1a_apply b _ 0 col

/-- The region's payload at `(a, col)`. -/
theorem pay_apply (v0 : FVec Ideal S119x3 .f32) (v1 : FVec Ideal S3x128 .f32) (b : FVec Ideal S128 .f32) (a : Fin 119) (col : Fin 128) :
    k0_pay1 (F := Ideal) v0 v1 (brOf (F := Ideal) b) (ix2 a col) = (∑ k : Fin 3, v0 (ix2 a k) * v1 (ix2 k col)) + b (ix1 col) := by
  show FloatOps.matmul dot_S119x3_S3x128_S119x128_1_0_0_1_n_n none v0 v1 (constant (F := Ideal) S119x128 .f32 0x00000000#32) (ix2 a col)
      + broadcastTo S119x128 (shapeCast S1x128 (brOf (F := Ideal) b) _) _ (ix2 a col) = _
  rw [matmul_apply_at, biasBlock_apply]

/-- Entry `(a, col)` of the projected table is the specification's. -/
theorem projAt_eq (m : (ℓ : Loc nD τ sig) → Buf (Elt Ideal) ℓ) (d : Dev nD) (a : Fin 119) (col : Fin 128) :
    projAt (F := Ideal) m d a col = Cert.Proof.Spec.tableAt (m (fmLoc d)) (m (wLoc d)) (m (bLoc d)) a col :=
  pay_apply (m (fmLoc d)) (m (wLoc d)) (m (bLoc d)) a col

/-- The looked-up result is the specification's function of the four argument arrays. -/
theorem outG_eq (m : (ℓ : Loc nD τ sig) → Buf (Elt Ideal) ℓ) (d : Dev nD) :
    outG (F := Ideal) m d = Cert.Proof.Spec.G (m (srcLoc d)) (m (fmLoc d)) (m (wLoc d)) (m (bLoc d)) :=
  funext fun j => projAt_eq m d (Cert.Proof.Spec.rowOf (m (srcLoc d) (ix1 (j 0)))) (j 1)

end Cert.Proof.KI

end
-- ==== Proof.RefValue.lean ====
/-
  The reference's composed term is the specification's function, entry by entry. Under the precondition every
  index word is its own unsigned value and at most 118: it is not negative, so the wrap leaves it; it lies in
  [0, 118], so its validity bit is set and the select keeps the gathered row; the gather's clamp into [0, 118]
  does nothing, so the row gathered is row `src r` of the features. The product with the weights at (r, c) is then
  the sum over the three features of that row against column c, and the bias broadcast to every row adds `b c`.
-/
import proofs.«203041_g70987219468541_cont_9to1_m_1244_31_alg».proof.Proof.RefRun
import proofs.«203041_g70987219468541_cont_9to1_m_1244_31_alg».proof.Proof.Spec
import Idealize.ShloMosaic.Lib.ValueIdx
import Idealize.ShloMosaic.Lib.Affine
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Idealize.ShloMosaic Idealize.ShloMosaic.ValueIdx Cert.Proof.Spec
open Cert.ReferenceIdeal.Facts₀

local notation "gd" => gather_S119x3_S2000000x1_S2000000x3_1_0_n_n_0_1_13
local notation "dd" => dot_S2000000x3_S3x128_S2000000x128_1_0_0_1_n_n

/-! ## Words -/

/-- A 32-bit word of unsigned value at most 118 reads the same signed. -/
theorem toInt_of_le {v : BitVec 32} (h : v.toNat ≤ 118) : v.toInt = (v.toNat : Int) :=
  BitVec.toInt_eq_toNat_of_lt (by omega)

/-- Such a word is not negative (signed). -/
theorem slt_zero_of_le {v : BitVec 32} (h : v.toNat ≤ 118) : IntOp.cmpi .slt v 0#32 = 0#1 := by
  refine eq_zero_of_ne_one fun e => ?_
  rw [IntOp.cmpi_slt, toInt_of_le h, show (0#32 : BitVec 32).toInt = 0 from by decide] at e
  omega

/-- It is at least 0 (signed). -/
theorem sge_zero_of_le {v : BitVec 32} (h : v.toNat ≤ 118) : IntOp.cmpi .sge v 0#32 = 1#1 := by
  rw [IntOp.cmpi_sge, toInt_of_le h, show (0#32 : BitVec 32).toInt = 0 from by decide]
  omega

/-- It is at most 118 (signed). -/
theorem sle_of_le {v : BitVec 32} (h : v.toNat ≤ 118) : IntOp.cmpi .sle v 118#32 = 1#1 := by
  rw [IntOp.cmpi_sle, toInt_of_le h, show (118#32 : BitVec 32).toInt = 118 from by decide]
  omega

/-- A fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## The stages at an index -/

/-- Under the precondition the wrap leaves every index word as it is. -/
theorem wrapIdx_apply (a0 : IVec S2000000 32) (h : InRange a0) (r : Fin 2000000) :
    wrapIdx a0 (ix1 r) = a0 (ix1 r) := by
  show Scalar.select (IntOp.cmpi .slt (a0 (ix1 r)) 0#32) _ _ = _
  rw [slt_zero_of_le (h r), select_zero]

/-- The column of start indices at row `r` holds the wrapped index of row `r`. -/
theorem colIdx_apply (a0 : IVec S2000000 32) (r : Fin 2000000) (z : Fin 1) : colIdx a0 (ix2 r z) = wrapIdx a0 (ix1 r) := by
  unfold colIdx
  refine broadcastInDim_apply _ _ _ (ix2 r z) (ix1 r) fun a => ?_
  obtain rfl : a = 0 := Subsingleton.elim _ _
  rfl

/-- Under the precondition every row's validity bit is set. -/
theorem validMask_apply (a0 : IVec S2000000 32) (h : InRange a0) (j : S2000000.Idx) : validMask a0 j = 1#1 := by
  unfold validMask
  rw [Host.reduce_eq_foldl]
  refine foldl_andi_one _ (fun i => ?_) _
  obtain ⟨r, z, rfl⟩ : ∃ (r : Fin 2000000) (z : Fin 1), i = ix2 r z := ⟨i 0, i 1, eq_ix2 i⟩
  show IntOp.andi (IntOp.cmpi .sge (colIdx a0 (ix2 r z)) 0#32) (IntOp.cmpi .sle (colIdx a0 (ix2 r z)) 118#32) = 1#1
  rw [colIdx_apply, wrapIdx_apply a0 h, sge_zero_of_le (h r), sle_of_le (h r)]
  decide

/-- The table row a start index names: read signed and clamped into [0, 118]. -/
def clampRow (v : BitVec 32) : Fin 119 := ⟨min v.toInt.toNat 118, by omega⟩

/-- A word of unsigned value at most 118 names its own row: the clamp does nothing. -/
theorem clampRow_eq_rowOf {v : BitVec 32} (h : v.toNat ≤ 118) : clampRow v = rowOf v :=
  Fin.ext (by show min v.toInt.toNat 118 = min v.toNat 118; rw [toInt_of_le h, Int.toNat_natCast])

/-- The gather at `(r, k)`: feature `k` of the table row the start index of row `r` names, read signed and clamped
    into [0, 118]. -/
theorem gather_apply (a1 : FVec Ideal S119x3 .f32) (idx : IVec S2000000x1 32) (r : Fin 2000000) (k : Fin 3) :
    Host.gather gd a1 idx (ix2 r k) = a1 (ix2 (clampRow (idx (ix2 r 0))) k) := by
  unfold Host.gather
  congr 1
  funext a
  refine Fin.ext ?_
  match a with
  | ⟨0, _⟩ =>
    show GatherDims.start gd (ix2 r k) idx 0 + GatherDims.batchCoord gd (ix2 r k) 0 + GatherDims.offCoord gd (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap gd) from List.mem_singleton.mpr rfl)]
    have hsi : GatherDims.siIdx gd (ix2 r k) ⟨List.idxOf (0 : Fin 2) (GatherDims.startIndexMap gd),
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show GatherDims.start gd (ix2 r k) idx 1 + GatherDims.batchCoord gd (ix2 r k) 1 + GatherDims.offCoord gd (ix2 r k) 1 = _
    rw [GatherDims.batchCoord_eq_zero _ _ _ List.not_mem_nil]
    unfold GatherDims.start
    rw [dif_neg (show (1 : Fin 2) ∉ (GatherDims.startIndexMap gd) from by decide)]
    simp only [Nat.add_zero, Nat.zero_add]
    rfl

/-- Under the precondition the looked-up row `r` is row `src r` of the features. -/
theorem taken_apply (a0 : IVec S2000000 32) (a1 : FVec Ideal S119x3 .f32) (h : InRange a0) (r : Fin 2000000) (k : Fin 3) :
    taken a0 a1 (ix2 r k) = a1 (ix2 (rowOf (a0 (ix1 r))) k) := by
  unfold taken
  rw [select_apply]
  have hm : broadcastInDim S2000000x3 ![0] bcast_S2000000_S2000000x3_0 (validMask a0) (ix2 r k) = 1#1 := by
    rw [broadcastInDim_apply _ _ _ (ix2 r k) (ix1 r) (fun a => by obtain rfl : a = 0 := Subsingleton.elim _ _; rfl)]
    exact validMask_apply a0 h _
  rw [hm, select_one, gather_apply, colIdx_apply, wrapIdx_apply a0 h, clampRow_eq_rowOf (h r)]

/-- The bias on every row, read at `(r, c)`. -/
theorem biasRows_apply (a3 : FVec Ideal S128 .f32) (r : Fin 2000000) (c : Fin 128) : biasRows a3 (ix2 r c) = a3 (ix1 c) := by
  unfold biasRows
  rw [broadcastInDim_apply _ _ _ (ix2 r c) (ix2 (0 : Fin 1) c) (fun a => by
    match a with
    | ⟨0, _⟩ => rfl
    | ⟨1, _⟩ => rfl)]
  exact broadcastInDim_apply _ _ _ (ix2 (0 : Fin 1) c) (ix1 c) (fun a => by
    obtain rfl : a = 0 := Subsingleton.elim _ _
    rfl)

/-- The product with the weights at `(r, c)`: the sum over the three features. -/
theorem dot_apply (l : FVec Ideal S2000000x3 .f32) (a2 : FVec Ideal S3x128 .f32) (r : Fin 2000000) (c : Fin 128) :
    Host.dotGeneral dd none l a2 (ix2 r c) = ∑ k : Fin 3, l (ix2 r k) * a2 (ix2 k c) := by
  simp only [Host.dotGeneral]
  rw [Ideal.dotGeneral_apply, ← Equiv.sum_comp (contrEquiv1 dd 3 rfl rfl).symm]
  refine Finset.sum_congr rfl fun k _ => ?_
  have hl : DotDims.lhsIdx dd (ix2 r c) ((contrEquiv1 dd 3 rfl rfl).symm k) = ix2 r k := by
    funext a; refine Fin.ext ?_
    match a with
    | ⟨0, _⟩ => rfl
    | ⟨1, _⟩ =>
      show (DotDims.lhsIdx dd (ix2 r c) ((contrEquiv1 dd 3 rfl rfl).symm k) 1).val = k.val
      rw [DotDims.lhsIdx_val_of_single dd (cl := 1) rfl]
      exact contrEquiv1_symm_val dd 3 rfl rfl k
  have hr : DotDims.rhsIdx dd (ix2 r c) ((contrEquiv1 dd 3 rfl rfl).symm k) = ix2 k c := by
    funext a; refine Fin.ext ?_
    match a with
    | ⟨0, _⟩ =>
      show (DotDims.rhsIdx dd (ix2 r c) ((contrEquiv1 dd 3 rfl rfl).symm k) 0).val = k.val
      rw [DotDims.rhsIdx_val_of_single dd (cr := 0) rfl]
      exact contrEquiv1_symm_val dd 3 rfl rfl k
    | ⟨1, _⟩ => rfl
  rw [hl, hr]

/-! ## The composed term is the specification's function -/

/-- The composed term at an index: the product's entry plus the bias row's. -/
theorem refTerm_apply (a0 : IVec S2000000 32) (a1 : FVec Ideal S119x3 .f32) (a2 : FVec Ideal S3x128 .f32) (a3 : FVec Ideal S128 .f32)
    (j : S2000000x128.Idx) :
    refTerm a0 a1 a2 a3 j = Host.dotGeneral dd none (taken a0 a1) a2 j + biasRows a3 j :=
  addf_apply (Host.dotGeneral dd none (taken a0 a1) a2) (biasRows a3) j

/-- Under the precondition the reference's result is `G` of the four arguments. -/
theorem refTerm_eq_G (a0 : IVec S2000000 32) (a1 : FVec Ideal S119x3 .f32) (a2 : FVec Ideal S3x128 .f32) (a3 : FVec Ideal S128 .f32)
    (h : InRange a0) : refTerm a0 a1 a2 a3 = G a0 a1 a2 a3 := by
  funext j
  obtain ⟨r, c, rfl⟩ : ∃ r c, j = ix2 r c := ⟨j 0, j 1, eq_ix2 j⟩
  have hs : ∀ k : Fin 3, taken a0 a1 (ix2 r k) = a1 (ix2 (rowOf (a0 (ix1 r))) k) := fun k => taken_apply a0 a1 h r k
  rw [refTerm_apply, dot_apply, biasRows_apply, G_apply]
  rw [tableAt]
  rw [show (∑ k : Fin 3, taken a0 a1 (ix2 r k) * a2 (ix2 k c)) = ∑ k : Fin 3, a1 (ix2 (rowOf (a0 (ix1 r))) k) * a2 (ix2 k c)
    from Finset.sum_congr rfl (fun k _ => by rw [hs k])]

end Cert.ReferenceIdeal.RefValue

end
-- ==== Proof.lean ====
/-
  The proof of `Cert.Claim`: the three frames, the sanctioned idealization, and the agreement of kernel and reference
  at the ideal instance.

  The computation. A lookup `src` of 2,000,000 indices into a table of 119 rows of 3 features, followed by a dense
  layer to 128 columns: entry (r, c) of the result is Σ_k fm[src r, k] · W[k, c] + b[c]. The reference looks the rows
  up first and projects them afterwards; the kernel projects the whole table once (119 rows, held in a 128-row array)
  and then looks projected rows up. Because the layer acts row by row the two orders give the same entry — the same
  sum of the same three products in the same order plus the same bias — so no finiteness of the floats is needed,
  only that every index names a row of the table, which is what the precondition says (`PreDecode`).

  How the proof is cut. The function both sides compute is stated once, over literal shapes (`Spec.G`). The reference:
  its run as a straight line of host operations (`RefRun`) and its composed term read as `G` (`RefValue`). The kernel
  program, at the ideal instance's names and again at the printed program's (the same text): the TensorCore region
  that writes the projected table, as a pipeline of one point (`Region`, `Region2`, with its value `ProjValue`); the
  launch of the one SparseCore call — the launch element of the ghost state, the sequencer's split of the operands among
  its sixteen tiles, the chunks of the result as a partition (`Chunks`, `Launch`); and the tiles. A tile's run: tile 0
  of each SparseCore copies the table into shared memory and all sixteen meet at the subcore barrier, where tile 0's
  arrival hands each tile a read share of the shared table (`TileBarrier`); then 72 trips of seven slots, each slot
  waiting for its previous copy-out, gathering 128 rows of the shared table by a list of staged indices, and copying
  them out to the result's chunk, under an invariant that names what is in flight before each trip (`TileInv`). The
  trips come in five kinds by what they do for the index prefetch (`TripA` … `TripE`, assembled in `Trip`); the worker
  whose chunks do not all exist is handled apart (`TileLast`). `TileAll` gives every tile's obligation and `Assemble`
  puts the pieces under the launch theorem and reads the five claims off the two runs.
-/
import proofs.«203041_g70987219468541_cont_9to1_m_1244_31_alg».proof.Defs
import proofs.«203041_g70987219468541_cont_9to1_m_1244_31_alg».proof.Proof.Assemble
import proofs.«203041_g70987219468541_cont_9to1_m_1244_31_alg».proof.Proof.TileAll
import proofs.«203041_g70987219468541_cont_9to1_m_1244_31_alg».proof.Proof.KBTileAll
import proofs.«203041_g70987219468541_cont_9to1_m_1244_31_alg».proof.Proof.ProjValue
import proofs.«203041_g70987219468541_cont_9to1_m_1244_31_alg».proof.Proof.RefValue
import Idealize.ShloMosaic.Adequacy
import Idealize.ShloMosaic.Init

noncomputable section

namespace Cert.Proof

open Idealize.ShloMosaic Idealize.SL.Sem

/-- The pieces of the printed program's run, at a launch memory of which the precondition holds. -/
def piecesB (m : (ℓ : Loc Cert.Kernel.nD Cert.Kernel.τ Cert.Kernel.sig) → Buf (Elt Bits) ℓ) (ρ : Dev Cert.Kernel.nD → PrngReg)
    (hpre : KB.PreOK m) : KB.Pieces (F := Bits) m ρ :=
  ⟨KB.pInit (F := Bits), KB.GP (F := Bits), KB.gp_fund' (F := Bits),
    fun d c s O W hO hlev => KB.hbody m hpre d c s O W hO hlev, fun κ d => KB.hmain m ρ κ d hpre⟩

/-- The pieces of the run at the ideal instance. -/
def piecesI (m : (ℓ : Loc Cert.KernelIdeal.nD Cert.KernelIdeal.τ Cert.KernelIdeal.sig) → Buf (Elt Ideal) ℓ) (ρ : Dev Cert.KernelIdeal.nD → PrngReg)
    (hpre : KI.PreOK m) : KI.Pieces (F := Ideal) m ρ :=
  ⟨KI.pInit (F := Ideal), KI.GP (F := Ideal), KI.gp_fund' (F := Ideal),
    fun d c s O W hO hlev => KI.hbody m hpre d c s O W hO hlev, fun κ d => KI.hmain m ρ κ d hpre⟩

theorem claim : Cert.Claim :=
  claim_of piecesB piecesI Cert.ReferenceIdeal.RefValue.refTerm_eq_G Cert.Proof.KI.outG_eq

end Cert.Proof

end
